-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v425)) (v1 : (c : Dev Cert.KernelIdeal.nD) → Buf (Elt Ideal) ((c.tc : Thread Cert.KernelIdeal.nD Cert.KernelIdeal.τ).loc Cert.KernelIdeal.main_v427)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v425) = v0 c
          ∧ r.2.mem ((c.tc : Thread Cert.KernelIdeal.nD Cert.KernelIdeal.τ).loc Cert.KernelIdeal.main_v427) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v555) = v0 c
          ∧ r.2.mem ((c.tc : Thread Cert.ReferenceIdeal.nD Cert.ReferenceIdeal.τ).loc Cert.ReferenceIdeal.main_v559) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x32 : Shape := ⟨2, ![131072, 32]⟩
abbrev S32768x32 : Shape := ⟨2, ![32768, 32]⟩
abbrev S32x64 : Shape := ⟨2, ![32, 64]⟩
abbrev S64 : Shape := ⟨1, ![64]⟩
abbrev S2x64 : Shape := ⟨2, ![2, 64]⟩
abbrev S2x5x64x64 : Shape := ⟨4, ![2, 5, 64, 64]⟩
abbrev S2x5x64 : Shape := ⟨3, ![2, 5, 64]⟩
abbrev S64x32 : Shape := ⟨2, ![64, 32]⟩
abbrev S32 : Shape := ⟨1, ![32]⟩
abbrev S2x2097152 : Shape := ⟨2, ![2, 2097152]⟩
abbrev S65536 : Shape := ⟨1, ![65536]⟩
abbrev S_ : Shape := ⟨0, ![]⟩

class Facts : Prop where
  bcast_S_S131072x32 : S_.BroadcastsInDim S131072x32 (![] : Fin 0 → Fin S131072x32.rank)
  reducesTo_S131072x32_S_d0_1 : S131072x32.ReducesTo [0, 1] S_
  h_S_ : 0 < S_.numel
  bcast_S_S32768x32 : S_.BroadcastsInDim S32768x32 (![] : Fin 0 → Fin S32768x32.rank)
  reducesTo_S32768x32_S_d0_1 : S32768x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S2x64 : S_.BroadcastsInDim S2x64 (![] : Fin 0 → Fin S2x64.rank)
  reducesTo_S2x64_S_d0_1 : S2x64.ReducesTo [0, 1] S_
  bcast_S_S2x5x64x64 : S_.BroadcastsInDim S2x5x64x64 (![] : Fin 0 → Fin S2x5x64x64.rank)
  reducesTo_S2x5x64x64_S_d0_1_2_3 : S2x5x64x64.ReducesTo [0, 1, 2, 3] S_
  bcast_S_S2x5x64 : S_.BroadcastsInDim S2x5x64 (![] : Fin 0 → Fin S2x5x64.rank)
  reducesTo_S2x5x64_S_d0_1_2 : S2x5x64.ReducesTo [0, 1, 2] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part5 {F : FTy → Type} [FloatOps F] (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  main_v88

def fn_part4 {F : FTy → Type} [FloatOps F] (main_arg14 : FVec F S64x32 .f32) (main_arg15 : FVec F S32 .f32) (main_arg16 : FVec F S64x32 .f32) (main_arg17 : FVec F S32 .f32) (main_v63 : IVec S_ 1) (main_v67 : IVec S_ 1) : IVec S_ 1 :=
  let main_v68 : IVec S_ 1 := andi main_v63 main_v67
  let main_v69 : FVec F S64x32 .f32 := Host.absf main_arg14
  let main_cst_26 : FVec F S_ .f32 := constant S_ .f32 0x7F800000#32
  let main_v70 : FVec F S64x32 .f32 := broadcastInDim S64x32 ![] bcast_S_S64x32 main_cst_26
  let main_v71 : IVec S64x32 1 := cmpf .olt main_v69 main_v70
  let main_c_27 : IVec S_ 1 := constantI S_ 1 1#1
  let main_v72 : IVec S_ 1 := (fun x v => Host.reduce IntOp.andi x v reducesTo_S64x32_S_d0_1 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S64x32 .f32 := Host.absf main_arg16
  let main_cst_30 : FVec F S_ .f32 := constant S_ .f32 0x7F800000#32
  let main_v80 : FVec F S64x32 .f32 := broadcastInDim S64x32 ![] bcast_S_S64x32 main_cst_30
  let main_v81 : IVec S64x32 1 := cmpf .olt main_v79 main_v80
  let main_c_31 : IVec S_ 1 := constantI S_ 1 1#1
  let main_v82 : IVec S_ 1 := (fun x v => Host.reduce IntOp.andi x v reducesTo_S64x32_S_d0_1 h_S_) main_v81 main_c_31
  let main_v83 : IVec S_ 1 := andi main_v78 main_v82
  let main_v84 : FVec F S32 .f32 := Host.absf main_arg17
  let main_cst_32 : FVec F S_ .f32 := constant S_ .f32 0x7F800000#32
  fn_part5 (F := F) main_v83 main_v84 main_cst_32

def fn_part3 {F : FTy → Type} [FloatOps F] (main_arg11 : FVec F S2x5x64 .f32) (main_arg12 : FVec F S2x5x64x64 .f32) (main_arg13 : FVec F S2x5x64 .f32) (main_arg14 : FVec F S64x32 .f32) (main_arg15 : FVec F S32 .f32) (main_arg16 : FVec F S64x32 .f32) (main_arg17 : FVec F S32 .f32) (main_v48 : IVec S_ 1) (main_v49 : FVec F S2x5x64x64 .f32) (main_v50 : FVec F S2x5x64x64 .f32) : IVec S_ 1 :=
  let main_v51 : IVec S2x5x64x64 1 := cmpf .olt main_v49 main_v50
  let main_c_19 : IVec S_ 1 := constantI S_ 1 1#1
  let main_v52 : IVec S_ 1 := (fun x v => Host.reduce IntOp.andi x v reducesTo_S2x5x64x64_S_d0_1_2_3 h_S_) main_v51 main_c_19
  let main_v53 : IVec S_ 1 := andi main_v48 main_v52
  let main_v54 : FVec F S2x5x64 .f32 := Host.absf main_arg11
  let main_cst_20 : FVec F S_ .f32 := constant S_ .f32 0x7F800000#32
  let main_v55 : FVec F S2x5x64 .f32 := broadcastInDim S2x5x64 ![] bcast_S_S2x5x64 main_cst_20
  let main_v56 : IVec S2x5x64 1 := cmpf .olt main_v54 main_v55
  let main_c_21 : IVec S_ 1 := constantI S_ 1 1#1
  let main_v57 : IVec S_ 1 := (fun x v => Host.reduce IntOp.andi x v reducesTo_S2x5x64_S_d0_1_2 h_S_) main_v56 main_c_21
  let main_v58 : IVec S_ 1 := andi main_v53 main_v57
  let main_v59 : FVec F S2x5x64x64 .f32 := Host.absf main_arg12
  let main_cst_22 : FVec F S_ .f32 := constant S_ .f32 0x7F800000#32
  let main_v60 : FVec F S2x5x64x64 .f32 := broadcastInDim S2x5x64x64 ![] bcast_S_S2x5x64x64 main_cst_22
  let main_v61 : IVec S2x5x64x64 1 := cmpf .olt main_v59 main_v60
  let main_c_23 : IVec S_ 1 := constantI S_ 1 1#1
  let main_v62 : IVec S_ 1 := (fun x v => Host.reduce IntOp.andi x v reducesTo_S2x5x64x64_S_d0_1_2_3 h_S_) main_v61 main_c_23
  let main_v63 : IVec S_ 1 := andi main_v58 main_v62
  let main_v64 : FVec F S2x5x64 .f32 := Host.absf main_arg13
  let main_cst_24 : FVec F S_ .f32 := constant S_ .f32 0x7F800000#32
  let main_v65 : FVec F S2x5x64 .f32 := broadcastInDim S2x5x64 ![] bcast_S_S2x5x64 main_cst_24
  let main_v66 : IVec S2x5x64 1 := cmpf .olt main_v64 main_v65
  let main_c_25 : IVec S_ 1 := constantI S_ 1 1#1
  let main_v67 : IVec S_ 1 := (fun x v => Host.reduce IntOp.andi x v reducesTo_S2x5x64_S_d0_1_2 h_S_) main_v66 main_c_25
  fn_part4 (F := F) main_arg14 main_arg15 main_arg16 main_arg17 main_v63 main_v67

def fn_part2 {F : FTy → Type} [FloatOps F] (main_arg7 : FVec F S2x64 .f32) (main_arg8 : FVec F S2x64 .f32) (main_arg9 : FVec F S2x64 .f32) (main_arg10 : FVec F S2x5x64x64 .f32) (main_arg11 : FVec F S2x5x64 .f32) (main_arg12 : FVec F S2x5x64x64 .f32) (main_arg13 : FVec F S2x5x64 .f32) (main_arg14 : FVec F S64x32 .f32) (main_arg15 : FVec F S32 .f32) (main_arg16 : FVec F S64x32 .f32) (main_arg17 : FVec F S32 .f32) (main_v33 : IVec S_ 1) : IVec S_ 1 :=
  let main_v34 : FVec F S2x64 .f32 := Host.absf main_arg7
  let main_cst_12 : FVec F S_ .f32 := constant S_ .f32 0x7F800000#32
  let main_v35 : FVec F S2x64 .f32 := broadcastInDim S2x64 ![] bcast_S_S2x64 main_cst_12
  let main_v36 : IVec S2x64 1 := cmpf .olt main_v34 main_v35
  let main_c_13 : IVec S_ 1 := constantI S_ 1 1#1
  let main_v37 : IVec S_ 1 := (fun x v => Host.reduce IntOp.andi x v reducesTo_S2x64_S_d0_1 h_S_) main_v36 main_c_13
  let main_v38 : IVec S_ 1 := andi main_v33 main_v37
  let main_v39 : FVec F S2x64 .f32 := Host.absf main_arg8
  let main_cst_14 : FVec F S_ .f32 := constant S_ .f32 0x7F800000#32
  let main_v40 : FVec F S2x64 .f32 := broadcastInDim S2x64 ![] bcast_S_S2x64 main_cst_14
  let main_v41 : IVec S2x64 1 := cmpf .olt main_v39 main_v40
  let main_c_15 : IVec S_ 1 := constantI S_ 1 1#1
  let main_v42 : IVec S_ 1 := (fun x v => Host.reduce IntOp.andi x v reducesTo_S2x64_S_d0_1 h_S_) main_v41 main_c_15
  let main_v43 : IVec S_ 1 := andi main_v38 main_v42
  let main_v44 : FVec F S2x64 .f32 := Host.absf main_arg9
  let main_cst_16 : FVec F S_ .f32 := constant S_ .f32 0x7F800000#32
  let main_v45 : FVec F S2x64 .f32 := broadcastInDim S2x64 ![] bcast_S_S2x64 main_cst_16
  let main_v46 : IVec S2x64 1 := cmpf .olt main_v44 main_v45
  let main_c_17 : IVec S_ 1 := constantI S_ 1 1#1
  let main_v47 : IVec S_ 1 := (fun x v => Host.reduce IntOp.andi x v reducesTo_S2x64_S_d0_1 h_S_) main_v46 main_c_17
  let main_v48 : IVec S_ 1 := andi main_v43 main_v47
  let main_v49 : FVec F S2x5x64x64 .f32 := Host.absf main_arg10
  let main_cst_18 : FVec F S_ .f32 := constant S_ .f32 0x7F800000#32
  let main_v50 : FVec F S2x5x64x64 .f32 := broadcastInDim S2x5x64x64 ![] bcast_S_S2x5x64x64 main_cst_18
  fn_part3 (F := F) main_arg11 main_arg12 main_arg13 main_arg14 main_arg15 main_arg16 main_arg17 main_v48 main_v49 main_v50

def fn_part1 {F : FTy → Type} [FloatOps F] (main_arg4 : FVec F S32x64 .f32) (main_arg5 : FVec F S64 .f32) (main_arg6 : FVec F S2x64 .f32) (main_arg7 : FVec F S2x64 .f32) (main_arg8 : FVec F S2x64 .f32) (main_arg9 : FVec F S2x64 .f32) (main_arg10 : FVec F S2x5x64x64 .f32) (main_arg11 : FVec F S2x5x64 .f32) (main_arg12 : FVec F S2x5x64x64 .f32) (main_arg13 : FVec F S2x5x64 .f32) (main_arg14 : FVec F S64x32 .f32) (main_arg15 : FVec F S32 .f32) (main_arg16 : FVec F S64x32 .f32) (main_arg17 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg4
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S2x64 .f32 := Host.absf main_arg6
  let main_cst_10 : FVec F S_ .f32 := constant S_ .f32 0x7F800000#32
  let main_v30 : FVec F S2x64 .f32 := broadcastInDim S2x64 ![] bcast_S_S2x64 main_cst_10
  let main_v31 : IVec S2x64 1 := cmpf .olt main_v29 main_v30
  let main_c_11 : IVec S_ 1 := constantI S_ 1 1#1
  let main_v32 : IVec S_ 1 := (fun x v => Host.reduce IntOp.andi x v reducesTo_S2x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S131072x32 .f32) (main_arg1 : FVec F S32768x32 .f32) (main_arg2 : FVec F S32x64 .f32) (main_arg3 : FVec F S64 .f32) (main_arg4 : FVec F S32x64 .f32) (main_arg5 : FVec F S64 .f32) (main_arg6 : FVec F S2x64 .f32) (main_arg7 : FVec F S2x64 .f32) (main_arg8 : FVec F S2x64 .f32) (main_arg9 : FVec F S2x64 .f32) (main_arg10 : FVec F S2x5x64x64 .f32) (main_arg11 : FVec F S2x5x64 .f32) (main_arg12 : FVec F S2x5x64x64 .f32) (main_arg13 : FVec F S2x5x64 .f32) (main_arg14 : FVec F S64x32 .f32) (main_arg15 : FVec F S32 .f32) (main_arg16 : FVec F S64x32 .f32) (main_arg17 : FVec F S32 .f32) (main_arg18 : IVec S2x2097152 32) (main_arg19 : IVec S65536 32) (main_arg20 : IVec S65536 32) (main_arg21 : IVec S65536 32) (main_arg22 : IVec S65536 32) : IVec S_ 1 :=
  let main_v0 : FVec F S131072x32 .f32 := Host.absf main_arg0
  let main_cst : FVec F S_ .f32 := constant S_ .f32 0x7F800000#32
  let main_v1 : FVec F S131072x32 .f32 := broadcastInDim S131072x32 ![] bcast_S_S131072x32 main_cst
  let main_v2 : IVec S131072x32 1 := cmpf .olt main_v0 main_v1
  let main_c : IVec S_ 1 := constantI S_ 1 1#1
  let main_v3 : IVec S_ 1 := (fun x v => Host.reduce IntOp.andi x v reducesTo_S131072x32_S_d0_1 h_S_) main_v2 main_c
  let main_v4 : FVec F S32768x32 .f32 := Host.absf main_arg1
  let main_cst_0 : FVec F S_ .f32 := constant S_ .f32 0x7F800000#32
  let main_v5 : FVec F S32768x32 .f32 := broadcastInDim S32768x32 ![] bcast_S_S32768x32 main_cst_0
  let main_v6 : IVec S32768x32 1 := cmpf .olt main_v4 main_v5
  let main_c_1 : IVec S_ 1 := constantI S_ 1 1#1
  let main_v7 : IVec S_ 1 := (fun x v => Host.reduce IntOp.andi x v reducesTo_S32768x32_S_d0_1 h_S_) main_v6 main_c_1
  let main_v8 : IVec S_ 1 := andi main_v3 main_v7
  let main_v9 : FVec F S32x64 .f32 := Host.absf main_arg2
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S131072x32 : Shape := ⟨2, ![131072, 32]⟩
abbrev S32768x32 : Shape := ⟨2, ![32768, 32]⟩
abbrev S32x64 : Shape := ⟨2, ![32, 64]⟩
abbrev S64 : Shape := ⟨1, ![64]⟩
abbrev S2x64 : Shape := ⟨2, ![2, 64]⟩
abbrev S2x5x64x64 : Shape := ⟨4, ![2, 5, 64, 64]⟩
abbrev S2x5x64 : Shape := ⟨3, ![2, 5, 64]⟩
abbrev S64x32 : Shape := ⟨2, ![64, 32]⟩
abbrev S32 : Shape := ⟨1, ![32]⟩
abbrev S2x2097152 : Shape := ⟨2, ![2, 2097152]⟩
abbrev S65536 : Shape := ⟨1, ![65536]⟩
abbrev S1x2097152 : Shape := ⟨2, ![1, 2097152]⟩
abbrev S2097152 : Shape := ⟨1, ![2097152]⟩
abbrev S1x64 : Shape := ⟨2, ![1, 64]⟩
abbrev S131072x64 : Shape := ⟨2, ![131072, 64]⟩
abbrev S4096x32 : Shape := ⟨2, ![4096, 32]⟩
abbrev S4096x64 : Shape := ⟨2, ![4096, 64]⟩
abbrev S32768x64 : Shape := ⟨2, ![32768, 64]⟩
abbrev S_ : Shape := ⟨0, ![]⟩
abbrev S1x1x64x64 : Shape := ⟨4, ![1, 1, 64, 64]⟩
abbrev S64x64 : Shape := ⟨2, ![64, 64]⟩
abbrev S1x1x64 : Shape := ⟨3, ![1, 1, 64]⟩
abbrev S2097152x1 : Shape := ⟨2, ![2097152, 1]⟩
abbrev S2097152x64 : Shape := ⟨2, ![2097152, 64]⟩
abbrev S65536x1 : Shape := ⟨2, ![65536, 1]⟩
abbrev S65536x64 : Shape := ⟨2, ![65536, 64]⟩
abbrev S1x32 : Shape := ⟨2, ![1, 32]⟩

abbrev nBuf : Space → Nat
  | .hbm => 627
  | .vmem => 224
  | .smem => 0
  | _ => 0

abbrev hbmTy0_0 (i : Nat) : BufTy := match i % 128 with
  | 0 => ⟨S131072x32, .f32⟩
  | 1 => ⟨S32768x32, .f32⟩
  | 2 => ⟨S32x64, .f32⟩
  | 3 => ⟨S64, .f32⟩
  | 4 => ⟨S32x64, .f32⟩
  | 5 => ⟨S64, .f32⟩
  | 6 => ⟨S2x64, .f32⟩
  | 7 => ⟨S2x64, .f32⟩
  | 8 => ⟨S2x64, .f32⟩
  | 9 => ⟨S2x64, .f32⟩
  | 10 => ⟨S2x5x64x64, .f32⟩
  | 11 => ⟨S2x5x64, .f32⟩
  | 12 => ⟨S2x5x64x64, .f32⟩
  | 13 => ⟨S2x5x64, .f32⟩
  | 14 => ⟨S64x32, .f32⟩
  | 15 => ⟨S32, .f32⟩
  | 16 => ⟨S64x32, .f32⟩
  | 17 => ⟨S32, .f32⟩
  | 18 => ⟨S2x2097152, .i32⟩
  | 19 => ⟨S65536, .i32⟩
  | 20 => ⟨S65536, .i32⟩
  | 21 => ⟨S65536, .i32⟩
  | 22 => ⟨S65536, .i32⟩
  | 23 => ⟨S1x2097152, .i32⟩
  | 24 => ⟨S2097152, .i32⟩
  | 25 => ⟨S1x2097152, .i32⟩
  | 26 => ⟨S2097152, .i32⟩
  | 27 => ⟨S1x64, .f32⟩
  | 28 => ⟨S131072x64, .f32⟩
  | 29 => ⟨S1x64, .f32⟩
  | 30 => ⟨S32768x64, .f32⟩
  | 31 => ⟨S_, .f32⟩
  | 32 => ⟨S64, .f32⟩
  | 33 => ⟨S1x64, .f32⟩
  | 34 => ⟨S_, .f32⟩
  | 35 => ⟨S1x64, .f32⟩
  | 36 => ⟨S1x64, .f32⟩
  | 37 => ⟨S_, .i32⟩
  | 38 => ⟨S_, .f32⟩
  | 39 => ⟨S64, .f32⟩
  | 40 => ⟨S1x64, .f32⟩
  | 41 => ⟨S_, .f32⟩
  | 42 => ⟨S1x64, .f32⟩
  | 43 => ⟨S1x64, .f32⟩
  | 44 => ⟨S131072x64, .f32⟩
  | 45 => ⟨S131072x64, .f32⟩
  | 46 => ⟨S131072x64, .f32⟩
  | 47 => ⟨S_, .f32⟩
  | 48 => ⟨S_, .f32⟩
  | 49 => ⟨S_, .f32⟩
  | 50 => ⟨S_, .f32⟩
  | 51 => ⟨S64, .f32⟩
  | 52 => ⟨S1x64, .f32⟩
  | 53 => ⟨S1x64, .f32⟩
  | 54 => ⟨S1x64, .f32⟩
  | 55 => ⟨S_, .f32⟩
  | 56 => ⟨S_, .i1⟩
  | 57 => ⟨S_, .f32⟩
  | 58 => ⟨S_, .f32⟩
  | 59 => ⟨S1x64, .f32⟩
  | 60 => ⟨S1x64, .f32⟩
  | 61 => ⟨S_, .f32⟩
  | 62 => ⟨S64, .f32⟩
  | 63 => ⟨S1x64, .f32⟩
  | 64 => ⟨S_, .f32⟩
  | 65 => ⟨S1x64, .f32⟩
  | 66 => ⟨S1x64, .f32⟩
  | 67 => ⟨S_, .i32⟩
  | 68 => ⟨S_, .f32⟩
  | 69 => ⟨S64, .f32⟩
  | 70 => ⟨S1x64, .f32⟩
  | 71 => ⟨S_, .f32⟩
  | 72 => ⟨S1x64, .f32⟩
  | 73 => ⟨S1x64, .f32⟩
  | 74 => ⟨S32768x64, .f32⟩
  | 75 => ⟨S32768x64, .f32⟩
  | 76 => ⟨S32768x64, .f32⟩
  | 77 => ⟨S_, .f32⟩
  | 78 => ⟨S_, .f32⟩
  | 79 => ⟨S_, .f32⟩
  | 80 => ⟨S_, .f32⟩
  | 81 => ⟨S64, .f32⟩
  | 82 => ⟨S1x64, .f32⟩
  | 83 => ⟨S1x64, .f32⟩
  | 84 => ⟨S1x64, .f32⟩
  | 85 => ⟨S_, .f32⟩
  | 86 => ⟨S_, .i1⟩
  | 87 => ⟨S_, .f32⟩
  | 88 => ⟨S_, .f32⟩
  | 89 => ⟨S1x64, .f32⟩
  | 90 => ⟨S1x64, .f32⟩
  | 91 => ⟨S1x64, .f32⟩
  | 92 => ⟨S64, .f32⟩
  | 93 => ⟨S1x64, .f32⟩
  | 94 => ⟨S64, .f32⟩
  | 95 => ⟨S1x1x64x64, .f32⟩
  | 96 => ⟨S64x64, .f32⟩
  | 97 => ⟨S1x1x64, .f32⟩
  | 98 => ⟨S64, .f32⟩
  | 99 => ⟨S1x64, .f32⟩
  | 100 => ⟨S1x64, .f32⟩
  | 101 => ⟨S1x64, .f32⟩
  | 102 => ⟨S131072x64, .f32⟩
  | 103 => ⟨S131072x64, .f32⟩
  | 104 => ⟨S1x64, .f32⟩
  | 105 => ⟨S64, .f32⟩
  | 106 => ⟨S1x64, .f32⟩
  | 107 => ⟨S64, .f32⟩
  | 108 => ⟨S1x1x64x64, .f32⟩
  | 109 => ⟨S64x64, .f32⟩
  | 110 => ⟨S1x1x64, .f32⟩
  | 111 => ⟨S64, .f32⟩
  | 112 => ⟨S1x64, .f32⟩
  | 113 => ⟨S1x64, .f32⟩
  | 114 => ⟨S1x64, .f32⟩
  | 115 => ⟨S32768x64, .f32⟩
  | 116 => ⟨S32768x64, .f32⟩
  | 117 => ⟨S_, .i32⟩
  | 118 => ⟨S2097152, .i32⟩
  | 119 => ⟨S2097152, .i1⟩
  | 120 => ⟨S_, .i32⟩
  | 121 => ⟨S2097152, .i32⟩
  | 122 => ⟨S2097152, .i32⟩
  | 123 => ⟨S2097152, .i32⟩
  | 124 => ⟨S2097152x1, .i32⟩
  | 125 => ⟨S2097152x64, .f32⟩
  | 126 => ⟨S_, .f32⟩
  | 127 => ⟨S131072x64, .f32⟩
  | _ => ⟨S131072x32, .f32⟩

abbrev hbmTy0_1 (i : Nat) : BufTy := match i % 128 with
  | 0 => ⟨S2097152x1, .i32⟩
  | 1 => ⟨S131072x64, .f32⟩
  | 2 => ⟨S_, .i32⟩
  | 3 => ⟨S65536, .i32⟩
  | 4 => ⟨S65536, .i1⟩
  | 5 => ⟨S_, .i32⟩
  | 6 => ⟨S65536, .i32⟩
  | 7 => ⟨S65536, .i32⟩
  | 8 => ⟨S65536, .i32⟩
  | 9 => ⟨S65536x1, .i32⟩
  | 10 => ⟨S65536x64, .f32⟩
  | 11 => ⟨S_, .f32⟩
  | 12 => ⟨S131072x64, .f32⟩
  | 13 => ⟨S65536x1, .i32⟩
  | 14 => ⟨S131072x64, .f32⟩
  | 15 => ⟨S131072x64, .f32⟩
  | 16 => ⟨S_, .i32⟩
  | 17 => ⟨S65536, .i32⟩
  | 18 => ⟨S65536, .i1⟩
  | 19 => ⟨S_, .i32⟩
  | 20 => ⟨S65536, .i32⟩
  | 21 => ⟨S65536, .i32⟩
  | 22 => ⟨S65536, .i32⟩
  | 23 => ⟨S65536x1, .i32⟩
  | 24 => ⟨S65536x64, .f32⟩
  | 25 => ⟨S_, .f32⟩
  | 26 => ⟨S32768x64, .f32⟩
  | 27 => ⟨S65536x1, .i32⟩
  | 28 => ⟨S32768x64, .f32⟩
  | 29 => ⟨S1x1x64x64, .f32⟩
  | 30 => ⟨S64x64, .f32⟩
  | 31 => ⟨S1x1x64, .f32⟩
  | 32 => ⟨S64, .f32⟩
  | 33 => ⟨S1x64, .f32⟩
  | 34 => ⟨S131072x64, .f32⟩
  | 35 => ⟨S1x1x64x64, .f32⟩
  | 36 => ⟨S64x64, .f32⟩
  | 37 => ⟨S1x1x64, .f32⟩
  | 38 => ⟨S64, .f32⟩
  | 39 => ⟨S1x64, .f32⟩
  | 40 => ⟨S32768x64, .f32⟩
  | 41 => ⟨S_, .i32⟩
  | 42 => ⟨S2097152, .i32⟩
  | 43 => ⟨S2097152, .i1⟩
  | 44 => ⟨S_, .i32⟩
  | 45 => ⟨S2097152, .i32⟩
  | 46 => ⟨S2097152, .i32⟩
  | 47 => ⟨S2097152, .i32⟩
  | 48 => ⟨S2097152x1, .i32⟩
  | 49 => ⟨S2097152x64, .f32⟩
  | 50 => ⟨S_, .f32⟩
  | 51 => ⟨S131072x64, .f32⟩
  | 52 => ⟨S2097152x1, .i32⟩
  | 53 => ⟨S131072x64, .f32⟩
  | 54 => ⟨S_, .i32⟩
  | 55 => ⟨S65536, .i32⟩
  | 56 => ⟨S65536, .i1⟩
  | 57 => ⟨S_, .i32⟩
  | 58 => ⟨S65536, .i32⟩
  | 59 => ⟨S65536, .i32⟩
  | 60 => ⟨S65536, .i32⟩
  | 61 => ⟨S65536x1, .i32⟩
  | 62 => ⟨S65536x64, .f32⟩
  | 63 => ⟨S_, .f32⟩
  | 64 => ⟨S131072x64, .f32⟩
  | 65 => ⟨S65536x1, .i32⟩
  | 66 => ⟨S131072x64, .f32⟩
  | 67 => ⟨S131072x64, .f32⟩
  | 68 => ⟨S_, .i32⟩
  | 69 => ⟨S65536, .i32⟩
  | 70 => ⟨S65536, .i1⟩
  | 71 => ⟨S_, .i32⟩
  | 72 => ⟨S65536, .i32⟩
  | 73 => ⟨S65536, .i32⟩
  | 74 => ⟨S65536, .i32⟩
  | 75 => ⟨S65536x1, .i32⟩
  | 76 => ⟨S65536x64, .f32⟩
  | 77 => ⟨S_, .f32⟩
  | 78 => ⟨S32768x64, .f32⟩
  | 79 => ⟨S65536x1, .i32⟩
  | 80 => ⟨S32768x64, .f32⟩
  | 81 => ⟨S1x1x64x64, .f32⟩
  | 82 => ⟨S64x64, .f32⟩
  | 83 => ⟨S1x1x64, .f32⟩
  | 84 => ⟨S64, .f32⟩
  | 85 => ⟨S1x64, .f32⟩
  | 86 => ⟨S131072x64, .f32⟩
  | 87 => ⟨S1x1x64x64, .f32⟩
  | 88 => ⟨S64x64, .f32⟩
  | 89 => ⟨S1x1x64, .f32⟩
  | 90 => ⟨S64, .f32⟩
  | 91 => ⟨S1x64, .f32⟩
  | 92 => ⟨S32768x64, .f32⟩
  | 93 => ⟨S_, .i32⟩
  | 94 => ⟨S2097152, .i32⟩
  | 95 => ⟨S2097152, .i1⟩
  | 96 => ⟨S_, .i32⟩
  | 97 => ⟨S2097152, .i32⟩
  | 98 => ⟨S2097152, .i32⟩
  | 99 => ⟨S2097152, .i32⟩
  | 100 => ⟨S2097152x1, .i32⟩
  | 101 => ⟨S2097152x64, .f32⟩
  | 102 => ⟨S_, .f32⟩
  | 103 => ⟨S131072x64, .f32⟩
  | 104 => ⟨S2097152x1, .i32⟩
  | 105 => ⟨S131072x64, .f32⟩
  | 106 => ⟨S_, .i32⟩
  | 107 => ⟨S65536, .i32⟩
  | 108 => ⟨S65536, .i1⟩
  | 109 => ⟨S_, .i32⟩
  | 110 => ⟨S65536, .i32⟩
  | 111 => ⟨S65536, .i32⟩
  | 112 => ⟨S65536, .i32⟩
  | 113 => ⟨S65536x1, .i32⟩
  | 114 => ⟨S65536x64, .f32⟩
  | 115 => ⟨S_, .f32⟩
  | 116 => ⟨S131072x64, .f32⟩
  | 117 => ⟨S65536x1, .i32⟩
  | 118 => ⟨S131072x64, .f32⟩
  | 119 => ⟨S131072x64, .f32⟩
  | 120 => ⟨S_, .i32⟩
  | 121 => ⟨S65536, .i32⟩
  | 122 => ⟨S65536, .i1⟩
  | 123 => ⟨S_, .i32⟩
  | 124 => ⟨S65536, .i32⟩
  | 125 => ⟨S65536, .i32⟩
  | 126 => ⟨S65536, .i32⟩
  | 127 => ⟨S65536x1, .i32⟩
  | _ => ⟨S131072x32, .f32⟩

abbrev hbmTy0_2 (i : Nat) : BufTy := match i % 128 with
  | 0 => ⟨S65536x64, .f32⟩
  | 1 => ⟨S_, .f32⟩
  | 2 => ⟨S32768x64, .f32⟩
  | 3 => ⟨S65536x1, .i32⟩
  | 4 => ⟨S32768x64, .f32⟩
  | 5 => ⟨S1x1x64x64, .f32⟩
  | 6 => ⟨S64x64, .f32⟩
  | 7 => ⟨S1x1x64, .f32⟩
  | 8 => ⟨S64, .f32⟩
  | 9 => ⟨S1x64, .f32⟩
  | 10 => ⟨S131072x64, .f32⟩
  | 11 => ⟨S1x1x64x64, .f32⟩
  | 12 => ⟨S64x64, .f32⟩
  | 13 => ⟨S1x1x64, .f32⟩
  | 14 => ⟨S64, .f32⟩
  | 15 => ⟨S1x64, .f32⟩
  | 16 => ⟨S32768x64, .f32⟩
  | 17 => ⟨S_, .i32⟩
  | 18 => ⟨S2097152, .i32⟩
  | 19 => ⟨S2097152, .i1⟩
  | 20 => ⟨S_, .i32⟩
  | 21 => ⟨S2097152, .i32⟩
  | 22 => ⟨S2097152, .i32⟩
  | 23 => ⟨S2097152, .i32⟩
  | 24 => ⟨S2097152x1, .i32⟩
  | 25 => ⟨S2097152x64, .f32⟩
  | 26 => ⟨S_, .f32⟩
  | 27 => ⟨S131072x64, .f32⟩
  | 28 => ⟨S2097152x1, .i32⟩
  | 29 => ⟨S131072x64, .f32⟩
  | 30 => ⟨S_, .i32⟩
  | 31 => ⟨S65536, .i32⟩
  | 32 => ⟨S65536, .i1⟩
  | 33 => ⟨S_, .i32⟩
  | 34 => ⟨S65536, .i32⟩
  | 35 => ⟨S65536, .i32⟩
  | 36 => ⟨S65536, .i32⟩
  | 37 => ⟨S65536x1, .i32⟩
  | 38 => ⟨S65536x64, .f32⟩
  | 39 => ⟨S_, .f32⟩
  | 40 => ⟨S131072x64, .f32⟩
  | 41 => ⟨S65536x1, .i32⟩
  | 42 => ⟨S131072x64, .f32⟩
  | 43 => ⟨S131072x64, .f32⟩
  | 44 => ⟨S_, .i32⟩
  | 45 => ⟨S65536, .i32⟩
  | 46 => ⟨S65536, .i1⟩
  | 47 => ⟨S_, .i32⟩
  | 48 => ⟨S65536, .i32⟩
  | 49 => ⟨S65536, .i32⟩
  | 50 => ⟨S65536, .i32⟩
  | 51 => ⟨S65536x1, .i32⟩
  | 52 => ⟨S65536x64, .f32⟩
  | 53 => ⟨S_, .f32⟩
  | 54 => ⟨S32768x64, .f32⟩
  | 55 => ⟨S65536x1, .i32⟩
  | 56 => ⟨S32768x64, .f32⟩
  | 57 => ⟨S1x1x64x64, .f32⟩
  | 58 => ⟨S64x64, .f32⟩
  | 59 => ⟨S1x1x64, .f32⟩
  | 60 => ⟨S64, .f32⟩
  | 61 => ⟨S1x64, .f32⟩
  | 62 => ⟨S131072x64, .f32⟩
  | 63 => ⟨S1x1x64x64, .f32⟩
  | 64 => ⟨S64x64, .f32⟩
  | 65 => ⟨S1x1x64, .f32⟩
  | 66 => ⟨S64, .f32⟩
  | 67 => ⟨S1x64, .f32⟩
  | 68 => ⟨S32768x64, .f32⟩
  | 69 => ⟨S131072x64, .f32⟩
  | 70 => ⟨S32768x64, .f32⟩
  | 71 => ⟨S_, .f32⟩
  | 72 => ⟨S64, .f32⟩
  | 73 => ⟨S1x64, .f32⟩
  | 74 => ⟨S_, .f32⟩
  | 75 => ⟨S1x64, .f32⟩
  | 76 => ⟨S1x64, .f32⟩
  | 77 => ⟨S_, .i32⟩
  | 78 => ⟨S_, .f32⟩
  | 79 => ⟨S64, .f32⟩
  | 80 => ⟨S1x64, .f32⟩
  | 81 => ⟨S_, .f32⟩
  | 82 => ⟨S1x64, .f32⟩
  | 83 => ⟨S1x64, .f32⟩
  | 84 => ⟨S131072x64, .f32⟩
  | 85 => ⟨S131072x64, .f32⟩
  | 86 => ⟨S131072x64, .f32⟩
  | 87 => ⟨S_, .f32⟩
  | 88 => ⟨S_, .f32⟩
  | 89 => ⟨S_, .f32⟩
  | 90 => ⟨S_, .f32⟩
  | 91 => ⟨S64, .f32⟩
  | 92 => ⟨S1x64, .f32⟩
  | 93 => ⟨S1x64, .f32⟩
  | 94 => ⟨S1x64, .f32⟩
  | 95 => ⟨S_, .f32⟩
  | 96 => ⟨S_, .i1⟩
  | 97 => ⟨S_, .f32⟩
  | 98 => ⟨S_, .f32⟩
  | 99 => ⟨S1x64, .f32⟩
  | 100 => ⟨S1x64, .f32⟩
  | 101 => ⟨S_, .f32⟩
  | 102 => ⟨S64, .f32⟩
  | 103 => ⟨S1x64, .f32⟩
  | 104 => ⟨S_, .f32⟩
  | 105 => ⟨S1x64, .f32⟩
  | 106 => ⟨S1x64, .f32⟩
  | 107 => ⟨S_, .i32⟩
  | 108 => ⟨S_, .f32⟩
  | 109 => ⟨S64, .f32⟩
  | 110 => ⟨S1x64, .f32⟩
  | 111 => ⟨S_, .f32⟩
  | 112 => ⟨S1x64, .f32⟩
  | 113 => ⟨S1x64, .f32⟩
  | 114 => ⟨S32768x64, .f32⟩
  | 115 => ⟨S32768x64, .f32⟩
  | 116 => ⟨S32768x64, .f32⟩
  | 117 => ⟨S_, .f32⟩
  | 118 => ⟨S_, .f32⟩
  | 119 => ⟨S_, .f32⟩
  | 120 => ⟨S_, .f32⟩
  | 121 => ⟨S64, .f32⟩
  | 122 => ⟨S1x64, .f32⟩
  | 123 => ⟨S1x64, .f32⟩
  | 124 => ⟨S1x64, .f32⟩
  | 125 => ⟨S_, .f32⟩
  | 126 => ⟨S_, .i1⟩
  | 127 => ⟨S_, .f32⟩
  | _ => ⟨S131072x32, .f32⟩

abbrev hbmTy0_3 (i : Nat) : BufTy := match i % 128 with
  | 0 => ⟨S_, .f32⟩
  | 1 => ⟨S1x64, .f32⟩
  | 2 => ⟨S1x64, .f32⟩
  | 3 => ⟨S1x64, .f32⟩
  | 4 => ⟨S64, .f32⟩
  | 5 => ⟨S1x64, .f32⟩
  | 6 => ⟨S64, .f32⟩
  | 7 => ⟨S1x1x64x64, .f32⟩
  | 8 => ⟨S64x64, .f32⟩
  | 9 => ⟨S1x1x64, .f32⟩
  | 10 => ⟨S64, .f32⟩
  | 11 => ⟨S1x64, .f32⟩
  | 12 => ⟨S1x64, .f32⟩
  | 13 => ⟨S1x64, .f32⟩
  | 14 => ⟨S131072x64, .f32⟩
  | 15 => ⟨S131072x64, .f32⟩
  | 16 => ⟨S1x64, .f32⟩
  | 17 => ⟨S64, .f32⟩
  | 18 => ⟨S1x64, .f32⟩
  | 19 => ⟨S64, .f32⟩
  | 20 => ⟨S1x1x64x64, .f32⟩
  | 21 => ⟨S64x64, .f32⟩
  | 22 => ⟨S1x1x64, .f32⟩
  | 23 => ⟨S64, .f32⟩
  | 24 => ⟨S1x64, .f32⟩
  | 25 => ⟨S1x64, .f32⟩
  | 26 => ⟨S1x64, .f32⟩
  | 27 => ⟨S32768x64, .f32⟩
  | 28 => ⟨S32768x64, .f32⟩
  | 29 => ⟨S_, .i32⟩
  | 30 => ⟨S2097152, .i32⟩
  | 31 => ⟨S2097152, .i1⟩
  | 32 => ⟨S_, .i32⟩
  | 33 => ⟨S2097152, .i32⟩
  | 34 => ⟨S2097152, .i32⟩
  | 35 => ⟨S2097152, .i32⟩
  | 36 => ⟨S2097152x1, .i32⟩
  | 37 => ⟨S2097152x64, .f32⟩
  | 38 => ⟨S_, .f32⟩
  | 39 => ⟨S131072x64, .f32⟩
  | 40 => ⟨S2097152x1, .i32⟩
  | 41 => ⟨S131072x64, .f32⟩
  | 42 => ⟨S_, .i32⟩
  | 43 => ⟨S65536, .i32⟩
  | 44 => ⟨S65536, .i1⟩
  | 45 => ⟨S_, .i32⟩
  | 46 => ⟨S65536, .i32⟩
  | 47 => ⟨S65536, .i32⟩
  | 48 => ⟨S65536, .i32⟩
  | 49 => ⟨S65536x1, .i32⟩
  | 50 => ⟨S65536x64, .f32⟩
  | 51 => ⟨S_, .f32⟩
  | 52 => ⟨S131072x64, .f32⟩
  | 53 => ⟨S65536x1, .i32⟩
  | 54 => ⟨S131072x64, .f32⟩
  | 55 => ⟨S131072x64, .f32⟩
  | 56 => ⟨S_, .i32⟩
  | 57 => ⟨S65536, .i32⟩
  | 58 => ⟨S65536, .i1⟩
  | 59 => ⟨S_, .i32⟩
  | 60 => ⟨S65536, .i32⟩
  | 61 => ⟨S65536, .i32⟩
  | 62 => ⟨S65536, .i32⟩
  | 63 => ⟨S65536x1, .i32⟩
  | 64 => ⟨S65536x64, .f32⟩
  | 65 => ⟨S_, .f32⟩
  | 66 => ⟨S32768x64, .f32⟩
  | 67 => ⟨S65536x1, .i32⟩
  | 68 => ⟨S32768x64, .f32⟩
  | 69 => ⟨S1x1x64x64, .f32⟩
  | 70 => ⟨S64x64, .f32⟩
  | 71 => ⟨S1x1x64, .f32⟩
  | 72 => ⟨S64, .f32⟩
  | 73 => ⟨S1x64, .f32⟩
  | 74 => ⟨S131072x64, .f32⟩
  | 75 => ⟨S1x1x64x64, .f32⟩
  | 76 => ⟨S64x64, .f32⟩
  | 77 => ⟨S1x1x64, .f32⟩
  | 78 => ⟨S64, .f32⟩
  | 79 => ⟨S1x64, .f32⟩
  | 80 => ⟨S32768x64, .f32⟩
  | 81 => ⟨S_, .i32⟩
  | 82 => ⟨S2097152, .i32⟩
  | 83 => ⟨S2097152, .i1⟩
  | 84 => ⟨S_, .i32⟩
  | 85 => ⟨S2097152, .i32⟩
  | 86 => ⟨S2097152, .i32⟩
  | 87 => ⟨S2097152, .i32⟩
  | 88 => ⟨S2097152x1, .i32⟩
  | 89 => ⟨S2097152x64, .f32⟩
  | 90 => ⟨S_, .f32⟩
  | 91 => ⟨S131072x64, .f32⟩
  | 92 => ⟨S2097152x1, .i32⟩
  | 93 => ⟨S131072x64, .f32⟩
  | 94 => ⟨S_, .i32⟩
  | 95 => ⟨S65536, .i32⟩
  | 96 => ⟨S65536, .i1⟩
  | 97 => ⟨S_, .i32⟩
  | 98 => ⟨S65536, .i32⟩
  | 99 => ⟨S65536, .i32⟩
  | 100 => ⟨S65536, .i32⟩
  | 101 => ⟨S65536x1, .i32⟩
  | 102 => ⟨S65536x64, .f32⟩
  | 103 => ⟨S_, .f32⟩
  | 104 => ⟨S131072x64, .f32⟩
  | 105 => ⟨S65536x1, .i32⟩
  | 106 => ⟨S131072x64, .f32⟩
  | 107 => ⟨S131072x64, .f32⟩
  | 108 => ⟨S_, .i32⟩
  | 109 => ⟨S65536, .i32⟩
  | 110 => ⟨S65536, .i1⟩
  | 111 => ⟨S_, .i32⟩
  | 112 => ⟨S65536, .i32⟩
  | 113 => ⟨S65536, .i32⟩
  | 114 => ⟨S65536, .i32⟩
  | 115 => ⟨S65536x1, .i32⟩
  | 116 => ⟨S65536x64, .f32⟩
  | 117 => ⟨S_, .f32⟩
  | 118 => ⟨S32768x64, .f32⟩
  | 119 => ⟨S65536x1, .i32⟩
  | 120 => ⟨S32768x64, .f32⟩
  | 121 => ⟨S1x1x64x64, .f32⟩
  | 122 => ⟨S64x64, .f32⟩
  | 123 => ⟨S1x1x64, .f32⟩
  | 124 => ⟨S64, .f32⟩
  | 125 => ⟨S1x64, .f32⟩
  | 126 => ⟨S131072x64, .f32⟩
  | 127 => ⟨S1x1x64x64, .f32⟩
  | _ => ⟨S131072x32, .f32⟩

abbrev hbmTy0_4 (i : Nat) : BufTy := match i % 128 with
  | 0 => ⟨S64x64, .f32⟩
  | 1 => ⟨S1x1x64, .f32⟩
  | 2 => ⟨S64, .f32⟩
  | 3 => ⟨S1x64, .f32⟩
  | 4 => ⟨S32768x64, .f32⟩
  | 5 => ⟨S_, .i32⟩
  | 6 => ⟨S2097152, .i32⟩
  | 7 => ⟨S2097152, .i1⟩
  | 8 => ⟨S_, .i32⟩
  | 9 => ⟨S2097152, .i32⟩
  | 10 => ⟨S2097152, .i32⟩
  | 11 => ⟨S2097152, .i32⟩
  | 12 => ⟨S2097152x1, .i32⟩
  | 13 => ⟨S2097152x64, .f32⟩
  | 14 => ⟨S_, .f32⟩
  | 15 => ⟨S131072x64, .f32⟩
  | 16 => ⟨S2097152x1, .i32⟩
  | 17 => ⟨S131072x64, .f32⟩
  | 18 => ⟨S_, .i32⟩
  | 19 => ⟨S65536, .i32⟩
  | 20 => ⟨S65536, .i1⟩
  | 21 => ⟨S_, .i32⟩
  | 22 => ⟨S65536, .i32⟩
  | 23 => ⟨S65536, .i32⟩
  | 24 => ⟨S65536, .i32⟩
  | 25 => ⟨S65536x1, .i32⟩
  | 26 => ⟨S65536x64, .f32⟩
  | 27 => ⟨S_, .f32⟩
  | 28 => ⟨S131072x64, .f32⟩
  | 29 => ⟨S65536x1, .i32⟩
  | 30 => ⟨S131072x64, .f32⟩
  | 31 => ⟨S131072x64, .f32⟩
  | 32 => ⟨S_, .i32⟩
  | 33 => ⟨S65536, .i32⟩
  | 34 => ⟨S65536, .i1⟩
  | 35 => ⟨S_, .i32⟩
  | 36 => ⟨S65536, .i32⟩
  | 37 => ⟨S65536, .i32⟩
  | 38 => ⟨S65536, .i32⟩
  | 39 => ⟨S65536x1, .i32⟩
  | 40 => ⟨S65536x64, .f32⟩
  | 41 => ⟨S_, .f32⟩
  | 42 => ⟨S32768x64, .f32⟩
  | 43 => ⟨S65536x1, .i32⟩
  | 44 => ⟨S32768x64, .f32⟩
  | 45 => ⟨S1x1x64x64, .f32⟩
  | 46 => ⟨S64x64, .f32⟩
  | 47 => ⟨S1x1x64, .f32⟩
  | 48 => ⟨S64, .f32⟩
  | 49 => ⟨S1x64, .f32⟩
  | 50 => ⟨S131072x64, .f32⟩
  | 51 => ⟨S1x1x64x64, .f32⟩
  | 52 => ⟨S64x64, .f32⟩
  | 53 => ⟨S1x1x64, .f32⟩
  | 54 => ⟨S64, .f32⟩
  | 55 => ⟨S1x64, .f32⟩
  | 56 => ⟨S32768x64, .f32⟩
  | 57 => ⟨S_, .i32⟩
  | 58 => ⟨S2097152, .i32⟩
  | 59 => ⟨S2097152, .i1⟩
  | 60 => ⟨S_, .i32⟩
  | 61 => ⟨S2097152, .i32⟩
  | 62 => ⟨S2097152, .i32⟩
  | 63 => ⟨S2097152, .i32⟩
  | 64 => ⟨S2097152x1, .i32⟩
  | 65 => ⟨S2097152x64, .f32⟩
  | 66 => ⟨S_, .f32⟩
  | 67 => ⟨S131072x64, .f32⟩
  | 68 => ⟨S2097152x1, .i32⟩
  | 69 => ⟨S131072x64, .f32⟩
  | 70 => ⟨S_, .i32⟩
  | 71 => ⟨S65536, .i32⟩
  | 72 => ⟨S65536, .i1⟩
  | 73 => ⟨S_, .i32⟩
  | 74 => ⟨S65536, .i32⟩
  | 75 => ⟨S65536, .i32⟩
  | 76 => ⟨S65536, .i32⟩
  | 77 => ⟨S65536x1, .i32⟩
  | 78 => ⟨S65536x64, .f32⟩
  | 79 => ⟨S_, .f32⟩
  | 80 => ⟨S131072x64, .f32⟩
  | 81 => ⟨S65536x1, .i32⟩
  | 82 => ⟨S131072x64, .f32⟩
  | 83 => ⟨S131072x64, .f32⟩
  | 84 => ⟨S_, .i32⟩
  | 85 => ⟨S65536, .i32⟩
  | 86 => ⟨S65536, .i1⟩
  | 87 => ⟨S_, .i32⟩
  | 88 => ⟨S65536, .i32⟩
  | 89 => ⟨S65536, .i32⟩
  | 90 => ⟨S65536, .i32⟩
  | 91 => ⟨S65536x1, .i32⟩
  | 92 => ⟨S65536x64, .f32⟩
  | 93 => ⟨S_, .f32⟩
  | 94 => ⟨S32768x64, .f32⟩
  | 95 => ⟨S65536x1, .i32⟩
  | 96 => ⟨S32768x64, .f32⟩
  | 97 => ⟨S1x1x64x64, .f32⟩
  | 98 => ⟨S64x64, .f32⟩
  | 99 => ⟨S1x1x64, .f32⟩
  | 100 => ⟨S64, .f32⟩
  | 101 => ⟨S1x64, .f32⟩
  | 102 => ⟨S131072x64, .f32⟩
  | 103 => ⟨S1x1x64x64, .f32⟩
  | 104 => ⟨S64x64, .f32⟩
  | 105 => ⟨S1x1x64, .f32⟩
  | 106 => ⟨S64, .f32⟩
  | 107 => ⟨S1x64, .f32⟩
  | 108 => ⟨S32768x64, .f32⟩
  | 109 => ⟨S131072x64, .f32⟩
  | 110 => ⟨S32768x64, .f32⟩
  | 111 => ⟨S1x32, .f32⟩
  | 112 => ⟨S131072x32, .f32⟩
  | 113 => ⟨S1x32, .f32⟩
  | 114 => ⟨S32768x32, .f32⟩
  | _ => ⟨S131072x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S131072x32, .f32⟩

abbrev vmemTy0_0 (i : Nat) : BufTy := match i % 128 with
  | 0 => ⟨S4096x32, .f32⟩
  | 1 => ⟨S4096x32, .f32⟩
  | 2 => ⟨S32x64, .f32⟩
  | 3 => ⟨S1x64, .f32⟩
  | 4 => ⟨S4096x64, .f32⟩
  | 5 => ⟨S4096x64, .f32⟩
  | 6 => ⟨S4096x32, .f32⟩
  | 7 => ⟨S4096x32, .f32⟩
  | 8 => ⟨S32x64, .f32⟩
  | 9 => ⟨S1x64, .f32⟩
  | 10 => ⟨S4096x64, .f32⟩
  | 11 => ⟨S4096x64, .f32⟩
  | 12 => ⟨S4096x64, .f32⟩
  | 13 => ⟨S4096x64, .f32⟩
  | 14 => ⟨S1x64, .f32⟩
  | 15 => ⟨S1x64, .f32⟩
  | 16 => ⟨S1x64, .f32⟩
  | 17 => ⟨S1x64, .f32⟩
  | 18 => ⟨S64x64, .f32⟩
  | 19 => ⟨S1x64, .f32⟩
  | 20 => ⟨S4096x64, .f32⟩
  | 21 => ⟨S4096x64, .f32⟩
  | 22 => ⟨S4096x64, .f32⟩
  | 23 => ⟨S4096x64, .f32⟩
  | 24 => ⟨S4096x64, .f32⟩
  | 25 => ⟨S4096x64, .f32⟩
  | 26 => ⟨S1x64, .f32⟩
  | 27 => ⟨S1x64, .f32⟩
  | 28 => ⟨S1x64, .f32⟩
  | 29 => ⟨S1x64, .f32⟩
  | 30 => ⟨S64x64, .f32⟩
  | 31 => ⟨S1x64, .f32⟩
  | 32 => ⟨S4096x64, .f32⟩
  | 33 => ⟨S4096x64, .f32⟩
  | 34 => ⟨S4096x64, .f32⟩
  | 35 => ⟨S4096x64, .f32⟩
  | 36 => ⟨S4096x64, .f32⟩
  | 37 => ⟨S4096x64, .f32⟩
  | 38 => ⟨S64x64, .f32⟩
  | 39 => ⟨S1x64, .f32⟩
  | 40 => ⟨S4096x64, .f32⟩
  | 41 => ⟨S4096x64, .f32⟩
  | 42 => ⟨S4096x64, .f32⟩
  | 43 => ⟨S4096x64, .f32⟩
  | 44 => ⟨S4096x64, .f32⟩
  | 45 => ⟨S4096x64, .f32⟩
  | 46 => ⟨S64x64, .f32⟩
  | 47 => ⟨S1x64, .f32⟩
  | 48 => ⟨S4096x64, .f32⟩
  | 49 => ⟨S4096x64, .f32⟩
  | 50 => ⟨S4096x64, .f32⟩
  | 51 => ⟨S4096x64, .f32⟩
  | 52 => ⟨S4096x64, .f32⟩
  | 53 => ⟨S4096x64, .f32⟩
  | 54 => ⟨S64x64, .f32⟩
  | 55 => ⟨S1x64, .f32⟩
  | 56 => ⟨S4096x64, .f32⟩
  | 57 => ⟨S4096x64, .f32⟩
  | 58 => ⟨S4096x64, .f32⟩
  | 59 => ⟨S4096x64, .f32⟩
  | 60 => ⟨S4096x64, .f32⟩
  | 61 => ⟨S4096x64, .f32⟩
  | 62 => ⟨S64x64, .f32⟩
  | 63 => ⟨S1x64, .f32⟩
  | 64 => ⟨S4096x64, .f32⟩
  | 65 => ⟨S4096x64, .f32⟩
  | 66 => ⟨S4096x64, .f32⟩
  | 67 => ⟨S4096x64, .f32⟩
  | 68 => ⟨S4096x64, .f32⟩
  | 69 => ⟨S4096x64, .f32⟩
  | 70 => ⟨S64x64, .f32⟩
  | 71 => ⟨S1x64, .f32⟩
  | 72 => ⟨S4096x64, .f32⟩
  | 73 => ⟨S4096x64, .f32⟩
  | 74 => ⟨S4096x64, .f32⟩
  | 75 => ⟨S4096x64, .f32⟩
  | 76 => ⟨S4096x64, .f32⟩
  | 77 => ⟨S4096x64, .f32⟩
  | 78 => ⟨S64x64, .f32⟩
  | 79 => ⟨S1x64, .f32⟩
  | 80 => ⟨S4096x64, .f32⟩
  | 81 => ⟨S4096x64, .f32⟩
  | 82 => ⟨S4096x64, .f32⟩
  | 83 => ⟨S4096x64, .f32⟩
  | 84 => ⟨S4096x64, .f32⟩
  | 85 => ⟨S4096x64, .f32⟩
  | 86 => ⟨S64x64, .f32⟩
  | 87 => ⟨S1x64, .f32⟩
  | 88 => ⟨S4096x64, .f32⟩
  | 89 => ⟨S4096x64, .f32⟩
  | 90 => ⟨S4096x64, .f32⟩
  | 91 => ⟨S4096x64, .f32⟩
  | 92 => ⟨S4096x64, .f32⟩
  | 93 => ⟨S4096x64, .f32⟩
  | 94 => ⟨S64x64, .f32⟩
  | 95 => ⟨S1x64, .f32⟩
  | 96 => ⟨S4096x64, .f32⟩
  | 97 => ⟨S4096x64, .f32⟩
  | 98 => ⟨S4096x64, .f32⟩
  | 99 => ⟨S4096x64, .f32⟩
  | 100 => ⟨S4096x64, .f32⟩
  | 101 => ⟨S4096x64, .f32⟩
  | 102 => ⟨S4096x64, .f32⟩
  | 103 => ⟨S4096x64, .f32⟩
  | 104 => ⟨S4096x64, .f32⟩
  | 105 => ⟨S4096x64, .f32⟩
  | 106 => ⟨S4096x64, .f32⟩
  | 107 => ⟨S4096x64, .f32⟩
  | 108 => ⟨S4096x64, .f32⟩
  | 109 => ⟨S4096x64, .f32⟩
  | 110 => ⟨S4096x64, .f32⟩
  | 111 => ⟨S4096x64, .f32⟩
  | 112 => ⟨S4096x64, .f32⟩
  | 113 => ⟨S4096x64, .f32⟩
  | 114 => ⟨S1x64, .f32⟩
  | 115 => ⟨S1x64, .f32⟩
  | 116 => ⟨S1x64, .f32⟩
  | 117 => ⟨S1x64, .f32⟩
  | 118 => ⟨S64x64, .f32⟩
  | 119 => ⟨S1x64, .f32⟩
  | 120 => ⟨S4096x64, .f32⟩
  | 121 => ⟨S4096x64, .f32⟩
  | 122 => ⟨S4096x64, .f32⟩
  | 123 => ⟨S4096x64, .f32⟩
  | 124 => ⟨S4096x64, .f32⟩
  | 125 => ⟨S4096x64, .f32⟩
  | 126 => ⟨S1x64, .f32⟩
  | 127 => ⟨S1x64, .f32⟩
  | _ => ⟨S131072x32, .f32⟩

abbrev vmemTy0_1 (i : Nat) : BufTy := match i % 128 with
  | 0 => ⟨S1x64, .f32⟩
  | 1 => ⟨S1x64, .f32⟩
  | 2 => ⟨S64x64, .f32⟩
  | 3 => ⟨S1x64, .f32⟩
  | 4 => ⟨S4096x64, .f32⟩
  | 5 => ⟨S4096x64, .f32⟩
  | 6 => ⟨S4096x64, .f32⟩
  | 7 => ⟨S4096x64, .f32⟩
  | 8 => ⟨S4096x64, .f32⟩
  | 9 => ⟨S4096x64, .f32⟩
  | 10 => ⟨S64x64, .f32⟩
  | 11 => ⟨S1x64, .f32⟩
  | 12 => ⟨S4096x64, .f32⟩
  | 13 => ⟨S4096x64, .f32⟩
  | 14 => ⟨S4096x64, .f32⟩
  | 15 => ⟨S4096x64, .f32⟩
  | 16 => ⟨S4096x64, .f32⟩
  | 17 => ⟨S4096x64, .f32⟩
  | 18 => ⟨S64x64, .f32⟩
  | 19 => ⟨S1x64, .f32⟩
  | 20 => ⟨S4096x64, .f32⟩
  | 21 => ⟨S4096x64, .f32⟩
  | 22 => ⟨S4096x64, .f32⟩
  | 23 => ⟨S4096x64, .f32⟩
  | 24 => ⟨S4096x64, .f32⟩
  | 25 => ⟨S4096x64, .f32⟩
  | 26 => ⟨S64x64, .f32⟩
  | 27 => ⟨S1x64, .f32⟩
  | 28 => ⟨S4096x64, .f32⟩
  | 29 => ⟨S4096x64, .f32⟩
  | 30 => ⟨S4096x64, .f32⟩
  | 31 => ⟨S4096x64, .f32⟩
  | 32 => ⟨S4096x64, .f32⟩
  | 33 => ⟨S4096x64, .f32⟩
  | 34 => ⟨S64x64, .f32⟩
  | 35 => ⟨S1x64, .f32⟩
  | 36 => ⟨S4096x64, .f32⟩
  | 37 => ⟨S4096x64, .f32⟩
  | 38 => ⟨S4096x64, .f32⟩
  | 39 => ⟨S4096x64, .f32⟩
  | 40 => ⟨S4096x64, .f32⟩
  | 41 => ⟨S4096x64, .f32⟩
  | 42 => ⟨S64x64, .f32⟩
  | 43 => ⟨S1x64, .f32⟩
  | 44 => ⟨S4096x64, .f32⟩
  | 45 => ⟨S4096x64, .f32⟩
  | 46 => ⟨S4096x64, .f32⟩
  | 47 => ⟨S4096x64, .f32⟩
  | 48 => ⟨S4096x64, .f32⟩
  | 49 => ⟨S4096x64, .f32⟩
  | 50 => ⟨S64x64, .f32⟩
  | 51 => ⟨S1x64, .f32⟩
  | 52 => ⟨S4096x64, .f32⟩
  | 53 => ⟨S4096x64, .f32⟩
  | 54 => ⟨S4096x64, .f32⟩
  | 55 => ⟨S4096x64, .f32⟩
  | 56 => ⟨S4096x64, .f32⟩
  | 57 => ⟨S4096x64, .f32⟩
  | 58 => ⟨S64x64, .f32⟩
  | 59 => ⟨S1x64, .f32⟩
  | 60 => ⟨S4096x64, .f32⟩
  | 61 => ⟨S4096x64, .f32⟩
  | 62 => ⟨S4096x64, .f32⟩
  | 63 => ⟨S4096x64, .f32⟩
  | 64 => ⟨S4096x64, .f32⟩
  | 65 => ⟨S4096x64, .f32⟩
  | 66 => ⟨S64x64, .f32⟩
  | 67 => ⟨S1x64, .f32⟩
  | 68 => ⟨S4096x64, .f32⟩
  | 69 => ⟨S4096x64, .f32⟩
  | 70 => ⟨S4096x64, .f32⟩
  | 71 => ⟨S4096x64, .f32⟩
  | 72 => ⟨S4096x64, .f32⟩
  | 73 => ⟨S4096x64, .f32⟩
  | 74 => ⟨S4096x64, .f32⟩
  | 75 => ⟨S4096x64, .f32⟩
  | 76 => ⟨S4096x64, .f32⟩
  | 77 => ⟨S4096x64, .f32⟩
  | 78 => ⟨S4096x64, .f32⟩
  | 79 => ⟨S4096x64, .f32⟩
  | 80 => ⟨S4096x64, .f32⟩
  | 81 => ⟨S4096x64, .f32⟩
  | 82 => ⟨S4096x64, .f32⟩
  | 83 => ⟨S4096x64, .f32⟩
  | 84 => ⟨S4096x64, .f32⟩
  | 85 => ⟨S4096x64, .f32⟩
  | 86 => ⟨S64x32, .f32⟩
  | 87 => ⟨S1x32, .f32⟩
  | 88 => ⟨S4096x32, .f32⟩
  | 89 => ⟨S4096x32, .f32⟩
  | 90 => ⟨S4096x64, .f32⟩
  | 91 => ⟨S4096x64, .f32⟩
  | 92 => ⟨S64x32, .f32⟩
  | 93 => ⟨S1x32, .f32⟩
  | 94 => ⟨S4096x32, .f32⟩
  | 95 => ⟨S4096x32, .f32⟩
  | _ => ⟨S131072x32, .f32⟩

abbrev vmemTy (i : Nat) : BufTy := match i / 128 with
  | 0 => vmemTy0_0 i
  | 1 => vmemTy0_1 i
  | _ => ⟨S131072x32, .f32⟩

abbrev bufTy : (tb : Table) → Fin (tcTables nBuf tb) → BufTy
  | .hbm, ⟨i, _⟩ => hbmTy i
  | .local _ .vmem, ⟨i, _⟩ => vmemTy i
  | _, _ => ⟨S131072x32, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 224 → Bool
  | ⟨i, _⟩ => dmaSemScopedAt i

abbrev sig : RefSig :=
  ofTc nBuf bufTy 0 224 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_cst_0 : Ref sig .tc := ⟨.hbm, 34, rfl⟩
abbrev main_v10 : Ref sig .tc := ⟨.hbm, 35, rfl⟩
abbrev main_v11 : Ref sig .tc := ⟨.hbm, 36, rfl⟩
abbrev main_c : Ref sig .tc := ⟨.hbm, 37, rfl⟩
abbrev main_call0_cst : Ref sig .tc := ⟨.hbm, 38, rfl⟩
abbrev main_call0_v0 : Ref sig .tc := ⟨.hbm, 39, rfl⟩
abbrev main_call0_v1 : Ref sig .tc := ⟨.hbm, 40, rfl⟩
abbrev main_call0_cst_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_cst_1 : Ref sig .tc := ⟨.hbm, 48, rfl⟩
abbrev main_call0_v8 : Ref sig .tc := ⟨.hbm, 49, rfl⟩
abbrev main_call0_cst_2 : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_v12 : Ref sig .tc := ⟨.hbm, 54, rfl⟩
abbrev main_call0_cst_3 : Ref sig .tc := ⟨.hbm, 55, rfl⟩
abbrev main_call0_v13 : Ref sig .tc := ⟨.hbm, 56, rfl⟩
abbrev main_call0_cst_4 : Ref sig .tc := ⟨.hbm, 57, rfl⟩
abbrev main_call0_call0_v0 : Ref sig .tc := ⟨.hbm, 58, rfl⟩
abbrev main_call0_call0_v1 : Ref sig .tc := ⟨.hbm, 59, rfl⟩
abbrev main_v12 : Ref sig .tc := ⟨.hbm, 60, rfl⟩
abbrev main_cst_1 : Ref sig .tc := ⟨.hbm, 61, rfl⟩
abbrev main_v13 : Ref sig .tc := ⟨.hbm, 62, rfl⟩
abbrev main_v14 : Ref sig .tc := ⟨.hbm, 63, rfl⟩
abbrev main_cst_2 : Ref sig .tc := ⟨.hbm, 64, rfl⟩
abbrev main_v15 : Ref sig .tc := ⟨.hbm, 65, rfl⟩
abbrev main_v16 : Ref sig .tc := ⟨.hbm, 66, rfl⟩
abbrev main_c_3 : Ref sig .tc := ⟨.hbm, 67, rfl⟩
abbrev main_call1_cst : Ref sig .tc := ⟨.hbm, 68, rfl⟩
abbrev main_call1_v0 : Ref sig .tc := ⟨.hbm, 69, rfl⟩
abbrev main_call1_v1 : Ref sig .tc := ⟨.hbm, 70, rfl⟩
abbrev main_call1_cst_0 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_cst_1 : Ref sig .tc := ⟨.hbm, 78, rfl⟩
abbrev main_call1_v8 : Ref sig .tc := ⟨.hbm, 79, rfl⟩
abbrev main_call1_cst_2 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_cst_3 : Ref sig .tc := ⟨.hbm, 85, rfl⟩
abbrev main_call1_v13 : Ref sig .tc := ⟨.hbm, 86, rfl⟩
abbrev main_call1_cst_4 : Ref sig .tc := ⟨.hbm, 87, rfl⟩
abbrev main_call1_call0_v0 : Ref sig .tc := ⟨.hbm, 88, rfl⟩
abbrev main_call1_call0_v1 : Ref sig .tc := ⟨.hbm, 89, rfl⟩
abbrev main_v17 : Ref sig .tc := ⟨.hbm, 90, rfl⟩
abbrev main_v18 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_v24 : Ref sig .tc := ⟨.hbm, 97, rfl⟩
abbrev main_v25 : Ref sig .tc := ⟨.hbm, 98, rfl⟩
abbrev main_v26 : Ref sig .tc := ⟨.hbm, 99, rfl⟩
abbrev main_v27 : Ref sig .tc := ⟨.hbm, 100, rfl⟩
abbrev main_v28 : Ref sig .tc := ⟨.hbm, 101, rfl⟩
abbrev main_v29_0 : Ref sig .tc := ⟨.hbm, 102, rfl⟩
abbrev main_v29_1 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41_0 : Ref sig .tc := ⟨.hbm, 115, rfl⟩
abbrev main_v41_1 : Ref sig .tc := ⟨.hbm, 116, rfl⟩
abbrev main_c_4 : Ref sig .tc := ⟨.hbm, 117, rfl⟩
abbrev main_v42 : Ref sig .tc := ⟨.hbm, 118, rfl⟩
abbrev main_v43 : Ref sig .tc := ⟨.hbm, 119, rfl⟩
abbrev main_c_5 : Ref sig .tc := ⟨.hbm, 120, rfl⟩
abbrev main_v44 : Ref sig .tc := ⟨.hbm, 121, rfl⟩
abbrev main_v45 : Ref sig .tc := ⟨.hbm, 122, rfl⟩
abbrev main_v46 : Ref sig .tc := ⟨.hbm, 123, rfl⟩
abbrev main_v47 : Ref sig .tc := ⟨.hbm, 124, rfl⟩
abbrev main_v48 : Ref sig .tc := ⟨.hbm, 125, rfl⟩
abbrev main_cst_6 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_c_7 : Ref sig .tc := ⟨.hbm, 130, rfl⟩
abbrev main_v52 : Ref sig .tc := ⟨.hbm, 131, rfl⟩
abbrev main_v53 : Ref sig .tc := ⟨.hbm, 132, rfl⟩
abbrev main_c_8 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_cst_9 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_c_10 : Ref sig .tc := ⟨.hbm, 144, rfl⟩
abbrev main_v63 : Ref sig .tc := ⟨.hbm, 145, rfl⟩
abbrev main_v64 : Ref sig .tc := ⟨.hbm, 146, rfl⟩
abbrev main_c_11 : Ref sig .tc := ⟨.hbm, 147, rfl⟩
abbrev main_v65 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_cst_12 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_v83 : Ref sig .tc := ⟨.hbm, 167, rfl⟩
abbrev main_v84 : Ref sig .tc := ⟨.hbm, 168, rfl⟩
abbrev main_c_13 : Ref sig .tc := ⟨.hbm, 169, rfl⟩
abbrev main_v85 : Ref sig .tc := ⟨.hbm, 170, rfl⟩
abbrev main_v86 : Ref sig .tc := ⟨.hbm, 171, rfl⟩
abbrev main_c_14 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_v91 : Ref sig .tc := ⟨.hbm, 177, rfl⟩
abbrev main_cst_15 : Ref sig .tc := ⟨.hbm, 178, rfl⟩
abbrev main_v92 : Ref sig .tc := ⟨.hbm, 179, rfl⟩
abbrev main_v93 : Ref sig .tc := ⟨.hbm, 180, rfl⟩
abbrev main_v94 : Ref sig .tc := ⟨.hbm, 181, rfl⟩
abbrev main_c_16 : Ref sig .tc := ⟨.hbm, 182, rfl⟩
abbrev main_v95 : Ref sig .tc := ⟨.hbm, 183, rfl⟩
abbrev main_v96 : Ref sig .tc := ⟨.hbm, 184, rfl⟩
abbrev main_c_17 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_cst_18 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_v105 : Ref sig .tc := ⟨.hbm, 195, rfl⟩
abbrev main_c_19 : Ref sig .tc := ⟨.hbm, 196, rfl⟩
abbrev main_v106 : Ref sig .tc := ⟨.hbm, 197, rfl⟩
abbrev main_v107 : Ref sig .tc := ⟨.hbm, 198, rfl⟩
abbrev main_c_20 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_cst_21 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_v117 : Ref sig .tc := ⟨.hbm, 210, rfl⟩
abbrev main_v118 : Ref sig .tc := ⟨.hbm, 211, rfl⟩
abbrev main_v119 : Ref sig .tc := ⟨.hbm, 212, rfl⟩
abbrev main_v120 : Ref sig .tc := ⟨.hbm, 213, rfl⟩
abbrev main_v121 : Ref sig .tc := ⟨.hbm, 214, rfl⟩
abbrev main_v122 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_c_22 : Ref sig .tc := ⟨.hbm, 221, rfl⟩
abbrev main_v128 : Ref sig .tc := ⟨.hbm, 222, rfl⟩
abbrev main_v129 : Ref sig .tc := ⟨.hbm, 223, rfl⟩
abbrev main_c_23 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_v134 : Ref sig .tc := ⟨.hbm, 229, rfl⟩
abbrev main_cst_24 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩
abbrev main_c_25 : Ref sig .tc := ⟨.hbm, 234, rfl⟩
abbrev main_v138 : Ref sig .tc := ⟨.hbm, 235, rfl⟩
abbrev main_v139 : Ref sig .tc := ⟨.hbm, 236, rfl⟩
abbrev main_c_26 : Ref sig .tc := ⟨.hbm, 237, rfl⟩
abbrev main_v140 : Ref sig .tc := ⟨.hbm, 238, rfl⟩
abbrev main_v141 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_cst_27 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_v148 : Ref sig .tc := ⟨.hbm, 247, rfl⟩
abbrev main_c_28 : Ref sig .tc := ⟨.hbm, 248, rfl⟩
abbrev main_v149 : Ref sig .tc := ⟨.hbm, 249, rfl⟩
abbrev main_v150 : Ref sig .tc := ⟨.hbm, 250, rfl⟩
abbrev main_c_29 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_cst_30 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_v166 : Ref sig .tc := ⟨.hbm, 268, rfl⟩
abbrev main_v167 : Ref sig .tc := ⟨.hbm, 269, rfl⟩
abbrev main_v168 : Ref sig .tc := ⟨.hbm, 270, rfl⟩
abbrev main_v169 : Ref sig .tc := ⟨.hbm, 271, rfl⟩
abbrev main_v170 : Ref sig .tc := ⟨.hbm, 272, rfl⟩
abbrev main_c_31 : Ref sig .tc := ⟨.hbm, 273, rfl⟩
abbrev main_v171 : Ref sig .tc := ⟨.hbm, 274, rfl⟩
abbrev main_v172 : Ref sig .tc := ⟨.hbm, 275, rfl⟩
abbrev main_c_32 : Ref sig .tc := ⟨.hbm, 276, rfl⟩
abbrev main_v173 : Ref sig .tc := ⟨.hbm, 277, rfl⟩
abbrev main_v174 : Ref sig .tc := ⟨.hbm, 278, rfl⟩
abbrev main_v175 : Ref sig .tc := ⟨.hbm, 279, rfl⟩
abbrev main_v176 : Ref sig .tc := ⟨.hbm, 280, rfl⟩
abbrev main_v177 : Ref sig .tc := ⟨.hbm, 281, rfl⟩
abbrev main_cst_33 : Ref sig .tc := ⟨.hbm, 282, rfl⟩
abbrev main_v178 : Ref sig .tc := ⟨.hbm, 283, rfl⟩
abbrev main_v179 : Ref sig .tc := ⟨.hbm, 284, rfl⟩
abbrev main_v180 : Ref sig .tc := ⟨.hbm, 285, rfl⟩
abbrev main_c_34 : Ref sig .tc := ⟨.hbm, 286, rfl⟩
abbrev main_v181 : Ref sig .tc := ⟨.hbm, 287, rfl⟩
abbrev main_v182 : Ref sig .tc := ⟨.hbm, 288, rfl⟩
abbrev main_c_35 : Ref sig .tc := ⟨.hbm, 289, rfl⟩
abbrev main_v183 : Ref sig .tc := ⟨.hbm, 290, rfl⟩
abbrev main_v184 : Ref sig .tc := ⟨.hbm, 291, rfl⟩
abbrev main_v185 : Ref sig .tc := ⟨.hbm, 292, rfl⟩
abbrev main_v186 : Ref sig .tc := ⟨.hbm, 293, rfl⟩
abbrev main_v187 : Ref sig .tc := ⟨.hbm, 294, rfl⟩
abbrev main_cst_36 : Ref sig .tc := ⟨.hbm, 295, rfl⟩
abbrev main_v188 : Ref sig .tc := ⟨.hbm, 296, rfl⟩
abbrev main_v189 : Ref sig .tc := ⟨.hbm, 297, rfl⟩
abbrev main_v190 : Ref sig .tc := ⟨.hbm, 298, rfl⟩
abbrev main_v191 : Ref sig .tc := ⟨.hbm, 299, rfl⟩
abbrev main_c_37 : Ref sig .tc := ⟨.hbm, 300, rfl⟩
abbrev main_v192 : Ref sig .tc := ⟨.hbm, 301, rfl⟩
abbrev main_v193 : Ref sig .tc := ⟨.hbm, 302, rfl⟩
abbrev main_c_38 : Ref sig .tc := ⟨.hbm, 303, rfl⟩
abbrev main_v194 : Ref sig .tc := ⟨.hbm, 304, rfl⟩
abbrev main_v195 : Ref sig .tc := ⟨.hbm, 305, rfl⟩
abbrev main_v196 : Ref sig .tc := ⟨.hbm, 306, rfl⟩
abbrev main_v197 : Ref sig .tc := ⟨.hbm, 307, rfl⟩
abbrev main_v198 : Ref sig .tc := ⟨.hbm, 308, rfl⟩
abbrev main_cst_39 : Ref sig .tc := ⟨.hbm, 309, rfl⟩
abbrev main_v199 : Ref sig .tc := ⟨.hbm, 310, rfl⟩
abbrev main_v200 : Ref sig .tc := ⟨.hbm, 311, rfl⟩
abbrev main_v201 : Ref sig .tc := ⟨.hbm, 312, rfl⟩
abbrev main_v202 : Ref sig .tc := ⟨.hbm, 313, rfl⟩
abbrev main_v203 : Ref sig .tc := ⟨.hbm, 314, rfl⟩
abbrev main_v204 : Ref sig .tc := ⟨.hbm, 315, rfl⟩
abbrev main_v205 : Ref sig .tc := ⟨.hbm, 316, rfl⟩
abbrev main_v206 : Ref sig .tc := ⟨.hbm, 317, rfl⟩
abbrev main_v207 : Ref sig .tc := ⟨.hbm, 318, rfl⟩
abbrev main_v208 : Ref sig .tc := ⟨.hbm, 319, rfl⟩
abbrev main_v209 : Ref sig .tc := ⟨.hbm, 320, rfl⟩
abbrev main_v210 : Ref sig .tc := ⟨.hbm, 321, rfl⟩
abbrev main_v211 : Ref sig .tc := ⟨.hbm, 322, rfl⟩
abbrev main_v212 : Ref sig .tc := ⟨.hbm, 323, rfl⟩
abbrev main_v213 : Ref sig .tc := ⟨.hbm, 324, rfl⟩
abbrev main_v214 : Ref sig .tc := ⟨.hbm, 325, rfl⟩
abbrev main_v215 : Ref sig .tc := ⟨.hbm, 326, rfl⟩
abbrev main_cst_40 : Ref sig .tc := ⟨.hbm, 327, rfl⟩
abbrev main_v216 : Ref sig .tc := ⟨.hbm, 328, rfl⟩
abbrev main_v217 : Ref sig .tc := ⟨.hbm, 329, rfl⟩
abbrev main_cst_41 : Ref sig .tc := ⟨.hbm, 330, rfl⟩
abbrev main_v218 : Ref sig .tc := ⟨.hbm, 331, rfl⟩
abbrev main_v219 : Ref sig .tc := ⟨.hbm, 332, rfl⟩
abbrev main_c_42 : Ref sig .tc := ⟨.hbm, 333, rfl⟩
abbrev main_call2_cst : Ref sig .tc := ⟨.hbm, 334, rfl⟩
abbrev main_call2_v0 : Ref sig .tc := ⟨.hbm, 335, rfl⟩
abbrev main_call2_v1 : Ref sig .tc := ⟨.hbm, 336, rfl⟩
abbrev main_call2_cst_0 : Ref sig .tc := ⟨.hbm, 337, rfl⟩
abbrev main_call2_v2 : Ref sig .tc := ⟨.hbm, 338, rfl⟩
abbrev main_call2_v3 : Ref sig .tc := ⟨.hbm, 339, rfl⟩
abbrev main_call2_v4 : Ref sig .tc := ⟨.hbm, 340, rfl⟩
abbrev main_call2_v5 : Ref sig .tc := ⟨.hbm, 341, rfl⟩
abbrev main_call2_v6 : Ref sig .tc := ⟨.hbm, 342, rfl⟩
abbrev main_call2_v7 : Ref sig .tc := ⟨.hbm, 343, rfl⟩
abbrev main_call2_cst_1 : Ref sig .tc := ⟨.hbm, 344, rfl⟩
abbrev main_call2_v8 : Ref sig .tc := ⟨.hbm, 345, rfl⟩
abbrev main_call2_cst_2 : Ref sig .tc := ⟨.hbm, 346, rfl⟩
abbrev main_call2_v9 : Ref sig .tc := ⟨.hbm, 347, rfl⟩
abbrev main_call2_v10 : Ref sig .tc := ⟨.hbm, 348, rfl⟩
abbrev main_call2_v11 : Ref sig .tc := ⟨.hbm, 349, rfl⟩
abbrev main_call2_v12 : Ref sig .tc := ⟨.hbm, 350, rfl⟩
abbrev main_call2_cst_3 : Ref sig .tc := ⟨.hbm, 351, rfl⟩
abbrev main_call2_v13 : Ref sig .tc := ⟨.hbm, 352, rfl⟩
abbrev main_call2_cst_4 : Ref sig .tc := ⟨.hbm, 353, rfl⟩
abbrev main_call2_call0_v0 : Ref sig .tc := ⟨.hbm, 354, rfl⟩
abbrev main_call2_call0_v1 : Ref sig .tc := ⟨.hbm, 355, rfl⟩
abbrev main_v220 : Ref sig .tc := ⟨.hbm, 356, rfl⟩
abbrev main_cst_43 : Ref sig .tc := ⟨.hbm, 357, rfl⟩
abbrev main_v221 : Ref sig .tc := ⟨.hbm, 358, rfl⟩
abbrev main_v222 : Ref sig .tc := ⟨.hbm, 359, rfl⟩
abbrev main_cst_44 : Ref sig .tc := ⟨.hbm, 360, rfl⟩
abbrev main_v223 : Ref sig .tc := ⟨.hbm, 361, rfl⟩
abbrev main_v224 : Ref sig .tc := ⟨.hbm, 362, rfl⟩
abbrev main_c_45 : Ref sig .tc := ⟨.hbm, 363, rfl⟩
abbrev main_call3_cst : Ref sig .tc := ⟨.hbm, 364, rfl⟩
abbrev main_call3_v0 : Ref sig .tc := ⟨.hbm, 365, rfl⟩
abbrev main_call3_v1 : Ref sig .tc := ⟨.hbm, 366, rfl⟩
abbrev main_call3_cst_0 : Ref sig .tc := ⟨.hbm, 367, rfl⟩
abbrev main_call3_v2 : Ref sig .tc := ⟨.hbm, 368, rfl⟩
abbrev main_call3_v3 : Ref sig .tc := ⟨.hbm, 369, rfl⟩
abbrev main_call3_v4 : Ref sig .tc := ⟨.hbm, 370, rfl⟩
abbrev main_call3_v5 : Ref sig .tc := ⟨.hbm, 371, rfl⟩
abbrev main_call3_v6 : Ref sig .tc := ⟨.hbm, 372, rfl⟩
abbrev main_call3_v7 : Ref sig .tc := ⟨.hbm, 373, rfl⟩
abbrev main_call3_cst_1 : Ref sig .tc := ⟨.hbm, 374, rfl⟩
abbrev main_call3_v8 : Ref sig .tc := ⟨.hbm, 375, rfl⟩
abbrev main_call3_cst_2 : Ref sig .tc := ⟨.hbm, 376, rfl⟩
abbrev main_call3_v9 : Ref sig .tc := ⟨.hbm, 377, rfl⟩
abbrev main_call3_v10 : Ref sig .tc := ⟨.hbm, 378, rfl⟩
abbrev main_call3_v11 : Ref sig .tc := ⟨.hbm, 379, rfl⟩
abbrev main_call3_v12 : Ref sig .tc := ⟨.hbm, 380, rfl⟩
abbrev main_call3_cst_3 : Ref sig .tc := ⟨.hbm, 381, rfl⟩
abbrev main_call3_v13 : Ref sig .tc := ⟨.hbm, 382, rfl⟩
abbrev main_call3_cst_4 : Ref sig .tc := ⟨.hbm, 383, rfl⟩
abbrev main_call3_call0_v0 : Ref sig .tc := ⟨.hbm, 384, rfl⟩
abbrev main_call3_call0_v1 : Ref sig .tc := ⟨.hbm, 385, rfl⟩
abbrev main_v225 : Ref sig .tc := ⟨.hbm, 386, rfl⟩
abbrev main_v226 : Ref sig .tc := ⟨.hbm, 387, rfl⟩
abbrev main_v227 : Ref sig .tc := ⟨.hbm, 388, rfl⟩
abbrev main_v228 : Ref sig .tc := ⟨.hbm, 389, rfl⟩
abbrev main_v229 : Ref sig .tc := ⟨.hbm, 390, rfl⟩
abbrev main_v230 : Ref sig .tc := ⟨.hbm, 391, rfl⟩
abbrev main_v231 : Ref sig .tc := ⟨.hbm, 392, rfl⟩
abbrev main_v232 : Ref sig .tc := ⟨.hbm, 393, rfl⟩
abbrev main_v233 : Ref sig .tc := ⟨.hbm, 394, rfl⟩
abbrev main_v234 : Ref sig .tc := ⟨.hbm, 395, rfl⟩
abbrev main_v235 : Ref sig .tc := ⟨.hbm, 396, rfl⟩
abbrev main_v236 : Ref sig .tc := ⟨.hbm, 397, rfl⟩
abbrev main_v237_0 : Ref sig .tc := ⟨.hbm, 398, rfl⟩
abbrev main_v237_1 : Ref sig .tc := ⟨.hbm, 399, rfl⟩
abbrev main_v238 : Ref sig .tc := ⟨.hbm, 400, rfl⟩
abbrev main_v239 : Ref sig .tc := ⟨.hbm, 401, rfl⟩
abbrev main_v240 : Ref sig .tc := ⟨.hbm, 402, rfl⟩
abbrev main_v241 : Ref sig .tc := ⟨.hbm, 403, rfl⟩
abbrev main_v242 : Ref sig .tc := ⟨.hbm, 404, rfl⟩
abbrev main_v243 : Ref sig .tc := ⟨.hbm, 405, rfl⟩
abbrev main_v244 : Ref sig .tc := ⟨.hbm, 406, rfl⟩
abbrev main_v245 : Ref sig .tc := ⟨.hbm, 407, rfl⟩
abbrev main_v246 : Ref sig .tc := ⟨.hbm, 408, rfl⟩
abbrev main_v247 : Ref sig .tc := ⟨.hbm, 409, rfl⟩
abbrev main_v248 : Ref sig .tc := ⟨.hbm, 410, rfl⟩
abbrev main_v249_0 : Ref sig .tc := ⟨.hbm, 411, rfl⟩
abbrev main_v249_1 : Ref sig .tc := ⟨.hbm, 412, rfl⟩
abbrev main_c_46 : Ref sig .tc := ⟨.hbm, 413, rfl⟩
abbrev main_v250 : Ref sig .tc := ⟨.hbm, 414, rfl⟩
abbrev main_v251 : Ref sig .tc := ⟨.hbm, 415, rfl⟩
abbrev main_c_47 : Ref sig .tc := ⟨.hbm, 416, rfl⟩
abbrev main_v252 : Ref sig .tc := ⟨.hbm, 417, rfl⟩
abbrev main_v253 : Ref sig .tc := ⟨.hbm, 418, rfl⟩
abbrev main_v254 : Ref sig .tc := ⟨.hbm, 419, rfl⟩
abbrev main_v255 : Ref sig .tc := ⟨.hbm, 420, rfl⟩
abbrev main_v256 : Ref sig .tc := ⟨.hbm, 421, rfl⟩
abbrev main_cst_48 : Ref sig .tc := ⟨.hbm, 422, rfl⟩
abbrev main_v257 : Ref sig .tc := ⟨.hbm, 423, rfl⟩
abbrev main_v258 : Ref sig .tc := ⟨.hbm, 424, rfl⟩
abbrev main_v259 : Ref sig .tc := ⟨.hbm, 425, rfl⟩
abbrev main_c_49 : Ref sig .tc := ⟨.hbm, 426, rfl⟩
abbrev main_v260 : Ref sig .tc := ⟨.hbm, 427, rfl⟩
abbrev main_v261 : Ref sig .tc := ⟨.hbm, 428, rfl⟩
abbrev main_c_50 : Ref sig .tc := ⟨.hbm, 429, rfl⟩
abbrev main_v262 : Ref sig .tc := ⟨.hbm, 430, rfl⟩
abbrev main_v263 : Ref sig .tc := ⟨.hbm, 431, rfl⟩
abbrev main_v264 : Ref sig .tc := ⟨.hbm, 432, rfl⟩
abbrev main_v265 : Ref sig .tc := ⟨.hbm, 433, rfl⟩
abbrev main_v266 : Ref sig .tc := ⟨.hbm, 434, rfl⟩
abbrev main_cst_51 : Ref sig .tc := ⟨.hbm, 435, rfl⟩
abbrev main_v267 : Ref sig .tc := ⟨.hbm, 436, rfl⟩
abbrev main_v268 : Ref sig .tc := ⟨.hbm, 437, rfl⟩
abbrev main_v269 : Ref sig .tc := ⟨.hbm, 438, rfl⟩
abbrev main_v270 : Ref sig .tc := ⟨.hbm, 439, rfl⟩
abbrev main_c_52 : Ref sig .tc := ⟨.hbm, 440, rfl⟩
abbrev main_v271 : Ref sig .tc := ⟨.hbm, 441, rfl⟩
abbrev main_v272 : Ref sig .tc := ⟨.hbm, 442, rfl⟩
abbrev main_c_53 : Ref sig .tc := ⟨.hbm, 443, rfl⟩
abbrev main_v273 : Ref sig .tc := ⟨.hbm, 444, rfl⟩
abbrev main_v274 : Ref sig .tc := ⟨.hbm, 445, rfl⟩
abbrev main_v275 : Ref sig .tc := ⟨.hbm, 446, rfl⟩
abbrev main_v276 : Ref sig .tc := ⟨.hbm, 447, rfl⟩
abbrev main_v277 : Ref sig .tc := ⟨.hbm, 448, rfl⟩
abbrev main_cst_54 : Ref sig .tc := ⟨.hbm, 449, rfl⟩
abbrev main_v278 : Ref sig .tc := ⟨.hbm, 450, rfl⟩
abbrev main_v279 : Ref sig .tc := ⟨.hbm, 451, rfl⟩
abbrev main_v280 : Ref sig .tc := ⟨.hbm, 452, rfl⟩
abbrev main_v281 : Ref sig .tc := ⟨.hbm, 453, rfl⟩
abbrev main_v282 : Ref sig .tc := ⟨.hbm, 454, rfl⟩
abbrev main_v283 : Ref sig .tc := ⟨.hbm, 455, rfl⟩
abbrev main_v284 : Ref sig .tc := ⟨.hbm, 456, rfl⟩
abbrev main_v285 : Ref sig .tc := ⟨.hbm, 457, rfl⟩
abbrev main_v286 : Ref sig .tc := ⟨.hbm, 458, rfl⟩
abbrev main_v287 : Ref sig .tc := ⟨.hbm, 459, rfl⟩
abbrev main_v288 : Ref sig .tc := ⟨.hbm, 460, rfl⟩
abbrev main_v289 : Ref sig .tc := ⟨.hbm, 461, rfl⟩
abbrev main_v290 : Ref sig .tc := ⟨.hbm, 462, rfl⟩
abbrev main_v291 : Ref sig .tc := ⟨.hbm, 463, rfl⟩
abbrev main_v292 : Ref sig .tc := ⟨.hbm, 464, rfl⟩
abbrev main_c_55 : Ref sig .tc := ⟨.hbm, 465, rfl⟩
abbrev main_v293 : Ref sig .tc := ⟨.hbm, 466, rfl⟩
abbrev main_v294 : Ref sig .tc := ⟨.hbm, 467, rfl⟩
abbrev main_c_56 : Ref sig .tc := ⟨.hbm, 468, rfl⟩
abbrev main_v295 : Ref sig .tc := ⟨.hbm, 469, rfl⟩
abbrev main_v296 : Ref sig .tc := ⟨.hbm, 470, rfl⟩
abbrev main_v297 : Ref sig .tc := ⟨.hbm, 471, rfl⟩
abbrev main_v298 : Ref sig .tc := ⟨.hbm, 472, rfl⟩
abbrev main_v299 : Ref sig .tc := ⟨.hbm, 473, rfl⟩
abbrev main_cst_57 : Ref sig .tc := ⟨.hbm, 474, rfl⟩
abbrev main_v300 : Ref sig .tc := ⟨.hbm, 475, rfl⟩
abbrev main_v301 : Ref sig .tc := ⟨.hbm, 476, rfl⟩
abbrev main_v302 : Ref sig .tc := ⟨.hbm, 477, rfl⟩
abbrev main_c_58 : Ref sig .tc := ⟨.hbm, 478, rfl⟩
abbrev main_v303 : Ref sig .tc := ⟨.hbm, 479, rfl⟩
abbrev main_v304 : Ref sig .tc := ⟨.hbm, 480, rfl⟩
abbrev main_c_59 : Ref sig .tc := ⟨.hbm, 481, rfl⟩
abbrev main_v305 : Ref sig .tc := ⟨.hbm, 482, rfl⟩
abbrev main_v306 : Ref sig .tc := ⟨.hbm, 483, rfl⟩
abbrev main_v307 : Ref sig .tc := ⟨.hbm, 484, rfl⟩
abbrev main_v308 : Ref sig .tc := ⟨.hbm, 485, rfl⟩
abbrev main_v309 : Ref sig .tc := ⟨.hbm, 486, rfl⟩
abbrev main_cst_60 : Ref sig .tc := ⟨.hbm, 487, rfl⟩
abbrev main_v310 : Ref sig .tc := ⟨.hbm, 488, rfl⟩
abbrev main_v311 : Ref sig .tc := ⟨.hbm, 489, rfl⟩
abbrev main_v312 : Ref sig .tc := ⟨.hbm, 490, rfl⟩
abbrev main_v313 : Ref sig .tc := ⟨.hbm, 491, rfl⟩
abbrev main_c_61 : Ref sig .tc := ⟨.hbm, 492, rfl⟩
abbrev main_v314 : Ref sig .tc := ⟨.hbm, 493, rfl⟩
abbrev main_v315 : Ref sig .tc := ⟨.hbm, 494, rfl⟩
abbrev main_c_62 : Ref sig .tc := ⟨.hbm, 495, rfl⟩
abbrev main_v316 : Ref sig .tc := ⟨.hbm, 496, rfl⟩
abbrev main_v317 : Ref sig .tc := ⟨.hbm, 497, rfl⟩
abbrev main_v318 : Ref sig .tc := ⟨.hbm, 498, rfl⟩
abbrev main_v319 : Ref sig .tc := ⟨.hbm, 499, rfl⟩
abbrev main_v320 : Ref sig .tc := ⟨.hbm, 500, rfl⟩
abbrev main_cst_63 : Ref sig .tc := ⟨.hbm, 501, rfl⟩
abbrev main_v321 : Ref sig .tc := ⟨.hbm, 502, rfl⟩
abbrev main_v322 : Ref sig .tc := ⟨.hbm, 503, rfl⟩
abbrev main_v323 : Ref sig .tc := ⟨.hbm, 504, rfl⟩
abbrev main_v324 : Ref sig .tc := ⟨.hbm, 505, rfl⟩
abbrev main_v325 : Ref sig .tc := ⟨.hbm, 506, rfl⟩
abbrev main_v326 : Ref sig .tc := ⟨.hbm, 507, rfl⟩
abbrev main_v327 : Ref sig .tc := ⟨.hbm, 508, rfl⟩
abbrev main_v328 : Ref sig .tc := ⟨.hbm, 509, rfl⟩
abbrev main_v329 : Ref sig .tc := ⟨.hbm, 510, rfl⟩
abbrev main_v330 : Ref sig .tc := ⟨.hbm, 511, rfl⟩
abbrev main_v331 : Ref sig .tc := ⟨.hbm, 512, rfl⟩
abbrev main_v332 : Ref sig .tc := ⟨.hbm, 513, rfl⟩
abbrev main_v333 : Ref sig .tc := ⟨.hbm, 514, rfl⟩
abbrev main_v334 : Ref sig .tc := ⟨.hbm, 515, rfl⟩
abbrev main_v335 : Ref sig .tc := ⟨.hbm, 516, rfl⟩
abbrev main_c_64 : Ref sig .tc := ⟨.hbm, 517, rfl⟩
abbrev main_v336 : Ref sig .tc := ⟨.hbm, 518, rfl⟩
abbrev main_v337 : Ref sig .tc := ⟨.hbm, 519, rfl⟩
abbrev main_c_65 : Ref sig .tc := ⟨.hbm, 520, rfl⟩
abbrev main_v338 : Ref sig .tc := ⟨.hbm, 521, rfl⟩
abbrev main_v339 : Ref sig .tc := ⟨.hbm, 522, rfl⟩
abbrev main_v340 : Ref sig .tc := ⟨.hbm, 523, rfl⟩
abbrev main_v341 : Ref sig .tc := ⟨.hbm, 524, rfl⟩
abbrev main_v342 : Ref sig .tc := ⟨.hbm, 525, rfl⟩
abbrev main_cst_66 : Ref sig .tc := ⟨.hbm, 526, rfl⟩
abbrev main_v343 : Ref sig .tc := ⟨.hbm, 527, rfl⟩
abbrev main_v344 : Ref sig .tc := ⟨.hbm, 528, rfl⟩
abbrev main_v345 : Ref sig .tc := ⟨.hbm, 529, rfl⟩
abbrev main_c_67 : Ref sig .tc := ⟨.hbm, 530, rfl⟩
abbrev main_v346 : Ref sig .tc := ⟨.hbm, 531, rfl⟩
abbrev main_v347 : Ref sig .tc := ⟨.hbm, 532, rfl⟩
abbrev main_c_68 : Ref sig .tc := ⟨.hbm, 533, rfl⟩
abbrev main_v348 : Ref sig .tc := ⟨.hbm, 534, rfl⟩
abbrev main_v349 : Ref sig .tc := ⟨.hbm, 535, rfl⟩
abbrev main_v350 : Ref sig .tc := ⟨.hbm, 536, rfl⟩
abbrev main_v351 : Ref sig .tc := ⟨.hbm, 537, rfl⟩
abbrev main_v352 : Ref sig .tc := ⟨.hbm, 538, rfl⟩
abbrev main_cst_69 : Ref sig .tc := ⟨.hbm, 539, rfl⟩
abbrev main_v353 : Ref sig .tc := ⟨.hbm, 540, rfl⟩
abbrev main_v354 : Ref sig .tc := ⟨.hbm, 541, rfl⟩
abbrev main_v355 : Ref sig .tc := ⟨.hbm, 542, rfl⟩
abbrev main_v356 : Ref sig .tc := ⟨.hbm, 543, rfl⟩
abbrev main_c_70 : Ref sig .tc := ⟨.hbm, 544, rfl⟩
abbrev main_v357 : Ref sig .tc := ⟨.hbm, 545, rfl⟩
abbrev main_v358 : Ref sig .tc := ⟨.hbm, 546, rfl⟩
abbrev main_c_71 : Ref sig .tc := ⟨.hbm, 547, rfl⟩
abbrev main_v359 : Ref sig .tc := ⟨.hbm, 548, rfl⟩
abbrev main_v360 : Ref sig .tc := ⟨.hbm, 549, rfl⟩
abbrev main_v361 : Ref sig .tc := ⟨.hbm, 550, rfl⟩
abbrev main_v362 : Ref sig .tc := ⟨.hbm, 551, rfl⟩
abbrev main_v363 : Ref sig .tc := ⟨.hbm, 552, rfl⟩
abbrev main_cst_72 : Ref sig .tc := ⟨.hbm, 553, rfl⟩
abbrev main_v364 : Ref sig .tc := ⟨.hbm, 554, rfl⟩
abbrev main_v365 : Ref sig .tc := ⟨.hbm, 555, rfl⟩
abbrev main_v366 : Ref sig .tc := ⟨.hbm, 556, rfl⟩
abbrev main_v367 : Ref sig .tc := ⟨.hbm, 557, rfl⟩
abbrev main_v368 : Ref sig .tc := ⟨.hbm, 558, rfl⟩
abbrev main_v369 : Ref sig .tc := ⟨.hbm, 559, rfl⟩
abbrev main_v370 : Ref sig .tc := ⟨.hbm, 560, rfl⟩
abbrev main_v371 : Ref sig .tc := ⟨.hbm, 561, rfl⟩
abbrev main_v372 : Ref sig .tc := ⟨.hbm, 562, rfl⟩
abbrev main_v373 : Ref sig .tc := ⟨.hbm, 563, rfl⟩
abbrev main_v374 : Ref sig .tc := ⟨.hbm, 564, rfl⟩
abbrev main_v375 : Ref sig .tc := ⟨.hbm, 565, rfl⟩
abbrev main_v376 : Ref sig .tc := ⟨.hbm, 566, rfl⟩
abbrev main_v377 : Ref sig .tc := ⟨.hbm, 567, rfl⟩
abbrev main_v378 : Ref sig .tc := ⟨.hbm, 568, rfl⟩
abbrev main_c_73 : Ref sig .tc := ⟨.hbm, 569, rfl⟩
abbrev main_v379 : Ref sig .tc := ⟨.hbm, 570, rfl⟩
abbrev main_v380 : Ref sig .tc := ⟨.hbm, 571, rfl⟩
abbrev main_c_74 : Ref sig .tc := ⟨.hbm, 572, rfl⟩
abbrev main_v381 : Ref sig .tc := ⟨.hbm, 573, rfl⟩
abbrev main_v382 : Ref sig .tc := ⟨.hbm, 574, rfl⟩
abbrev main_v383 : Ref sig .tc := ⟨.hbm, 575, rfl⟩
abbrev main_v384 : Ref sig .tc := ⟨.hbm, 576, rfl⟩
abbrev main_v385 : Ref sig .tc := ⟨.hbm, 577, rfl⟩
abbrev main_cst_75 : Ref sig .tc := ⟨.hbm, 578, rfl⟩
abbrev main_v386 : Ref sig .tc := ⟨.hbm, 579, rfl⟩
abbrev main_v387 : Ref sig .tc := ⟨.hbm, 580, rfl⟩
abbrev main_v388 : Ref sig .tc := ⟨.hbm, 581, rfl⟩
abbrev main_c_76 : Ref sig .tc := ⟨.hbm, 582, rfl⟩
abbrev main_v389 : Ref sig .tc := ⟨.hbm, 583, rfl⟩
abbrev main_v390 : Ref sig .tc := ⟨.hbm, 584, rfl⟩
abbrev main_c_77 : Ref sig .tc := ⟨.hbm, 585, rfl⟩
abbrev main_v391 : Ref sig .tc := ⟨.hbm, 586, rfl⟩
abbrev main_v392 : Ref sig .tc := ⟨.hbm, 587, rfl⟩
abbrev main_v393 : Ref sig .tc := ⟨.hbm, 588, rfl⟩
abbrev main_v394 : Ref sig .tc := ⟨.hbm, 589, rfl⟩
abbrev main_v395 : Ref sig .tc := ⟨.hbm, 590, rfl⟩
abbrev main_cst_78 : Ref sig .tc := ⟨.hbm, 591, rfl⟩
abbrev main_v396 : Ref sig .tc := ⟨.hbm, 592, rfl⟩
abbrev main_v397 : Ref sig .tc := ⟨.hbm, 593, rfl⟩
abbrev main_v398 : Ref sig .tc := ⟨.hbm, 594, rfl⟩
abbrev main_v399 : Ref sig .tc := ⟨.hbm, 595, rfl⟩
abbrev main_c_79 : Ref sig .tc := ⟨.hbm, 596, rfl⟩
abbrev main_v400 : Ref sig .tc := ⟨.hbm, 597, rfl⟩
abbrev main_v401 : Ref sig .tc := ⟨.hbm, 598, rfl⟩
abbrev main_c_80 : Ref sig .tc := ⟨.hbm, 599, rfl⟩
abbrev main_v402 : Ref sig .tc := ⟨.hbm, 600, rfl⟩
abbrev main_v403 : Ref sig .tc := ⟨.hbm, 601, rfl⟩
abbrev main_v404 : Ref sig .tc := ⟨.hbm, 602, rfl⟩
abbrev main_v405 : Ref sig .tc := ⟨.hbm, 603, rfl⟩
abbrev main_v406 : Ref sig .tc := ⟨.hbm, 604, rfl⟩
abbrev main_cst_81 : Ref sig .tc := ⟨.hbm, 605, rfl⟩
abbrev main_v407 : Ref sig .tc := ⟨.hbm, 606, rfl⟩
abbrev main_v408 : Ref sig .tc := ⟨.hbm, 607, rfl⟩
abbrev main_v409 : Ref sig .tc := ⟨.hbm, 608, rfl⟩
abbrev main_v410 : Ref sig .tc := ⟨.hbm, 609, rfl⟩
abbrev main_v411 : Ref sig .tc := ⟨.hbm, 610, rfl⟩
abbrev main_v412 : Ref sig .tc := ⟨.hbm, 611, rfl⟩
abbrev main_v413 : Ref sig .tc := ⟨.hbm, 612, rfl⟩
abbrev main_v414 : Ref sig .tc := ⟨.hbm, 613, rfl⟩
abbrev main_v415 : Ref sig .tc := ⟨.hbm, 614, rfl⟩
abbrev main_v416 : Ref sig .tc := ⟨.hbm, 615, rfl⟩
abbrev main_v417 : Ref sig .tc := ⟨.hbm, 616, rfl⟩
abbrev main_v418 : Ref sig .tc := ⟨.hbm, 617, rfl⟩
abbrev main_v419 : Ref sig .tc := ⟨.hbm, 618, rfl⟩
abbrev main_v420 : Ref sig .tc := ⟨.hbm, 619, rfl⟩
abbrev main_v421 : Ref sig .tc := ⟨.hbm, 620, rfl⟩
abbrev main_v422 : Ref sig .tc := ⟨.hbm, 621, rfl⟩
abbrev main_v423 : Ref sig .tc := ⟨.hbm, 622, rfl⟩
abbrev main_v424 : Ref sig .tc := ⟨.hbm, 623, rfl⟩
abbrev main_v425 : Ref sig .tc := ⟨.hbm, 624, rfl⟩
abbrev main_v426 : Ref sig .tc := ⟨.hbm, 625, rfl⟩
abbrev main_v427 : Ref sig .tc := ⟨.hbm, 626, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg7_0 : Ref sig .tc := ⟨.vmem, 20, rfl⟩
abbrev cc2_stg7_1 : Ref sig .tc := ⟨.vmem, 21, rfl⟩
abbrev cc2_stg8_0 : Ref sig .tc := ⟨.vmem, 22, rfl⟩
abbrev cc2_stg8_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg6_0 : Ref sig .tc := ⟨.vmem, 31, rfl⟩
abbrev cc3_stg7_0 : Ref sig .tc := ⟨.vmem, 32, rfl⟩
abbrev cc3_stg7_1 : Ref sig .tc := ⟨.vmem, 33, rfl⟩
abbrev cc3_stg8_0 : Ref sig .tc := ⟨.vmem, 34, rfl⟩
abbrev cc3_stg8_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg4_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc5_stg4_0 : Ref sig .tc := ⟨.vmem, 50, rfl⟩
abbrev cc5_stg4_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg2_0 : Ref sig .tc := ⟨.vmem, 55, rfl⟩
abbrev cc6_stg3_0 : Ref sig .tc := ⟨.vmem, 56, rfl⟩
abbrev cc6_stg3_1 : Ref sig .tc := ⟨.vmem, 57, rfl⟩
abbrev cc6_stg4_0 : Ref sig .tc := ⟨.vmem, 58, rfl⟩
abbrev cc6_stg4_1 : Ref sig .tc := ⟨.vmem, 59, rfl⟩
abbrev cc7_stg0_0 : Ref sig .tc := ⟨.vmem, 60, rfl⟩
abbrev cc7_stg0_1 : Ref sig .tc := ⟨.vmem, 61, rfl⟩
abbrev cc7_stg1_0 : Ref sig .tc := ⟨.vmem, 62, rfl⟩
abbrev cc7_stg2_0 : Ref sig .tc := ⟨.vmem, 63, rfl⟩
abbrev cc7_stg3_0 : Ref sig .tc := ⟨.vmem, 64, rfl⟩
abbrev cc7_stg3_1 : Ref sig .tc := ⟨.vmem, 65, rfl⟩
abbrev cc7_stg4_0 : Ref sig .tc := ⟨.vmem, 66, rfl⟩
abbrev cc7_stg4_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg2_0 : Ref sig .tc := ⟨.vmem, 71, rfl⟩
abbrev cc8_stg3_0 : Ref sig .tc := ⟨.vmem, 72, rfl⟩
abbrev cc8_stg3_1 : Ref sig .tc := ⟨.vmem, 73, rfl⟩
abbrev cc8_stg4_0 : Ref sig .tc := ⟨.vmem, 74, rfl⟩
abbrev cc8_stg4_1 : Ref sig .tc := ⟨.vmem, 75, rfl⟩
abbrev cc9_stg0_0 : Ref sig .tc := ⟨.vmem, 76, rfl⟩
abbrev cc9_stg0_1 : Ref sig .tc := ⟨.vmem, 77, rfl⟩
abbrev cc9_stg1_0 : Ref sig .tc := ⟨.vmem, 78, rfl⟩
abbrev cc9_stg2_0 : Ref sig .tc := ⟨.vmem, 79, rfl⟩
abbrev cc9_stg3_0 : Ref sig .tc := ⟨.vmem, 80, rfl⟩
abbrev cc9_stg3_1 : Ref sig .tc := ⟨.vmem, 81, rfl⟩
abbrev cc9_stg4_0 : Ref sig .tc := ⟨.vmem, 82, rfl⟩
abbrev cc9_stg4_1 : Ref sig .tc := ⟨.vmem, 83, rfl⟩
abbrev cc10_stg0_0 : Ref sig .tc := ⟨.vmem, 84, rfl⟩
abbrev cc10_stg0_1 : Ref sig .tc := ⟨.vmem, 85, rfl⟩
abbrev cc10_stg1_0 : Ref sig .tc := ⟨.vmem, 86, rfl⟩
abbrev cc10_stg2_0 : Ref sig .tc := ⟨.vmem, 87, rfl⟩
abbrev cc10_stg3_0 : Ref sig .tc := ⟨.vmem, 88, rfl⟩
abbrev cc10_stg3_1 : Ref sig .tc := ⟨.vmem, 89, rfl⟩
abbrev cc10_stg4_0 : Ref sig .tc := ⟨.vmem, 90, rfl⟩
abbrev cc10_stg4_1 : Ref sig .tc := ⟨.vmem, 91, rfl⟩
abbrev cc11_stg0_0 : Ref sig .tc := ⟨.vmem, 92, rfl⟩
abbrev cc11_stg0_1 : Ref sig .tc := ⟨.vmem, 93, rfl⟩
abbrev cc11_stg1_0 : Ref sig .tc := ⟨.vmem, 94, rfl⟩
abbrev cc11_stg2_0 : Ref sig .tc := ⟨.vmem, 95, rfl⟩
abbrev cc11_stg3_0 : Ref sig .tc := ⟨.vmem, 96, rfl⟩
abbrev cc11_stg3_1 : Ref sig .tc := ⟨.vmem, 97, rfl⟩
abbrev cc11_stg4_0 : Ref sig .tc := ⟨.vmem, 98, rfl⟩
abbrev cc11_stg4_1 : Ref sig .tc := ⟨.vmem, 99, rfl⟩
abbrev cc12_stg0_0 : Ref sig .tc := ⟨.vmem, 100, rfl⟩
abbrev cc12_stg0_1 : Ref sig .tc := ⟨.vmem, 101, rfl⟩
abbrev cc12_stg1_0 : Ref sig .tc := ⟨.vmem, 102, rfl⟩
abbrev cc12_stg1_1 : Ref sig .tc := ⟨.vmem, 103, rfl⟩
abbrev cc12_stg2_0 : Ref sig .tc := ⟨.vmem, 104, rfl⟩
abbrev cc12_stg2_1 : Ref sig .tc := ⟨.vmem, 105, rfl⟩
abbrev cc13_stg0_0 : Ref sig .tc := ⟨.vmem, 106, rfl⟩
abbrev cc13_stg0_1 : Ref sig .tc := ⟨.vmem, 107, rfl⟩
abbrev cc13_stg1_0 : Ref sig .tc := ⟨.vmem, 108, rfl⟩
abbrev cc13_stg1_1 : Ref sig .tc := ⟨.vmem, 109, rfl⟩
abbrev cc13_stg2_0 : Ref sig .tc := ⟨.vmem, 110, rfl⟩
abbrev cc13_stg2_1 : Ref sig .tc := ⟨.vmem, 111, rfl⟩
abbrev cc14_stg0_0 : Ref sig .tc := ⟨.vmem, 112, rfl⟩
abbrev cc14_stg0_1 : Ref sig .tc := ⟨.vmem, 113, rfl⟩
abbrev cc14_stg1_0 : Ref sig .tc := ⟨.vmem, 114, rfl⟩
abbrev cc14_stg2_0 : Ref sig .tc := ⟨.vmem, 115, rfl⟩
abbrev cc14_stg3_0 : Ref sig .tc := ⟨.vmem, 116, rfl⟩
abbrev cc14_stg4_0 : Ref sig .tc := ⟨.vmem, 117, rfl⟩
abbrev cc14_stg5_0 : Ref sig .tc := ⟨.vmem, 118, rfl⟩
abbrev cc14_stg6_0 : Ref sig .tc := ⟨.vmem, 119, rfl⟩
abbrev cc14_stg7_0 : Ref sig .tc := ⟨.vmem, 120, rfl⟩
abbrev cc14_stg7_1 : Ref sig .tc := ⟨.vmem, 121, rfl⟩
abbrev cc14_stg8_0 : Ref sig .tc := ⟨.vmem, 122, rfl⟩
abbrev cc14_stg8_1 : Ref sig .tc := ⟨.vmem, 123, rfl⟩
abbrev cc15_stg0_0 : Ref sig .tc := ⟨.vmem, 124, rfl⟩
abbrev cc15_stg0_1 : Ref sig .tc := ⟨.vmem, 125, rfl⟩
abbrev cc15_stg1_0 : Ref sig .tc := ⟨.vmem, 126, rfl⟩
abbrev cc15_stg2_0 : Ref sig .tc := ⟨.vmem, 127, rfl⟩
abbrev cc15_stg3_0 : Ref sig .tc := ⟨.vmem, 128, rfl⟩
abbrev cc15_stg4_0 : Ref sig .tc := ⟨.vmem, 129, rfl⟩
abbrev cc15_stg5_0 : Ref sig .tc := ⟨.vmem, 130, rfl⟩
abbrev cc15_stg6_0 : Ref sig .tc := ⟨.vmem, 131, rfl⟩
abbrev cc15_stg7_0 : Ref sig .tc := ⟨.vmem, 132, rfl⟩
abbrev cc15_stg7_1 : Ref sig .tc := ⟨.vmem, 133, rfl⟩
abbrev cc15_stg8_0 : Ref sig .tc := ⟨.vmem, 134, rfl⟩
abbrev cc15_stg8_1 : Ref sig .tc := ⟨.vmem, 135, rfl⟩
abbrev cc16_stg0_0 : Ref sig .tc := ⟨.vmem, 136, rfl⟩
abbrev cc16_stg0_1 : Ref sig .tc := ⟨.vmem, 137, rfl⟩
abbrev cc16_stg1_0 : Ref sig .tc := ⟨.vmem, 138, rfl⟩
abbrev cc16_stg2_0 : Ref sig .tc := ⟨.vmem, 139, rfl⟩
abbrev cc16_stg3_0 : Ref sig .tc := ⟨.vmem, 140, rfl⟩
abbrev cc16_stg3_1 : Ref sig .tc := ⟨.vmem, 141, rfl⟩
abbrev cc16_stg4_0 : Ref sig .tc := ⟨.vmem, 142, rfl⟩
abbrev cc16_stg4_1 : Ref sig .tc := ⟨.vmem, 143, rfl⟩
abbrev cc17_stg0_0 : Ref sig .tc := ⟨.vmem, 144, rfl⟩
abbrev cc17_stg0_1 : Ref sig .tc := ⟨.vmem, 145, rfl⟩
abbrev cc17_stg1_0 : Ref sig .tc := ⟨.vmem, 146, rfl⟩
abbrev cc17_stg2_0 : Ref sig .tc := ⟨.vmem, 147, rfl⟩
abbrev cc17_stg3_0 : Ref sig .tc := ⟨.vmem, 148, rfl⟩
abbrev cc17_stg3_1 : Ref sig .tc := ⟨.vmem, 149, rfl⟩
abbrev cc17_stg4_0 : Ref sig .tc := ⟨.vmem, 150, rfl⟩
abbrev cc17_stg4_1 : Ref sig .tc := ⟨.vmem, 151, rfl⟩
abbrev cc18_stg0_0 : Ref sig .tc := ⟨.vmem, 152, rfl⟩
abbrev cc18_stg0_1 : Ref sig .tc := ⟨.vmem, 153, rfl⟩
abbrev cc18_stg1_0 : Ref sig .tc := ⟨.vmem, 154, rfl⟩
abbrev cc18_stg2_0 : Ref sig .tc := ⟨.vmem, 155, rfl⟩
abbrev cc18_stg3_0 : Ref sig .tc := ⟨.vmem, 156, rfl⟩
abbrev cc18_stg3_1 : Ref sig .tc := ⟨.vmem, 157, rfl⟩
abbrev cc18_stg4_0 : Ref sig .tc := ⟨.vmem, 158, rfl⟩
abbrev cc18_stg4_1 : Ref sig .tc := ⟨.vmem, 159, rfl⟩
abbrev cc19_stg0_0 : Ref sig .tc := ⟨.vmem, 160, rfl⟩
abbrev cc19_stg0_1 : Ref sig .tc := ⟨.vmem, 161, rfl⟩
abbrev cc19_stg1_0 : Ref sig .tc := ⟨.vmem, 162, rfl⟩
abbrev cc19_stg2_0 : Ref sig .tc := ⟨.vmem, 163, rfl⟩
abbrev cc19_stg3_0 : Ref sig .tc := ⟨.vmem, 164, rfl⟩
abbrev cc19_stg3_1 : Ref sig .tc := ⟨.vmem, 165, rfl⟩
abbrev cc19_stg4_0 : Ref sig .tc := ⟨.vmem, 166, rfl⟩
abbrev cc19_stg4_1 : Ref sig .tc := ⟨.vmem, 167, rfl⟩
abbrev cc20_stg0_0 : Ref sig .tc := ⟨.vmem, 168, rfl⟩
abbrev cc20_stg0_1 : Ref sig .tc := ⟨.vmem, 169, rfl⟩
abbrev cc20_stg1_0 : Ref sig .tc := ⟨.vmem, 170, rfl⟩
abbrev cc20_stg2_0 : Ref sig .tc := ⟨.vmem, 171, rfl⟩
abbrev cc20_stg3_0 : Ref sig .tc := ⟨.vmem, 172, rfl⟩
abbrev cc20_stg3_1 : Ref sig .tc := ⟨.vmem, 173, rfl⟩
abbrev cc20_stg4_0 : Ref sig .tc := ⟨.vmem, 174, rfl⟩
abbrev cc20_stg4_1 : Ref sig .tc := ⟨.vmem, 175, rfl⟩
abbrev cc21_stg0_0 : Ref sig .tc := ⟨.vmem, 176, rfl⟩
abbrev cc21_stg0_1 : Ref sig .tc := ⟨.vmem, 177, rfl⟩
abbrev cc21_stg1_0 : Ref sig .tc := ⟨.vmem, 178, rfl⟩
abbrev cc21_stg2_0 : Ref sig .tc := ⟨.vmem, 179, rfl⟩
abbrev cc21_stg3_0 : Ref sig .tc := ⟨.vmem, 180, rfl⟩
abbrev cc21_stg3_1 : Ref sig .tc := ⟨.vmem, 181, rfl⟩
abbrev cc21_stg4_0 : Ref sig .tc := ⟨.vmem, 182, rfl⟩
abbrev cc21_stg4_1 : Ref sig .tc := ⟨.vmem, 183, rfl⟩
abbrev cc22_stg0_0 : Ref sig .tc := ⟨.vmem, 184, rfl⟩
abbrev cc22_stg0_1 : Ref sig .tc := ⟨.vmem, 185, rfl⟩
abbrev cc22_stg1_0 : Ref sig .tc := ⟨.vmem, 186, rfl⟩
abbrev cc22_stg2_0 : Ref sig .tc := ⟨.vmem, 187, rfl⟩
abbrev cc22_stg3_0 : Ref sig .tc := ⟨.vmem, 188, rfl⟩
abbrev cc22_stg3_1 : Ref sig .tc := ⟨.vmem, 189, rfl⟩
abbrev cc22_stg4_0 : Ref sig .tc := ⟨.vmem, 190, rfl⟩
abbrev cc22_stg4_1 : Ref sig .tc := ⟨.vmem, 191, rfl⟩
abbrev cc23_stg0_0 : Ref sig .tc := ⟨.vmem, 192, rfl⟩
abbrev cc23_stg0_1 : Ref sig .tc := ⟨.vmem, 193, rfl⟩
abbrev cc23_stg1_0 : Ref sig .tc := ⟨.vmem, 194, rfl⟩
abbrev cc23_stg2_0 : Ref sig .tc := ⟨.vmem, 195, rfl⟩
abbrev cc23_stg3_0 : Ref sig .tc := ⟨.vmem, 196, rfl⟩
abbrev cc23_stg3_1 : Ref sig .tc := ⟨.vmem, 197, rfl⟩
abbrev cc23_stg4_0 : Ref sig .tc := ⟨.vmem, 198, rfl⟩
abbrev cc23_stg4_1 : Ref sig .tc := ⟨.vmem, 199, rfl⟩
abbrev cc24_stg0_0 : Ref sig .tc := ⟨.vmem, 200, rfl⟩
abbrev cc24_stg0_1 : Ref sig .tc := ⟨.vmem, 201, rfl⟩
abbrev cc24_stg1_0 : Ref sig .tc := ⟨.vmem, 202, rfl⟩
abbrev cc24_stg1_1 : Ref sig .tc := ⟨.vmem, 203, rfl⟩
abbrev cc24_stg2_0 : Ref sig .tc := ⟨.vmem, 204, rfl⟩
abbrev cc24_stg2_1 : Ref sig .tc := ⟨.vmem, 205, rfl⟩
abbrev cc25_stg0_0 : Ref sig .tc := ⟨.vmem, 206, rfl⟩
abbrev cc25_stg0_1 : Ref sig .tc := ⟨.vmem, 207, rfl⟩
abbrev cc25_stg1_0 : Ref sig .tc := ⟨.vmem, 208, rfl⟩
abbrev cc25_stg1_1 : Ref sig .tc := ⟨.vmem, 209, rfl⟩
abbrev cc25_stg2_0 : Ref sig .tc := ⟨.vmem, 210, rfl⟩
abbrev cc25_stg2_1 : Ref sig .tc := ⟨.vmem, 211, rfl⟩
abbrev cc26_stg0_0 : Ref sig .tc := ⟨.vmem, 212, rfl⟩
abbrev cc26_stg0_1 : Ref sig .tc := ⟨.vmem, 213, rfl⟩
abbrev cc26_stg1_0 : Ref sig .tc := ⟨.vmem, 214, rfl⟩
abbrev cc26_stg2_0 : Ref sig .tc := ⟨.vmem, 215, rfl⟩
abbrev cc26_stg3_0 : Ref sig .tc := ⟨.vmem, 216, rfl⟩
abbrev cc26_stg3_1 : Ref sig .tc := ⟨.vmem, 217, rfl⟩
abbrev cc27_stg0_0 : Ref sig .tc := ⟨.vmem, 218, rfl⟩
abbrev cc27_stg0_1 : Ref sig .tc := ⟨.vmem, 219, rfl⟩
abbrev cc27_stg1_0 : Ref sig .tc := ⟨.vmem, 220, rfl⟩
abbrev cc27_stg2_0 : Ref sig .tc := ⟨.vmem, 221, rfl⟩
abbrev cc27_stg3_0 : Ref sig .tc := ⟨.vmem, 222, rfl⟩
abbrev cc27_stg3_1 : Ref sig .tc := ⟨.vmem, 223, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem6_0 : DmaSem sig := 19
abbrev cc2_sem7_0 : DmaSem sig := 20
abbrev cc2_sem7_1 : DmaSem sig := 21
abbrev cc2_sem8_0 : DmaSem sig := 22
abbrev cc2_sem8_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem7_1 : DmaSem sig := 33
abbrev cc3_sem8_0 : DmaSem sig := 34
abbrev cc3_sem8_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41
abbrev cc4_sem4_0 : DmaSem sig := 42
abbrev cc4_sem4_1 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem3_1 : DmaSem sig := 49
abbrev cc5_sem4_0 : DmaSem sig := 50
abbrev cc5_sem4_1 : DmaSem sig := 51
abbrev cc6_sem0_0 : DmaSem sig := 52
abbrev cc6_sem0_1 : DmaSem sig := 53
abbrev cc6_sem1_0 : DmaSem sig := 54
abbrev cc6_sem2_0 : DmaSem sig := 55
abbrev cc6_sem3_0 : DmaSem sig := 56
abbrev cc6_sem3_1 : DmaSem sig := 57
abbrev cc6_sem4_0 : DmaSem sig := 58
abbrev cc6_sem4_1 : DmaSem sig := 59
abbrev cc7_sem0_0 : DmaSem sig := 60
abbrev cc7_sem0_1 : DmaSem sig := 61
abbrev cc7_sem1_0 : DmaSem sig := 62
abbrev cc7_sem2_0 : DmaSem sig := 63
abbrev cc7_sem3_0 : DmaSem sig := 64
abbrev cc7_sem3_1 : DmaSem sig := 65
abbrev cc7_sem4_0 : DmaSem sig := 66
abbrev cc7_sem4_1 : DmaSem sig := 67
abbrev cc8_sem0_0 : DmaSem sig := 68
abbrev cc8_sem0_1 : DmaSem sig := 69
abbrev cc8_sem1_0 : DmaSem sig := 70
abbrev cc8_sem2_0 : DmaSem sig := 71
abbrev cc8_sem3_0 : DmaSem sig := 72
abbrev cc8_sem3_1 : DmaSem sig := 73
abbrev cc8_sem4_0 : DmaSem sig := 74
abbrev cc8_sem4_1 : DmaSem sig := 75
abbrev cc9_sem0_0 : DmaSem sig := 76
abbrev cc9_sem0_1 : DmaSem sig := 77
abbrev cc9_sem1_0 : DmaSem sig := 78
abbrev cc9_sem2_0 : DmaSem sig := 79
abbrev cc9_sem3_0 : DmaSem sig := 80
abbrev cc9_sem3_1 : DmaSem sig := 81
abbrev cc9_sem4_0 : DmaSem sig := 82
abbrev cc9_sem4_1 : DmaSem sig := 83
abbrev cc10_sem0_0 : DmaSem sig := 84
abbrev cc10_sem0_1 : DmaSem sig := 85
abbrev cc10_sem1_0 : DmaSem sig := 86
abbrev cc10_sem2_0 : DmaSem sig := 87
abbrev cc10_sem3_0 : DmaSem sig := 88
abbrev cc10_sem3_1 : DmaSem sig := 89
abbrev cc10_sem4_0 : DmaSem sig := 90
abbrev cc10_sem4_1 : DmaSem sig := 91
abbrev cc11_sem0_0 : DmaSem sig := 92
abbrev cc11_sem0_1 : DmaSem sig := 93
abbrev cc11_sem1_0 : DmaSem sig := 94
abbrev cc11_sem2_0 : DmaSem sig := 95
abbrev cc11_sem3_0 : DmaSem sig := 96
abbrev cc11_sem3_1 : DmaSem sig := 97
abbrev cc11_sem4_0 : DmaSem sig := 98
abbrev cc11_sem4_1 : DmaSem sig := 99
abbrev cc12_sem0_0 : DmaSem sig := 100
abbrev cc12_sem0_1 : DmaSem sig := 101
abbrev cc12_sem1_0 : DmaSem sig := 102
abbrev cc12_sem1_1 : DmaSem sig := 103
abbrev cc12_sem2_0 : DmaSem sig := 104
abbrev cc12_sem2_1 : DmaSem sig := 105
abbrev cc13_sem0_0 : DmaSem sig := 106
abbrev cc13_sem0_1 : DmaSem sig := 107
abbrev cc13_sem1_0 : DmaSem sig := 108
abbrev cc13_sem1_1 : DmaSem sig := 109
abbrev cc13_sem2_0 : DmaSem sig := 110
abbrev cc13_sem2_1 : DmaSem sig := 111
abbrev cc14_sem0_0 : DmaSem sig := 112
abbrev cc14_sem0_1 : DmaSem sig := 113
abbrev cc14_sem1_0 : DmaSem sig := 114
abbrev cc14_sem2_0 : DmaSem sig := 115
abbrev cc14_sem3_0 : DmaSem sig := 116
abbrev cc14_sem4_0 : DmaSem sig := 117
abbrev cc14_sem5_0 : DmaSem sig := 118
abbrev cc14_sem6_0 : DmaSem sig := 119
abbrev cc14_sem7_0 : DmaSem sig := 120
abbrev cc14_sem7_1 : DmaSem sig := 121
abbrev cc14_sem8_0 : DmaSem sig := 122
abbrev cc14_sem8_1 : DmaSem sig := 123
abbrev cc15_sem0_0 : DmaSem sig := 124
abbrev cc15_sem0_1 : DmaSem sig := 125
abbrev cc15_sem1_0 : DmaSem sig := 126
abbrev cc15_sem2_0 : DmaSem sig := 127
abbrev cc15_sem3_0 : DmaSem sig := 128
abbrev cc15_sem4_0 : DmaSem sig := 129
abbrev cc15_sem5_0 : DmaSem sig := 130
abbrev cc15_sem6_0 : DmaSem sig := 131
abbrev cc15_sem7_0 : DmaSem sig := 132
abbrev cc15_sem7_1 : DmaSem sig := 133
abbrev cc15_sem8_0 : DmaSem sig := 134
abbrev cc15_sem8_1 : DmaSem sig := 135
abbrev cc16_sem0_0 : DmaSem sig := 136
abbrev cc16_sem0_1 : DmaSem sig := 137
abbrev cc16_sem1_0 : DmaSem sig := 138
abbrev cc16_sem2_0 : DmaSem sig := 139
abbrev cc16_sem3_0 : DmaSem sig := 140
abbrev cc16_sem3_1 : DmaSem sig := 141
abbrev cc16_sem4_0 : DmaSem sig := 142
abbrev cc16_sem4_1 : DmaSem sig := 143
abbrev cc17_sem0_0 : DmaSem sig := 144
abbrev cc17_sem0_1 : DmaSem sig := 145
abbrev cc17_sem1_0 : DmaSem sig := 146
abbrev cc17_sem2_0 : DmaSem sig := 147
abbrev cc17_sem3_0 : DmaSem sig := 148
abbrev cc17_sem3_1 : DmaSem sig := 149
abbrev cc17_sem4_0 : DmaSem sig := 150
abbrev cc17_sem4_1 : DmaSem sig := 151
abbrev cc18_sem0_0 : DmaSem sig := 152
abbrev cc18_sem0_1 : DmaSem sig := 153
abbrev cc18_sem1_0 : DmaSem sig := 154
abbrev cc18_sem2_0 : DmaSem sig := 155
abbrev cc18_sem3_0 : DmaSem sig := 156
abbrev cc18_sem3_1 : DmaSem sig := 157
abbrev cc18_sem4_0 : DmaSem sig := 158
abbrev cc18_sem4_1 : DmaSem sig := 159
abbrev cc19_sem0_0 : DmaSem sig := 160
abbrev cc19_sem0_1 : DmaSem sig := 161
abbrev cc19_sem1_0 : DmaSem sig := 162
abbrev cc19_sem2_0 : DmaSem sig := 163
abbrev cc19_sem3_0 : DmaSem sig := 164
abbrev cc19_sem3_1 : DmaSem sig := 165
abbrev cc19_sem4_0 : DmaSem sig := 166
abbrev cc19_sem4_1 : DmaSem sig := 167
abbrev cc20_sem0_0 : DmaSem sig := 168
abbrev cc20_sem0_1 : DmaSem sig := 169
abbrev cc20_sem1_0 : DmaSem sig := 170
abbrev cc20_sem2_0 : DmaSem sig := 171
abbrev cc20_sem3_0 : DmaSem sig := 172
abbrev cc20_sem3_1 : DmaSem sig := 173
abbrev cc20_sem4_0 : DmaSem sig := 174
abbrev cc20_sem4_1 : DmaSem sig := 175
abbrev cc21_sem0_0 : DmaSem sig := 176
abbrev cc21_sem0_1 : DmaSem sig := 177
abbrev cc21_sem1_0 : DmaSem sig := 178
abbrev cc21_sem2_0 : DmaSem sig := 179
abbrev cc21_sem3_0 : DmaSem sig := 180
abbrev cc21_sem3_1 : DmaSem sig := 181
abbrev cc21_sem4_0 : DmaSem sig := 182
abbrev cc21_sem4_1 : DmaSem sig := 183
abbrev cc22_sem0_0 : DmaSem sig := 184
abbrev cc22_sem0_1 : DmaSem sig := 185
abbrev cc22_sem1_0 : DmaSem sig := 186
abbrev cc22_sem2_0 : DmaSem sig := 187
abbrev cc22_sem3_0 : DmaSem sig := 188
abbrev cc22_sem3_1 : DmaSem sig := 189
abbrev cc22_sem4_0 : DmaSem sig := 190
abbrev cc22_sem4_1 : DmaSem sig := 191
abbrev cc23_sem0_0 : DmaSem sig := 192
abbrev cc23_sem0_1 : DmaSem sig := 193
abbrev cc23_sem1_0 : DmaSem sig := 194
abbrev cc23_sem2_0 : DmaSem sig := 195
abbrev cc23_sem3_0 : DmaSem sig := 196
abbrev cc23_sem3_1 : DmaSem sig := 197
abbrev cc23_sem4_0 : DmaSem sig := 198
abbrev cc23_sem4_1 : DmaSem sig := 199
abbrev cc24_sem0_0 : DmaSem sig := 200
abbrev cc24_sem0_1 : DmaSem sig := 201
abbrev cc24_sem1_0 : DmaSem sig := 202
abbrev cc24_sem1_1 : DmaSem sig := 203
abbrev cc24_sem2_0 : DmaSem sig := 204
abbrev cc24_sem2_1 : DmaSem sig := 205
abbrev cc25_sem0_0 : DmaSem sig := 206
abbrev cc25_sem0_1 : DmaSem sig := 207
abbrev cc25_sem1_0 : DmaSem sig := 208
abbrev cc25_sem1_1 : DmaSem sig := 209
abbrev cc25_sem2_0 : DmaSem sig := 210
abbrev cc25_sem2_1 : DmaSem sig := 211
abbrev cc26_sem0_0 : DmaSem sig := 212
abbrev cc26_sem0_1 : DmaSem sig := 213
abbrev cc26_sem1_0 : DmaSem sig := 214
abbrev cc26_sem2_0 : DmaSem sig := 215
abbrev cc26_sem3_0 : DmaSem sig := 216
abbrev cc26_sem3_1 : DmaSem sig := 217
abbrev cc27_sem0_0 : DmaSem sig := 218
abbrev cc27_sem0_1 : DmaSem sig := 219
abbrev cc27_sem1_0 : DmaSem sig := 220
abbrev cc27_sem2_0 : DmaSem sig := 221
abbrev cc27_sem3_0 : DmaSem sig := 222
abbrev cc27_sem3_1 : DmaSem sig := 223

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4096x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S4096x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S4096x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4096x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S4096x64 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4096x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4096x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4096x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S4096x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S4096x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![32], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S4096x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S4096x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S4096x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S4096x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 2 → Memref sig .tc .vmem S4096x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev grid8 : Pipeline.Grid := ⟨1, ![32], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S4096x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S4096x64 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S4096x64 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S64x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S4096x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S4096x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![32], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S4096x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S4096x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S4096x64 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S4096x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S4096x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev stage11_4 : Fin 2 → Memref sig .tc .vmem S4096x64 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![32], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4096x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S4096x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S4096x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![8], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S4096x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S4096x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S4096x64 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev grid14 : Pipeline.Grid := ⟨1, ![32], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_8 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S4096x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x64 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S64x64 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S1x64 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 2 → Memref sig .tc .vmem S4096x64 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true]

abbrev stage14_8 : Fin 2 → Memref sig .tc .vmem S4096x64 .f32 := fun | 0 => Memref.whole cc14_stg8_0 | 1 => Memref.whole cc14_stg8_1 | ⟨_ + 2, h⟩ => absurd h (Nat.not_lt.2 (Nat.le_add_left _ _))
abbrev sem14_8 : Fin 2 → DmaSem sig := fun | 0 => cc14_sem8_0 | 1 => cc14_sem8_1 | ⟨_ + 2, h⟩ => absurd h (Nat.not_lt.2 (Nat.le_add_left _ _))
abbrev reads14_8 : Fin grid14.rank → Bool := ![true]

abbrev grid15 : Pipeline.Grid := ⟨1, ![8], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_4 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_5 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_6 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_7 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_8 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S4096x64 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x64 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x64 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 1 → Memref sig .tc .vmem S1x64 .f32 := fun | 0 => Memref.whole cc15_stg3_0 | ⟨_ + 1, h⟩ => absurd h (Nat.not_lt.2 (Nat.le_add_left _ _))
abbrev sem15_3 : Fin 1 → DmaSem sig := fun | 0 => cc15_sem3_0 | ⟨_ + 1, h⟩ => absurd h (Nat.not_lt.2 (Nat.le_add_left _ _))
abbrev reads15_3 : Fin grid15.rank → Bool := ![false]

abbrev stage15_4 : Fin 1 → Memref sig .tc .vmem S1x64 .f32 := fun | 0 => Memref.whole cc15_stg4_0 | ⟨_ + 1, h⟩ => absurd h (Nat.not_lt.2 (Nat.le_add_left _ _))
abbrev sem15_4 : Fin 1 → DmaSem sig := fun | 0 => cc15_sem4_0 | ⟨_ + 1, h⟩ => absurd h (Nat.not_lt.2 (Nat.le_add_left _ _))
abbrev reads15_4 : Fin grid15.rank → Bool := ![false]

abbrev stage15_5 : Fin 1 → Memref sig .tc .vmem S64x64 .f32 := fun | 0 => Memref.whole cc15_stg5_0 | ⟨_ + 1, h⟩ => absurd h (Nat.not_lt.2 (Nat.le_add_left _ _))
abbrev sem15_5 : Fin 1 → DmaSem sig := fun | 0 => cc15_sem5_0 | ⟨_ + 1, h⟩ => absurd h (Nat.not_lt.2 (Nat.le_add_left _ _))
abbrev reads15_5 : Fin grid15.rank → Bool := ![false]

abbrev stage15_6 : Fin 1 → Memref sig .tc .vmem S1x64 .f32 := fun | 0 => Memref.whole cc15_stg6_0 | ⟨_ + 1, h⟩ => absurd h (Nat.not_lt.2 (Nat.le_add_left _ _))
abbrev sem15_6 : Fin 1 → DmaSem sig := fun | 0 => cc15_sem6_0 | ⟨_ + 1, h⟩ => absurd h (Nat.not_lt.2 (Nat.le_add_left _ _))
abbrev reads15_6 : Fin grid15.rank → Bool := ![false]

abbrev stage15_7 : Fin 2 → Memref sig .tc .vmem S4096x64 .f32 := fun | 0 => Memref.whole cc15_stg7_0 | 1 => Memref.whole cc15_stg7_1 | ⟨_ + 2, h⟩ => absurd h (Nat.not_lt.2 (Nat.le_add_left _ _))
abbrev sem15_7 : Fin 2 → DmaSem sig := fun | 0 => cc15_sem7_0 | 1 => cc15_sem7_1 | ⟨_ + 2, h⟩ => absurd h (Nat.not_lt.2 (Nat.le_add_left _ _))
abbrev reads15_7 : Fin grid15.rank → Bool := ![true]

abbrev stage15_8 : Fin 2 → Memref sig .tc .vmem S4096x64 .f32 := fun | 0 => Memref.whole cc15_stg8_0 | 1 => Memref.whole cc15_stg8_1 | ⟨_ + 2, h⟩ => absurd h (Nat.not_lt.2 (Nat.le_add_left _ _))
abbrev sem15_8 : Fin 2 → DmaSem sig := fun | 0 => cc15_sem8_0 | 1 => cc15_sem8_1 | ⟨_ + 2, h⟩ => absurd h (Nat.not_lt.2 (Nat.le_add_left _ _))
abbrev reads15_8 : Fin grid15.rank → Bool := ![true]

abbrev grid16 : Pipeline.Grid := ⟨1, ![32], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S4096x64 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S64x64 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S1x64 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 2 → Memref sig .tc .vmem S4096x64 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 2 → Memref sig .tc .vmem S4096x64 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev grid17 : Pipeline.Grid := ⟨1, ![8], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_4 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S4096x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S64x64 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x64 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S4096x64 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev stage17_4 : Fin 2 → Memref sig .tc .vmem S4096x64 .f32 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![true]

abbrev grid18 : Pipeline.Grid := ⟨1, ![32], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_4 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S4096x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S64x64 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x64 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 2 → Memref sig .tc .vmem S4096x64 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev stage18_4 : Fin 2 → Memref sig .tc .vmem S4096x64 .f32 := fun | 0 => Memref.whole cc18_stg4_0 | 1 => Memref.whole cc18_stg4_1 | ⟨_ + 2, h⟩ => absurd h (Nat.not_lt.2 (Nat.le_add_left _ _))
abbrev sem18_4 : Fin 2 → DmaSem sig := fun | 0 => cc18_sem4_0 | 1 => cc18_sem4_1 | ⟨_ + 2, h⟩ => absurd h (Nat.not_lt.2 (Nat.le_add_left _ _))
abbrev reads18_4 : Fin grid18.rank → Bool := ![true]

abbrev grid19 : Pipeline.Grid := ⟨1, ![8], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_4 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S4096x64 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S64x64 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x64 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 2 → Memref sig .tc .vmem S4096x64 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev stage19_4 : Fin 2 → Memref sig .tc .vmem S4096x64 .f32 := fun | 0 => Memref.whole cc19_stg4_0 | 1 => Memref.whole cc19_stg4_1 | ⟨_ + 2, h⟩ => absurd h (Nat.not_lt.2 (Nat.le_add_left _ _))
abbrev sem19_4 : Fin 2 → DmaSem sig := fun | 0 => cc19_sem4_0 | 1 => cc19_sem4_1 | ⟨_ + 2, h⟩ => absurd h (Nat.not_lt.2 (Nat.le_add_left _ _))
abbrev reads19_4 : Fin grid19.rank → Bool := ![true]

abbrev grid20 : Pipeline.Grid := ⟨1, ![32], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc20_transform_3 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_4 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S4096x64 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 1 → Memref sig .tc .vmem S64x64 .f32 := fun | 0 => Memref.whole cc20_stg1_0 | ⟨_ + 1, h⟩ => absurd h (Nat.not_lt.2 (Nat.le_add_left _ _))
abbrev sem20_1 : Fin 1 → DmaSem sig := fun | 0 => cc20_sem1_0 | ⟨_ + 1, h⟩ => absurd h (Nat.not_lt.2 (Nat.le_add_left _ _))
abbrev reads20_1 : Fin grid20.rank → Bool := ![false]

abbrev stage20_2 : Fin 1 → Memref sig .tc .vmem S1x64 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

abbrev stage20_3 : Fin 2 → Memref sig .tc .vmem S4096x64 .f32 := fun | 0 => Memref.whole cc20_stg3_0 | 1 => Memref.whole cc20_stg3_1 | ⟨_ + 2, h⟩ => absurd h (Nat.not_lt.2 (Nat.le_add_left _ _))
abbrev sem20_3 : Fin 2 → DmaSem sig := fun | 0 => cc20_sem3_0 | 1 => cc20_sem3_1 | ⟨_ + 2, h⟩ => absurd h (Nat.not_lt.2 (Nat.le_add_left _ _))
abbrev reads20_3 : Fin grid20.rank → Bool := ![true]

abbrev stage20_4 : Fin 2 → Memref sig .tc .vmem S4096x64 .f32 := fun | 0 => Memref.whole cc20_stg4_0 | 1 => Memref.whole cc20_stg4_1 | ⟨_ + 2, h⟩ => absurd h (Nat.not_lt.2 (Nat.le_add_left _ _))
abbrev sem20_4 : Fin 2 → DmaSem sig := fun | 0 => cc20_sem4_0 | 1 => cc20_sem4_1 | ⟨_ + 2, h⟩ => absurd h (Nat.not_lt.2 (Nat.le_add_left _ _))
abbrev reads20_4 : Fin grid20.rank → Bool := ![true]

abbrev grid21 : Pipeline.Grid := ⟨1, ![8], ![false]⟩

def cc21_transform_0 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_2 (i : grid21.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc21_transform_3 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

def cc21_transform_4 (i : grid21.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage21_0 : Fin 2 → Memref sig .tc .vmem S4096x64 .f32 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true]

abbrev stage21_1 : Fin 1 → Memref sig .tc .vmem S64x64 .f32 := fun | 0 => Memref.whole cc21_stg1_0 | ⟨_ + 1, h⟩ => absurd h (Nat.not_lt.2 (Nat.le_add_left _ _))
abbrev sem21_1 : Fin 1 → DmaSem sig := fun | 0 => cc21_sem1_0 | ⟨_ + 1, h⟩ => absurd h (Nat.not_lt.2 (Nat.le_add_left _ _))
abbrev reads21_1 : Fin grid21.rank → Bool := ![false]

abbrev stage21_2 : Fin 1 → Memref sig .tc .vmem S1x64 .f32 := fun | 0 => Memref.whole cc21_stg2_0 | ⟨_ + 1, h⟩ => absurd h (Nat.not_lt.2 (Nat.le_add_left _ _))
abbrev sem21_2 : Fin 1 → DmaSem sig := fun | 0 => cc21_sem2_0 | ⟨_ + 1, h⟩ => absurd h (Nat.not_lt.2 (Nat.le_add_left _ _))
abbrev reads21_2 : Fin grid21.rank → Bool := ![false]

abbrev stage21_3 : Fin 2 → Memref sig .tc .vmem S4096x64 .f32 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![true]

abbrev stage21_4 : Fin 2 → Memref sig .tc .vmem S4096x64 .f32 := fun | 0 => Memref.whole cc21_stg4_0 | 1 => Memref.whole cc21_stg4_1 | ⟨_ + 2, h⟩ => absurd h (Nat.not_lt.2 (Nat.le_add_left _ _))
abbrev sem21_4 : Fin 2 → DmaSem sig := fun | 0 => cc21_sem4_0 | 1 => cc21_sem4_1 | ⟨_ + 2, h⟩ => absurd h (Nat.not_lt.2 (Nat.le_add_left _ _))
abbrev reads21_4 : Fin grid21.rank → Bool := ![true]

abbrev grid22 : Pipeline.Grid := ⟨1, ![32], ![false]⟩

def cc22_transform_0 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_2 (i : grid22.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc22_transform_3 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

def cc22_transform_4 (i : grid22.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage22_0 : Fin 2 → Memref sig .tc .vmem S4096x64 .f32 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true]

abbrev stage22_1 : Fin 1 → Memref sig .tc .vmem S64x64 .f32 := fun | 0 => Memref.whole cc22_stg1_0 | ⟨_ + 1, h⟩ => absurd h (Nat.not_lt.2 (Nat.le_add_left _ _))
abbrev sem22_1 : Fin 1 → DmaSem sig := fun | 0 => cc22_sem1_0 | ⟨_ + 1, h⟩ => absurd h (Nat.not_lt.2 (Nat.le_add_left _ _))
abbrev reads22_1 : Fin grid22.rank → Bool := ![false]

abbrev stage22_2 : Fin 1 → Memref sig .tc .vmem S1x64 .f32 := fun | 0 => Memref.whole cc22_stg2_0 | ⟨_ + 1, h⟩ => absurd h (Nat.not_lt.2 (Nat.le_add_left _ _))
abbrev sem22_2 : Fin 1 → DmaSem sig := fun | 0 => cc22_sem2_0 | ⟨_ + 1, h⟩ => absurd h (Nat.not_lt.2 (Nat.le_add_left _ _))
abbrev reads22_2 : Fin grid22.rank → Bool := ![false]

abbrev stage22_3 : Fin 2 → Memref sig .tc .vmem S4096x64 .f32 := fun | 0 => Memref.whole cc22_stg3_0 | 1 => Memref.whole cc22_stg3_1 | ⟨_ + 2, h⟩ => absurd h (Nat.not_lt.2 (Nat.le_add_left _ _))
abbrev sem22_3 : Fin 2 → DmaSem sig := fun | 0 => cc22_sem3_0 | 1 => cc22_sem3_1 | ⟨_ + 2, h⟩ => absurd h (Nat.not_lt.2 (Nat.le_add_left _ _))
abbrev reads22_3 : Fin grid22.rank → Bool := ![true]

abbrev stage22_4 : Fin 2 → Memref sig .tc .vmem S4096x64 .f32 := fun | 0 => Memref.whole cc22_stg4_0 | 1 => Memref.whole cc22_stg4_1 | ⟨_ + 2, h⟩ => absurd h (Nat.not_lt.2 (Nat.le_add_left _ _))
abbrev sem22_4 : Fin 2 → DmaSem sig := fun | 0 => cc22_sem4_0 | 1 => cc22_sem4_1 | ⟨_ + 2, h⟩ => absurd h (Nat.not_lt.2 (Nat.le_add_left _ _))
abbrev reads22_4 : Fin grid22.rank → Bool := ![true]

abbrev grid23 : Pipeline.Grid := ⟨1, ![8], ![false]⟩

def cc23_transform_0 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_2 (i : grid23.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc23_transform_3 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

def cc23_transform_4 (i : grid23.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage23_0 : Fin 2 → Memref sig .tc .vmem S4096x64 .f32 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true]

abbrev stage23_1 : Fin 1 → Memref sig .tc .vmem S64x64 .f32 := fun | 0 => Memref.whole cc23_stg1_0 | ⟨_ + 1, h⟩ => absurd h (Nat.not_lt.2 (Nat.le_add_left _ _))
abbrev sem23_1 : Fin 1 → DmaSem sig := fun | 0 => cc23_sem1_0 | ⟨_ + 1, h⟩ => absurd h (Nat.not_lt.2 (Nat.le_add_left _ _))
abbrev reads23_1 : Fin grid23.rank → Bool := ![false]

abbrev stage23_2 : Fin 1 → Memref sig .tc .vmem S1x64 .f32 := fun | 0 => Memref.whole cc23_stg2_0 | ⟨_ + 1, h⟩ => absurd h (Nat.not_lt.2 (Nat.le_add_left _ _))
abbrev sem23_2 : Fin 1 → DmaSem sig := fun | 0 => cc23_sem2_0 | ⟨_ + 1, h⟩ => absurd h (Nat.not_lt.2 (Nat.le_add_left _ _))
abbrev reads23_2 : Fin grid23.rank → Bool := ![false]

abbrev stage23_3 : Fin 2 → Memref sig .tc .vmem S4096x64 .f32 := fun | 0 => Memref.whole cc23_stg3_0 | 1 => Memref.whole cc23_stg3_1 | ⟨_ + 2, h⟩ => absurd h (Nat.not_lt.2 (Nat.le_add_left _ _))
abbrev sem23_3 : Fin 2 → DmaSem sig := fun | 0 => cc23_sem3_0 | 1 => cc23_sem3_1 | ⟨_ + 2, h⟩ => absurd h (Nat.not_lt.2 (Nat.le_add_left _ _))
abbrev reads23_3 : Fin grid23.rank → Bool := ![true]

abbrev stage23_4 : Fin 2 → Memref sig .tc .vmem S4096x64 .f32 := fun | 0 => Memref.whole cc23_stg4_0 | 1 => Memref.whole cc23_stg4_1 | ⟨_ + 2, h⟩ => absurd h (Nat.not_lt.2 (Nat.le_add_left _ _))
abbrev sem23_4 : Fin 2 → DmaSem sig := fun | 0 => cc23_sem4_0 | 1 => cc23_sem4_1 | ⟨_ + 2, h⟩ => absurd h (Nat.not_lt.2 (Nat.le_add_left _ _))
abbrev reads23_4 : Fin grid23.rank → Bool := ![true]

abbrev grid24 : Pipeline.Grid := ⟨1, ![32], ![false]⟩

def cc24_transform_0 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

def cc24_transform_2 (i : grid24.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage24_0 : Fin 2 → Memref sig .tc .vmem S4096x64 .f32 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true]

abbrev stage24_1 : Fin 2 → Memref sig .tc .vmem S4096x64 .f32 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![true]

abbrev stage24_2 : Fin 2 → Memref sig .tc .vmem S4096x64 .f32 := fun | 0 => Memref.whole cc24_stg2_0 | 1 => Memref.whole cc24_stg2_1 | ⟨_ + 2, h⟩ => absurd h (Nat.not_lt.2 (Nat.le_add_left _ _))
abbrev sem24_2 : Fin 2 → DmaSem sig := fun | 0 => cc24_sem2_0 | 1 => cc24_sem2_1 | ⟨_ + 2, h⟩ => absurd h (Nat.not_lt.2 (Nat.le_add_left _ _))
abbrev reads24_2 : Fin grid24.rank → Bool := ![true]

abbrev grid25 : Pipeline.Grid := ⟨1, ![8], ![false]⟩

def cc25_transform_0 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

def cc25_transform_2 (i : grid25.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage25_0 : Fin 2 → Memref sig .tc .vmem S4096x64 .f32 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true]

abbrev stage25_1 : Fin 2 → Memref sig .tc .vmem S4096x64 .f32 := fun | 0 => Memref.whole cc25_stg1_0 | 1 => Memref.whole cc25_stg1_1 | ⟨_ + 2, h⟩ => absurd h (Nat.not_lt.2 (Nat.le_add_left _ _))
abbrev sem25_1 : Fin 2 → DmaSem sig := fun | 0 => cc25_sem1_0 | 1 => cc25_sem1_1 | ⟨_ + 2, h⟩ => absurd h (Nat.not_lt.2 (Nat.le_add_left _ _))
abbrev reads25_1 : Fin grid25.rank → Bool := ![true]

abbrev stage25_2 : Fin 2 → Memref sig .tc .vmem S4096x64 .f32 := fun | 0 => Memref.whole cc25_stg2_0 | 1 => Memref.whole cc25_stg2_1 | ⟨_ + 2, h⟩ => absurd h (Nat.not_lt.2 (Nat.le_add_left _ _))
abbrev sem25_2 : Fin 2 → DmaSem sig := fun | 0 => cc25_sem2_0 | 1 => cc25_sem2_1 | ⟨_ + 2, h⟩ => absurd h (Nat.not_lt.2 (Nat.le_add_left _ _))
abbrev reads25_2 : Fin grid25.rank → Bool := ![true]

abbrev grid26 : Pipeline.Grid := ⟨1, ![32], ![false]⟩

def cc26_transform_0 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

def cc26_transform_1 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_2 (i : grid26.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc26_transform_3 (i : grid26.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage26_0 : Fin 2 → Memref sig .tc .vmem S4096x64 .f32 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true]

abbrev stage26_1 : Fin 1 → Memref sig .tc .vmem S64x32 .f32 := fun | 0 => Memref.whole cc26_stg1_0 | ⟨_ + 1, h⟩ => absurd h (Nat.not_lt.2 (Nat.le_add_left _ _))
abbrev sem26_1 : Fin 1 → DmaSem sig := fun | 0 => cc26_sem1_0 | ⟨_ + 1, h⟩ => absurd h (Nat.not_lt.2 (Nat.le_add_left _ _))
abbrev reads26_1 : Fin grid26.rank → Bool := ![false]

abbrev stage26_2 : Fin 1 → Memref sig .tc .vmem S1x32 .f32 := fun | 0 => Memref.whole cc26_stg2_0 | ⟨_ + 1, h⟩ => absurd h (Nat.not_lt.2 (Nat.le_add_left _ _))
abbrev sem26_2 : Fin 1 → DmaSem sig := fun | 0 => cc26_sem2_0 | ⟨_ + 1, h⟩ => absurd h (Nat.not_lt.2 (Nat.le_add_left _ _))
abbrev reads26_2 : Fin grid26.rank → Bool := ![false]

abbrev stage26_3 : Fin 2 → Memref sig .tc .vmem S4096x32 .f32 := fun | 0 => Memref.whole cc26_stg3_0 | 1 => Memref.whole cc26_stg3_1 | ⟨_ + 2, h⟩ => absurd h (Nat.not_lt.2 (Nat.le_add_left _ _))
abbrev sem26_3 : Fin 2 → DmaSem sig := fun | 0 => cc26_sem3_0 | 1 => cc26_sem3_1 | ⟨_ + 2, h⟩ => absurd h (Nat.not_lt.2 (Nat.le_add_left _ _))
abbrev reads26_3 : Fin grid26.rank → Bool := ![true]

abbrev grid27 : Pipeline.Grid := ⟨1, ![8], ![false]⟩

def cc27_transform_0 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

def cc27_transform_1 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_2 (i : grid27.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc27_transform_3 (i : grid27.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage27_0 : Fin 2 → Memref sig .tc .vmem S4096x64 .f32 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true]

abbrev stage27_1 : Fin 1 → Memref sig .tc .vmem S64x32 .f32 := fun | 0 => Memref.whole cc27_stg1_0 | ⟨_ + 1, h⟩ => absurd h (Nat.not_lt.2 (Nat.le_add_left _ _))
abbrev sem27_1 : Fin 1 → DmaSem sig := fun | 0 => cc27_sem1_0 | ⟨_ + 1, h⟩ => absurd h (Nat.not_lt.2 (Nat.le_add_left _ _))
abbrev reads27_1 : Fin grid27.rank → Bool := ![false]

abbrev stage27_2 : Fin 1 → Memref sig .tc .vmem S1x32 .f32 := fun | 0 => Memref.whole cc27_stg2_0 | ⟨_ + 1, h⟩ => absurd h (Nat.not_lt.2 (Nat.le_add_left _ _))
abbrev sem27_2 : Fin 1 → DmaSem sig := fun | 0 => cc27_sem2_0 | ⟨_ + 1, h⟩ => absurd h (Nat.not_lt.2 (Nat.le_add_left _ _))
abbrev reads27_2 : Fin grid27.rank → Bool := ![false]

abbrev stage27_3 : Fin 2 → Memref sig .tc .vmem S4096x32 .f32 := fun | 0 => Memref.whole cc27_stg3_0 | 1 => Memref.whole cc27_stg3_1 | ⟨_ + 2, h⟩ => absurd h (Nat.not_lt.2 (Nat.le_add_left _ _))
abbrev sem27_3 : Fin 2 → DmaSem sig := fun | 0 => cc27_sem3_0 | 1 => cc27_sem3_1 | ⟨_ + 2, h⟩ => absurd h (Nat.not_lt.2 (Nat.le_add_left _ _))
abbrev reads27_3 : Fin grid27.rank → Bool := ![true]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  shapeCasts_S64_S1x64 : S64.ShapeCasts S1x64
  inb_S4096x32_S4096x32_0_0 : ∀ a, (![0, 0] : Fin 2 → Nat) a + S4096x32.size a ≤ S4096x32.size a
  h_S4096x32 : 0 < S4096x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  reducesTo_S131072x64_S64_d0 : S131072x64.ReducesTo [0] S64
  h_S_ : 0 < S_.numel
  bcast_S64_S1x64_1 : S64.BroadcastsInDim S1x64 (![1] : Fin 1 → Fin S1x64.rank)
  bcast_S_S1x64 : S_.BroadcastsInDim S1x64 (![] : Fin 0 → Fin S1x64.rank)
  bcast_S1x64_S131072x64_0_1 : S1x64.BroadcastsInDim S131072x64 (![0, 1] : Fin 2 → Fin S131072x64.rank)
  reducesTo_S32768x64_S64_d0 : S32768x64.ReducesTo [0] S64
  bcast_S1x64_S32768x64_0_1 : S1x64.BroadcastsInDim S32768x64 (![0, 1] : Fin 2 → Fin S32768x64.rank)
  slices_S2x64_S1x64_0_0 : S2x64.Slices ![0, 0] S1x64
  shapeCasts_S1x64_S64 : S1x64.ShapeCasts S64
  slices_S2x5x64x64_S1x1x64x64_0_0_0_0 : S2x5x64x64.Slices ![0, 0, 0, 0] S1x1x64x64
  shapeCasts_S1x1x64x64_S64x64 : S1x1x64x64.ShapeCasts S64x64
  slices_S2x5x64_S1x1x64_0_0_0 : S2x5x64.Slices ![0, 0, 0] S1x1x64
  shapeCasts_S1x1x64_S64 : S1x1x64.ShapeCasts S64
  shapeCasts_S4096x64_S4096x64 : S4096x64.ShapeCasts S4096x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S131072x64 : S_.BroadcastsInDim S131072x64 (![] : Fin 0 → Fin S131072x64.rank)
  bcast_S_S65536 : S_.BroadcastsInDim S65536 (![] : Fin 0 → Fin S65536.rank)
  bcast_S65536_S65536x1_0 : S65536.BroadcastsInDim S65536x1 (![0] : Fin 1 → Fin S65536x1.rank)
  bcast_S_S32768x64 : S_.BroadcastsInDim S32768x64 (![] : Fin 0 → Fin S32768x64.rank)
  slices_S2x5x64x64_S1x1x64x64_0_1_0_0 : S2x5x64x64.Slices ![0, 1, 0, 0] S1x1x64x64
  slices_S2x5x64_S1x1x64_0_1_0 : S2x5x64.Slices ![0, 1, 0] S1x1x64
  slices_S2x5x64x64_S1x1x64x64_0_2_0_0 : S2x5x64x64.Slices ![0, 2, 0, 0] S1x1x64x64
  slices_S2x5x64_S1x1x64_0_2_0 : S2x5x64.Slices ![0, 2, 0] S1x1x64
  slices_S2x5x64x64_S1x1x64x64_0_3_0_0 : S2x5x64x64.Slices ![0, 3, 0, 0] S1x1x64x64
  slices_S2x5x64_S1x1x64_0_3_0 : S2x5x64.Slices ![0, 3, 0] S1x1x64
  slices_S2x5x64x64_S1x1x64x64_0_4_0_0 : S2x5x64x64.Slices ![0, 4, 0, 0] S1x1x64x64
  slices_S2x5x64_S1x1x64_0_4_0 : S2x5x64.Slices ![0, 4, 0] S1x1x64
  slices_S2x64_S1x64_1_0 : S2x64.Slices ![1, 0] S1x64
  slices_S2x5x64x64_S1x1x64x64_1_0_0_0 : S2x5x64x64.Slices ![1, 0, 0, 0] S1x1x64x64
  slices_S2x5x64_S1x1x64_1_0_0 : S2x5x64.Slices ![1, 0, 0] S1x1x64
  slices_S2x5x64x64_S1x1x64x64_1_1_0_0 : S2x5x64x64.Slices ![1, 1, 0, 0] S1x1x64x64
  slices_S2x5x64_S1x1x64_1_1_0 : S2x5x64.Slices ![1, 1, 0] S1x1x64
  slices_S2x5x64x64_S1x1x64x64_1_2_0_0 : S2x5x64x64.Slices ![1, 2, 0, 0] S1x1x64x64
  slices_S2x5x64_S1x1x64_1_2_0 : S2x5x64.Slices ![1, 2, 0] S1x1x64
  slices_S2x5x64x64_S1x1x64x64_1_3_0_0 : S2x5x64x64.Slices ![1, 3, 0, 0] S1x1x64x64
  slices_S2x5x64_S1x1x64_1_3_0 : S2x5x64.Slices ![1, 3, 0] S1x1x64
  slices_S2x5x64x64_S1x1x64x64_1_4_0_0 : S2x5x64x64.Slices ![1, 4, 0, 0] S1x1x64x64
  slices_S2x5x64_S1x1x64_1_4_0 : S2x5x64.Slices ![1, 4, 0] S1x1x64
  shapeCasts_S32_S1x32 : S32.ShapeCasts S1x32
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4096x32 : S1x32.Broadcasts S4096x32
  dot_S4096x32_S32x64_S4096x64_1_0_0_1_n_n_wf : DotDims.WF S4096x32 S32x64 S4096x64 [1] [0] [0] [1] [] []
  dot_S4096x64_S64x64_S4096x64_1_0_0_1_n_n_wf : DotDims.WF S4096x64 S64x64 S4096x64 [1] [0] [0] [1] [] []
  gather_S131072x64_S2097152x1_S2097152x64_1_0_n_n_0_1_164_wf : GatherDims.WF S131072x64 S2097152x1 S2097152x64 [1] [0] [] [0] [] 1 ![1, 64]
  scatter_S131072x64_S2097152x1_S2097152x64_1_0_0_1_wf : ScatterDims.WF S131072x64 S2097152x1 S2097152x64 [1] [0] [0] 1
  gather_S32768x64_S65536x1_S65536x64_1_0_n_n_0_1_164_wf : GatherDims.WF S32768x64 S65536x1 S65536x64 [1] [0] [] [0] [] 1 ![1, 64]
  scatter_S131072x64_S65536x1_S65536x64_1_0_0_1_wf : ScatterDims.WF S131072x64 S65536x1 S65536x64 [1] [0] [0] 1
  gather_S131072x64_S65536x1_S65536x64_1_0_n_n_0_1_164_wf : GatherDims.WF S131072x64 S65536x1 S65536x64 [1] [0] [] [0] [] 1 ![1, 64]
  scatter_S32768x64_S65536x1_S65536x64_1_0_0_1_wf : ScatterDims.WF S32768x64 S65536x1 S65536x64 [1] [0] [0] 1
  dot_S4096x64_S64x32_S4096x32_1_0_0_1_n_n_wf : DotDims.WF S4096x64 S64x32 S4096x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x32.size a ≤ S131072x32.size a
  hwx0_0 : ∀ i : grid0.Coords, EltTy.bits .f32 = 32 ∨ (Rect.block (s := S131072x32) S4096x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S131072x64.size a
  hwx0_3 : ∀ i : grid0.Coords, EltTy.bits .f32 = 32 ∨ (Rect.block (s := S131072x64) S4096x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x32.size a ≤ S32768x32.size a
  hwx1_0 : ∀ i : grid1.Coords, EltTy.bits .f32 = 32 ∨ (Rect.block (s := S32768x32) S4096x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x64.size a ≤ S32768x64.size a
  hwx1_3 : ∀ i : grid1.Coords, EltTy.bits .f32 = 32 ∨ (Rect.block (s := S32768x64) S4096x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S131072x64.size a
  hwx2_0 : ∀ i : grid2.Coords, EltTy.bits .f32 = 32 ∨ (Rect.block (s := S131072x64) S4096x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4096x64.size a ≤ S131072x64.size a
  hwx2_7 : ∀ i : grid2.Coords, EltTy.bits .f32 = 32 ∨ (Rect.block (s := S131072x64) S4096x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S4096x64.size a ≤ S131072x64.size a
  hwx2_8 : ∀ i : grid2.Coords, EltTy.bits .f32 = 32 ∨ (Rect.block (s := S131072x64) S4096x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S32768x64.size a
  hwx3_0 : ∀ i : grid3.Coords, EltTy.bits .f32 = 32 ∨ (Rect.block (s := S32768x64) S4096x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4096x64.size a ≤ S32768x64.size a
  hwx3_7 : ∀ i : grid3.Coords, EltTy.bits .f32 = 32 ∨ (Rect.block (s := S32768x64) S4096x64.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4096x64.size a ≤ S32768x64.size a
  hwx3_8 : ∀ i : grid3.Coords, EltTy.bits .f32 = 32 ∨ (Rect.block (s := S32768x64) S4096x64.size (cc3_transform_8 i) (hinb3_8 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S131072x64.size a
  hwx4_0 : ∀ i : grid4.Coords, EltTy.bits .f32 = 32 ∨ (Rect.block (s := S131072x64) S4096x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x64.size a ≤ S131072x64.size a
  hwx4_3 : ∀ i : grid4.Coords, EltTy.bits .f32 = 32 ∨ (Rect.block (s := S131072x64) S4096x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4096x64.size a ≤ S131072x64.size a
  hwx4_4 : ∀ i : grid4.Coords, EltTy.bits .f32 = 32 ∨ (Rect.block (s := S131072x64) S4096x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x64.size a ≤ S32768x64.size a
  hwx5_0 : ∀ i : grid5.Coords, EltTy.bits .f32 = 32 ∨ (Rect.block (s := S32768x64) S4096x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S4096x64.size a ≤ S32768x64.size a
  hwx5_3 : ∀ i : grid5.Coords, EltTy.bits .f32 = 32 ∨ (Rect.block (s := S32768x64) S4096x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S4096x64.size a ≤ S32768x64.size a
  hwx5_4 : ∀ i : grid5.Coords, EltTy.bits .f32 = 32 ∨ (Rect.block (s := S32768x64) S4096x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x64.size a ≤ S131072x64.size a
  hwx6_0 : ∀ i : grid6.Coords, EltTy.bits .f32 = 32 ∨ (Rect.block (s := S131072x64) S4096x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4096x64.size a ≤ S131072x64.size a
  hwx6_3 : ∀ i : grid6.Coords, EltTy.bits .f32 = 32 ∨ (Rect.block (s := S131072x64) S4096x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4096x64.size a ≤ S131072x64.size a
  hwx6_4 : ∀ i : grid6.Coords, EltTy.bits .f32 = 32 ∨ (Rect.block (s := S131072x64) S4096x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4096x64.size a ≤ S32768x64.size a
  hwx7_0 : ∀ i : grid7.Coords, EltTy.bits .f32 = 32 ∨ (Rect.block (s := S32768x64) S4096x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S4096x64.size a ≤ S32768x64.size a
  hwx7_3 : ∀ i : grid7.Coords, EltTy.bits .f32 = 32 ∨ (Rect.block (s := S32768x64) S4096x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S4096x64.size a ≤ S32768x64.size a
  hwx7_4 : ∀ i : grid7.Coords, EltTy.bits .f32 = 32 ∨ (Rect.block (s := S32768x64) S4096x64.size (cc7_transform_4 i) (hinb7_4 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x64.size a ≤ S131072x64.size a
  hwx8_0 : ∀ i : grid8.Coords, EltTy.bits .f32 = 32 ∨ (Rect.block (s := S131072x64) S4096x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x64.size a ≤ S64x64.size a
  hwx8_1 : ∀ i : grid8.Coords, EltTy.bits .f32 = 32 ∨ (Rect.block (s := S64x64) S64x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S4096x64.size a ≤ S131072x64.size a
  hwx8_3 : ∀ i : grid8.Coords, EltTy.bits .f32 = 32 ∨ (Rect.block (s := S131072x64) S4096x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S4096x64.size a ≤ S131072x64.size a
  hwx8_4 : ∀ i : grid8.Coords, EltTy.bits .f32 = 32 ∨ (Rect.block (s := S131072x64) S4096x64.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x64.size a ≤ S32768x64.size a
  hwx9_0 : ∀ i : grid9.Coords, EltTy.bits .f32 = 32 ∨ (Rect.block (s := S32768x64) S4096x64.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S64x64.size a ≤ S64x64.size a
  hwx9_1 : ∀ i : grid9.Coords, EltTy.bits .f32 = 32 ∨ (Rect.block (s := S64x64) S64x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x64.size a ≤ S1x64.size a
  hwx9_2 : ∀ i : grid9.Coords, EltTy.bits .f32 = 32 ∨ (Rect.block (s := S1x64) S1x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S4096x64.size a ≤ S32768x64.size a
  hwx9_3 : ∀ i : grid9.Coords, EltTy.bits .f32 = 32 ∨ (Rect.block (s := S32768x64) S4096x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S4096x64.size a ≤ S32768x64.size a
  hwx9_4 : ∀ i : grid9.Coords, EltTy.bits .f32 = 32 ∨ (Rect.block (s := S32768x64) S4096x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4096x64.size a ≤ S131072x64.size a
  hwx10_0 : ∀ i : grid10.Coords, EltTy.bits .f32 = 32 ∨ (Rect.block (s := S131072x64) S4096x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S4096x64.size a ≤ S131072x64.size a
  hwx10_3 : ∀ i : grid10.Coords, EltTy.bits .f32 = 32 ∨ (Rect.block (s := S131072x64) S4096x64.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S4096x64.size a ≤ S131072x64.size a
  hwx10_4 : ∀ i : grid10.Coords, EltTy.bits .f32 = 32 ∨ (Rect.block (s := S131072x64) S4096x64.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4096x64.size a ≤ S32768x64.size a
  hwx11_0 : ∀ i : grid11.Coords, EltTy.bits .f32 = 32 ∨ (Rect.block (s := S32768x64) S4096x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x64.size a ≤ S64x64.size a
  hwx11_1 : ∀ i : grid11.Coords, EltTy.bits .f32 = 32 ∨ (Rect.block (s := S64x64) S64x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S4096x64.size a ≤ S32768x64.size a
  hwx11_3 : ∀ i : grid11.Coords, EltTy.bits .f32 = 32 ∨ (Rect.block (s := S32768x64) S4096x64.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S4096x64.size a ≤ S32768x64.size a
  hwx11_4 : ∀ i : grid11.Coords, EltTy.bits .f32 = 32 ∨ (Rect.block (s := S32768x64) S4096x64.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4096x64.size a ≤ S131072x64.size a
  hwx12_0 : ∀ i : grid12.Coords, EltTy.bits .f32 = 32 ∨ (Rect.block (s := S131072x64) S4096x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S4096x64.size a ≤ S131072x64.size a
  hwx12_1 : ∀ i : grid12.Coords, EltTy.bits .f32 = 32 ∨ (Rect.block (s := S131072x64) S4096x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S4096x64.size a ≤ S131072x64.size a
  hwx12_2 : ∀ i : grid12.Coords, EltTy.bits .f32 = 32 ∨ (Rect.block (s := S131072x64) S4096x64.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S4096x64.size a ≤ S32768x64.size a
  hwx13_0 : ∀ i : grid13.Coords, EltTy.bits .f32 = 32 ∨ (Rect.block (s := S32768x64) S4096x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S4096x64.size a ≤ S32768x64.size a
  hwx13_1 : ∀ i : grid13.Coords, EltTy.bits .f32 = 32 ∨ (Rect.block (s := S32768x64) S4096x64.size (cc13_transform_1 i) (hinb13_1 i)).WholeWords (EltTy.packing .f32)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S4096x64.size a ≤ S32768x64.size a
  hwx13_2 : ∀ i : grid13.Coords, EltTy.bits .f32 = 32 ∨ (Rect.block (s := S32768x64) S4096x64.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S4096x64.size a ≤ S131072x64.size a
  hwx14_0 : ∀ i : grid14.Coords, EltTy.bits .f32 = 32 ∨ (Rect.block (s := S131072x64) S4096x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x64.size a ≤ S1x64.size a
  hwx14_1 : ∀ i : grid14.Coords, EltTy.bits .f32 = 32 ∨ (Rect.block (s := S1x64) S1x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x64.size a ≤ S1x64.size a
  hwx14_2 : ∀ i : grid14.Coords, EltTy.bits .f32 = 32 ∨ (Rect.block (s := S1x64) S1x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x64.size a ≤ S1x64.size a
  hwx14_4 : ∀ i : grid14.Coords, EltTy.bits .f32 = 32 ∨ (Rect.block (s := S1x64) S1x64.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S64x64.size a ≤ S64x64.size a
  hwx14_5 : ∀ i : grid14.Coords, EltTy.bits .f32 = 32 ∨ (Rect.block (s := S64x64) S64x64.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x64.size a ≤ S1x64.size a
  hwx14_6 : ∀ i : grid14.Coords, EltTy.bits .f32 = 32 ∨ (Rect.block (s := S1x64) S1x64.size (cc14_transform_6 i) (hinb14_6 i)).WholeWords (EltTy.packing .f32)
  hstage14_7 : ∀ j, (stage14_7 j).IsWhole
  nbuf14_7 : grid14.bufCount reads14_7 false = 2
  hreads14_7 : ∀ i i' : grid14.Coords, (∀ a, reads14_7 a = true → i a = i' a) → cc14_transform_7 i = cc14_transform_7 i'
  hinb14_7 : ∀ (i : grid14.Coords) a, (cc14_transform_7 i a + 1) * S4096x64.size a ≤ S131072x64.size a
  hwx14_7 : ∀ i : grid14.Coords, EltTy.bits .f32 = 32 ∨ (Rect.block (s := S131072x64) S4096x64.size (cc14_transform_7 i) (hinb14_7 i)).WholeWords (EltTy.packing .f32)
  hstage14_8 : ∀ j, (stage14_8 j).IsWhole
  nbuf14_8 : grid14.bufCount reads14_8 false = 2
  hreads14_8 : ∀ i i' : grid14.Coords, (∀ a, reads14_8 a = true → i a = i' a) → cc14_transform_8 i = cc14_transform_8 i'
  hinb14_8 : ∀ (i : grid14.Coords) a, (cc14_transform_8 i a + 1) * S4096x64.size a ≤ S131072x64.size a
  hwx14_8 : ∀ i : grid14.Coords, EltTy.bits .f32 = 32 ∨ (Rect.block (s := S131072x64) S4096x64.size (cc14_transform_8 i) (hinb14_8 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S4096x64.size a ≤ S32768x64.size a
  hwx15_0 : ∀ i : grid15.Coords, EltTy.bits .f32 = 32 ∨ (Rect.block (s := S32768x64) S4096x64.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x64.size a ≤ S1x64.size a
  hwx15_1 : ∀ i : grid15.Coords, EltTy.bits .f32 = 32 ∨ (Rect.block (s := S1x64) S1x64.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x64.size a ≤ S1x64.size a
  hwx15_2 : ∀ i : grid15.Coords, EltTy.bits .f32 = 32 ∨ (Rect.block (s := S1x64) S1x64.size (cc15_transform_2 i) (hinb15_2 i)).WholeWords (EltTy.packing .f32)
  hstage15_3 : ∀ j, (stage15_3 j).IsWhole
  nbuf15_3 : grid15.bufCount reads15_3 true = 1
  hreads15_3 : ∀ i i' : grid15.Coords, (∀ a, reads15_3 a = true → i a = i' a) → cc15_transform_3 i = cc15_transform_3 i'
  hinb15_3 : ∀ (i : grid15.Coords) a, (cc15_transform_3 i a + 1) * S1x64.size a ≤ S1x64.size a
  hwx15_3 : ∀ i : grid15.Coords, EltTy.bits .f32 = 32 ∨ (Rect.block (s := S1x64) S1x64.size (cc15_transform_3 i) (hinb15_3 i)).WholeWords (EltTy.packing .f32)
  hstage15_4 : ∀ j, (stage15_4 j).IsWhole
  nbuf15_4 : grid15.bufCount reads15_4 true = 1
  hreads15_4 : ∀ i i' : grid15.Coords, (∀ a, reads15_4 a = true → i a = i' a) → cc15_transform_4 i = cc15_transform_4 i'
  hinb15_4 : ∀ (i : grid15.Coords) a, (cc15_transform_4 i a + 1) * S1x64.size a ≤ S1x64.size a
  hwx15_4 : ∀ i : grid15.Coords, EltTy.bits .f32 = 32 ∨ (Rect.block (s := S1x64) S1x64.size (cc15_transform_4 i) (hinb15_4 i)).WholeWords (EltTy.packing .f32)
  hstage15_5 : ∀ j, (stage15_5 j).IsWhole
  nbuf15_5 : grid15.bufCount reads15_5 true = 1
  hreads15_5 : ∀ i i' : grid15.Coords, (∀ a, reads15_5 a = true → i a = i' a) → cc15_transform_5 i = cc15_transform_5 i'
  hinb15_5 : ∀ (i : grid15.Coords) a, (cc15_transform_5 i a + 1) * S64x64.size a ≤ S64x64.size a
  hwx15_5 : ∀ i : grid15.Coords, EltTy.bits .f32 = 32 ∨ (Rect.block (s := S64x64) S64x64.size (cc15_transform_5 i) (hinb15_5 i)).WholeWords (EltTy.packing .f32)
  hstage15_6 : ∀ j, (stage15_6 j).IsWhole
  nbuf15_6 : grid15.bufCount reads15_6 true = 1
  hreads15_6 : ∀ i i' : grid15.Coords, (∀ a, reads15_6 a = true → i a = i' a) → cc15_transform_6 i = cc15_transform_6 i'
  hinb15_6 : ∀ (i : grid15.Coords) a, (cc15_transform_6 i a + 1) * S1x64.size a ≤ S1x64.size a
  hwx15_6 : ∀ i : grid15.Coords, EltTy.bits .f32 = 32 ∨ (Rect.block (s := S1x64) S1x64.size (cc15_transform_6 i) (hinb15_6 i)).WholeWords (EltTy.packing .f32)
  hstage15_7 : ∀ j, (stage15_7 j).IsWhole
  nbuf15_7 : grid15.bufCount reads15_7 false = 2
  hreads15_7 : ∀ i i' : grid15.Coords, (∀ a, reads15_7 a = true → i a = i' a) → cc15_transform_7 i = cc15_transform_7 i'
  hinb15_7 : ∀ (i : grid15.Coords) a, (cc15_transform_7 i a + 1) * S4096x64.size a ≤ S32768x64.size a
  hwx15_7 : ∀ i : grid15.Coords, EltTy.bits .f32 = 32 ∨ (Rect.block (s := S32768x64) S4096x64.size (cc15_transform_7 i) (hinb15_7 i)).WholeWords (EltTy.packing .f32)
  hstage15_8 : ∀ j, (stage15_8 j).IsWhole
  nbuf15_8 : grid15.bufCount reads15_8 false = 2
  hreads15_8 : ∀ i i' : grid15.Coords, (∀ a, reads15_8 a = true → i a = i' a) → cc15_transform_8 i = cc15_transform_8 i'
  hinb15_8 : ∀ (i : grid15.Coords) a, (cc15_transform_8 i a + 1) * S4096x64.size a ≤ S32768x64.size a
  hwx15_8 : ∀ i : grid15.Coords, EltTy.bits .f32 = 32 ∨ (Rect.block (s := S32768x64) S4096x64.size (cc15_transform_8 i) (hinb15_8 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S4096x64.size a ≤ S131072x64.size a
  hwx16_0 : ∀ i : grid16.Coords, EltTy.bits .f32 = 32 ∨ (Rect.block (s := S131072x64) S4096x64.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S64x64.size a ≤ S64x64.size a
  hwx16_1 : ∀ i : grid16.Coords, EltTy.bits .f32 = 32 ∨ (Rect.block (s := S64x64) S64x64.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S1x64.size a ≤ S1x64.size a
  hwx16_2 : ∀ i : grid16.Coords, EltTy.bits .f32 = 32 ∨ (Rect.block (s := S1x64) S1x64.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S4096x64.size a ≤ S131072x64.size a
  hwx16_3 : ∀ i : grid16.Coords, EltTy.bits .f32 = 32 ∨ (Rect.block (s := S131072x64) S4096x64.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S4096x64.size a ≤ S131072x64.size a
  hwx16_4 : ∀ i : grid16.Coords, EltTy.bits .f32 = 32 ∨ (Rect.block (s := S131072x64) S4096x64.size (cc16_transform_4 i) (hinb16_4 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S4096x64.size a ≤ S32768x64.size a
  hwx17_0 : ∀ i : grid17.Coords, EltTy.bits .f32 = 32 ∨ (Rect.block (s := S32768x64) S4096x64.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S64x64.size a ≤ S64x64.size a
  hwx17_1 : ∀ i : grid17.Coords, EltTy.bits .f32 = 32 ∨ (Rect.block (s := S64x64) S64x64.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x64.size a ≤ S1x64.size a
  hwx17_2 : ∀ i : grid17.Coords, EltTy.bits .f32 = 32 ∨ (Rect.block (s := S1x64) S1x64.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S4096x64.size a ≤ S32768x64.size a
  hwx17_3 : ∀ i : grid17.Coords, EltTy.bits .f32 = 32 ∨ (Rect.block (s := S32768x64) S4096x64.size (cc17_transform_3 i) (hinb17_3 i)).WholeWords (EltTy.packing .f32)
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S4096x64.size a ≤ S32768x64.size a
  hwx17_4 : ∀ i : grid17.Coords, EltTy.bits .f32 = 32 ∨ (Rect.block (s := S32768x64) S4096x64.size (cc17_transform_4 i) (hinb17_4 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S4096x64.size a ≤ S131072x64.size a
  hwx18_0 : ∀ i : grid18.Coords, EltTy.bits .f32 = 32 ∨ (Rect.block (s := S131072x64) S4096x64.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S64x64.size a ≤ S64x64.size a
  hwx18_1 : ∀ i : grid18.Coords, EltTy.bits .f32 = 32 ∨ (Rect.block (s := S64x64) S64x64.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x64.size a ≤ S1x64.size a
  hwx18_2 : ∀ i : grid18.Coords, EltTy.bits .f32 = 32 ∨ (Rect.block (s := S1x64) S1x64.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S4096x64.size a ≤ S131072x64.size a
  hwx18_3 : ∀ i : grid18.Coords, EltTy.bits .f32 = 32 ∨ (Rect.block (s := S131072x64) S4096x64.size (cc18_transform_3 i) (hinb18_3 i)).WholeWords (EltTy.packing .f32)
  hstage18_4 : ∀ j, (stage18_4 j).IsWhole
  nbuf18_4 : grid18.bufCount reads18_4 false = 2
  hreads18_4 : ∀ i i' : grid18.Coords, (∀ a, reads18_4 a = true → i a = i' a) → cc18_transform_4 i = cc18_transform_4 i'
  hinb18_4 : ∀ (i : grid18.Coords) a, (cc18_transform_4 i a + 1) * S4096x64.size a ≤ S131072x64.size a
  hwx18_4 : ∀ i : grid18.Coords, EltTy.bits .f32 = 32 ∨ (Rect.block (s := S131072x64) S4096x64.size (cc18_transform_4 i) (hinb18_4 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S4096x64.size a ≤ S32768x64.size a
  hwx19_0 : ∀ i : grid19.Coords, EltTy.bits .f32 = 32 ∨ (Rect.block (s := S32768x64) S4096x64.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S64x64.size a ≤ S64x64.size a
  hwx19_1 : ∀ i : grid19.Coords, EltTy.bits .f32 = 32 ∨ (Rect.block (s := S64x64) S64x64.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x64.size a ≤ S1x64.size a
  hwx19_2 : ∀ i : grid19.Coords, EltTy.bits .f32 = 32 ∨ (Rect.block (s := S1x64) S1x64.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S4096x64.size a ≤ S32768x64.size a
  hwx19_3 : ∀ i : grid19.Coords, EltTy.bits .f32 = 32 ∨ (Rect.block (s := S32768x64) S4096x64.size (cc19_transform_3 i) (hinb19_3 i)).WholeWords (EltTy.packing .f32)
  hstage19_4 : ∀ j, (stage19_4 j).IsWhole
  nbuf19_4 : grid19.bufCount reads19_4 false = 2
  hreads19_4 : ∀ i i' : grid19.Coords, (∀ a, reads19_4 a = true → i a = i' a) → cc19_transform_4 i = cc19_transform_4 i'
  hinb19_4 : ∀ (i : grid19.Coords) a, (cc19_transform_4 i a + 1) * S4096x64.size a ≤ S32768x64.size a
  hwx19_4 : ∀ i : grid19.Coords, EltTy.bits .f32 = 32 ∨ (Rect.block (s := S32768x64) S4096x64.size (cc19_transform_4 i) (hinb19_4 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S4096x64.size a ≤ S131072x64.size a
  hwx20_0 : ∀ i : grid20.Coords, EltTy.bits .f32 = 32 ∨ (Rect.block (s := S131072x64) S4096x64.size (cc20_transform_0 i) (hinb20_0 i)).WholeWords (EltTy.packing .f32)
  hstage20_1 : ∀ j, (stage20_1 j).IsWhole
  nbuf20_1 : grid20.bufCount reads20_1 true = 1
  hreads20_1 : ∀ i i' : grid20.Coords, (∀ a, reads20_1 a = true → i a = i' a) → cc20_transform_1 i = cc20_transform_1 i'
  hinb20_1 : ∀ (i : grid20.Coords) a, (cc20_transform_1 i a + 1) * S64x64.size a ≤ S64x64.size a
  hwx20_1 : ∀ i : grid20.Coords, EltTy.bits .f32 = 32 ∨ (Rect.block (s := S64x64) S64x64.size (cc20_transform_1 i) (hinb20_1 i)).WholeWords (EltTy.packing .f32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S1x64.size a ≤ S1x64.size a
  hwx20_2 : ∀ i : grid20.Coords, EltTy.bits .f32 = 32 ∨ (Rect.block (s := S1x64) S1x64.size (cc20_transform_2 i) (hinb20_2 i)).WholeWords (EltTy.packing .f32)
  hstage20_3 : ∀ j, (stage20_3 j).IsWhole
  nbuf20_3 : grid20.bufCount reads20_3 false = 2
  hreads20_3 : ∀ i i' : grid20.Coords, (∀ a, reads20_3 a = true → i a = i' a) → cc20_transform_3 i = cc20_transform_3 i'
  hinb20_3 : ∀ (i : grid20.Coords) a, (cc20_transform_3 i a + 1) * S4096x64.size a ≤ S131072x64.size a
  hwx20_3 : ∀ i : grid20.Coords, EltTy.bits .f32 = 32 ∨ (Rect.block (s := S131072x64) S4096x64.size (cc20_transform_3 i) (hinb20_3 i)).WholeWords (EltTy.packing .f32)
  hstage20_4 : ∀ j, (stage20_4 j).IsWhole
  nbuf20_4 : grid20.bufCount reads20_4 false = 2
  hreads20_4 : ∀ i i' : grid20.Coords, (∀ a, reads20_4 a = true → i a = i' a) → cc20_transform_4 i = cc20_transform_4 i'
  hinb20_4 : ∀ (i : grid20.Coords) a, (cc20_transform_4 i a + 1) * S4096x64.size a ≤ S131072x64.size a
  hwx20_4 : ∀ i : grid20.Coords, EltTy.bits .f32 = 32 ∨ (Rect.block (s := S131072x64) S4096x64.size (cc20_transform_4 i) (hinb20_4 i)).WholeWords (EltTy.packing .f32)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S4096x64.size a ≤ S32768x64.size a
  hwx21_0 : ∀ i : grid21.Coords, EltTy.bits .f32 = 32 ∨ (Rect.block (s := S32768x64) S4096x64.size (cc21_transform_0 i) (hinb21_0 i)).WholeWords (EltTy.packing .f32)
  hstage21_1 : ∀ j, (stage21_1 j).IsWhole
  nbuf21_1 : grid21.bufCount reads21_1 true = 1
  hreads21_1 : ∀ i i' : grid21.Coords, (∀ a, reads21_1 a = true → i a = i' a) → cc21_transform_1 i = cc21_transform_1 i'
  hinb21_1 : ∀ (i : grid21.Coords) a, (cc21_transform_1 i a + 1) * S64x64.size a ≤ S64x64.size a
  hwx21_1 : ∀ i : grid21.Coords, EltTy.bits .f32 = 32 ∨ (Rect.block (s := S64x64) S64x64.size (cc21_transform_1 i) (hinb21_1 i)).WholeWords (EltTy.packing .f32)
  hstage21_2 : ∀ j, (stage21_2 j).IsWhole
  nbuf21_2 : grid21.bufCount reads21_2 true = 1
  hreads21_2 : ∀ i i' : grid21.Coords, (∀ a, reads21_2 a = true → i a = i' a) → cc21_transform_2 i = cc21_transform_2 i'
  hinb21_2 : ∀ (i : grid21.Coords) a, (cc21_transform_2 i a + 1) * S1x64.size a ≤ S1x64.size a
  hwx21_2 : ∀ i : grid21.Coords, EltTy.bits .f32 = 32 ∨ (Rect.block (s := S1x64) S1x64.size (cc21_transform_2 i) (hinb21_2 i)).WholeWords (EltTy.packing .f32)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S4096x64.size a ≤ S32768x64.size a
  hwx21_3 : ∀ i : grid21.Coords, EltTy.bits .f32 = 32 ∨ (Rect.block (s := S32768x64) S4096x64.size (cc21_transform_3 i) (hinb21_3 i)).WholeWords (EltTy.packing .f32)
  hstage21_4 : ∀ j, (stage21_4 j).IsWhole
  nbuf21_4 : grid21.bufCount reads21_4 false = 2
  hreads21_4 : ∀ i i' : grid21.Coords, (∀ a, reads21_4 a = true → i a = i' a) → cc21_transform_4 i = cc21_transform_4 i'
  hinb21_4 : ∀ (i : grid21.Coords) a, (cc21_transform_4 i a + 1) * S4096x64.size a ≤ S32768x64.size a
  hwx21_4 : ∀ i : grid21.Coords, EltTy.bits .f32 = 32 ∨ (Rect.block (s := S32768x64) S4096x64.size (cc21_transform_4 i) (hinb21_4 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S4096x64.size a ≤ S131072x64.size a
  hwx22_0 : ∀ i : grid22.Coords, EltTy.bits .f32 = 32 ∨ (Rect.block (s := S131072x64) S4096x64.size (cc22_transform_0 i) (hinb22_0 i)).WholeWords (EltTy.packing .f32)
  hstage22_1 : ∀ j, (stage22_1 j).IsWhole
  nbuf22_1 : grid22.bufCount reads22_1 true = 1
  hreads22_1 : ∀ i i' : grid22.Coords, (∀ a, reads22_1 a = true → i a = i' a) → cc22_transform_1 i = cc22_transform_1 i'
  hinb22_1 : ∀ (i : grid22.Coords) a, (cc22_transform_1 i a + 1) * S64x64.size a ≤ S64x64.size a
  hwx22_1 : ∀ i : grid22.Coords, EltTy.bits .f32 = 32 ∨ (Rect.block (s := S64x64) S64x64.size (cc22_transform_1 i) (hinb22_1 i)).WholeWords (EltTy.packing .f32)
  hstage22_2 : ∀ j, (stage22_2 j).IsWhole
  nbuf22_2 : grid22.bufCount reads22_2 true = 1
  hreads22_2 : ∀ i i' : grid22.Coords, (∀ a, reads22_2 a = true → i a = i' a) → cc22_transform_2 i = cc22_transform_2 i'
  hinb22_2 : ∀ (i : grid22.Coords) a, (cc22_transform_2 i a + 1) * S1x64.size a ≤ S1x64.size a
  hwx22_2 : ∀ i : grid22.Coords, EltTy.bits .f32 = 32 ∨ (Rect.block (s := S1x64) S1x64.size (cc22_transform_2 i) (hinb22_2 i)).WholeWords (EltTy.packing .f32)
  hstage22_3 : ∀ j, (stage22_3 j).IsWhole
  nbuf22_3 : grid22.bufCount reads22_3 false = 2
  hreads22_3 : ∀ i i' : grid22.Coords, (∀ a, reads22_3 a = true → i a = i' a) → cc22_transform_3 i = cc22_transform_3 i'
  hinb22_3 : ∀ (i : grid22.Coords) a, (cc22_transform_3 i a + 1) * S4096x64.size a ≤ S131072x64.size a
  hwx22_3 : ∀ i : grid22.Coords, EltTy.bits .f32 = 32 ∨ (Rect.block (s := S131072x64) S4096x64.size (cc22_transform_3 i) (hinb22_3 i)).WholeWords (EltTy.packing .f32)
  hstage22_4 : ∀ j, (stage22_4 j).IsWhole
  nbuf22_4 : grid22.bufCount reads22_4 false = 2
  hreads22_4 : ∀ i i' : grid22.Coords, (∀ a, reads22_4 a = true → i a = i' a) → cc22_transform_4 i = cc22_transform_4 i'
  hinb22_4 : ∀ (i : grid22.Coords) a, (cc22_transform_4 i a + 1) * S4096x64.size a ≤ S131072x64.size a
  hwx22_4 : ∀ i : grid22.Coords, EltTy.bits .f32 = 32 ∨ (Rect.block (s := S131072x64) S4096x64.size (cc22_transform_4 i) (hinb22_4 i)).WholeWords (EltTy.packing .f32)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S4096x64.size a ≤ S32768x64.size a
  hwx23_0 : ∀ i : grid23.Coords, EltTy.bits .f32 = 32 ∨ (Rect.block (s := S32768x64) S4096x64.size (cc23_transform_0 i) (hinb23_0 i)).WholeWords (EltTy.packing .f32)
  hstage23_1 : ∀ j, (stage23_1 j).IsWhole
  nbuf23_1 : grid23.bufCount reads23_1 true = 1
  hreads23_1 : ∀ i i' : grid23.Coords, (∀ a, reads23_1 a = true → i a = i' a) → cc23_transform_1 i = cc23_transform_1 i'
  hinb23_1 : ∀ (i : grid23.Coords) a, (cc23_transform_1 i a + 1) * S64x64.size a ≤ S64x64.size a
  hwx23_1 : ∀ i : grid23.Coords, EltTy.bits .f32 = 32 ∨ (Rect.block (s := S64x64) S64x64.size (cc23_transform_1 i) (hinb23_1 i)).WholeWords (EltTy.packing .f32)
  hstage23_2 : ∀ j, (stage23_2 j).IsWhole
  nbuf23_2 : grid23.bufCount reads23_2 true = 1
  hreads23_2 : ∀ i i' : grid23.Coords, (∀ a, reads23_2 a = true → i a = i' a) → cc23_transform_2 i = cc23_transform_2 i'
  hinb23_2 : ∀ (i : grid23.Coords) a, (cc23_transform_2 i a + 1) * S1x64.size a ≤ S1x64.size a
  hwx23_2 : ∀ i : grid23.Coords, EltTy.bits .f32 = 32 ∨ (Rect.block (s := S1x64) S1x64.size (cc23_transform_2 i) (hinb23_2 i)).WholeWords (EltTy.packing .f32)
  hstage23_3 : ∀ j, (stage23_3 j).IsWhole
  nbuf23_3 : grid23.bufCount reads23_3 false = 2
  hreads23_3 : ∀ i i' : grid23.Coords, (∀ a, reads23_3 a = true → i a = i' a) → cc23_transform_3 i = cc23_transform_3 i'
  hinb23_3 : ∀ (i : grid23.Coords) a, (cc23_transform_3 i a + 1) * S4096x64.size a ≤ S32768x64.size a
  hwx23_3 : ∀ i : grid23.Coords, EltTy.bits .f32 = 32 ∨ (Rect.block (s := S32768x64) S4096x64.size (cc23_transform_3 i) (hinb23_3 i)).WholeWords (EltTy.packing .f32)
  hstage23_4 : ∀ j, (stage23_4 j).IsWhole
  nbuf23_4 : grid23.bufCount reads23_4 false = 2
  hreads23_4 : ∀ i i' : grid23.Coords, (∀ a, reads23_4 a = true → i a = i' a) → cc23_transform_4 i = cc23_transform_4 i'
  hinb23_4 : ∀ (i : grid23.Coords) a, (cc23_transform_4 i a + 1) * S4096x64.size a ≤ S32768x64.size a
  hwx23_4 : ∀ i : grid23.Coords, EltTy.bits .f32 = 32 ∨ (Rect.block (s := S32768x64) S4096x64.size (cc23_transform_4 i) (hinb23_4 i)).WholeWords (EltTy.packing .f32)
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S4096x64.size a ≤ S131072x64.size a
  hwx24_0 : ∀ i : grid24.Coords, EltTy.bits .f32 = 32 ∨ (Rect.block (s := S131072x64) S4096x64.size (cc24_transform_0 i) (hinb24_0 i)).WholeWords (EltTy.packing .f32)
  hstage24_1 : ∀ j, (stage24_1 j).IsWhole
  nbuf24_1 : grid24.bufCount reads24_1 false = 2
  hreads24_1 : ∀ i i' : grid24.Coords, (∀ a, reads24_1 a = true → i a = i' a) → cc24_transform_1 i = cc24_transform_1 i'
  hinb24_1 : ∀ (i : grid24.Coords) a, (cc24_transform_1 i a + 1) * S4096x64.size a ≤ S131072x64.size a
  hwx24_1 : ∀ i : grid24.Coords, EltTy.bits .f32 = 32 ∨ (Rect.block (s := S131072x64) S4096x64.size (cc24_transform_1 i) (hinb24_1 i)).WholeWords (EltTy.packing .f32)
  hstage24_2 : ∀ j, (stage24_2 j).IsWhole
  nbuf24_2 : grid24.bufCount reads24_2 false = 2
  hreads24_2 : ∀ i i' : grid24.Coords, (∀ a, reads24_2 a = true → i a = i' a) → cc24_transform_2 i = cc24_transform_2 i'
  hinb24_2 : ∀ (i : grid24.Coords) a, (cc24_transform_2 i a + 1) * S4096x64.size a ≤ S131072x64.size a
  hwx24_2 : ∀ i : grid24.Coords, EltTy.bits .f32 = 32 ∨ (Rect.block (s := S131072x64) S4096x64.size (cc24_transform_2 i) (hinb24_2 i)).WholeWords (EltTy.packing .f32)
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S4096x64.size a ≤ S32768x64.size a
  hwx25_0 : ∀ i : grid25.Coords, EltTy.bits .f32 = 32 ∨ (Rect.block (s := S32768x64) S4096x64.size (cc25_transform_0 i) (hinb25_0 i)).WholeWords (EltTy.packing .f32)
  hstage25_1 : ∀ j, (stage25_1 j).IsWhole
  nbuf25_1 : grid25.bufCount reads25_1 false = 2
  hreads25_1 : ∀ i i' : grid25.Coords, (∀ a, reads25_1 a = true → i a = i' a) → cc25_transform_1 i = cc25_transform_1 i'
  hinb25_1 : ∀ (i : grid25.Coords) a, (cc25_transform_1 i a + 1) * S4096x64.size a ≤ S32768x64.size a
  hwx25_1 : ∀ i : grid25.Coords, EltTy.bits .f32 = 32 ∨ (Rect.block (s := S32768x64) S4096x64.size (cc25_transform_1 i) (hinb25_1 i)).WholeWords (EltTy.packing .f32)
  hstage25_2 : ∀ j, (stage25_2 j).IsWhole
  nbuf25_2 : grid25.bufCount reads25_2 false = 2
  hreads25_2 : ∀ i i' : grid25.Coords, (∀ a, reads25_2 a = true → i a = i' a) → cc25_transform_2 i = cc25_transform_2 i'
  hinb25_2 : ∀ (i : grid25.Coords) a, (cc25_transform_2 i a + 1) * S4096x64.size a ≤ S32768x64.size a
  hwx25_2 : ∀ i : grid25.Coords, EltTy.bits .f32 = 32 ∨ (Rect.block (s := S32768x64) S4096x64.size (cc25_transform_2 i) (hinb25_2 i)).WholeWords (EltTy.packing .f32)
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S4096x64.size a ≤ S131072x64.size a
  hwx26_0 : ∀ i : grid26.Coords, EltTy.bits .f32 = 32 ∨ (Rect.block (s := S131072x64) S4096x64.size (cc26_transform_0 i) (hinb26_0 i)).WholeWords (EltTy.packing .f32)
  hstage26_1 : ∀ j, (stage26_1 j).IsWhole
  nbuf26_1 : grid26.bufCount reads26_1 true = 1
  hreads26_1 : ∀ i i' : grid26.Coords, (∀ a, reads26_1 a = true → i a = i' a) → cc26_transform_1 i = cc26_transform_1 i'
  hinb26_1 : ∀ (i : grid26.Coords) a, (cc26_transform_1 i a + 1) * S64x32.size a ≤ S64x32.size a
  hwx26_1 : ∀ i : grid26.Coords, EltTy.bits .f32 = 32 ∨ (Rect.block (s := S64x32) S64x32.size (cc26_transform_1 i) (hinb26_1 i)).WholeWords (EltTy.packing .f32)
  hstage26_2 : ∀ j, (stage26_2 j).IsWhole
  nbuf26_2 : grid26.bufCount reads26_2 true = 1
  hreads26_2 : ∀ i i' : grid26.Coords, (∀ a, reads26_2 a = true → i a = i' a) → cc26_transform_2 i = cc26_transform_2 i'
  hinb26_2 : ∀ (i : grid26.Coords) a, (cc26_transform_2 i a + 1) * S1x32.size a ≤ S1x32.size a
  hwx26_2 : ∀ i : grid26.Coords, EltTy.bits .f32 = 32 ∨ (Rect.block (s := S1x32) S1x32.size (cc26_transform_2 i) (hinb26_2 i)).WholeWords (EltTy.packing .f32)
  hstage26_3 : ∀ j, (stage26_3 j).IsWhole
  nbuf26_3 : grid26.bufCount reads26_3 false = 2
  hreads26_3 : ∀ i i' : grid26.Coords, (∀ a, reads26_3 a = true → i a = i' a) → cc26_transform_3 i = cc26_transform_3 i'
  hinb26_3 : ∀ (i : grid26.Coords) a, (cc26_transform_3 i a + 1) * S4096x32.size a ≤ S131072x32.size a
  hwx26_3 : ∀ i : grid26.Coords, EltTy.bits .f32 = 32 ∨ (Rect.block (s := S131072x32) S4096x32.size (cc26_transform_3 i) (hinb26_3 i)).WholeWords (EltTy.packing .f32)
  hrank27 : 0 < grid27.rank
  hstage27_0 : ∀ j, (stage27_0 j).IsWhole
  nbuf27_0 : grid27.bufCount reads27_0 false = 2
  hreads27_0 : ∀ i i' : grid27.Coords, (∀ a, reads27_0 a = true → i a = i' a) → cc27_transform_0 i = cc27_transform_0 i'
  hinb27_0 : ∀ (i : grid27.Coords) a, (cc27_transform_0 i a + 1) * S4096x64.size a ≤ S32768x64.size a
  hwx27_0 : ∀ i : grid27.Coords, EltTy.bits .f32 = 32 ∨ (Rect.block (s := S32768x64) S4096x64.size (cc27_transform_0 i) (hinb27_0 i)).WholeWords (EltTy.packing .f32)
  hstage27_1 : ∀ j, (stage27_1 j).IsWhole
  nbuf27_1 : grid27.bufCount reads27_1 true = 1
  hreads27_1 : ∀ i i' : grid27.Coords, (∀ a, reads27_1 a = true → i a = i' a) → cc27_transform_1 i = cc27_transform_1 i'
  hinb27_1 : ∀ (i : grid27.Coords) a, (cc27_transform_1 i a + 1) * S64x32.size a ≤ S64x32.size a
  hwx27_1 : ∀ i : grid27.Coords, EltTy.bits .f32 = 32 ∨ (Rect.block (s := S64x32) S64x32.size (cc27_transform_1 i) (hinb27_1 i)).WholeWords (EltTy.packing .f32)
  hstage27_2 : ∀ j, (stage27_2 j).IsWhole
  nbuf27_2 : grid27.bufCount reads27_2 true = 1
  hreads27_2 : ∀ i i' : grid27.Coords, (∀ a, reads27_2 a = true → i a = i' a) → cc27_transform_2 i = cc27_transform_2 i'
  hinb27_2 : ∀ (i : grid27.Coords) a, (cc27_transform_2 i a + 1) * S1x32.size a ≤ S1x32.size a
  hwx27_2 : ∀ i : grid27.Coords, EltTy.bits .f32 = 32 ∨ (Rect.block (s := S1x32) S1x32.size (cc27_transform_2 i) (hinb27_2 i)).WholeWords (EltTy.packing .f32)
  hstage27_3 : ∀ j, (stage27_3 j).IsWhole
  nbuf27_3 : grid27.bufCount reads27_3 false = 2
  hreads27_3 : ∀ i i' : grid27.Coords, (∀ a, reads27_3 a = true → i a = i' a) → cc27_transform_3 i = cc27_transform_3 i'
  hinb27_3 : ∀ (i : grid27.Coords) a, (cc27_transform_3 i a + 1) * S4096x32.size a ≤ S32768x32.size a
  hwx27_3 : ∀ i : grid27.Coords, EltTy.bits .f32 = 32 ∨ (Rect.block (s := S32768x32) S4096x32.size (cc27_transform_3 i) (hinb27_3 i)).WholeWords (EltTy.packing .f32)

variable [Facts₀]

def dot_S4096x32_S32x64_S4096x64_1_0_0_1_n_n : DotDims S4096x32 S32x64 S4096x64 where
  lhsContracting := [1]
  rhsContracting := [0]
  lhsNonContracting := [0]
  rhsNonContracting := [1]
  lhsBatch := []
  rhsBatch := []
  wf := dot_S4096x32_S32x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def gather_S131072x64_S2097152x1_S2097152x64_1_0_n_n_0_1_164 : GatherDims S131072x64 S2097152x1 S2097152x64 where
  offsetDims := [1]
  collapsedSliceDims := [0]
  operandBatchingDims := []
  startIndicesBatchingDims := []
  startIndexMap := [0]
  indexVectorDim := 1
  sliceSizes := ![1, 64]
  wf := gather_S131072x64_S2097152x1_S2097152x64_1_0_n_n_0_1_164_wf
def scatter_S131072x64_S2097152x1_S2097152x64_1_0_0_1 : ScatterDims S131072x64 S2097152x1 S2097152x64 where
  updateWindowDims := [1]
  insertedWindowDims := [0]
  scatterDimsToOperandDims := [0]
  indexVectorDim := 1
  wf := scatter_S131072x64_S2097152x1_S2097152x64_1_0_0_1_wf
def gather_S32768x64_S65536x1_S65536x64_1_0_n_n_0_1_164 : GatherDims S32768x64 S65536x1 S65536x64 where
  offsetDims := [1]
  collapsedSliceDims := [0]
  operandBatchingDims := []
  startIndicesBatchingDims := []
  startIndexMap := [0]
  indexVectorDim := 1
  sliceSizes := ![1, 64]
  wf := gather_S32768x64_S65536x1_S65536x64_1_0_n_n_0_1_164_wf
def scatter_S131072x64_S65536x1_S65536x64_1_0_0_1 : ScatterDims S131072x64 S65536x1 S65536x64 where
  updateWindowDims := [1]
  insertedWindowDims := [0]
  scatterDimsToOperandDims := [0]
  indexVectorDim := 1
  wf := scatter_S131072x64_S65536x1_S65536x64_1_0_0_1_wf
def gather_S131072x64_S65536x1_S65536x64_1_0_n_n_0_1_164 : GatherDims S131072x64 S65536x1 S65536x64 where
  offsetDims := [1]
  collapsedSliceDims := [0]
  operandBatchingDims := []
  startIndicesBatchingDims := []
  startIndexMap := [0]
  indexVectorDim := 1
  sliceSizes := ![1, 64]
  wf := gather_S131072x64_S65536x1_S65536x64_1_0_n_n_0_1_164_wf
def scatter_S32768x64_S65536x1_S65536x64_1_0_0_1 : ScatterDims S32768x64 S65536x1 S65536x64 where
  updateWindowDims := [1]
  insertedWindowDims := [0]
  scatterDimsToOperandDims := [0]
  indexVectorDim := 1
  wf := scatter_S32768x64_S65536x1_S65536x64_1_0_0_1_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf

abbrev win0_0 : Pipeline.Window sig grid0 :=
  Pipeline.Window.ofSpec (Memref.whole main_arg0) S4096x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4096x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4096x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S4096x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v5) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v28) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v29_0) S4096x64.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v29_1) S4096x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v7) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v16) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v17) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v35) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v40) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v41_0) S4096x64.size cc3_transform_7 reads3_7 true false 2 stage3_7 sem3_7
    hrank3 hreads3_7 hinb3_7 nbuf3_7 (Memref.isWhole_whole _) hwx3_7 hstage3_7

abbrev win3_8 : Pipeline.Window sig grid3 :=
  Pipeline.Window.ofSpec (Memref.whole main_v41_1) S4096x64.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

abbrev win4_0 : Pipeline.Window sig grid4 :=
  Pipeline.Window.ofSpec (Memref.whole main_v62) S4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v74) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v29_1) S4096x64.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v78) S4096x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v72) S4096x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v80) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v83) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v41_1) S4096x64.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v84) S4096x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v105) S4096x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v117) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v120) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v78) S4096x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v121) S4096x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v115) S4096x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v123) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v126) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v84) S4096x64.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v127) S4096x64.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

abbrev win8_0 : Pipeline.Window sig grid8 :=
  Pipeline.Window.ofSpec (Memref.whole main_v148) S4096x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v160) S64x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v163) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v121) S4096x64.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v164) S4096x64.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v158) S4096x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v166) S64x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v169) S1x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v127) S4096x64.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v170) S4096x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v191) S4096x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v203) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v206) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v164) S4096x64.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_v207) S4096x64.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v201) S4096x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v209) S64x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v212) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v170) S4096x64.size cc11_transform_3 reads11_3 false false 2 stage11_3 sem11_3
    hrank11 hreads11_3 hinb11_3 nbuf11_3 (Memref.isWhole_whole _) hwx11_3 hstage11_3

abbrev win11_4 : Pipeline.Window sig grid11 :=
  Pipeline.Window.ofSpec (Memref.whole main_v213) S4096x64.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v5) S4096x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v207) S4096x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v214) S4096x64.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v7) S4096x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v213) S4096x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v215) S4096x64.size cc13_transform_2 reads13_2 true false 2 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_v214) S4096x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v234) S1x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v235) S1x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v219) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v220) S1x64.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v231) S64x64.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v236) S1x64.size cc14_transform_6 reads14_6 false true 1 stage14_6 sem14_6
    hrank14 hreads14_6 hinb14_6 nbuf14_6 (Memref.isWhole_whole _) hwx14_6 hstage14_6

abbrev win14_7 : Pipeline.Window sig grid14 :=
  Pipeline.Window.ofSpec (Memref.whole main_v237_0) S4096x64.size cc14_transform_7 reads14_7 true false 2 stage14_7 sem14_7
    hrank14 hreads14_7 hinb14_7 nbuf14_7 (Memref.isWhole_whole _) hwx14_7 hstage14_7

abbrev win14_8 : Pipeline.Window sig grid14 :=
  Pipeline.Window.ofSpec (Memref.whole main_v237_1) S4096x64.size cc14_transform_8 reads14_8 true false 2 stage14_8 sem14_8
    hrank14 hreads14_8 hinb14_8 nbuf14_8 (Memref.isWhole_whole _) hwx14_8 hstage14_8

abbrev win14 : Fin 9 → Pipeline.Window sig grid14 := fun | 0 => win14_0 | 1 => win14_1 | 2 => win14_2 | 3 => win14_3 | 4 => win14_4 | 5 => win14_5 | 6 => win14_6 | 7 => win14_7 | 8 => win14_8 | ⟨_ + 9, h⟩ => absurd h (Nat.not_lt.2 (Nat.le_add_left _ _))
abbrev spec14 : Fin 9 → Pipeline.WinSpec sig grid14.rank := fun w => (win14 w).toWinSpec

abbrev win15_0 : Pipeline.Window sig grid15 :=
  Pipeline.Window.ofSpec (Memref.whole main_v215) S4096x64.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v246) S1x64.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v247) S1x64.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v224) S1x64.size cc15_transform_3 reads15_3 false true 1 stage15_3 sem15_3
    hrank15 hreads15_3 hinb15_3 nbuf15_3 (Memref.isWhole_whole _) hwx15_3 hstage15_3

abbrev win15_4 : Pipeline.Window sig grid15 :=
  Pipeline.Window.ofSpec (Memref.whole main_v225) S1x64.size cc15_transform_4 reads15_4 false true 1 stage15_4 sem15_4
    hrank15 hreads15_4 hinb15_4 nbuf15_4 (Memref.isWhole_whole _) hwx15_4 hstage15_4

abbrev win15_5 : Pipeline.Window sig grid15 :=
  Pipeline.Window.ofSpec (Memref.whole main_v243) S64x64.size cc15_transform_5 reads15_5 false true 1 stage15_5 sem15_5
    hrank15 hreads15_5 hinb15_5 nbuf15_5 (Memref.isWhole_whole _) hwx15_5 hstage15_5

abbrev win15_6 : Pipeline.Window sig grid15 :=
  Pipeline.Window.ofSpec (Memref.whole main_v248) S1x64.size cc15_transform_6 reads15_6 false true 1 stage15_6 sem15_6
    hrank15 hreads15_6 hinb15_6 nbuf15_6 (Memref.isWhole_whole _) hwx15_6 hstage15_6

abbrev win15_7 : Pipeline.Window sig grid15 :=
  Pipeline.Window.ofSpec (Memref.whole main_v249_0) S4096x64.size cc15_transform_7 reads15_7 true false 2 stage15_7 sem15_7
    hrank15 hreads15_7 hinb15_7 nbuf15_7 (Memref.isWhole_whole _) hwx15_7 hstage15_7

abbrev win15_8 : Pipeline.Window sig grid15 :=
  Pipeline.Window.ofSpec (Memref.whole main_v249_1) S4096x64.size cc15_transform_8 reads15_8 true false 2 stage15_8 sem15_8
    hrank15 hreads15_8 hinb15_8 nbuf15_8 (Memref.isWhole_whole _) hwx15_8 hstage15_8

abbrev win15 : Fin 9 → Pipeline.Window sig grid15 := fun | 0 => win15_0 | 1 => win15_1 | 2 => win15_2 | 3 => win15_3 | 4 => win15_4 | 5 => win15_5 | 6 => win15_6 | 7 => win15_7 | 8 => win15_8 | ⟨_ + 9, h⟩ => absurd h (Nat.not_lt.2 (Nat.le_add_left _ _))
abbrev spec15 : Fin 9 → Pipeline.WinSpec sig grid15.rank := fun w => (win15 w).toWinSpec

abbrev win16_0 : Pipeline.Window sig grid16 :=
  Pipeline.Window.ofSpec (Memref.whole main_v270) S4096x64.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v282) S64x64.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v285) S1x64.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v237_1) S4096x64.size cc16_transform_3 reads16_3 false false 2 stage16_3 sem16_3
    hrank16 hreads16_3 hinb16_3 nbuf16_3 (Memref.isWhole_whole _) hwx16_3 hstage16_3

abbrev win16_4 : Pipeline.Window sig grid16 :=
  Pipeline.Window.ofSpec (Memref.whole main_v286) S4096x64.size cc16_transform_4 reads16_4 true false 2 stage16_4 sem16_4
    hrank16 hreads16_4 hinb16_4 nbuf16_4 (Memref.isWhole_whole _) hwx16_4 hstage16_4

abbrev win16 : Fin 5 → Pipeline.Window sig grid16 := fun | 0 => win16_0 | 1 => win16_1 | 2 => win16_2 | 3 => win16_3 | 4 => win16_4 | ⟨_ + 5, h⟩ => absurd h (Nat.not_lt.2 (Nat.le_add_left _ _))
abbrev spec16 : Fin 5 → Pipeline.WinSpec sig grid16.rank := fun w => (win16 w).toWinSpec

abbrev win17_0 : Pipeline.Window sig grid17 :=
  Pipeline.Window.ofSpec (Memref.whole main_v280) S4096x64.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v288) S64x64.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v291) S1x64.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v249_1) S4096x64.size cc17_transform_3 reads17_3 false false 2 stage17_3 sem17_3
    hrank17 hreads17_3 hinb17_3 nbuf17_3 (Memref.isWhole_whole _) hwx17_3 hstage17_3

abbrev win17_4 : Pipeline.Window sig grid17 :=
  Pipeline.Window.ofSpec (Memref.whole main_v292) S4096x64.size cc17_transform_4 reads17_4 true false 2 stage17_4 sem17_4
    hrank17 hreads17_4 hinb17_4 nbuf17_4 (Memref.isWhole_whole _) hwx17_4 hstage17_4

abbrev win17 : Fin 5 → Pipeline.Window sig grid17 := fun | 0 => win17_0 | 1 => win17_1 | 2 => win17_2 | 3 => win17_3 | 4 => win17_4 | ⟨_ + 5, h⟩ => absurd h (Nat.not_lt.2 (Nat.le_add_left _ _))
abbrev spec17 : Fin 5 → Pipeline.WinSpec sig grid17.rank := fun w => (win17 w).toWinSpec

abbrev win18_0 : Pipeline.Window sig grid18 :=
  Pipeline.Window.ofSpec (Memref.whole main_v313) S4096x64.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v325) S64x64.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v328) S1x64.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v286) S4096x64.size cc18_transform_3 reads18_3 false false 2 stage18_3 sem18_3
    hrank18 hreads18_3 hinb18_3 nbuf18_3 (Memref.isWhole_whole _) hwx18_3 hstage18_3

abbrev win18_4 : Pipeline.Window sig grid18 :=
  Pipeline.Window.ofSpec (Memref.whole main_v329) S4096x64.size cc18_transform_4 reads18_4 true false 2 stage18_4 sem18_4
    hrank18 hreads18_4 hinb18_4 nbuf18_4 (Memref.isWhole_whole _) hwx18_4 hstage18_4

abbrev win18 : Fin 5 → Pipeline.Window sig grid18 := fun | 0 => win18_0 | 1 => win18_1 | 2 => win18_2 | 3 => win18_3 | 4 => win18_4 | ⟨_ + 5, h⟩ => absurd h (Nat.not_lt.2 (Nat.le_add_left _ _))
abbrev spec18 : Fin 5 → Pipeline.WinSpec sig grid18.rank := fun w => (win18 w).toWinSpec

abbrev win19_0 : Pipeline.Window sig grid19 :=
  Pipeline.Window.ofSpec (Memref.whole main_v323) S4096x64.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v331) S64x64.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v334) S1x64.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v292) S4096x64.size cc19_transform_3 reads19_3 false false 2 stage19_3 sem19_3
    hrank19 hreads19_3 hinb19_3 nbuf19_3 (Memref.isWhole_whole _) hwx19_3 hstage19_3

abbrev win19_4 : Pipeline.Window sig grid19 :=
  Pipeline.Window.ofSpec (Memref.whole main_v335) S4096x64.size cc19_transform_4 reads19_4 true false 2 stage19_4 sem19_4
    hrank19 hreads19_4 hinb19_4 nbuf19_4 (Memref.isWhole_whole _) hwx19_4 hstage19_4

abbrev win19 : Fin 5 → Pipeline.Window sig grid19 := fun | 0 => win19_0 | 1 => win19_1 | 2 => win19_2 | 3 => win19_3 | 4 => win19_4 | ⟨_ + 5, h⟩ => absurd h (Nat.not_lt.2 (Nat.le_add_left _ _))
abbrev spec19 : Fin 5 → Pipeline.WinSpec sig grid19.rank := fun w => (win19 w).toWinSpec

abbrev win20_0 : Pipeline.Window sig grid20 :=
  Pipeline.Window.ofSpec (Memref.whole main_v356) S4096x64.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v368) S64x64.size cc20_transform_1 reads20_1 false true 1 stage20_1 sem20_1
    hrank20 hreads20_1 hinb20_1 nbuf20_1 (Memref.isWhole_whole _) hwx20_1 hstage20_1

abbrev win20_2 : Pipeline.Window sig grid20 :=
  Pipeline.Window.ofSpec (Memref.whole main_v371) S1x64.size cc20_transform_2 reads20_2 false true 1 stage20_2 sem20_2
    hrank20 hreads20_2 hinb20_2 nbuf20_2 (Memref.isWhole_whole _) hwx20_2 hstage20_2

abbrev win20_3 : Pipeline.Window sig grid20 :=
  Pipeline.Window.ofSpec (Memref.whole main_v329) S4096x64.size cc20_transform_3 reads20_3 false false 2 stage20_3 sem20_3
    hrank20 hreads20_3 hinb20_3 nbuf20_3 (Memref.isWhole_whole _) hwx20_3 hstage20_3

abbrev win20_4 : Pipeline.Window sig grid20 :=
  Pipeline.Window.ofSpec (Memref.whole main_v372) S4096x64.size cc20_transform_4 reads20_4 true false 2 stage20_4 sem20_4
    hrank20 hreads20_4 hinb20_4 nbuf20_4 (Memref.isWhole_whole _) hwx20_4 hstage20_4

abbrev win20 : Fin 5 → Pipeline.Window sig grid20 := fun | 0 => win20_0 | 1 => win20_1 | 2 => win20_2 | 3 => win20_3 | 4 => win20_4 | ⟨_ + 5, h⟩ => absurd h (Nat.not_lt.2 (Nat.le_add_left _ _))
abbrev spec20 : Fin 5 → Pipeline.WinSpec sig grid20.rank := fun w => (win20 w).toWinSpec

abbrev win21_0 : Pipeline.Window sig grid21 :=
  Pipeline.Window.ofSpec (Memref.whole main_v366) S4096x64.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_v374) S64x64.size cc21_transform_1 reads21_1 false true 1 stage21_1 sem21_1
    hrank21 hreads21_1 hinb21_1 nbuf21_1 (Memref.isWhole_whole _) hwx21_1 hstage21_1

abbrev win21_2 : Pipeline.Window sig grid21 :=
  Pipeline.Window.ofSpec (Memref.whole main_v377) S1x64.size cc21_transform_2 reads21_2 false true 1 stage21_2 sem21_2
    hrank21 hreads21_2 hinb21_2 nbuf21_2 (Memref.isWhole_whole _) hwx21_2 hstage21_2

abbrev win21_3 : Pipeline.Window sig grid21 :=
  Pipeline.Window.ofSpec (Memref.whole main_v335) S4096x64.size cc21_transform_3 reads21_3 false false 2 stage21_3 sem21_3
    hrank21 hreads21_3 hinb21_3 nbuf21_3 (Memref.isWhole_whole _) hwx21_3 hstage21_3

abbrev win21_4 : Pipeline.Window sig grid21 :=
  Pipeline.Window.ofSpec (Memref.whole main_v378) S4096x64.size cc21_transform_4 reads21_4 true false 2 stage21_4 sem21_4
    hrank21 hreads21_4 hinb21_4 nbuf21_4 (Memref.isWhole_whole _) hwx21_4 hstage21_4

abbrev win21 : Fin 5 → Pipeline.Window sig grid21 := fun | 0 => win21_0 | 1 => win21_1 | 2 => win21_2 | 3 => win21_3 | 4 => win21_4 | ⟨_ + 5, h⟩ => absurd h (Nat.not_lt.2 (Nat.le_add_left _ _))
abbrev spec21 : Fin 5 → Pipeline.WinSpec sig grid21.rank := fun w => (win21 w).toWinSpec

abbrev win22_0 : Pipeline.Window sig grid22 :=
  Pipeline.Window.ofSpec (Memref.whole main_v399) S4096x64.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_v411) S64x64.size cc22_transform_1 reads22_1 false true 1 stage22_1 sem22_1
    hrank22 hreads22_1 hinb22_1 nbuf22_1 (Memref.isWhole_whole _) hwx22_1 hstage22_1

abbrev win22_2 : Pipeline.Window sig grid22 :=
  Pipeline.Window.ofSpec (Memref.whole main_v414) S1x64.size cc22_transform_2 reads22_2 false true 1 stage22_2 sem22_2
    hrank22 hreads22_2 hinb22_2 nbuf22_2 (Memref.isWhole_whole _) hwx22_2 hstage22_2

abbrev win22_3 : Pipeline.Window sig grid22 :=
  Pipeline.Window.ofSpec (Memref.whole main_v372) S4096x64.size cc22_transform_3 reads22_3 false false 2 stage22_3 sem22_3
    hrank22 hreads22_3 hinb22_3 nbuf22_3 (Memref.isWhole_whole _) hwx22_3 hstage22_3

abbrev win22_4 : Pipeline.Window sig grid22 :=
  Pipeline.Window.ofSpec (Memref.whole main_v415) S4096x64.size cc22_transform_4 reads22_4 true false 2 stage22_4 sem22_4
    hrank22 hreads22_4 hinb22_4 nbuf22_4 (Memref.isWhole_whole _) hwx22_4 hstage22_4

abbrev win22 : Fin 5 → Pipeline.Window sig grid22 := fun | 0 => win22_0 | 1 => win22_1 | 2 => win22_2 | 3 => win22_3 | 4 => win22_4 | ⟨_ + 5, h⟩ => absurd h (Nat.not_lt.2 (Nat.le_add_left _ _))
abbrev spec22 : Fin 5 → Pipeline.WinSpec sig grid22.rank := fun w => (win22 w).toWinSpec

abbrev win23_0 : Pipeline.Window sig grid23 :=
  Pipeline.Window.ofSpec (Memref.whole main_v409) S4096x64.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_v417) S64x64.size cc23_transform_1 reads23_1 false true 1 stage23_1 sem23_1
    hrank23 hreads23_1 hinb23_1 nbuf23_1 (Memref.isWhole_whole _) hwx23_1 hstage23_1

abbrev win23_2 : Pipeline.Window sig grid23 :=
  Pipeline.Window.ofSpec (Memref.whole main_v420) S1x64.size cc23_transform_2 reads23_2 false true 1 stage23_2 sem23_2
    hrank23 hreads23_2 hinb23_2 nbuf23_2 (Memref.isWhole_whole _) hwx23_2 hstage23_2

abbrev win23_3 : Pipeline.Window sig grid23 :=
  Pipeline.Window.ofSpec (Memref.whole main_v378) S4096x64.size cc23_transform_3 reads23_3 false false 2 stage23_3 sem23_3
    hrank23 hreads23_3 hinb23_3 nbuf23_3 (Memref.isWhole_whole _) hwx23_3 hstage23_3

abbrev win23_4 : Pipeline.Window sig grid23 :=
  Pipeline.Window.ofSpec (Memref.whole main_v421) S4096x64.size cc23_transform_4 reads23_4 true false 2 stage23_4 sem23_4
    hrank23 hreads23_4 hinb23_4 nbuf23_4 (Memref.isWhole_whole _) hwx23_4 hstage23_4

abbrev win23 : Fin 5 → Pipeline.Window sig grid23 := fun | 0 => win23_0 | 1 => win23_1 | 2 => win23_2 | 3 => win23_3 | 4 => win23_4 | ⟨_ + 5, h⟩ => absurd h (Nat.not_lt.2 (Nat.le_add_left _ _))
abbrev spec23 : Fin 5 → Pipeline.WinSpec sig grid23.rank := fun w => (win23 w).toWinSpec

abbrev win24_0 : Pipeline.Window sig grid24 :=
  Pipeline.Window.ofSpec (Memref.whole main_v214) S4096x64.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_v415) S4096x64.size cc24_transform_1 reads24_1 false false 2 stage24_1 sem24_1
    hrank24 hreads24_1 hinb24_1 nbuf24_1 (Memref.isWhole_whole _) hwx24_1 hstage24_1

abbrev win24_2 : Pipeline.Window sig grid24 :=
  Pipeline.Window.ofSpec (Memref.whole main_v422) S4096x64.size cc24_transform_2 reads24_2 true false 2 stage24_2 sem24_2
    hrank24 hreads24_2 hinb24_2 nbuf24_2 (Memref.isWhole_whole _) hwx24_2 hstage24_2

abbrev win24 : Fin 3 → Pipeline.Window sig grid24 := fun | 0 => win24_0 | 1 => win24_1 | 2 => win24_2 | ⟨_ + 3, h⟩ => absurd h (Nat.not_lt.2 (Nat.le_add_left _ _))
abbrev spec24 : Fin 3 → Pipeline.WinSpec sig grid24.rank := fun w => (win24 w).toWinSpec

abbrev win25_0 : Pipeline.Window sig grid25 :=
  Pipeline.Window.ofSpec (Memref.whole main_v215) S4096x64.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_v421) S4096x64.size cc25_transform_1 reads25_1 false false 2 stage25_1 sem25_1
    hrank25 hreads25_1 hinb25_1 nbuf25_1 (Memref.isWhole_whole _) hwx25_1 hstage25_1

abbrev win25_2 : Pipeline.Window sig grid25 :=
  Pipeline.Window.ofSpec (Memref.whole main_v423) S4096x64.size cc25_transform_2 reads25_2 true false 2 stage25_2 sem25_2
    hrank25 hreads25_2 hinb25_2 nbuf25_2 (Memref.isWhole_whole _) hwx25_2 hstage25_2

abbrev win25 : Fin 3 → Pipeline.Window sig grid25 := fun | 0 => win25_0 | 1 => win25_1 | 2 => win25_2 | ⟨_ + 3, h⟩ => absurd h (Nat.not_lt.2 (Nat.le_add_left _ _))
abbrev spec25 : Fin 3 → Pipeline.WinSpec sig grid25.rank := fun w => (win25 w).toWinSpec

abbrev win26_0 : Pipeline.Window sig grid26 :=
  Pipeline.Window.ofSpec (Memref.whole main_v422) S4096x64.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_arg14) S64x32.size cc26_transform_1 reads26_1 false true 1 stage26_1 sem26_1
    hrank26 hreads26_1 hinb26_1 nbuf26_1 (Memref.isWhole_whole _) hwx26_1 hstage26_1

abbrev win26_2 : Pipeline.Window sig grid26 :=
  Pipeline.Window.ofSpec (Memref.whole main_v424) S1x32.size cc26_transform_2 reads26_2 false true 1 stage26_2 sem26_2
    hrank26 hreads26_2 hinb26_2 nbuf26_2 (Memref.isWhole_whole _) hwx26_2 hstage26_2

abbrev win26_3 : Pipeline.Window sig grid26 :=
  Pipeline.Window.ofSpec (Memref.whole main_v425) S4096x32.size cc26_transform_3 reads26_3 true false 2 stage26_3 sem26_3
    hrank26 hreads26_3 hinb26_3 nbuf26_3 (Memref.isWhole_whole _) hwx26_3 hstage26_3

abbrev win26 : Fin 4 → Pipeline.Window sig grid26 := fun | 0 => win26_0 | 1 => win26_1 | 2 => win26_2 | 3 => win26_3 | ⟨_ + 4, h⟩ => absurd h (Nat.not_lt.2 (Nat.le_add_left _ _))
abbrev spec26 : Fin 4 → Pipeline.WinSpec sig grid26.rank := fun w => (win26 w).toWinSpec

abbrev win27_0 : Pipeline.Window sig grid27 :=
  Pipeline.Window.ofSpec (Memref.whole main_v423) S4096x64.size cc27_transform_0 reads27_0 false false 2 stage27_0 sem27_0
    hrank27 hreads27_0 hinb27_0 nbuf27_0 (Memref.isWhole_whole _) hwx27_0 hstage27_0

abbrev win27_1 : Pipeline.Window sig grid27 :=
  Pipeline.Window.ofSpec (Memref.whole main_arg16) S64x32.size cc27_transform_1 reads27_1 false true 1 stage27_1 sem27_1
    hrank27 hreads27_1 hinb27_1 nbuf27_1 (Memref.isWhole_whole _) hwx27_1 hstage27_1

abbrev win27_2 : Pipeline.Window sig grid27 :=
  Pipeline.Window.ofSpec (Memref.whole main_v426) S1x32.size cc27_transform_2 reads27_2 false true 1 stage27_2 sem27_2
    hrank27 hreads27_2 hinb27_2 nbuf27_2 (Memref.isWhole_whole _) hwx27_2 hstage27_2

abbrev win27_3 : Pipeline.Window sig grid27 :=
  Pipeline.Window.ofSpec (Memref.whole main_v427) S4096x32.size cc27_transform_3 reads27_3 true false 2 stage27_3 sem27_3
    hrank27 hreads27_3 hinb27_3 nbuf27_3 (Memref.isWhole_whole _) hwx27_3 hstage27_3

abbrev win27 : Fin 4 → Pipeline.Window sig grid27 := fun | 0 => win27_0 | 1 => win27_1 | 2 => win27_2 | 3 => win27_3 | ⟨_ + 4, h⟩ => absurd h (Nat.not_lt.2 (Nat.le_add_left _ _))
abbrev spec27 : Fin 4 → Pipeline.WinSpec sig grid27.rank := fun w => (win27 w).toWinSpec

class Facts : Prop extends Facts₀ where
  halias4_4 : Pipeline.Aliased win4 3 4
  halias5_4 : Pipeline.Aliased win5 3 4
  halias6_4 : Pipeline.Aliased win6 3 4
  halias7_4 : Pipeline.Aliased win7 3 4
  halias8_4 : Pipeline.Aliased win8 3 4
  halias9_4 : Pipeline.Aliased win9 3 4
  halias10_4 : Pipeline.Aliased win10 3 4
  halias11_4 : Pipeline.Aliased win11 3 4
  halias16_4 : Pipeline.Aliased win16 3 4
  halias17_4 : Pipeline.Aliased win17 3 4
  halias18_4 : Pipeline.Aliased win18 3 4
  halias19_4 : Pipeline.Aliased win19 3 4
  halias20_4 : Pipeline.Aliased win20 3 4
  halias21_4 : Pipeline.Aliased win21 3 4
  halias22_4 : Pipeline.Aliased win22 3 4
  halias23_4 : Pipeline.Aliased win23 3 4

variable [Facts]
-- ==== ReferenceIdeal.lean ====
abbrev S131072x32 : Shape := ⟨2, ![131072, 32]⟩
abbrev S32768x32 : Shape := ⟨2, ![32768, 32]⟩
abbrev S32x64 : Shape := ⟨2, ![32, 64]⟩
abbrev S64 : Shape := ⟨1, ![64]⟩
abbrev S2x64 : Shape := ⟨2, ![2, 64]⟩
abbrev S2x5x64x64 : Shape := ⟨4, ![2, 5, 64, 64]⟩
abbrev S2x5x64 : Shape := ⟨3, ![2, 5, 64]⟩
abbrev S64x32 : Shape := ⟨2, ![64, 32]⟩
abbrev S32 : Shape := ⟨1, ![32]⟩
abbrev S2x2097152 : Shape := ⟨2, ![2, 2097152]⟩
abbrev S65536 : Shape := ⟨1, ![65536]⟩
abbrev S1x2097152 : Shape := ⟨2, ![1, 2097152]⟩
abbrev S2097152 : Shape := ⟨1, ![2097152]⟩
abbrev S131072x64 : Shape := ⟨2, ![131072, 64]⟩
abbrev S1x64 : Shape := ⟨2, ![1, 64]⟩
abbrev S32768x64 : Shape := ⟨2, ![32768, 64]⟩
abbrev S_ : Shape := ⟨0, ![]⟩
abbrev S1x1x64x64 : Shape := ⟨4, ![1, 1, 64, 64]⟩
abbrev S64x64 : Shape := ⟨2, ![64, 64]⟩
abbrev S1x1x64 : Shape := ⟨3, ![1, 1, 64]⟩
abbrev S2097152x1 : Shape := ⟨2, ![2097152, 1]⟩
abbrev S2097152x64 : Shape := ⟨2, ![2097152, 64]⟩
abbrev S65536x1 : Shape := ⟨2, ![65536, 1]⟩
abbrev S65536x64 : Shape := ⟨2, ![65536, 64]⟩
abbrev S1x32 : Shape := ⟨2, ![1, 32]⟩

abbrev nBuf : Space → Nat
  | .hbm => 763
  | .vmem => 0
  | .smem => 0
  | _ => 0

abbrev hbmTy0_0 (i : Nat) : BufTy := match i % 128 with
  | 0 => ⟨S131072x32, .f32⟩
  | 1 => ⟨S32768x32, .f32⟩
  | 2 => ⟨S32x64, .f32⟩
  | 3 => ⟨S64, .f32⟩
  | 4 => ⟨S32x64, .f32⟩
  | 5 => ⟨S64, .f32⟩
  | 6 => ⟨S2x64, .f32⟩
  | 7 => ⟨S2x64, .f32⟩
  | 8 => ⟨S2x64, .f32⟩
  | 9 => ⟨S2x64, .f32⟩
  | 10 => ⟨S2x5x64x64, .f32⟩
  | 11 => ⟨S2x5x64, .f32⟩
  | 12 => ⟨S2x5x64x64, .f32⟩
  | 13 => ⟨S2x5x64, .f32⟩
  | 14 => ⟨S64x32, .f32⟩
  | 15 => ⟨S32, .f32⟩
  | 16 => ⟨S64x32, .f32⟩
  | 17 => ⟨S32, .f32⟩
  | 18 => ⟨S2x2097152, .i32⟩
  | 19 => ⟨S65536, .i32⟩
  | 20 => ⟨S65536, .i32⟩
  | 21 => ⟨S65536, .i32⟩
  | 22 => ⟨S65536, .i32⟩
  | 23 => ⟨S1x2097152, .i32⟩
  | 24 => ⟨S2097152, .i32⟩
  | 25 => ⟨S1x2097152, .i32⟩
  | 26 => ⟨S2097152, .i32⟩
  | 27 => ⟨S131072x64, .f32⟩
  | 28 => ⟨S1x64, .f32⟩
  | 29 => ⟨S131072x64, .f32⟩
  | 30 => ⟨S131072x64, .f32⟩
  | 31 => ⟨S32768x64, .f32⟩
  | 32 => ⟨S1x64, .f32⟩
  | 33 => ⟨S32768x64, .f32⟩
  | 34 => ⟨S32768x64, .f32⟩
  | 35 => ⟨S1x64, .f32⟩
  | 36 => ⟨S64, .f32⟩
  | 37 => ⟨S1x64, .f32⟩
  | 38 => ⟨S64, .f32⟩
  | 39 => ⟨S_, .f32⟩
  | 40 => ⟨S64, .f32⟩
  | 41 => ⟨S_, .f32⟩
  | 42 => ⟨S64, .f32⟩
  | 43 => ⟨S64, .f32⟩
  | 44 => ⟨S_, .i32⟩
  | 45 => ⟨S_, .f32⟩
  | 46 => ⟨S64, .f32⟩
  | 47 => ⟨S1x64, .f32⟩
  | 48 => ⟨S_, .f32⟩
  | 49 => ⟨S1x64, .f32⟩
  | 50 => ⟨S1x64, .f32⟩
  | 51 => ⟨S131072x64, .f32⟩
  | 52 => ⟨S131072x64, .f32⟩
  | 53 => ⟨S131072x64, .f32⟩
  | 54 => ⟨S_, .f32⟩
  | 55 => ⟨S_, .f32⟩
  | 56 => ⟨S_, .f32⟩
  | 57 => ⟨S_, .f32⟩
  | 58 => ⟨S64, .f32⟩
  | 59 => ⟨S64, .f32⟩
  | 60 => ⟨S64, .f32⟩
  | 61 => ⟨S_, .f32⟩
  | 62 => ⟨S_, .i1⟩
  | 63 => ⟨S_, .f32⟩
  | 64 => ⟨S_, .f32⟩
  | 65 => ⟨S64, .f32⟩
  | 66 => ⟨S64, .f32⟩
  | 67 => ⟨S1x64, .f32⟩
  | 68 => ⟨S131072x64, .f32⟩
  | 69 => ⟨S131072x64, .f32⟩
  | 70 => ⟨S_, .f32⟩
  | 71 => ⟨S64, .f32⟩
  | 72 => ⟨S64, .f32⟩
  | 73 => ⟨S64, .f32⟩
  | 74 => ⟨S1x64, .f32⟩
  | 75 => ⟨S131072x64, .f32⟩
  | 76 => ⟨S131072x64, .f32⟩
  | 77 => ⟨S1x64, .f32⟩
  | 78 => ⟨S131072x64, .f32⟩
  | 79 => ⟨S131072x64, .f32⟩
  | 80 => ⟨S1x64, .f32⟩
  | 81 => ⟨S131072x64, .f32⟩
  | 82 => ⟨S131072x64, .f32⟩
  | 83 => ⟨S_, .f32⟩
  | 84 => ⟨S131072x64, .f32⟩
  | 85 => ⟨S131072x64, .i1⟩
  | 86 => ⟨S_, .f32⟩
  | 87 => ⟨S131072x64, .f32⟩
  | 88 => ⟨S131072x64, .f32⟩
  | 89 => ⟨S131072x64, .f32⟩
  | 90 => ⟨S1x64, .f32⟩
  | 91 => ⟨S64, .f32⟩
  | 92 => ⟨S1x64, .f32⟩
  | 93 => ⟨S64, .f32⟩
  | 94 => ⟨S_, .f32⟩
  | 95 => ⟨S64, .f32⟩
  | 96 => ⟨S_, .f32⟩
  | 97 => ⟨S64, .f32⟩
  | 98 => ⟨S64, .f32⟩
  | 99 => ⟨S_, .i32⟩
  | 100 => ⟨S_, .f32⟩
  | 101 => ⟨S64, .f32⟩
  | 102 => ⟨S1x64, .f32⟩
  | 103 => ⟨S_, .f32⟩
  | 104 => ⟨S1x64, .f32⟩
  | 105 => ⟨S1x64, .f32⟩
  | 106 => ⟨S32768x64, .f32⟩
  | 107 => ⟨S32768x64, .f32⟩
  | 108 => ⟨S32768x64, .f32⟩
  | 109 => ⟨S_, .f32⟩
  | 110 => ⟨S_, .f32⟩
  | 111 => ⟨S_, .f32⟩
  | 112 => ⟨S_, .f32⟩
  | 113 => ⟨S64, .f32⟩
  | 114 => ⟨S64, .f32⟩
  | 115 => ⟨S64, .f32⟩
  | 116 => ⟨S_, .f32⟩
  | 117 => ⟨S_, .i1⟩
  | 118 => ⟨S_, .f32⟩
  | 119 => ⟨S_, .f32⟩
  | 120 => ⟨S64, .f32⟩
  | 121 => ⟨S64, .f32⟩
  | 122 => ⟨S1x64, .f32⟩
  | 123 => ⟨S32768x64, .f32⟩
  | 124 => ⟨S32768x64, .f32⟩
  | 125 => ⟨S_, .f32⟩
  | 126 => ⟨S64, .f32⟩
  | 127 => ⟨S64, .f32⟩
  | _ => ⟨S131072x32, .f32⟩

abbrev hbmTy0_1 (i : Nat) : BufTy := match i % 128 with
  | 0 => ⟨S64, .f32⟩
  | 1 => ⟨S1x64, .f32⟩
  | 2 => ⟨S32768x64, .f32⟩
  | 3 => ⟨S32768x64, .f32⟩
  | 4 => ⟨S1x64, .f32⟩
  | 5 => ⟨S32768x64, .f32⟩
  | 6 => ⟨S32768x64, .f32⟩
  | 7 => ⟨S1x64, .f32⟩
  | 8 => ⟨S32768x64, .f32⟩
  | 9 => ⟨S32768x64, .f32⟩
  | 10 => ⟨S_, .f32⟩
  | 11 => ⟨S32768x64, .f32⟩
  | 12 => ⟨S32768x64, .i1⟩
  | 13 => ⟨S_, .f32⟩
  | 14 => ⟨S32768x64, .f32⟩
  | 15 => ⟨S32768x64, .f32⟩
  | 16 => ⟨S32768x64, .f32⟩
  | 17 => ⟨S1x1x64x64, .f32⟩
  | 18 => ⟨S64x64, .f32⟩
  | 19 => ⟨S131072x64, .f32⟩
  | 20 => ⟨S1x1x64, .f32⟩
  | 21 => ⟨S64, .f32⟩
  | 22 => ⟨S1x64, .f32⟩
  | 23 => ⟨S131072x64, .f32⟩
  | 24 => ⟨S131072x64, .f32⟩
  | 25 => ⟨S1x1x64x64, .f32⟩
  | 26 => ⟨S64x64, .f32⟩
  | 27 => ⟨S32768x64, .f32⟩
  | 28 => ⟨S1x1x64, .f32⟩
  | 29 => ⟨S64, .f32⟩
  | 30 => ⟨S1x64, .f32⟩
  | 31 => ⟨S32768x64, .f32⟩
  | 32 => ⟨S32768x64, .f32⟩
  | 33 => ⟨S_, .i32⟩
  | 34 => ⟨S2097152, .i32⟩
  | 35 => ⟨S2097152, .i1⟩
  | 36 => ⟨S_, .i32⟩
  | 37 => ⟨S2097152, .i32⟩
  | 38 => ⟨S2097152, .i32⟩
  | 39 => ⟨S2097152, .i32⟩
  | 40 => ⟨S2097152x1, .i32⟩
  | 41 => ⟨S2097152x64, .f32⟩
  | 42 => ⟨S_, .f32⟩
  | 43 => ⟨S131072x64, .f32⟩
  | 44 => ⟨S2097152x1, .i32⟩
  | 45 => ⟨S131072x64, .f32⟩
  | 46 => ⟨S_, .i32⟩
  | 47 => ⟨S65536, .i32⟩
  | 48 => ⟨S65536, .i1⟩
  | 49 => ⟨S_, .i32⟩
  | 50 => ⟨S65536, .i32⟩
  | 51 => ⟨S65536, .i32⟩
  | 52 => ⟨S65536, .i32⟩
  | 53 => ⟨S65536x1, .i32⟩
  | 54 => ⟨S65536x64, .f32⟩
  | 55 => ⟨S_, .f32⟩
  | 56 => ⟨S131072x64, .f32⟩
  | 57 => ⟨S65536x1, .i32⟩
  | 58 => ⟨S131072x64, .f32⟩
  | 59 => ⟨S131072x64, .f32⟩
  | 60 => ⟨S_, .i32⟩
  | 61 => ⟨S65536, .i32⟩
  | 62 => ⟨S65536, .i1⟩
  | 63 => ⟨S_, .i32⟩
  | 64 => ⟨S65536, .i32⟩
  | 65 => ⟨S65536, .i32⟩
  | 66 => ⟨S65536, .i32⟩
  | 67 => ⟨S65536x1, .i32⟩
  | 68 => ⟨S65536x64, .f32⟩
  | 69 => ⟨S_, .f32⟩
  | 70 => ⟨S32768x64, .f32⟩
  | 71 => ⟨S65536x1, .i32⟩
  | 72 => ⟨S32768x64, .f32⟩
  | 73 => ⟨S1x1x64x64, .f32⟩
  | 74 => ⟨S64x64, .f32⟩
  | 75 => ⟨S131072x64, .f32⟩
  | 76 => ⟨S131072x64, .f32⟩
  | 77 => ⟨S1x1x64, .f32⟩
  | 78 => ⟨S64, .f32⟩
  | 79 => ⟨S1x64, .f32⟩
  | 80 => ⟨S131072x64, .f32⟩
  | 81 => ⟨S131072x64, .f32⟩
  | 82 => ⟨S1x1x64x64, .f32⟩
  | 83 => ⟨S64x64, .f32⟩
  | 84 => ⟨S32768x64, .f32⟩
  | 85 => ⟨S32768x64, .f32⟩
  | 86 => ⟨S1x1x64, .f32⟩
  | 87 => ⟨S64, .f32⟩
  | 88 => ⟨S1x64, .f32⟩
  | 89 => ⟨S32768x64, .f32⟩
  | 90 => ⟨S32768x64, .f32⟩
  | 91 => ⟨S_, .i32⟩
  | 92 => ⟨S2097152, .i32⟩
  | 93 => ⟨S2097152, .i1⟩
  | 94 => ⟨S_, .i32⟩
  | 95 => ⟨S2097152, .i32⟩
  | 96 => ⟨S2097152, .i32⟩
  | 97 => ⟨S2097152, .i32⟩
  | 98 => ⟨S2097152x1, .i32⟩
  | 99 => ⟨S2097152x64, .f32⟩
  | 100 => ⟨S_, .f32⟩
  | 101 => ⟨S131072x64, .f32⟩
  | 102 => ⟨S2097152x1, .i32⟩
  | 103 => ⟨S131072x64, .f32⟩
  | 104 => ⟨S_, .i32⟩
  | 105 => ⟨S65536, .i32⟩
  | 106 => ⟨S65536, .i1⟩
  | 107 => ⟨S_, .i32⟩
  | 108 => ⟨S65536, .i32⟩
  | 109 => ⟨S65536, .i32⟩
  | 110 => ⟨S65536, .i32⟩
  | 111 => ⟨S65536x1, .i32⟩
  | 112 => ⟨S65536x64, .f32⟩
  | 113 => ⟨S_, .f32⟩
  | 114 => ⟨S131072x64, .f32⟩
  | 115 => ⟨S65536x1, .i32⟩
  | 116 => ⟨S131072x64, .f32⟩
  | 117 => ⟨S131072x64, .f32⟩
  | 118 => ⟨S_, .i32⟩
  | 119 => ⟨S65536, .i32⟩
  | 120 => ⟨S65536, .i1⟩
  | 121 => ⟨S_, .i32⟩
  | 122 => ⟨S65536, .i32⟩
  | 123 => ⟨S65536, .i32⟩
  | 124 => ⟨S65536, .i32⟩
  | 125 => ⟨S65536x1, .i32⟩
  | 126 => ⟨S65536x64, .f32⟩
  | 127 => ⟨S_, .f32⟩
  | _ => ⟨S131072x32, .f32⟩

abbrev hbmTy0_2 (i : Nat) : BufTy := match i % 128 with
  | 0 => ⟨S32768x64, .f32⟩
  | 1 => ⟨S65536x1, .i32⟩
  | 2 => ⟨S32768x64, .f32⟩
  | 3 => ⟨S1x1x64x64, .f32⟩
  | 4 => ⟨S64x64, .f32⟩
  | 5 => ⟨S131072x64, .f32⟩
  | 6 => ⟨S131072x64, .f32⟩
  | 7 => ⟨S1x1x64, .f32⟩
  | 8 => ⟨S64, .f32⟩
  | 9 => ⟨S1x64, .f32⟩
  | 10 => ⟨S131072x64, .f32⟩
  | 11 => ⟨S131072x64, .f32⟩
  | 12 => ⟨S1x1x64x64, .f32⟩
  | 13 => ⟨S64x64, .f32⟩
  | 14 => ⟨S32768x64, .f32⟩
  | 15 => ⟨S32768x64, .f32⟩
  | 16 => ⟨S1x1x64, .f32⟩
  | 17 => ⟨S64, .f32⟩
  | 18 => ⟨S1x64, .f32⟩
  | 19 => ⟨S32768x64, .f32⟩
  | 20 => ⟨S32768x64, .f32⟩
  | 21 => ⟨S_, .i32⟩
  | 22 => ⟨S2097152, .i32⟩
  | 23 => ⟨S2097152, .i1⟩
  | 24 => ⟨S_, .i32⟩
  | 25 => ⟨S2097152, .i32⟩
  | 26 => ⟨S2097152, .i32⟩
  | 27 => ⟨S2097152, .i32⟩
  | 28 => ⟨S2097152x1, .i32⟩
  | 29 => ⟨S2097152x64, .f32⟩
  | 30 => ⟨S_, .f32⟩
  | 31 => ⟨S131072x64, .f32⟩
  | 32 => ⟨S2097152x1, .i32⟩
  | 33 => ⟨S131072x64, .f32⟩
  | 34 => ⟨S_, .i32⟩
  | 35 => ⟨S65536, .i32⟩
  | 36 => ⟨S65536, .i1⟩
  | 37 => ⟨S_, .i32⟩
  | 38 => ⟨S65536, .i32⟩
  | 39 => ⟨S65536, .i32⟩
  | 40 => ⟨S65536, .i32⟩
  | 41 => ⟨S65536x1, .i32⟩
  | 42 => ⟨S65536x64, .f32⟩
  | 43 => ⟨S_, .f32⟩
  | 44 => ⟨S131072x64, .f32⟩
  | 45 => ⟨S65536x1, .i32⟩
  | 46 => ⟨S131072x64, .f32⟩
  | 47 => ⟨S131072x64, .f32⟩
  | 48 => ⟨S_, .i32⟩
  | 49 => ⟨S65536, .i32⟩
  | 50 => ⟨S65536, .i1⟩
  | 51 => ⟨S_, .i32⟩
  | 52 => ⟨S65536, .i32⟩
  | 53 => ⟨S65536, .i32⟩
  | 54 => ⟨S65536, .i32⟩
  | 55 => ⟨S65536x1, .i32⟩
  | 56 => ⟨S65536x64, .f32⟩
  | 57 => ⟨S_, .f32⟩
  | 58 => ⟨S32768x64, .f32⟩
  | 59 => ⟨S65536x1, .i32⟩
  | 60 => ⟨S32768x64, .f32⟩
  | 61 => ⟨S1x1x64x64, .f32⟩
  | 62 => ⟨S64x64, .f32⟩
  | 63 => ⟨S131072x64, .f32⟩
  | 64 => ⟨S131072x64, .f32⟩
  | 65 => ⟨S1x1x64, .f32⟩
  | 66 => ⟨S64, .f32⟩
  | 67 => ⟨S1x64, .f32⟩
  | 68 => ⟨S131072x64, .f32⟩
  | 69 => ⟨S131072x64, .f32⟩
  | 70 => ⟨S1x1x64x64, .f32⟩
  | 71 => ⟨S64x64, .f32⟩
  | 72 => ⟨S32768x64, .f32⟩
  | 73 => ⟨S32768x64, .f32⟩
  | 74 => ⟨S1x1x64, .f32⟩
  | 75 => ⟨S64, .f32⟩
  | 76 => ⟨S1x64, .f32⟩
  | 77 => ⟨S32768x64, .f32⟩
  | 78 => ⟨S32768x64, .f32⟩
  | 79 => ⟨S_, .i32⟩
  | 80 => ⟨S2097152, .i32⟩
  | 81 => ⟨S2097152, .i1⟩
  | 82 => ⟨S_, .i32⟩
  | 83 => ⟨S2097152, .i32⟩
  | 84 => ⟨S2097152, .i32⟩
  | 85 => ⟨S2097152, .i32⟩
  | 86 => ⟨S2097152x1, .i32⟩
  | 87 => ⟨S2097152x64, .f32⟩
  | 88 => ⟨S_, .f32⟩
  | 89 => ⟨S131072x64, .f32⟩
  | 90 => ⟨S2097152x1, .i32⟩
  | 91 => ⟨S131072x64, .f32⟩
  | 92 => ⟨S_, .i32⟩
  | 93 => ⟨S65536, .i32⟩
  | 94 => ⟨S65536, .i1⟩
  | 95 => ⟨S_, .i32⟩
  | 96 => ⟨S65536, .i32⟩
  | 97 => ⟨S65536, .i32⟩
  | 98 => ⟨S65536, .i32⟩
  | 99 => ⟨S65536x1, .i32⟩
  | 100 => ⟨S65536x64, .f32⟩
  | 101 => ⟨S_, .f32⟩
  | 102 => ⟨S131072x64, .f32⟩
  | 103 => ⟨S65536x1, .i32⟩
  | 104 => ⟨S131072x64, .f32⟩
  | 105 => ⟨S131072x64, .f32⟩
  | 106 => ⟨S_, .i32⟩
  | 107 => ⟨S65536, .i32⟩
  | 108 => ⟨S65536, .i1⟩
  | 109 => ⟨S_, .i32⟩
  | 110 => ⟨S65536, .i32⟩
  | 111 => ⟨S65536, .i32⟩
  | 112 => ⟨S65536, .i32⟩
  | 113 => ⟨S65536x1, .i32⟩
  | 114 => ⟨S65536x64, .f32⟩
  | 115 => ⟨S_, .f32⟩
  | 116 => ⟨S32768x64, .f32⟩
  | 117 => ⟨S65536x1, .i32⟩
  | 118 => ⟨S32768x64, .f32⟩
  | 119 => ⟨S1x1x64x64, .f32⟩
  | 120 => ⟨S64x64, .f32⟩
  | 121 => ⟨S131072x64, .f32⟩
  | 122 => ⟨S131072x64, .f32⟩
  | 123 => ⟨S1x1x64, .f32⟩
  | 124 => ⟨S64, .f32⟩
  | 125 => ⟨S1x64, .f32⟩
  | 126 => ⟨S131072x64, .f32⟩
  | 127 => ⟨S131072x64, .f32⟩
  | _ => ⟨S131072x32, .f32⟩

abbrev hbmTy0_3 (i : Nat) : BufTy := match i % 128 with
  | 0 => ⟨S1x1x64x64, .f32⟩
  | 1 => ⟨S64x64, .f32⟩
  | 2 => ⟨S32768x64, .f32⟩
  | 3 => ⟨S32768x64, .f32⟩
  | 4 => ⟨S1x1x64, .f32⟩
  | 5 => ⟨S64, .f32⟩
  | 6 => ⟨S1x64, .f32⟩
  | 7 => ⟨S32768x64, .f32⟩
  | 8 => ⟨S32768x64, .f32⟩
  | 9 => ⟨S131072x64, .f32⟩
  | 10 => ⟨S32768x64, .f32⟩
  | 11 => ⟨S1x64, .f32⟩
  | 12 => ⟨S64, .f32⟩
  | 13 => ⟨S1x64, .f32⟩
  | 14 => ⟨S64, .f32⟩
  | 15 => ⟨S_, .f32⟩
  | 16 => ⟨S64, .f32⟩
  | 17 => ⟨S_, .f32⟩
  | 18 => ⟨S64, .f32⟩
  | 19 => ⟨S64, .f32⟩
  | 20 => ⟨S_, .i32⟩
  | 21 => ⟨S_, .f32⟩
  | 22 => ⟨S64, .f32⟩
  | 23 => ⟨S1x64, .f32⟩
  | 24 => ⟨S_, .f32⟩
  | 25 => ⟨S1x64, .f32⟩
  | 26 => ⟨S1x64, .f32⟩
  | 27 => ⟨S131072x64, .f32⟩
  | 28 => ⟨S131072x64, .f32⟩
  | 29 => ⟨S131072x64, .f32⟩
  | 30 => ⟨S_, .f32⟩
  | 31 => ⟨S_, .f32⟩
  | 32 => ⟨S_, .f32⟩
  | 33 => ⟨S_, .f32⟩
  | 34 => ⟨S64, .f32⟩
  | 35 => ⟨S64, .f32⟩
  | 36 => ⟨S64, .f32⟩
  | 37 => ⟨S_, .f32⟩
  | 38 => ⟨S_, .i1⟩
  | 39 => ⟨S_, .f32⟩
  | 40 => ⟨S_, .f32⟩
  | 41 => ⟨S64, .f32⟩
  | 42 => ⟨S64, .f32⟩
  | 43 => ⟨S1x64, .f32⟩
  | 44 => ⟨S131072x64, .f32⟩
  | 45 => ⟨S131072x64, .f32⟩
  | 46 => ⟨S_, .f32⟩
  | 47 => ⟨S64, .f32⟩
  | 48 => ⟨S64, .f32⟩
  | 49 => ⟨S64, .f32⟩
  | 50 => ⟨S1x64, .f32⟩
  | 51 => ⟨S131072x64, .f32⟩
  | 52 => ⟨S131072x64, .f32⟩
  | 53 => ⟨S1x64, .f32⟩
  | 54 => ⟨S131072x64, .f32⟩
  | 55 => ⟨S131072x64, .f32⟩
  | 56 => ⟨S1x64, .f32⟩
  | 57 => ⟨S131072x64, .f32⟩
  | 58 => ⟨S131072x64, .f32⟩
  | 59 => ⟨S_, .f32⟩
  | 60 => ⟨S131072x64, .f32⟩
  | 61 => ⟨S131072x64, .i1⟩
  | 62 => ⟨S_, .f32⟩
  | 63 => ⟨S131072x64, .f32⟩
  | 64 => ⟨S131072x64, .f32⟩
  | 65 => ⟨S131072x64, .f32⟩
  | 66 => ⟨S1x64, .f32⟩
  | 67 => ⟨S64, .f32⟩
  | 68 => ⟨S1x64, .f32⟩
  | 69 => ⟨S64, .f32⟩
  | 70 => ⟨S_, .f32⟩
  | 71 => ⟨S64, .f32⟩
  | 72 => ⟨S_, .f32⟩
  | 73 => ⟨S64, .f32⟩
  | 74 => ⟨S64, .f32⟩
  | 75 => ⟨S_, .i32⟩
  | 76 => ⟨S_, .f32⟩
  | 77 => ⟨S64, .f32⟩
  | 78 => ⟨S1x64, .f32⟩
  | 79 => ⟨S_, .f32⟩
  | 80 => ⟨S1x64, .f32⟩
  | 81 => ⟨S1x64, .f32⟩
  | 82 => ⟨S32768x64, .f32⟩
  | 83 => ⟨S32768x64, .f32⟩
  | 84 => ⟨S32768x64, .f32⟩
  | 85 => ⟨S_, .f32⟩
  | 86 => ⟨S_, .f32⟩
  | 87 => ⟨S_, .f32⟩
  | 88 => ⟨S_, .f32⟩
  | 89 => ⟨S64, .f32⟩
  | 90 => ⟨S64, .f32⟩
  | 91 => ⟨S64, .f32⟩
  | 92 => ⟨S_, .f32⟩
  | 93 => ⟨S_, .i1⟩
  | 94 => ⟨S_, .f32⟩
  | 95 => ⟨S_, .f32⟩
  | 96 => ⟨S64, .f32⟩
  | 97 => ⟨S64, .f32⟩
  | 98 => ⟨S1x64, .f32⟩
  | 99 => ⟨S32768x64, .f32⟩
  | 100 => ⟨S32768x64, .f32⟩
  | 101 => ⟨S_, .f32⟩
  | 102 => ⟨S64, .f32⟩
  | 103 => ⟨S64, .f32⟩
  | 104 => ⟨S64, .f32⟩
  | 105 => ⟨S1x64, .f32⟩
  | 106 => ⟨S32768x64, .f32⟩
  | 107 => ⟨S32768x64, .f32⟩
  | 108 => ⟨S1x64, .f32⟩
  | 109 => ⟨S32768x64, .f32⟩
  | 110 => ⟨S32768x64, .f32⟩
  | 111 => ⟨S1x64, .f32⟩
  | 112 => ⟨S32768x64, .f32⟩
  | 113 => ⟨S32768x64, .f32⟩
  | 114 => ⟨S_, .f32⟩
  | 115 => ⟨S32768x64, .f32⟩
  | 116 => ⟨S32768x64, .i1⟩
  | 117 => ⟨S_, .f32⟩
  | 118 => ⟨S32768x64, .f32⟩
  | 119 => ⟨S32768x64, .f32⟩
  | 120 => ⟨S32768x64, .f32⟩
  | 121 => ⟨S1x1x64x64, .f32⟩
  | 122 => ⟨S64x64, .f32⟩
  | 123 => ⟨S131072x64, .f32⟩
  | 124 => ⟨S1x1x64, .f32⟩
  | 125 => ⟨S64, .f32⟩
  | 126 => ⟨S1x64, .f32⟩
  | 127 => ⟨S131072x64, .f32⟩
  | _ => ⟨S131072x32, .f32⟩

abbrev hbmTy0_4 (i : Nat) : BufTy := match i % 128 with
  | 0 => ⟨S131072x64, .f32⟩
  | 1 => ⟨S1x1x64x64, .f32⟩
  | 2 => ⟨S64x64, .f32⟩
  | 3 => ⟨S32768x64, .f32⟩
  | 4 => ⟨S1x1x64, .f32⟩
  | 5 => ⟨S64, .f32⟩
  | 6 => ⟨S1x64, .f32⟩
  | 7 => ⟨S32768x64, .f32⟩
  | 8 => ⟨S32768x64, .f32⟩
  | 9 => ⟨S_, .i32⟩
  | 10 => ⟨S2097152, .i32⟩
  | 11 => ⟨S2097152, .i1⟩
  | 12 => ⟨S_, .i32⟩
  | 13 => ⟨S2097152, .i32⟩
  | 14 => ⟨S2097152, .i32⟩
  | 15 => ⟨S2097152, .i32⟩
  | 16 => ⟨S2097152x1, .i32⟩
  | 17 => ⟨S2097152x64, .f32⟩
  | 18 => ⟨S_, .f32⟩
  | 19 => ⟨S131072x64, .f32⟩
  | 20 => ⟨S2097152x1, .i32⟩
  | 21 => ⟨S131072x64, .f32⟩
  | 22 => ⟨S_, .i32⟩
  | 23 => ⟨S65536, .i32⟩
  | 24 => ⟨S65536, .i1⟩
  | 25 => ⟨S_, .i32⟩
  | 26 => ⟨S65536, .i32⟩
  | 27 => ⟨S65536, .i32⟩
  | 28 => ⟨S65536, .i32⟩
  | 29 => ⟨S65536x1, .i32⟩
  | 30 => ⟨S65536x64, .f32⟩
  | 31 => ⟨S_, .f32⟩
  | 32 => ⟨S131072x64, .f32⟩
  | 33 => ⟨S65536x1, .i32⟩
  | 34 => ⟨S131072x64, .f32⟩
  | 35 => ⟨S131072x64, .f32⟩
  | 36 => ⟨S_, .i32⟩
  | 37 => ⟨S65536, .i32⟩
  | 38 => ⟨S65536, .i1⟩
  | 39 => ⟨S_, .i32⟩
  | 40 => ⟨S65536, .i32⟩
  | 41 => ⟨S65536, .i32⟩
  | 42 => ⟨S65536, .i32⟩
  | 43 => ⟨S65536x1, .i32⟩
  | 44 => ⟨S65536x64, .f32⟩
  | 45 => ⟨S_, .f32⟩
  | 46 => ⟨S32768x64, .f32⟩
  | 47 => ⟨S65536x1, .i32⟩
  | 48 => ⟨S32768x64, .f32⟩
  | 49 => ⟨S1x1x64x64, .f32⟩
  | 50 => ⟨S64x64, .f32⟩
  | 51 => ⟨S131072x64, .f32⟩
  | 52 => ⟨S131072x64, .f32⟩
  | 53 => ⟨S1x1x64, .f32⟩
  | 54 => ⟨S64, .f32⟩
  | 55 => ⟨S1x64, .f32⟩
  | 56 => ⟨S131072x64, .f32⟩
  | 57 => ⟨S131072x64, .f32⟩
  | 58 => ⟨S1x1x64x64, .f32⟩
  | 59 => ⟨S64x64, .f32⟩
  | 60 => ⟨S32768x64, .f32⟩
  | 61 => ⟨S32768x64, .f32⟩
  | 62 => ⟨S1x1x64, .f32⟩
  | 63 => ⟨S64, .f32⟩
  | 64 => ⟨S1x64, .f32⟩
  | 65 => ⟨S32768x64, .f32⟩
  | 66 => ⟨S32768x64, .f32⟩
  | 67 => ⟨S_, .i32⟩
  | 68 => ⟨S2097152, .i32⟩
  | 69 => ⟨S2097152, .i1⟩
  | 70 => ⟨S_, .i32⟩
  | 71 => ⟨S2097152, .i32⟩
  | 72 => ⟨S2097152, .i32⟩
  | 73 => ⟨S2097152, .i32⟩
  | 74 => ⟨S2097152x1, .i32⟩
  | 75 => ⟨S2097152x64, .f32⟩
  | 76 => ⟨S_, .f32⟩
  | 77 => ⟨S131072x64, .f32⟩
  | 78 => ⟨S2097152x1, .i32⟩
  | 79 => ⟨S131072x64, .f32⟩
  | 80 => ⟨S_, .i32⟩
  | 81 => ⟨S65536, .i32⟩
  | 82 => ⟨S65536, .i1⟩
  | 83 => ⟨S_, .i32⟩
  | 84 => ⟨S65536, .i32⟩
  | 85 => ⟨S65536, .i32⟩
  | 86 => ⟨S65536, .i32⟩
  | 87 => ⟨S65536x1, .i32⟩
  | 88 => ⟨S65536x64, .f32⟩
  | 89 => ⟨S_, .f32⟩
  | 90 => ⟨S131072x64, .f32⟩
  | 91 => ⟨S65536x1, .i32⟩
  | 92 => ⟨S131072x64, .f32⟩
  | 93 => ⟨S131072x64, .f32⟩
  | 94 => ⟨S_, .i32⟩
  | 95 => ⟨S65536, .i32⟩
  | 96 => ⟨S65536, .i1⟩
  | 97 => ⟨S_, .i32⟩
  | 98 => ⟨S65536, .i32⟩
  | 99 => ⟨S65536, .i32⟩
  | 100 => ⟨S65536, .i32⟩
  | 101 => ⟨S65536x1, .i32⟩
  | 102 => ⟨S65536x64, .f32⟩
  | 103 => ⟨S_, .f32⟩
  | 104 => ⟨S32768x64, .f32⟩
  | 105 => ⟨S65536x1, .i32⟩
  | 106 => ⟨S32768x64, .f32⟩
  | 107 => ⟨S1x1x64x64, .f32⟩
  | 108 => ⟨S64x64, .f32⟩
  | 109 => ⟨S131072x64, .f32⟩
  | 110 => ⟨S131072x64, .f32⟩
  | 111 => ⟨S1x1x64, .f32⟩
  | 112 => ⟨S64, .f32⟩
  | 113 => ⟨S1x64, .f32⟩
  | 114 => ⟨S131072x64, .f32⟩
  | 115 => ⟨S131072x64, .f32⟩
  | 116 => ⟨S1x1x64x64, .f32⟩
  | 117 => ⟨S64x64, .f32⟩
  | 118 => ⟨S32768x64, .f32⟩
  | 119 => ⟨S32768x64, .f32⟩
  | 120 => ⟨S1x1x64, .f32⟩
  | 121 => ⟨S64, .f32⟩
  | 122 => ⟨S1x64, .f32⟩
  | 123 => ⟨S32768x64, .f32⟩
  | 124 => ⟨S32768x64, .f32⟩
  | 125 => ⟨S_, .i32⟩
  | 126 => ⟨S2097152, .i32⟩
  | 127 => ⟨S2097152, .i1⟩
  | _ => ⟨S131072x32, .f32⟩

abbrev hbmTy0_5 (i : Nat) : BufTy := match i % 128 with
  | 0 => ⟨S_, .i32⟩
  | 1 => ⟨S2097152, .i32⟩
  | 2 => ⟨S2097152, .i32⟩
  | 3 => ⟨S2097152, .i32⟩
  | 4 => ⟨S2097152x1, .i32⟩
  | 5 => ⟨S2097152x64, .f32⟩
  | 6 => ⟨S_, .f32⟩
  | 7 => ⟨S131072x64, .f32⟩
  | 8 => ⟨S2097152x1, .i32⟩
  | 9 => ⟨S131072x64, .f32⟩
  | 10 => ⟨S_, .i32⟩
  | 11 => ⟨S65536, .i32⟩
  | 12 => ⟨S65536, .i1⟩
  | 13 => ⟨S_, .i32⟩
  | 14 => ⟨S65536, .i32⟩
  | 15 => ⟨S65536, .i32⟩
  | 16 => ⟨S65536, .i32⟩
  | 17 => ⟨S65536x1, .i32⟩
  | 18 => ⟨S65536x64, .f32⟩
  | 19 => ⟨S_, .f32⟩
  | 20 => ⟨S131072x64, .f32⟩
  | 21 => ⟨S65536x1, .i32⟩
  | 22 => ⟨S131072x64, .f32⟩
  | 23 => ⟨S131072x64, .f32⟩
  | 24 => ⟨S_, .i32⟩
  | 25 => ⟨S65536, .i32⟩
  | 26 => ⟨S65536, .i1⟩
  | 27 => ⟨S_, .i32⟩
  | 28 => ⟨S65536, .i32⟩
  | 29 => ⟨S65536, .i32⟩
  | 30 => ⟨S65536, .i32⟩
  | 31 => ⟨S65536x1, .i32⟩
  | 32 => ⟨S65536x64, .f32⟩
  | 33 => ⟨S_, .f32⟩
  | 34 => ⟨S32768x64, .f32⟩
  | 35 => ⟨S65536x1, .i32⟩
  | 36 => ⟨S32768x64, .f32⟩
  | 37 => ⟨S1x1x64x64, .f32⟩
  | 38 => ⟨S64x64, .f32⟩
  | 39 => ⟨S131072x64, .f32⟩
  | 40 => ⟨S131072x64, .f32⟩
  | 41 => ⟨S1x1x64, .f32⟩
  | 42 => ⟨S64, .f32⟩
  | 43 => ⟨S1x64, .f32⟩
  | 44 => ⟨S131072x64, .f32⟩
  | 45 => ⟨S131072x64, .f32⟩
  | 46 => ⟨S1x1x64x64, .f32⟩
  | 47 => ⟨S64x64, .f32⟩
  | 48 => ⟨S32768x64, .f32⟩
  | 49 => ⟨S32768x64, .f32⟩
  | 50 => ⟨S1x1x64, .f32⟩
  | 51 => ⟨S64, .f32⟩
  | 52 => ⟨S1x64, .f32⟩
  | 53 => ⟨S32768x64, .f32⟩
  | 54 => ⟨S32768x64, .f32⟩
  | 55 => ⟨S_, .i32⟩
  | 56 => ⟨S2097152, .i32⟩
  | 57 => ⟨S2097152, .i1⟩
  | 58 => ⟨S_, .i32⟩
  | 59 => ⟨S2097152, .i32⟩
  | 60 => ⟨S2097152, .i32⟩
  | 61 => ⟨S2097152, .i32⟩
  | 62 => ⟨S2097152x1, .i32⟩
  | 63 => ⟨S2097152x64, .f32⟩
  | 64 => ⟨S_, .f32⟩
  | 65 => ⟨S131072x64, .f32⟩
  | 66 => ⟨S2097152x1, .i32⟩
  | 67 => ⟨S131072x64, .f32⟩
  | 68 => ⟨S_, .i32⟩
  | 69 => ⟨S65536, .i32⟩
  | 70 => ⟨S65536, .i1⟩
  | 71 => ⟨S_, .i32⟩
  | 72 => ⟨S65536, .i32⟩
  | 73 => ⟨S65536, .i32⟩
  | 74 => ⟨S65536, .i32⟩
  | 75 => ⟨S65536x1, .i32⟩
  | 76 => ⟨S65536x64, .f32⟩
  | 77 => ⟨S_, .f32⟩
  | 78 => ⟨S131072x64, .f32⟩
  | 79 => ⟨S65536x1, .i32⟩
  | 80 => ⟨S131072x64, .f32⟩
  | 81 => ⟨S131072x64, .f32⟩
  | 82 => ⟨S_, .i32⟩
  | 83 => ⟨S65536, .i32⟩
  | 84 => ⟨S65536, .i1⟩
  | 85 => ⟨S_, .i32⟩
  | 86 => ⟨S65536, .i32⟩
  | 87 => ⟨S65536, .i32⟩
  | 88 => ⟨S65536, .i32⟩
  | 89 => ⟨S65536x1, .i32⟩
  | 90 => ⟨S65536x64, .f32⟩
  | 91 => ⟨S_, .f32⟩
  | 92 => ⟨S32768x64, .f32⟩
  | 93 => ⟨S65536x1, .i32⟩
  | 94 => ⟨S32768x64, .f32⟩
  | 95 => ⟨S1x1x64x64, .f32⟩
  | 96 => ⟨S64x64, .f32⟩
  | 97 => ⟨S131072x64, .f32⟩
  | 98 => ⟨S131072x64, .f32⟩
  | 99 => ⟨S1x1x64, .f32⟩
  | 100 => ⟨S64, .f32⟩
  | 101 => ⟨S1x64, .f32⟩
  | 102 => ⟨S131072x64, .f32⟩
  | 103 => ⟨S131072x64, .f32⟩
  | 104 => ⟨S1x1x64x64, .f32⟩
  | 105 => ⟨S64x64, .f32⟩
  | 106 => ⟨S32768x64, .f32⟩
  | 107 => ⟨S32768x64, .f32⟩
  | 108 => ⟨S1x1x64, .f32⟩
  | 109 => ⟨S64, .f32⟩
  | 110 => ⟨S1x64, .f32⟩
  | 111 => ⟨S32768x64, .f32⟩
  | 112 => ⟨S32768x64, .f32⟩
  | 113 => ⟨S131072x64, .f32⟩
  | 114 => ⟨S32768x64, .f32⟩
  | 115 => ⟨S131072x32, .f32⟩
  | 116 => ⟨S1x32, .f32⟩
  | 117 => ⟨S131072x32, .f32⟩
  | 118 => ⟨S131072x32, .f32⟩
  | 119 => ⟨S32768x32, .f32⟩
  | 120 => ⟨S1x32, .f32⟩
  | 121 => ⟨S32768x32, .f32⟩
  | 122 => ⟨S32768x32, .f32⟩
  | _ => ⟨S131072x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S131072x32, .f32⟩

abbrev bufTy : (tb : Table) → Fin (tcTables nBuf tb) → BufTy
  | .hbm, ⟨i, _⟩ => hbmTy i
  | _, _ => ⟨S131072x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_cst_0 : Ref sig .tc := ⟨.hbm, 41, rfl⟩
abbrev main_v17 : Ref sig .tc := ⟨.hbm, 42, rfl⟩
abbrev main_v18 : Ref sig .tc := ⟨.hbm, 43, rfl⟩
abbrev main_c : Ref sig .tc := ⟨.hbm, 44, rfl⟩
abbrev main_call0_cst : Ref sig .tc := ⟨.hbm, 45, rfl⟩
abbrev main_call0_v0 : Ref sig .tc := ⟨.hbm, 46, rfl⟩
abbrev main_call0_v1 : Ref sig .tc := ⟨.hbm, 47, rfl⟩
abbrev main_call0_cst_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_v6 : Ref sig .tc := ⟨.hbm, 53, rfl⟩
abbrev main_call0_v7 : Ref sig .tc := ⟨.hbm, 54, rfl⟩
abbrev main_call0_cst_1 : Ref sig .tc := ⟨.hbm, 55, rfl⟩
abbrev main_call0_v8 : Ref sig .tc := ⟨.hbm, 56, rfl⟩
abbrev main_call0_cst_2 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_cst_3 : Ref sig .tc := ⟨.hbm, 61, rfl⟩
abbrev main_call0_v12 : Ref sig .tc := ⟨.hbm, 62, rfl⟩
abbrev main_call0_cst_4 : Ref sig .tc := ⟨.hbm, 63, rfl⟩
abbrev main_call0_call0_v0 : Ref sig .tc := ⟨.hbm, 64, rfl⟩
abbrev main_call0_call0_v1 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_cst_1 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_cst_2 : Ref sig .tc := ⟨.hbm, 83, rfl⟩
abbrev main_v35 : Ref sig .tc := ⟨.hbm, 84, rfl⟩
abbrev main_v36 : Ref sig .tc := ⟨.hbm, 85, rfl⟩
abbrev main_cst_3 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_cst_4 : Ref sig .tc := ⟨.hbm, 94, rfl⟩
abbrev main_v44 : Ref sig .tc := ⟨.hbm, 95, rfl⟩
abbrev main_cst_5 : Ref sig .tc := ⟨.hbm, 96, rfl⟩
abbrev main_v45 : Ref sig .tc := ⟨.hbm, 97, rfl⟩
abbrev main_v46 : Ref sig .tc := ⟨.hbm, 98, rfl⟩
abbrev main_c_6 : Ref sig .tc := ⟨.hbm, 99, rfl⟩
abbrev main_call2_cst : Ref sig .tc := ⟨.hbm, 100, rfl⟩
abbrev main_call2_v0 : Ref sig .tc := ⟨.hbm, 101, rfl⟩
abbrev main_call2_v1 : Ref sig .tc := ⟨.hbm, 102, rfl⟩
abbrev main_call2_cst_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_v7 : Ref sig .tc := ⟨.hbm, 109, rfl⟩
abbrev main_call2_cst_1 : Ref sig .tc := ⟨.hbm, 110, rfl⟩
abbrev main_call2_v8 : Ref sig .tc := ⟨.hbm, 111, rfl⟩
abbrev main_call2_cst_2 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_cst_3 : Ref sig .tc := ⟨.hbm, 116, rfl⟩
abbrev main_call2_v12 : Ref sig .tc := ⟨.hbm, 117, rfl⟩
abbrev main_call2_cst_4 : Ref sig .tc := ⟨.hbm, 118, rfl⟩
abbrev main_call2_call0_v0 : Ref sig .tc := ⟨.hbm, 119, rfl⟩
abbrev main_call2_call0_v1 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_cst_7 : Ref sig .tc := ⟨.hbm, 125, rfl⟩
abbrev main_v51 : Ref sig .tc := ⟨.hbm, 126, rfl⟩
abbrev main_v52 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_cst_8 : Ref sig .tc := ⟨.hbm, 138, rfl⟩
abbrev main_v63 : Ref sig .tc := ⟨.hbm, 139, rfl⟩
abbrev main_v64 : Ref sig .tc := ⟨.hbm, 140, rfl⟩
abbrev main_cst_9 : Ref sig .tc := ⟨.hbm, 141, rfl⟩
abbrev main_v65 : Ref sig .tc := ⟨.hbm, 142, rfl⟩
abbrev main_v66 : Ref sig .tc := ⟨.hbm, 143, rfl⟩
abbrev main_v67 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_c_10 : Ref sig .tc := ⟨.hbm, 161, rfl⟩
abbrev main_v84 : Ref sig .tc := ⟨.hbm, 162, rfl⟩
abbrev main_v85 : Ref sig .tc := ⟨.hbm, 163, rfl⟩
abbrev main_c_11 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_cst_12 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_c_13 : Ref sig .tc := ⟨.hbm, 174, rfl⟩
abbrev main_v94 : Ref sig .tc := ⟨.hbm, 175, rfl⟩
abbrev main_v95 : Ref sig .tc := ⟨.hbm, 176, rfl⟩
abbrev main_c_14 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_cst_15 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_c_16 : Ref sig .tc := ⟨.hbm, 188, rfl⟩
abbrev main_v105 : Ref sig .tc := ⟨.hbm, 189, rfl⟩
abbrev main_v106 : Ref sig .tc := ⟨.hbm, 190, rfl⟩
abbrev main_c_17 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_cst_18 : Ref sig .tc := ⟨.hbm, 197, rfl⟩
abbrev main_v112 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_v116 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_c_19 : Ref sig .tc := ⟨.hbm, 219, rfl⟩
abbrev main_v133 : Ref sig .tc := ⟨.hbm, 220, rfl⟩
abbrev main_v134 : Ref sig .tc := ⟨.hbm, 221, rfl⟩
abbrev main_c_20 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_cst_21 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_c_22 : Ref sig .tc := ⟨.hbm, 232, rfl⟩
abbrev main_v143 : Ref sig .tc := ⟨.hbm, 233, rfl⟩
abbrev main_v144 : Ref sig .tc := ⟨.hbm, 234, rfl⟩
abbrev main_c_23 : Ref sig .tc := ⟨.hbm, 235, rfl⟩
abbrev main_v145 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_cst_24 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_c_25 : Ref sig .tc := ⟨.hbm, 246, rfl⟩
abbrev main_v154 : Ref sig .tc := ⟨.hbm, 247, rfl⟩
abbrev main_v155 : Ref sig .tc := ⟨.hbm, 248, rfl⟩
abbrev main_c_26 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_cst_27 : Ref sig .tc := ⟨.hbm, 255, rfl⟩
abbrev main_v161 : Ref sig .tc := ⟨.hbm, 256, rfl⟩
abbrev main_v162 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_v169 : Ref sig .tc := ⟨.hbm, 264, rfl⟩
abbrev main_v170 : Ref sig .tc := ⟨.hbm, 265, rfl⟩
abbrev main_v171 : Ref sig .tc := ⟨.hbm, 266, rfl⟩
abbrev main_v172 : Ref sig .tc := ⟨.hbm, 267, rfl⟩
abbrev main_v173 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_v178 : Ref sig .tc := ⟨.hbm, 273, rfl⟩
abbrev main_v179 : Ref sig .tc := ⟨.hbm, 274, rfl⟩
abbrev main_v180 : Ref sig .tc := ⟨.hbm, 275, rfl⟩
abbrev main_v181 : Ref sig .tc := ⟨.hbm, 276, rfl⟩
abbrev main_c_28 : Ref sig .tc := ⟨.hbm, 277, rfl⟩
abbrev main_v182 : Ref sig .tc := ⟨.hbm, 278, rfl⟩
abbrev main_v183 : Ref sig .tc := ⟨.hbm, 279, rfl⟩
abbrev main_c_29 : Ref sig .tc := ⟨.hbm, 280, rfl⟩
abbrev main_v184 : Ref sig .tc := ⟨.hbm, 281, rfl⟩
abbrev main_v185 : Ref sig .tc := ⟨.hbm, 282, rfl⟩
abbrev main_v186 : Ref sig .tc := ⟨.hbm, 283, rfl⟩
abbrev main_v187 : Ref sig .tc := ⟨.hbm, 284, rfl⟩
abbrev main_v188 : Ref sig .tc := ⟨.hbm, 285, rfl⟩
abbrev main_cst_30 : Ref sig .tc := ⟨.hbm, 286, rfl⟩
abbrev main_v189 : Ref sig .tc := ⟨.hbm, 287, rfl⟩
abbrev main_v190 : Ref sig .tc := ⟨.hbm, 288, rfl⟩
abbrev main_v191 : Ref sig .tc := ⟨.hbm, 289, rfl⟩
abbrev main_c_31 : Ref sig .tc := ⟨.hbm, 290, rfl⟩
abbrev main_v192 : Ref sig .tc := ⟨.hbm, 291, rfl⟩
abbrev main_v193 : Ref sig .tc := ⟨.hbm, 292, rfl⟩
abbrev main_c_32 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_v197 : Ref sig .tc := ⟨.hbm, 297, rfl⟩
abbrev main_v198 : Ref sig .tc := ⟨.hbm, 298, rfl⟩
abbrev main_cst_33 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_c_34 : Ref sig .tc := ⟨.hbm, 304, rfl⟩
abbrev main_v203 : Ref sig .tc := ⟨.hbm, 305, rfl⟩
abbrev main_v204 : Ref sig .tc := ⟨.hbm, 306, rfl⟩
abbrev main_c_35 : Ref sig .tc := ⟨.hbm, 307, rfl⟩
abbrev main_v205 : Ref sig .tc := ⟨.hbm, 308, rfl⟩
abbrev main_v206 : Ref sig .tc := ⟨.hbm, 309, rfl⟩
abbrev main_v207 : Ref sig .tc := ⟨.hbm, 310, rfl⟩
abbrev main_v208 : Ref sig .tc := ⟨.hbm, 311, rfl⟩
abbrev main_v209 : Ref sig .tc := ⟨.hbm, 312, rfl⟩
abbrev main_cst_36 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_v230 : Ref sig .tc := ⟨.hbm, 334, rfl⟩
abbrev main_c_37 : Ref sig .tc := ⟨.hbm, 335, rfl⟩
abbrev main_v231 : Ref sig .tc := ⟨.hbm, 336, rfl⟩
abbrev main_v232 : Ref sig .tc := ⟨.hbm, 337, rfl⟩
abbrev main_c_38 : Ref sig .tc := ⟨.hbm, 338, rfl⟩
abbrev main_v233 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_cst_39 : Ref sig .tc := ⟨.hbm, 344, rfl⟩
abbrev main_v238 : Ref sig .tc := ⟨.hbm, 345, rfl⟩
abbrev main_v239 : Ref sig .tc := ⟨.hbm, 346, rfl⟩
abbrev main_v240 : Ref sig .tc := ⟨.hbm, 347, rfl⟩
abbrev main_c_40 : Ref sig .tc := ⟨.hbm, 348, rfl⟩
abbrev main_v241 : Ref sig .tc := ⟨.hbm, 349, rfl⟩
abbrev main_v242 : Ref sig .tc := ⟨.hbm, 350, rfl⟩
abbrev main_c_41 : Ref sig .tc := ⟨.hbm, 351, rfl⟩
abbrev main_v243 : Ref sig .tc := ⟨.hbm, 352, rfl⟩
abbrev main_v244 : Ref sig .tc := ⟨.hbm, 353, rfl⟩
abbrev main_v245 : Ref sig .tc := ⟨.hbm, 354, rfl⟩
abbrev main_v246 : Ref sig .tc := ⟨.hbm, 355, rfl⟩
abbrev main_v247 : Ref sig .tc := ⟨.hbm, 356, rfl⟩
abbrev main_cst_42 : Ref sig .tc := ⟨.hbm, 357, rfl⟩
abbrev main_v248 : Ref sig .tc := ⟨.hbm, 358, rfl⟩
abbrev main_v249 : Ref sig .tc := ⟨.hbm, 359, rfl⟩
abbrev main_v250 : Ref sig .tc := ⟨.hbm, 360, rfl⟩
abbrev main_v251 : Ref sig .tc := ⟨.hbm, 361, rfl⟩
abbrev main_c_43 : Ref sig .tc := ⟨.hbm, 362, rfl⟩
abbrev main_v252 : Ref sig .tc := ⟨.hbm, 363, rfl⟩
abbrev main_v253 : Ref sig .tc := ⟨.hbm, 364, rfl⟩
abbrev main_c_44 : Ref sig .tc := ⟨.hbm, 365, rfl⟩
abbrev main_v254 : Ref sig .tc := ⟨.hbm, 366, rfl⟩
abbrev main_v255 : Ref sig .tc := ⟨.hbm, 367, rfl⟩
abbrev main_v256 : Ref sig .tc := ⟨.hbm, 368, rfl⟩
abbrev main_v257 : Ref sig .tc := ⟨.hbm, 369, rfl⟩
abbrev main_v258 : Ref sig .tc := ⟨.hbm, 370, rfl⟩
abbrev main_cst_45 : Ref sig .tc := ⟨.hbm, 371, rfl⟩
abbrev main_v259 : Ref sig .tc := ⟨.hbm, 372, rfl⟩
abbrev main_v260 : Ref sig .tc := ⟨.hbm, 373, rfl⟩
abbrev main_v261 : Ref sig .tc := ⟨.hbm, 374, rfl⟩
abbrev main_v262 : Ref sig .tc := ⟨.hbm, 375, rfl⟩
abbrev main_v263 : Ref sig .tc := ⟨.hbm, 376, rfl⟩
abbrev main_v264 : Ref sig .tc := ⟨.hbm, 377, rfl⟩
abbrev main_v265 : Ref sig .tc := ⟨.hbm, 378, rfl⟩
abbrev main_v266 : Ref sig .tc := ⟨.hbm, 379, rfl⟩
abbrev main_v267 : Ref sig .tc := ⟨.hbm, 380, rfl⟩
abbrev main_v268 : Ref sig .tc := ⟨.hbm, 381, rfl⟩
abbrev main_v269 : Ref sig .tc := ⟨.hbm, 382, rfl⟩
abbrev main_v270 : Ref sig .tc := ⟨.hbm, 383, rfl⟩
abbrev main_v271 : Ref sig .tc := ⟨.hbm, 384, rfl⟩
abbrev main_v272 : Ref sig .tc := ⟨.hbm, 385, rfl⟩
abbrev main_v273 : Ref sig .tc := ⟨.hbm, 386, rfl⟩
abbrev main_v274 : Ref sig .tc := ⟨.hbm, 387, rfl⟩
abbrev main_v275 : Ref sig .tc := ⟨.hbm, 388, rfl⟩
abbrev main_v276 : Ref sig .tc := ⟨.hbm, 389, rfl⟩
abbrev main_v277 : Ref sig .tc := ⟨.hbm, 390, rfl⟩
abbrev main_v278 : Ref sig .tc := ⟨.hbm, 391, rfl⟩
abbrev main_v279 : Ref sig .tc := ⟨.hbm, 392, rfl⟩
abbrev main_v280 : Ref sig .tc := ⟨.hbm, 393, rfl⟩
abbrev main_v281 : Ref sig .tc := ⟨.hbm, 394, rfl⟩
abbrev main_v282 : Ref sig .tc := ⟨.hbm, 395, rfl⟩
abbrev main_v283 : Ref sig .tc := ⟨.hbm, 396, rfl⟩
abbrev main_v284 : Ref sig .tc := ⟨.hbm, 397, rfl⟩
abbrev main_v285 : Ref sig .tc := ⟨.hbm, 398, rfl⟩
abbrev main_cst_46 : Ref sig .tc := ⟨.hbm, 399, rfl⟩
abbrev main_v286 : Ref sig .tc := ⟨.hbm, 400, rfl⟩
abbrev main_cst_47 : Ref sig .tc := ⟨.hbm, 401, rfl⟩
abbrev main_v287 : Ref sig .tc := ⟨.hbm, 402, rfl⟩
abbrev main_v288 : Ref sig .tc := ⟨.hbm, 403, rfl⟩
abbrev main_c_48 : Ref sig .tc := ⟨.hbm, 404, rfl⟩
abbrev main_call4_cst : Ref sig .tc := ⟨.hbm, 405, rfl⟩
abbrev main_call4_v0 : Ref sig .tc := ⟨.hbm, 406, rfl⟩
abbrev main_call4_v1 : Ref sig .tc := ⟨.hbm, 407, rfl⟩
abbrev main_call4_cst_0 : Ref sig .tc := ⟨.hbm, 408, rfl⟩
abbrev main_call4_v2 : Ref sig .tc := ⟨.hbm, 409, rfl⟩
abbrev main_call4_v3 : Ref sig .tc := ⟨.hbm, 410, rfl⟩
abbrev main_call4_v4 : Ref sig .tc := ⟨.hbm, 411, rfl⟩
abbrev main_call4_v5 : Ref sig .tc := ⟨.hbm, 412, rfl⟩
abbrev main_call4_v6 : Ref sig .tc := ⟨.hbm, 413, rfl⟩
abbrev main_call4_v7 : Ref sig .tc := ⟨.hbm, 414, rfl⟩
abbrev main_call4_cst_1 : Ref sig .tc := ⟨.hbm, 415, rfl⟩
abbrev main_call4_v8 : Ref sig .tc := ⟨.hbm, 416, rfl⟩
abbrev main_call4_cst_2 : Ref sig .tc := ⟨.hbm, 417, rfl⟩
abbrev main_call4_v9 : Ref sig .tc := ⟨.hbm, 418, rfl⟩
abbrev main_call4_v10 : Ref sig .tc := ⟨.hbm, 419, rfl⟩
abbrev main_call4_v11 : Ref sig .tc := ⟨.hbm, 420, rfl⟩
abbrev main_call4_cst_3 : Ref sig .tc := ⟨.hbm, 421, rfl⟩
abbrev main_call4_v12 : Ref sig .tc := ⟨.hbm, 422, rfl⟩
abbrev main_call4_cst_4 : Ref sig .tc := ⟨.hbm, 423, rfl⟩
abbrev main_call4_call0_v0 : Ref sig .tc := ⟨.hbm, 424, rfl⟩
abbrev main_call4_call0_v1 : Ref sig .tc := ⟨.hbm, 425, rfl⟩
abbrev main_v289 : Ref sig .tc := ⟨.hbm, 426, rfl⟩
abbrev main_v290 : Ref sig .tc := ⟨.hbm, 427, rfl⟩
abbrev main_v291 : Ref sig .tc := ⟨.hbm, 428, rfl⟩
abbrev main_v292 : Ref sig .tc := ⟨.hbm, 429, rfl⟩
abbrev main_cst_49 : Ref sig .tc := ⟨.hbm, 430, rfl⟩
abbrev main_v293 : Ref sig .tc := ⟨.hbm, 431, rfl⟩
abbrev main_v294 : Ref sig .tc := ⟨.hbm, 432, rfl⟩
abbrev main_v295 : Ref sig .tc := ⟨.hbm, 433, rfl⟩
abbrev main_v296 : Ref sig .tc := ⟨.hbm, 434, rfl⟩
abbrev main_v297 : Ref sig .tc := ⟨.hbm, 435, rfl⟩
abbrev main_v298 : Ref sig .tc := ⟨.hbm, 436, rfl⟩
abbrev main_v299 : Ref sig .tc := ⟨.hbm, 437, rfl⟩
abbrev main_v300 : Ref sig .tc := ⟨.hbm, 438, rfl⟩
abbrev main_v301 : Ref sig .tc := ⟨.hbm, 439, rfl⟩
abbrev main_v302 : Ref sig .tc := ⟨.hbm, 440, rfl⟩
abbrev main_v303 : Ref sig .tc := ⟨.hbm, 441, rfl⟩
abbrev main_v304 : Ref sig .tc := ⟨.hbm, 442, rfl⟩
abbrev main_cst_50 : Ref sig .tc := ⟨.hbm, 443, rfl⟩
abbrev main_v305 : Ref sig .tc := ⟨.hbm, 444, rfl⟩
abbrev main_v306 : Ref sig .tc := ⟨.hbm, 445, rfl⟩
abbrev main_cst_51 : Ref sig .tc := ⟨.hbm, 446, rfl⟩
abbrev main_v307 : Ref sig .tc := ⟨.hbm, 447, rfl⟩
abbrev main_v308 : Ref sig .tc := ⟨.hbm, 448, rfl⟩
abbrev main_v309 : Ref sig .tc := ⟨.hbm, 449, rfl⟩
abbrev main_v310 : Ref sig .tc := ⟨.hbm, 450, rfl⟩
abbrev main_v311 : Ref sig .tc := ⟨.hbm, 451, rfl⟩
abbrev main_v312 : Ref sig .tc := ⟨.hbm, 452, rfl⟩
abbrev main_v313 : Ref sig .tc := ⟨.hbm, 453, rfl⟩
abbrev main_cst_52 : Ref sig .tc := ⟨.hbm, 454, rfl⟩
abbrev main_v314 : Ref sig .tc := ⟨.hbm, 455, rfl⟩
abbrev main_cst_53 : Ref sig .tc := ⟨.hbm, 456, rfl⟩
abbrev main_v315 : Ref sig .tc := ⟨.hbm, 457, rfl⟩
abbrev main_v316 : Ref sig .tc := ⟨.hbm, 458, rfl⟩
abbrev main_c_54 : Ref sig .tc := ⟨.hbm, 459, rfl⟩
abbrev main_call6_cst : Ref sig .tc := ⟨.hbm, 460, rfl⟩
abbrev main_call6_v0 : Ref sig .tc := ⟨.hbm, 461, rfl⟩
abbrev main_call6_v1 : Ref sig .tc := ⟨.hbm, 462, rfl⟩
abbrev main_call6_cst_0 : Ref sig .tc := ⟨.hbm, 463, rfl⟩
abbrev main_call6_v2 : Ref sig .tc := ⟨.hbm, 464, rfl⟩
abbrev main_call6_v3 : Ref sig .tc := ⟨.hbm, 465, rfl⟩
abbrev main_call6_v4 : Ref sig .tc := ⟨.hbm, 466, rfl⟩
abbrev main_call6_v5 : Ref sig .tc := ⟨.hbm, 467, rfl⟩
abbrev main_call6_v6 : Ref sig .tc := ⟨.hbm, 468, rfl⟩
abbrev main_call6_v7 : Ref sig .tc := ⟨.hbm, 469, rfl⟩
abbrev main_call6_cst_1 : Ref sig .tc := ⟨.hbm, 470, rfl⟩
abbrev main_call6_v8 : Ref sig .tc := ⟨.hbm, 471, rfl⟩
abbrev main_call6_cst_2 : Ref sig .tc := ⟨.hbm, 472, rfl⟩
abbrev main_call6_v9 : Ref sig .tc := ⟨.hbm, 473, rfl⟩
abbrev main_call6_v10 : Ref sig .tc := ⟨.hbm, 474, rfl⟩
abbrev main_call6_v11 : Ref sig .tc := ⟨.hbm, 475, rfl⟩
abbrev main_call6_cst_3 : Ref sig .tc := ⟨.hbm, 476, rfl⟩
abbrev main_call6_v12 : Ref sig .tc := ⟨.hbm, 477, rfl⟩
abbrev main_call6_cst_4 : Ref sig .tc := ⟨.hbm, 478, rfl⟩
abbrev main_call6_call0_v0 : Ref sig .tc := ⟨.hbm, 479, rfl⟩
abbrev main_call6_call0_v1 : Ref sig .tc := ⟨.hbm, 480, rfl⟩
abbrev main_v317 : Ref sig .tc := ⟨.hbm, 481, rfl⟩
abbrev main_v318 : Ref sig .tc := ⟨.hbm, 482, rfl⟩
abbrev main_v319 : Ref sig .tc := ⟨.hbm, 483, rfl⟩
abbrev main_v320 : Ref sig .tc := ⟨.hbm, 484, rfl⟩
abbrev main_cst_55 : Ref sig .tc := ⟨.hbm, 485, rfl⟩
abbrev main_v321 : Ref sig .tc := ⟨.hbm, 486, rfl⟩
abbrev main_v322 : Ref sig .tc := ⟨.hbm, 487, rfl⟩
abbrev main_v323 : Ref sig .tc := ⟨.hbm, 488, rfl⟩
abbrev main_v324 : Ref sig .tc := ⟨.hbm, 489, rfl⟩
abbrev main_v325 : Ref sig .tc := ⟨.hbm, 490, rfl⟩
abbrev main_v326 : Ref sig .tc := ⟨.hbm, 491, rfl⟩
abbrev main_v327 : Ref sig .tc := ⟨.hbm, 492, rfl⟩
abbrev main_v328 : Ref sig .tc := ⟨.hbm, 493, rfl⟩
abbrev main_v329 : Ref sig .tc := ⟨.hbm, 494, rfl⟩
abbrev main_v330 : Ref sig .tc := ⟨.hbm, 495, rfl⟩
abbrev main_v331 : Ref sig .tc := ⟨.hbm, 496, rfl⟩
abbrev main_v332 : Ref sig .tc := ⟨.hbm, 497, rfl⟩
abbrev main_cst_56 : Ref sig .tc := ⟨.hbm, 498, rfl⟩
abbrev main_v333 : Ref sig .tc := ⟨.hbm, 499, rfl⟩
abbrev main_v334 : Ref sig .tc := ⟨.hbm, 500, rfl⟩
abbrev main_cst_57 : Ref sig .tc := ⟨.hbm, 501, rfl⟩
abbrev main_v335 : Ref sig .tc := ⟨.hbm, 502, rfl⟩
abbrev main_v336 : Ref sig .tc := ⟨.hbm, 503, rfl⟩
abbrev main_v337 : Ref sig .tc := ⟨.hbm, 504, rfl⟩
abbrev main_v338 : Ref sig .tc := ⟨.hbm, 505, rfl⟩
abbrev main_v339 : Ref sig .tc := ⟨.hbm, 506, rfl⟩
abbrev main_v340 : Ref sig .tc := ⟨.hbm, 507, rfl⟩
abbrev main_v341 : Ref sig .tc := ⟨.hbm, 508, rfl⟩
abbrev main_v342 : Ref sig .tc := ⟨.hbm, 509, rfl⟩
abbrev main_v343 : Ref sig .tc := ⟨.hbm, 510, rfl⟩
abbrev main_v344 : Ref sig .tc := ⟨.hbm, 511, rfl⟩
abbrev main_v345 : Ref sig .tc := ⟨.hbm, 512, rfl⟩
abbrev main_v346 : Ref sig .tc := ⟨.hbm, 513, rfl⟩
abbrev main_v347 : Ref sig .tc := ⟨.hbm, 514, rfl⟩
abbrev main_v348 : Ref sig .tc := ⟨.hbm, 515, rfl⟩
abbrev main_v349 : Ref sig .tc := ⟨.hbm, 516, rfl⟩
abbrev main_v350 : Ref sig .tc := ⟨.hbm, 517, rfl⟩
abbrev main_v351 : Ref sig .tc := ⟨.hbm, 518, rfl⟩
abbrev main_v352 : Ref sig .tc := ⟨.hbm, 519, rfl⟩
abbrev main_v353 : Ref sig .tc := ⟨.hbm, 520, rfl⟩
abbrev main_c_58 : Ref sig .tc := ⟨.hbm, 521, rfl⟩
abbrev main_v354 : Ref sig .tc := ⟨.hbm, 522, rfl⟩
abbrev main_v355 : Ref sig .tc := ⟨.hbm, 523, rfl⟩
abbrev main_c_59 : Ref sig .tc := ⟨.hbm, 524, rfl⟩
abbrev main_v356 : Ref sig .tc := ⟨.hbm, 525, rfl⟩
abbrev main_v357 : Ref sig .tc := ⟨.hbm, 526, rfl⟩
abbrev main_v358 : Ref sig .tc := ⟨.hbm, 527, rfl⟩
abbrev main_v359 : Ref sig .tc := ⟨.hbm, 528, rfl⟩
abbrev main_v360 : Ref sig .tc := ⟨.hbm, 529, rfl⟩
abbrev main_cst_60 : Ref sig .tc := ⟨.hbm, 530, rfl⟩
abbrev main_v361 : Ref sig .tc := ⟨.hbm, 531, rfl⟩
abbrev main_v362 : Ref sig .tc := ⟨.hbm, 532, rfl⟩
abbrev main_v363 : Ref sig .tc := ⟨.hbm, 533, rfl⟩
abbrev main_c_61 : Ref sig .tc := ⟨.hbm, 534, rfl⟩
abbrev main_v364 : Ref sig .tc := ⟨.hbm, 535, rfl⟩
abbrev main_v365 : Ref sig .tc := ⟨.hbm, 536, rfl⟩
abbrev main_c_62 : Ref sig .tc := ⟨.hbm, 537, rfl⟩
abbrev main_v366 : Ref sig .tc := ⟨.hbm, 538, rfl⟩
abbrev main_v367 : Ref sig .tc := ⟨.hbm, 539, rfl⟩
abbrev main_v368 : Ref sig .tc := ⟨.hbm, 540, rfl⟩
abbrev main_v369 : Ref sig .tc := ⟨.hbm, 541, rfl⟩
abbrev main_v370 : Ref sig .tc := ⟨.hbm, 542, rfl⟩
abbrev main_cst_63 : Ref sig .tc := ⟨.hbm, 543, rfl⟩
abbrev main_v371 : Ref sig .tc := ⟨.hbm, 544, rfl⟩
abbrev main_v372 : Ref sig .tc := ⟨.hbm, 545, rfl⟩
abbrev main_v373 : Ref sig .tc := ⟨.hbm, 546, rfl⟩
abbrev main_v374 : Ref sig .tc := ⟨.hbm, 547, rfl⟩
abbrev main_c_64 : Ref sig .tc := ⟨.hbm, 548, rfl⟩
abbrev main_v375 : Ref sig .tc := ⟨.hbm, 549, rfl⟩
abbrev main_v376 : Ref sig .tc := ⟨.hbm, 550, rfl⟩
abbrev main_c_65 : Ref sig .tc := ⟨.hbm, 551, rfl⟩
abbrev main_v377 : Ref sig .tc := ⟨.hbm, 552, rfl⟩
abbrev main_v378 : Ref sig .tc := ⟨.hbm, 553, rfl⟩
abbrev main_v379 : Ref sig .tc := ⟨.hbm, 554, rfl⟩
abbrev main_v380 : Ref sig .tc := ⟨.hbm, 555, rfl⟩
abbrev main_v381 : Ref sig .tc := ⟨.hbm, 556, rfl⟩
abbrev main_cst_66 : Ref sig .tc := ⟨.hbm, 557, rfl⟩
abbrev main_v382 : Ref sig .tc := ⟨.hbm, 558, rfl⟩
abbrev main_v383 : Ref sig .tc := ⟨.hbm, 559, rfl⟩
abbrev main_v384 : Ref sig .tc := ⟨.hbm, 560, rfl⟩
abbrev main_v385 : Ref sig .tc := ⟨.hbm, 561, rfl⟩
abbrev main_v386 : Ref sig .tc := ⟨.hbm, 562, rfl⟩
abbrev main_v387 : Ref sig .tc := ⟨.hbm, 563, rfl⟩
abbrev main_v388 : Ref sig .tc := ⟨.hbm, 564, rfl⟩
abbrev main_v389 : Ref sig .tc := ⟨.hbm, 565, rfl⟩
abbrev main_v390 : Ref sig .tc := ⟨.hbm, 566, rfl⟩
abbrev main_v391 : Ref sig .tc := ⟨.hbm, 567, rfl⟩
abbrev main_v392 : Ref sig .tc := ⟨.hbm, 568, rfl⟩
abbrev main_v393 : Ref sig .tc := ⟨.hbm, 569, rfl⟩
abbrev main_v394 : Ref sig .tc := ⟨.hbm, 570, rfl⟩
abbrev main_v395 : Ref sig .tc := ⟨.hbm, 571, rfl⟩
abbrev main_v396 : Ref sig .tc := ⟨.hbm, 572, rfl⟩
abbrev main_v397 : Ref sig .tc := ⟨.hbm, 573, rfl⟩
abbrev main_v398 : Ref sig .tc := ⟨.hbm, 574, rfl⟩
abbrev main_v399 : Ref sig .tc := ⟨.hbm, 575, rfl⟩
abbrev main_v400 : Ref sig .tc := ⟨.hbm, 576, rfl⟩
abbrev main_v401 : Ref sig .tc := ⟨.hbm, 577, rfl⟩
abbrev main_v402 : Ref sig .tc := ⟨.hbm, 578, rfl⟩
abbrev main_c_67 : Ref sig .tc := ⟨.hbm, 579, rfl⟩
abbrev main_v403 : Ref sig .tc := ⟨.hbm, 580, rfl⟩
abbrev main_v404 : Ref sig .tc := ⟨.hbm, 581, rfl⟩
abbrev main_c_68 : Ref sig .tc := ⟨.hbm, 582, rfl⟩
abbrev main_v405 : Ref sig .tc := ⟨.hbm, 583, rfl⟩
abbrev main_v406 : Ref sig .tc := ⟨.hbm, 584, rfl⟩
abbrev main_v407 : Ref sig .tc := ⟨.hbm, 585, rfl⟩
abbrev main_v408 : Ref sig .tc := ⟨.hbm, 586, rfl⟩
abbrev main_v409 : Ref sig .tc := ⟨.hbm, 587, rfl⟩
abbrev main_cst_69 : Ref sig .tc := ⟨.hbm, 588, rfl⟩
abbrev main_v410 : Ref sig .tc := ⟨.hbm, 589, rfl⟩
abbrev main_v411 : Ref sig .tc := ⟨.hbm, 590, rfl⟩
abbrev main_v412 : Ref sig .tc := ⟨.hbm, 591, rfl⟩
abbrev main_c_70 : Ref sig .tc := ⟨.hbm, 592, rfl⟩
abbrev main_v413 : Ref sig .tc := ⟨.hbm, 593, rfl⟩
abbrev main_v414 : Ref sig .tc := ⟨.hbm, 594, rfl⟩
abbrev main_c_71 : Ref sig .tc := ⟨.hbm, 595, rfl⟩
abbrev main_v415 : Ref sig .tc := ⟨.hbm, 596, rfl⟩
abbrev main_v416 : Ref sig .tc := ⟨.hbm, 597, rfl⟩
abbrev main_v417 : Ref sig .tc := ⟨.hbm, 598, rfl⟩
abbrev main_v418 : Ref sig .tc := ⟨.hbm, 599, rfl⟩
abbrev main_v419 : Ref sig .tc := ⟨.hbm, 600, rfl⟩
abbrev main_cst_72 : Ref sig .tc := ⟨.hbm, 601, rfl⟩
abbrev main_v420 : Ref sig .tc := ⟨.hbm, 602, rfl⟩
abbrev main_v421 : Ref sig .tc := ⟨.hbm, 603, rfl⟩
abbrev main_v422 : Ref sig .tc := ⟨.hbm, 604, rfl⟩
abbrev main_v423 : Ref sig .tc := ⟨.hbm, 605, rfl⟩
abbrev main_c_73 : Ref sig .tc := ⟨.hbm, 606, rfl⟩
abbrev main_v424 : Ref sig .tc := ⟨.hbm, 607, rfl⟩
abbrev main_v425 : Ref sig .tc := ⟨.hbm, 608, rfl⟩
abbrev main_c_74 : Ref sig .tc := ⟨.hbm, 609, rfl⟩
abbrev main_v426 : Ref sig .tc := ⟨.hbm, 610, rfl⟩
abbrev main_v427 : Ref sig .tc := ⟨.hbm, 611, rfl⟩
abbrev main_v428 : Ref sig .tc := ⟨.hbm, 612, rfl⟩
abbrev main_v429 : Ref sig .tc := ⟨.hbm, 613, rfl⟩
abbrev main_v430 : Ref sig .tc := ⟨.hbm, 614, rfl⟩
abbrev main_cst_75 : Ref sig .tc := ⟨.hbm, 615, rfl⟩
abbrev main_v431 : Ref sig .tc := ⟨.hbm, 616, rfl⟩
abbrev main_v432 : Ref sig .tc := ⟨.hbm, 617, rfl⟩
abbrev main_v433 : Ref sig .tc := ⟨.hbm, 618, rfl⟩
abbrev main_v434 : Ref sig .tc := ⟨.hbm, 619, rfl⟩
abbrev main_v435 : Ref sig .tc := ⟨.hbm, 620, rfl⟩
abbrev main_v436 : Ref sig .tc := ⟨.hbm, 621, rfl⟩
abbrev main_v437 : Ref sig .tc := ⟨.hbm, 622, rfl⟩
abbrev main_v438 : Ref sig .tc := ⟨.hbm, 623, rfl⟩
abbrev main_v439 : Ref sig .tc := ⟨.hbm, 624, rfl⟩
abbrev main_v440 : Ref sig .tc := ⟨.hbm, 625, rfl⟩
abbrev main_v441 : Ref sig .tc := ⟨.hbm, 626, rfl⟩
abbrev main_v442 : Ref sig .tc := ⟨.hbm, 627, rfl⟩
abbrev main_v443 : Ref sig .tc := ⟨.hbm, 628, rfl⟩
abbrev main_v444 : Ref sig .tc := ⟨.hbm, 629, rfl⟩
abbrev main_v445 : Ref sig .tc := ⟨.hbm, 630, rfl⟩
abbrev main_v446 : Ref sig .tc := ⟨.hbm, 631, rfl⟩
abbrev main_v447 : Ref sig .tc := ⟨.hbm, 632, rfl⟩
abbrev main_v448 : Ref sig .tc := ⟨.hbm, 633, rfl⟩
abbrev main_v449 : Ref sig .tc := ⟨.hbm, 634, rfl⟩
abbrev main_v450 : Ref sig .tc := ⟨.hbm, 635, rfl⟩
abbrev main_v451 : Ref sig .tc := ⟨.hbm, 636, rfl⟩
abbrev main_c_76 : Ref sig .tc := ⟨.hbm, 637, rfl⟩
abbrev main_v452 : Ref sig .tc := ⟨.hbm, 638, rfl⟩
abbrev main_v453 : Ref sig .tc := ⟨.hbm, 639, rfl⟩
abbrev main_c_77 : Ref sig .tc := ⟨.hbm, 640, rfl⟩
abbrev main_v454 : Ref sig .tc := ⟨.hbm, 641, rfl⟩
abbrev main_v455 : Ref sig .tc := ⟨.hbm, 642, rfl⟩
abbrev main_v456 : Ref sig .tc := ⟨.hbm, 643, rfl⟩
abbrev main_v457 : Ref sig .tc := ⟨.hbm, 644, rfl⟩
abbrev main_v458 : Ref sig .tc := ⟨.hbm, 645, rfl⟩
abbrev main_cst_78 : Ref sig .tc := ⟨.hbm, 646, rfl⟩
abbrev main_v459 : Ref sig .tc := ⟨.hbm, 647, rfl⟩
abbrev main_v460 : Ref sig .tc := ⟨.hbm, 648, rfl⟩
abbrev main_v461 : Ref sig .tc := ⟨.hbm, 649, rfl⟩
abbrev main_c_79 : Ref sig .tc := ⟨.hbm, 650, rfl⟩
abbrev main_v462 : Ref sig .tc := ⟨.hbm, 651, rfl⟩
abbrev main_v463 : Ref sig .tc := ⟨.hbm, 652, rfl⟩
abbrev main_c_80 : Ref sig .tc := ⟨.hbm, 653, rfl⟩
abbrev main_v464 : Ref sig .tc := ⟨.hbm, 654, rfl⟩
abbrev main_v465 : Ref sig .tc := ⟨.hbm, 655, rfl⟩
abbrev main_v466 : Ref sig .tc := ⟨.hbm, 656, rfl⟩
abbrev main_v467 : Ref sig .tc := ⟨.hbm, 657, rfl⟩
abbrev main_v468 : Ref sig .tc := ⟨.hbm, 658, rfl⟩
abbrev main_cst_81 : Ref sig .tc := ⟨.hbm, 659, rfl⟩
abbrev main_v469 : Ref sig .tc := ⟨.hbm, 660, rfl⟩
abbrev main_v470 : Ref sig .tc := ⟨.hbm, 661, rfl⟩
abbrev main_v471 : Ref sig .tc := ⟨.hbm, 662, rfl⟩
abbrev main_v472 : Ref sig .tc := ⟨.hbm, 663, rfl⟩
abbrev main_c_82 : Ref sig .tc := ⟨.hbm, 664, rfl⟩
abbrev main_v473 : Ref sig .tc := ⟨.hbm, 665, rfl⟩
abbrev main_v474 : Ref sig .tc := ⟨.hbm, 666, rfl⟩
abbrev main_c_83 : Ref sig .tc := ⟨.hbm, 667, rfl⟩
abbrev main_v475 : Ref sig .tc := ⟨.hbm, 668, rfl⟩
abbrev main_v476 : Ref sig .tc := ⟨.hbm, 669, rfl⟩
abbrev main_v477 : Ref sig .tc := ⟨.hbm, 670, rfl⟩
abbrev main_v478 : Ref sig .tc := ⟨.hbm, 671, rfl⟩
abbrev main_v479 : Ref sig .tc := ⟨.hbm, 672, rfl⟩
abbrev main_cst_84 : Ref sig .tc := ⟨.hbm, 673, rfl⟩
abbrev main_v480 : Ref sig .tc := ⟨.hbm, 674, rfl⟩
abbrev main_v481 : Ref sig .tc := ⟨.hbm, 675, rfl⟩
abbrev main_v482 : Ref sig .tc := ⟨.hbm, 676, rfl⟩
abbrev main_v483 : Ref sig .tc := ⟨.hbm, 677, rfl⟩
abbrev main_v484 : Ref sig .tc := ⟨.hbm, 678, rfl⟩
abbrev main_v485 : Ref sig .tc := ⟨.hbm, 679, rfl⟩
abbrev main_v486 : Ref sig .tc := ⟨.hbm, 680, rfl⟩
abbrev main_v487 : Ref sig .tc := ⟨.hbm, 681, rfl⟩
abbrev main_v488 : Ref sig .tc := ⟨.hbm, 682, rfl⟩
abbrev main_v489 : Ref sig .tc := ⟨.hbm, 683, rfl⟩
abbrev main_v490 : Ref sig .tc := ⟨.hbm, 684, rfl⟩
abbrev main_v491 : Ref sig .tc := ⟨.hbm, 685, rfl⟩
abbrev main_v492 : Ref sig .tc := ⟨.hbm, 686, rfl⟩
abbrev main_v493 : Ref sig .tc := ⟨.hbm, 687, rfl⟩
abbrev main_v494 : Ref sig .tc := ⟨.hbm, 688, rfl⟩
abbrev main_v495 : Ref sig .tc := ⟨.hbm, 689, rfl⟩
abbrev main_v496 : Ref sig .tc := ⟨.hbm, 690, rfl⟩
abbrev main_v497 : Ref sig .tc := ⟨.hbm, 691, rfl⟩
abbrev main_v498 : Ref sig .tc := ⟨.hbm, 692, rfl⟩
abbrev main_v499 : Ref sig .tc := ⟨.hbm, 693, rfl⟩
abbrev main_v500 : Ref sig .tc := ⟨.hbm, 694, rfl⟩
abbrev main_c_85 : Ref sig .tc := ⟨.hbm, 695, rfl⟩
abbrev main_v501 : Ref sig .tc := ⟨.hbm, 696, rfl⟩
abbrev main_v502 : Ref sig .tc := ⟨.hbm, 697, rfl⟩
abbrev main_c_86 : Ref sig .tc := ⟨.hbm, 698, rfl⟩
abbrev main_v503 : Ref sig .tc := ⟨.hbm, 699, rfl⟩
abbrev main_v504 : Ref sig .tc := ⟨.hbm, 700, rfl⟩
abbrev main_v505 : Ref sig .tc := ⟨.hbm, 701, rfl⟩
abbrev main_v506 : Ref sig .tc := ⟨.hbm, 702, rfl⟩
abbrev main_v507 : Ref sig .tc := ⟨.hbm, 703, rfl⟩
abbrev main_cst_87 : Ref sig .tc := ⟨.hbm, 704, rfl⟩
abbrev main_v508 : Ref sig .tc := ⟨.hbm, 705, rfl⟩
abbrev main_v509 : Ref sig .tc := ⟨.hbm, 706, rfl⟩
abbrev main_v510 : Ref sig .tc := ⟨.hbm, 707, rfl⟩
abbrev main_c_88 : Ref sig .tc := ⟨.hbm, 708, rfl⟩
abbrev main_v511 : Ref sig .tc := ⟨.hbm, 709, rfl⟩
abbrev main_v512 : Ref sig .tc := ⟨.hbm, 710, rfl⟩
abbrev main_c_89 : Ref sig .tc := ⟨.hbm, 711, rfl⟩
abbrev main_v513 : Ref sig .tc := ⟨.hbm, 712, rfl⟩
abbrev main_v514 : Ref sig .tc := ⟨.hbm, 713, rfl⟩
abbrev main_v515 : Ref sig .tc := ⟨.hbm, 714, rfl⟩
abbrev main_v516 : Ref sig .tc := ⟨.hbm, 715, rfl⟩
abbrev main_v517 : Ref sig .tc := ⟨.hbm, 716, rfl⟩
abbrev main_cst_90 : Ref sig .tc := ⟨.hbm, 717, rfl⟩
abbrev main_v518 : Ref sig .tc := ⟨.hbm, 718, rfl⟩
abbrev main_v519 : Ref sig .tc := ⟨.hbm, 719, rfl⟩
abbrev main_v520 : Ref sig .tc := ⟨.hbm, 720, rfl⟩
abbrev main_v521 : Ref sig .tc := ⟨.hbm, 721, rfl⟩
abbrev main_c_91 : Ref sig .tc := ⟨.hbm, 722, rfl⟩
abbrev main_v522 : Ref sig .tc := ⟨.hbm, 723, rfl⟩
abbrev main_v523 : Ref sig .tc := ⟨.hbm, 724, rfl⟩
abbrev main_c_92 : Ref sig .tc := ⟨.hbm, 725, rfl⟩
abbrev main_v524 : Ref sig .tc := ⟨.hbm, 726, rfl⟩
abbrev main_v525 : Ref sig .tc := ⟨.hbm, 727, rfl⟩
abbrev main_v526 : Ref sig .tc := ⟨.hbm, 728, rfl⟩
abbrev main_v527 : Ref sig .tc := ⟨.hbm, 729, rfl⟩
abbrev main_v528 : Ref sig .tc := ⟨.hbm, 730, rfl⟩
abbrev main_cst_93 : Ref sig .tc := ⟨.hbm, 731, rfl⟩
abbrev main_v529 : Ref sig .tc := ⟨.hbm, 732, rfl⟩
abbrev main_v530 : Ref sig .tc := ⟨.hbm, 733, rfl⟩
abbrev main_v531 : Ref sig .tc := ⟨.hbm, 734, rfl⟩
abbrev main_v532 : Ref sig .tc := ⟨.hbm, 735, rfl⟩
abbrev main_v533 : Ref sig .tc := ⟨.hbm, 736, rfl⟩
abbrev main_v534 : Ref sig .tc := ⟨.hbm, 737, rfl⟩
abbrev main_v535 : Ref sig .tc := ⟨.hbm, 738, rfl⟩
abbrev main_v536 : Ref sig .tc := ⟨.hbm, 739, rfl⟩
abbrev main_v537 : Ref sig .tc := ⟨.hbm, 740, rfl⟩
abbrev main_v538 : Ref sig .tc := ⟨.hbm, 741, rfl⟩
abbrev main_v539 : Ref sig .tc := ⟨.hbm, 742, rfl⟩
abbrev main_v540 : Ref sig .tc := ⟨.hbm, 743, rfl⟩
abbrev main_v541 : Ref sig .tc := ⟨.hbm, 744, rfl⟩
abbrev main_v542 : Ref sig .tc := ⟨.hbm, 745, rfl⟩
abbrev main_v543 : Ref sig .tc := ⟨.hbm, 746, rfl⟩
abbrev main_v544 : Ref sig .tc := ⟨.hbm, 747, rfl⟩
abbrev main_v545 : Ref sig .tc := ⟨.hbm, 748, rfl⟩
abbrev main_v546 : Ref sig .tc := ⟨.hbm, 749, rfl⟩
abbrev main_v547 : Ref sig .tc := ⟨.hbm, 750, rfl⟩
abbrev main_v548 : Ref sig .tc := ⟨.hbm, 751, rfl⟩
abbrev main_v549 : Ref sig .tc := ⟨.hbm, 752, rfl⟩
abbrev main_v550 : Ref sig .tc := ⟨.hbm, 753, rfl⟩
abbrev main_v551 : Ref sig .tc := ⟨.hbm, 754, rfl⟩
abbrev main_v552 : Ref sig .tc := ⟨.hbm, 755, rfl⟩
abbrev main_v553 : Ref sig .tc := ⟨.hbm, 756, rfl⟩
abbrev main_v554 : Ref sig .tc := ⟨.hbm, 757, rfl⟩
abbrev main_v555 : Ref sig .tc := ⟨.hbm, 758, rfl⟩
abbrev main_v556 : Ref sig .tc := ⟨.hbm, 759, rfl⟩
abbrev main_v557 : Ref sig .tc := ⟨.hbm, 760, rfl⟩
abbrev main_v558 : Ref sig .tc := ⟨.hbm, 761, rfl⟩
abbrev main_v559 : Ref sig .tc := ⟨.hbm, 762, rfl⟩

abbrev nD : Nat := 1
abbrev τ : Topo := Topo.v7x

variable {F : FTy → Type} [FloatOps F]

class Facts₀ : Prop where
  slices_S2x2097152_S1x2097152_0_0 : S2x2097152.Slices ![0, 0] S1x2097152
  shapeCasts_S1x2097152_S2097152 : S1x2097152.ShapeCasts S2097152
  slices_S2x2097152_S1x2097152_1_0 : S2x2097152.Slices ![1, 0] S1x2097152
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S1x64_S32768x64_0_1 : S1x64.BroadcastsInDim S32768x64 (![0, 1] : Fin 2 → Fin S32768x64.rank)
  slices_S2x64_S1x64_0_0 : S2x64.Slices ![0, 0] S1x64
  shapeCasts_S1x64_S64 : S1x64.ShapeCasts S64
  reducesTo_S131072x64_S64_d0 : S131072x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S131072x64 : S_.BroadcastsInDim S131072x64 (![] : Fin 0 → Fin S131072x64.rank)
  reducesTo_S32768x64_S64_d0 : S32768x64.ReducesTo [0] S64
  bcast_S_S32768x64 : S_.BroadcastsInDim S32768x64 (![] : Fin 0 → Fin S32768x64.rank)
  slices_S2x5x64x64_S1x1x64x64_0_0_0_0 : S2x5x64x64.Slices ![0, 0, 0, 0] S1x1x64x64
  shapeCasts_S1x1x64x64_S64x64 : S1x1x64x64.ShapeCasts S64x64
  slices_S2x5x64_S1x1x64_0_0_0 : S2x5x64.Slices ![0, 0, 0] S1x1x64
  shapeCasts_S1x1x64_S64 : S1x1x64.ShapeCasts S64
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S_S65536 : S_.BroadcastsInDim S65536 (![] : Fin 0 → Fin S65536.rank)
  bcast_S65536_S65536x1_0 : S65536.BroadcastsInDim S65536x1 (![0] : Fin 1 → Fin S65536x1.rank)
  slices_S2x5x64x64_S1x1x64x64_0_1_0_0 : S2x5x64x64.Slices ![0, 1, 0, 0] S1x1x64x64
  slices_S2x5x64_S1x1x64_0_1_0 : S2x5x64.Slices ![0, 1, 0] S1x1x64
  slices_S2x5x64x64_S1x1x64x64_0_2_0_0 : S2x5x64x64.Slices ![0, 2, 0, 0] S1x1x64x64
  slices_S2x5x64_S1x1x64_0_2_0 : S2x5x64.Slices ![0, 2, 0] S1x1x64
  slices_S2x5x64x64_S1x1x64x64_0_3_0_0 : S2x5x64x64.Slices ![0, 3, 0, 0] S1x1x64x64
  slices_S2x5x64_S1x1x64_0_3_0 : S2x5x64.Slices ![0, 3, 0] S1x1x64
  slices_S2x5x64x64_S1x1x64x64_0_4_0_0 : S2x5x64x64.Slices ![0, 4, 0, 0] S1x1x64x64
  slices_S2x5x64_S1x1x64_0_4_0 : S2x5x64.Slices ![0, 4, 0] S1x1x64
  slices_S2x64_S1x64_1_0 : S2x64.Slices ![1, 0] S1x64
  slices_S2x5x64x64_S1x1x64x64_1_0_0_0 : S2x5x64x64.Slices ![1, 0, 0, 0] S1x1x64x64
  slices_S2x5x64_S1x1x64_1_0_0 : S2x5x64.Slices ![1, 0, 0] S1x1x64
  slices_S2x5x64x64_S1x1x64x64_1_1_0_0 : S2x5x64x64.Slices ![1, 1, 0, 0] S1x1x64x64
  slices_S2x5x64_S1x1x64_1_1_0 : S2x5x64.Slices ![1, 1, 0] S1x1x64
  slices_S2x5x64x64_S1x1x64x64_1_2_0_0 : S2x5x64x64.Slices ![1, 2, 0, 0] S1x1x64x64
  slices_S2x5x64_S1x1x64_1_2_0 : S2x5x64.Slices ![1, 2, 0] S1x1x64
  slices_S2x5x64x64_S1x1x64x64_1_3_0_0 : S2x5x64x64.Slices ![1, 3, 0, 0] S1x1x64x64
  slices_S2x5x64_S1x1x64_1_3_0 : S2x5x64.Slices ![1, 3, 0] S1x1x64
  slices_S2x5x64x64_S1x1x64x64_1_4_0_0 : S2x5x64x64.Slices ![1, 4, 0, 0] S1x1x64x64
  slices_S2x5x64_S1x1x64_1_4_0 : S2x5x64.Slices ![1, 4, 0] S1x1x64
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S1x32_S32768x32_0_1 : S1x32.BroadcastsInDim S32768x32 (![0, 1] : Fin 2 → Fin S32768x32.rank)
  dot_S131072x32_S32x64_S131072x64_1_0_0_1_n_n_wf : DotDims.WF S131072x32 S32x64 S131072x64 [1] [0] [0] [1] [] []
  dot_S32768x32_S32x64_S32768x64_1_0_0_1_n_n_wf : DotDims.WF S32768x32 S32x64 S32768x64 [1] [0] [0] [1] [] []
  dot_S131072x64_S64x64_S131072x64_1_0_0_1_n_n_wf : DotDims.WF S131072x64 S64x64 S131072x64 [1] [0] [0] [1] [] []
  dot_S32768x64_S64x64_S32768x64_1_0_0_1_n_n_wf : DotDims.WF S32768x64 S64x64 S32768x64 [1] [0] [0] [1] [] []
  gather_S131072x64_S2097152x1_S2097152x64_1_0_n_n_0_1_164_wf : GatherDims.WF S131072x64 S2097152x1 S2097152x64 [1] [0] [] [0] [] 1 ![1, 64]
  scatter_S131072x64_S2097152x1_S2097152x64_1_0_0_1_wf : ScatterDims.WF S131072x64 S2097152x1 S2097152x64 [1] [0] [0] 1
  gather_S32768x64_S65536x1_S65536x64_1_0_n_n_0_1_164_wf : GatherDims.WF S32768x64 S65536x1 S65536x64 [1] [0] [] [0] [] 1 ![1, 64]
  scatter_S131072x64_S65536x1_S65536x64_1_0_0_1_wf : ScatterDims.WF S131072x64 S65536x1 S65536x64 [1] [0] [0] 1
  gather_S131072x64_S65536x1_S65536x64_1_0_n_n_0_1_164_wf : GatherDims.WF S131072x64 S65536x1 S65536x64 [1] [0] [] [0] [] 1 ![1, 64]
  scatter_S32768x64_S65536x1_S65536x64_1_0_0_1_wf : ScatterDims.WF S32768x64 S65536x1 S65536x64 [1] [0] [0] 1
  dot_S131072x64_S64x32_S131072x32_1_0_0_1_n_n_wf : DotDims.WF S131072x64 S64x32 S131072x32 [1] [0] [0] [1] [] []
  dot_S32768x64_S64x32_S32768x32_1_0_0_1_n_n_wf : DotDims.WF S32768x64 S64x32 S32768x32 [1] [0] [0] [1] [] []

variable [Facts₀]

def dot_S131072x32_S32x64_S131072x64_1_0_0_1_n_n : DotDims S131072x32 S32x64 S131072x64 where
  lhsContracting := [1]
  rhsContracting := [0]
  lhsNonContracting := [0]
  rhsNonContracting := [1]
  lhsBatch := []
  rhsBatch := []
  wf := dot_S131072x32_S32x64_S131072x64_1_0_0_1_n_n_wf
def dot_S32768x32_S32x64_S32768x64_1_0_0_1_n_n : DotDims S32768x32 S32x64 S32768x64 where
  lhsContracting := [1]
  rhsContracting := [0]
  lhsNonContracting := [0]
  rhsNonContracting := [1]
  lhsBatch := []
  rhsBatch := []
  wf := dot_S32768x32_S32x64_S32768x64_1_0_0_1_n_n_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf
def dot_S32768x64_S64x64_S32768x64_1_0_0_1_n_n : DotDims S32768x64 S64x64 S32768x64 where
  lhsContracting := [1]
  rhsContracting := [0]
  lhsNonContracting := [0]
  rhsNonContracting := [1]
  lhsBatch := []
  rhsBatch := []
  wf := dot_S32768x64_S64x64_S32768x64_1_0_0_1_n_n_wf
def gather_S131072x64_S2097152x1_S2097152x64_1_0_n_n_0_1_164 : GatherDims S131072x64 S2097152x1 S2097152x64 where
  offsetDims := [1]
  collapsedSliceDims := [0]
  operandBatchingDims := []
  startIndicesBatchingDims := []
  startIndexMap := [0]
  indexVectorDim := 1
  sliceSizes := ![1, 64]
  wf := gather_S131072x64_S2097152x1_S2097152x64_1_0_n_n_0_1_164_wf
def scatter_S131072x64_S2097152x1_S2097152x64_1_0_0_1 : ScatterDims S131072x64 S2097152x1 S2097152x64 where
  updateWindowDims := [1]
  insertedWindowDims := [0]
  scatterDimsToOperandDims := [0]
  indexVectorDim := 1
  wf := scatter_S131072x64_S2097152x1_S2097152x64_1_0_0_1_wf
def gather_S32768x64_S65536x1_S65536x64_1_0_n_n_0_1_164 : GatherDims S32768x64 S65536x1 S65536x64 where
  offsetDims := [1]
  collapsedSliceDims := [0]
  operandBatchingDims := []
  startIndicesBatchingDims := []
  startIndexMap := [0]
  indexVectorDim := 1
  sliceSizes := ![1, 64]
  wf := gather_S32768x64_S65536x1_S65536x64_1_0_n_n_0_1_164_wf
def scatter_S131072x64_S65536x1_S65536x64_1_0_0_1 : ScatterDims S131072x64 S65536x1 S65536x64 where
  updateWindowDims := [1]
  insertedWindowDims := [0]
  scatterDimsToOperandDims := [0]
  indexVectorDim := 1
  wf := scatter_S131072x64_S65536x1_S65536x64_1_0_0_1_wf
def gather_S131072x64_S65536x1_S65536x64_1_0_n_n_0_1_164 : GatherDims S131072x64 S65536x1 S65536x64 where
  offsetDims := [1]
  collapsedSliceDims := [0]
  operandBatchingDims := []
  startIndicesBatchingDims := []
  startIndexMap := [0]
  indexVectorDim := 1
  sliceSizes := ![1, 64]
  wf := gather_S131072x64_S65536x1_S65536x64_1_0_n_n_0_1_164_wf
def scatter_S32768x64_S65536x1_S65536x64_1_0_0_1 : ScatterDims S32768x64 S65536x1 S65536x64 where
  updateWindowDims := [1]
  insertedWindowDims := [0]
  scatterDimsToOperandDims := [0]
  indexVectorDim := 1
  wf := scatter_S32768x64_S65536x1_S65536x64_1_0_0_1_wf
def dot_S131072x64_S64x32_S131072x32_1_0_0_1_n_n : DotDims S131072x64 S64x32 S131072x32 where
  lhsContracting := [1]
  rhsContracting := [0]
  lhsNonContracting := [0]
  rhsNonContracting := [1]
  lhsBatch := []
  rhsBatch := []
  wf := dot_S131072x64_S64x32_S131072x32_1_0_0_1_n_n_wf
def dot_S32768x64_S64x32_S32768x32_1_0_0_1_n_n : DotDims S32768x64 S64x32 S32768x32 where
  lhsContracting := [1]
  rhsContracting := [0]
  lhsNonContracting := [0]
  rhsNonContracting := [1]
  lhsBatch := []
  rhsBatch := []
  wf := dot_S32768x64_S64x32_S32768x32_1_0_0_1_n_n_wf

class Facts : Prop extends Facts₀ where

variable [Facts]
-- ==== Proof.KRun.lean ====
/-
  The idealized kernel program's run with every buffer named: every weakly fair execution of its @main terminates,
  nothing faulting, and in the final state every unscoped buffer of a TensorCore holds the last boundary's contents —
  the fold of the host stretches and of the regions' write-backs from the launch memory. The argument is the frame
  run's, with the final state read at every buffer instead of at the arguments only.
-/
import proofs.«144873_j21182778704707_1_alg».proof.Proof.Gen.KernelIdeal.Frame

set_option maxRecDepth 16384

noncomputable section

namespace Cert.KernelIdeal.HV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the final contents of every unscoped buffer: the last boundary's. -/
theorem run_all : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W60 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W60 m ρ c b)
    (hfin := fun c s' => by
      iintro ⟨⟨Hh, -⟩, HSI⟩
      unfold StableHlo.held
      imodintro
      iapply (pointsTo_read_all (Pipeline.ucRefs τ sig) (fun b => (((c : Thread nD τ)).1, b)) (W60 m ρ c) s')
      isplitl [Hh] <;> iassumption)
    (hQ := fun s h c b hb => h c _ (mem_uc b hb))

end Cert.KernelIdeal.HV

end
-- ==== Proof.KKept.lean ====
/-
  Across a region only its output arrays change: every other buffer of the TensorCore holds at the region's exit what
  it held at its entry — an input window's array because an input is written back as it was read, any other buffer
  because the region does not touch it.
-/
import proofs.«144873_j21182778704707_1_alg».proof.Proof.Gen.KernelIdeal.Frame

set_option maxRecDepth 16384

noncomputable section

namespace Cert.KernelIdeal.HV

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Region 0: every buffer but main_v5 leaves as it entered. -/
theorem reg0_kept (c : Dev nD) (b : Ref sig .tc) (hb0 : b ≠ main_v5) :
    W2 m ρ c (no_index (Proc.devRef .tc b)) = W1 m ρ c (Proc.devRef .tc b) := by
  by_cases h0 : b = main_arg0
  · subst h0; exact (W2_arr m ρ c 0).trans (((dat0 (V1 m ρ) c).arrAt_in 0 rfl _).trans (A_eq0 (V1 m ρ) c 0))
  by_cases h1 : b = main_arg2
  · subst h1; exact (W2_arr m ρ c 1).trans (((dat0 (V1 m ρ) c).arrAt_in 1 rfl _).trans (A_eq0 (V1 m ρ) c 1))
  by_cases h2 : b = main_v4
  · subst h2; exact (W2_arr m ρ c 2).trans (((dat0 (V1 m ρ) c).arrAt_in 2 rfl _).trans (A_eq0 (V1 m ρ) c 2))
  exact W2_of_ne m ρ c b (show ∀ w : Fin 4, Pipeline.arrRef spec0 w ≠ b from fun
    | 0 => fun e => h0 e.symm
    | 1 => fun e => h1 e.symm
    | 2 => fun e => h2 e.symm
    | 3 => fun e => hb0 e.symm
    | ⟨_ + 4, h⟩ => absurd h (Nat.not_lt.2 (Nat.le_add_left _ _)))

/-- Region 1: every buffer but main_v7 leaves as it entered. -/
theorem reg1_kept (c : Dev nD) (b : Ref sig .tc) (hb0 : b ≠ main_v7) :
    W4 m ρ c (no_index (Proc.devRef .tc b)) = W3 m ρ c (Proc.devRef .tc b) := by
  by_cases h0 : b = main_arg1
  · subst h0; exact (W4_arr m ρ c 0).trans (((dat1 (V3 m ρ) c).arrAt_in 0 rfl _).trans (A_eq1 (V3 m ρ) c 0))
  by_cases h1 : b = main_arg4
  · subst h1; exact (W4_arr m ρ c 1).trans (((dat1 (V3 m ρ) c).arrAt_in 1 rfl _).trans (A_eq1 (V3 m ρ) c 1))
  by_cases h2 : b = main_v6
  · subst h2; exact (W4_arr m ρ c 2).trans (((dat1 (V3 m ρ) c).arrAt_in 2 rfl _).trans (A_eq1 (V3 m ρ) c 2))
  exact W4_of_ne m ρ c b (show ∀ w : Fin 4, Pipeline.arrRef spec1 w ≠ b from fun
    | 0 => fun e => h0 e.symm
    | 1 => fun e => h1 e.symm
    | 2 => fun e => h2 e.symm
    | 3 => fun e => hb0 e.symm
    | ⟨_ + 4, h⟩ => absurd h (Nat.not_lt.2 (Nat.le_add_left _ _)))

/-- Region 2: every buffer but main_v29_0, main_v29_1 leaves as it entered. -/
theorem reg2_kept (c : Dev nD) (b : Ref sig .tc) (hb0 : b ≠ main_v29_0) (hb1 : b ≠ main_v29_1) :
    W10 m ρ c (no_index (Proc.devRef .tc b)) = W9 m ρ c (Proc.devRef .tc b) := by
  by_cases h0 : b = main_v5
  · subst h0; exact (W10_arr m ρ c 0).trans (((dat2 (V9 m ρ) c).arrAt_in 0 rfl _).trans (A_eq2 (V9 m ρ) c 0))
  by_cases h1 : b = main_v26
  · subst h1; exact (W10_arr m ρ c 1).trans (((dat2 (V9 m ρ) c).arrAt_in 1 rfl _).trans (A_eq2 (V9 m ρ) c 1))
  by_cases h2 : b = main_v27
  · subst h2; exact (W10_arr m ρ c 2).trans (((dat2 (V9 m ρ) c).arrAt_in 2 rfl _).trans (A_eq2 (V9 m ρ) c 2))
  by_cases h3 : b = main_v11
  · subst h3; exact (W10_arr m ρ c 3).trans (((dat2 (V9 m ρ) c).arrAt_in 3 rfl _).trans (A_eq2 (V9 m ρ) c 3))
  by_cases h4 : b = main_v12
  · subst h4; exact (W10_arr m ρ c 4).trans (((dat2 (V9 m ρ) c).arrAt_in 4 rfl _).trans (A_eq2 (V9 m ρ) c 4))
  by_cases h5 : b = main_v23
  · subst h5; exact (W10_arr m ρ c 5).trans (((dat2 (V9 m ρ) c).arrAt_in 5 rfl _).trans (A_eq2 (V9 m ρ) c 5))
  by_cases h6 : b = main_v28
  · subst h6; exact (W10_arr m ρ c 6).trans (((dat2 (V9 m ρ) c).arrAt_in 6 rfl _).trans (A_eq2 (V9 m ρ) c 6))
  exact W10_of_ne m ρ c b (show ∀ w : Fin 9, Pipeline.arrRef spec2 w ≠ b from fun
    | 0 => fun e => h0 e.symm
    | 1 => fun e => h1 e.symm
    | 2 => fun e => h2 e.symm
    | 3 => fun e => h3 e.symm
    | 4 => fun e => h4 e.symm
    | 5 => fun e => h5 e.symm
    | 6 => fun e => h6 e.symm
    | 7 => fun e => hb0 e.symm
    | 8 => fun e => hb1 e.symm
    | ⟨_ + 9, h⟩ => absurd h (Nat.not_lt.2 (Nat.le_add_left _ _)))

/-- Region 3: every buffer but main_v41_0, main_v41_1 leaves as it entered. -/
theorem reg3_kept (c : Dev nD) (b : Ref sig .tc) (hb0 : b ≠ main_v41_0) (hb1 : b ≠ main_v41_1) :
    W12 m ρ c (no_index (Proc.devRef .tc b)) = W11 m ρ c (Proc.devRef .tc b) := by
  by_cases h0 : b = main_v7
  · subst h0; exact (W12_arr m ρ c 0).trans (((dat3 (V11 m ρ) c).arrAt_in 0 rfl _).trans (A_eq3 (V11 m ρ) c 0))
  by_cases h1 : b = main_v38
  · subst h1; exact (W12_arr m ρ c 1).trans (((dat3 (V11 m ρ) c).arrAt_in 1 rfl _).trans (A_eq3 (V11 m ρ) c 1))
  by_cases h2 : b = main_v39
  · subst h2; exact (W12_arr m ρ c 2).trans (((dat3 (V11 m ρ) c).arrAt_in 2 rfl _).trans (A_eq3 (V11 m ρ) c 2))
  by_cases h3 : b = main_v16
  · subst h3; exact (W12_arr m ρ c 3).trans (((dat3 (V11 m ρ) c).arrAt_in 3 rfl _).trans (A_eq3 (V11 m ρ) c 3))
  by_cases h4 : b = main_v17
  · subst h4; exact (W12_arr m ρ c 4).trans (((dat3 (V11 m ρ) c).arrAt_in 4 rfl _).trans (A_eq3 (V11 m ρ) c 4))
  by_cases h5 : b = main_v35
  · subst h5; exact (W12_arr m ρ c 5).trans (((dat3 (V11 m ρ) c).arrAt_in 5 rfl _).trans (A_eq3 (V11 m ρ) c 5))
  by_cases h6 : b = main_v40
  · subst h6; exact (W12_arr m ρ c 6).trans (((dat3 (V11 m ρ) c).arrAt_in 6 rfl _).trans (A_eq3 (V11 m ρ) c 6))
  exact W12_of_ne m ρ c b (show ∀ w : Fin 9, Pipeline.arrRef spec3 w ≠ b from fun
    | 0 => fun e => h0 e.symm
    | 1 => fun e => h1 e.symm
    | 2 => fun e => h2 e.symm
    | 3 => fun e => h3 e.symm
    | 4 => fun e => h4 e.symm
    | 5 => fun e => h5 e.symm
    | 6 => fun e => h6 e.symm
    | 7 => fun e => hb0 e.symm
    | 8 => fun e => hb1 e.symm
    | ⟨_ + 9, h⟩ => absurd h (Nat.not_lt.2 (Nat.le_add_left _ _)))

/-- Region 4: every buffer but main_v78 leaves as it entered. -/
theorem reg4_kept (c : Dev nD) (b : Ref sig .tc) (hb0 : b ≠ main_v78) :
    W14 m ρ c (no_index (Proc.devRef .tc b)) = W13 m ρ c (Proc.devRef .tc b) := by
  by_cases h0 : b = main_v62
  · subst h0; exact (W14_arr m ρ c 0).trans (((dat4 (V13 m ρ) c).arrAt_in 0 rfl _).trans (A_eq4 (V13 m ρ) c 0))
  by_cases h1 : b = main_v74
  · subst h1; exact (W14_arr m ρ c 1).trans (((dat4 (V13 m ρ) c).arrAt_in 1 rfl _).trans (A_eq4 (V13 m ρ) c 1))
  by_cases h2 : b = main_v77
  · subst h2; exact (W14_arr m ρ c 2).trans (((dat4 (V13 m ρ) c).arrAt_in 2 rfl _).trans (A_eq4 (V13 m ρ) c 2))
  by_cases h3 : b = main_v29_1
  · subst h3; exact (W14_arr m ρ c 3).trans (((dat4 (V13 m ρ) c).arrAt_in 3 rfl _).trans (A_eq4 (V13 m ρ) c 3))
  exact W14_of_ne m ρ c b (show ∀ w : Fin 5, Pipeline.arrRef spec4 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 5: every buffer but main_v84 leaves as it entered. -/
theorem reg5_kept (c : Dev nD) (b : Ref sig .tc) (hb0 : b ≠ main_v84) :
    W16 m ρ c (no_index (Proc.devRef .tc b)) = W15 m ρ c (Proc.devRef .tc b) := by
  by_cases h0 : b = main_v72
  · subst h0; exact (W16_arr m ρ c 0).trans (((dat5 (V15 m ρ) c).arrAt_in 0 rfl _).trans (A_eq5 (V15 m ρ) c 0))
  by_cases h1 : b = main_v80
  · subst h1; exact (W16_arr m ρ c 1).trans (((dat5 (V15 m ρ) c).arrAt_in 1 rfl _).trans (A_eq5 (V15 m ρ) c 1))
  by_cases h2 : b = main_v83
  · subst h2; exact (W16_arr m ρ c 2).trans (((dat5 (V15 m ρ) c).arrAt_in 2 rfl _).trans (A_eq5 (V15 m ρ) c 2))
  by_cases h3 : b = main_v41_1
  · subst h3; exact (W16_arr m ρ c 3).trans (((dat5 (V15 m ρ) c).arrAt_in 3 rfl _).trans (A_eq5 (V15 m ρ) c 3))
  exact W16_of_ne m ρ c b (show ∀ w : Fin 5, Pipeline.arrRef spec5 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 6: every buffer but main_v121 leaves as it entered. -/
theorem reg6_kept (c : Dev nD) (b : Ref sig .tc) (hb0 : b ≠ main_v121) :
    W18 m ρ c (no_index (Proc.devRef .tc b)) = W17 m ρ c (Proc.devRef .tc b) := by
  by_cases h0 : b = main_v105
  · subst h0; exact (W18_arr m ρ c 0).trans (((dat6 (V17 m ρ) c).arrAt_in 0 rfl _).trans (A_eq6 (V17 m ρ) c 0))
  by_cases h1 : b = main_v117
  · subst h1; exact (W18_arr m ρ c 1).trans (((dat6 (V17 m ρ) c).arrAt_in 1 rfl _).trans (A_eq6 (V17 m ρ) c 1))
  by_cases h2 : b = main_v120
  · subst h2; exact (W18_arr m ρ c 2).trans (((dat6 (V17 m ρ) c).arrAt_in 2 rfl _).trans (A_eq6 (V17 m ρ) c 2))
  by_cases h3 : b = main_v78
  · subst h3; exact (W18_arr m ρ c 3).trans (((dat6 (V17 m ρ) c).arrAt_in 3 rfl _).trans (A_eq6 (V17 m ρ) c 3))
  exact W18_of_ne m ρ c b (show ∀ w : Fin 5, Pipeline.arrRef spec6 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 7: every buffer but main_v127 leaves as it entered. -/
theorem reg7_kept (c : Dev nD) (b : Ref sig .tc) (hb0 : b ≠ main_v127) :
    W20 m ρ c (no_index (Proc.devRef .tc b)) = W19 m ρ c (Proc.devRef .tc b) := by
  by_cases h0 : b = main_v115
  · subst h0; exact (W20_arr m ρ c 0).trans (((dat7 (V19 m ρ) c).arrAt_in 0 rfl _).trans (A_eq7 (V19 m ρ) c 0))
  by_cases h1 : b = main_v123
  · subst h1; exact (W20_arr m ρ c 1).trans (((dat7 (V19 m ρ) c).arrAt_in 1 rfl _).trans (A_eq7 (V19 m ρ) c 1))
  by_cases h2 : b = main_v126
  · subst h2; exact (W20_arr m ρ c 2).trans (((dat7 (V19 m ρ) c).arrAt_in 2 rfl _).trans (A_eq7 (V19 m ρ) c 2))
  by_cases h3 : b = main_v84
  · subst h3; exact (W20_arr m ρ c 3).trans (((dat7 (V19 m ρ) c).arrAt_in 3 rfl _).trans (A_eq7 (V19 m ρ) c 3))
  exact W20_of_ne m ρ c b (show ∀ w : Fin 5, Pipeline.arrRef spec7 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 8: every buffer but main_v164 leaves as it entered. -/
theorem reg8_kept (c : Dev nD) (b : Ref sig .tc) (hb0 : b ≠ main_v164) :
    W22 m ρ c (no_index (Proc.devRef .tc b)) = W21 m ρ c (Proc.devRef .tc b) := by
  by_cases h0 : b = main_v148
  · subst h0; exact (W22_arr m ρ c 0).trans (((dat8 (V21 m ρ) c).arrAt_in 0 rfl _).trans (A_eq8 (V21 m ρ) c 0))
  by_cases h1 : b = main_v160
  · subst h1; exact (W22_arr m ρ c 1).trans (((dat8 (V21 m ρ) c).arrAt_in 1 rfl _).trans (A_eq8 (V21 m ρ) c 1))
  by_cases h2 : b = main_v163
  · subst h2; exact (W22_arr m ρ c 2).trans (((dat8 (V21 m ρ) c).arrAt_in 2 rfl _).trans (A_eq8 (V21 m ρ) c 2))
  by_cases h3 : b = main_v121
  · subst h3; exact (W22_arr m ρ c 3).trans (((dat8 (V21 m ρ) c).arrAt_in 3 rfl _).trans (A_eq8 (V21 m ρ) c 3))
  exact W22_of_ne m ρ c b (show ∀ w : Fin 5, Pipeline.arrRef spec8 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 9: every buffer but main_v170 leaves as it entered. -/
theorem reg9_kept (c : Dev nD) (b : Ref sig .tc) (hb0 : b ≠ main_v170) :
    W24 m ρ c (no_index (Proc.devRef .tc b)) = W23 m ρ c (Proc.devRef .tc b) := by
  by_cases h0 : b = main_v158
  · subst h0; exact (W24_arr m ρ c 0).trans (((dat9 (V23 m ρ) c).arrAt_in 0 rfl _).trans (A_eq9 (V23 m ρ) c 0))
  by_cases h1 : b = main_v166
  · subst h1; exact (W24_arr m ρ c 1).trans (((dat9 (V23 m ρ) c).arrAt_in 1 rfl _).trans (A_eq9 (V23 m ρ) c 1))
  by_cases h2 : b = main_v169
  · subst h2; exact (W24_arr m ρ c 2).trans (((dat9 (V23 m ρ) c).arrAt_in 2 rfl _).trans (A_eq9 (V23 m ρ) c 2))
  by_cases h3 : b = main_v127
  · subst h3; exact (W24_arr m ρ c 3).trans (((dat9 (V23 m ρ) c).arrAt_in 3 rfl _).trans (A_eq9 (V23 m ρ) c 3))
  exact W24_of_ne m ρ c b (show ∀ w : Fin 5, Pipeline.arrRef spec9 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 10: every buffer but main_v207 leaves as it entered. -/
theorem reg10_kept (c : Dev nD) (b : Ref sig .tc) (hb0 : b ≠ main_v207) :
    W26 m ρ c (no_index (Proc.devRef .tc b)) = W25 m ρ c (Proc.devRef .tc b) := by
  by_cases h0 : b = main_v191
  · subst h0; exact (W26_arr m ρ c 0).trans (((dat10 (V25 m ρ) c).arrAt_in 0 rfl _).trans (A_eq10 (V25 m ρ) c 0))
  by_cases h1 : b = main_v203
  · subst h1; exact (W26_arr m ρ c 1).trans (((dat10 (V25 m ρ) c).arrAt_in 1 rfl _).trans (A_eq10 (V25 m ρ) c 1))
  by_cases h2 : b = main_v206
  · subst h2; exact (W26_arr m ρ c 2).trans (((dat10 (V25 m ρ) c).arrAt_in 2 rfl _).trans (A_eq10 (V25 m ρ) c 2))
  by_cases h3 : b = main_v164
  · subst h3; exact (W26_arr m ρ c 3).trans (((dat10 (V25 m ρ) c).arrAt_in 3 rfl _).trans (A_eq10 (V25 m ρ) c 3))
  exact W26_of_ne m ρ c b (show ∀ w : Fin 5, Pipeline.arrRef spec10 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 11: every buffer but main_v213 leaves as it entered. -/
theorem reg11_kept (c : Dev nD) (b : Ref sig .tc) (hb0 : b ≠ main_v213) :
    W28 m ρ c (no_index (Proc.devRef .tc b)) = W27 m ρ c (Proc.devRef .tc b) := by
  by_cases h0 : b = main_v201
  · subst h0; exact (W28_arr m ρ c 0).trans (((dat11 (V27 m ρ) c).arrAt_in 0 rfl _).trans (A_eq11 (V27 m ρ) c 0))
  by_cases h1 : b = main_v209
  · subst h1; exact (W28_arr m ρ c 1).trans (((dat11 (V27 m ρ) c).arrAt_in 1 rfl _).trans (A_eq11 (V27 m ρ) c 1))
  by_cases h2 : b = main_v212
  · subst h2; exact (W28_arr m ρ c 2).trans (((dat11 (V27 m ρ) c).arrAt_in 2 rfl _).trans (A_eq11 (V27 m ρ) c 2))
  by_cases h3 : b = main_v170
  · subst h3; exact (W28_arr m ρ c 3).trans (((dat11 (V27 m ρ) c).arrAt_in 3 rfl _).trans (A_eq11 (V27 m ρ) c 3))
  exact W28_of_ne m ρ c b (show ∀ w : Fin 5, Pipeline.arrRef spec11 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 12: every buffer but main_v214 leaves as it entered. -/
theorem reg12_kept (c : Dev nD) (b : Ref sig .tc) (hb0 : b ≠ main_v214) :
    W29 m ρ c (no_index (Proc.devRef .tc b)) = W28 m ρ c (Proc.devRef .tc b) := by
  by_cases h0 : b = main_v5
  · subst h0; exact (W29_arr m ρ c 0).trans (((dat12 (V28 m ρ) c).arrAt_in 0 rfl _).trans (A_eq12 (V28 m ρ) c 0))
  by_cases h1 : b = main_v207
  · subst h1; exact (W29_arr m ρ c 1).trans (((dat12 (V28 m ρ) c).arrAt_in 1 rfl _).trans (A_eq12 (V28 m ρ) c 1))
  exact W29_of_ne m ρ c b (show ∀ w : Fin 3, Pipeline.arrRef spec12 w ≠ b from fun
    | 0 => fun e => h0 e.symm
    | 1 => fun e => h1 e.symm
    | 2 => fun e => hb0 e.symm
    | ⟨_ + 3, h⟩ => absurd h (Nat.not_lt.2 (Nat.le_add_left _ _)))

/-- Region 13: every buffer but main_v215 leaves as it entered. -/
theorem reg13_kept (c : Dev nD) (b : Ref sig .tc) (hb0 : b ≠ main_v215) :
    W30 m ρ c (no_index (Proc.devRef .tc b)) = W29 m ρ c (Proc.devRef .tc b) := by
  by_cases h0 : b = main_v7
  · subst h0; exact (W30_arr m ρ c 0).trans (((dat13 (V29 m ρ) c).arrAt_in 0 rfl _).trans (A_eq13 (V29 m ρ) c 0))
  by_cases h1 : b = main_v213
  · subst h1; exact (W30_arr m ρ c 1).trans (((dat13 (V29 m ρ) c).arrAt_in 1 rfl _).trans (A_eq13 (V29 m ρ) c 1))
  exact W30_of_ne m ρ c b (show ∀ w : Fin 3, Pipeline.arrRef spec13 w ≠ b from fun
    | 0 => fun e => h0 e.symm
    | 1 => fun e => h1 e.symm
    | 2 => fun e => hb0 e.symm
    | ⟨_ + 3, h⟩ => absurd h (Nat.not_lt.2 (Nat.le_add_left _ _)))

/-- Region 14: every buffer but main_v237_0, main_v237_1 leaves as it entered. -/
theorem reg14_kept (c : Dev nD) (b : Ref sig .tc) (hb0 : b ≠ main_v237_0) (hb1 : b ≠ main_v237_1) :
    W36 m ρ c (no_index (Proc.devRef .tc b)) = W35 m ρ c (Proc.devRef .tc b) := by
  by_cases h0 : b = main_v214
  · subst h0; exact (W36_arr m ρ c 0).trans (((dat14 (V35 m ρ) c).arrAt_in 0 rfl _).trans (A_eq14 (V35 m ρ) c 0))
  by_cases h1 : b = main_v234
  · subst h1; exact (W36_arr m ρ c 1).trans (((dat14 (V35 m ρ) c).arrAt_in 1 rfl _).trans (A_eq14 (V35 m ρ) c 1))
  by_cases h2 : b = main_v235
  · subst h2; exact (W36_arr m ρ c 2).trans (((dat14 (V35 m ρ) c).arrAt_in 2 rfl _).trans (A_eq14 (V35 m ρ) c 2))
  by_cases h3 : b = main_v219
  · subst h3; exact (W36_arr m ρ c 3).trans (((dat14 (V35 m ρ) c).arrAt_in 3 rfl _).trans (A_eq14 (V35 m ρ) c 3))
  by_cases h4 : b = main_v220
  · subst h4; exact (W36_arr m ρ c 4).trans (((dat14 (V35 m ρ) c).arrAt_in 4 rfl _).trans (A_eq14 (V35 m ρ) c 4))
  by_cases h5 : b = main_v231
  · subst h5; exact (W36_arr m ρ c 5).trans (((dat14 (V35 m ρ) c).arrAt_in 5 rfl _).trans (A_eq14 (V35 m ρ) c 5))
  by_cases h6 : b = main_v236
  · subst h6; exact (W36_arr m ρ c 6).trans (((dat14 (V35 m ρ) c).arrAt_in 6 rfl _).trans (A_eq14 (V35 m ρ) c 6))
  exact W36_of_ne m ρ c b (show ∀ w : Fin 9, Pipeline.arrRef spec14 w ≠ b from fun
    | 0 => fun e => h0 e.symm
    | 1 => fun e => h1 e.symm
    | 2 => fun e => h2 e.symm
    | 3 => fun e => h3 e.symm
    | 4 => fun e => h4 e.symm
    | 5 => fun e => h5 e.symm
    | 6 => fun e => h6 e.symm
    | 7 => fun e => hb0 e.symm
    | 8 => fun e => hb1 e.symm
    | ⟨_ + 9, h⟩ => absurd h (Nat.not_lt.2 (Nat.le_add_left _ _)))

/-- Region 15: every buffer but main_v249_0, main_v249_1 leaves as it entered. -/
theorem reg15_kept (c : Dev nD) (b : Ref sig .tc) (hb0 : b ≠ main_v249_0) (hb1 : b ≠ main_v249_1) :
    W38 m ρ c (no_index (Proc.devRef .tc b)) = W37 m ρ c (Proc.devRef .tc b) := by
  by_cases h0 : b = main_v215
  · subst h0; exact (W38_arr m ρ c 0).trans (((dat15 (V37 m ρ) c).arrAt_in 0 rfl _).trans (A_eq15 (V37 m ρ) c 0))
  by_cases h1 : b = main_v246
  · subst h1; exact (W38_arr m ρ c 1).trans (((dat15 (V37 m ρ) c).arrAt_in 1 rfl _).trans (A_eq15 (V37 m ρ) c 1))
  by_cases h2 : b = main_v247
  · subst h2; exact (W38_arr m ρ c 2).trans (((dat15 (V37 m ρ) c).arrAt_in 2 rfl _).trans (A_eq15 (V37 m ρ) c 2))
  by_cases h3 : b = main_v224
  · subst h3; exact (W38_arr m ρ c 3).trans (((dat15 (V37 m ρ) c).arrAt_in 3 rfl _).trans (A_eq15 (V37 m ρ) c 3))
  by_cases h4 : b = main_v225
  · subst h4; exact (W38_arr m ρ c 4).trans (((dat15 (V37 m ρ) c).arrAt_in 4 rfl _).trans (A_eq15 (V37 m ρ) c 4))
  by_cases h5 : b = main_v243
  · subst h5; exact (W38_arr m ρ c 5).trans (((dat15 (V37 m ρ) c).arrAt_in 5 rfl _).trans (A_eq15 (V37 m ρ) c 5))
  by_cases h6 : b = main_v248
  · subst h6; exact (W38_arr m ρ c 6).trans (((dat15 (V37 m ρ) c).arrAt_in 6 rfl _).trans (A_eq15 (V37 m ρ) c 6))
  exact W38_of_ne m ρ c b (show ∀ w : Fin 9, Pipeline.arrRef spec15 w ≠ b from fun
    | 0 => fun e => h0 e.symm
    | 1 => fun e => h1 e.symm
    | 2 => fun e => h2 e.symm
    | 3 => fun e => h3 e.symm
    | 4 => fun e => h4 e.symm
    | 5 => fun e => h5 e.symm
    | 6 => fun e => h6 e.symm
    | 7 => fun e => hb0 e.symm
    | 8 => fun e => hb1 e.symm
    | ⟨_ + 9, h⟩ => absurd h (Nat.not_lt.2 (Nat.le_add_left _ _)))

/-- Region 16: every buffer but main_v286 leaves as it entered. -/
theorem reg16_kept (c : Dev nD) (b : Ref sig .tc) (hb0 : b ≠ main_v286) :
    W40 m ρ c (no_index (Proc.devRef .tc b)) = W39 m ρ c (Proc.devRef .tc b) := by
  by_cases h0 : b = main_v270
  · subst h0; exact (W40_arr m ρ c 0).trans (((dat16 (V39 m ρ) c).arrAt_in 0 rfl _).trans (A_eq16 (V39 m ρ) c 0))
  by_cases h1 : b = main_v282
  · subst h1; exact (W40_arr m ρ c 1).trans (((dat16 (V39 m ρ) c).arrAt_in 1 rfl _).trans (A_eq16 (V39 m ρ) c 1))
  by_cases h2 : b = main_v285
  · subst h2; exact (W40_arr m ρ c 2).trans (((dat16 (V39 m ρ) c).arrAt_in 2 rfl _).trans (A_eq16 (V39 m ρ) c 2))
  by_cases h3 : b = main_v237_1
  · subst h3; exact (W40_arr m ρ c 3).trans (((dat16 (V39 m ρ) c).arrAt_in 3 rfl _).trans (A_eq16 (V39 m ρ) c 3))
  exact W40_of_ne m ρ c b (show ∀ w : Fin 5, Pipeline.arrRef spec16 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 17: every buffer but main_v292 leaves as it entered. -/
theorem reg17_kept (c : Dev nD) (b : Ref sig .tc) (hb0 : b ≠ main_v292) :
    W42 m ρ c (no_index (Proc.devRef .tc b)) = W41 m ρ c (Proc.devRef .tc b) := by
  by_cases h0 : b = main_v280
  · subst h0; exact (W42_arr m ρ c 0).trans (((dat17 (V41 m ρ) c).arrAt_in 0 rfl _).trans (A_eq17 (V41 m ρ) c 0))
  by_cases h1 : b = main_v288
  · subst h1; exact (W42_arr m ρ c 1).trans (((dat17 (V41 m ρ) c).arrAt_in 1 rfl _).trans (A_eq17 (V41 m ρ) c 1))
  by_cases h2 : b = main_v291
  · subst h2; exact (W42_arr m ρ c 2).trans (((dat17 (V41 m ρ) c).arrAt_in 2 rfl _).trans (A_eq17 (V41 m ρ) c 2))
  by_cases h3 : b = main_v249_1
  · subst h3; exact (W42_arr m ρ c 3).trans (((dat17 (V41 m ρ) c).arrAt_in 3 rfl _).trans (A_eq17 (V41 m ρ) c 3))
  exact W42_of_ne m ρ c b (show ∀ w : Fin 5, Pipeline.arrRef spec17 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 18: every buffer but main_v329 leaves as it entered. -/
theorem reg18_kept (c : Dev nD) (b : Ref sig .tc) (hb0 : b ≠ main_v329) :
    W44 m ρ c (no_index (Proc.devRef .tc b)) = W43 m ρ c (Proc.devRef .tc b) := by
  by_cases h0 : b = main_v313
  · subst h0; exact (W44_arr m ρ c 0).trans (((dat18 (V43 m ρ) c).arrAt_in 0 rfl _).trans (A_eq18 (V43 m ρ) c 0))
  by_cases h1 : b = main_v325
  · subst h1; exact (W44_arr m ρ c 1).trans (((dat18 (V43 m ρ) c).arrAt_in 1 rfl _).trans (A_eq18 (V43 m ρ) c 1))
  by_cases h2 : b = main_v328
  · subst h2; exact (W44_arr m ρ c 2).trans (((dat18 (V43 m ρ) c).arrAt_in 2 rfl _).trans (A_eq18 (V43 m ρ) c 2))
  by_cases h3 : b = main_v286
  · subst h3; exact (W44_arr m ρ c 3).trans (((dat18 (V43 m ρ) c).arrAt_in 3 rfl _).trans (A_eq18 (V43 m ρ) c 3))
  exact W44_of_ne m ρ c b (show ∀ w : Fin 5, Pipeline.arrRef spec18 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 19: every buffer but main_v335 leaves as it entered. -/
theorem reg19_kept (c : Dev nD) (b : Ref sig .tc) (hb0 : b ≠ main_v335) :
    W46 m ρ c (no_index (Proc.devRef .tc b)) = W45 m ρ c (Proc.devRef .tc b) := by
  by_cases h0 : b = main_v323
  · subst h0; exact (W46_arr m ρ c 0).trans (((dat19 (V45 m ρ) c).arrAt_in 0 rfl _).trans (A_eq19 (V45 m ρ) c 0))
  by_cases h1 : b = main_v331
  · subst h1; exact (W46_arr m ρ c 1).trans (((dat19 (V45 m ρ) c).arrAt_in 1 rfl _).trans (A_eq19 (V45 m ρ) c 1))
  by_cases h2 : b = main_v334
  · subst h2; exact (W46_arr m ρ c 2).trans (((dat19 (V45 m ρ) c).arrAt_in 2 rfl _).trans (A_eq19 (V45 m ρ) c 2))
  by_cases h3 : b = main_v292
  · subst h3; exact (W46_arr m ρ c 3).trans (((dat19 (V45 m ρ) c).arrAt_in 3 rfl _).trans (A_eq19 (V45 m ρ) c 3))
  exact W46_of_ne m ρ c b (show ∀ w : Fin 5, Pipeline.arrRef spec19 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 20: every buffer but main_v372 leaves as it entered. -/
theorem reg20_kept (c : Dev nD) (b : Ref sig .tc) (hb0 : b ≠ main_v372) :
    W48 m ρ c (no_index (Proc.devRef .tc b)) = W47 m ρ c (Proc.devRef .tc b) := by
  by_cases h0 : b = main_v356
  · subst h0; exact (W48_arr m ρ c 0).trans (((dat20 (V47 m ρ) c).arrAt_in 0 rfl _).trans (A_eq20 (V47 m ρ) c 0))
  by_cases h1 : b = main_v368
  · subst h1; exact (W48_arr m ρ c 1).trans (((dat20 (V47 m ρ) c).arrAt_in 1 rfl _).trans (A_eq20 (V47 m ρ) c 1))
  by_cases h2 : b = main_v371
  · subst h2; exact (W48_arr m ρ c 2).trans (((dat20 (V47 m ρ) c).arrAt_in 2 rfl _).trans (A_eq20 (V47 m ρ) c 2))
  by_cases h3 : b = main_v329
  · subst h3; exact (W48_arr m ρ c 3).trans (((dat20 (V47 m ρ) c).arrAt_in 3 rfl _).trans (A_eq20 (V47 m ρ) c 3))
  exact W48_of_ne m ρ c b (show ∀ w : Fin 5, Pipeline.arrRef spec20 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 21: every buffer but main_v378 leaves as it entered. -/
theorem reg21_kept (c : Dev nD) (b : Ref sig .tc) (hb0 : b ≠ main_v378) :
    W50 m ρ c (no_index (Proc.devRef .tc b)) = W49 m ρ c (Proc.devRef .tc b) := by
  by_cases h0 : b = main_v366
  · subst h0; exact (W50_arr m ρ c 0).trans (((dat21 (V49 m ρ) c).arrAt_in 0 rfl _).trans (A_eq21 (V49 m ρ) c 0))
  by_cases h1 : b = main_v374
  · subst h1; exact (W50_arr m ρ c 1).trans (((dat21 (V49 m ρ) c).arrAt_in 1 rfl _).trans (A_eq21 (V49 m ρ) c 1))
  by_cases h2 : b = main_v377
  · subst h2; exact (W50_arr m ρ c 2).trans (((dat21 (V49 m ρ) c).arrAt_in 2 rfl _).trans (A_eq21 (V49 m ρ) c 2))
  by_cases h3 : b = main_v335
  · subst h3; exact (W50_arr m ρ c 3).trans (((dat21 (V49 m ρ) c).arrAt_in 3 rfl _).trans (A_eq21 (V49 m ρ) c 3))
  exact W50_of_ne m ρ c b (show ∀ w : Fin 5, Pipeline.arrRef spec21 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 22: every buffer but main_v415 leaves as it entered. -/
theorem reg22_kept (c : Dev nD) (b : Ref sig .tc) (hb0 : b ≠ main_v415) :
    W52 m ρ c (no_index (Proc.devRef .tc b)) = W51 m ρ c (Proc.devRef .tc b) := by
  by_cases h0 : b = main_v399
  · subst h0; exact (W52_arr m ρ c 0).trans (((dat22 (V51 m ρ) c).arrAt_in 0 rfl _).trans (A_eq22 (V51 m ρ) c 0))
  by_cases h1 : b = main_v411
  · subst h1; exact (W52_arr m ρ c 1).trans (((dat22 (V51 m ρ) c).arrAt_in 1 rfl _).trans (A_eq22 (V51 m ρ) c 1))
  by_cases h2 : b = main_v414
  · subst h2; exact (W52_arr m ρ c 2).trans (((dat22 (V51 m ρ) c).arrAt_in 2 rfl _).trans (A_eq22 (V51 m ρ) c 2))
  by_cases h3 : b = main_v372
  · subst h3; exact (W52_arr m ρ c 3).trans (((dat22 (V51 m ρ) c).arrAt_in 3 rfl _).trans (A_eq22 (V51 m ρ) c 3))
  exact W52_of_ne m ρ c b (show ∀ w : Fin 5, Pipeline.arrRef spec22 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 23: every buffer but main_v421 leaves as it entered. -/
theorem reg23_kept (c : Dev nD) (b : Ref sig .tc) (hb0 : b ≠ main_v421) :
    W54 m ρ c (no_index (Proc.devRef .tc b)) = W53 m ρ c (Proc.devRef .tc b) := by
  by_cases h0 : b = main_v409
  · subst h0; exact (W54_arr m ρ c 0).trans (((dat23 (V53 m ρ) c).arrAt_in 0 rfl _).trans (A_eq23 (V53 m ρ) c 0))
  by_cases h1 : b = main_v417
  · subst h1; exact (W54_arr m ρ c 1).trans (((dat23 (V53 m ρ) c).arrAt_in 1 rfl _).trans (A_eq23 (V53 m ρ) c 1))
  by_cases h2 : b = main_v420
  · subst h2; exact (W54_arr m ρ c 2).trans (((dat23 (V53 m ρ) c).arrAt_in 2 rfl _).trans (A_eq23 (V53 m ρ) c 2))
  by_cases h3 : b = main_v378
  · subst h3; exact (W54_arr m ρ c 3).trans (((dat23 (V53 m ρ) c).arrAt_in 3 rfl _).trans (A_eq23 (V53 m ρ) c 3))
  exact W54_of_ne m ρ c b (show ∀ w : Fin 5, Pipeline.arrRef spec23 w ≠ b from fun
    | 0 => fun e => h0 e.symm
    | 1 => fun e => h1 e.symm
    | 2 => fun e => h2 e.symm
    | 3 => fun e => h3 e.symm
    | 4 => fun e => hb0 e.symm
    | ⟨_ + 5, h⟩ => absurd h (Nat.not_lt.2 (Nat.le_add_left _ _)))

/-- Region 24: every buffer but main_v422 leaves as it entered. -/
theorem reg24_kept (c : Dev nD) (b : Ref sig .tc) (hb0 : b ≠ main_v422) :
    W55 m ρ c (no_index (Proc.devRef .tc b)) = W54 m ρ c (Proc.devRef .tc b) := by
  by_cases h0 : b = main_v214
  · subst h0; exact (W55_arr m ρ c 0).trans (((dat24 (V54 m ρ) c).arrAt_in 0 rfl _).trans (A_eq24 (V54 m ρ) c 0))
  by_cases h1 : b = main_v415
  · subst h1; exact (W55_arr m ρ c 1).trans (((dat24 (V54 m ρ) c).arrAt_in 1 rfl _).trans (A_eq24 (V54 m ρ) c 1))
  exact W55_of_ne m ρ c b (show ∀ w : Fin 3, Pipeline.arrRef spec24 w ≠ b from fun
    | 0 => fun e => h0 e.symm
    | 1 => fun e => h1 e.symm
    | 2 => fun e => hb0 e.symm
    | ⟨_ + 3, h⟩ => absurd h (Nat.not_lt.2 (Nat.le_add_left _ _)))

/-- Region 25: every buffer but main_v423 leaves as it entered. -/
theorem reg25_kept (c : Dev nD) (b : Ref sig .tc) (hb0 : b ≠ main_v423) :
    W56 m ρ c (no_index (Proc.devRef .tc b)) = W55 m ρ c (Proc.devRef .tc b) := by
  by_cases h0 : b = main_v215
  · subst h0; exact (W56_arr m ρ c 0).trans (((dat25 (V55 m ρ) c).arrAt_in 0 rfl _).trans (A_eq25 (V55 m ρ) c 0))
  by_cases h1 : b = main_v421
  · subst h1; exact (W56_arr m ρ c 1).trans (((dat25 (V55 m ρ) c).arrAt_in 1 rfl _).trans (A_eq25 (V55 m ρ) c 1))
  exact W56_of_ne m ρ c b (show ∀ w : Fin 3, Pipeline.arrRef spec25 w ≠ b from fun
    | 0 => fun e => h0 e.symm
    | 1 => fun e => h1 e.symm
    | 2 => fun e => hb0 e.symm
    | ⟨_ + 3, h⟩ => absurd h (Nat.not_lt.2 (Nat.le_add_left _ _)))

/-- Region 26: every buffer but main_v425 leaves as it entered. -/
theorem reg26_kept (c : Dev nD) (b : Ref sig .tc) (hb0 : b ≠ main_v425) :
    W58 m ρ c (no_index (Proc.devRef .tc b)) = W57 m ρ c (Proc.devRef .tc b) := by
  by_cases h0 : b = main_v422
  · subst h0; exact (W58_arr m ρ c 0).trans (((dat26 (V57 m ρ) c).arrAt_in 0 rfl _).trans (A_eq26 (V57 m ρ) c 0))
  by_cases h1 : b = main_arg14
  · subst h1; exact (W58_arr m ρ c 1).trans (((dat26 (V57 m ρ) c).arrAt_in 1 rfl _).trans (A_eq26 (V57 m ρ) c 1))
  by_cases h2 : b = main_v424
  · subst h2; exact (W58_arr m ρ c 2).trans (((dat26 (V57 m ρ) c).arrAt_in 2 rfl _).trans (A_eq26 (V57 m ρ) c 2))
  exact W58_of_ne m ρ c b (show ∀ w : Fin 4, Pipeline.arrRef spec26 w ≠ b from fun
    | 0 => fun e => h0 e.symm
    | 1 => fun e => h1 e.symm
    | 2 => fun e => h2 e.symm
    | 3 => fun e => hb0 e.symm
    | ⟨_ + 4, h⟩ => absurd h (Nat.not_lt.2 (Nat.le_add_left _ _)))

/-- Region 27: every buffer but main_v427 leaves as it entered. -/
theorem reg27_kept (c : Dev nD) (b : Ref sig .tc) (hb0 : b ≠ main_v427) :
    W60 m ρ c (no_index (Proc.devRef .tc b)) = W59 m ρ c (Proc.devRef .tc b) := by
  by_cases h0 : b = main_v423
  · subst h0; exact (W60_arr m ρ c 0).trans (((dat27 (V59 m ρ) c).arrAt_in 0 rfl _).trans (A_eq27 (V59 m ρ) c 0))
  by_cases h1 : b = main_arg16
  · subst h1; exact (W60_arr m ρ c 1).trans (((dat27 (V59 m ρ) c).arrAt_in 1 rfl _).trans (A_eq27 (V59 m ρ) c 1))
  by_cases h2 : b = main_v426
  · subst h2; exact (W60_arr m ρ c 2).trans (((dat27 (V59 m ρ) c).arrAt_in 2 rfl _).trans (A_eq27 (V59 m ρ) c 2))
  exact W60_of_ne m ρ c b (show ∀ w : Fin 4, Pipeline.arrRef spec27 w ≠ b from fun
    | 0 => fun e => h0 e.symm
    | 1 => fun e => h1 e.symm
    | 2 => fun e => h2 e.symm
    | 3 => fun e => hb0 e.symm
    | ⟨_ + 4, h⟩ => absurd h (Nat.not_lt.2 (Nat.le_add_left _ _)))

end Cert.KernelIdeal.HV

end
-- ==== Proof.KHost0.lean ====
/-
  The reshapes around the read-in and read-out layers, as functions of the contents at entry: the two rows of the
  bus-to-bus edge list as index vectors, and each bias vector as a [1, M] row.
-/
import proofs.«144873_j21182778704707_1_alg».proof.Proof.Gen.KernelIdeal.Launch
import Idealize.ShloMosaic.PureOps.Ideal

set_option maxRecDepth 16384

noncomputable section

namespace Cert.KernelIdeal.HV

open Cert.KernelIdeal Cert.KernelIdeal.Gen
open Idealize.ShloMosaic Idealize.ShloMosaic.TcCoe

/-- The sources' row of the edge list, as a vector. -/
theorem host0_main_v1 (W : Valuation τ sig (Elt Ideal)) :
    StableHlo.after (hostOps0 (F := Ideal)) W (Proc.devRef .tc main_v1)
      = (shapeCast S2097152 ((extractStridedSlice S1x2097152 ![0, 0] ((W (Proc.devRef .tc main_arg18) : IVec S2x2097152 32)) slices_S2x2097152_S1x2097152_0_0 : IVec S1x2097152 32)) shapeCasts_S1x2097152_S2097152 : IVec S2097152 32) := by
  after_results <;> rfl

/-- The destinations' row of the edge list, as a vector. -/
theorem host0_main_v3 (W : Valuation τ sig (Elt Ideal)) :
    StableHlo.after (hostOps0 (F := Ideal)) W (Proc.devRef .tc main_v3)
      = (shapeCast S2097152 ((extractStridedSlice S1x2097152 ![1, 0] ((W (Proc.devRef .tc main_arg18) : IVec S2x2097152 32)) slices_S2x2097152_S1x2097152_1_0 : IVec S1x2097152 32)) shapeCasts_S1x2097152_S2097152 : IVec S2097152 32) := by
  after_results <;> rfl

/-- The bias vector as a one-row matrix. -/
theorem host0_main_v4 (W : Valuation τ sig (Elt Ideal)) :
    StableHlo.after (hostOps0 (F := Ideal)) W (Proc.devRef .tc main_v4)
      = (shapeCast S1x64 ((W (Proc.devRef .tc main_arg3) : FVec Ideal S64 .f32)) shapeCasts_S64_S1x64 : FVec Ideal S1x64 .f32) := by
  after_results <;> rfl

/-- A buffer no operation of the stretch writes is unchanged by it. -/
theorem host0_kept (W : Valuation τ sig (Elt Ideal)) (b : Ref sig .tc)
    (hb : Proc.devRef .tc b ∉ ({Proc.devRef .tc main_v0, Proc.devRef .tc main_v1, Proc.devRef .tc main_v2, Proc.devRef .tc main_v3, Proc.devRef .tc main_v4} : Finset (DevRef τ sig))) :
    StableHlo.after (hostOps0 (F := Ideal)) W (no_index (Proc.devRef .tc b)) = W (Proc.devRef .tc b) := by
  refine StableHlo.after_of_forall_not_mem _ _ (List.forall_iff_forall_mem.mp ?_)
  simp only [hostOps0, List.Forall, StableHlo.nullary_writes, StableHlo.unary_writes, StableHlo.binary_writes, StableHlo.ternary_writes, StableHlo.reshape_writes, Finset.mem_singleton]
  simpa only [Finset.mem_insert, Finset.mem_singleton, not_or] using hb

/-- The bias vector as a one-row matrix. -/
theorem host1_main_v6 (W : Valuation τ sig (Elt Ideal)) :
    StableHlo.after (hostOps1 (F := Ideal)) W (Proc.devRef .tc main_v6)
      = (shapeCast S1x64 ((W (Proc.devRef .tc main_arg5) : FVec Ideal S64 .f32)) shapeCasts_S64_S1x64 : FVec Ideal S1x64 .f32) := by
  after_results <;> rfl

/-- A buffer no operation of the stretch writes is unchanged by it. -/
theorem host1_kept (W : Valuation τ sig (Elt Ideal)) (b : Ref sig .tc)
    (hb : Proc.devRef .tc b ∉ ({Proc.devRef .tc main_v6} : Finset (DevRef τ sig))) :
    StableHlo.after (hostOps1 (F := Ideal)) W (no_index (Proc.devRef .tc b)) = W (Proc.devRef .tc b) := by
  refine StableHlo.after_of_forall_not_mem _ _ (List.forall_iff_forall_mem.mp ?_)
  simp only [hostOps1, List.Forall, StableHlo.nullary_writes, StableHlo.unary_writes, StableHlo.binary_writes, StableHlo.ternary_writes, StableHlo.reshape_writes, Finset.mem_singleton]
  simpa only [Finset.mem_insert, Finset.mem_singleton, not_or] using hb

/-- The bias vector as a one-row matrix. -/
theorem host26_main_v424 (W : Valuation τ sig (Elt Ideal)) :
    StableHlo.after (hostOps26 (F := Ideal)) W (Proc.devRef .tc main_v424)
      = (shapeCast S1x32 ((W (Proc.devRef .tc main_arg15) : FVec Ideal S32 .f32)) shapeCasts_S32_S1x32 : FVec Ideal S1x32 .f32) := by
  after_results <;> rfl

/-- A buffer no operation of the stretch writes is unchanged by it. -/
theorem host26_kept (W : Valuation τ sig (Elt Ideal)) (b : Ref sig .tc)
    (hb : Proc.devRef .tc b ∉ ({Proc.devRef .tc main_v424} : Finset (DevRef τ sig))) :
    StableHlo.after (hostOps26 (F := Ideal)) W (no_index (Proc.devRef .tc b)) = W (Proc.devRef .tc b) := by
  refine StableHlo.after_of_forall_not_mem _ _ (List.forall_iff_forall_mem.mp ?_)
  simp only [hostOps26, List.Forall, StableHlo.nullary_writes, StableHlo.unary_writes, StableHlo.binary_writes, StableHlo.ternary_writes, StableHlo.reshape_writes, Finset.mem_singleton]
  simpa only [Finset.mem_insert, Finset.mem_singleton, not_or] using hb

/-- The bias vector as a one-row matrix. -/
theorem host27_main_v426 (W : Valuation τ sig (Elt Ideal)) :
    StableHlo.after (hostOps27 (F := Ideal)) W (Proc.devRef .tc main_v426)
      = (shapeCast S1x32 ((W (Proc.devRef .tc main_arg17) : FVec Ideal S32 .f32)) shapeCasts_S32_S1x32 : FVec Ideal S1x32 .f32) := by
  after_results <;> rfl

/-- A buffer no operation of the stretch writes is unchanged by it. -/
theorem host27_kept (W : Valuation τ sig (Elt Ideal)) (b : Ref sig .tc)
    (hb : Proc.devRef .tc b ∉ ({Proc.devRef .tc main_v426} : Finset (DevRef τ sig))) :
    StableHlo.after (hostOps27 (F := Ideal)) W (no_index (Proc.devRef .tc b)) = W (Proc.devRef .tc b) := by
  refine StableHlo.after_of_forall_not_mem _ _ (List.forall_iff_forall_mem.mp ?_)
  simp only [hostOps27, List.Forall, StableHlo.nullary_writes, StableHlo.unary_writes, StableHlo.binary_writes, StableHlo.ternary_writes, StableHlo.reshape_writes, Finset.mem_singleton]
  simpa only [Finset.mem_insert, Finset.mem_singleton, not_or] using hb

end Cert.KernelIdeal.HV

end
-- ==== Proof.KHostPar.lean ====
/-
  The parameter slices of the two residual blocks, as functions of the stacked parameter arrays: the batch-norm
  scale and shift vectors and the tap-0 bias as one-row matrices, and the tap-0 weight matrix, for each node type
  and each block.
-/
import proofs.«144873_j21182778704707_1_alg».proof.Proof.Gen.KernelIdeal.Launch
import Idealize.ShloMosaic.PureOps.Ideal

set_option maxRecDepth 16384

noncomputable section

namespace Cert.KernelIdeal.HV

open Cert.KernelIdeal Cert.KernelIdeal.Gen
open Idealize.ShloMosaic Idealize.ShloMosaic.TcCoe

/-- One weight matrix out of the stacked weights. -/
theorem host2_4_main_v23 (W : Valuation τ sig (Elt Ideal)) :
    StableHlo.after (hostOps2_4 (F := Ideal)) W (Proc.devRef .tc main_v23)
      = (shapeCast S64x64 ((extractStridedSlice S1x1x64x64 ![0, 0, 0, 0] ((W (Proc.devRef .tc main_arg10) : FVec Ideal S2x5x64x64 .f32)) slices_S2x5x64x64_S1x1x64x64_0_0_0_0 : FVec Ideal S1x1x64x64 .f32)) shapeCasts_S1x1x64x64_S64x64 : FVec Ideal S64x64 .f32) := by
  after_results <;> rfl

/-- One parameter vector out of the stacked parameters, as a one-row matrix. -/
theorem host2_4_main_v26 (W : Valuation τ sig (Elt Ideal)) :
    StableHlo.after (hostOps2_4 (F := Ideal)) W (Proc.devRef .tc main_v26)
      = (shapeCast S1x64 ((shapeCast S64 ((extractStridedSlice S1x64 ![0, 0] ((W (Proc.devRef .tc main_arg6) : FVec Ideal S2x64 .f32)) slices_S2x64_S1x64_0_0 : FVec Ideal S1x64 .f32)) shapeCasts_S1x64_S64 : FVec Ideal S64 .f32)) shapeCasts_S64_S1x64 : FVec Ideal S1x64 .f32) := by
  after_results <;> rfl

/-- One parameter vector out of the stacked parameters, as a one-row matrix. -/
theorem host2_4_main_v27 (W : Valuation τ sig (Elt Ideal)) :
    StableHlo.after (hostOps2_4 (F := Ideal)) W (Proc.devRef .tc main_v27)
      = (shapeCast S1x64 ((shapeCast S64 ((extractStridedSlice S1x64 ![0, 0] ((W (Proc.devRef .tc main_arg7) : FVec Ideal S2x64 .f32)) slices_S2x64_S1x64_0_0 : FVec Ideal S1x64 .f32)) shapeCasts_S1x64_S64 : FVec Ideal S64 .f32)) shapeCasts_S64_S1x64 : FVec Ideal S1x64 .f32) := by
  after_results <;> rfl

/-- One parameter vector out of the stacked parameters, as a one-row matrix. -/
theorem host2_4_main_v28 (W : Valuation τ sig (Elt Ideal)) :
    StableHlo.after (hostOps2_4 (F := Ideal)) W (Proc.devRef .tc main_v28)
      = (shapeCast S1x64 ((shapeCast S64 ((extractStridedSlice S1x1x64 ![0, 0, 0] ((W (Proc.devRef .tc main_arg11) : FVec Ideal S2x5x64 .f32)) slices_S2x5x64_S1x1x64_0_0_0 : FVec Ideal S1x1x64 .f32)) shapeCasts_S1x1x64_S64 : FVec Ideal S64 .f32)) shapeCasts_S64_S1x64 : FVec Ideal S1x64 .f32) := by
  after_results <;> rfl

/-- A buffer no operation of the stretch writes is unchanged by it. -/
theorem host2_4_kept (W : Valuation τ sig (Elt Ideal)) (b : Ref sig .tc)
    (hb : Proc.devRef .tc b ∉ ({Proc.devRef .tc main_v18, Proc.devRef .tc main_v19, Proc.devRef .tc main_v20, Proc.devRef .tc main_v21, Proc.devRef .tc main_v22, Proc.devRef .tc main_v23, Proc.devRef .tc main_v24, Proc.devRef .tc main_v25, Proc.devRef .tc main_v26, Proc.devRef .tc main_v27, Proc.devRef .tc main_v28} : Finset (DevRef τ sig))) :
    StableHlo.after (hostOps2_4 (F := Ideal)) W (no_index (Proc.devRef .tc b)) = W (Proc.devRef .tc b) := by
  refine StableHlo.after_of_forall_not_mem _ _ (List.forall_iff_forall_mem.mp ?_)
  simp only [hostOps2_4, List.Forall, StableHlo.nullary_writes, StableHlo.unary_writes, StableHlo.binary_writes, StableHlo.ternary_writes, StableHlo.reshape_writes, Finset.mem_singleton]
  simpa only [Finset.mem_insert, Finset.mem_singleton, not_or] using hb

/-- One weight matrix out of the stacked weights. -/
theorem host3_main_v35 (W : Valuation τ sig (Elt Ideal)) :
    StableHlo.after (hostOps3 (F := Ideal)) W (Proc.devRef .tc main_v35)
      = (shapeCast S64x64 ((extractStridedSlice S1x1x64x64 ![0, 0, 0, 0] ((W (Proc.devRef .tc main_arg12) : FVec Ideal S2x5x64x64 .f32)) slices_S2x5x64x64_S1x1x64x64_0_0_0_0 : FVec Ideal S1x1x64x64 .f32)) shapeCasts_S1x1x64x64_S64x64 : FVec Ideal S64x64 .f32) := by
  after_results <;> rfl

/-- One parameter vector out of the stacked parameters, as a one-row matrix. -/
theorem host3_main_v38 (W : Valuation τ sig (Elt Ideal)) :
    StableHlo.after (hostOps3 (F := Ideal)) W (Proc.devRef .tc main_v38)
      = (shapeCast S1x64 ((shapeCast S64 ((extractStridedSlice S1x64 ![0, 0] ((W (Proc.devRef .tc main_arg8) : FVec Ideal S2x64 .f32)) slices_S2x64_S1x64_0_0 : FVec Ideal S1x64 .f32)) shapeCasts_S1x64_S64 : FVec Ideal S64 .f32)) shapeCasts_S64_S1x64 : FVec Ideal S1x64 .f32) := by
  after_results <;> rfl

/-- One parameter vector out of the stacked parameters, as a one-row matrix. -/
theorem host3_main_v39 (W : Valuation τ sig (Elt Ideal)) :
    StableHlo.after (hostOps3 (F := Ideal)) W (Proc.devRef .tc main_v39)
      = (shapeCast S1x64 ((shapeCast S64 ((extractStridedSlice S1x64 ![0, 0] ((W (Proc.devRef .tc main_arg9) : FVec Ideal S2x64 .f32)) slices_S2x64_S1x64_0_0 : FVec Ideal S1x64 .f32)) shapeCasts_S1x64_S64 : FVec Ideal S64 .f32)) shapeCasts_S64_S1x64 : FVec Ideal S1x64 .f32) := by
  after_results <;> rfl

/-- One parameter vector out of the stacked parameters, as a one-row matrix. -/
theorem host3_main_v40 (W : Valuation τ sig (Elt Ideal)) :
    StableHlo.after (hostOps3 (F := Ideal)) W (Proc.devRef .tc main_v40)
      = (shapeCast S1x64 ((shapeCast S64 ((extractStridedSlice S1x1x64 ![0, 0, 0] ((W (Proc.devRef .tc main_arg13) : FVec Ideal S2x5x64 .f32)) slices_S2x5x64_S1x1x64_0_0_0 : FVec Ideal S1x1x64 .f32)) shapeCasts_S1x1x64_S64 : FVec Ideal S64 .f32)) shapeCasts_S64_S1x64 : FVec Ideal S1x64 .f32) := by
  after_results <;> rfl

/-- A buffer no operation of the stretch writes is unchanged by it. -/
theorem host3_kept (W : Valuation τ sig (Elt Ideal)) (b : Ref sig .tc)
    (hb : Proc.devRef .tc b ∉ ({Proc.devRef .tc main_v30, Proc.devRef .tc main_v31, Proc.devRef .tc main_v32, Proc.devRef .tc main_v33, Proc.devRef .tc main_v34, Proc.devRef .tc main_v35, Proc.devRef .tc main_v36, Proc.devRef .tc main_v37, Proc.devRef .tc main_v38, Proc.devRef .tc main_v39, Proc.devRef .tc main_v40} : Finset (DevRef τ sig))) :
    StableHlo.after (hostOps3 (F := Ideal)) W (no_index (Proc.devRef .tc b)) = W (Proc.devRef .tc b) := by
  refine StableHlo.after_of_forall_not_mem _ _ (List.forall_iff_forall_mem.mp ?_)
  simp only [hostOps3, List.Forall, StableHlo.nullary_writes, StableHlo.unary_writes, StableHlo.binary_writes, StableHlo.ternary_writes, StableHlo.reshape_writes, Finset.mem_singleton]
  simpa only [Finset.mem_insert, Finset.mem_singleton, not_or] using hb

/-- One weight matrix out of the stacked weights. -/
theorem host14_4_main_v231 (W : Valuation τ sig (Elt Ideal)) :
    StableHlo.after (hostOps14_4 (F := Ideal)) W (Proc.devRef .tc main_v231)
      = (shapeCast S64x64 ((extractStridedSlice S1x1x64x64 ![1, 0, 0, 0] ((W (Proc.devRef .tc main_arg10) : FVec Ideal S2x5x64x64 .f32)) slices_S2x5x64x64_S1x1x64x64_1_0_0_0 : FVec Ideal S1x1x64x64 .f32)) shapeCasts_S1x1x64x64_S64x64 : FVec Ideal S64x64 .f32) := by
  after_results <;> rfl

/-- One parameter vector out of the stacked parameters, as a one-row matrix. -/
theorem host14_4_main_v234 (W : Valuation τ sig (Elt Ideal)) :
    StableHlo.after (hostOps14_4 (F := Ideal)) W (Proc.devRef .tc main_v234)
      = (shapeCast S1x64 ((shapeCast S64 ((extractStridedSlice S1x64 ![1, 0] ((W (Proc.devRef .tc main_arg6) : FVec Ideal S2x64 .f32)) slices_S2x64_S1x64_1_0 : FVec Ideal S1x64 .f32)) shapeCasts_S1x64_S64 : FVec Ideal S64 .f32)) shapeCasts_S64_S1x64 : FVec Ideal S1x64 .f32) := by
  after_results <;> rfl

/-- One parameter vector out of the stacked parameters, as a one-row matrix. -/
theorem host14_4_main_v235 (W : Valuation τ sig (Elt Ideal)) :
    StableHlo.after (hostOps14_4 (F := Ideal)) W (Proc.devRef .tc main_v235)
      = (shapeCast S1x64 ((shapeCast S64 ((extractStridedSlice S1x64 ![1, 0] ((W (Proc.devRef .tc main_arg7) : FVec Ideal S2x64 .f32)) slices_S2x64_S1x64_1_0 : FVec Ideal S1x64 .f32)) shapeCasts_S1x64_S64 : FVec Ideal S64 .f32)) shapeCasts_S64_S1x64 : FVec Ideal S1x64 .f32) := by
  after_results <;> rfl

/-- One parameter vector out of the stacked parameters, as a one-row matrix. -/
theorem host14_4_main_v236 (W : Valuation τ sig (Elt Ideal)) :
    StableHlo.after (hostOps14_4 (F := Ideal)) W (Proc.devRef .tc main_v236)
      = (shapeCast S1x64 ((shapeCast S64 ((extractStridedSlice S1x1x64 ![1, 0, 0] ((W (Proc.devRef .tc main_arg11) : FVec Ideal S2x5x64 .f32)) slices_S2x5x64_S1x1x64_1_0_0 : FVec Ideal S1x1x64 .f32)) shapeCasts_S1x1x64_S64 : FVec Ideal S64 .f32)) shapeCasts_S64_S1x64 : FVec Ideal S1x64 .f32) := by
  after_results <;> rfl

/-- A buffer no operation of the stretch writes is unchanged by it. -/
theorem host14_4_kept (W : Valuation τ sig (Elt Ideal)) (b : Ref sig .tc)
    (hb : Proc.devRef .tc b ∉ ({Proc.devRef .tc main_v226, Proc.devRef .tc main_v227, Proc.devRef .tc main_v228, Proc.devRef .tc main_v229, Proc.devRef .tc main_v230, Proc.devRef .tc main_v231, Proc.devRef .tc main_v232, Proc.devRef .tc main_v233, Proc.devRef .tc main_v234, Proc.devRef .tc main_v235, Proc.devRef .tc main_v236} : Finset (DevRef τ sig))) :
    StableHlo.after (hostOps14_4 (F := Ideal)) W (no_index (Proc.devRef .tc b)) = W (Proc.devRef .tc b) := by
  refine StableHlo.after_of_forall_not_mem _ _ (List.forall_iff_forall_mem.mp ?_)
  simp only [hostOps14_4, List.Forall, StableHlo.nullary_writes, StableHlo.unary_writes, StableHlo.binary_writes, StableHlo.ternary_writes, StableHlo.reshape_writes, Finset.mem_singleton]
  simpa only [Finset.mem_insert, Finset.mem_singleton, not_or] using hb

/-- One weight matrix out of the stacked weights. -/
theorem host15_main_v243 (W : Valuation τ sig (Elt Ideal)) :
    StableHlo.after (hostOps15 (F := Ideal)) W (Proc.devRef .tc main_v243)
      = (shapeCast S64x64 ((extractStridedSlice S1x1x64x64 ![1, 0, 0, 0] ((W (Proc.devRef .tc main_arg12) : FVec Ideal S2x5x64x64 .f32)) slices_S2x5x64x64_S1x1x64x64_1_0_0_0 : FVec Ideal S1x1x64x64 .f32)) shapeCasts_S1x1x64x64_S64x64 : FVec Ideal S64x64 .f32) := by
  after_results <;> rfl

/-- One parameter vector out of the stacked parameters, as a one-row matrix. -/
theorem host15_main_v246 (W : Valuation τ sig (Elt Ideal)) :
    StableHlo.after (hostOps15 (F := Ideal)) W (Proc.devRef .tc main_v246)
      = (shapeCast S1x64 ((shapeCast S64 ((extractStridedSlice S1x64 ![1, 0] ((W (Proc.devRef .tc main_arg8) : FVec Ideal S2x64 .f32)) slices_S2x64_S1x64_1_0 : FVec Ideal S1x64 .f32)) shapeCasts_S1x64_S64 : FVec Ideal S64 .f32)) shapeCasts_S64_S1x64 : FVec Ideal S1x64 .f32) := by
  after_results <;> rfl

/-- One parameter vector out of the stacked parameters, as a one-row matrix. -/
theorem host15_main_v247 (W : Valuation τ sig (Elt Ideal)) :
    StableHlo.after (hostOps15 (F := Ideal)) W (Proc.devRef .tc main_v247)
      = (shapeCast S1x64 ((shapeCast S64 ((extractStridedSlice S1x64 ![1, 0] ((W (Proc.devRef .tc main_arg9) : FVec Ideal S2x64 .f32)) slices_S2x64_S1x64_1_0 : FVec Ideal S1x64 .f32)) shapeCasts_S1x64_S64 : FVec Ideal S64 .f32)) shapeCasts_S64_S1x64 : FVec Ideal S1x64 .f32) := by
  after_results <;> rfl

/-- One parameter vector out of the stacked parameters, as a one-row matrix. -/
theorem host15_main_v248 (W : Valuation τ sig (Elt Ideal)) :
    StableHlo.after (hostOps15 (F := Ideal)) W (Proc.devRef .tc main_v248)
      = (shapeCast S1x64 ((shapeCast S64 ((extractStridedSlice S1x1x64 ![1, 0, 0] ((W (Proc.devRef .tc main_arg13) : FVec Ideal S2x5x64 .f32)) slices_S2x5x64_S1x1x64_1_0_0 : FVec Ideal S1x1x64 .f32)) shapeCasts_S1x1x64_S64 : FVec Ideal S64 .f32)) shapeCasts_S64_S1x64 : FVec Ideal S1x64 .f32) := by
  after_results <;> rfl

/-- A buffer no operation of the stretch writes is unchanged by it. -/
theorem host15_kept (W : Valuation τ sig (Elt Ideal)) (b : Ref sig .tc)
    (hb : Proc.devRef .tc b ∉ ({Proc.devRef .tc main_v238, Proc.devRef .tc main_v239, Proc.devRef .tc main_v240, Proc.devRef .tc main_v241, Proc.devRef .tc main_v242, Proc.devRef .tc main_v243, Proc.devRef .tc main_v244, Proc.devRef .tc main_v245, Proc.devRef .tc main_v246, Proc.devRef .tc main_v247, Proc.devRef .tc main_v248} : Finset (DevRef τ sig))) :
    StableHlo.after (hostOps15 (F := Ideal)) W (no_index (Proc.devRef .tc b)) = W (Proc.devRef .tc b) := by
  refine StableHlo.after_of_forall_not_mem _ _ (List.forall_iff_forall_mem.mp ?_)
  simp only [hostOps15, List.Forall, StableHlo.nullary_writes, StableHlo.unary_writes, StableHlo.binary_writes, StableHlo.ternary_writes, StableHlo.reshape_writes, Finset.mem_singleton]
  simpa only [Finset.mem_insert, Finset.mem_singleton, not_or] using hb

end Cert.KernelIdeal.HV

end
-- ==== Proof.Spec.lean ====
/-
  The layers of a two-type graph network as whole-array functions on the extended reals, entry by entry, for any
  extents: an affine map with a [1, M] bias row; the accumulating tap z + c·w + b; the batch-norm of a column
  followed by the leaky rectifier, with its four per-column parameters given as [1, M] rows; the mean and the
  (biased) variance of every column as [1, M] rows, over the host's column sum kept as one function. Every matrix
  product is the plain finite sum over the contracted coordinate.
-/
import Idealize.ShloMosaic.PureOps.Ideal
import Idealize.ShloMosaic.Lib.ValueIdx

noncomputable section

namespace Cert.Hgcn

open Idealize.ShloMosaic Idealize.ShloMosaic.ValueIdx

variable {R K M : ℕ}

/-- An R×M array of extended reals. -/
abbrev Mat (R M : ℕ) := FVec Ideal ⟨2, ![R, M]⟩ .f32

/-- The affine map: entry (p, q) is Σ_k x(p,k)·w(k,q) + b(0,q). -/
def lin (x : Mat R K) (w : Mat K M) (b : Mat 1 M) : Mat R M :=
  fun j => (∑ k : Fin K, x (ix2 (j 0) k) * w (ix2 k (j 1))) + b (ix2 (0 : Fin 1) (j 1))

theorem lin_apply (x : Mat R K) (w : Mat K M) (b : Mat 1 M) (p : Fin R) (q : Fin M) :
    lin x w b (ix2 p q) = (∑ k : Fin K, x (ix2 p k) * w (ix2 k q)) + b (ix2 (0 : Fin 1) q) := rfl

/-- The accumulating tap: entry (p, q) is (z(p,q) + Σ_k c(p,k)·w(k,q)) + b(0,q). -/
def tapAcc (z : Mat R M) (c : Mat R K) (w : Mat K M) (b : Mat 1 M) : Mat R M :=
  fun j => (z j + ∑ k : Fin K, c (ix2 (j 0) k) * w (ix2 k (j 1))) + b (ix2 (0 : Fin 1) (j 1))

theorem tapAcc_apply (z : Mat R M) (c : Mat R K) (w : Mat K M) (b : Mat 1 M) (p : Fin R) (q : Fin M) :
    tapAcc z c w b (ix2 p q) = (z (ix2 p q) + ∑ k : Fin K, c (ix2 p k) * w (ix2 k q)) + b (ix2 (0 : Fin 1) q) := rfl

/-- The leaky rectifier of one entry: y where y ≥ 0, else 0.01·y (the slope's and the zero's binary words). -/
def lrelu (y : EReal) : EReal :=
  Scalar.select (FloatOps.cmpf (F := Ideal) .oge y (Ideal.ofBits .f32 0x00000000#32)) y (Ideal.ofBits .f32 0x3C23D70A#32 * y)

/-- One entry normalised by its column's mean and variance, scaled and shifted: ((x − μ)·(σ² + ε)^(-1/2))·γ + β. -/
def bnEntry (x μ v γ β : EReal) : EReal :=
  ((x - μ) * Ideal.rsqrt (v + Ideal.ofBits .f32 0x3727C5AC#32)) * γ + β

/-- Batch-norm then the leaky rectifier, the four per-column parameters as [1, M] rows. -/
def bnAct (x : Mat R M) (γ β μ v : Mat 1 M) : Mat R M :=
  fun j => lrelu (bnEntry (x j) (μ (ix2 (0 : Fin 1) (j 1))) (v (ix2 (0 : Fin 1) (j 1))) (γ (ix2 (0 : Fin 1) (j 1))) (β (ix2 (0 : Fin 1) (j 1))))

theorem bnAct_apply (x : Mat R M) (γ β μ v : Mat 1 M) (p : Fin R) (q : Fin M) :
    bnAct x γ β μ v (ix2 p q) = lrelu (bnEntry (x (ix2 p q)) (μ (ix2 (0 : Fin 1) q)) (v (ix2 (0 : Fin 1) q)) (γ (ix2 (0 : Fin 1) q)) (β (ix2 (0 : Fin 1) q))) := rfl

/-- The host's sum of every column (the reduction of axis 0 from zero), kept as one function of the array. -/
def colSum (hr : (⟨2, ![R, M]⟩ : Shape).ReducesTo [0] ⟨1, ![M]⟩) (h0 : 0 < (⟨0, ![]⟩ : Shape).numel) (x : Mat R M) : FVec Ideal ⟨1, ![M]⟩ .f32 :=
  Host.reduceAdd (F := Ideal) x (constant (F := Ideal) ⟨0, ![]⟩ .f32 0x00000000#32) hr h0

/-- The mean of every column as a [1, M] row: the column sum divided by the row count's binary word cN. -/
def meanRow (hr : (⟨2, ![R, M]⟩ : Shape).ReducesTo [0] ⟨1, ![M]⟩) (h0 : 0 < (⟨0, ![]⟩ : Shape).numel) (cN : BitVec 32) (x : Mat R M) : Mat 1 M :=
  fun j => Ideal.div (colSum hr h0 x (ix1 (j 1))) (Ideal.ofBits .f32 cN)

/-- Every entry minus its column's mean, squared. -/
def centredSq (x : Mat R M) (μ : Mat 1 M) : Mat R M :=
  fun j => (x j - μ (ix2 (0 : Fin 1) (j 1))) * (x j - μ (ix2 (0 : Fin 1) (j 1)))

/-- The count the variance divides by: the row count minus the (zero) correction, as the host computes it. -/
def varDen (cN : BitVec 32) : EReal := Ideal.ofBits .f32 cN - FloatOps.sitofp (F := Ideal) .f32 (0#32)

/-- The biased variance of every column as a [1, M] row: the column sum of the centred squares over the count, where
    the count is positive (else the host's not-a-number word). -/
def varRow (hr : (⟨2, ![R, M]⟩ : Shape).ReducesTo [0] ⟨1, ![M]⟩) (h0 : 0 < (⟨0, ![]⟩ : Shape).numel) (cN : BitVec 32) (x : Mat R M) : Mat 1 M :=
  fun j => Scalar.select (FloatOps.cmpf (F := Ideal) .ogt (varDen cN) (Ideal.ofBits .f32 0x00000000#32))
    (Ideal.div (colSum hr h0 (centredSq x (meanRow hr h0 cN x)) (ix1 (j 1))) (varDen cN)) (Ideal.ofBits .f32 0x7FC00000#32)

end Cert.Hgcn

end
-- ==== Proof.KHostStat.lean ====
/-
  The batch-norm statistics the host computes between regions, as the specification's rows: the mean of every
  column is the column sum over the row count, and the biased variance is the column sum of the centred squares
  over the count less a correction that is the integer zero. Three lemmas read the host's composed terms entry by
  entry, for any extents; each stretch's result is then one of them at the stretch's own array.
-/
import proofs.«144873_j21182778704707_1_alg».proof.Proof.Gen.KernelIdeal.Launch
import proofs.«144873_j21182778704707_1_alg».proof.Proof.Spec
import Idealize.ShloMosaic.Lib.IdealHost
import Idealize.ShloMosaic.Lib.KernelVsHost
import Idealize.ShloMosaic.Lib.Pipeline.Value

set_option maxRecDepth 16384

noncomputable section

namespace Cert.KernelIdeal.HV

open Cert.KernelIdeal Cert.KernelIdeal.Gen
open Idealize.ShloMosaic Idealize.ShloMosaic.TcCoe

section Stat

open Idealize.ShloMosaic.ValueIdx Cert.Hgcn

variable {R M : ℕ}

/-- A vector laid as the one row of a [1, n] matrix reads, at (0, q), its entry q. -/
theorem bcastRow_apply {α : Type} {n : Nat} (h : (⟨1, ![n]⟩ : Shape).BroadcastsInDim ⟨2, ![1, n]⟩ ![1])
    (x : (⟨1, ![n]⟩ : Shape).Idx → α) (j : (⟨2, ![1, n]⟩ : Shape).Idx) :
    broadcastInDim ⟨2, ![1, n]⟩ ![1] h x j = x (ix1 (j 1 : Fin n)) := by
  refine broadcastInDim_apply ![1] h x j (ix1 (j 1 : Fin n)) ?_
  intro a
  match a with
  | ⟨0, _⟩ =>
    show (j 1).val = if n = 1 then 0 else (j 1).val
    split
    · have := (j 1).isLt; have e : (j 1).val < n := this; omega
    · rfl

/-- The host's mean of every column — the column sum laid as a row, over the row count laid as a row — is the
    specification's mean row. -/
theorem meanTerm_eq (hr : (⟨2, ![R, M]⟩ : Shape).ReducesTo [0] ⟨1, ![M]⟩) (h0 : 0 < (⟨0, ![]⟩ : Shape).numel)
    (hb1 : (⟨1, ![M]⟩ : Shape).BroadcastsInDim ⟨2, ![1, M]⟩ ![1]) (hb0 : (⟨0, ![]⟩ : Shape).BroadcastsInDim ⟨2, ![1, M]⟩ ![])
    (cN : BitVec 32) (x : Mat R M) :
    Host.divf (F := Ideal)
        (broadcastInDim ⟨2, ![1, M]⟩ ![1] hb1 (Host.reduceAdd (F := Ideal) x (constant (F := Ideal) ⟨0, ![]⟩ .f32 0x00000000#32) hr h0))
        (broadcastInDim ⟨2, ![1, M]⟩ ![] hb0 (constant (F := Ideal) ⟨0, ![]⟩ .f32 cN))
      = meanRow hr h0 cN x := by
  funext j
  rw [hostDivf_apply, bcastRow_apply, broadcastInDim_scalar_apply, constant_apply]
  rfl

/-- The centred squares as the host computes them — the array minus the mean row laid down every row, times itself —
    are the specification's. -/
theorem centredTerm_eq (hbc : (⟨2, ![1, M]⟩ : Shape).BroadcastsInDim ⟨2, ![R, M]⟩ ![0, 1]) (x : Mat R M) (μ : Mat 1 M) :
    mulf (subf x (broadcastInDim ⟨2, ![R, M]⟩ ![0, 1] hbc μ)) (subf x (broadcastInDim ⟨2, ![R, M]⟩ ![0, 1] hbc μ))
      = centredSq x μ := by
  funext i
  obtain ⟨p, q, rfl⟩ : ∃ (p : Fin R) (q : Fin M), i = ix2 p q := ⟨i 0, i 1, eq_ix2 i⟩
  rw [mulf_apply, subf_apply, broadcastInDim_oneRow_apply]
  rfl

/-- The host's biased variance of every column is the specification's variance row. -/
theorem varTerm_eq (hr : (⟨2, ![R, M]⟩ : Shape).ReducesTo [0] ⟨1, ![M]⟩) (h0 : 0 < (⟨0, ![]⟩ : Shape).numel)
    (hb1 : (⟨1, ![M]⟩ : Shape).BroadcastsInDim ⟨2, ![1, M]⟩ ![1]) (hb0 : (⟨0, ![]⟩ : Shape).BroadcastsInDim ⟨2, ![1, M]⟩ ![])
    (hbc : (⟨2, ![1, M]⟩ : Shape).BroadcastsInDim ⟨2, ![R, M]⟩ ![0, 1])
    (cN : BitVec 32) (x : Mat R M) :
    select
        (broadcastInDim ⟨2, ![1, M]⟩ ![] hb0
          (cmpf (F := Ideal) .ogt
            (subf (constant (F := Ideal) ⟨0, ![]⟩ .f32 cN) (sitofp (F := Ideal) .f32 (constantI ⟨0, ![]⟩ 32 0#32)))
            (constant (F := Ideal) ⟨0, ![]⟩ .f32 0x00000000#32)))
        (Host.divf (F := Ideal)
          (broadcastInDim ⟨2, ![1, M]⟩ ![1] hb1
            (Host.reduceAdd (F := Ideal)
              (mulf (subf x (broadcastInDim ⟨2, ![R, M]⟩ ![0, 1] hbc (meanRow hr h0 cN x)))
                    (subf x (broadcastInDim ⟨2, ![R, M]⟩ ![0, 1] hbc (meanRow hr h0 cN x))))
              (constant (F := Ideal) ⟨0, ![]⟩ .f32 0x00000000#32) hr h0))
          (broadcastInDim ⟨2, ![1, M]⟩ ![] hb0
            (subf (constant (F := Ideal) ⟨0, ![]⟩ .f32 cN) (sitofp (F := Ideal) .f32 (constantI ⟨0, ![]⟩ 32 0#32)))))
        (broadcastInDim ⟨2, ![1, M]⟩ ![] hb0 (constant (F := Ideal) ⟨0, ![]⟩ .f32 0x7FC00000#32))
      = varRow hr h0 cN x := by
  rw [centredTerm_eq]
  funext j
  rw [select_apply, broadcastInDim_scalar_apply, broadcastInDim_scalar_apply, hostDivf_apply, bcastRow_apply,
    broadcastInDim_scalar_apply]
  rfl

end Stat
/-- The mean of every column, as the specification's mean row. -/
theorem host2_main_v11 (W : Valuation τ sig (Elt Ideal)) :
    StableHlo.after (hostOps2 (F := Ideal)) W (Proc.devRef .tc main_v11)
      = Cert.Hgcn.meanRow reducesTo_S131072x64_S64_d0 h_S_ 0x48000000#32 (W (Proc.devRef .tc main_v5)) := by
  after_results
  exact meanTerm_eq reducesTo_S131072x64_S64_d0 h_S_ bcast_S64_S1x64_1 bcast_S_S1x64 0x48000000#32 (W (Proc.devRef .tc main_v5))

/-- The variance's correction: the integer zero. -/
theorem host2_main_c (W : Valuation τ sig (Elt Ideal)) :
    StableHlo.after (hostOps2 (F := Ideal)) W (Proc.devRef .tc main_c) = constantI S_ 32 0#32 := by
  after_results

/-- A buffer no operation of the stretch writes is unchanged by it. -/
theorem host2_kept (W : Valuation τ sig (Elt Ideal)) (b : Ref sig .tc)
    (hb : Proc.devRef .tc b ∉ ({Proc.devRef .tc main_cst, Proc.devRef .tc main_v8, Proc.devRef .tc main_v9, Proc.devRef .tc main_cst_0, Proc.devRef .tc main_v10, Proc.devRef .tc main_v11, Proc.devRef .tc main_c} : Finset (DevRef τ sig))) :
    StableHlo.after (hostOps2 (F := Ideal)) W (no_index (Proc.devRef .tc b)) = W (Proc.devRef .tc b) := by
  refine StableHlo.after_of_forall_not_mem _ _ (List.forall_iff_forall_mem.mp ?_)
  simp only [hostOps2, List.Forall, StableHlo.nullary_writes, StableHlo.unary_writes, StableHlo.binary_writes, StableHlo.ternary_writes, StableHlo.reshape_writes, Finset.mem_singleton]
  simpa only [Finset.mem_insert, Finset.mem_singleton, not_or] using hb

/-- The biased variance of every column, as the specification's variance row (the correction being zero). -/
theorem host2_1_main_v12 (W : Valuation τ sig (Elt Ideal)) (hc : W (Proc.devRef .tc main_c) = constantI S_ 32 0#32) :
    StableHlo.after (hostOps2_1 (F := Ideal)) W (Proc.devRef .tc main_v12)
      = Cert.Hgcn.varRow reducesTo_S131072x64_S64_d0 h_S_ 0x48000000#32 (W (Proc.devRef .tc main_v5)) := by
  have e : StableHlo.after (hostOps2_1 (F := Ideal)) W (Proc.devRef .tc main_v12)
      = (select (broadcastInDim S1x64 ![] bcast_S_S1x64 ((cmpf (F := Ideal) .ogt ((subf (F := Ideal) ((constant (F := Ideal) S_ .f32 0x48000000#32 : FVec Ideal S_ .f32)) ((sitofp (F := Ideal) .f32 ((W (Proc.devRef .tc main_c) : IVec S_ 32)) : FVec Ideal S_ .f32)) : FVec Ideal S_ .f32)) ((constant (F := Ideal) S_ .f32 0x00000000#32 : FVec Ideal S_ .f32)) : IVec S_ 1))) ((Host.divf (F := Ideal) ((broadcastInDim S1x64 ![1] bcast_S64_S1x64_1 ((Host.reduceAdd (F := Ideal) ((mulf (F := Ideal) ((subf (F := Ideal) ((W (Proc.devRef .tc main_v5) : FVec Ideal S131072x64 .f32)) ((broadcastInDim S131072x64 ![0, 1] bcast_S1x64_S131072x64_0_1 ((Host.divf (F := Ideal) ((broadcastInDim S1x64 ![1] bcast_S64_S1x64_1 ((Host.reduceAdd (F := Ideal) ((W (Proc.devRef .tc main_v5) : FVec Ideal S131072x64 .f32)) ((constant (F := Ideal) S_ .f32 0x00000000#32 : FVec Ideal S_ .f32)) reducesTo_S131072x64_S64_d0 h_S_ : FVec Ideal S64 .f32)) : FVec Ideal S1x64 .f32)) ((broadcastInDim S1x64 ![] bcast_S_S1x64 ((constant (F := Ideal) S_ .f32 0x48000000#32 : FVec Ideal S_ .f32)) : FVec Ideal S1x64 .f32)) : FVec Ideal S1x64 .f32)) : FVec Ideal S131072x64 .f32)) : FVec Ideal S131072x64 .f32)) ((subf (F := Ideal) ((W (Proc.devRef .tc main_v5) : FVec Ideal S131072x64 .f32)) ((broadcastInDim S131072x64 ![0, 1] bcast_S1x64_S131072x64_0_1 ((Host.divf (F := Ideal) ((broadcastInDim S1x64 ![1] bcast_S64_S1x64_1 ((Host.reduceAdd (F := Ideal) ((W (Proc.devRef .tc main_v5) : FVec Ideal S131072x64 .f32)) ((constant (F := Ideal) S_ .f32 0x00000000#32 : FVec Ideal S_ .f32)) reducesTo_S131072x64_S64_d0 h_S_ : FVec Ideal S64 .f32)) : FVec Ideal S1x64 .f32)) ((broadcastInDim S1x64 ![] bcast_S_S1x64 ((constant (F := Ideal) S_ .f32 0x48000000#32 : FVec Ideal S_ .f32)) : FVec Ideal S1x64 .f32)) : FVec Ideal S1x64 .f32)) : FVec Ideal S131072x64 .f32)) : FVec Ideal S131072x64 .f32)) : FVec Ideal S131072x64 .f32)) ((constant (F := Ideal) S_ .f32 0x00000000#32 : FVec Ideal S_ .f32)) reducesTo_S131072x64_S64_d0 h_S_ : FVec Ideal S64 .f32)) : FVec Ideal S1x64 .f32)) ((broadcastInDim S1x64 ![] bcast_S_S1x64 ((subf (F := Ideal) ((constant (F := Ideal) S_ .f32 0x48000000#32 : FVec Ideal S_ .f32)) ((sitofp (F := Ideal) .f32 ((W (Proc.devRef .tc main_c) : IVec S_ 32)) : FVec Ideal S_ .f32)) : FVec Ideal S_ .f32)) : FVec Ideal S1x64 .f32)) : FVec Ideal S1x64 .f32)) ((broadcastInDim S1x64 ![] bcast_S_S1x64 ((constant (F := Ideal) S_ .f32 0x7FC00000#32 : FVec Ideal S_ .f32)) : FVec Ideal S1x64 .f32)) : FVec Ideal S1x64 .f32) := by
    after_results_simp
    rfl
  rw [e, hc, meanTerm_eq]
  exact varTerm_eq reducesTo_S131072x64_S64_d0 h_S_ bcast_S64_S1x64_1 bcast_S_S1x64 bcast_S1x64_S131072x64_0_1 0x48000000#32 (W (Proc.devRef .tc main_v5))

/-- A buffer no operation of the stretch writes is unchanged by it. -/
theorem host2_1_kept (W : Valuation τ sig (Elt Ideal)) (b : Ref sig .tc)
    (hb : Proc.devRef .tc b ∉ ({Proc.devRef .tc main_call0_cst, Proc.devRef .tc main_call0_v0, Proc.devRef .tc main_call0_v1, Proc.devRef .tc main_call0_cst_0, Proc.devRef .tc main_call0_v2, Proc.devRef .tc main_call0_v3, Proc.devRef .tc main_call0_v4, Proc.devRef .tc main_call0_v5, Proc.devRef .tc main_call0_v6, Proc.devRef .tc main_call0_v7, Proc.devRef .tc main_call0_cst_1, Proc.devRef .tc main_call0_v8, Proc.devRef .tc main_call0_cst_2, Proc.devRef .tc main_call0_v9, Proc.devRef .tc main_call0_v10, Proc.devRef .tc main_call0_v11, Proc.devRef .tc main_call0_v12, Proc.devRef .tc main_call0_cst_3, Proc.devRef .tc main_call0_v13, Proc.devRef .tc main_call0_cst_4, Proc.devRef .tc main_call0_call0_v0, Proc.devRef .tc main_call0_call0_v1, Proc.devRef .tc main_v12} : Finset (DevRef τ sig))) :
    StableHlo.after (hostOps2_1 (F := Ideal)) W (no_index (Proc.devRef .tc b)) = W (Proc.devRef .tc b) := by
  refine StableHlo.after_of_forall_not_mem _ _ (List.forall_iff_forall_mem.mp ?_)
  simp only [hostOps2_1, List.Forall, StableHlo.nullary_writes, StableHlo.unary_writes, StableHlo.binary_writes, StableHlo.ternary_writes, StableHlo.reshape_writes, Finset.mem_singleton]
  simpa only [Finset.mem_insert, Finset.mem_singleton, not_or] using hb

/-- The mean of every column, as the specification's mean row. -/
theorem host2_2_main_v16 (W : Valuation τ sig (Elt Ideal)) :
    StableHlo.after (hostOps2_2 (F := Ideal)) W (Proc.devRef .tc main_v16)
      = Cert.Hgcn.meanRow reducesTo_S32768x64_S64_d0 h_S_ 0x47000000#32 (W (Proc.devRef .tc main_v7)) := by
  after_results
  exact meanTerm_eq reducesTo_S32768x64_S64_d0 h_S_ bcast_S64_S1x64_1 bcast_S_S1x64 0x47000000#32 (W (Proc.devRef .tc main_v7))

/-- The variance's correction: the integer zero. -/
theorem host2_2_main_c_3 (W : Valuation τ sig (Elt Ideal)) :
    StableHlo.after (hostOps2_2 (F := Ideal)) W (Proc.devRef .tc main_c_3) = constantI S_ 32 0#32 := by
  after_results

/-- A buffer no operation of the stretch writes is unchanged by it. -/
theorem host2_2_kept (W : Valuation τ sig (Elt Ideal)) (b : Ref sig .tc)
    (hb : Proc.devRef .tc b ∉ ({Proc.devRef .tc main_cst_1, Proc.devRef .tc main_v13, Proc.devRef .tc main_v14, Proc.devRef .tc main_cst_2, Proc.devRef .tc main_v15, Proc.devRef .tc main_v16, Proc.devRef .tc main_c_3} : Finset (DevRef τ sig))) :
    StableHlo.after (hostOps2_2 (F := Ideal)) W (no_index (Proc.devRef .tc b)) = W (Proc.devRef .tc b) := by
  refine StableHlo.after_of_forall_not_mem _ _ (List.forall_iff_forall_mem.mp ?_)
  simp only [hostOps2_2, List.Forall, StableHlo.nullary_writes, StableHlo.unary_writes, StableHlo.binary_writes, StableHlo.ternary_writes, StableHlo.reshape_writes, Finset.mem_singleton]
  simpa only [Finset.mem_insert, Finset.mem_singleton, not_or] using hb

/-- The biased variance of every column, as the specification's variance row (the correction being zero). -/
theorem host2_3_main_v17 (W : Valuation τ sig (Elt Ideal)) (hc : W (Proc.devRef .tc main_c_3) = constantI S_ 32 0#32) :
    StableHlo.after (hostOps2_3 (F := Ideal)) W (Proc.devRef .tc main_v17)
      = Cert.Hgcn.varRow reducesTo_S32768x64_S64_d0 h_S_ 0x47000000#32 (W (Proc.devRef .tc main_v7)) := by
  have e : StableHlo.after (hostOps2_3 (F := Ideal)) W (Proc.devRef .tc main_v17)
      = (select (broadcastInDim S1x64 ![] bcast_S_S1x64 ((cmpf (F := Ideal) .ogt ((subf (F := Ideal) ((constant (F := Ideal) S_ .f32 0x47000000#32 : FVec Ideal S_ .f32)) ((sitofp (F := Ideal) .f32 ((W (Proc.devRef .tc main_c_3) : IVec S_ 32)) : FVec Ideal S_ .f32)) : FVec Ideal S_ .f32)) ((constant (F := Ideal) S_ .f32 0x00000000#32 : FVec Ideal S_ .f32)) : IVec S_ 1))) ((Host.divf (F := Ideal) ((broadcastInDim S1x64 ![1] bcast_S64_S1x64_1 ((Host.reduceAdd (F := Ideal) ((mulf (F := Ideal) ((subf (F := Ideal) ((W (Proc.devRef .tc main_v7) : FVec Ideal S32768x64 .f32)) ((broadcastInDim S32768x64 ![0, 1] bcast_S1x64_S32768x64_0_1 ((Host.divf (F := Ideal) ((broadcastInDim S1x64 ![1] bcast_S64_S1x64_1 ((Host.reduceAdd (F := Ideal) ((W (Proc.devRef .tc main_v7) : FVec Ideal S32768x64 .f32)) ((constant (F := Ideal) S_ .f32 0x00000000#32 : FVec Ideal S_ .f32)) reducesTo_S32768x64_S64_d0 h_S_ : FVec Ideal S64 .f32)) : FVec Ideal S1x64 .f32)) ((broadcastInDim S1x64 ![] bcast_S_S1x64 ((constant (F := Ideal) S_ .f32 0x47000000#32 : FVec Ideal S_ .f32)) : FVec Ideal S1x64 .f32)) : FVec Ideal S1x64 .f32)) : FVec Ideal S32768x64 .f32)) : FVec Ideal S32768x64 .f32)) ((subf (F := Ideal) ((W (Proc.devRef .tc main_v7) : FVec Ideal S32768x64 .f32)) ((broadcastInDim S32768x64 ![0, 1] bcast_S1x64_S32768x64_0_1 ((Host.divf (F := Ideal) ((broadcastInDim S1x64 ![1] bcast_S64_S1x64_1 ((Host.reduceAdd (F := Ideal) ((W (Proc.devRef .tc main_v7) : FVec Ideal S32768x64 .f32)) ((constant (F := Ideal) S_ .f32 0x00000000#32 : FVec Ideal S_ .f32)) reducesTo_S32768x64_S64_d0 h_S_ : FVec Ideal S64 .f32)) : FVec Ideal S1x64 .f32)) ((broadcastInDim S1x64 ![] bcast_S_S1x64 ((constant (F := Ideal) S_ .f32 0x47000000#32 : FVec Ideal S_ .f32)) : FVec Ideal S1x64 .f32)) : FVec Ideal S1x64 .f32)) : FVec Ideal S32768x64 .f32)) : FVec Ideal S32768x64 .f32)) : FVec Ideal S32768x64 .f32)) ((constant (F := Ideal) S_ .f32 0x00000000#32 : FVec Ideal S_ .f32)) reducesTo_S32768x64_S64_d0 h_S_ : FVec Ideal S64 .f32)) : FVec Ideal S1x64 .f32)) ((broadcastInDim S1x64 ![] bcast_S_S1x64 ((subf (F := Ideal) ((constant (F := Ideal) S_ .f32 0x47000000#32 : FVec Ideal S_ .f32)) ((sitofp (F := Ideal) .f32 ((W (Proc.devRef .tc main_c_3) : IVec S_ 32)) : FVec Ideal S_ .f32)) : FVec Ideal S_ .f32)) : FVec Ideal S1x64 .f32)) : FVec Ideal S1x64 .f32)) ((broadcastInDim S1x64 ![] bcast_S_S1x64 ((constant (F := Ideal) S_ .f32 0x7FC00000#32 : FVec Ideal S_ .f32)) : FVec Ideal S1x64 .f32)) : FVec Ideal S1x64 .f32) := by
    after_results_simp
    rfl
  rw [e, hc, meanTerm_eq]
  exact varTerm_eq reducesTo_S32768x64_S64_d0 h_S_ bcast_S64_S1x64_1 bcast_S_S1x64 bcast_S1x64_S32768x64_0_1 0x47000000#32 (W (Proc.devRef .tc main_v7))

/-- A buffer no operation of the stretch writes is unchanged by it. -/
theorem host2_3_kept (W : Valuation τ sig (Elt Ideal)) (b : Ref sig .tc)
    (hb : Proc.devRef .tc b ∉ ({Proc.devRef .tc main_call1_cst, Proc.devRef .tc main_call1_v0, Proc.devRef .tc main_call1_v1, Proc.devRef .tc main_call1_cst_0, Proc.devRef .tc main_call1_v2, Proc.devRef .tc main_call1_v3, Proc.devRef .tc main_call1_v4, Proc.devRef .tc main_call1_v5, Proc.devRef .tc main_call1_v6, Proc.devRef .tc main_call1_v7, Proc.devRef .tc main_call1_cst_1, Proc.devRef .tc main_call1_v8, Proc.devRef .tc main_call1_cst_2, Proc.devRef .tc main_call1_v9, Proc.devRef .tc main_call1_v10, Proc.devRef .tc main_call1_v11, Proc.devRef .tc main_call1_v12, Proc.devRef .tc main_call1_cst_3, Proc.devRef .tc main_call1_v13, Proc.devRef .tc main_call1_cst_4, Proc.devRef .tc main_call1_call0_v0, Proc.devRef .tc main_call1_call0_v1, Proc.devRef .tc main_v17} : Finset (DevRef τ sig))) :
    StableHlo.after (hostOps2_3 (F := Ideal)) W (no_index (Proc.devRef .tc b)) = W (Proc.devRef .tc b) := by
  refine StableHlo.after_of_forall_not_mem _ _ (List.forall_iff_forall_mem.mp ?_)
  simp only [hostOps2_3, List.Forall, StableHlo.nullary_writes, StableHlo.unary_writes, StableHlo.binary_writes, StableHlo.ternary_writes, StableHlo.reshape_writes, Finset.mem_singleton]
  simpa only [Finset.mem_insert, Finset.mem_singleton, not_or] using hb

/-- The mean of every column, as the specification's mean row. -/
theorem host14_main_v219 (W : Valuation τ sig (Elt Ideal)) :
    StableHlo.after (hostOps14 (F := Ideal)) W (Proc.devRef .tc main_v219)
      = Cert.Hgcn.meanRow reducesTo_S131072x64_S64_d0 h_S_ 0x48000000#32 (W (Proc.devRef .tc main_v214)) := by
  after_results
  exact meanTerm_eq reducesTo_S131072x64_S64_d0 h_S_ bcast_S64_S1x64_1 bcast_S_S1x64 0x48000000#32 (W (Proc.devRef .tc main_v214))

/-- The variance's correction: the integer zero. -/
theorem host14_main_c_42 (W : Valuation τ sig (Elt Ideal)) :
    StableHlo.after (hostOps14 (F := Ideal)) W (Proc.devRef .tc main_c_42) = constantI S_ 32 0#32 := by
  after_results

/-- A buffer no operation of the stretch writes is unchanged by it. -/
theorem host14_kept (W : Valuation τ sig (Elt Ideal)) (b : Ref sig .tc)
    (hb : Proc.devRef .tc b ∉ ({Proc.devRef .tc main_cst_40, Proc.devRef .tc main_v216, Proc.devRef .tc main_v217, Proc.devRef .tc main_cst_41, Proc.devRef .tc main_v218, Proc.devRef .tc main_v219, Proc.devRef .tc main_c_42} : Finset (DevRef τ sig))) :
    StableHlo.after (hostOps14 (F := Ideal)) W (no_index (Proc.devRef .tc b)) = W (Proc.devRef .tc b) := by
  refine StableHlo.after_of_forall_not_mem _ _ (List.forall_iff_forall_mem.mp ?_)
  simp only [hostOps14, List.Forall, StableHlo.nullary_writes, StableHlo.unary_writes, StableHlo.binary_writes, StableHlo.ternary_writes, StableHlo.reshape_writes, Finset.mem_singleton]
  simpa only [Finset.mem_insert, Finset.mem_singleton, not_or] using hb

/-- The biased variance of every column, as the specification's variance row (the correction being zero). -/
theorem host14_1_main_v220 (W : Valuation τ sig (Elt Ideal)) (hc : W (Proc.devRef .tc main_c_42) = constantI S_ 32 0#32) :
    StableHlo.after (hostOps14_1 (F := Ideal)) W (Proc.devRef .tc main_v220)
      = Cert.Hgcn.varRow reducesTo_S131072x64_S64_d0 h_S_ 0x48000000#32 (W (Proc.devRef .tc main_v214)) := by
  have e : StableHlo.after (hostOps14_1 (F := Ideal)) W (Proc.devRef .tc main_v220)
      = (select (broadcastInDim S1x64 ![] bcast_S_S1x64 ((cmpf (F := Ideal) .ogt ((subf (F := Ideal) ((constant (F := Ideal) S_ .f32 0x48000000#32 : FVec Ideal S_ .f32)) ((sitofp (F := Ideal) .f32 ((W (Proc.devRef .tc main_c_42) : IVec S_ 32)) : FVec Ideal S_ .f32)) : FVec Ideal S_ .f32)) ((constant (F := Ideal) S_ .f32 0x00000000#32 : FVec Ideal S_ .f32)) : IVec S_ 1))) ((Host.divf (F := Ideal) ((broadcastInDim S1x64 ![1] bcast_S64_S1x64_1 ((Host.reduceAdd (F := Ideal) ((mulf (F := Ideal) ((subf (F := Ideal) ((W (Proc.devRef .tc main_v214) : FVec Ideal S131072x64 .f32)) ((broadcastInDim S131072x64 ![0, 1] bcast_S1x64_S131072x64_0_1 ((Host.divf (F := Ideal) ((broadcastInDim S1x64 ![1] bcast_S64_S1x64_1 ((Host.reduceAdd (F := Ideal) ((W (Proc.devRef .tc main_v214) : FVec Ideal S131072x64 .f32)) ((constant (F := Ideal) S_ .f32 0x00000000#32 : FVec Ideal S_ .f32)) reducesTo_S131072x64_S64_d0 h_S_ : FVec Ideal S64 .f32)) : FVec Ideal S1x64 .f32)) ((broadcastInDim S1x64 ![] bcast_S_S1x64 ((constant (F := Ideal) S_ .f32 0x48000000#32 : FVec Ideal S_ .f32)) : FVec Ideal S1x64 .f32)) : FVec Ideal S1x64 .f32)) : FVec Ideal S131072x64 .f32)) : FVec Ideal S131072x64 .f32)) ((subf (F := Ideal) ((W (Proc.devRef .tc main_v214) : FVec Ideal S131072x64 .f32)) ((broadcastInDim S131072x64 ![0, 1] bcast_S1x64_S131072x64_0_1 ((Host.divf (F := Ideal) ((broadcastInDim S1x64 ![1] bcast_S64_S1x64_1 ((Host.reduceAdd (F := Ideal) ((W (Proc.devRef .tc main_v214) : FVec Ideal S131072x64 .f32)) ((constant (F := Ideal) S_ .f32 0x00000000#32 : FVec Ideal S_ .f32)) reducesTo_S131072x64_S64_d0 h_S_ : FVec Ideal S64 .f32)) : FVec Ideal S1x64 .f32)) ((broadcastInDim S1x64 ![] bcast_S_S1x64 ((constant (F := Ideal) S_ .f32 0x48000000#32 : FVec Ideal S_ .f32)) : FVec Ideal S1x64 .f32)) : FVec Ideal S1x64 .f32)) : FVec Ideal S131072x64 .f32)) : FVec Ideal S131072x64 .f32)) : FVec Ideal S131072x64 .f32)) ((constant (F := Ideal) S_ .f32 0x00000000#32 : FVec Ideal S_ .f32)) reducesTo_S131072x64_S64_d0 h_S_ : FVec Ideal S64 .f32)) : FVec Ideal S1x64 .f32)) ((broadcastInDim S1x64 ![] bcast_S_S1x64 ((subf (F := Ideal) ((constant (F := Ideal) S_ .f32 0x48000000#32 : FVec Ideal S_ .f32)) ((sitofp (F := Ideal) .f32 ((W (Proc.devRef .tc main_c_42) : IVec S_ 32)) : FVec Ideal S_ .f32)) : FVec Ideal S_ .f32)) : FVec Ideal S1x64 .f32)) : FVec Ideal S1x64 .f32)) ((broadcastInDim S1x64 ![] bcast_S_S1x64 ((constant (F := Ideal) S_ .f32 0x7FC00000#32 : FVec Ideal S_ .f32)) : FVec Ideal S1x64 .f32)) : FVec Ideal S1x64 .f32) := by
    after_results_simp
    rfl
  rw [e, hc, meanTerm_eq]
  exact varTerm_eq reducesTo_S131072x64_S64_d0 h_S_ bcast_S64_S1x64_1 bcast_S_S1x64 bcast_S1x64_S131072x64_0_1 0x48000000#32 (W (Proc.devRef .tc main_v214))

/-- A buffer no operation of the stretch writes is unchanged by it. -/
theorem host14_1_kept (W : Valuation τ sig (Elt Ideal)) (b : Ref sig .tc)
    (hb : Proc.devRef .tc b ∉ ({Proc.devRef .tc main_call2_cst, Proc.devRef .tc main_call2_v0, Proc.devRef .tc main_call2_v1, Proc.devRef .tc main_call2_cst_0, Proc.devRef .tc main_call2_v2, Proc.devRef .tc main_call2_v3, Proc.devRef .tc main_call2_v4, Proc.devRef .tc main_call2_v5, Proc.devRef .tc main_call2_v6, Proc.devRef .tc main_call2_v7, Proc.devRef .tc main_call2_cst_1, Proc.devRef .tc main_call2_v8, Proc.devRef .tc main_call2_cst_2, Proc.devRef .tc main_call2_v9, Proc.devRef .tc main_call2_v10, Proc.devRef .tc main_call2_v11, Proc.devRef .tc main_call2_v12, Proc.devRef .tc main_call2_cst_3, Proc.devRef .tc main_call2_v13, Proc.devRef .tc main_call2_cst_4, Proc.devRef .tc main_call2_call0_v0, Proc.devRef .tc main_call2_call0_v1, Proc.devRef .tc main_v220} : Finset (DevRef τ sig))) :
    StableHlo.after (hostOps14_1 (F := Ideal)) W (no_index (Proc.devRef .tc b)) = W (Proc.devRef .tc b) := by
  refine StableHlo.after_of_forall_not_mem _ _ (List.forall_iff_forall_mem.mp ?_)
  simp only [hostOps14_1, List.Forall, StableHlo.nullary_writes, StableHlo.unary_writes, StableHlo.binary_writes, StableHlo.ternary_writes, StableHlo.reshape_writes, Finset.mem_singleton]
  simpa only [Finset.mem_insert, Finset.mem_singleton, not_or] using hb

/-- The mean of every column, as the specification's mean row. -/
theorem host14_2_main_v224 (W : Valuation τ sig (Elt Ideal)) :
    StableHlo.after (hostOps14_2 (F := Ideal)) W (Proc.devRef .tc main_v224)
      = Cert.Hgcn.meanRow reducesTo_S32768x64_S64_d0 h_S_ 0x47000000#32 (W (Proc.devRef .tc main_v215)) := by
  after_results
  exact meanTerm_eq reducesTo_S32768x64_S64_d0 h_S_ bcast_S64_S1x64_1 bcast_S_S1x64 0x47000000#32 (W (Proc.devRef .tc main_v215))

/-- The variance's correction: the integer zero. -/
theorem host14_2_main_c_45 (W : Valuation τ sig (Elt Ideal)) :
    StableHlo.after (hostOps14_2 (F := Ideal)) W (Proc.devRef .tc main_c_45) = constantI S_ 32 0#32 := by
  after_results

/-- A buffer no operation of the stretch writes is unchanged by it. -/
theorem host14_2_kept (W : Valuation τ sig (Elt Ideal)) (b : Ref sig .tc)
    (hb : Proc.devRef .tc b ∉ ({Proc.devRef .tc main_cst_43, Proc.devRef .tc main_v221, Proc.devRef .tc main_v222, Proc.devRef .tc main_cst_44, Proc.devRef .tc main_v223, Proc.devRef .tc main_v224, Proc.devRef .tc main_c_45} : Finset (DevRef τ sig))) :
    StableHlo.after (hostOps14_2 (F := Ideal)) W (no_index (Proc.devRef .tc b)) = W (Proc.devRef .tc b) := by
  refine StableHlo.after_of_forall_not_mem _ _ (List.forall_iff_forall_mem.mp ?_)
  simp only [hostOps14_2, List.Forall, StableHlo.nullary_writes, StableHlo.unary_writes, StableHlo.binary_writes, StableHlo.ternary_writes, StableHlo.reshape_writes, Finset.mem_singleton]
  simpa only [Finset.mem_insert, Finset.mem_singleton, not_or] using hb

/-- The biased variance of every column, as the specification's variance row (the correction being zero). -/
theorem host14_3_main_v225 (W : Valuation τ sig (Elt Ideal)) (hc : W (Proc.devRef .tc main_c_45) = constantI S_ 32 0#32) :
    StableHlo.after (hostOps14_3 (F := Ideal)) W (Proc.devRef .tc main_v225)
      = Cert.Hgcn.varRow reducesTo_S32768x64_S64_d0 h_S_ 0x47000000#32 (W (Proc.devRef .tc main_v215)) := by
  have e : StableHlo.after (hostOps14_3 (F := Ideal)) W (Proc.devRef .tc main_v225)
      = (select (broadcastInDim S1x64 ![] bcast_S_S1x64 ((cmpf (F := Ideal) .ogt ((subf (F := Ideal) ((constant (F := Ideal) S_ .f32 0x47000000#32 : FVec Ideal S_ .f32)) ((sitofp (F := Ideal) .f32 ((W (Proc.devRef .tc main_c_45) : IVec S_ 32)) : FVec Ideal S_ .f32)) : FVec Ideal S_ .f32)) ((constant (F := Ideal) S_ .f32 0x00000000#32 : FVec Ideal S_ .f32)) : IVec S_ 1))) ((Host.divf (F := Ideal) ((broadcastInDim S1x64 ![1] bcast_S64_S1x64_1 ((Host.reduceAdd (F := Ideal) ((mulf (F := Ideal) ((subf (F := Ideal) ((W (Proc.devRef .tc main_v215) : FVec Ideal S32768x64 .f32)) ((broadcastInDim S32768x64 ![0, 1] bcast_S1x64_S32768x64_0_1 ((Host.divf (F := Ideal) ((broadcastInDim S1x64 ![1] bcast_S64_S1x64_1 ((Host.reduceAdd (F := Ideal) ((W (Proc.devRef .tc main_v215) : FVec Ideal S32768x64 .f32)) ((constant (F := Ideal) S_ .f32 0x00000000#32 : FVec Ideal S_ .f32)) reducesTo_S32768x64_S64_d0 h_S_ : FVec Ideal S64 .f32)) : FVec Ideal S1x64 .f32)) ((broadcastInDim S1x64 ![] bcast_S_S1x64 ((constant (F := Ideal) S_ .f32 0x47000000#32 : FVec Ideal S_ .f32)) : FVec Ideal S1x64 .f32)) : FVec Ideal S1x64 .f32)) : FVec Ideal S32768x64 .f32)) : FVec Ideal S32768x64 .f32)) ((subf (F := Ideal) ((W (Proc.devRef .tc main_v215) : FVec Ideal S32768x64 .f32)) ((broadcastInDim S32768x64 ![0, 1] bcast_S1x64_S32768x64_0_1 ((Host.divf (F := Ideal) ((broadcastInDim S1x64 ![1] bcast_S64_S1x64_1 ((Host.reduceAdd (F := Ideal) ((W (Proc.devRef .tc main_v215) : FVec Ideal S32768x64 .f32)) ((constant (F := Ideal) S_ .f32 0x00000000#32 : FVec Ideal S_ .f32)) reducesTo_S32768x64_S64_d0 h_S_ : FVec Ideal S64 .f32)) : FVec Ideal S1x64 .f32)) ((broadcastInDim S1x64 ![] bcast_S_S1x64 ((constant (F := Ideal) S_ .f32 0x47000000#32 : FVec Ideal S_ .f32)) : FVec Ideal S1x64 .f32)) : FVec Ideal S1x64 .f32)) : FVec Ideal S32768x64 .f32)) : FVec Ideal S32768x64 .f32)) : FVec Ideal S32768x64 .f32)) ((constant (F := Ideal) S_ .f32 0x00000000#32 : FVec Ideal S_ .f32)) reducesTo_S32768x64_S64_d0 h_S_ : FVec Ideal S64 .f32)) : FVec Ideal S1x64 .f32)) ((broadcastInDim S1x64 ![] bcast_S_S1x64 ((subf (F := Ideal) ((constant (F := Ideal) S_ .f32 0x47000000#32 : FVec Ideal S_ .f32)) ((sitofp (F := Ideal) .f32 ((W (Proc.devRef .tc main_c_45) : IVec S_ 32)) : FVec Ideal S_ .f32)) : FVec Ideal S_ .f32)) : FVec Ideal S1x64 .f32)) : FVec Ideal S1x64 .f32)) ((broadcastInDim S1x64 ![] bcast_S_S1x64 ((constant (F := Ideal) S_ .f32 0x7FC00000#32 : FVec Ideal S_ .f32)) : FVec Ideal S1x64 .f32)) : FVec Ideal S1x64 .f32) := by
    after_results_simp
    rfl
  rw [e, hc, meanTerm_eq]
  exact varTerm_eq reducesTo_S32768x64_S64_d0 h_S_ bcast_S64_S1x64_1 bcast_S_S1x64 bcast_S1x64_S32768x64_0_1 0x47000000#32 (W (Proc.devRef .tc main_v215))

/-- A buffer no operation of the stretch writes is unchanged by it. -/
theorem host14_3_kept (W : Valuation τ sig (Elt Ideal)) (b : Ref sig .tc)
    (hb : Proc.devRef .tc b ∉ ({Proc.devRef .tc main_call3_cst, Proc.devRef .tc main_call3_v0, Proc.devRef .tc main_call3_v1, Proc.devRef .tc main_call3_cst_0, Proc.devRef .tc main_call3_v2, Proc.devRef .tc main_call3_v3, Proc.devRef .tc main_call3_v4, Proc.devRef .tc main_call3_v5, Proc.devRef .tc main_call3_v6, Proc.devRef .tc main_call3_v7, Proc.devRef .tc main_call3_cst_1, Proc.devRef .tc main_call3_v8, Proc.devRef .tc main_call3_cst_2, Proc.devRef .tc main_call3_v9, Proc.devRef .tc main_call3_v10, Proc.devRef .tc main_call3_v11, Proc.devRef .tc main_call3_v12, Proc.devRef .tc main_call3_cst_3, Proc.devRef .tc main_call3_v13, Proc.devRef .tc main_call3_cst_4, Proc.devRef .tc main_call3_call0_v0, Proc.devRef .tc main_call3_call0_v1, Proc.devRef .tc main_v225} : Finset (DevRef τ sig))) :
    StableHlo.after (hostOps14_3 (F := Ideal)) W (no_index (Proc.devRef .tc b)) = W (Proc.devRef .tc b) := by
  refine StableHlo.after_of_forall_not_mem _ _ (List.forall_iff_forall_mem.mp ?_)
  simp only [hostOps14_3, List.Forall, StableHlo.nullary_writes, StableHlo.unary_writes, StableHlo.binary_writes, StableHlo.ternary_writes, StableHlo.reshape_writes, Finset.mem_singleton]
  simpa only [Finset.mem_insert, Finset.mem_singleton, not_or] using hb

end Cert.KernelIdeal.HV

end
-- ==== Proof.KHostTapGen.lean ====
/-
  The host operations before each generator-side tap, as functions of the contents at entry: the tap's weight
  matrix and bias row out of the stacked parameters, and the running sum copied as it stands.
-/
import proofs.«144873_j21182778704707_1_alg».proof.Proof.Gen.KernelIdeal.Launch
import Idealize.ShloMosaic.PureOps.Ideal

set_option maxRecDepth 16384

noncomputable section

namespace Cert.KernelIdeal.HV

open Cert.KernelIdeal Cert.KernelIdeal.Gen
open Idealize.ShloMosaic Idealize.ShloMosaic.TcCoe

/-- One weight matrix out of the stacked weights. -/
theorem host5_main_v80 (W : Valuation τ sig (Elt Ideal)) :
    StableHlo.after (hostOps5 (F := Ideal)) W (Proc.devRef .tc main_v80)
      = (shapeCast S64x64 ((extractStridedSlice S1x1x64x64 ![0, 1, 0, 0] ((W (Proc.devRef .tc main_arg12) : FVec Ideal S2x5x64x64 .f32)) slices_S2x5x64x64_S1x1x64x64_0_1_0_0 : FVec Ideal S1x1x64x64 .f32)) shapeCasts_S1x1x64x64_S64x64 : FVec Ideal S64x64 .f32) := by
  after_results <;> rfl

/-- One parameter vector out of the stacked parameters, as a one-row matrix. -/
theorem host5_main_v83 (W : Valuation τ sig (Elt Ideal)) :
    StableHlo.after (hostOps5 (F := Ideal)) W (Proc.devRef .tc main_v83)
      = (shapeCast S1x64 ((shapeCast S64 ((extractStridedSlice S1x1x64 ![0, 1, 0] ((W (Proc.devRef .tc main_arg13) : FVec Ideal S2x5x64 .f32)) slices_S2x5x64_S1x1x64_0_1_0 : FVec Ideal S1x1x64 .f32)) shapeCasts_S1x1x64_S64 : FVec Ideal S64 .f32)) shapeCasts_S64_S1x64 : FVec Ideal S1x64 .f32) := by
  after_results <;> rfl

/-- A reshape of the entry contents. -/
theorem host5_main_v84 (W : Valuation τ sig (Elt Ideal)) :
    StableHlo.after (hostOps5 (F := Ideal)) W (Proc.devRef .tc main_v84)
      = (W (Proc.devRef .tc main_v41_1) : FVec Ideal S32768x64 .f32) := by
  after_results <;> rfl

/-- A buffer no operation of the stretch writes is unchanged by it. -/
theorem host5_kept (W : Valuation τ sig (Elt Ideal)) (b : Ref sig .tc)
    (hb : Proc.devRef .tc b ∉ ({Proc.devRef .tc main_v79, Proc.devRef .tc main_v80, Proc.devRef .tc main_v81, Proc.devRef .tc main_v82, Proc.devRef .tc main_v83, Proc.devRef .tc main_v84} : Finset (DevRef τ sig))) :
    StableHlo.after (hostOps5 (F := Ideal)) W (no_index (Proc.devRef .tc b)) = W (Proc.devRef .tc b) := by
  refine StableHlo.after_of_forall_not_mem _ _ (List.forall_iff_forall_mem.mp ?_)
  simp only [hostOps5, List.Forall, StableHlo.nullary_writes, StableHlo.unary_writes, StableHlo.binary_writes, StableHlo.ternary_writes, StableHlo.reshape_writes, Finset.mem_singleton]
  simpa only [Finset.mem_insert, Finset.mem_singleton, not_or] using hb

/-- One weight matrix out of the stacked weights. -/
theorem host7_main_v123 (W : Valuation τ sig (Elt Ideal)) :
    StableHlo.after (hostOps7 (F := Ideal)) W (Proc.devRef .tc main_v123)
      = (shapeCast S64x64 ((extractStridedSlice S1x1x64x64 ![0, 2, 0, 0] ((W (Proc.devRef .tc main_arg12) : FVec Ideal S2x5x64x64 .f32)) slices_S2x5x64x64_S1x1x64x64_0_2_0_0 : FVec Ideal S1x1x64x64 .f32)) shapeCasts_S1x1x64x64_S64x64 : FVec Ideal S64x64 .f32) := by
  after_results <;> rfl

/-- One parameter vector out of the stacked parameters, as a one-row matrix. -/
theorem host7_main_v126 (W : Valuation τ sig (Elt Ideal)) :
    StableHlo.after (hostOps7 (F := Ideal)) W (Proc.devRef .tc main_v126)
      = (shapeCast S1x64 ((shapeCast S64 ((extractStridedSlice S1x1x64 ![0, 2, 0] ((W (Proc.devRef .tc main_arg13) : FVec Ideal S2x5x64 .f32)) slices_S2x5x64_S1x1x64_0_2_0 : FVec Ideal S1x1x64 .f32)) shapeCasts_S1x1x64_S64 : FVec Ideal S64 .f32)) shapeCasts_S64_S1x64 : FVec Ideal S1x64 .f32) := by
  after_results <;> rfl

/-- A reshape of the entry contents. -/
theorem host7_main_v127 (W : Valuation τ sig (Elt Ideal)) :
    StableHlo.after (hostOps7 (F := Ideal)) W (Proc.devRef .tc main_v127)
      = (W (Proc.devRef .tc main_v84) : FVec Ideal S32768x64 .f32) := by
  after_results <;> rfl

/-- A buffer no operation of the stretch writes is unchanged by it. -/
theorem host7_kept (W : Valuation τ sig (Elt Ideal)) (b : Ref sig .tc)
    (hb : Proc.devRef .tc b ∉ ({Proc.devRef .tc main_v122, Proc.devRef .tc main_v123, Proc.devRef .tc main_v124, Proc.devRef .tc main_v125, Proc.devRef .tc main_v126, Proc.devRef .tc main_v127} : Finset (DevRef τ sig))) :
    StableHlo.after (hostOps7 (F := Ideal)) W (no_index (Proc.devRef .tc b)) = W (Proc.devRef .tc b) := by
  refine StableHlo.after_of_forall_not_mem _ _ (List.forall_iff_forall_mem.mp ?_)
  simp only [hostOps7, List.Forall, StableHlo.nullary_writes, StableHlo.unary_writes, StableHlo.binary_writes, StableHlo.ternary_writes, StableHlo.reshape_writes, Finset.mem_singleton]
  simpa only [Finset.mem_insert, Finset.mem_singleton, not_or] using hb

/-- One weight matrix out of the stacked weights. -/
theorem host9_main_v166 (W : Valuation τ sig (Elt Ideal)) :
    StableHlo.after (hostOps9 (F := Ideal)) W (Proc.devRef .tc main_v166)
      = (shapeCast S64x64 ((extractStridedSlice S1x1x64x64 ![0, 3, 0, 0] ((W (Proc.devRef .tc main_arg12) : FVec Ideal S2x5x64x64 .f32)) slices_S2x5x64x64_S1x1x64x64_0_3_0_0 : FVec Ideal S1x1x64x64 .f32)) shapeCasts_S1x1x64x64_S64x64 : FVec Ideal S64x64 .f32) := by
  after_results <;> rfl

/-- One parameter vector out of the stacked parameters, as a one-row matrix. -/
theorem host9_main_v169 (W : Valuation τ sig (Elt Ideal)) :
    StableHlo.after (hostOps9 (F := Ideal)) W (Proc.devRef .tc main_v169)
      = (shapeCast S1x64 ((shapeCast S64 ((extractStridedSlice S1x1x64 ![0, 3, 0] ((W (Proc.devRef .tc main_arg13) : FVec Ideal S2x5x64 .f32)) slices_S2x5x64_S1x1x64_0_3_0 : FVec Ideal S1x1x64 .f32)) shapeCasts_S1x1x64_S64 : FVec Ideal S64 .f32)) shapeCasts_S64_S1x64 : FVec Ideal S1x64 .f32) := by
  after_results <;> rfl

/-- A reshape of the entry contents. -/
theorem host9_main_v170 (W : Valuation τ sig (Elt Ideal)) :
    StableHlo.after (hostOps9 (F := Ideal)) W (Proc.devRef .tc main_v170)
      = (W (Proc.devRef .tc main_v127) : FVec Ideal S32768x64 .f32) := by
  after_results <;> rfl

/-- A buffer no operation of the stretch writes is unchanged by it. -/
theorem host9_kept (W : Valuation τ sig (Elt Ideal)) (b : Ref sig .tc)
    (hb : Proc.devRef .tc b ∉ ({Proc.devRef .tc main_v165, Proc.devRef .tc main_v166, Proc.devRef .tc main_v167, Proc.devRef .tc main_v168, Proc.devRef .tc main_v169, Proc.devRef .tc main_v170} : Finset (DevRef τ sig))) :
    StableHlo.after (hostOps9 (F := Ideal)) W (no_index (Proc.devRef .tc b)) = W (Proc.devRef .tc b) := by
  refine StableHlo.after_of_forall_not_mem _ _ (List.forall_iff_forall_mem.mp ?_)
  simp only [hostOps9, List.Forall, StableHlo.nullary_writes, StableHlo.unary_writes, StableHlo.binary_writes, StableHlo.ternary_writes, StableHlo.reshape_writes, Finset.mem_singleton]
  simpa only [Finset.mem_insert, Finset.mem_singleton, not_or] using hb

/-- One weight matrix out of the stacked weights. -/
theorem host11_main_v209 (W : Valuation τ sig (Elt Ideal)) :
    StableHlo.after (hostOps11 (F := Ideal)) W (Proc.devRef .tc main_v209)
      = (shapeCast S64x64 ((extractStridedSlice S1x1x64x64 ![0, 4, 0, 0] ((W (Proc.devRef .tc main_arg12) : FVec Ideal S2x5x64x64 .f32)) slices_S2x5x64x64_S1x1x64x64_0_4_0_0 : FVec Ideal S1x1x64x64 .f32)) shapeCasts_S1x1x64x64_S64x64 : FVec Ideal S64x64 .f32) := by
  after_results <;> rfl

/-- One parameter vector out of the stacked parameters, as a one-row matrix. -/
theorem host11_main_v212 (W : Valuation τ sig (Elt Ideal)) :
    StableHlo.after (hostOps11 (F := Ideal)) W (Proc.devRef .tc main_v212)
      = (shapeCast S1x64 ((shapeCast S64 ((extractStridedSlice S1x1x64 ![0, 4, 0] ((W (Proc.devRef .tc main_arg13) : FVec Ideal S2x5x64 .f32)) slices_S2x5x64_S1x1x64_0_4_0 : FVec Ideal S1x1x64 .f32)) shapeCasts_S1x1x64_S64 : FVec Ideal S64 .f32)) shapeCasts_S64_S1x64 : FVec Ideal S1x64 .f32) := by
  after_results <;> rfl

/-- A reshape of the entry contents. -/
theorem host11_main_v213 (W : Valuation τ sig (Elt Ideal)) :
    StableHlo.after (hostOps11 (F := Ideal)) W (Proc.devRef .tc main_v213)
      = (W (Proc.devRef .tc main_v170) : FVec Ideal S32768x64 .f32) := by
  after_results <;> rfl

/-- A buffer no operation of the stretch writes is unchanged by it. -/
theorem host11_kept (W : Valuation τ sig (Elt Ideal)) (b : Ref sig .tc)
    (hb : Proc.devRef .tc b ∉ ({Proc.devRef .tc main_v208, Proc.devRef .tc main_v209, Proc.devRef .tc main_v210, Proc.devRef .tc main_v211, Proc.devRef .tc main_v212, Proc.devRef .tc main_v213} : Finset (DevRef τ sig))) :
    StableHlo.after (hostOps11 (F := Ideal)) W (no_index (Proc.devRef .tc b)) = W (Proc.devRef .tc b) := by
  refine StableHlo.after_of_forall_not_mem _ _ (List.forall_iff_forall_mem.mp ?_)
  simp only [hostOps11, List.Forall, StableHlo.nullary_writes, StableHlo.unary_writes, StableHlo.binary_writes, StableHlo.ternary_writes, StableHlo.reshape_writes, Finset.mem_singleton]
  simpa only [Finset.mem_insert, Finset.mem_singleton, not_or] using hb

/-- One weight matrix out of the stacked weights. -/
theorem host17_main_v288 (W : Valuation τ sig (Elt Ideal)) :
    StableHlo.after (hostOps17 (F := Ideal)) W (Proc.devRef .tc main_v288)
      = (shapeCast S64x64 ((extractStridedSlice S1x1x64x64 ![1, 1, 0, 0] ((W (Proc.devRef .tc main_arg12) : FVec Ideal S2x5x64x64 .f32)) slices_S2x5x64x64_S1x1x64x64_1_1_0_0 : FVec Ideal S1x1x64x64 .f32)) shapeCasts_S1x1x64x64_S64x64 : FVec Ideal S64x64 .f32) := by
  after_results <;> rfl

/-- One parameter vector out of the stacked parameters, as a one-row matrix. -/
theorem host17_main_v291 (W : Valuation τ sig (Elt Ideal)) :
    StableHlo.after (hostOps17 (F := Ideal)) W (Proc.devRef .tc main_v291)
      = (shapeCast S1x64 ((shapeCast S64 ((extractStridedSlice S1x1x64 ![1, 1, 0] ((W (Proc.devRef .tc main_arg13) : FVec Ideal S2x5x64 .f32)) slices_S2x5x64_S1x1x64_1_1_0 : FVec Ideal S1x1x64 .f32)) shapeCasts_S1x1x64_S64 : FVec Ideal S64 .f32)) shapeCasts_S64_S1x64 : FVec Ideal S1x64 .f32) := by
  after_results <;> rfl

/-- A reshape of the entry contents. -/
theorem host17_main_v292 (W : Valuation τ sig (Elt Ideal)) :
    StableHlo.after (hostOps17 (F := Ideal)) W (Proc.devRef .tc main_v292)
      = (W (Proc.devRef .tc main_v249_1) : FVec Ideal S32768x64 .f32) := by
  after_results <;> rfl

/-- A buffer no operation of the stretch writes is unchanged by it. -/
theorem host17_kept (W : Valuation τ sig (Elt Ideal)) (b : Ref sig .tc)
    (hb : Proc.devRef .tc b ∉ ({Proc.devRef .tc main_v287, Proc.devRef .tc main_v288, Proc.devRef .tc main_v289, Proc.devRef .tc main_v290, Proc.devRef .tc main_v291, Proc.devRef .tc main_v292} : Finset (DevRef τ sig))) :
    StableHlo.after (hostOps17 (F := Ideal)) W (no_index (Proc.devRef .tc b)) = W (Proc.devRef .tc b) := by
  refine StableHlo.after_of_forall_not_mem _ _ (List.forall_iff_forall_mem.mp ?_)
  simp only [hostOps17, List.Forall, StableHlo.nullary_writes, StableHlo.unary_writes, StableHlo.binary_writes, StableHlo.ternary_writes, StableHlo.reshape_writes, Finset.mem_singleton]
  simpa only [Finset.mem_insert, Finset.mem_singleton, not_or] using hb

/-- One weight matrix out of the stacked weights. -/
theorem host19_main_v331 (W : Valuation τ sig (Elt Ideal)) :
    StableHlo.after (hostOps19 (F := Ideal)) W (Proc.devRef .tc main_v331)
      = (shapeCast S64x64 ((extractStridedSlice S1x1x64x64 ![1, 2, 0, 0] ((W (Proc.devRef .tc main_arg12) : FVec Ideal S2x5x64x64 .f32)) slices_S2x5x64x64_S1x1x64x64_1_2_0_0 : FVec Ideal S1x1x64x64 .f32)) shapeCasts_S1x1x64x64_S64x64 : FVec Ideal S64x64 .f32) := by
  after_results <;> rfl

/-- One parameter vector out of the stacked parameters, as a one-row matrix. -/
theorem host19_main_v334 (W : Valuation τ sig (Elt Ideal)) :
    StableHlo.after (hostOps19 (F := Ideal)) W (Proc.devRef .tc main_v334)
      = (shapeCast S1x64 ((shapeCast S64 ((extractStridedSlice S1x1x64 ![1, 2, 0] ((W (Proc.devRef .tc main_arg13) : FVec Ideal S2x5x64 .f32)) slices_S2x5x64_S1x1x64_1_2_0 : FVec Ideal S1x1x64 .f32)) shapeCasts_S1x1x64_S64 : FVec Ideal S64 .f32)) shapeCasts_S64_S1x64 : FVec Ideal S1x64 .f32) := by
  after_results <;> rfl

/-- A reshape of the entry contents. -/
theorem host19_main_v335 (W : Valuation τ sig (Elt Ideal)) :
    StableHlo.after (hostOps19 (F := Ideal)) W (Proc.devRef .tc main_v335)
      = (W (Proc.devRef .tc main_v292) : FVec Ideal S32768x64 .f32) := by
  after_results <;> rfl

/-- A buffer no operation of the stretch writes is unchanged by it. -/
theorem host19_kept (W : Valuation τ sig (Elt Ideal)) (b : Ref sig .tc)
    (hb : Proc.devRef .tc b ∉ ({Proc.devRef .tc main_v330, Proc.devRef .tc main_v331, Proc.devRef .tc main_v332, Proc.devRef .tc main_v333, Proc.devRef .tc main_v334, Proc.devRef .tc main_v335} : Finset (DevRef τ sig))) :
    StableHlo.after (hostOps19 (F := Ideal)) W (no_index (Proc.devRef .tc b)) = W (Proc.devRef .tc b) := by
  refine StableHlo.after_of_forall_not_mem _ _ (List.forall_iff_forall_mem.mp ?_)
  simp only [hostOps19, List.Forall, StableHlo.nullary_writes, StableHlo.unary_writes, StableHlo.binary_writes, StableHlo.ternary_writes, StableHlo.reshape_writes, Finset.mem_singleton]
  simpa only [Finset.mem_insert, Finset.mem_singleton, not_or] using hb

/-- One weight matrix out of the stacked weights. -/
theorem host21_main_v374 (W : Valuation τ sig (Elt Ideal)) :
    StableHlo.after (hostOps21 (F := Ideal)) W (Proc.devRef .tc main_v374)
      = (shapeCast S64x64 ((extractStridedSlice S1x1x64x64 ![1, 3, 0, 0] ((W (Proc.devRef .tc main_arg12) : FVec Ideal S2x5x64x64 .f32)) slices_S2x5x64x64_S1x1x64x64_1_3_0_0 : FVec Ideal S1x1x64x64 .f32)) shapeCasts_S1x1x64x64_S64x64 : FVec Ideal S64x64 .f32) := by
  after_results <;> rfl

/-- One parameter vector out of the stacked parameters, as a one-row matrix. -/
theorem host21_main_v377 (W : Valuation τ sig (Elt Ideal)) :
    StableHlo.after (hostOps21 (F := Ideal)) W (Proc.devRef .tc main_v377)
      = (shapeCast S1x64 ((shapeCast S64 ((extractStridedSlice S1x1x64 ![1, 3, 0] ((W (Proc.devRef .tc main_arg13) : FVec Ideal S2x5x64 .f32)) slices_S2x5x64_S1x1x64_1_3_0 : FVec Ideal S1x1x64 .f32)) shapeCasts_S1x1x64_S64 : FVec Ideal S64 .f32)) shapeCasts_S64_S1x64 : FVec Ideal S1x64 .f32) := by
  after_results <;> rfl

/-- A reshape of the entry contents. -/
theorem host21_main_v378 (W : Valuation τ sig (Elt Ideal)) :
    StableHlo.after (hostOps21 (F := Ideal)) W (Proc.devRef .tc main_v378)
      = (W (Proc.devRef .tc main_v335) : FVec Ideal S32768x64 .f32) := by
  after_results <;> rfl

/-- A buffer no operation of the stretch writes is unchanged by it. -/
theorem host21_kept (W : Valuation τ sig (Elt Ideal)) (b : Ref sig .tc)
    (hb : Proc.devRef .tc b ∉ ({Proc.devRef .tc main_v373, Proc.devRef .tc main_v374, Proc.devRef .tc main_v375, Proc.devRef .tc main_v376, Proc.devRef .tc main_v377, Proc.devRef .tc main_v378} : Finset (DevRef τ sig))) :
    StableHlo.after (hostOps21 (F := Ideal)) W (no_index (Proc.devRef .tc b)) = W (Proc.devRef .tc b) := by
  refine StableHlo.after_of_forall_not_mem _ _ (List.forall_iff_forall_mem.mp ?_)
  simp only [hostOps21, List.Forall, StableHlo.nullary_writes, StableHlo.unary_writes, StableHlo.binary_writes, StableHlo.ternary_writes, StableHlo.reshape_writes, Finset.mem_singleton]
  simpa only [Finset.mem_insert, Finset.mem_singleton, not_or] using hb

/-- One weight matrix out of the stacked weights. -/
theorem host23_main_v417 (W : Valuation τ sig (Elt Ideal)) :
    StableHlo.after (hostOps23 (F := Ideal)) W (Proc.devRef .tc main_v417)
      = (shapeCast S64x64 ((extractStridedSlice S1x1x64x64 ![1, 4, 0, 0] ((W (Proc.devRef .tc main_arg12) : FVec Ideal S2x5x64x64 .f32)) slices_S2x5x64x64_S1x1x64x64_1_4_0_0 : FVec Ideal S1x1x64x64 .f32)) shapeCasts_S1x1x64x64_S64x64 : FVec Ideal S64x64 .f32) := by
  after_results <;> rfl

/-- One parameter vector out of the stacked parameters, as a one-row matrix. -/
theorem host23_main_v420 (W : Valuation τ sig (Elt Ideal)) :
    StableHlo.after (hostOps23 (F := Ideal)) W (Proc.devRef .tc main_v420)
      = (shapeCast S1x64 ((shapeCast S64 ((extractStridedSlice S1x1x64 ![1, 4, 0] ((W (Proc.devRef .tc main_arg13) : FVec Ideal S2x5x64 .f32)) slices_S2x5x64_S1x1x64_1_4_0 : FVec Ideal S1x1x64 .f32)) shapeCasts_S1x1x64_S64 : FVec Ideal S64 .f32)) shapeCasts_S64_S1x64 : FVec Ideal S1x64 .f32) := by
  after_results <;> rfl

/-- A reshape of the entry contents. -/
theorem host23_main_v421 (W : Valuation τ sig (Elt Ideal)) :
    StableHlo.after (hostOps23 (F := Ideal)) W (Proc.devRef .tc main_v421)
      = (W (Proc.devRef .tc main_v378) : FVec Ideal S32768x64 .f32) := by
  after_results <;> rfl

/-- A buffer no operation of the stretch writes is unchanged by it. -/
theorem host23_kept (W : Valuation τ sig (Elt Ideal)) (b : Ref sig .tc)
    (hb : Proc.devRef .tc b ∉ ({Proc.devRef .tc main_v416, Proc.devRef .tc main_v417, Proc.devRef .tc main_v418, Proc.devRef .tc main_v419, Proc.devRef .tc main_v420, Proc.devRef .tc main_v421} : Finset (DevRef τ sig))) :
    StableHlo.after (hostOps23 (F := Ideal)) W (no_index (Proc.devRef .tc b)) = W (Proc.devRef .tc b) := by
  refine StableHlo.after_of_forall_not_mem _ _ (List.forall_iff_forall_mem.mp ?_)
  simp only [hostOps23, List.Forall, StableHlo.nullary_writes, StableHlo.unary_writes, StableHlo.binary_writes, StableHlo.ternary_writes, StableHlo.reshape_writes, Finset.mem_singleton]
  simpa only [Finset.mem_insert, Finset.mem_singleton, not_or] using hb

end Cert.KernelIdeal.HV

end
-- ==== Proof.KShift.lean ====
/-
  The graph shift, as two functions of the node features and the edge lists: every bus row receives the sum of the
  bus rows and of the generator rows that point at it (the sources' rows gathered, negative indices wrapped, and
  scatter-added into zeros at the destinations), and every generator row the sum of the bus rows that point at it.
  Each is the composed term of the host's own operations and is never opened.
-/
import proofs.«144873_j21182778704707_1_alg».proof.Proof.Gen.KernelIdeal
import Idealize.ShloMosaic.PureOps.Ideal

set_option maxRecDepth 16384

noncomputable section

namespace Cert.KernelIdeal.HV

open Cert.KernelIdeal Cert.KernelIdeal.Gen
open Idealize.ShloMosaic Idealize.ShloMosaic.TcCoe

/-- The shift onto the bus rows: from the bus features along the bus-to-bus edges plus from the generator features
    along the generator-to-bus edges. -/
def shiftBus (cb : FVec Ideal S131072x64 .f32) (cg : FVec Ideal S32768x64 .f32) (bbs bbd : IVec S2097152 32)
    (gbs gbd : IVec S65536 32) : FVec Ideal S131072x64 .f32 :=
  (addf (F := Ideal) ((Host.scatterAdd (F := Ideal) scatter_S131072x64_S2097152x1_S2097152x64_1_0_0_1 ((broadcastInDim S131072x64 ![] bcast_S_S131072x64 ((constant (F := Ideal) S_ .f32 0x00000000#32 : FVec Ideal S_ .f32)) : FVec Ideal S131072x64 .f32)) ((broadcastInDim S2097152x1 ![0] bcast_S2097152_S2097152x1_0 (bbd) : IVec S2097152x1 32)) ((Host.gather gather_S131072x64_S2097152x1_S2097152x64_1_0_n_n_0_1_164 (cb) ((broadcastInDim S2097152x1 ![0] bcast_S2097152_S2097152x1_0 ((select ((cmpi .slt (bbs) ((broadcastInDim S2097152 ![] bcast_S_S2097152 ((constantI S_ 32 0#32 : IVec S_ 32)) : IVec S2097152 32)) : IVec S2097152 1)) ((addi (bbs) ((broadcastInDim S2097152 ![] bcast_S_S2097152 ((constantI S_ 32 131072#32 : IVec S_ 32)) : IVec S2097152 32)) : IVec S2097152 32)) (bbs) : IVec S2097152 32)) : IVec S2097152x1 32)) : FVec Ideal S2097152x64 .f32)) : FVec Ideal S131072x64 .f32)) ((Host.scatterAdd (F := Ideal) scatter_S131072x64_S65536x1_S65536x64_1_0_0_1 ((broadcastInDim S131072x64 ![] bcast_S_S131072x64 ((constant (F := Ideal) S_ .f32 0x00000000#32 : FVec Ideal S_ .f32)) : FVec Ideal S131072x64 .f32)) ((broadcastInDim S65536x1 ![0] bcast_S65536_S65536x1_0 (gbd) : IVec S65536x1 32)) ((Host.gather gather_S32768x64_S65536x1_S65536x64_1_0_n_n_0_1_164 (cg) ((broadcastInDim S65536x1 ![0] bcast_S65536_S65536x1_0 ((select ((cmpi .slt (gbs) ((broadcastInDim S65536 ![] bcast_S_S65536 ((constantI S_ 32 0#32 : IVec S_ 32)) : IVec S65536 32)) : IVec S65536 1)) ((addi (gbs) ((broadcastInDim S65536 ![] bcast_S_S65536 ((constantI S_ 32 32768#32 : IVec S_ 32)) : IVec S65536 32)) : IVec S65536 32)) (gbs) : IVec S65536 32)) : IVec S65536x1 32)) : FVec Ideal S65536x64 .f32)) : FVec Ideal S131072x64 .f32)) : FVec Ideal S131072x64 .f32)

/-- The shift onto the generator rows: from the bus features along the bus-to-generator edges. -/
def shiftGen (cb : FVec Ideal S131072x64 .f32) (bgs bgd : IVec S65536 32) : FVec Ideal S32768x64 .f32 :=
  (Host.scatterAdd (F := Ideal) scatter_S32768x64_S65536x1_S65536x64_1_0_0_1 ((broadcastInDim S32768x64 ![] bcast_S_S32768x64 ((constant (F := Ideal) S_ .f32 0x00000000#32 : FVec Ideal S_ .f32)) : FVec Ideal S32768x64 .f32)) ((broadcastInDim S65536x1 ![0] bcast_S65536_S65536x1_0 (bgd) : IVec S65536x1 32)) ((Host.gather gather_S131072x64_S65536x1_S65536x64_1_0_n_n_0_1_164 (cb) ((broadcastInDim S65536x1 ![0] bcast_S65536_S65536x1_0 ((select ((cmpi .slt (bgs) ((broadcastInDim S65536 ![] bcast_S_S65536 ((constantI S_ 32 0#32 : IVec S_ 32)) : IVec S65536 32)) : IVec S65536 1)) ((addi (bgs) ((broadcastInDim S65536 ![] bcast_S_S65536 ((constantI S_ 32 131072#32 : IVec S_ 32)) : IVec S65536 32)) : IVec S65536 32)) (bgs) : IVec S65536 32)) : IVec S65536x1 32)) : FVec Ideal S65536x64 .f32)) : FVec Ideal S32768x64 .f32)

end Cert.KernelIdeal.HV

end
-- ==== Proof.KHostTapBusA.lean ====
/-
  The host operations before bus-side taps, as functions of the contents at entry: the graph shift of the
  features onto the bus rows and onto the generator rows, the tap's weight matrix and bias row out of the stacked
  parameters, and the running sum copied as it stands.
-/
import proofs.«144873_j21182778704707_1_alg».proof.Proof.Gen.KernelIdeal.Launch
import proofs.«144873_j21182778704707_1_alg».proof.Proof.KShift
import Idealize.ShloMosaic.PureOps.Ideal

set_option maxRecDepth 16384

noncomputable section

namespace Cert.KernelIdeal.HV

open Cert.KernelIdeal Cert.KernelIdeal.Gen
open Idealize.ShloMosaic Idealize.ShloMosaic.TcCoe

/-- The shift onto the bus rows of the features at entry. -/
theorem host4_main_v62 (W : Valuation τ sig (Elt Ideal)) :
    StableHlo.after (hostOps4 (F := Ideal)) W (Proc.devRef .tc main_v62)
      = shiftBus (W (Proc.devRef .tc main_v29_0)) (W (Proc.devRef .tc main_v41_0)) (W (Proc.devRef .tc main_v1)) (W (Proc.devRef .tc main_v3)) (W (Proc.devRef .tc main_arg19)) (W (Proc.devRef .tc main_arg20)) := by
  after_results_simp
  unfold shiftBus
  with_reducible rfl

/-- The shift onto the generator rows of the features at entry. -/
theorem host4_main_v72 (W : Valuation τ sig (Elt Ideal)) :
    StableHlo.after (hostOps4 (F := Ideal)) W (Proc.devRef .tc main_v72)
      = shiftGen (W (Proc.devRef .tc main_v29_0)) (W (Proc.devRef .tc main_arg21)) (W (Proc.devRef .tc main_arg22)) := by
  after_results_simp
  unfold shiftGen
  with_reducible rfl

/-- One weight matrix out of the stacked weights. -/
theorem host4_main_v74 (W : Valuation τ sig (Elt Ideal)) :
    StableHlo.after (hostOps4 (F := Ideal)) W (Proc.devRef .tc main_v74)
      = (shapeCast S64x64 ((extractStridedSlice S1x1x64x64 ![0, 1, 0, 0] ((W (Proc.devRef .tc main_arg10) : FVec Ideal S2x5x64x64 .f32)) slices_S2x5x64x64_S1x1x64x64_0_1_0_0 : FVec Ideal S1x1x64x64 .f32)) shapeCasts_S1x1x64x64_S64x64 : FVec Ideal S64x64 .f32) := by
  after_results_simp <;> rfl

/-- One parameter vector out of the stacked parameters, as a one-row matrix. -/
theorem host4_main_v77 (W : Valuation τ sig (Elt Ideal)) :
    StableHlo.after (hostOps4 (F := Ideal)) W (Proc.devRef .tc main_v77)
      = (shapeCast S1x64 ((shapeCast S64 ((extractStridedSlice S1x1x64 ![0, 1, 0] ((W (Proc.devRef .tc main_arg11) : FVec Ideal S2x5x64 .f32)) slices_S2x5x64_S1x1x64_0_1_0 : FVec Ideal S1x1x64 .f32)) shapeCasts_S1x1x64_S64 : FVec Ideal S64 .f32)) shapeCasts_S64_S1x64 : FVec Ideal S1x64 .f32) := by
  after_results_simp <;> rfl

/-- A reshape of the entry contents. -/
theorem host4_main_v78 (W : Valuation τ sig (Elt Ideal)) :
    StableHlo.after (hostOps4 (F := Ideal)) W (Proc.devRef .tc main_v78)
      = (W (Proc.devRef .tc main_v29_1) : FVec Ideal S131072x64 .f32) := by
  after_results_simp <;> rfl

/-- A buffer no operation of the stretch writes is unchanged by it. -/
theorem host4_kept (W : Valuation τ sig (Elt Ideal)) (b : Ref sig .tc)
    (hb : Proc.devRef .tc b ∉ ({Proc.devRef .tc main_c_4, Proc.devRef .tc main_v42, Proc.devRef .tc main_v43, Proc.devRef .tc main_c_5, Proc.devRef .tc main_v44, Proc.devRef .tc main_v45, Proc.devRef .tc main_v46, Proc.devRef .tc main_v47, Proc.devRef .tc main_v48, Proc.devRef .tc main_cst_6, Proc.devRef .tc main_v49, Proc.devRef .tc main_v50, Proc.devRef .tc main_v51, Proc.devRef .tc main_c_7, Proc.devRef .tc main_v52, Proc.devRef .tc main_v53, Proc.devRef .tc main_c_8, Proc.devRef .tc main_v54, Proc.devRef .tc main_v55, Proc.devRef .tc main_v56, Proc.devRef .tc main_v57, Proc.devRef .tc main_v58, Proc.devRef .tc main_cst_9, Proc.devRef .tc main_v59, Proc.devRef .tc main_v60, Proc.devRef .tc main_v61, Proc.devRef .tc main_v62, Proc.devRef .tc main_c_10, Proc.devRef .tc main_v63, Proc.devRef .tc main_v64, Proc.devRef .tc main_c_11, Proc.devRef .tc main_v65, Proc.devRef .tc main_v66, Proc.devRef .tc main_v67, Proc.devRef .tc main_v68, Proc.devRef .tc main_v69, Proc.devRef .tc main_cst_12, Proc.devRef .tc main_v70, Proc.devRef .tc main_v71, Proc.devRef .tc main_v72, Proc.devRef .tc main_v73, Proc.devRef .tc main_v74, Proc.devRef .tc main_v75, Proc.devRef .tc main_v76, Proc.devRef .tc main_v77, Proc.devRef .tc main_v78} : Finset (DevRef τ sig))) :
    StableHlo.after (hostOps4 (F := Ideal)) W (no_index (Proc.devRef .tc b)) = W (Proc.devRef .tc b) := by
  refine StableHlo.after_of_forall_not_mem _ _ (List.forall_iff_forall_mem.mp ?_)
  simp only [hostOps4, List.Forall, StableHlo.nullary_writes, StableHlo.unary_writes, StableHlo.binary_writes, StableHlo.ternary_writes, StableHlo.reshape_writes, Finset.mem_singleton]
  simpa only [Finset.mem_insert, Finset.mem_singleton, not_or] using hb

/-- The shift onto the bus rows of the features at entry. -/
theorem host6_main_v105 (W : Valuation τ sig (Elt Ideal)) :
    StableHlo.after (hostOps6 (F := Ideal)) W (Proc.devRef .tc main_v105)
      = shiftBus (W (Proc.devRef .tc main_v62)) (W (Proc.devRef .tc main_v72)) (W (Proc.devRef .tc main_v1)) (W (Proc.devRef .tc main_v3)) (W (Proc.devRef .tc main_arg19)) (W (Proc.devRef .tc main_arg20)) := by
  after_results_simp
  unfold shiftBus
  with_reducible rfl

/-- The shift onto the generator rows of the features at entry. -/
theorem host6_main_v115 (W : Valuation τ sig (Elt Ideal)) :
    StableHlo.after (hostOps6 (F := Ideal)) W (Proc.devRef .tc main_v115)
      = shiftGen (W (Proc.devRef .tc main_v62)) (W (Proc.devRef .tc main_arg21)) (W (Proc.devRef .tc main_arg22)) := by
  after_results_simp
  unfold shiftGen
  with_reducible rfl

/-- One weight matrix out of the stacked weights. -/
theorem host6_main_v117 (W : Valuation τ sig (Elt Ideal)) :
    StableHlo.after (hostOps6 (F := Ideal)) W (Proc.devRef .tc main_v117)
      = (shapeCast S64x64 ((extractStridedSlice S1x1x64x64 ![0, 2, 0, 0] ((W (Proc.devRef .tc main_arg10) : FVec Ideal S2x5x64x64 .f32)) slices_S2x5x64x64_S1x1x64x64_0_2_0_0 : FVec Ideal S1x1x64x64 .f32)) shapeCasts_S1x1x64x64_S64x64 : FVec Ideal S64x64 .f32) := by
  after_results_simp <;> rfl

/-- One parameter vector out of the stacked parameters, as a one-row matrix. -/
theorem host6_main_v120 (W : Valuation τ sig (Elt Ideal)) :
    StableHlo.after (hostOps6 (F := Ideal)) W (Proc.devRef .tc main_v120)
      = (shapeCast S1x64 ((shapeCast S64 ((extractStridedSlice S1x1x64 ![0, 2, 0] ((W (Proc.devRef .tc main_arg11) : FVec Ideal S2x5x64 .f32)) slices_S2x5x64_S1x1x64_0_2_0 : FVec Ideal S1x1x64 .f32)) shapeCasts_S1x1x64_S64 : FVec Ideal S64 .f32)) shapeCasts_S64_S1x64 : FVec Ideal S1x64 .f32) := by
  after_results_simp <;> rfl

/-- A reshape of the entry contents. -/
theorem host6_main_v121 (W : Valuation τ sig (Elt Ideal)) :
    StableHlo.after (hostOps6 (F := Ideal)) W (Proc.devRef .tc main_v121)
      = (W (Proc.devRef .tc main_v78) : FVec Ideal S131072x64 .f32) := by
  after_results_simp <;> rfl

/-- A buffer no operation of the stretch writes is unchanged by it. -/
theorem host6_kept (W : Valuation τ sig (Elt Ideal)) (b : Ref sig .tc)
    (hb : Proc.devRef .tc b ∉ ({Proc.devRef .tc main_c_13, Proc.devRef .tc main_v85, Proc.devRef .tc main_v86, Proc.devRef .tc main_c_14, Proc.devRef .tc main_v87, Proc.devRef .tc main_v88, Proc.devRef .tc main_v89, Proc.devRef .tc main_v90, Proc.devRef .tc main_v91, Proc.devRef .tc main_cst_15, Proc.devRef .tc main_v92, Proc.devRef .tc main_v93, Proc.devRef .tc main_v94, Proc.devRef .tc main_c_16, Proc.devRef .tc main_v95, Proc.devRef .tc main_v96, Proc.devRef .tc main_c_17, Proc.devRef .tc main_v97, Proc.devRef .tc main_v98, Proc.devRef .tc main_v99, Proc.devRef .tc main_v100, Proc.devRef .tc main_v101, Proc.devRef .tc main_cst_18, Proc.devRef .tc main_v102, Proc.devRef .tc main_v103, Proc.devRef .tc main_v104, Proc.devRef .tc main_v105, Proc.devRef .tc main_c_19, Proc.devRef .tc main_v106, Proc.devRef .tc main_v107, Proc.devRef .tc main_c_20, Proc.devRef .tc main_v108, Proc.devRef .tc main_v109, Proc.devRef .tc main_v110, Proc.devRef .tc main_v111, Proc.devRef .tc main_v112, Proc.devRef .tc main_cst_21, Proc.devRef .tc main_v113, Proc.devRef .tc main_v114, Proc.devRef .tc main_v115, Proc.devRef .tc main_v116, Proc.devRef .tc main_v117, Proc.devRef .tc main_v118, Proc.devRef .tc main_v119, Proc.devRef .tc main_v120, Proc.devRef .tc main_v121} : Finset (DevRef τ sig))) :
    StableHlo.after (hostOps6 (F := Ideal)) W (no_index (Proc.devRef .tc b)) = W (Proc.devRef .tc b) := by
  refine StableHlo.after_of_forall_not_mem _ _ (List.forall_iff_forall_mem.mp ?_)
  simp only [hostOps6, List.Forall, StableHlo.nullary_writes, StableHlo.unary_writes, StableHlo.binary_writes, StableHlo.ternary_writes, StableHlo.reshape_writes, Finset.mem_singleton]
  simpa only [Finset.mem_insert, Finset.mem_singleton, not_or] using hb

/-- The shift onto the bus rows of the features at entry. -/
theorem host8_main_v148 (W : Valuation τ sig (Elt Ideal)) :
    StableHlo.after (hostOps8 (F := Ideal)) W (Proc.devRef .tc main_v148)
      = shiftBus (W (Proc.devRef .tc main_v105)) (W (Proc.devRef .tc main_v115)) (W (Proc.devRef .tc main_v1)) (W (Proc.devRef .tc main_v3)) (W (Proc.devRef .tc main_arg19)) (W (Proc.devRef .tc main_arg20)) := by
  after_results_simp
  unfold shiftBus
  with_reducible rfl

/-- The shift onto the generator rows of the features at entry. -/
theorem host8_main_v158 (W : Valuation τ sig (Elt Ideal)) :
    StableHlo.after (hostOps8 (F := Ideal)) W (Proc.devRef .tc main_v158)
      = shiftGen (W (Proc.devRef .tc main_v105)) (W (Proc.devRef .tc main_arg21)) (W (Proc.devRef .tc main_arg22)) := by
  after_results_simp
  unfold shiftGen
  with_reducible rfl

/-- One weight matrix out of the stacked weights. -/
theorem host8_main_v160 (W : Valuation τ sig (Elt Ideal)) :
    StableHlo.after (hostOps8 (F := Ideal)) W (Proc.devRef .tc main_v160)
      = (shapeCast S64x64 ((extractStridedSlice S1x1x64x64 ![0, 3, 0, 0] ((W (Proc.devRef .tc main_arg10) : FVec Ideal S2x5x64x64 .f32)) slices_S2x5x64x64_S1x1x64x64_0_3_0_0 : FVec Ideal S1x1x64x64 .f32)) shapeCasts_S1x1x64x64_S64x64 : FVec Ideal S64x64 .f32) := by
  after_results_simp <;> rfl

/-- One parameter vector out of the stacked parameters, as a one-row matrix. -/
theorem host8_main_v163 (W : Valuation τ sig (Elt Ideal)) :
    StableHlo.after (hostOps8 (F := Ideal)) W (Proc.devRef .tc main_v163)
      = (shapeCast S1x64 ((shapeCast S64 ((extractStridedSlice S1x1x64 ![0, 3, 0] ((W (Proc.devRef .tc main_arg11) : FVec Ideal S2x5x64 .f32)) slices_S2x5x64_S1x1x64_0_3_0 : FVec Ideal S1x1x64 .f32)) shapeCasts_S1x1x64_S64 : FVec Ideal S64 .f32)) shapeCasts_S64_S1x64 : FVec Ideal S1x64 .f32) := by
  after_results_simp <;> rfl

/-- A reshape of the entry contents. -/
theorem host8_main_v164 (W : Valuation τ sig (Elt Ideal)) :
    StableHlo.after (hostOps8 (F := Ideal)) W (Proc.devRef .tc main_v164)
      = (W (Proc.devRef .tc main_v121) : FVec Ideal S131072x64 .f32) := by
  after_results_simp <;> rfl

/-- A buffer no operation of the stretch writes is unchanged by it. -/
theorem host8_kept (W : Valuation τ sig (Elt Ideal)) (b : Ref sig .tc)
    (hb : Proc.devRef .tc b ∉ ({Proc.devRef .tc main_c_22, Proc.devRef .tc main_v128, Proc.devRef .tc main_v129, Proc.devRef .tc main_c_23, Proc.devRef .tc main_v130, Proc.devRef .tc main_v131, Proc.devRef .tc main_v132, Proc.devRef .tc main_v133, Proc.devRef .tc main_v134, Proc.devRef .tc main_cst_24, Proc.devRef .tc main_v135, Proc.devRef .tc main_v136, Proc.devRef .tc main_v137, Proc.devRef .tc main_c_25, Proc.devRef .tc main_v138, Proc.devRef .tc main_v139, Proc.devRef .tc main_c_26, Proc.devRef .tc main_v140, Proc.devRef .tc main_v141, Proc.devRef .tc main_v142, Proc.devRef .tc main_v143, Proc.devRef .tc main_v144, Proc.devRef .tc main_cst_27, Proc.devRef .tc main_v145, Proc.devRef .tc main_v146, Proc.devRef .tc main_v147, Proc.devRef .tc main_v148, Proc.devRef .tc main_c_28, Proc.devRef .tc main_v149, Proc.devRef .tc main_v150, Proc.devRef .tc main_c_29, Proc.devRef .tc main_v151, Proc.devRef .tc main_v152, Proc.devRef .tc main_v153, Proc.devRef .tc main_v154, Proc.devRef .tc main_v155, Proc.devRef .tc main_cst_30, Proc.devRef .tc main_v156, Proc.devRef .tc main_v157, Proc.devRef .tc main_v158, Proc.devRef .tc main_v159, Proc.devRef .tc main_v160, Proc.devRef .tc main_v161, Proc.devRef .tc main_v162, Proc.devRef .tc main_v163, Proc.devRef .tc main_v164} : Finset (DevRef τ sig))) :
    StableHlo.after (hostOps8 (F := Ideal)) W (no_index (Proc.devRef .tc b)) = W (Proc.devRef .tc b) := by
  refine StableHlo.after_of_forall_not_mem _ _ (List.forall_iff_forall_mem.mp ?_)
  simp only [hostOps8, List.Forall, StableHlo.nullary_writes, StableHlo.unary_writes, StableHlo.binary_writes, StableHlo.ternary_writes, StableHlo.reshape_writes, Finset.mem_singleton]
  simpa only [Finset.mem_insert, Finset.mem_singleton, not_or] using hb

/-- The shift onto the bus rows of the features at entry. -/
theorem host10_main_v191 (W : Valuation τ sig (Elt Ideal)) :
    StableHlo.after (hostOps10 (F := Ideal)) W (Proc.devRef .tc main_v191)
      = shiftBus (W (Proc.devRef .tc main_v148)) (W (Proc.devRef .tc main_v158)) (W (Proc.devRef .tc main_v1)) (W (Proc.devRef .tc main_v3)) (W (Proc.devRef .tc main_arg19)) (W (Proc.devRef .tc main_arg20)) := by
  after_results_simp
  unfold shiftBus
  with_reducible rfl

/-- The shift onto the generator rows of the features at entry. -/
theorem host10_main_v201 (W : Valuation τ sig (Elt Ideal)) :
    StableHlo.after (hostOps10 (F := Ideal)) W (Proc.devRef .tc main_v201)
      = shiftGen (W (Proc.devRef .tc main_v148)) (W (Proc.devRef .tc main_arg21)) (W (Proc.devRef .tc main_arg22)) := by
  after_results_simp
  unfold shiftGen
  with_reducible rfl

/-- One weight matrix out of the stacked weights. -/
theorem host10_main_v203 (W : Valuation τ sig (Elt Ideal)) :
    StableHlo.after (hostOps10 (F := Ideal)) W (Proc.devRef .tc main_v203)
      = (shapeCast S64x64 ((extractStridedSlice S1x1x64x64 ![0, 4, 0, 0] ((W (Proc.devRef .tc main_arg10) : FVec Ideal S2x5x64x64 .f32)) slices_S2x5x64x64_S1x1x64x64_0_4_0_0 : FVec Ideal S1x1x64x64 .f32)) shapeCasts_S1x1x64x64_S64x64 : FVec Ideal S64x64 .f32) := by
  after_results_simp <;> rfl

/-- One parameter vector out of the stacked parameters, as a one-row matrix. -/
theorem host10_main_v206 (W : Valuation τ sig (Elt Ideal)) :
    StableHlo.after (hostOps10 (F := Ideal)) W (Proc.devRef .tc main_v206)
      = (shapeCast S1x64 ((shapeCast S64 ((extractStridedSlice S1x1x64 ![0, 4, 0] ((W (Proc.devRef .tc main_arg11) : FVec Ideal S2x5x64 .f32)) slices_S2x5x64_S1x1x64_0_4_0 : FVec Ideal S1x1x64 .f32)) shapeCasts_S1x1x64_S64 : FVec Ideal S64 .f32)) shapeCasts_S64_S1x64 : FVec Ideal S1x64 .f32) := by
  after_results_simp <;> rfl

/-- A reshape of the entry contents. -/
theorem host10_main_v207 (W : Valuation τ sig (Elt Ideal)) :
    StableHlo.after (hostOps10 (F := Ideal)) W (Proc.devRef .tc main_v207)
      = (W (Proc.devRef .tc main_v164) : FVec Ideal S131072x64 .f32) := by
  after_results_simp <;> rfl

/-- A buffer no operation of the stretch writes is unchanged by it. -/
theorem host10_kept (W : Valuation τ sig (Elt Ideal)) (b : Ref sig .tc)
    (hb : Proc.devRef .tc b ∉ ({Proc.devRef .tc main_c_31, Proc.devRef .tc main_v171, Proc.devRef .tc main_v172, Proc.devRef .tc main_c_32, Proc.devRef .tc main_v173, Proc.devRef .tc main_v174, Proc.devRef .tc main_v175, Proc.devRef .tc main_v176, Proc.devRef .tc main_v177, Proc.devRef .tc main_cst_33, Proc.devRef .tc main_v178, Proc.devRef .tc main_v179, Proc.devRef .tc main_v180, Proc.devRef .tc main_c_34, Proc.devRef .tc main_v181, Proc.devRef .tc main_v182, Proc.devRef .tc main_c_35, Proc.devRef .tc main_v183, Proc.devRef .tc main_v184, Proc.devRef .tc main_v185, Proc.devRef .tc main_v186, Proc.devRef .tc main_v187, Proc.devRef .tc main_cst_36, Proc.devRef .tc main_v188, Proc.devRef .tc main_v189, Proc.devRef .tc main_v190, Proc.devRef .tc main_v191, Proc.devRef .tc main_c_37, Proc.devRef .tc main_v192, Proc.devRef .tc main_v193, Proc.devRef .tc main_c_38, Proc.devRef .tc main_v194, Proc.devRef .tc main_v195, Proc.devRef .tc main_v196, Proc.devRef .tc main_v197, Proc.devRef .tc main_v198, Proc.devRef .tc main_cst_39, Proc.devRef .tc main_v199, Proc.devRef .tc main_v200, Proc.devRef .tc main_v201, Proc.devRef .tc main_v202, Proc.devRef .tc main_v203, Proc.devRef .tc main_v204, Proc.devRef .tc main_v205, Proc.devRef .tc main_v206, Proc.devRef .tc main_v207} : Finset (DevRef τ sig))) :
    StableHlo.after (hostOps10 (F := Ideal)) W (no_index (Proc.devRef .tc b)) = W (Proc.devRef .tc b) := by
  refine StableHlo.after_of_forall_not_mem _ _ (List.forall_iff_forall_mem.mp ?_)
  simp only [hostOps10, List.Forall, StableHlo.nullary_writes, StableHlo.unary_writes, StableHlo.binary_writes, StableHlo.ternary_writes, StableHlo.reshape_writes, Finset.mem_singleton]
  simpa only [Finset.mem_insert, Finset.mem_singleton, not_or] using hb

end Cert.KernelIdeal.HV

end
-- ==== Proof.KHostTapBusB.lean ====
/-
  The host operations before bus-side taps, as functions of the contents at entry: the graph shift of the
  features onto the bus rows and onto the generator rows, the tap's weight matrix and bias row out of the stacked
  parameters, and the running sum copied as it stands.
-/
import proofs.«144873_j21182778704707_1_alg».proof.Proof.Gen.KernelIdeal.Launch
import proofs.«144873_j21182778704707_1_alg».proof.Proof.KShift
import Idealize.ShloMosaic.PureOps.Ideal

set_option maxRecDepth 16384

noncomputable section

namespace Cert.KernelIdeal.HV

open Cert.KernelIdeal Cert.KernelIdeal.Gen
open Idealize.ShloMosaic Idealize.ShloMosaic.TcCoe

/-- The shift onto the bus rows of the features at entry. -/
theorem host16_main_v270 (W : Valuation τ sig (Elt Ideal)) :
    StableHlo.after (hostOps16 (F := Ideal)) W (Proc.devRef .tc main_v270)
      = shiftBus (W (Proc.devRef .tc main_v237_0)) (W (Proc.devRef .tc main_v249_0)) (W (Proc.devRef .tc main_v1)) (W (Proc.devRef .tc main_v3)) (W (Proc.devRef .tc main_arg19)) (W (Proc.devRef .tc main_arg20)) := by
  after_results_simp
  unfold shiftBus
  with_reducible rfl

/-- The shift onto the generator rows of the features at entry. -/
theorem host16_main_v280 (W : Valuation τ sig (Elt Ideal)) :
    StableHlo.after (hostOps16 (F := Ideal)) W (Proc.devRef .tc main_v280)
      = shiftGen (W (Proc.devRef .tc main_v237_0)) (W (Proc.devRef .tc main_arg21)) (W (Proc.devRef .tc main_arg22)) := by
  after_results_simp
  unfold shiftGen
  with_reducible rfl

/-- One weight matrix out of the stacked weights. -/
theorem host16_main_v282 (W : Valuation τ sig (Elt Ideal)) :
    StableHlo.after (hostOps16 (F := Ideal)) W (Proc.devRef .tc main_v282)
      = (shapeCast S64x64 ((extractStridedSlice S1x1x64x64 ![1, 1, 0, 0] ((W (Proc.devRef .tc main_arg10) : FVec Ideal S2x5x64x64 .f32)) slices_S2x5x64x64_S1x1x64x64_1_1_0_0 : FVec Ideal S1x1x64x64 .f32)) shapeCasts_S1x1x64x64_S64x64 : FVec Ideal S64x64 .f32) := by
  after_results_simp <;> rfl

/-- One parameter vector out of the stacked parameters, as a one-row matrix. -/
theorem host16_main_v285 (W : Valuation τ sig (Elt Ideal)) :
    StableHlo.after (hostOps16 (F := Ideal)) W (Proc.devRef .tc main_v285)
      = (shapeCast S1x64 ((shapeCast S64 ((extractStridedSlice S1x1x64 ![1, 1, 0] ((W (Proc.devRef .tc main_arg11) : FVec Ideal S2x5x64 .f32)) slices_S2x5x64_S1x1x64_1_1_0 : FVec Ideal S1x1x64 .f32)) shapeCasts_S1x1x64_S64 : FVec Ideal S64 .f32)) shapeCasts_S64_S1x64 : FVec Ideal S1x64 .f32) := by
  after_results_simp <;> rfl

/-- A reshape of the entry contents. -/
theorem host16_main_v286 (W : Valuation τ sig (Elt Ideal)) :
    StableHlo.after (hostOps16 (F := Ideal)) W (Proc.devRef .tc main_v286)
      = (W (Proc.devRef .tc main_v237_1) : FVec Ideal S131072x64 .f32) := by
  after_results_simp <;> rfl

/-- A buffer no operation of the stretch writes is unchanged by it. -/
theorem host16_kept (W : Valuation τ sig (Elt Ideal)) (b : Ref sig .tc)
    (hb : Proc.devRef .tc b ∉ ({Proc.devRef .tc main_c_46, Proc.devRef .tc main_v250, Proc.devRef .tc main_v251, Proc.devRef .tc main_c_47, Proc.devRef .tc main_v252, Proc.devRef .tc main_v253, Proc.devRef .tc main_v254, Proc.devRef .tc main_v255, Proc.devRef .tc main_v256, Proc.devRef .tc main_cst_48, Proc.devRef .tc main_v257, Proc.devRef .tc main_v258, Proc.devRef .tc main_v259, Proc.devRef .tc main_c_49, Proc.devRef .tc main_v260, Proc.devRef .tc main_v261, Proc.devRef .tc main_c_50, Proc.devRef .tc main_v262, Proc.devRef .tc main_v263, Proc.devRef .tc main_v264, Proc.devRef .tc main_v265, Proc.devRef .tc main_v266, Proc.devRef .tc main_cst_51, Proc.devRef .tc main_v267, Proc.devRef .tc main_v268, Proc.devRef .tc main_v269, Proc.devRef .tc main_v270, Proc.devRef .tc main_c_52, Proc.devRef .tc main_v271, Proc.devRef .tc main_v272, Proc.devRef .tc main_c_53, Proc.devRef .tc main_v273, Proc.devRef .tc main_v274, Proc.devRef .tc main_v275, Proc.devRef .tc main_v276, Proc.devRef .tc main_v277, Proc.devRef .tc main_cst_54, Proc.devRef .tc main_v278, Proc.devRef .tc main_v279, Proc.devRef .tc main_v280, Proc.devRef .tc main_v281, Proc.devRef .tc main_v282, Proc.devRef .tc main_v283, Proc.devRef .tc main_v284, Proc.devRef .tc main_v285, Proc.devRef .tc main_v286} : Finset (DevRef τ sig))) :
    StableHlo.after (hostOps16 (F := Ideal)) W (no_index (Proc.devRef .tc b)) = W (Proc.devRef .tc b) := by
  refine StableHlo.after_of_forall_not_mem _ _ (List.forall_iff_forall_mem.mp ?_)
  simp only [hostOps16, List.Forall, StableHlo.nullary_writes, StableHlo.unary_writes, StableHlo.binary_writes, StableHlo.ternary_writes, StableHlo.reshape_writes, Finset.mem_singleton]
  simpa only [Finset.mem_insert, Finset.mem_singleton, not_or] using hb

/-- The shift onto the bus rows of the features at entry. -/
theorem host18_main_v313 (W : Valuation τ sig (Elt Ideal)) :
    StableHlo.after (hostOps18 (F := Ideal)) W (Proc.devRef .tc main_v313)
      = shiftBus (W (Proc.devRef .tc main_v270)) (W (Proc.devRef .tc main_v280)) (W (Proc.devRef .tc main_v1)) (W (Proc.devRef .tc main_v3)) (W (Proc.devRef .tc main_arg19)) (W (Proc.devRef .tc main_arg20)) := by
  after_results_simp
  unfold shiftBus
  with_reducible rfl

/-- The shift onto the generator rows of the features at entry. -/
theorem host18_main_v323 (W : Valuation τ sig (Elt Ideal)) :
    StableHlo.after (hostOps18 (F := Ideal)) W (Proc.devRef .tc main_v323)
      = shiftGen (W (Proc.devRef .tc main_v270)) (W (Proc.devRef .tc main_arg21)) (W (Proc.devRef .tc main_arg22)) := by
  after_results_simp
  unfold shiftGen
  with_reducible rfl

/-- One weight matrix out of the stacked weights. -/
theorem host18_main_v325 (W : Valuation τ sig (Elt Ideal)) :
    StableHlo.after (hostOps18 (F := Ideal)) W (Proc.devRef .tc main_v325)
      = (shapeCast S64x64 ((extractStridedSlice S1x1x64x64 ![1, 2, 0, 0] ((W (Proc.devRef .tc main_arg10) : FVec Ideal S2x5x64x64 .f32)) slices_S2x5x64x64_S1x1x64x64_1_2_0_0 : FVec Ideal S1x1x64x64 .f32)) shapeCasts_S1x1x64x64_S64x64 : FVec Ideal S64x64 .f32) := by
  after_results_simp <;> rfl

/-- One parameter vector out of the stacked parameters, as a one-row matrix. -/
theorem host18_main_v328 (W : Valuation τ sig (Elt Ideal)) :
    StableHlo.after (hostOps18 (F := Ideal)) W (Proc.devRef .tc main_v328)
      = (shapeCast S1x64 ((shapeCast S64 ((extractStridedSlice S1x1x64 ![1, 2, 0] ((W (Proc.devRef .tc main_arg11) : FVec Ideal S2x5x64 .f32)) slices_S2x5x64_S1x1x64_1_2_0 : FVec Ideal S1x1x64 .f32)) shapeCasts_S1x1x64_S64 : FVec Ideal S64 .f32)) shapeCasts_S64_S1x64 : FVec Ideal S1x64 .f32) := by
  after_results_simp <;> rfl

/-- A reshape of the entry contents. -/
theorem host18_main_v329 (W : Valuation τ sig (Elt Ideal)) :
    StableHlo.after (hostOps18 (F := Ideal)) W (Proc.devRef .tc main_v329)
      = (W (Proc.devRef .tc main_v286) : FVec Ideal S131072x64 .f32) := by
  after_results_simp <;> rfl

/-- A buffer no operation of the stretch writes is unchanged by it. -/
theorem host18_kept (W : Valuation τ sig (Elt Ideal)) (b : Ref sig .tc)
    (hb : Proc.devRef .tc b ∉ ({Proc.devRef .tc main_c_55, Proc.devRef .tc main_v293, Proc.devRef .tc main_v294, Proc.devRef .tc main_c_56, Proc.devRef .tc main_v295, Proc.devRef .tc main_v296, Proc.devRef .tc main_v297, Proc.devRef .tc main_v298, Proc.devRef .tc main_v299, Proc.devRef .tc main_cst_57, Proc.devRef .tc main_v300, Proc.devRef .tc main_v301, Proc.devRef .tc main_v302, Proc.devRef .tc main_c_58, Proc.devRef .tc main_v303, Proc.devRef .tc main_v304, Proc.devRef .tc main_c_59, Proc.devRef .tc main_v305, Proc.devRef .tc main_v306, Proc.devRef .tc main_v307, Proc.devRef .tc main_v308, Proc.devRef .tc main_v309, Proc.devRef .tc main_cst_60, Proc.devRef .tc main_v310, Proc.devRef .tc main_v311, Proc.devRef .tc main_v312, Proc.devRef .tc main_v313, Proc.devRef .tc main_c_61, Proc.devRef .tc main_v314, Proc.devRef .tc main_v315, Proc.devRef .tc main_c_62, Proc.devRef .tc main_v316, Proc.devRef .tc main_v317, Proc.devRef .tc main_v318, Proc.devRef .tc main_v319, Proc.devRef .tc main_v320, Proc.devRef .tc main_cst_63, Proc.devRef .tc main_v321, Proc.devRef .tc main_v322, Proc.devRef .tc main_v323, Proc.devRef .tc main_v324, Proc.devRef .tc main_v325, Proc.devRef .tc main_v326, Proc.devRef .tc main_v327, Proc.devRef .tc main_v328, Proc.devRef .tc main_v329} : Finset (DevRef τ sig))) :
    StableHlo.after (hostOps18 (F := Ideal)) W (no_index (Proc.devRef .tc b)) = W (Proc.devRef .tc b) := by
  refine StableHlo.after_of_forall_not_mem _ _ (List.forall_iff_forall_mem.mp ?_)
  simp only [hostOps18, List.Forall, StableHlo.nullary_writes, StableHlo.unary_writes, StableHlo.binary_writes, StableHlo.ternary_writes, StableHlo.reshape_writes, Finset.mem_singleton]
  simpa only [Finset.mem_insert, Finset.mem_singleton, not_or] using hb

/-- The shift onto the bus rows of the features at entry. -/
theorem host20_main_v356 (W : Valuation τ sig (Elt Ideal)) :
    StableHlo.after (hostOps20 (F := Ideal)) W (Proc.devRef .tc main_v356)
      = shiftBus (W (Proc.devRef .tc main_v313)) (W (Proc.devRef .tc main_v323)) (W (Proc.devRef .tc main_v1)) (W (Proc.devRef .tc main_v3)) (W (Proc.devRef .tc main_arg19)) (W (Proc.devRef .tc main_arg20)) := by
  after_results_simp
  unfold shiftBus
  with_reducible rfl

/-- The shift onto the generator rows of the features at entry. -/
theorem host20_main_v366 (W : Valuation τ sig (Elt Ideal)) :
    StableHlo.after (hostOps20 (F := Ideal)) W (Proc.devRef .tc main_v366)
      = shiftGen (W (Proc.devRef .tc main_v313)) (W (Proc.devRef .tc main_arg21)) (W (Proc.devRef .tc main_arg22)) := by
  after_results_simp
  unfold shiftGen
  with_reducible rfl

/-- One weight matrix out of the stacked weights. -/
theorem host20_main_v368 (W : Valuation τ sig (Elt Ideal)) :
    StableHlo.after (hostOps20 (F := Ideal)) W (Proc.devRef .tc main_v368)
      = (shapeCast S64x64 ((extractStridedSlice S1x1x64x64 ![1, 3, 0, 0] ((W (Proc.devRef .tc main_arg10) : FVec Ideal S2x5x64x64 .f32)) slices_S2x5x64x64_S1x1x64x64_1_3_0_0 : FVec Ideal S1x1x64x64 .f32)) shapeCasts_S1x1x64x64_S64x64 : FVec Ideal S64x64 .f32) := by
  after_results_simp <;> rfl

/-- One parameter vector out of the stacked parameters, as a one-row matrix. -/
theorem host20_main_v371 (W : Valuation τ sig (Elt Ideal)) :
    StableHlo.after (hostOps20 (F := Ideal)) W (Proc.devRef .tc main_v371)
      = (shapeCast S1x64 ((shapeCast S64 ((extractStridedSlice S1x1x64 ![1, 3, 0] ((W (Proc.devRef .tc main_arg11) : FVec Ideal S2x5x64 .f32)) slices_S2x5x64_S1x1x64_1_3_0 : FVec Ideal S1x1x64 .f32)) shapeCasts_S1x1x64_S64 : FVec Ideal S64 .f32)) shapeCasts_S64_S1x64 : FVec Ideal S1x64 .f32) := by
  after_results_simp <;> rfl

/-- A reshape of the entry contents. -/
theorem host20_main_v372 (W : Valuation τ sig (Elt Ideal)) :
    StableHlo.after (hostOps20 (F := Ideal)) W (Proc.devRef .tc main_v372)
      = (W (Proc.devRef .tc main_v329) : FVec Ideal S131072x64 .f32) := by
  after_results_simp <;> rfl

/-- A buffer no operation of the stretch writes is unchanged by it. -/
theorem host20_kept (W : Valuation τ sig (Elt Ideal)) (b : Ref sig .tc)
    (hb : Proc.devRef .tc b ∉ ({Proc.devRef .tc main_c_64, Proc.devRef .tc main_v336, Proc.devRef .tc main_v337, Proc.devRef .tc main_c_65, Proc.devRef .tc main_v338, Proc.devRef .tc main_v339, Proc.devRef .tc main_v340, Proc.devRef .tc main_v341, Proc.devRef .tc main_v342, Proc.devRef .tc main_cst_66, Proc.devRef .tc main_v343, Proc.devRef .tc main_v344, Proc.devRef .tc main_v345, Proc.devRef .tc main_c_67, Proc.devRef .tc main_v346, Proc.devRef .tc main_v347, Proc.devRef .tc main_c_68, Proc.devRef .tc main_v348, Proc.devRef .tc main_v349, Proc.devRef .tc main_v350, Proc.devRef .tc main_v351, Proc.devRef .tc main_v352, Proc.devRef .tc main_cst_69, Proc.devRef .tc main_v353, Proc.devRef .tc main_v354, Proc.devRef .tc main_v355, Proc.devRef .tc main_v356, Proc.devRef .tc main_c_70, Proc.devRef .tc main_v357, Proc.devRef .tc main_v358, Proc.devRef .tc main_c_71, Proc.devRef .tc main_v359, Proc.devRef .tc main_v360, Proc.devRef .tc main_v361, Proc.devRef .tc main_v362, Proc.devRef .tc main_v363, Proc.devRef .tc main_cst_72, Proc.devRef .tc main_v364, Proc.devRef .tc main_v365, Proc.devRef .tc main_v366, Proc.devRef .tc main_v367, Proc.devRef .tc main_v368, Proc.devRef .tc main_v369, Proc.devRef .tc main_v370, Proc.devRef .tc main_v371, Proc.devRef .tc main_v372} : Finset (DevRef τ sig))) :
    StableHlo.after (hostOps20 (F := Ideal)) W (no_index (Proc.devRef .tc b)) = W (Proc.devRef .tc b) := by
  refine StableHlo.after_of_forall_not_mem _ _ (List.forall_iff_forall_mem.mp ?_)
  simp only [hostOps20, List.Forall, StableHlo.nullary_writes, StableHlo.unary_writes, StableHlo.binary_writes, StableHlo.ternary_writes, StableHlo.reshape_writes, Finset.mem_singleton]
  simpa only [Finset.mem_insert, Finset.mem_singleton, not_or] using hb

/-- The shift onto the bus rows of the features at entry. -/
theorem host22_main_v399 (W : Valuation τ sig (Elt Ideal)) :
    StableHlo.after (hostOps22 (F := Ideal)) W (Proc.devRef .tc main_v399)
      = shiftBus (W (Proc.devRef .tc main_v356)) (W (Proc.devRef .tc main_v366)) (W (Proc.devRef .tc main_v1)) (W (Proc.devRef .tc main_v3)) (W (Proc.devRef .tc main_arg19)) (W (Proc.devRef .tc main_arg20)) := by
  after_results_simp
  unfold shiftBus
  with_reducible rfl

/-- The shift onto the generator rows of the features at entry. -/
theorem host22_main_v409 (W : Valuation τ sig (Elt Ideal)) :
    StableHlo.after (hostOps22 (F := Ideal)) W (Proc.devRef .tc main_v409)
      = shiftGen (W (Proc.devRef .tc main_v356)) (W (Proc.devRef .tc main_arg21)) (W (Proc.devRef .tc main_arg22)) := by
  after_results_simp
  unfold shiftGen
  with_reducible rfl

/-- One weight matrix out of the stacked weights. -/
theorem host22_main_v411 (W : Valuation τ sig (Elt Ideal)) :
    StableHlo.after (hostOps22 (F := Ideal)) W (Proc.devRef .tc main_v411)
      = (shapeCast S64x64 ((extractStridedSlice S1x1x64x64 ![1, 4, 0, 0] ((W (Proc.devRef .tc main_arg10) : FVec Ideal S2x5x64x64 .f32)) slices_S2x5x64x64_S1x1x64x64_1_4_0_0 : FVec Ideal S1x1x64x64 .f32)) shapeCasts_S1x1x64x64_S64x64 : FVec Ideal S64x64 .f32) := by
  after_results_simp <;> rfl

/-- One parameter vector out of the stacked parameters, as a one-row matrix. -/
theorem host22_main_v414 (W : Valuation τ sig (Elt Ideal)) :
    StableHlo.after (hostOps22 (F := Ideal)) W (Proc.devRef .tc main_v414)
      = (shapeCast S1x64 ((shapeCast S64 ((extractStridedSlice S1x1x64 ![1, 4, 0] ((W (Proc.devRef .tc main_arg11) : FVec Ideal S2x5x64 .f32)) slices_S2x5x64_S1x1x64_1_4_0 : FVec Ideal S1x1x64 .f32)) shapeCasts_S1x1x64_S64 : FVec Ideal S64 .f32)) shapeCasts_S64_S1x64 : FVec Ideal S1x64 .f32) := by
  after_results_simp <;> rfl

/-- A reshape of the entry contents. -/
theorem host22_main_v415 (W : Valuation τ sig (Elt Ideal)) :
    StableHlo.after (hostOps22 (F := Ideal)) W (Proc.devRef .tc main_v415)
      = (W (Proc.devRef .tc main_v372) : FVec Ideal S131072x64 .f32) := by
  after_results_simp <;> rfl

/-- A buffer no operation of the stretch writes is unchanged by it. -/
theorem host22_kept (W : Valuation τ sig (Elt Ideal)) (b : Ref sig .tc)
    (hb : Proc.devRef .tc b ∉ ({Proc.devRef .tc main_c_73, Proc.devRef .tc main_v379, Proc.devRef .tc main_v380, Proc.devRef .tc main_c_74, Proc.devRef .tc main_v381, Proc.devRef .tc main_v382, Proc.devRef .tc main_v383, Proc.devRef .tc main_v384, Proc.devRef .tc main_v385, Proc.devRef .tc main_cst_75, Proc.devRef .tc main_v386, Proc.devRef .tc main_v387, Proc.devRef .tc main_v388, Proc.devRef .tc main_c_76, Proc.devRef .tc main_v389, Proc.devRef .tc main_v390, Proc.devRef .tc main_c_77, Proc.devRef .tc main_v391, Proc.devRef .tc main_v392, Proc.devRef .tc main_v393, Proc.devRef .tc main_v394, Proc.devRef .tc main_v395, Proc.devRef .tc main_cst_78, Proc.devRef .tc main_v396, Proc.devRef .tc main_v397, Proc.devRef .tc main_v398, Proc.devRef .tc main_v399, Proc.devRef .tc main_c_79, Proc.devRef .tc main_v400, Proc.devRef .tc main_v401, Proc.devRef .tc main_c_80, Proc.devRef .tc main_v402, Proc.devRef .tc main_v403, Proc.devRef .tc main_v404, Proc.devRef .tc main_v405, Proc.devRef .tc main_v406, Proc.devRef .tc main_cst_81, Proc.devRef .tc main_v407, Proc.devRef .tc main_v408, Proc.devRef .tc main_v409, Proc.devRef .tc main_v410, Proc.devRef .tc main_v411, Proc.devRef .tc main_v412, Proc.devRef .tc main_v413, Proc.devRef .tc main_v414, Proc.devRef .tc main_v415} : Finset (DevRef τ sig))) :
    StableHlo.after (hostOps22 (F := Ideal)) W (no_index (Proc.devRef .tc b)) = W (Proc.devRef .tc b) := by
  refine StableHlo.after_of_forall_not_mem _ _ (List.forall_iff_forall_mem.mp ?_)
  simp only [hostOps22, List.Forall, StableHlo.nullary_writes, StableHlo.unary_writes, StableHlo.binary_writes, StableHlo.ternary_writes, StableHlo.reshape_writes, Finset.mem_singleton]
  simpa only [Finset.mem_insert, Finset.mem_singleton, not_or] using hb

end Cert.KernelIdeal.HV

end
-- ==== Proof.SpecNet.lean ====
/-
  The whole network as named stages over its twenty-three argument arrays, on the extended reals. The graph shift
  (gather along the edge lists, scatter-add into the target rows) enters as two functions given from outside, so
  that nothing here opens a gather or a scatter; the batch-norm statistics are the column mean and variance rows of
  the stage they normalise; the per-layer, per-tap weights and bias rows are the slices of the stacked arguments,
  spelt as the slice and the reshapes that cut them out.
-/
import proofs.«144873_j21182778704707_1_alg».proof.Proof.Spec
import Idealize.ShloMosaic.Lib.Pipeline.Value

noncomputable section

namespace Cert.Hgcn

open Idealize.ShloMosaic Idealize.ShloMosaic.ValueIdx

abbrev SB : Shape := ⟨2, ![131072, 64]⟩
abbrev SG : Shape := ⟨2, ![32768, 64]⟩
abbrev SE : Shape := ⟨1, ![2097152]⟩
abbrev SH : Shape := ⟨1, ![65536]⟩

/-- The argument arrays. -/
structure Args where
  xB : Mat 131072 32
  xG : Mat 32768 32
  winB : Mat 32 64
  binB : FVec Ideal ⟨1, ![64]⟩ .f32
  winG : Mat 32 64
  binG : FVec Ideal ⟨1, ![64]⟩ .f32
  gamB : Mat 2 64
  betB : Mat 2 64
  gamG : Mat 2 64
  betG : Mat 2 64
  tapWB : FVec Ideal ⟨4, ![2, 5, 64, 64]⟩ .f32
  tapCB : FVec Ideal ⟨3, ![2, 5, 64]⟩ .f32
  tapWG : FVec Ideal ⟨4, ![2, 5, 64, 64]⟩ .f32
  tapCG : FVec Ideal ⟨3, ![2, 5, 64]⟩ .f32
  woutB : Mat 64 32
  boutB : FVec Ideal ⟨1, ![32]⟩ .f32
  woutG : Mat 64 32
  boutG : FVec Ideal ⟨1, ![32]⟩ .f32
  eBB : IVec ⟨2, ![2, 2097152]⟩ 32
  gbSrc : IVec SH 32
  gbDst : IVec SH 32
  bgSrc : IVec SH 32
  bgDst : IVec SH 32

/-- A vector as one row. -/
def rowOf {M : ℕ} (v : FVec Ideal ⟨1, ![M]⟩ .f32) (h : (⟨1, ![M]⟩ : Shape).ShapeCasts ⟨2, ![1, M]⟩) : Mat 1 M :=
  shapeCast ⟨2, ![1, M]⟩ v h

/-- Row l of a [2, 64] parameter array, as a [1, 64] row (cut out, flattened, and laid out as a row again). -/
def parRow (l : ℕ) (g : Mat 2 64) (hs : (⟨2, ![2, 64]⟩ : Shape).Slices ![l, 0] ⟨2, ![1, 64]⟩) : Mat 1 64 :=
  shapeCast ⟨2, ![1, 64]⟩ (shapeCast ⟨1, ![64]⟩ (extractStridedSlice ⟨2, ![1, 64]⟩ ![l, 0] g hs) (by decide)) (by decide)

/-- The 64×64 weight of layer l, tap k. -/
def tapW (l k : ℕ) (w : FVec Ideal ⟨4, ![2, 5, 64, 64]⟩ .f32)
    (hs : (⟨4, ![2, 5, 64, 64]⟩ : Shape).Slices ![l, k, 0, 0] ⟨4, ![1, 1, 64, 64]⟩) : Mat 64 64 :=
  shapeCast ⟨2, ![64, 64]⟩ (extractStridedSlice ⟨4, ![1, 1, 64, 64]⟩ ![l, k, 0, 0] w hs) (by decide)

/-- The bias of layer l, tap k, as a [1, 64] row. -/
def tapC (l k : ℕ) (b : FVec Ideal ⟨3, ![2, 5, 64]⟩ .f32)
    (hs : (⟨3, ![2, 5, 64]⟩ : Shape).Slices ![l, k, 0] ⟨3, ![1, 1, 64]⟩) : Mat 1 64 :=
  shapeCast ⟨2, ![1, 64]⟩ (shapeCast ⟨1, ![64]⟩ (extractStridedSlice ⟨3, ![1, 1, 64]⟩ ![l, k, 0] b hs) (by decide)) (by decide)

/-- Row r of the bus-to-bus edge array, as a vector of 2,097,152 indices. -/
def edgeRow (r : ℕ) (e : IVec ⟨2, ![2, 2097152]⟩ 32) (hs : (⟨2, ![2, 2097152]⟩ : Shape).Slices ![r, 0] ⟨2, ![1, 2097152]⟩) : IVec SE 32 :=
  shapeCast SE (extractStridedSlice ⟨2, ![1, 2097152]⟩ ![r, 0] e hs) (by decide)

theorem hrB : SB.ReducesTo [0] ⟨1, ![64]⟩ := by decide
theorem hrG : SG.ReducesTo [0] ⟨1, ![64]⟩ := by decide
theorem h0 : 0 < (⟨0, ![]⟩ : Shape).numel := by decide

section Net

/- The two graph shifts: the bus rows' (from the bus and the gen activations, the bus-bus source and target rows and the
    gen-to-bus lists) and the gen rows' (from the bus activations and the bus-to-gen lists). -/
variable (shB : FVec Ideal SB .f32 → FVec Ideal SG .f32 → IVec SE 32 → IVec SE 32 → IVec SH 32 → IVec SH 32 → FVec Ideal SB .f32)
  (shG : FVec Ideal SB .f32 → IVec SH 32 → IVec SH 32 → FVec Ideal SG .f32)
  (a : Args)

def xb0 : Mat 131072 64 := lin a.xB a.winB (rowOf a.binB (by decide))
def xg0 : Mat 32768 64 := lin a.xG a.winG (rowOf a.binG (by decide))

/-- What the four taps carry: the shifted activations of the two node types and the two accumulators. -/
structure Tap where
  cb : Mat 131072 64
  cg : Mat 32768 64
  zb : Mat 131072 64
  zg : Mat 32768 64

/-- One layer's per-tap parameters: weights and bias rows of the two node types. -/
structure TapPar where
  wB : Mat 64 64
  cB : Mat 1 64
  wG : Mat 64 64
  cG : Mat 1 64

/-- Tap k of layer l: the slices of the stacked arguments. -/
def tapPar (l k : ℕ) (hw : (⟨4, ![2, 5, 64, 64]⟩ : Shape).Slices ![l, k, 0, 0] ⟨4, ![1, 1, 64, 64]⟩)
    (hc : (⟨3, ![2, 5, 64]⟩ : Shape).Slices ![l, k, 0] ⟨3, ![1, 1, 64]⟩) : TapPar :=
  ⟨tapW l k a.tapWB hw, tapC l k a.tapCB hc, tapW l k a.tapWG hw, tapC l k a.tapCG hc⟩

/-- The activations and the tap-0 accumulators of a layer entered with x: batch-norm over the rows, the leaky
    rectifier, then y·W₀ + b₀. -/
def tap0 (l : ℕ) (hs : (⟨2, ![2, 64]⟩ : Shape).Slices ![l, 0] ⟨2, ![1, 64]⟩) (p : TapPar) (xb : Mat 131072 64) (xg : Mat 32768 64) : Tap :=
  let yb := bnAct xb (parRow l a.gamB hs) (parRow l a.betB hs) (meanRow hrB h0 0x48000000#32 xb) (varRow hrB h0 0x48000000#32 xb)
  let yg := bnAct xg (parRow l a.gamG hs) (parRow l a.betG hs) (meanRow hrG h0 0x47000000#32 xg) (varRow hrG h0 0x47000000#32 xg)
  ⟨yb, yg, lin yb p.wB p.cB, lin yg p.wG p.cG⟩

/-- One further tap: shift both activations along the edges, then accumulate c·W_k + b_k. -/
def tapNext (p : TapPar) (s : Tap) : Tap :=
  let nb := shB s.cb s.cg (edgeRow 0 a.eBB (by decide)) (edgeRow 1 a.eBB (by decide)) a.gbSrc a.gbDst
  let ng := shG s.cb a.bgSrc a.bgDst
  ⟨nb, ng, tapAcc s.zb nb p.wB p.cB, tapAcc s.zg ng p.wG p.cG⟩

/-- A layer's state after tap k (k = 0 … 4). -/
def tapAt (l : ℕ) (hs : (⟨2, ![2, 64]⟩ : Shape).Slices ![l, 0] ⟨2, ![1, 64]⟩) (par : ℕ → TapPar) (xb : Mat 131072 64) (xg : Mat 32768 64) : ℕ → Tap
  | 0 => tap0 a l hs (par 0) xb xg
  | k + 1 => tapNext shB shG a (par (k + 1)) (tapAt l hs par xb xg k)

/-- The per-tap parameters of layers 0 and 1. -/
def par0 : ℕ → TapPar
  | 0 => tapPar a 0 0 (by decide) (by decide)
  | 1 => tapPar a 0 1 (by decide) (by decide)
  | 2 => tapPar a 0 2 (by decide) (by decide)
  | 3 => tapPar a 0 3 (by decide) (by decide)
  | _ => tapPar a 0 4 (by decide) (by decide)
def par1 : ℕ → TapPar
  | 0 => tapPar a 1 0 (by decide) (by decide)
  | 1 => tapPar a 1 1 (by decide) (by decide)
  | 2 => tapPar a 1 2 (by decide) (by decide)
  | 3 => tapPar a 1 3 (by decide) (by decide)
  | _ => tapPar a 1 4 (by decide) (by decide)

/-- Layer 0's state after tap k, and the residual sums that leave it. -/
def t0 (k : ℕ) : Tap := tapAt shB shG a 0 (by decide) (par0 a) (xb0 a) (xg0 a) k
def xb1 : Mat 131072 64 := addf (xb0 a) (t0 shB shG a 4).zb
def xg1 : Mat 32768 64 := addf (xg0 a) (t0 shB shG a 4).zg
/-- Layer 1's. -/
def t1 (k : ℕ) : Tap := tapAt shB shG a 1 (by decide) (par1 a) (xb1 shB shG a) (xg1 shB shG a) k
def xb2 : Mat 131072 64 := addf (xb1 shB shG a) (t1 shB shG a 4).zb
def xg2 : Mat 32768 64 := addf (xg1 shB shG a) (t1 shB shG a 4).zg

/-- The two results. -/
def outB : Mat 131072 32 := lin (xb2 shB shG a) a.woutB (rowOf a.boutB (by decide))
def outG : Mat 32768 32 := lin (xg2 shB shG a) a.woutG (rowOf a.boutG (by decide))

end Net

end Cert.Hgcn

end
-- ==== Proof.LibButterfly.lean ====
/-
  One butterfly stage of Givens rotations on the rows of an array of width W = nb · 2 · st, read entry by entry.
  A row is cut into nb blocks of 2 · st entries; inside a block the first st entries (the half 0) are paired with the
  last st entries (the half 1), entry o of one half with entry o of the other, and the pair (a, b) at block b,
  offset o is rotated by the angle t(b, o):  a ↦ cos t · a − sin t · b,  b ↦ sin t · a + cos t · b.
  The position of (block b, half hf, offset o) in its row is (b · 2 + hf) · st + o.
  Both programs compute the stage through the same layout steps (view the array as [R, nb, 2, st], slice the two
  halves, multiply by the broadcast cosines and sines, join the halves again, view as [R, W]); this file reads
  each layout step at an index, for any extents.
-/
import Idealize.ShloMosaic.Lib.Pipeline.Value
import Idealize.ShloMosaic.Lib.ValueIdx
import Idealize.ShloMosaic.PureOps.Ideal

noncomputable section

namespace Cert.Bfly

open Idealize.ShloMosaic Idealize.ShloMosaic.ValueIdx

variable {α : Type} {R nb st W : ℕ}

/-- The position in its row of the entry at block b, half hf, offset o. -/
def pos (b : Fin nb) (hf : Fin 2) (o : Fin st) : ℕ := (b.val * 2 + hf.val) * st + o.val

theorem pos_lt (hW : nb * 2 * st = W) (b : Fin nb) (hf : Fin 2) (o : Fin st) : pos b hf o < W := by
  unfold pos
  have hb := b.isLt; have hh := hf.isLt; have ho := o.isLt
  calc (b.val * 2 + hf.val) * st + o.val < (b.val * 2 + hf.val) * st + st := by omega
    _ = (b.val * 2 + hf.val + 1) * st := by ring
    _ ≤ (nb * 2) * st := Nat.mul_le_mul_right _ (by omega)
    _ = W := hW

/-- The column of the entry at block b, half hf, offset o. -/
def col (hW : nb * 2 * st = W) (b : Fin nb) (hf : Fin 2) (o : Fin st) : Fin W := ⟨pos b hf o, pos_lt hW b hf o⟩

/-- Every column is the column of some (block, half, offset). -/
theorem col_surj (hW : nb * 2 * st = W) (k : Fin W) : ∃ (b : Fin nb) (hf : Fin 2) (o : Fin st), k = col hW b hf o := by
  have hk := k.isLt
  have hst : 0 < st := by
    rcases Nat.eq_zero_or_pos st with h | h
    · subst h; simp at hW; omega
    · exact h
  have hq : k.val / st < nb * 2 := by
    apply Nat.div_lt_of_lt_mul
    calc k.val < W := hk
      _ = nb * 2 * st := hW.symm
      _ = st * (nb * 2) := by ring
  refine ⟨⟨k.val / st / 2, by omega⟩, ⟨k.val / st % 2, Nat.mod_lt _ (by decide)⟩, ⟨k.val % st, Nat.mod_lt _ hst⟩, ?_⟩
  apply Fin.ext
  show k.val = (k.val / st / 2 * 2 + k.val / st % 2) * st + k.val % st
  rw [Nat.div_add_mod' (k.val / st) 2, Nat.div_add_mod' k.val st]

/-- The view of an [R, W] array as [R, nb, 2, st]: entry (r, b, hf, o) is entry (r, col b hf o). -/
theorem split_apply (hW : nb * 2 * st = W) (h : (⟨2, ![R, W]⟩ : Shape).Idx → α)
    (hc : (⟨2, ![R, W]⟩ : Shape).ShapeCasts ⟨4, ![R, nb, 2, st]⟩) (r : Fin R) (b : Fin nb) (hf : Fin 2) (o : Fin st) :
    shapeCast ⟨4, ![R, nb, 2, st]⟩ h hc (ix4 r b hf o) = h (ix2 r (col hW b hf o)) := by
  refine shapeCast_apply h hc _ _ ?_
  rw [Shape.rowMajor_val_two, Shape.rowMajor_val_four]
  show r.val * W + ((b.val * 2 + hf.val) * st + o.val) = ((r.val * nb + b.val) * 2 + hf.val) * st + o.val
  rw [← hW]; ring

/-- The view of an [R, nb, 2, st] array as [R, W]: entry (r, col b hf o) is entry (r, b, hf, o). -/
theorem join_apply (hW : nb * 2 * st = W) (X : (⟨4, ![R, nb, 2, st]⟩ : Shape).Idx → α)
    (hc : (⟨4, ![R, nb, 2, st]⟩ : Shape).ShapeCasts ⟨2, ![R, W]⟩) (r : Fin R) (b : Fin nb) (hf : Fin 2) (o : Fin st) :
    shapeCast ⟨2, ![R, W]⟩ X hc (ix2 r (col hW b hf o)) = X (ix4 r b hf o) := by
  refine shapeCast_apply X hc _ _ ?_
  rw [Shape.rowMajor_val_two, Shape.rowMajor_val_four]
  show ((r.val * nb + b.val) * 2 + hf.val) * st + o.val = r.val * W + ((b.val * 2 + hf.val) * st + o.val)
  rw [← hW]; ring

/-- Half e (0 or 1) of the [R, nb, 2, st] view, with its unit axis dropped: entry (r, b, o) is entry (r, b, e, o). -/
theorem half_apply (e : Fin 2) (X : (⟨4, ![R, nb, 2, st]⟩ : Shape).Idx → α)
    (hs : (⟨4, ![R, nb, 2, st]⟩ : Shape).Slices ![0, 0, e.val, 0] ⟨4, ![R, nb, 1, st]⟩)
    (hc : (⟨4, ![R, nb, 1, st]⟩ : Shape).ShapeCasts ⟨3, ![R, nb, st]⟩) (r : Fin R) (b : Fin nb) (o : Fin st) :
    shapeCast ⟨3, ![R, nb, st]⟩ (extractStridedSlice ⟨4, ![R, nb, 1, st]⟩ ![0, 0, e.val, 0] X hs) hc (ix3 r b o)
      = X (ix4 r b e o) := by
  refine (shapeCast_apply _ hc (ix3 r b o) (ix4 r b (0 : Fin 1) o) ?_).trans ?_
  · rw [Shape.rowMajor_val_four, Shape.rowMajor_val_three]
    show ((r.val * nb + b.val) * 1 + 0) * st + o.val = (r.val * nb + b.val) * st + o.val
    ring
  · refine extractStridedSlice_apply _ X hs _ _ fun a => ?_
    match a with
    | ⟨0, _⟩ => show r.val = 0 + r.val; omega
    | ⟨1, _⟩ => show b.val = 0 + b.val; omega
    | ⟨2, _⟩ => show e.val = e.val + 0; omega
    | ⟨3, _⟩ => show o.val = 0 + o.val; omega

/-- A unit axis put back by a shape cast: entry (r, b, 0, o) is entry (r, b, o). -/
theorem unitCast_apply (v : (⟨3, ![R, nb, st]⟩ : Shape).Idx → α)
    (hc : (⟨3, ![R, nb, st]⟩ : Shape).ShapeCasts ⟨4, ![R, nb, 1, st]⟩) (r : Fin R) (b : Fin nb) (o : Fin st) :
    shapeCast ⟨4, ![R, nb, 1, st]⟩ v hc (ix4 r b (0 : Fin 1) o) = v (ix3 r b o) := by
  refine shapeCast_apply v hc _ _ ?_
  rw [Shape.rowMajor_val_four, Shape.rowMajor_val_three]
  show (r.val * nb + b.val) * st + o.val = ((r.val * nb + b.val) * 1 + 0) * st + o.val
  ring

/-- A unit axis put back by a broadcast along the axes 0, 1, 3: entry (r, b, 0, o) is entry (r, b, o). -/
theorem unitBcast_apply (v : (⟨3, ![R, nb, st]⟩ : Shape).Idx → α)
    (hb : (⟨3, ![R, nb, st]⟩ : Shape).BroadcastsInDim ⟨4, ![R, nb, 1, st]⟩ ![0, 1, 3]) (r : Fin R) (b : Fin nb) (o : Fin st) :
    broadcastInDim ⟨4, ![R, nb, 1, st]⟩ ![0, 1, 3] hb v (ix4 r b (0 : Fin 1) o) = v (ix3 r b o) := by
  refine broadcastInDim_apply _ hb v _ _ fun a => ?_
  match a with
  | ⟨0, _⟩ =>
    show r.val = if R = 1 then 0 else r.val
    split
    · have := r.isLt; omega
    · rfl
  | ⟨1, _⟩ =>
    show b.val = if nb = 1 then 0 else b.val
    split
    · have := b.isLt; omega
    · rfl
  | ⟨2, _⟩ =>
    show o.val = if st = 1 then 0 else o.val
    split
    · have := o.isLt; omega
    · rfl

/-- The two halves joined along the axis 2: half 0 comes from the first piece, half 1 from the second. -/
theorem cat_apply (A B : (⟨4, ![R, nb, 1, st]⟩ : Shape).Idx → α)
    (hcat : Shape.Concatenates [(⟨4, ![R, nb, 1, st]⟩ : Shape), ⟨4, ![R, nb, 1, st]⟩] ⟨4, ![R, nb, 2, st]⟩ 2)
    (r : Fin R) (b : Fin nb) (hf : Fin 2) (o : Fin st) :
    concatenate ⟨4, ![R, nb, 2, st]⟩ 2 [⟨⟨4, ![R, nb, 1, st]⟩, A⟩, ⟨⟨4, ![R, nb, 1, st]⟩, B⟩] hcat (ix4 r b hf o)
      = if hf = 0 then A (ix4 r b (0 : Fin 1) o) else B (ix4 r b (0 : Fin 1) o) := by
  by_cases h0 : hf = 0
  · subst h0
    rw [if_pos rfl]
    refine concatenate_pair_apply_left (t := ⟨4, ![R, nb, 2, st]⟩) 2 A B hcat _ rfl _ fun a => ?_
    match a with
    | ⟨0, _⟩ => rfl
    | ⟨1, _⟩ => rfl
    | ⟨2, _⟩ => rfl
    | ⟨3, _⟩ => rfl
  · rw [if_neg h0]
    have h1 : hf.val = 1 := by
      have := hf.isLt
      have : hf.val ≠ 0 := fun h => h0 (Fin.ext h)
      omega
    refine concatenate_pair_apply_right (t := ⟨4, ![R, nb, 2, st]⟩) 2 A B hcat _ rfl rfl _ (fun a ha => ?_) ?_
    · match a with
      | ⟨0, _⟩ => rfl
      | ⟨1, _⟩ => rfl
      | ⟨2, _⟩ => exact absurd rfl ha
      | ⟨3, _⟩ => rfl
    · show 0 + 1 = hf.val
      omega

variable {T N : ℕ}

/-- The position of the angle of block b, offset o among the nb · st angles of a stage. -/
theorem tpos_lt (hT : nb * st = T) (b : Fin nb) (o : Fin st) : b.val * st + o.val < T := by
  have hb := b.isLt; have ho := o.isLt
  calc b.val * st + o.val < b.val * st + st := by omega
    _ = (b.val + 1) * st := by ring
    _ ≤ nb * st := Nat.mul_le_mul_right _ (by omega)
    _ = T := hT

/-- A table [nb, st] given a leading unit axis and broadcast over the rows: entry (r, b, o) is entry (b, o). -/
theorem rowsCast_apply (c2 : (⟨2, ![nb, st]⟩ : Shape).Idx → α)
    (hc : (⟨2, ![nb, st]⟩ : Shape).ShapeCasts ⟨3, ![1, nb, st]⟩)
    (hb : (⟨3, ![1, nb, st]⟩ : Shape).Broadcasts ⟨3, ![R, nb, st]⟩) (r : Fin R) (b : Fin nb) (o : Fin st) :
    broadcastTo ⟨3, ![R, nb, st]⟩ (shapeCast ⟨3, ![1, nb, st]⟩ c2 hc) hb (ix3 r b o) = c2 (ix2 b o) := by
  refine (broadcastTo_apply _ hb (ix3 r b o) (ix3 (0 : Fin 1) b o) fun a => ?_).trans ?_
  · match a with
    | ⟨0, _⟩ => show 0 = if (1 : ℕ) = 1 then 0 else _; rw [if_pos rfl]
    | ⟨1, _⟩ =>
      show b.val = if nb = 1 then 0 else b.val
      split
      · have := b.isLt; omega
      · rfl
    | ⟨2, _⟩ =>
      show o.val = if st = 1 then 0 else o.val
      split
      · have := o.isLt; omega
      · rfl
  · refine shapeCast_apply c2 hc _ _ ?_
    rw [Shape.rowMajor_val_two, Shape.rowMajor_val_three]
    show b.val * st + o.val = (0 * nb + b.val) * st + o.val
    ring

/-- The same through two broadcasts that name their axes: entry (r, b, o) is entry (b, o). -/
theorem rowsBcast_apply (c2 : (⟨2, ![nb, st]⟩ : Shape).Idx → α)
    (hb1 : (⟨2, ![nb, st]⟩ : Shape).BroadcastsInDim ⟨3, ![1, nb, st]⟩ ![1, 2])
    (hb2 : (⟨3, ![1, nb, st]⟩ : Shape).BroadcastsInDim ⟨3, ![R, nb, st]⟩ ![0, 1, 2]) (r : Fin R) (b : Fin nb) (o : Fin st) :
    broadcastInDim ⟨3, ![R, nb, st]⟩ ![0, 1, 2] hb2 (broadcastInDim ⟨3, ![1, nb, st]⟩ ![1, 2] hb1 c2) (ix3 r b o) = c2 (ix2 b o) := by
  refine (broadcastInDim_apply _ hb2 _ (ix3 r b o) (ix3 (0 : Fin 1) b o) fun a => ?_).trans ?_
  · match a with
    | ⟨0, _⟩ => show 0 = if (1 : ℕ) = 1 then 0 else _; rw [if_pos rfl]
    | ⟨1, _⟩ =>
      show b.val = if nb = 1 then 0 else b.val
      split
      · have := b.isLt; omega
      · rfl
    | ⟨2, _⟩ =>
      show o.val = if st = 1 then 0 else o.val
      split
      · have := o.isLt; omega
      · rfl
  · refine broadcastInDim_apply _ hb1 c2 _ _ fun a => ?_
    match a with
    | ⟨0, _⟩ =>
      show b.val = if nb = 1 then 0 else b.val
      split
      · have := b.isLt; omega
      · rfl
    | ⟨1, _⟩ =>
      show o.val = if st = 1 then 0 else o.val
      split
      · have := o.isLt; omega
      · rfl

/-- A row [1, T] of angles viewed as a vector and then as [nb, st]: entry (b, o) is entry (0, b · st + o). -/
theorem tableK_apply (hT : nb * st = T) (v : (⟨2, ![1, T]⟩ : Shape).Idx → α)
    (h1 : (⟨2, ![1, T]⟩ : Shape).ShapeCasts ⟨1, ![T]⟩) (h2 : (⟨1, ![T]⟩ : Shape).ShapeCasts ⟨2, ![nb, st]⟩)
    (b : Fin nb) (o : Fin st) :
    shapeCast ⟨2, ![nb, st]⟩ (shapeCast ⟨1, ![T]⟩ v h1) h2 (ix2 b o) = v (ix2 (0 : Fin 1) ⟨b.val * st + o.val, tpos_lt hT b o⟩) := by
  refine (shapeCast_apply _ h2 (ix2 b o) (ix1 ⟨b.val * st + o.val, tpos_lt hT b o⟩) ?_).trans ?_
  · rw [Shape.rowMajor_val_one, Shape.rowMajor_val_two]; rfl
  · refine shapeCast_apply v h1 _ _ ?_
    rw [Shape.rowMajor_val_one, Shape.rowMajor_val_two]
    show 0 * T + (b.val * st + o.val) = b.val * st + o.val
    ring

/-- The T angles from offset off of a vector of N angles, viewed as [nb, st]: entry (b, o) is entry off + b · st + o. -/
theorem tableR_apply (off : ℕ) (θ : (⟨1, ![N]⟩ : Shape).Idx → α)
    (hs : (⟨1, ![N]⟩ : Shape).Slices ![off] ⟨1, ![T]⟩) (hc : (⟨1, ![T]⟩ : Shape).ShapeCasts ⟨2, ![nb, st]⟩)
    (hT : nb * st = T) (b : Fin nb) (o : Fin st) (hlt : off + (b.val * st + o.val) < N) :
    shapeCast ⟨2, ![nb, st]⟩ (extractStridedSlice ⟨1, ![T]⟩ ![off] θ hs) hc (ix2 b o) = θ (ix1 ⟨off + (b.val * st + o.val), hlt⟩) := by
  refine (shapeCast_apply _ hc (ix2 b o) (ix1 ⟨b.val * st + o.val, tpos_lt hT b o⟩) ?_).trans ?_
  · rw [Shape.rowMajor_val_one, Shape.rowMajor_val_two]; rfl
  · refine extractStridedSlice_apply _ θ hs _ _ fun a => ?_
    match a with
    | ⟨0, _⟩ => rfl

/-! ## The stage -/

section Stage

variable (hW : nb * 2 * st = W)

/-- One stage over the [R, nb, 2, st] view, given the cosines C and sines S already laid out as [R, nb, st] and the way a
    rotated half gets its unit axis back (unit): the halves a, b become C·a − S·b and S·a + C·b. -/
def core
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (unit : FVec Ideal ⟨3, ![R, nb, st]⟩ .f32 → FVec Ideal ⟨4, ![R, nb, 1, st]⟩ .f32)
    (C S : FVec Ideal ⟨3, ![R, nb, st]⟩ .f32) (h : FVec Ideal ⟨2, ![R, W]⟩ .f32) : FVec Ideal ⟨2, ![R, W]⟩ .f32 :=
  shapeCast ⟨2, ![R, W]⟩
    (concatenate ⟨4, ![R, nb, 2, st]⟩ 2
      [⟨⟨4, ![R, nb, 1, st]⟩, unit (subf
          (mulf C (shapeCast ⟨3, ![R, nb, st]⟩ (extractStridedSlice ⟨4, ![R, nb, 1, st]⟩ ![0, 0, 0, 0] (shapeCast ⟨4, ![R, nb, 2, st]⟩ h hsplit) hs0) hdrop))
          (mulf S (shapeCast ⟨3, ![R, nb, st]⟩ (extractStridedSlice ⟨4, ![R, nb, 1, st]⟩ ![0, 0, 1, 0] (shapeCast ⟨4, ![R, nb, 2, st]⟩ h hsplit) hs1) hdrop)))⟩,
       ⟨⟨4, ![R, nb, 1, st]⟩, unit (addf
          (mulf S (shapeCast ⟨3, ![R, nb, st]⟩ (extractStridedSlice ⟨4, ![R, nb, 1, st]⟩ ![0, 0, 0, 0] (shapeCast ⟨4, ![R, nb, 2, st]⟩ h hsplit) hs0) hdrop))
          (mulf C (shapeCast ⟨3, ![R, nb, st]⟩ (extractStridedSlice ⟨4, ![R, nb, 1, st]⟩ ![0, 0, 1, 0] (shapeCast ⟨4, ![R, nb, 2, st]⟩ h hsplit) hs1) hdrop)))⟩]
      hcat)
    hjoin

/-- The stage entry by entry: at block b, offset o the half 0 becomes C·a − S·b and the half 1 becomes S·a + C·b,
    a and b the entries of the two halves at (b, o) in the same row. -/
theorem core_apply hsplit hs0 hs1 hdrop hcat hjoin
    (unit : FVec Ideal ⟨3, ![R, nb, st]⟩ .f32 → FVec Ideal ⟨4, ![R, nb, 1, st]⟩ .f32)
    (hunit : ∀ v r b o, unit v (ix4 r b (0 : Fin 1) o) = v (ix3 r b o))
    (C S : FVec Ideal ⟨3, ![R, nb, st]⟩ .f32) (h : FVec Ideal ⟨2, ![R, W]⟩ .f32)
    (r : Fin R) (b : Fin nb) (hf : Fin 2) (o : Fin st) :
    core hsplit hs0 hs1 hdrop hcat hjoin unit C S h (ix2 r (col hW b hf o))
      = if hf = 0 then C (ix3 r b o) * h (ix2 r (col hW b 0 o)) - S (ix3 r b o) * h (ix2 r (col hW b 1 o))
        else S (ix3 r b o) * h (ix2 r (col hW b 0 o)) + C (ix3 r b o) * h (ix2 r (col hW b 1 o)) := by
  unfold core
  rw [join_apply hW, cat_apply, hunit, hunit]
  have ha : shapeCast ⟨3, ![R, nb, st]⟩ (extractStridedSlice ⟨4, ![R, nb, 1, st]⟩ ![0, 0, 0, 0] (shapeCast ⟨4, ![R, nb, 2, st]⟩ h hsplit) hs0) hdrop (ix3 r b o)
      = h (ix2 r (col hW b 0 o)) :=
    (half_apply (0 : Fin 2) _ hs0 hdrop r b o).trans (split_apply hW h hsplit r b 0 o)
  have hb : shapeCast ⟨3, ![R, nb, st]⟩ (extractStridedSlice ⟨4, ![R, nb, 1, st]⟩ ![0, 0, 1, 0] (shapeCast ⟨4, ![R, nb, 2, st]⟩ h hsplit) hs1) hdrop (ix3 r b o)
      = h (ix2 r (col hW b 1 o)) :=
    (half_apply (1 : Fin 2) _ hs1 hdrop r b o).trans (split_apply hW h hsplit r b 1 o)
  rw [subf_apply, addf_apply, mulf_apply, mulf_apply, mulf_apply, mulf_apply, ha, hb]

end Stage

/-! ## Rows -/

/-- Y holds, row for row, the rows e of X. -/
def RowsOf {R' n : ℕ} (e : Fin R' → Fin R) (Y : (⟨2, ![R', n]⟩ : Shape).Idx → EReal) (X : (⟨2, ![R, n]⟩ : Shape).Idx → EReal) : Prop :=
  ∀ (r : Fin R') (k : Fin n), Y (ix2 r k) = X (ix2 (e r) k)

/-! ## The stage as each program spells it -/

section Spellings

variable {R' off : ℕ}

theorem hostCos_apply {s : Shape} (x : FVec Ideal s .f32) (i : s.Idx) : Host.cos x i = FloatOps.hostUnary (F := Ideal) .cos (x i) := rfl
theorem hostSin_apply {s : Shape} (x : FVec Ideal s .f32) (i : s.Idx) : Host.sin x i = FloatOps.hostUnary (F := Ideal) .sin (x i) := rfl

/-- The stage with the cosines and sines given as rows [1, T] of ready-made tables: each row is viewed as [nb, st], given a
    leading unit axis and broadcast over the R rows; a rotated half gets its unit axis back by a shape cast. -/
def stageK
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (hins : (⟨3, ![R, nb, st]⟩ : Shape).ShapeCasts ⟨4, ![R, nb, 1, st]⟩)
    (q1 : (⟨2, ![1, T]⟩ : Shape).ShapeCasts ⟨1, ![T]⟩) (q2 : (⟨1, ![T]⟩ : Shape).ShapeCasts ⟨2, ![nb, st]⟩)
    (q3 : (⟨2, ![nb, st]⟩ : Shape).ShapeCasts ⟨3, ![1, nb, st]⟩) (qb : (⟨3, ![1, nb, st]⟩ : Shape).Broadcasts ⟨3, ![R, nb, st]⟩)
    (vc vs : FVec Ideal ⟨2, ![1, T]⟩ .f32) (h : FVec Ideal ⟨2, ![R, W]⟩ .f32) : FVec Ideal ⟨2, ![R, W]⟩ .f32 :=
  core hsplit hs0 hs1 hdrop hcat hjoin (fun v => shapeCast ⟨4, ![R, nb, 1, st]⟩ v hins)
    (broadcastTo ⟨3, ![R, nb, st]⟩ (shapeCast ⟨3, ![1, nb, st]⟩ (shapeCast ⟨2, ![nb, st]⟩ (shapeCast ⟨1, ![T]⟩ vc q1) q2) q3) qb)
    (broadcastTo ⟨3, ![R, nb, st]⟩ (shapeCast ⟨3, ![1, nb, st]⟩ (shapeCast ⟨2, ![nb, st]⟩ (shapeCast ⟨1, ![T]⟩ vs q1) q2) q3) qb)
    h

/-- The stage with the angles taken from a vector of N angles at offset off: the T angles are viewed as [nb, st], their
    cosines and sines broadcast over the R rows through two broadcasts that name their axes; a rotated half gets its unit
    axis back by a broadcast along the axes 0, 1, 3. -/
def stageR (off : ℕ)
    (hsplit : (⟨2, ![R, W]⟩ : Shape).ShapeCasts ⟨4, ![R, nb, 2, st]⟩)
    (hs0 : (⟨4, ![R, nb, 2, st]⟩ : Shape).Slices ![0, 0, 0, 0] ⟨4, ![R, nb, 1, st]⟩)
    (hs1 : (⟨4, ![R, nb, 2, st]⟩ : Shape).Slices ![0, 0, 1, 0] ⟨4, ![R, nb, 1, st]⟩)
    (hdrop : (⟨4, ![R, nb, 1, st]⟩ : Shape).ShapeCasts ⟨3, ![R, nb, st]⟩)
    (hcat : Shape.Concatenates [(⟨4, ![R, nb, 1, st]⟩ : Shape), ⟨4, ![R, nb, 1, st]⟩] ⟨4, ![R, nb, 2, st]⟩ 2)
    (hjoin : (⟨4, ![R, nb, 2, st]⟩ : Shape).ShapeCasts ⟨2, ![R, W]⟩)
    (hins : (⟨3, ![R, nb, st]⟩ : Shape).BroadcastsInDim ⟨4, ![R, nb, 1, st]⟩ ![0, 1, 3])
    (ps : (⟨1, ![N]⟩ : Shape).Slices ![off] ⟨1, ![T]⟩) (pc : (⟨1, ![T]⟩ : Shape).ShapeCasts ⟨2, ![nb, st]⟩)
    (p1 : (⟨2, ![nb, st]⟩ : Shape).BroadcastsInDim ⟨3, ![1, nb, st]⟩ ![1, 2])
    (p2 : (⟨3, ![1, nb, st]⟩ : Shape).BroadcastsInDim ⟨3, ![R, nb, st]⟩ ![0, 1, 2])
    (θ : FVec Ideal ⟨1, ![N]⟩ .f32) (h : FVec Ideal ⟨2, ![R, W]⟩ .f32) : FVec Ideal ⟨2, ![R, W]⟩ .f32 :=
  core hsplit hs0 hs1 hdrop hcat hjoin (fun v => broadcastInDim ⟨4, ![R, nb, 1, st]⟩ ![0, 1, 3] hins v)
    (broadcastInDim ⟨3, ![R, nb, st]⟩ ![0, 1, 2] p2 (broadcastInDim ⟨3, ![1, nb, st]⟩ ![1, 2] p1
      (Host.cos (shapeCast ⟨2, ![nb, st]⟩ (extractStridedSlice ⟨1, ![T]⟩ ![off] θ ps) pc))))
    (broadcastInDim ⟨3, ![R, nb, st]⟩ ![0, 1, 2] p2 (broadcastInDim ⟨3, ![1, nb, st]⟩ ![1, 2] p1
      (Host.sin (shapeCast ⟨2, ![nb, st]⟩ (extractStridedSlice ⟨1, ![T]⟩ ![off] θ ps) pc))))
    h

/-- Row for row the two spellings agree: if Y holds the rows e of X and the ready-made tables hold the cosines and sines
    of the angles at off …, then the stage of Y holds the rows e of the stage of X. -/
theorem stage_rows (hW : nb * 2 * st = W) (hT : nb * st = T) (hoff : off + T ≤ N) (e : Fin R' → Fin R)
    hsplit hs0 hs1 hdrop hcat hjoin hins q1 q2 q3 qb
    hsplit' hs0' hs1' hdrop' hcat' hjoin' hins' ps pc p1 p2
    (vc vs : FVec Ideal ⟨2, ![1, T]⟩ .f32) (θ : FVec Ideal ⟨1, ![N]⟩ .f32)
    (hvc : ∀ (j : Fin T) (hlt : off + j.val < N), vc (ix2 (0 : Fin 1) j) = FloatOps.hostUnary (F := Ideal) .cos (θ (ix1 ⟨off + j.val, hlt⟩)))
    (hvs : ∀ (j : Fin T) (hlt : off + j.val < N), vs (ix2 (0 : Fin 1) j) = FloatOps.hostUnary (F := Ideal) .sin (θ (ix1 ⟨off + j.val, hlt⟩)))
    (Y : FVec Ideal ⟨2, ![R', W]⟩ .f32) (X : FVec Ideal ⟨2, ![R, W]⟩ .f32) (hY : RowsOf e Y X) :
    RowsOf e (stageK (R := R') (nb := nb) (st := st) (T := T) hsplit hs0 hs1 hdrop hcat hjoin hins q1 q2 q3 qb vc vs Y)
      (stageR (R := R) (nb := nb) (st := st) (T := T) (N := N) off hsplit' hs0' hs1' hdrop' hcat' hjoin' hins' ps pc p1 p2 θ X) := by
  intro r k
  obtain ⟨b, hf, o, rfl⟩ := col_surj hW k
  have hlt : off + (b.val * st + o.val) < N := by have := tpos_lt hT b o; omega
  unfold stageK stageR
  rw [core_apply hW _ _ _ _ _ _ _ (fun v r b o => unitCast_apply v hins r b o),
    core_apply hW _ _ _ _ _ _ _ (fun v r b o => unitBcast_apply v hins' r b o),
    rowsCast_apply, rowsCast_apply, tableK_apply hT, tableK_apply hT,
    rowsBcast_apply, rowsBcast_apply, hostCos_apply, hostSin_apply, tableR_apply off θ ps pc hT b o hlt,
    hvc _ hlt, hvs _ hlt, hY, hY]

end Spellings

end Cert.Bfly

end
-- ==== Proof.LibDenseRows.lean ====
/-
  A row-tiled affine layer x · w + b and the maximum with zero, read entry by entry for any extents, in the two
  spellings the programs use (a matrix unit's product into a zero accumulator with a [1, N] bias broadcast over the
  rows; a host product with an [N] bias broadcast through [1, N]). Every product is the plain finite sum over the
  contracted coordinate, so a layer applied to some rows of an array gives the same rows of the layer applied to the
  whole array.
-/
import Idealize.ShloMosaic.Lib.Pipeline.Value
import Idealize.ShloMosaic.Lib.ValueIdx
import Idealize.ShloMosaic.Lib.StackMember
import Idealize.ShloMosaic.PureOps.Ideal.Laws
import proofs.«144873_j21182778704707_1_alg».proof.Proof.LibButterfly

noncomputable section

namespace Cert.Dense

open Idealize.ShloMosaic Idealize.ShloMosaic.ValueIdx Cert.Bfly

variable {R R' K N : ℕ} {φ₁ φ₂ : FTy}

/-- The plain product of an R×K by a K×N matrix into a zero accumulator, read at an index, is the sum over the
    contracted coordinate of the products of the entries. -/
theorem matmul_plain_apply (prec : Option ContractPrecision)
    (A : FVec Ideal ⟨2, ![R, K]⟩ φ₁) (B : FVec Ideal ⟨2, ![K, N]⟩ φ₂) (a : Fin R) (b : Fin N) :
    matmul (DotDims.plain R K N) prec A B (constant ⟨2, ![R, N]⟩ .f32 0x00000000#32) (ix2 a b) = ∑ c : Fin K, A (ix2 a c) * B (ix2 c b) := by
  show FloatOps.matmul _ prec A B _ (ix2 a b) = _
  rw [Ideal.matmul_constant_zero_apply, ← Equiv.sum_comp (contrEquiv1 (DotDims.plain R K N) K rfl rfl).symm]
  refine Finset.sum_congr rfl fun c _ => ?_
  have c2 := contrEquiv1_symm_val (DotDims.plain R K N) K rfl rfl c
  have l2 : (DotDims.plain R K N).lhsIdx (ix2 a b) ((contrEquiv1 _ K rfl rfl).symm c) = ix2 a c := by
    funext ax; apply Fin.ext
    match ax with
    | ⟨0, _⟩ => simp [DotDims.lhsIdx, DotDims.plain]; rfl
    | ⟨1, _⟩ => simp [DotDims.lhsIdx, DotDims.plain]; exact c2
  have r2 : (DotDims.plain R K N).rhsIdx (ix2 a b) ((contrEquiv1 _ K rfl rfl).symm c) = ix2 c b := by
    funext ax; apply Fin.ext
    match ax with
    | ⟨0, _⟩ => simp [DotDims.rhsIdx, DotDims.plain]; exact c2
    | ⟨1, _⟩ => simp [DotDims.rhsIdx, DotDims.plain]; rfl
  rw [l2, r2]

/-- The affine layer as a matrix unit computes it: the product into a zero accumulator plus the [1, N] bias broadcast over
    the rows. -/
def affK (pb : (⟨2, ![1, N]⟩ : Shape).Broadcasts ⟨2, ![R, N]⟩)
    (x : FVec Ideal ⟨2, ![R, K]⟩ φ₁) (w : FVec Ideal ⟨2, ![K, N]⟩ φ₂) (bias : FVec Ideal ⟨2, ![1, N]⟩ .f32) : FVec Ideal ⟨2, ![R, N]⟩ .f32 :=
  addf (matmul (DotDims.plain R K N) none x w (constant ⟨2, ![R, N]⟩ .f32 0x00000000#32)) (broadcastTo ⟨2, ![R, N]⟩ bias pb)

/-- The affine layer as the host computes it: the product plus the [N] bias broadcast through [1, N]. -/
def affR (p1 : (⟨1, ![N]⟩ : Shape).BroadcastsInDim ⟨2, ![1, N]⟩ ![1]) (p2 : (⟨2, ![1, N]⟩ : Shape).BroadcastsInDim ⟨2, ![R, N]⟩ ![0, 1])
    (x : FVec Ideal ⟨2, ![R, K]⟩ φ₁) (w : FVec Ideal ⟨2, ![K, N]⟩ φ₂) (b1 : FVec Ideal ⟨1, ![N]⟩ .f32) : FVec Ideal ⟨2, ![R, N]⟩ .f32 :=
  addf (Host.dotGeneral (DotDims.plain R K N) none x w) (broadcastInDim ⟨2, ![R, N]⟩ ![0, 1] p2 (broadcastInDim ⟨2, ![1, N]⟩ ![1] p1 b1))

theorem affK_apply (pb : (⟨2, ![1, N]⟩ : Shape).Broadcasts ⟨2, ![R, N]⟩)
    (x : FVec Ideal ⟨2, ![R, K]⟩ φ₁) (w : FVec Ideal ⟨2, ![K, N]⟩ φ₂) (bias : FVec Ideal ⟨2, ![1, N]⟩ .f32) (r : Fin R) (n : Fin N) :
    affK pb x w bias (ix2 r n) = (∑ c : Fin K, x (ix2 r c) * w (ix2 c n)) + bias (ix2 (0 : Fin 1) n) := by
  unfold affK
  rw [addf_apply, matmul_plain_apply]
  refine congrArg _ (broadcastTo_apply bias pb _ _ fun a => ?_)
  match a with
  | ⟨0, _⟩ => show 0 = if (1 : ℕ) = 1 then 0 else _; rw [if_pos rfl]
  | ⟨1, _⟩ =>
    show n.val = if N = 1 then 0 else n.val
    split
    · have := n.isLt; omega
    · rfl

theorem affR_apply (p1 : (⟨1, ![N]⟩ : Shape).BroadcastsInDim ⟨2, ![1, N]⟩ ![1]) (p2 : (⟨2, ![1, N]⟩ : Shape).BroadcastsInDim ⟨2, ![R, N]⟩ ![0, 1])
    (x : FVec Ideal ⟨2, ![R, K]⟩ φ₁) (w : FVec Ideal ⟨2, ![K, N]⟩ φ₂) (b1 : FVec Ideal ⟨1, ![N]⟩ .f32) (r : Fin R) (n : Fin N) :
    affR p1 p2 x w b1 (ix2 r n) = (∑ c : Fin K, x (ix2 r c) * w (ix2 c n)) + b1 (ix1 n) := by
  unfold affR
  rw [addf_apply, StackMember.dotGeneral_plain_apply]
  refine congrArg _ ((broadcastInDim_apply _ p2 _ (ix2 r n) (ix2 (0 : Fin 1) n) fun a => ?_).trans
    (broadcastInDim_apply _ p1 b1 _ _ fun a => ?_))
  · match a with
    | ⟨0, _⟩ => show 0 = if (1 : ℕ) = 1 then 0 else _; rw [if_pos rfl]
    | ⟨1, _⟩ =>
      show n.val = if N = 1 then 0 else n.val
      split
      · have := n.isLt; omega
      · rfl
  · match a with
    | ⟨0, _⟩ =>
      show n.val = if N = 1 then 0 else n.val
      split
      · have := n.isLt; omega
      · rfl

/-- The affine layer of some rows is the same rows of the affine layer. -/
theorem aff_rows (e : Fin R' → Fin R) (pb : (⟨2, ![1, N]⟩ : Shape).Broadcasts ⟨2, ![R', N]⟩) p1 p2
    (x' : FVec Ideal ⟨2, ![R', K]⟩ φ₁) (w' : FVec Ideal ⟨2, ![K, N]⟩ φ₂) (bias : FVec Ideal ⟨2, ![1, N]⟩ .f32)
    (x : FVec Ideal ⟨2, ![R, K]⟩ .f32) (w : FVec Ideal ⟨2, ![K, N]⟩ .f32) (b1 : FVec Ideal ⟨1, ![N]⟩ .f32)
    (hx : ∀ r k, x' (ix2 r k) = x (ix2 (e r) k)) (hw : ∀ k n, w' (ix2 k n) = w (ix2 k n)) (hb : ∀ n, bias (ix2 (0 : Fin 1) n) = b1 (ix1 n)) :
    RowsOf e (affK pb x' w' bias) (affR (R := R) p1 p2 x w b1) := by
  intro r n
  rw [affK_apply, affR_apply, hb]
  exact congrArg (· + b1 (ix1 n)) (Finset.sum_congr rfl fun c _ => by rw [hx, hw])

/-- The maximum with zero as the kernel spells it. -/
def reluK (v : FVec Ideal ⟨2, ![R, N]⟩ .f32) : FVec Ideal ⟨2, ![R, N]⟩ .f32 :=
  maximumf v (broadcast ⟨2, ![R, N]⟩ (Scalar.ofBits (F := Ideal) .f32 0x00000000#32))

/-- The maximum with zero as the host spells it. -/
def reluR (p : (⟨0, ![]⟩ : Shape).BroadcastsInDim ⟨2, ![R, N]⟩ ![]) (v : FVec Ideal ⟨2, ![R, N]⟩ .f32) : FVec Ideal ⟨2, ![R, N]⟩ .f32 :=
  maximumf v (broadcastInDim ⟨2, ![R, N]⟩ ![] p (constant (F := Ideal) ⟨0, ![]⟩ .f32 0x00000000#32))

/-- The maximum with zero of some rows is the same rows of the maximum with zero. -/
theorem relu_rows (e : Fin R' → Fin R) p (Y : FVec Ideal ⟨2, ![R', N]⟩ .f32) (X : FVec Ideal ⟨2, ![R, N]⟩ .f32) (h : RowsOf e Y X) :
    RowsOf e (reluK Y) (reluR p X) := by
  intro r n
  unfold reluK reluR
  rw [maximumf_apply, maximumf_apply, h r n]
  rfl

end Cert.Dense

end
-- ==== Proof.KReg0.lean ====
/-
  The dense layer of the 131072 rows with a [1, 64] bias row: after the run the region's output array is the affine map
  x · w + b of its input arrays, entry by entry. Grid point t multiplies rows 4096·t … 4096·t + 4095 of x by the whole
  of w, adds the bias row to every row and writes the same rows of the output; the product is the plain sum over the
  32 contracted coordinates, so a row block of the layer is the rows of the layer, and the 32 row blocks cover every row.
-/
import proofs.«144873_j21182778704707_1_alg».proof.Proof.Gen.KernelIdeal.Frame
import proofs.«144873_j21182778704707_1_alg».proof.Proof.Spec
import proofs.«144873_j21182778704707_1_alg».proof.Proof.LibDenseRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.HV

open Cert.KernelIdeal Cert.KernelIdeal.Gen

variable (V : (c : Dev nD) → (b : Ref sig .tc) → Buf (Elt Ideal) ((c : Thread nD τ).loc b))

/-- The zero offsets of a whole-block access, however they are spelt. -/
theorem hz0 : (![0, 0] : Fin 2 → Nat) = fun _ => 0 := funext fun a => by fin_cases a <;> rfl

/-- The body's arithmetic at an entry: the row of the first block times the column of the second (the format changes
    are the identity on extended reals, the product into a zero accumulator is the plain sum), plus the bias row's entry. -/
theorem pay0_apply (x0 : Vec Ideal S4096x32 .f32) (x1 : Vec Ideal S32x64 .f32) (x2 : Vec Ideal S1x64 .f32) (p : Fin 4096) (q : Fin 64) :
    k0_pay1 x0 x1 x2 (ix2 p q) = (∑ k : Fin 32, x0 (ix2 p k) * x1 (ix2 k q)) + x2 (ix2 (0 : Fin 1) q) := by
  show Cert.Dense.affK broadcasts_S1x64_S4096x64 (truncf .bf16 x0 bitsLt_bf16_f32) (truncf .bf16 x1 bitsLt_bf16_f32) (shapeCast S1x64 x2 shapeCasts_S1x64_S1x64) (ix2 p q) = _
  rw [Cert.Dense.affK_apply, shapeCast_self]
  rfl

/-- The block index maps over the grid: the input rows and the output rows sit at row block t, column block 0; the weight
    and the bias row are one block each. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the input block at point t is row 4096·t + p of the input array. -/
theorem blk0_x (c : Dev nD) (t : Fin cfg0.N) (p : Fin 4096) (k : Fin 32) (r : Fin 131072) (hr : r.val = t.val * 4096 + p.val) :
    (iblk0 V c 0 t : Vec Ideal S4096x32 .f32) (ix2 p k) = (V c main_arg0 : Cert.Hgcn.Mat 131072 32) (ix2 r k) := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 4096 + 1 * p.val = r.val; omega
  | ⟨1, _⟩ => show win0_0.index t (1 : Fin 2) * 32 + 1 * k.val = k.val; omega

/-- The weight block at every point is the weight array. -/
theorem blk0_w (c : Dev nD) (t : Fin cfg0.N) (k : Fin 32) (q : Fin 64) :
    (iblk0 V c 1 t : Vec Ideal S32x64 .f32) (ix2 k q) = (V c main_arg2 : Cert.Hgcn.Mat 32 64) (ix2 k q) := by
  obtain ⟨-, -, e2, e3, -⟩ := idx_facts0 t
  unfold iblk0
  rw [View.read_apply]
  show V c main_arg2 _ = V c main_arg2 _
  congr 1
  funext a; apply Fin.ext
  match a with
  | ⟨0, _⟩ => show win0_1.index t (0 : Fin 2) * 32 + 1 * k.val = k.val; omega
  | ⟨1, _⟩ => show win0_1.index t (1 : Fin 2) * 64 + 1 * q.val = q.val; omega

/-- The bias block at every point is the bias row. -/
theorem blk0_b (c : Dev nD) (t : Fin cfg0.N) (q : Fin 64) :
    (iblk0 V c 2 t : Vec Ideal S1x64 .f32) (ix2 (0 : Fin 1) q) = (V c main_v4 : Cert.Hgcn.Mat 1 64) (ix2 (0 : Fin 1) q) := by
  obtain ⟨-, -, -, -, e4, e5, -⟩ := idx_facts0 t
  unfold iblk0
  rw [View.read_apply]
  show V c main_v4 _ = V c main_v4 _
  congr 1
  funext a; apply Fin.ext
  match a with
  | ⟨0, _⟩ => show win0_2.index t (0 : Fin 2) * 1 + 1 * 0 = 0; omega
  | ⟨1, _⟩ => show win0_2.index t (1 : Fin 2) * 64 + 1 * q.val = q.val; omega

/-- What point t writes back is block t of the affine map of the input arrays. -/
theorem flushed0_3_eq (c : Dev nD) (t : Fin cfg0.N) :
    (dat0 V c).flushed 3 t = ((cfg0.win 3).blk t).view.read (Elt Ideal)
      (Cert.Hgcn.lin (V c (Pipeline.arrRef spec0 0) : Cert.Hgcn.Mat 131072 32) (V c (Pipeline.arrRef spec0 1) : Cert.Hgcn.Mat 32 64) (V c (Pipeline.arrRef spec0 2) : Cert.Hgcn.Mat 1 64)) := by
  show (cfg0.win 3).cut (grid0.coords t) ((dat0 V c).after 3 t) = _
  rw [after0_3]
  unfold out0_3
  rw [View.canon_unit_zero hz0]
  simp only [View.ld_unit_zero (S := S4096x32) hz0, View.ld_unit_zero (S := S32x64) hz0, View.ld_unit_zero (S := S1x64) hz0]
  obtain ⟨e0, e1, e2, e3, e4, e5, e6, e7⟩ := idx_facts0 t
  have hN : cfg0.N = 32 := N_0
  have ht : t.val < cfg0.N := t.isLt
  refine funext fun (j : S4096x64.Idx) => ?_
  obtain ⟨p, q, rfl⟩ : ∃ (p : Fin 4096) (q : Fin 64), j = ix2 p q := ⟨j 0, j 1, eq_ix2 j⟩
  refine (pay0_apply _ _ _ p q).trans ?_
  have hr : t.val * 4096 + p.val < 131072 := by have := p.isLt; omega
  have hemb : ((cfg0.win 3).blk t).view.emb (ix2 p q) = ix2 (⟨t.val * 4096 + p.val, hr⟩ : Fin 131072) q := by
    funext a; apply Fin.ext
    match a with
    | ⟨0, _⟩ => show win0_3.index t (0 : Fin 2) * 4096 + 1 * p.val = t.val * 4096 + p.val; omega
    | ⟨1, _⟩ => show win0_3.index t (1 : Fin 2) * 64 + 1 * q.val = q.val; omega
  show _ = Cert.Hgcn.lin (V c (Pipeline.arrRef spec0 0) : Cert.Hgcn.Mat 131072 32) (V c (Pipeline.arrRef spec0 1) : Cert.Hgcn.Mat 32 64) (V c (Pipeline.arrRef spec0 2) : Cert.Hgcn.Mat 1 64) (((cfg0.win 3).blk t).view.emb (ix2 p q))
  rw [hemb, Cert.Hgcn.lin_apply]
  refine congrArg₂ (· + ·) (Finset.sum_congr rfl fun k _ => ?_) (blk0_b V c t q)
  exact congrArg₂ (· * ·) (blk0_x V c t p k ⟨t.val * 4096 + p.val, hr⟩ rfl) (blk0_w V c t k q)

/-- An index of the output array is in point t's block iff each coordinate is in the block's range on its axis. -/
theorem mem_blk0_3 (t : Fin cfg0.N) (i : S131072x64.Idx) :
    i ∈ ((cfg0.win 3).blk t).view.set ↔ ∀ a : Fin 2, win0_3.index t a * S4096x64.size a ≤ (i a).val ∧ (i a).val < win0_3.index t a * S4096x64.size a + S4096x64.size a := by
  show i ∈ ((View.whole main_v5).slice (win0_3.rect t)).set ↔ _
  rw [View.set_slice_whole, Rect.mem_set_unit]
  exact Iff.rfl

/-- Every index is covered: row r lies in the block of point r / 4096. -/
theorem cover0_3 (i : S131072x64.Idx) : ∃ t : Fin cfg0.N, (cfg0.win 3).flush t = true ∧ i ∈ ((cfg0.win 3).blk t).view.set := by
  have hN : cfg0.N = 32 := N_0
  have hi0 : (i 0).val < 131072 := (i 0).isLt
  have hi1 : (i 1).val < 64 := (i 1).isLt
  let t : Fin cfg0.N := ⟨(i 0).val / 4096, lt_of_lt_of_eq (by omega : (i 0).val / 4096 < 32) hN.symm⟩
  obtain ⟨e0, e1, e2, e3, e4, e5, e6, e7⟩ := idx_facts0 t
  have ht : t.val = (i 0).val / 4096 := rfl
  refine ⟨t, flush0_3 t, ?_⟩
  rw [mem_blk0_3]
  intro a
  match a with
  | ⟨0, _⟩ => show win0_3.index t (0 : Fin 2) * 4096 ≤ (i 0).val ∧ (i 0).val < win0_3.index t (0 : Fin 2) * 4096 + 4096; omega
  | ⟨1, _⟩ => show win0_3.index t (1 : Fin 2) * 64 ≤ (i 1).val ∧ (i 1).val < win0_3.index t (1 : Fin 2) * 64 + 64; omega

/-- The output array after the run: the affine map of the input arrays as the region finds them. -/
theorem final0_3 (c : Dev nD) : (dat0 (F := Ideal) V c).arrAt 3 cfg0.N
    = Cert.Hgcn.lin (V c (Pipeline.arrRef spec0 0) : Cert.Hgcn.Mat 131072 32) (V c (Pipeline.arrRef spec0 1) : Cert.Hgcn.Mat 32 64) (V c (Pipeline.arrRef spec0 2) : Cert.Hgcn.Mat 1 64) :=
  (dat0 V c).arrAt_eq_of_cover 3 _ (fun t _ => flushed0_3_eq V c t) (cover0_3)

end Cert.KernelIdeal.HV

end
-- ==== Proof.KReg1.lean ====
/-
  The dense layer of the 32768 rows with a [1, 64] bias row: after the run the region's output array is the affine map
  x · w + b of its input arrays, entry by entry. Grid point t multiplies rows 4096·t … 4096·t + 4095 of x by the whole
  of w, adds the bias row to every row and writes the same rows of the output; the product is the plain sum over the
  32 contracted coordinates, so a row block of the layer is the rows of the layer, and the 8 row blocks cover every row.
-/
import proofs.«144873_j21182778704707_1_alg».proof.Proof.Gen.KernelIdeal.Frame
import proofs.«144873_j21182778704707_1_alg».proof.Proof.Spec
import proofs.«144873_j21182778704707_1_alg».proof.Proof.LibDenseRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.HV

open Cert.KernelIdeal Cert.KernelIdeal.Gen

variable (V : (c : Dev nD) → (b : Ref sig .tc) → Buf (Elt Ideal) ((c : Thread nD τ).loc b))

/-- The zero offsets of a whole-block access, however they are spelt. -/
theorem hz1 : (![0, 0] : Fin 2 → Nat) = fun _ => 0 := funext fun a => by fin_cases a <;> rfl

/-- The body's arithmetic at an entry: the row of the first block times the column of the second (the format changes
    are the identity on extended reals, the product into a zero accumulator is the plain sum), plus the bias row's entry. -/
theorem pay1_apply (x0 : Vec Ideal S4096x32 .f32) (x1 : Vec Ideal S32x64 .f32) (x2 : Vec Ideal S1x64 .f32) (p : Fin 4096) (q : Fin 64) :
    k1_pay1 x0 x1 x2 (ix2 p q) = (∑ k : Fin 32, x0 (ix2 p k) * x1 (ix2 k q)) + x2 (ix2 (0 : Fin 1) q) := by
  show Cert.Dense.affK broadcasts_S1x64_S4096x64 (truncf .bf16 x0 bitsLt_bf16_f32) (truncf .bf16 x1 bitsLt_bf16_f32) (shapeCast S1x64 x2 shapeCasts_S1x64_S1x64) (ix2 p q) = _
  rw [Cert.Dense.affK_apply, shapeCast_self]
  rfl

/-- The block index maps over the grid: the input rows and the output rows sit at row block t, column block 0; the weight
    and the bias row are one block each. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row p of the input block at point t is row 4096·t + p of the input array. -/
theorem blk1_x (c : Dev nD) (t : Fin cfg1.N) (p : Fin 4096) (k : Fin 32) (r : Fin 32768) (hr : r.val = t.val * 4096 + p.val) :
    (iblk1 V c 0 t : Vec Ideal S4096x32 .f32) (ix2 p k) = (V c main_arg1 : Cert.Hgcn.Mat 32768 32) (ix2 r k) := by
  obtain ⟨e0, e1, -⟩ := idx_facts1 t
  unfold iblk1
  rw [View.read_apply]
  show V c main_arg1 _ = V c main_arg1 _
  congr 1
  funext a; apply Fin.ext
  match a with
  | ⟨0, _⟩ => show win1_0.index t (0 : Fin 2) * 4096 + 1 * p.val = r.val; omega
  | ⟨1, _⟩ => show win1_0.index t (1 : Fin 2) * 32 + 1 * k.val = k.val; omega

/-- The weight block at every point is the weight array. -/
theorem blk1_w (c : Dev nD) (t : Fin cfg1.N) (k : Fin 32) (q : Fin 64) :
    (iblk1 V c 1 t : Vec Ideal S32x64 .f32) (ix2 k q) = (V c main_arg4 : Cert.Hgcn.Mat 32 64) (ix2 k q) := by
  obtain ⟨-, -, e2, e3, -⟩ := idx_facts1 t
  unfold iblk1
  rw [View.read_apply]
  show V c main_arg4 _ = V c main_arg4 _
  congr 1
  funext a; apply Fin.ext
  match a with
  | ⟨0, _⟩ => show win1_1.index t (0 : Fin 2) * 32 + 1 * k.val = k.val; omega
  | ⟨1, _⟩ => show win1_1.index t (1 : Fin 2) * 64 + 1 * q.val = q.val; omega

/-- The bias block at every point is the bias row. -/
theorem blk1_b (c : Dev nD) (t : Fin cfg1.N) (q : Fin 64) :
    (iblk1 V c 2 t : Vec Ideal S1x64 .f32) (ix2 (0 : Fin 1) q) = (V c main_v6 : Cert.Hgcn.Mat 1 64) (ix2 (0 : Fin 1) q) := by
  obtain ⟨-, -, -, -, e4, e5, -⟩ := idx_facts1 t
  unfold iblk1
  rw [View.read_apply]
  show V c main_v6 _ = V c main_v6 _
  congr 1
  funext a; apply Fin.ext
  match a with
  | ⟨0, _⟩ => show win1_2.index t (0 : Fin 2) * 1 + 1 * 0 = 0; omega
  | ⟨1, _⟩ => show win1_2.index t (1 : Fin 2) * 64 + 1 * q.val = q.val; omega

/-- What point t writes back is block t of the affine map of the input arrays. -/
theorem flushed1_3_eq (c : Dev nD) (t : Fin cfg1.N) :
    (dat1 V c).flushed 3 t = ((cfg1.win 3).blk t).view.read (Elt Ideal)
      (Cert.Hgcn.lin (V c (Pipeline.arrRef spec1 0) : Cert.Hgcn.Mat 32768 32) (V c (Pipeline.arrRef spec1 1) : Cert.Hgcn.Mat 32 64) (V c (Pipeline.arrRef spec1 2) : Cert.Hgcn.Mat 1 64)) := by
  show (cfg1.win 3).cut (grid1.coords t) ((dat1 V c).after 3 t) = _
  rw [after1_3]
  unfold out1_3
  rw [View.canon_unit_zero hz1]
  simp only [View.ld_unit_zero (S := S4096x32) hz1, View.ld_unit_zero (S := S32x64) hz1, View.ld_unit_zero (S := S1x64) hz1]
  obtain ⟨e0, e1, e2, e3, e4, e5, e6, e7⟩ := idx_facts1 t
  have hN : cfg1.N = 8 := N_1
  have ht : t.val < cfg1.N := t.isLt
  refine funext fun (j : S4096x64.Idx) => ?_
  obtain ⟨p, q, rfl⟩ : ∃ (p : Fin 4096) (q : Fin 64), j = ix2 p q := ⟨j 0, j 1, eq_ix2 j⟩
  refine (pay1_apply _ _ _ p q).trans ?_
  have hr : t.val * 4096 + p.val < 32768 := by have := p.isLt; omega
  have hemb : ((cfg1.win 3).blk t).view.emb (ix2 p q) = ix2 (⟨t.val * 4096 + p.val, hr⟩ : Fin 32768) q := by
    funext a; apply Fin.ext
    match a with
    | ⟨0, _⟩ => show win1_3.index t (0 : Fin 2) * 4096 + 1 * p.val = t.val * 4096 + p.val; omega
    | ⟨1, _⟩ => show win1_3.index t (1 : Fin 2) * 64 + 1 * q.val = q.val; omega
  show _ = Cert.Hgcn.lin (V c (Pipeline.arrRef spec1 0) : Cert.Hgcn.Mat 32768 32) (V c (Pipeline.arrRef spec1 1) : Cert.Hgcn.Mat 32 64) (V c (Pipeline.arrRef spec1 2) : Cert.Hgcn.Mat 1 64) (((cfg1.win 3).blk t).view.emb (ix2 p q))
  rw [hemb, Cert.Hgcn.lin_apply]
  refine congrArg₂ (· + ·) (Finset.sum_congr rfl fun k _ => ?_) (blk1_b V c t q)
  exact congrArg₂ (· * ·) (blk1_x V c t p k ⟨t.val * 4096 + p.val, hr⟩ rfl) (blk1_w V c t k q)

/-- An index of the output array is in point t's block iff each coordinate is in the block's range on its axis. -/
theorem mem_blk1_3 (t : Fin cfg1.N) (i : S32768x64.Idx) :
    i ∈ ((cfg1.win 3).blk t).view.set ↔ ∀ a : Fin 2, win1_3.index t a * S4096x64.size a ≤ (i a).val ∧ (i a).val < win1_3.index t a * S4096x64.size a + S4096x64.size a := by
  show i ∈ ((View.whole main_v7).slice (win1_3.rect t)).set ↔ _
  rw [View.set_slice_whole, Rect.mem_set_unit]
  exact Iff.rfl

/-- Every index is covered: row r lies in the block of point r / 4096. -/
theorem cover1_3 (i : S32768x64.Idx) : ∃ t : Fin cfg1.N, (cfg1.win 3).flush t = true ∧ i ∈ ((cfg1.win 3).blk t).view.set := by
  have hN : cfg1.N = 8 := N_1
  have hi0 : (i 0).val < 32768 := (i 0).isLt
  have hi1 : (i 1).val < 64 := (i 1).isLt
  let t : Fin cfg1.N := ⟨(i 0).val / 4096, lt_of_lt_of_eq (by omega : (i 0).val / 4096 < 8) hN.symm⟩
  obtain ⟨e0, e1, e2, e3, e4, e5, e6, e7⟩ := idx_facts1 t
  have ht : t.val = (i 0).val / 4096 := rfl
  refine ⟨t, flush1_3 t, ?_⟩
  rw [mem_blk1_3]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 64 ≤ (i 1).val ∧ (i 1).val < win1_3.index t (1 : Fin 2) * 64 + 64; omega

/-- The output array after the run: the affine map of the input arrays as the region finds them. -/
theorem final1_3 (c : Dev nD) : (dat1 (F := Ideal) V c).arrAt 3 cfg1.N
    = Cert.Hgcn.lin (V c (Pipeline.arrRef spec1 0) : Cert.Hgcn.Mat 32768 32) (V c (Pipeline.arrRef spec1 1) : Cert.Hgcn.Mat 32 64) (V c (Pipeline.arrRef spec1 2) : Cert.Hgcn.Mat 1 64) :=
  (dat1 V c).arrAt_eq_of_cover 3 _ (fun t _ => flushed1_3_eq V c t) (cover1_3)

end Cert.KernelIdeal.HV

end
-- ==== Proof.KPay.lean ====
/-
  The two row-block payloads of the network's dense stages, read entry by entry, for a block of 4096 rows and
  64 channels: the accumulating tap (z + c·w) + b, and the batch-norm of a column followed by the leaky rectifier,
  with the tap-0 affine map y·w + b of the activation. Every matrix product is the plain finite sum over the
  contracted coordinate, and the per-column parameters are [1, 64] rows broadcast over the block's rows, so the
  payload at row p of a block is the whole-array layer at whatever array row the block's row p sits at: a row
  block of a row-wise layer is the rows of the layer.
-/
import proofs.«144873_j21182778704707_1_alg».proof.Proof.Gen.KernelIdeal.Skeleton
import proofs.«144873_j21182778704707_1_alg».proof.Proof.Spec
import proofs.«144873_j21182778704707_1_alg».proof.Proof.LibDenseRows

noncomputable section

namespace Cert.KernelIdeal.HV

open Idealize.ShloMosaic Idealize.ShloMosaic.ValueIdx Cert.KernelIdeal Cert.KernelIdeal.Gen Cert.Hgcn

/-- The zero offsets of a rank-2 rectangle, as a constant function. -/
theorem off0 : (![0, 0] : Fin 2 → Nat) = fun _ => 0 := funext fun a => by fin_cases a <;> rfl

/-- A [1, 64] row broadcast over 4096 rows reads, at (p, q), the row's entry q. -/
theorem rowBcast_apply (b : FVec Ideal S1x64 .f32) (p : Fin 4096) (q : Fin 64) :
    broadcastTo S4096x64 b broadcasts_S1x64_S4096x64 (ix2 p q) = b (ix2 (0 : Fin 1) q) := by
  refine broadcastTo_apply b broadcasts_S1x64_S4096x64 _ _ fun a => ?_
  match a with
  | ⟨0, _⟩ => rfl
  | ⟨1, _⟩ => rfl

/-- The block product's dimension numbers are the plain ones: rows by columns, one contracted axis. -/
theorem dot64_plain : dot_S4096x64_S64x64_S4096x64_1_0_0_1_n_n = DotDims.plain 4096 64 64 := rfl

/-- The block product into a zero accumulator at (p, q) is Σ_k a(p,k)·w(k,q). -/
theorem blockProd_apply {φ₁ φ₂ : FTy} (a : FVec Ideal S4096x64 φ₁) (w : FVec Ideal S64x64 φ₂) (p : Fin 4096) (q : Fin 64) :
    matmul dot_S4096x64_S64x64_S4096x64_1_0_0_1_n_n none a w (constant S4096x64 .f32 0x00000000#32) (ix2 p q)
      = ∑ k : Fin 64, a (ix2 p k) * w (ix2 k q) := by
  rw [dot64_plain]
  exact Cert.Dense.matmul_plain_apply none a w p q

/-! ## The accumulating tap -/

/-- The tap's payload at (p, q): (z(p,q) + Σ_k c(p,k)·w(k,q)) + b(0,q). -/
theorem tapPay_apply (c : Vec Ideal S4096x64 .f32) (w : Vec Ideal S64x64 .f32) (z : Vec Ideal S4096x64 .f32) (b : Vec Ideal S1x64 .f32)
    (p : Fin 4096) (q : Fin 64) :
    k4_pay1 c w z b (ix2 p q) = (z (ix2 p q) + ∑ k : Fin 64, c (ix2 p k) * w (ix2 k q)) + b (ix2 (0 : Fin 1) q) := by
  unfold k4_pay1
  simp only [shapeCast_self]
  rw [addf_apply, addf_apply, rowBcast_apply, blockProd_apply]
  rfl

/-- The tap's payload of a block whose row p holds row (i 0) of the arrays is the whole-array tap at i. -/
theorem tapPay_rows {R : ℕ} (Z C : Mat R 64) (W : Mat 64 64) (B : Mat 1 64)
    (cb : Vec Ideal S4096x64 .f32) (wb : Vec Ideal S64x64 .f32) (zb : Vec Ideal S4096x64 .f32) (bb : Vec Ideal S1x64 .f32)
    (p : Fin 4096) (q : Fin 64) (i : (⟨2, ![R, 64]⟩ : Shape).Idx)
    (hc : ∀ k, cb (ix2 p k) = C (ix2 (i 0) k)) (hz : zb (ix2 p q) = Z i)
    (hw : ∀ k, wb (ix2 k q) = W (ix2 k (i 1))) (hb : bb (ix2 (0 : Fin 1) q) = B (ix2 (0 : Fin 1) (i 1))) :
    k4_pay1 cb wb zb bb (ix2 p q) = tapAcc Z C W B i := by
  rw [tapPay_apply, hz, hb]
  show _ = (Z i + ∑ k : Fin 64, C (ix2 (i 0) k) * W (ix2 k (i 1))) + B (ix2 (0 : Fin 1) (i 1))
  simp only [hc, hw]

/-- The sixteen tap regions run the same payload. -/
theorem k5_pay : @k5_pay1 Ideal _ = @k4_pay1 Ideal _ := rfl
theorem k6_pay : @k6_pay1 Ideal _ = @k4_pay1 Ideal _ := rfl
theorem k7_pay : @k7_pay1 Ideal _ = @k4_pay1 Ideal _ := rfl
theorem k8_pay : @k8_pay1 Ideal _ = @k4_pay1 Ideal _ := rfl
theorem k9_pay : @k9_pay1 Ideal _ = @k4_pay1 Ideal _ := rfl
theorem k10_pay : @k10_pay1 Ideal _ = @k4_pay1 Ideal _ := rfl
theorem k11_pay : @k11_pay1 Ideal _ = @k4_pay1 Ideal _ := rfl
theorem k16_pay : @k16_pay1 Ideal _ = @k4_pay1 Ideal _ := rfl
theorem k17_pay : @k17_pay1 Ideal _ = @k4_pay1 Ideal _ := rfl
theorem k18_pay : @k18_pay1 Ideal _ = @k4_pay1 Ideal _ := rfl
theorem k19_pay : @k19_pay1 Ideal _ = @k4_pay1 Ideal _ := rfl
theorem k20_pay : @k20_pay1 Ideal _ = @k4_pay1 Ideal _ := rfl
theorem k21_pay : @k21_pay1 Ideal _ = @k4_pay1 Ideal _ := rfl
theorem k22_pay : @k22_pay1 Ideal _ = @k4_pay1 Ideal _ := rfl
theorem k23_pay : @k23_pay1 Ideal _ = @k4_pay1 Ideal _ := rfl

/-! ## Batch-norm, the leaky rectifier, and the tap-0 affine map -/

/-- The activation's payload at (p, q): the leaky rectifier of the entry normalised by its column's parameters. -/
theorem bnPay_apply (x : Vec Ideal S4096x64 .f32) (v μ γ β : Vec Ideal S1x64 .f32) (p : Fin 4096) (q : Fin 64) :
    k2_pay1 x v μ γ β (ix2 p q)
      = lrelu (bnEntry (x (ix2 p q)) (μ (ix2 (0 : Fin 1) q)) (v (ix2 (0 : Fin 1) q)) (γ (ix2 (0 : Fin 1) q)) (β (ix2 (0 : Fin 1) q))) := by
  unfold k2_pay1
  simp only [shapeCast_self]
  simp only [select_apply, cmpf_apply, mulf_apply, addf_apply, subf_apply, broadcast_apply, rowBcast_apply]
  rfl

/-- The activation's payload of a block whose row p holds row (i 0) of the array is the whole-array activation at i. -/
theorem bnPay_rows {R : ℕ} (X : Mat R 64) (Gm Bt Mu Vr : Mat 1 64)
    (xb : Vec Ideal S4096x64 .f32) (vb μb γb βb : Vec Ideal S1x64 .f32)
    (p : Fin 4096) (q : Fin 64) (i : (⟨2, ![R, 64]⟩ : Shape).Idx)
    (hx : xb (ix2 p q) = X i) (hγ : γb (ix2 (0 : Fin 1) q) = Gm (ix2 (0 : Fin 1) (i 1))) (hβ : βb (ix2 (0 : Fin 1) q) = Bt (ix2 (0 : Fin 1) (i 1)))
    (hμ : μb (ix2 (0 : Fin 1) q) = Mu (ix2 (0 : Fin 1) (i 1))) (hv : vb (ix2 (0 : Fin 1) q) = Vr (ix2 (0 : Fin 1) (i 1))) :
    k2_pay1 xb vb μb γb βb (ix2 p q) = bnAct X Gm Bt Mu Vr i := by
  rw [bnPay_apply, hx, hγ, hβ, hμ, hv]
  rfl

/-- The tap-0 payload at (p, q): Σ_k y(p,k)·w(k,q) + b(0,q), y the activation's payload. -/
theorem bnTapPay_apply (x : Vec Ideal S4096x64 .f32) (v μ γ β : Vec Ideal S1x64 .f32) (w : Vec Ideal S64x64 .f32) (b : Vec Ideal S1x64 .f32)
    (p : Fin 4096) (q : Fin 64) :
    k2_pay2 x v μ γ β w b (ix2 p q) = (∑ k : Fin 64, k2_pay1 x v μ γ β (ix2 p k) * w (ix2 k q)) + b (ix2 (0 : Fin 1) q) := by
  unfold k2_pay2
  simp only [shapeCast_self]
  rw [addf_apply, rowBcast_apply, blockProd_apply]
  rfl

/-- The tap-0 payload of a block whose row p holds row (i 0) of the array is the whole-array affine map of the
    whole-array activation at i. -/
theorem bnTapPay_rows {R : ℕ} (X : Mat R 64) (Gm Bt Mu Vr : Mat 1 64) (W : Mat 64 64) (B : Mat 1 64)
    (xb : Vec Ideal S4096x64 .f32) (vb μb γb βb : Vec Ideal S1x64 .f32) (wb : Vec Ideal S64x64 .f32) (bb : Vec Ideal S1x64 .f32)
    (p : Fin 4096) (q : Fin 64) (i : (⟨2, ![R, 64]⟩ : Shape).Idx)
    (hx : ∀ k, xb (ix2 p k) = X (ix2 (i 0) k)) (hγ : ∀ k, γb (ix2 (0 : Fin 1) k) = Gm (ix2 (0 : Fin 1) k)) (hβ : ∀ k, βb (ix2 (0 : Fin 1) k) = Bt (ix2 (0 : Fin 1) k))
    (hμ : ∀ k, μb (ix2 (0 : Fin 1) k) = Mu (ix2 (0 : Fin 1) k)) (hv : ∀ k, vb (ix2 (0 : Fin 1) k) = Vr (ix2 (0 : Fin 1) k))
    (hw : ∀ k, wb (ix2 k q) = W (ix2 k (i 1))) (hb : bb (ix2 (0 : Fin 1) q) = B (ix2 (0 : Fin 1) (i 1))) :
    k2_pay2 xb vb μb γb βb wb bb (ix2 p q) = lin (bnAct X Gm Bt Mu Vr) W B i := by
  rw [bnTapPay_apply, hb]
  show _ = (∑ k : Fin 64, bnAct X Gm Bt Mu Vr (ix2 (i 0) k) * W (ix2 k (i 1))) + B (ix2 (0 : Fin 1) (i 1))
  refine congrArg (· + B (ix2 (0 : Fin 1) (i 1))) (Finset.sum_congr rfl fun k _ => ?_)
  rw [hw, bnPay_rows X Gm Bt Mu Vr xb vb μb γb βb p k (ix2 (i 0) k) (hx k) (hγ k) (hβ k) (hμ k) (hv k)]

/-- The four batch-norm regions run the same two payloads. -/
theorem k3_pay1_eq : @k3_pay1 Ideal _ = @k2_pay1 Ideal _ := rfl
theorem k14_pay1_eq : @k14_pay1 Ideal _ = @k2_pay1 Ideal _ := rfl
theorem k15_pay1_eq : @k15_pay1 Ideal _ = @k2_pay1 Ideal _ := rfl
theorem k3_pay2_eq : @k3_pay2 Ideal _ = @k2_pay2 Ideal _ := rfl
theorem k14_pay2_eq : @k14_pay2 Ideal _ = @k2_pay2 Ideal _ := rfl
theorem k15_pay2_eq : @k15_pay2 Ideal _ = @k2_pay2 Ideal _ := rfl

end Cert.KernelIdeal.HV

end
-- ==== Proof.KReg2.lean ====
/-
  Region 2: batch-norm, the leaky rectifier and the tap-0 affine map over the 131072 rows, run as 32 row blocks of
  4096. The two output arrays after the run, read as functions of the region's input arrays: block t of the activation
  is the activation's payload of block t of x and of the four parameter rows, which is rows 4096·t … 4096·t + 4095 of
  the whole-array activation; block t of the second output is the affine map of that block, which is the same rows of
  the affine map of the whole-array activation; the 32 blocks cover every row (row r lies in block r / 4096).
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows (x and the two outputs) are at block (t, 0) at
    point t, the four parameter rows, the weight and the bias row at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- The array row that row p of the block at point t sits at: 4096·t + p. -/
def row2 (t : Fin cfg2.N) (p : Fin 4096) : Fin 131072 :=
  ⟨t.val * 4096 + p.val, by
    have ht : t.val < 32 := Nat.lt_of_lt_of_eq t.isLt N_2
    have hp := p.isLt
    omega⟩

/-- Row p of x's block at point t is row 4096·t + p of x. -/
theorem blk2_0 (c : Dev nD) (t : Fin cfg2.N) (p : Fin 4096) (k : Fin 64) :
    iblk2 V c 0 t (ix2 p k) = (V c (Pipeline.arrRef spec2 0) : Mat 131072 64) (ix2 (row2 t p) k) := by
  obtain ⟨e00, e01, -, -, -, -, -, -, -, -, -, -, -, -, -, -, -, -⟩ := idx2 t
  show V c (Pipeline.arrRef spec2 0) (((cfg2.win 0).blk t).view.emb (ix2 p k)) = _
  refine congrArg _ (funext fun a => Fin.ext ?_)
  match a with
  | ⟨0, _⟩ => show win2_0.index t (0 : Fin 2) * 4096 + 1 * p.val = t.val * 4096 + p.val; omega
  | ⟨1, _⟩ => show win2_0.index t (1 : Fin 2) * 64 + 1 * k.val = k.val; omega

/-- The scale row's block at any point is the whole row. -/
theorem blk2_1 (c : Dev nD) (t : Fin cfg2.N) (k : Fin 64) :
    iblk2 V c 1 t (ix2 (0 : Fin 1) k) = (V c (Pipeline.arrRef spec2 1) : Mat 1 64) (ix2 (0 : Fin 1) k) := by
  obtain ⟨-, -, e10, e11, -, -, -, -, -, -, -, -, -, -, -, -, -, -⟩ := idx2 t
  show V c (Pipeline.arrRef spec2 1) (((cfg2.win 1).blk t).view.emb (ix2 (0 : Fin 1) k)) = _
  refine congrArg _ (funext fun a => Fin.ext ?_)
  match a with
  | ⟨0, _⟩ => show win2_1.index t (0 : Fin 2) * 1 + 1 * 0 = 0; omega
  | ⟨1, _⟩ => show win2_1.index t (1 : Fin 2) * 64 + 1 * k.val = k.val; omega

/-- The shift row's block at any point is the whole row. -/
theorem blk2_2 (c : Dev nD) (t : Fin cfg2.N) (k : Fin 64) :
    iblk2 V c 2 t (ix2 (0 : Fin 1) k) = (V c (Pipeline.arrRef spec2 2) : Mat 1 64) (ix2 (0 : Fin 1) k) := by
  obtain ⟨-, -, -, -, e20, e21, -, -, -, -, -, -, -, -, -, -, -, -⟩ := idx2 t
  show V c (Pipeline.arrRef spec2 2) (((cfg2.win 2).blk t).view.emb (ix2 (0 : Fin 1) k)) = _
  refine congrArg _ (funext fun a => Fin.ext ?_)
  match a with
  | ⟨0, _⟩ => show win2_2.index t (0 : Fin 2) * 1 + 1 * 0 = 0; omega
  | ⟨1, _⟩ => show win2_2.index t (1 : Fin 2) * 64 + 1 * k.val = k.val; omega

/-- The mean row's block at any point is the whole row. -/
theorem blk2_3 (c : Dev nD) (t : Fin cfg2.N) (k : Fin 64) :
    iblk2 V c 3 t (ix2 (0 : Fin 1) k) = (V c (Pipeline.arrRef spec2 3) : Mat 1 64) (ix2 (0 : Fin 1) k) := by
  obtain ⟨-, -, -, -, -, -, e30, e31, -, -, -, -, -, -, -, -, -, -⟩ := idx2 t
  show V c (Pipeline.arrRef spec2 3) (((cfg2.win 3).blk t).view.emb (ix2 (0 : Fin 1) k)) = _
  refine congrArg _ (funext fun a => Fin.ext ?_)
  match a with
  | ⟨0, _⟩ => show win2_3.index t (0 : Fin 2) * 1 + 1 * 0 = 0; omega
  | ⟨1, _⟩ => show win2_3.index t (1 : Fin 2) * 64 + 1 * k.val = k.val; omega

/-- The variance row's block at any point is the whole row. -/
theorem blk2_4 (c : Dev nD) (t : Fin cfg2.N) (k : Fin 64) :
    iblk2 V c 4 t (ix2 (0 : Fin 1) k) = (V c (Pipeline.arrRef spec2 4) : Mat 1 64) (ix2 (0 : Fin 1) k) := by
  obtain ⟨-, -, -, -, -, -, -, -, e40, e41, -, -, -, -, -, -, -, -⟩ := idx2 t
  show V c (Pipeline.arrRef spec2 4) (((cfg2.win 4).blk t).view.emb (ix2 (0 : Fin 1) k)) = _
  refine congrArg _ (funext fun a => Fin.ext ?_)
  match a with
  | ⟨0, _⟩ => show win2_4.index t (0 : Fin 2) * 1 + 1 * 0 = 0; omega
  | ⟨1, _⟩ => show win2_4.index t (1 : Fin 2) * 64 + 1 * k.val = k.val; omega

/-- The weight's block at any point is the whole weight. -/
theorem blk2_5 (c : Dev nD) (t : Fin cfg2.N) (k q : Fin 64) :
    iblk2 V c 5 t (ix2 k q) = (V c (Pipeline.arrRef spec2 5) : Mat 64 64) (ix2 k q) := by
  obtain ⟨-, -, -, -, -, -, -, -, -, -, e50, e51, -, -, -, -, -, -⟩ := idx2 t
  show V c (Pipeline.arrRef spec2 5) (((cfg2.win 5).blk t).view.emb (ix2 k q)) = _
  refine congrArg _ (funext fun a => Fin.ext ?_)
  match a with
  | ⟨0, _⟩ => show win2_5.index t (0 : Fin 2) * 64 + 1 * k.val = k.val; omega
  | ⟨1, _⟩ => show win2_5.index t (1 : Fin 2) * 64 + 1 * q.val = q.val; omega

/-- The bias row's block at any point is the whole row. -/
theorem blk2_6 (c : Dev nD) (t : Fin cfg2.N) (k : Fin 64) :
    iblk2 V c 6 t (ix2 (0 : Fin 1) k) = (V c (Pipeline.arrRef spec2 6) : Mat 1 64) (ix2 (0 : Fin 1) k) := by
  obtain ⟨-, -, -, -, -, -, -, -, -, -, -, -, e60, e61, -, -, -, -⟩ := idx2 t
  show V c (Pipeline.arrRef spec2 6) (((cfg2.win 6).blk t).view.emb (ix2 (0 : Fin 1) k)) = _
  refine congrArg _ (funext fun a => Fin.ext ?_)
  match a with
  | ⟨0, _⟩ => show win2_6.index t (0 : Fin 2) * 1 + 1 * 0 = 0; omega
  | ⟨1, _⟩ => show win2_6.index t (1 : Fin 2) * 64 + 1 * k.val = k.val; omega

/-- Entry (p, q) of output 7's block at point t sits in the array at row 4096·t + p, column q. -/
theorem emb2_7 (t : Fin cfg2.N) (p : Fin 4096) (q : Fin 64) :
    ((cfg2.win 7).blk t).view.emb (ix2 p q) = ix2 (row2 t p) q := by
  obtain ⟨-, -, -, -, -, -, -, -, -, -, -, -, -, -, e70, e71, -, -⟩ := idx2 t
  funext a; apply Fin.ext
  match a with
  | ⟨0, _⟩ => show win2_7.index t (0 : Fin 2) * 4096 + 1 * p.val = t.val * 4096 + p.val; omega
  | ⟨1, _⟩ => show win2_7.index t (1 : Fin 2) * 64 + 1 * q.val = q.val; omega

/-- Entry (p, q) of output 8's block at point t sits in the array at row 4096·t + p, column q. -/
theorem emb2_8 (t : Fin cfg2.N) (p : Fin 4096) (q : Fin 64) :
    ((cfg2.win 8).blk t).view.emb (ix2 p q) = ix2 (row2 t p) q := by
  obtain ⟨-, -, -, -, -, -, -, -, -, -, -, -, -, -, -, -, e80, e81⟩ := idx2 t
  funext a; apply Fin.ext
  match a with
  | ⟨0, _⟩ => show win2_8.index t (0 : Fin 2) * 4096 + 1 * p.val = t.val * 4096 + p.val; omega
  | ⟨1, _⟩ => show win2_8.index t (1 : Fin 2) * 64 + 1 * q.val = q.val; omega

set_option maxHeartbeats 1000000 in
/-- What point t writes back to the activation's array is block t of the whole-array activation. -/
theorem flushed2_7 (c : Dev nD) (t : Fin cfg2.N) :
    (dat2 (F := Ideal) V c).flushed 7 t = ((cfg2.win 7).blk t).view.read (Elt Ideal)
      (bnAct (V c (Pipeline.arrRef spec2 0) : Mat 131072 64) (V c (Pipeline.arrRef spec2 1) : Mat 1 64) (V c (Pipeline.arrRef spec2 2) : Mat 1 64) (V c (Pipeline.arrRef spec2 3) : Mat 1 64) (V c (Pipeline.arrRef spec2 4) : Mat 1 64) : Mat 131072 64) := by
  show (cfg2.win 7).cut (grid2.coords t) ((dat2 (F := Ideal) V c).after 7 t) = _
  rw [after2_7]
  unfold out2_7
  rw [View.canon_unit_zero off0]
  simp only [View.ld_unit_zero (S := S4096x64) off0, View.ld_unit_zero (S := S1x64) off0]
  funext j
  obtain ⟨p, q, rfl⟩ : ∃ (p : Fin 4096) (q : Fin 64), j = ix2 p q := ⟨j 0, j 1, eq_ix2 j⟩
  show k2_pay1 (iblk2 V c 0 t) (iblk2 V c 4 t) (iblk2 V c 3 t) (iblk2 V c 1 t) (iblk2 V c 2 t) (ix2 p q)
    = (bnAct (V c (Pipeline.arrRef spec2 0) : Mat 131072 64) (V c (Pipeline.arrRef spec2 1) : Mat 1 64) (V c (Pipeline.arrRef spec2 2) : Mat 1 64) (V c (Pipeline.arrRef spec2 3) : Mat 1 64) (V c (Pipeline.arrRef spec2 4) : Mat 1 64) : Mat 131072 64)
        (((cfg2.win 7).blk t).view.emb (ix2 p q))
  rw [emb2_7]
  exact bnPay_rows _ _ _ _ _ _ _ _ _ _ p q (ix2 (row2 t p) q) (blk2_0 V c t p q) (blk2_1 V c t q) (blk2_2 V c t q) (blk2_3 V c t q) (blk2_4 V c t q)

set_option maxHeartbeats 1000000 in
/-- What point t writes back to the second output's array is block t of the affine map of the whole-array activation. -/
theorem flushed2_8 (c : Dev nD) (t : Fin cfg2.N) :
    (dat2 (F := Ideal) V c).flushed 8 t = ((cfg2.win 8).blk t).view.read (Elt Ideal)
      (lin (bnAct (V c (Pipeline.arrRef spec2 0) : Mat 131072 64) (V c (Pipeline.arrRef spec2 1) : Mat 1 64) (V c (Pipeline.arrRef spec2 2) : Mat 1 64) (V c (Pipeline.arrRef spec2 3) : Mat 1 64) (V c (Pipeline.arrRef spec2 4) : Mat 1 64) : Mat 131072 64) (V c (Pipeline.arrRef spec2 5) : Mat 64 64) (V c (Pipeline.arrRef spec2 6) : Mat 1 64) : Mat 131072 64) := by
  show (cfg2.win 8).cut (grid2.coords t) ((dat2 (F := Ideal) V c).after 8 t) = _
  rw [after2_8]
  unfold out2_8
  rw [View.canon_unit_zero off0]
  simp only [View.ld_unit_zero (S := S4096x64) off0, View.ld_unit_zero (S := S1x64) off0, View.ld_unit_zero (S := S64x64) off0]
  funext j
  obtain ⟨p, q, rfl⟩ : ∃ (p : Fin 4096) (q : Fin 64), j = ix2 p q := ⟨j 0, j 1, eq_ix2 j⟩
  show k2_pay2 (iblk2 V c 0 t) (iblk2 V c 4 t) (iblk2 V c 3 t) (iblk2 V c 1 t) (iblk2 V c 2 t) (iblk2 V c 5 t) (iblk2 V c 6 t) (ix2 p q)
    = (lin (bnAct (V c (Pipeline.arrRef spec2 0) : Mat 131072 64) (V c (Pipeline.arrRef spec2 1) : Mat 1 64) (V c (Pipeline.arrRef spec2 2) : Mat 1 64) (V c (Pipeline.arrRef spec2 3) : Mat 1 64) (V c (Pipeline.arrRef spec2 4) : Mat 1 64) : Mat 131072 64) (V c (Pipeline.arrRef spec2 5) : Mat 64 64) (V c (Pipeline.arrRef spec2 6) : Mat 1 64) : Mat 131072 64)
        (((cfg2.win 8).blk t).view.emb (ix2 p q))
  rw [emb2_8]
  exact bnTapPay_rows _ _ _ _ _ _ _ _ _ _ _ _ _ _ p q (ix2 (row2 t p) q) (fun k => blk2_0 V c t p k) (fun k => blk2_1 V c t k) (fun k => blk2_2 V c t k)
    (fun k => blk2_3 V c t k) (fun k => blk2_4 V c t k) (fun k => blk2_5 V c t k q) (blk2_6 V c t q)

/-- An index of output array 7 is in point t's block iff each coordinate is in the block's range on its axis. -/
theorem mem_blk2_7 (t : Fin cfg2.N) (i : S131072x64.Idx) :
    i ∈ ((cfg2.win 7).blk t).view.set ↔ ∀ a : Fin 2, win2_7.index t a * S4096x64.size a ≤ (i a).val ∧ (i a).val < win2_7.index t a * S4096x64.size a + S4096x64.size a := by
  show i ∈ ((View.whole main_v29_0).slice (win2_7.rect t)).set ↔ _
  rw [View.set_slice_whole, Rect.mem_set_unit]
  exact Iff.rfl

/-- Every row of output array 7 lies in some point's block: row r in the block of point r / 4096. -/
theorem rowsCover2_7 (i : S131072x64.Idx) : ∃ t : Fin cfg2.N, (cfg2.win 7).flush t = true ∧ i ∈ ((cfg2.win 7).blk t).view.set := by
  have hN : cfg2.N = 32 := N_2
  have hi0 : (i 0).val < 131072 := (i 0).isLt
  have hi1 : (i 1).val < 64 := (i 1).isLt
  refine ⟨⟨(i 0).val / 4096, by rw [hN]; omega⟩, flush2_7 _, ?_⟩
  rw [mem_blk2_7]
  obtain ⟨-, -, -, -, -, -, -, -, -, -, -, -, -, -, e70, e71, -, -⟩ := idx2 ⟨(i 0).val / 4096, by rw [hN]; omega⟩
  intro a
  match a with
  | ⟨0, _⟩ =>
    show win2_7.index _ (0 : Fin 2) * 4096 ≤ (i 0).val ∧ (i 0).val < win2_7.index _ (0 : Fin 2) * 4096 + 4096
    rw [e70]; show (i 0).val / 4096 * 4096 ≤ (i 0).val ∧ (i 0).val < (i 0).val / 4096 * 4096 + 4096; omega
  | ⟨1, _⟩ =>
    show win2_7.index _ (1 : Fin 2) * 64 ≤ (i 1).val ∧ (i 1).val < win2_7.index _ (1 : Fin 2) * 64 + 64
    rw [e71]; omega

/-- An index of output array 8 is in point t's block iff each coordinate is in the block's range on its axis. -/
theorem mem_blk2_8 (t : Fin cfg2.N) (i : S131072x64.Idx) :
    i ∈ ((cfg2.win 8).blk t).view.set ↔ ∀ a : Fin 2, win2_8.index t a * S4096x64.size a ≤ (i a).val ∧ (i a).val < win2_8.index t a * S4096x64.size a + S4096x64.size a := by
  show i ∈ ((View.whole main_v29_1).slice (win2_8.rect t)).set ↔ _
  rw [View.set_slice_whole, Rect.mem_set_unit]
  exact Iff.rfl

/-- Every row of output array 8 lies in some point's block: row r in the block of point r / 4096. -/
theorem rowsCover2_8 (i : S131072x64.Idx) : ∃ t : Fin cfg2.N, (cfg2.win 8).flush t = true ∧ i ∈ ((cfg2.win 8).blk t).view.set := by
  have hN : cfg2.N = 32 := N_2
  have hi0 : (i 0).val < 131072 := (i 0).isLt
  have hi1 : (i 1).val < 64 := (i 1).isLt
  refine ⟨⟨(i 0).val / 4096, by rw [hN]; omega⟩, flush2_8 _, ?_⟩
  rw [mem_blk2_8]
  obtain ⟨-, -, -, -, -, -, -, -, -, -, -, -, -, -, -, -, e80, e81⟩ := idx2 ⟨(i 0).val / 4096, by rw [hN]; omega⟩
  intro a
  match a with
  | ⟨0, _⟩ =>
    show win2_8.index _ (0 : Fin 2) * 4096 ≤ (i 0).val ∧ (i 0).val < win2_8.index _ (0 : Fin 2) * 4096 + 4096
    rw [e80]; show (i 0).val / 4096 * 4096 ≤ (i 0).val ∧ (i 0).val < (i 0).val / 4096 * 4096 + 4096; omega
  | ⟨1, _⟩ =>
    show win2_8.index _ (1 : Fin 2) * 64 ≤ (i 1).val ∧ (i 1).val < win2_8.index _ (1 : Fin 2) * 64 + 64
    rw [e81]; omega

/-- The activation's array after the run is the whole-array activation of the region's input arrays. -/
theorem final2_7 (c : Dev nD) : (Cert.KernelIdeal.Gen.dat2 (F := Ideal) V c).arrAt 7 cfg2.N
    = (bnAct (V c (Pipeline.arrRef spec2 0) : Mat 131072 64) (V c (Pipeline.arrRef spec2 1) : Mat 1 64) (V c (Pipeline.arrRef spec2 2) : Mat 1 64) (V c (Pipeline.arrRef spec2 3) : Mat 1 64) (V c (Pipeline.arrRef spec2 4) : Mat 1 64) : Mat 131072 64) :=
  (dat2 (F := Ideal) V c).arrAt_eq_of_cover 7 _ (fun t _ => flushed2_7 V c t) rowsCover2_7

/-- The second output's array after the run is the affine map of the whole-array activation. -/
theorem final2_8 (c : Dev nD) : (Cert.KernelIdeal.Gen.dat2 (F := Ideal) V c).arrAt 8 cfg2.N
    = (lin (bnAct (V c (Pipeline.arrRef spec2 0) : Mat 131072 64) (V c (Pipeline.arrRef spec2 1) : Mat 1 64) (V c (Pipeline.arrRef spec2 2) : Mat 1 64) (V c (Pipeline.arrRef spec2 3) : Mat 1 64) (V c (Pipeline.arrRef spec2 4) : Mat 1 64) : Mat 131072 64) (V c (Pipeline.arrRef spec2 5) : Mat 64 64) (V c (Pipeline.arrRef spec2 6) : Mat 1 64) : Mat 131072 64) :=
  (dat2 (F := Ideal) V c).arrAt_eq_of_cover 8 _ (fun t _ => flushed2_8 V c t) rowsCover2_8

end Cert.KernelIdeal.HV

end
-- ==== Proof.KReg3.lean ====
/-
  Region 3: batch-norm, the leaky rectifier and the tap-0 affine map over the 32768 rows, run as 8 row blocks of
  4096. The two output arrays after the run, read as functions of the region's input arrays: block t of the activation
  is the activation's payload of block t of x and of the four parameter rows, which is rows 4096·t … 4096·t + 4095 of
  the whole-array activation; block t of the second output is the affine map of that block, which is the same rows of
  the affine map of the whole-array activation; the 8 blocks cover every row (row r lies in block r / 4096).
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows (x and the two outputs) are at block (t, 0) at
    point t, the four parameter rows, the weight and the bias row at block (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 2) = t.val ∧ win3_8.index t (1 : Fin 2) = 0 :=
  (by decide +kernel : ∀ t : Fin grid3.N, _)

/-- The array row that row p of the block at point t sits at: 4096·t + p. -/
def row3 (t : Fin cfg3.N) (p : Fin 4096) : Fin 32768 :=
  ⟨t.val * 4096 + p.val, by
    have ht : t.val < 8 := Nat.lt_of_lt_of_eq t.isLt N_3
    have hp := p.isLt
    omega⟩

/-- Row p of x's block at point t is row 4096·t + p of x. -/
theorem blk3_0 (c : Dev nD) (t : Fin cfg3.N) (p : Fin 4096) (k : Fin 64) :
    iblk3 V c 0 t (ix2 p k) = (V c (Pipeline.arrRef spec3 0) : Mat 32768 64) (ix2 (row3 t p) k) := by
  obtain ⟨e00, e01, -, -, -, -, -, -, -, -, -, -, -, -, -, -, -, -⟩ := idx3 t
  show V c (Pipeline.arrRef spec3 0) (((cfg3.win 0).blk t).view.emb (ix2 p k)) = _
  refine congrArg _ (funext fun a => Fin.ext ?_)
  match a with
  | ⟨0, _⟩ => show win3_0.index t (0 : Fin 2) * 4096 + 1 * p.val = t.val * 4096 + p.val; omega
  | ⟨1, _⟩ => show win3_0.index t (1 : Fin 2) * 64 + 1 * k.val = k.val; omega

/-- The scale row's block at any point is the whole row. -/
theorem blk3_1 (c : Dev nD) (t : Fin cfg3.N) (k : Fin 64) :
    iblk3 V c 1 t (ix2 (0 : Fin 1) k) = (V c (Pipeline.arrRef spec3 1) : Mat 1 64) (ix2 (0 : Fin 1) k) := by
  obtain ⟨-, -, e10, e11, -, -, -, -, -, -, -, -, -, -, -, -, -, -⟩ := idx3 t
  show V c (Pipeline.arrRef spec3 1) (((cfg3.win 1).blk t).view.emb (ix2 (0 : Fin 1) k)) = _
  refine congrArg _ (funext fun a => Fin.ext ?_)
  match a with
  | ⟨0, _⟩ => show win3_1.index t (0 : Fin 2) * 1 + 1 * 0 = 0; omega
  | ⟨1, _⟩ => show win3_1.index t (1 : Fin 2) * 64 + 1 * k.val = k.val; omega

/-- The shift row's block at any point is the whole row. -/
theorem blk3_2 (c : Dev nD) (t : Fin cfg3.N) (k : Fin 64) :
    iblk3 V c 2 t (ix2 (0 : Fin 1) k) = (V c (Pipeline.arrRef spec3 2) : Mat 1 64) (ix2 (0 : Fin 1) k) := by
  obtain ⟨-, -, -, -, e20, e21, -, -, -, -, -, -, -, -, -, -, -, -⟩ := idx3 t
  show V c (Pipeline.arrRef spec3 2) (((cfg3.win 2).blk t).view.emb (ix2 (0 : Fin 1) k)) = _
  refine congrArg _ (funext fun a => Fin.ext ?_)
  match a with
  | ⟨0, _⟩ => show win3_2.index t (0 : Fin 2) * 1 + 1 * 0 = 0; omega
  | ⟨1, _⟩ => show win3_2.index t (1 : Fin 2) * 64 + 1 * k.val = k.val; omega

/-- The mean row's block at any point is the whole row. -/
theorem blk3_3 (c : Dev nD) (t : Fin cfg3.N) (k : Fin 64) :
    iblk3 V c 3 t (ix2 (0 : Fin 1) k) = (V c (Pipeline.arrRef spec3 3) : Mat 1 64) (ix2 (0 : Fin 1) k) := by
  obtain ⟨-, -, -, -, -, -, e30, e31, -, -, -, -, -, -, -, -, -, -⟩ := idx3 t
  show V c (Pipeline.arrRef spec3 3) (((cfg3.win 3).blk t).view.emb (ix2 (0 : Fin 1) k)) = _
  refine congrArg _ (funext fun a => Fin.ext ?_)
  match a with
  | ⟨0, _⟩ => show win3_3.index t (0 : Fin 2) * 1 + 1 * 0 = 0; omega
  | ⟨1, _⟩ => show win3_3.index t (1 : Fin 2) * 64 + 1 * k.val = k.val; omega

/-- The variance row's block at any point is the whole row. -/
theorem blk3_4 (c : Dev nD) (t : Fin cfg3.N) (k : Fin 64) :
    iblk3 V c 4 t (ix2 (0 : Fin 1) k) = (V c (Pipeline.arrRef spec3 4) : Mat 1 64) (ix2 (0 : Fin 1) k) := by
  obtain ⟨-, -, -, -, -, -, -, -, e40, e41, -, -, -, -, -, -, -, -⟩ := idx3 t
  show V c (Pipeline.arrRef spec3 4) (((cfg3.win 4).blk t).view.emb (ix2 (0 : Fin 1) k)) = _
  refine congrArg _ (funext fun a => Fin.ext ?_)
  match a with
  | ⟨0, _⟩ => show win3_4.index t (0 : Fin 2) * 1 + 1 * 0 = 0; omega
  | ⟨1, _⟩ => show win3_4.index t (1 : Fin 2) * 64 + 1 * k.val = k.val; omega

/-- The weight's block at any point is the whole weight. -/
theorem blk3_5 (c : Dev nD) (t : Fin cfg3.N) (k q : Fin 64) :
    iblk3 V c 5 t (ix2 k q) = (V c (Pipeline.arrRef spec3 5) : Mat 64 64) (ix2 k q) := by
  obtain ⟨-, -, -, -, -, -, -, -, -, -, e50, e51, -, -, -, -, -, -⟩ := idx3 t
  show V c (Pipeline.arrRef spec3 5) (((cfg3.win 5).blk t).view.emb (ix2 k q)) = _
  refine congrArg _ (funext fun a => Fin.ext ?_)
  match a with
  | ⟨0, _⟩ => show win3_5.index t (0 : Fin 2) * 64 + 1 * k.val = k.val; omega
  | ⟨1, _⟩ => show win3_5.index t (1 : Fin 2) * 64 + 1 * q.val = q.val; omega

/-- The bias row's block at any point is the whole row. -/
theorem blk3_6 (c : Dev nD) (t : Fin cfg3.N) (k : Fin 64) :
    iblk3 V c 6 t (ix2 (0 : Fin 1) k) = (V c (Pipeline.arrRef spec3 6) : Mat 1 64) (ix2 (0 : Fin 1) k) := by
  obtain ⟨-, -, -, -, -, -, -, -, -, -, -, -, e60, e61, -, -, -, -⟩ := idx3 t
  show V c (Pipeline.arrRef spec3 6) (((cfg3.win 6).blk t).view.emb (ix2 (0 : Fin 1) k)) = _
  refine congrArg _ (funext fun a => Fin.ext ?_)
  match a with
  | ⟨0, _⟩ => show win3_6.index t (0 : Fin 2) * 1 + 1 * 0 = 0; omega
  | ⟨1, _⟩ => show win3_6.index t (1 : Fin 2) * 64 + 1 * k.val = k.val; omega

/-- Entry (p, q) of output 7's block at point t sits in the array at row 4096·t + p, column q. -/
theorem emb3_7 (t : Fin cfg3.N) (p : Fin 4096) (q : Fin 64) :
    ((cfg3.win 7).blk t).view.emb (ix2 p q) = ix2 (row3 t p) q := by
  obtain ⟨-, -, -, -, -, -, -, -, -, -, -, -, -, -, e70, e71, -, -⟩ := idx3 t
  funext a; apply Fin.ext
  match a with
  | ⟨0, _⟩ => show win3_7.index t (0 : Fin 2) * 4096 + 1 * p.val = t.val * 4096 + p.val; omega
  | ⟨1, _⟩ => show win3_7.index t (1 : Fin 2) * 64 + 1 * q.val = q.val; omega

/-- Entry (p, q) of output 8's block at point t sits in the array at row 4096·t + p, column q. -/
theorem emb3_8 (t : Fin cfg3.N) (p : Fin 4096) (q : Fin 64) :
    ((cfg3.win 8).blk t).view.emb (ix2 p q) = ix2 (row3 t p) q := by
  obtain ⟨-, -, -, -, -, -, -, -, -, -, -, -, -, -, -, -, e80, e81⟩ := idx3 t
  funext a; apply Fin.ext
  match a with
  | ⟨0, _⟩ => show win3_8.index t (0 : Fin 2) * 4096 + 1 * p.val = t.val * 4096 + p.val; omega
  | ⟨1, _⟩ => show win3_8.index t (1 : Fin 2) * 64 + 1 * q.val = q.val; omega

set_option maxHeartbeats 1000000 in
/-- What point t writes back to the activation's array is block t of the whole-array activation. -/
theorem flushed3_7 (c : Dev nD) (t : Fin cfg3.N) :
    (dat3 (F := Ideal) V c).flushed 7 t = ((cfg3.win 7).blk t).view.read (Elt Ideal)
      (bnAct (V c (Pipeline.arrRef spec3 0) : Mat 32768 64) (V c (Pipeline.arrRef spec3 1) : Mat 1 64) (V c (Pipeline.arrRef spec3 2) : Mat 1 64) (V c (Pipeline.arrRef spec3 3) : Mat 1 64) (V c (Pipeline.arrRef spec3 4) : Mat 1 64) : Mat 32768 64) := by
  show (cfg3.win 7).cut (grid3.coords t) ((dat3 (F := Ideal) V c).after 7 t) = _
  rw [after3_7]
  unfold out3_7
  rw [View.canon_unit_zero off0]
  simp only [View.ld_unit_zero (S := S4096x64) off0, View.ld_unit_zero (S := S1x64) off0]
  funext j
  obtain ⟨p, q, rfl⟩ : ∃ (p : Fin 4096) (q : Fin 64), j = ix2 p q := ⟨j 0, j 1, eq_ix2 j⟩
  show k3_pay1 (iblk3 V c 0 t) (iblk3 V c 4 t) (iblk3 V c 3 t) (iblk3 V c 1 t) (iblk3 V c 2 t) (ix2 p q)
    = (bnAct (V c (Pipeline.arrRef spec3 0) : Mat 32768 64) (V c (Pipeline.arrRef spec3 1) : Mat 1 64) (V c (Pipeline.arrRef spec3 2) : Mat 1 64) (V c (Pipeline.arrRef spec3 3) : Mat 1 64) (V c (Pipeline.arrRef spec3 4) : Mat 1 64) : Mat 32768 64)
        (((cfg3.win 7).blk t).view.emb (ix2 p q))
  rw [emb3_7, k3_pay1_eq]
  exact bnPay_rows _ _ _ _ _ _ _ _ _ _ p q (ix2 (row3 t p) q) (blk3_0 V c t p q) (blk3_1 V c t q) (blk3_2 V c t q) (blk3_3 V c t q) (blk3_4 V c t q)

set_option maxHeartbeats 1000000 in
/-- What point t writes back to the second output's array is block t of the affine map of the whole-array activation. -/
theorem flushed3_8 (c : Dev nD) (t : Fin cfg3.N) :
    (dat3 (F := Ideal) V c).flushed 8 t = ((cfg3.win 8).blk t).view.read (Elt Ideal)
      (lin (bnAct (V c (Pipeline.arrRef spec3 0) : Mat 32768 64) (V c (Pipeline.arrRef spec3 1) : Mat 1 64) (V c (Pipeline.arrRef spec3 2) : Mat 1 64) (V c (Pipeline.arrRef spec3 3) : Mat 1 64) (V c (Pipeline.arrRef spec3 4) : Mat 1 64) : Mat 32768 64) (V c (Pipeline.arrRef spec3 5) : Mat 64 64) (V c (Pipeline.arrRef spec3 6) : Mat 1 64) : Mat 32768 64) := by
  show (cfg3.win 8).cut (grid3.coords t) ((dat3 (F := Ideal) V c).after 8 t) = _
  rw [after3_8]
  unfold out3_8
  rw [View.canon_unit_zero off0]
  simp only [View.ld_unit_zero (S := S4096x64) off0, View.ld_unit_zero (S := S1x64) off0, View.ld_unit_zero (S := S64x64) off0]
  funext j
  obtain ⟨p, q, rfl⟩ : ∃ (p : Fin 4096) (q : Fin 64), j = ix2 p q := ⟨j 0, j 1, eq_ix2 j⟩
  show k3_pay2 (iblk3 V c 0 t) (iblk3 V c 4 t) (iblk3 V c 3 t) (iblk3 V c 1 t) (iblk3 V c 2 t) (iblk3 V c 5 t) (iblk3 V c 6 t) (ix2 p q)
    = (lin (bnAct (V c (Pipeline.arrRef spec3 0) : Mat 32768 64) (V c (Pipeline.arrRef spec3 1) : Mat 1 64) (V c (Pipeline.arrRef spec3 2) : Mat 1 64) (V c (Pipeline.arrRef spec3 3) : Mat 1 64) (V c (Pipeline.arrRef spec3 4) : Mat 1 64) : Mat 32768 64) (V c (Pipeline.arrRef spec3 5) : Mat 64 64) (V c (Pipeline.arrRef spec3 6) : Mat 1 64) : Mat 32768 64)
        (((cfg3.win 8).blk t).view.emb (ix2 p q))
  rw [emb3_8, k3_pay2_eq]
  exact bnTapPay_rows _ _ _ _ _ _ _ _ _ _ _ _ _ _ p q (ix2 (row3 t p) q) (fun k => blk3_0 V c t p k) (fun k => blk3_1 V c t k) (fun k => blk3_2 V c t k)
    (fun k => blk3_3 V c t k) (fun k => blk3_4 V c t k) (fun k => blk3_5 V c t k q) (blk3_6 V c t q)

/-- An index of output array 7 is in point t's block iff each coordinate is in the block's range on its axis. -/
theorem mem_blk3_7 (t : Fin cfg3.N) (i : S32768x64.Idx) :
    i ∈ ((cfg3.win 7).blk t).view.set ↔ ∀ a : Fin 2, win3_7.index t a * S4096x64.size a ≤ (i a).val ∧ (i a).val < win3_7.index t a * S4096x64.size a + S4096x64.size a := by
  show i ∈ ((View.whole main_v41_0).slice (win3_7.rect t)).set ↔ _
  rw [View.set_slice_whole, Rect.mem_set_unit]
  exact Iff.rfl

/-- Every row of output array 7 lies in some point's block: row r in the block of point r / 4096. -/
theorem rowsCover3_7 (i : S32768x64.Idx) : ∃ t : Fin cfg3.N, (cfg3.win 7).flush t = true ∧ i ∈ ((cfg3.win 7).blk t).view.set := by
  have hN : cfg3.N = 8 := N_3
  have hi0 : (i 0).val < 32768 := (i 0).isLt
  have hi1 : (i 1).val < 64 := (i 1).isLt
  refine ⟨⟨(i 0).val / 4096, by rw [hN]; omega⟩, flush3_7 _, ?_⟩
  rw [mem_blk3_7]
  obtain ⟨-, -, -, -, -, -, -, -, -, -, -, -, -, -, e70, e71, -, -⟩ := idx3 ⟨(i 0).val / 4096, by rw [hN]; omega⟩
  intro a
  match a with
  | ⟨0, _⟩ =>
    show win3_7.index _ (0 : Fin 2) * 4096 ≤ (i 0).val ∧ (i 0).val < win3_7.index _ (0 : Fin 2) * 4096 + 4096
    rw [e70]; show (i 0).val / 4096 * 4096 ≤ (i 0).val ∧ (i 0).val < (i 0).val / 4096 * 4096 + 4096; omega
  | ⟨1, _⟩ =>
    show win3_7.index _ (1 : Fin 2) * 64 ≤ (i 1).val ∧ (i 1).val < win3_7.index _ (1 : Fin 2) * 64 + 64
    rw [e71]; omega

/-- An index of output array 8 is in point t's block iff each coordinate is in the block's range on its axis. -/
theorem mem_blk3_8 (t : Fin cfg3.N) (i : S32768x64.Idx) :
    i ∈ ((cfg3.win 8).blk t).view.set ↔ ∀ a : Fin 2, win3_8.index t a * S4096x64.size a ≤ (i a).val ∧ (i a).val < win3_8.index t a * S4096x64.size a + S4096x64.size a := by
  show i ∈ ((View.whole main_v41_1).slice (win3_8.rect t)).set ↔ _
  rw [View.set_slice_whole, Rect.mem_set_unit]
  exact Iff.rfl

/-- Every row of output array 8 lies in some point's block: row r in the block of point r / 4096. -/
theorem rowsCover3_8 (i : S32768x64.Idx) : ∃ t : Fin cfg3.N, (cfg3.win 8).flush t = true ∧ i ∈ ((cfg3.win 8).blk t).view.set := by
  have hN : cfg3.N = 8 := N_3
  have hi0 : (i 0).val < 32768 := (i 0).isLt
  have hi1 : (i 1).val < 64 := (i 1).isLt
  refine ⟨⟨(i 0).val / 4096, by rw [hN]; omega⟩, flush3_8 _, ?_⟩
  rw [mem_blk3_8]
  obtain ⟨-, -, -, -, -, -, -, -, -, -, -, -, -, -, -, -, e80, e81⟩ := idx3 ⟨(i 0).val / 4096, by rw [hN]; omega⟩
  intro a
  match a with
  | ⟨0, _⟩ =>
    show win3_8.index _ (0 : Fin 2) * 4096 ≤ (i 0).val ∧ (i 0).val < win3_8.index _ (0 : Fin 2) * 4096 + 4096
    rw [e80]; show (i 0).val / 4096 * 4096 ≤ (i 0).val ∧ (i 0).val < (i 0).val / 4096 * 4096 + 4096; omega
  | ⟨1, _⟩ =>
    show win3_8.index _ (1 : Fin 2) * 64 ≤ (i 1).val ∧ (i 1).val < win3_8.index _ (1 : Fin 2) * 64 + 64
    rw [e81]; omega

/-- The activation's array after the run is the whole-array activation of the region's input arrays. -/
theorem final3_7 (c : Dev nD) : (Cert.KernelIdeal.Gen.dat3 (F := Ideal) V c).arrAt 7 cfg3.N
    = (bnAct (V c (Pipeline.arrRef spec3 0) : Mat 32768 64) (V c (Pipeline.arrRef spec3 1) : Mat 1 64) (V c (Pipeline.arrRef spec3 2) : Mat 1 64) (V c (Pipeline.arrRef spec3 3) : Mat 1 64) (V c (Pipeline.arrRef spec3 4) : Mat 1 64) : Mat 32768 64) :=
  (dat3 (F := Ideal) V c).arrAt_eq_of_cover 7 _ (fun t _ => flushed3_7 V c t) rowsCover3_7

/-- The second output's array after the run is the affine map of the whole-array activation. -/
theorem final3_8 (c : Dev nD) : (Cert.KernelIdeal.Gen.dat3 (F := Ideal) V c).arrAt 8 cfg3.N
    = (lin (bnAct (V c (Pipeline.arrRef spec3 0) : Mat 32768 64) (V c (Pipeline.arrRef spec3 1) : Mat 1 64) (V c (Pipeline.arrRef spec3 2) : Mat 1 64) (V c (Pipeline.arrRef spec3 3) : Mat 1 64) (V c (Pipeline.arrRef spec3 4) : Mat 1 64) : Mat 32768 64) (V c (Pipeline.arrRef spec3 5) : Mat 64 64) (V c (Pipeline.arrRef spec3 6) : Mat 1 64) : Mat 32768 64) :=
  (dat3 (F := Ideal) V c).arrAt_eq_of_cover 8 _ (fun t _ => flushed3_8 V c t) rowsCover3_8

end Cert.KernelIdeal.HV

end
-- ==== Proof.KReg4.lean ====
/-
  Region 4: the accumulating tap over the 131072 rows, run as 32 row blocks of 4096. The output array after the run,
  read as one function of the region's input arrays: block t of the output is the tap's payload of block t of c and of z
  and of the whole w and b, which is rows 4096·t … 4096·t + 4095 of the whole-array tap; the 32 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

set_option maxHeartbeats 1000000 in
/-- What point t writes back is block t of the whole-array tap of the arrays as the region finds them. -/
theorem flushed4_4 (c : Dev nD) (t : Fin cfg4.N) :
    (dat4 (F := Ideal) V c).flushed 4 t = ((cfg4.win 4).blk t).view.read (Elt Ideal)
      (tapAcc (V c (Pipeline.arrRef spec4 3) : Mat 131072 64) (V c (Pipeline.arrRef spec4 0) : Mat 131072 64) (V c (Pipeline.arrRef spec4 1) : Mat 64 64) (V c (Pipeline.arrRef spec4 2) : Mat 1 64) : Mat 131072 64) := by
  show (cfg4.win 4).cut (grid4.coords t) ((dat4 (F := Ideal) V c).after 4 t) = _
  rw [after4_4]
  unfold out4_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx4 t
  funext j
  obtain ⟨p, q, rfl⟩ : ∃ (p : Fin 4096) (q : Fin 64), j = ix2 p q := ⟨j 0, j 1, eq_ix2 j⟩
  show k4_pay1 (iblk4 V c 0 t) (iblk4 V c 1 t) (iblk4 V c 3 t) (iblk4 V c 2 t) (ix2 p q)
    = (tapAcc (V c (Pipeline.arrRef spec4 3) : Mat 131072 64) (V c (Pipeline.arrRef spec4 0) : Mat 131072 64) (V c (Pipeline.arrRef spec4 1) : Mat 64 64) (V c (Pipeline.arrRef spec4 2) : Mat 1 64) : Mat 131072 64)
        (((cfg4.win 4).blk t).view.emb (ix2 p q))
  refine tapPay_rows _ _ _ _ _ _ _ _ p q _ (fun k => ?_) ?_ (fun k => ?_) ?_
  · show V c (Pipeline.arrRef spec4 0) (((cfg4.win 0).blk t).view.emb (ix2 p k)) = _
    refine congrArg _ (funext fun a => Fin.ext ?_)
    match a with
    | ⟨0, _⟩ => show win4_0.index t (0 : Fin 2) * 4096 + 1 * p.val = win4_4.index t (0 : Fin 2) * 4096 + 1 * p.val; omega
    | ⟨1, _⟩ => show win4_0.index t (1 : Fin 2) * 64 + 1 * k.val = k.val; omega
  · show V c (Pipeline.arrRef spec4 3) (((cfg4.win 3).blk t).view.emb (ix2 p q)) = _
    refine congrArg _ (funext fun a => Fin.ext ?_)
    match a with
    | ⟨0, _⟩ => show win4_3.index t (0 : Fin 2) * 4096 + 1 * p.val = win4_4.index t (0 : Fin 2) * 4096 + 1 * p.val; omega
    | ⟨1, _⟩ => show win4_3.index t (1 : Fin 2) * 64 + 1 * q.val = win4_4.index t (1 : Fin 2) * 64 + 1 * q.val; omega
  · show V c (Pipeline.arrRef spec4 1) (((cfg4.win 1).blk t).view.emb (ix2 k q)) = _
    refine congrArg _ (funext fun a => Fin.ext ?_)
    match a with
    | ⟨0, _⟩ => show win4_1.index t (0 : Fin 2) * 64 + 1 * k.val = k.val; omega
    | ⟨1, _⟩ => show win4_1.index t (1 : Fin 2) * 64 + 1 * q.val = win4_4.index t (1 : Fin 2) * 64 + 1 * q.val; omega
  · show V c (Pipeline.arrRef spec4 2) (((cfg4.win 2).blk t).view.emb (ix2 (0 : Fin 1) q)) = _
    refine congrArg _ (funext fun a => Fin.ext ?_)
    match a with
    | ⟨0, _⟩ => show win4_2.index t (0 : Fin 2) * 1 + 1 * 0 = 0; omega
    | ⟨1, _⟩ => show win4_2.index t (1 : Fin 2) * 64 + 1 * q.val = win4_4.index t (1 : Fin 2) * 64 + 1 * q.val; omega

/-- An index of the output array is in point t's block iff each coordinate is in the block's range on its axis. -/
theorem mem_blk4_4 (t : Fin cfg4.N) (i : S131072x64.Idx) :
    i ∈ ((cfg4.win 4).blk t).view.set ↔ ∀ a : Fin 2, win4_4.index t a * S4096x64.size a ≤ (i a).val ∧ (i a).val < win4_4.index t a * S4096x64.size a + S4096x64.size a := by
  show i ∈ ((View.whole main_v78).slice (win4_4.rect t)).set ↔ _
  rw [View.set_slice_whole, Rect.mem_set_unit]
  exact Iff.rfl

/-- Every row lies in some point's block: row r in the block of point r / 4096. -/
theorem rowsCover4_4 (i : S131072x64.Idx) : ∃ t : Fin cfg4.N, (cfg4.win 4).flush t = true ∧ i ∈ ((cfg4.win 4).blk t).view.set := by
  have hN : cfg4.N = 32 := N_4
  have hi0 : (i 0).val < 131072 := (i 0).isLt
  have hi1 : (i 1).val < 64 := (i 1).isLt
  refine ⟨⟨(i 0).val / 4096, by rw [hN]; omega⟩, flush4_4 _, ?_⟩
  rw [mem_blk4_4]
  obtain ⟨-, -, -, -, -, -, -, -, e40, e41⟩ := idx4 ⟨(i 0).val / 4096, by rw [hN]; omega⟩
  intro a
  match a with
  | ⟨0, _⟩ =>
    show win4_4.index _ (0 : Fin 2) * 4096 ≤ (i 0).val ∧ (i 0).val < win4_4.index _ (0 : Fin 2) * 4096 + 4096
    rw [e40]; show (i 0).val / 4096 * 4096 ≤ (i 0).val ∧ (i 0).val < (i 0).val / 4096 * 4096 + 4096; omega
  | ⟨1, _⟩ =>
    show win4_4.index _ (1 : Fin 2) * 64 ≤ (i 1).val ∧ (i 1).val < win4_4.index _ (1 : Fin 2) * 64 + 64
    rw [e41]; omega

/-- The output array after the run is the whole-array tap of the region's input arrays. -/
theorem final4_4 (c : Dev nD) : (Cert.KernelIdeal.Gen.dat4 (F := Ideal) V c).arrAt 4 cfg4.N
    = (tapAcc (V c (Pipeline.arrRef spec4 3) : Mat 131072 64) (V c (Pipeline.arrRef spec4 0) : Mat 131072 64) (V c (Pipeline.arrRef spec4 1) : Mat 64 64) (V c (Pipeline.arrRef spec4 2) : Mat 1 64) : Mat 131072 64) :=
  (dat4 (F := Ideal) V c).arrAt_eq_of_cover 4 _ (fun t _ => flushed4_4 V c t) rowsCover4_4

end Cert.KernelIdeal.HV

end
-- ==== Proof.KReg5.lean ====
/-
  Region 5: the accumulating tap over the 32768 rows, run as 8 row blocks of 4096. The output array after the run,
  read as one function of the region's input arrays: block t of the output is the tap's payload of block t of c and of z
  and of the whole w and b, which is rows 4096·t … 4096·t + 4095 of the whole-array tap; the 8 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = t.val ∧ win5_4.index t (1 : Fin 2) = 0 :=
  (by decide +kernel : ∀ t : Fin grid5.N, _)

set_option maxHeartbeats 1000000 in
/-- What point t writes back is block t of the whole-array tap of the arrays as the region finds them. -/
theorem flushed5_4 (c : Dev nD) (t : Fin cfg5.N) :
    (dat5 (F := Ideal) V c).flushed 4 t = ((cfg5.win 4).blk t).view.read (Elt Ideal)
      (tapAcc (V c (Pipeline.arrRef spec5 3) : Mat 32768 64) (V c (Pipeline.arrRef spec5 0) : Mat 32768 64) (V c (Pipeline.arrRef spec5 1) : Mat 64 64) (V c (Pipeline.arrRef spec5 2) : Mat 1 64) : Mat 32768 64) := by
  show (cfg5.win 4).cut (grid5.coords t) ((dat5 (F := Ideal) V c).after 4 t) = _
  rw [after5_4]
  unfold out5_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx5 t
  funext j
  obtain ⟨p, q, rfl⟩ : ∃ (p : Fin 4096) (q : Fin 64), j = ix2 p q := ⟨j 0, j 1, eq_ix2 j⟩
  show k5_pay1 (iblk5 V c 0 t) (iblk5 V c 1 t) (iblk5 V c 3 t) (iblk5 V c 2 t) (ix2 p q)
    = (tapAcc (V c (Pipeline.arrRef spec5 3) : Mat 32768 64) (V c (Pipeline.arrRef spec5 0) : Mat 32768 64) (V c (Pipeline.arrRef spec5 1) : Mat 64 64) (V c (Pipeline.arrRef spec5 2) : Mat 1 64) : Mat 32768 64)
        (((cfg5.win 4).blk t).view.emb (ix2 p q))
  rw [k5_pay]
  refine tapPay_rows _ _ _ _ _ _ _ _ p q _ (fun k => ?_) ?_ (fun k => ?_) ?_
  · show V c (Pipeline.arrRef spec5 0) (((cfg5.win 0).blk t).view.emb (ix2 p k)) = _
    refine congrArg _ (funext fun a => Fin.ext ?_)
    match a with
    | ⟨0, _⟩ => show win5_0.index t (0 : Fin 2) * 4096 + 1 * p.val = win5_4.index t (0 : Fin 2) * 4096 + 1 * p.val; omega
    | ⟨1, _⟩ => show win5_0.index t (1 : Fin 2) * 64 + 1 * k.val = k.val; omega
  · show V c (Pipeline.arrRef spec5 3) (((cfg5.win 3).blk t).view.emb (ix2 p q)) = _
    refine congrArg _ (funext fun a => Fin.ext ?_)
    match a with
    | ⟨0, _⟩ => show win5_3.index t (0 : Fin 2) * 4096 + 1 * p.val = win5_4.index t (0 : Fin 2) * 4096 + 1 * p.val; omega
    | ⟨1, _⟩ => show win5_3.index t (1 : Fin 2) * 64 + 1 * q.val = win5_4.index t (1 : Fin 2) * 64 + 1 * q.val; omega
  · show V c (Pipeline.arrRef spec5 1) (((cfg5.win 1).blk t).view.emb (ix2 k q)) = _
    refine congrArg _ (funext fun a => Fin.ext ?_)
    match a with
    | ⟨0, _⟩ => show win5_1.index t (0 : Fin 2) * 64 + 1 * k.val = k.val; omega
    | ⟨1, _⟩ => show win5_1.index t (1 : Fin 2) * 64 + 1 * q.val = win5_4.index t (1 : Fin 2) * 64 + 1 * q.val; omega
  · show V c (Pipeline.arrRef spec5 2) (((cfg5.win 2).blk t).view.emb (ix2 (0 : Fin 1) q)) = _
    refine congrArg _ (funext fun a => Fin.ext ?_)
    match a with
    | ⟨0, _⟩ => show win5_2.index t (0 : Fin 2) * 1 + 1 * 0 = 0; omega
    | ⟨1, _⟩ => show win5_2.index t (1 : Fin 2) * 64 + 1 * q.val = win5_4.index t (1 : Fin 2) * 64 + 1 * q.val; omega

/-- An index of the output array is in point t's block iff each coordinate is in the block's range on its axis. -/
theorem mem_blk5_4 (t : Fin cfg5.N) (i : S32768x64.Idx) :
    i ∈ ((cfg5.win 4).blk t).view.set ↔ ∀ a : Fin 2, win5_4.index t a * S4096x64.size a ≤ (i a).val ∧ (i a).val < win5_4.index t a * S4096x64.size a + S4096x64.size a := by
  show i ∈ ((View.whole main_v84).slice (win5_4.rect t)).set ↔ _
  rw [View.set_slice_whole, Rect.mem_set_unit]
  exact Iff.rfl

/-- Every row lies in some point's block: row r in the block of point r / 4096. -/
theorem rowsCover5_4 (i : S32768x64.Idx) : ∃ t : Fin cfg5.N, (cfg5.win 4).flush t = true ∧ i ∈ ((cfg5.win 4).blk t).view.set := by
  have hN : cfg5.N = 8 := N_5
  have hi0 : (i 0).val < 32768 := (i 0).isLt
  have hi1 : (i 1).val < 64 := (i 1).isLt
  refine ⟨⟨(i 0).val / 4096, by rw [hN]; omega⟩, flush5_4 _, ?_⟩
  rw [mem_blk5_4]
  obtain ⟨-, -, -, -, -, -, -, -, e40, e41⟩ := idx5 ⟨(i 0).val / 4096, by rw [hN]; omega⟩
  intro a
  match a with
  | ⟨0, _⟩ =>
    show win5_4.index _ (0 : Fin 2) * 4096 ≤ (i 0).val ∧ (i 0).val < win5_4.index _ (0 : Fin 2) * 4096 + 4096
    rw [e40]; show (i 0).val / 4096 * 4096 ≤ (i 0).val ∧ (i 0).val < (i 0).val / 4096 * 4096 + 4096; omega
  | ⟨1, _⟩ =>
    show win5_4.index _ (1 : Fin 2) * 64 ≤ (i 1).val ∧ (i 1).val < win5_4.index _ (1 : Fin 2) * 64 + 64
    rw [e41]; omega

/-- The output array after the run is the whole-array tap of the region's input arrays. -/
theorem final5_4 (c : Dev nD) : (Cert.KernelIdeal.Gen.dat5 (F := Ideal) V c).arrAt 4 cfg5.N
    = (tapAcc (V c (Pipeline.arrRef spec5 3) : Mat 32768 64) (V c (Pipeline.arrRef spec5 0) : Mat 32768 64) (V c (Pipeline.arrRef spec5 1) : Mat 64 64) (V c (Pipeline.arrRef spec5 2) : Mat 1 64) : Mat 32768 64) :=
  (dat5 (F := Ideal) V c).arrAt_eq_of_cover 4 _ (fun t _ => flushed5_4 V c t) rowsCover5_4

end Cert.KernelIdeal.HV

end
-- ==== Proof.KReg6.lean ====
/-
  Region 6: the accumulating tap over the 131072 rows, run as 32 row blocks of 4096. The output array after the run,
  read as one function of the region's input arrays: block t of the output is the tap's payload of block t of c and of z
  and of the whole w and b, which is rows 4096·t … 4096·t + 4095 of the whole-array tap; the 32 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

set_option maxHeartbeats 1000000 in
/-- What point t writes back is block t of the whole-array tap of the arrays as the region finds them. -/
theorem flushed6_4 (c : Dev nD) (t : Fin cfg6.N) :
    (dat6 (F := Ideal) V c).flushed 4 t = ((cfg6.win 4).blk t).view.read (Elt Ideal)
      (tapAcc (V c (Pipeline.arrRef spec6 3) : Mat 131072 64) (V c (Pipeline.arrRef spec6 0) : Mat 131072 64) (V c (Pipeline.arrRef spec6 1) : Mat 64 64) (V c (Pipeline.arrRef spec6 2) : Mat 1 64) : Mat 131072 64) := by
  show (cfg6.win 4).cut (grid6.coords t) ((dat6 (F := Ideal) V c).after 4 t) = _
  rw [after6_4]
  unfold out6_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx6 t
  funext j
  obtain ⟨p, q, rfl⟩ : ∃ (p : Fin 4096) (q : Fin 64), j = ix2 p q := ⟨j 0, j 1, eq_ix2 j⟩
  show k6_pay1 (iblk6 V c 0 t) (iblk6 V c 1 t) (iblk6 V c 3 t) (iblk6 V c 2 t) (ix2 p q)
    = (tapAcc (V c (Pipeline.arrRef spec6 3) : Mat 131072 64) (V c (Pipeline.arrRef spec6 0) : Mat 131072 64) (V c (Pipeline.arrRef spec6 1) : Mat 64 64) (V c (Pipeline.arrRef spec6 2) : Mat 1 64) : Mat 131072 64)
        (((cfg6.win 4).blk t).view.emb (ix2 p q))
  rw [k6_pay]
  refine tapPay_rows _ _ _ _ _ _ _ _ p q _ (fun k => ?_) ?_ (fun k => ?_) ?_
  · show V c (Pipeline.arrRef spec6 0) (((cfg6.win 0).blk t).view.emb (ix2 p k)) = _
    refine congrArg _ (funext fun a => Fin.ext ?_)
    match a with
    | ⟨0, _⟩ => show win6_0.index t (0 : Fin 2) * 4096 + 1 * p.val = win6_4.index t (0 : Fin 2) * 4096 + 1 * p.val; omega
    | ⟨1, _⟩ => show win6_0.index t (1 : Fin 2) * 64 + 1 * k.val = k.val; omega
  · show V c (Pipeline.arrRef spec6 3) (((cfg6.win 3).blk t).view.emb (ix2 p q)) = _
    refine congrArg _ (funext fun a => Fin.ext ?_)
    match a with
    | ⟨0, _⟩ => show win6_3.index t (0 : Fin 2) * 4096 + 1 * p.val = win6_4.index t (0 : Fin 2) * 4096 + 1 * p.val; omega
    | ⟨1, _⟩ => show win6_3.index t (1 : Fin 2) * 64 + 1 * q.val = win6_4.index t (1 : Fin 2) * 64 + 1 * q.val; omega
  · show V c (Pipeline.arrRef spec6 1) (((cfg6.win 1).blk t).view.emb (ix2 k q)) = _
    refine congrArg _ (funext fun a => Fin.ext ?_)
    match a with
    | ⟨0, _⟩ => show win6_1.index t (0 : Fin 2) * 64 + 1 * k.val = k.val; omega
    | ⟨1, _⟩ => show win6_1.index t (1 : Fin 2) * 64 + 1 * q.val = win6_4.index t (1 : Fin 2) * 64 + 1 * q.val; omega
  · show V c (Pipeline.arrRef spec6 2) (((cfg6.win 2).blk t).view.emb (ix2 (0 : Fin 1) q)) = _
    refine congrArg _ (funext fun a => Fin.ext ?_)
    match a with
    | ⟨0, _⟩ => show win6_2.index t (0 : Fin 2) * 1 + 1 * 0 = 0; omega
    | ⟨1, _⟩ => show win6_2.index t (1 : Fin 2) * 64 + 1 * q.val = win6_4.index t (1 : Fin 2) * 64 + 1 * q.val; omega

/-- An index of the output array is in point t's block iff each coordinate is in the block's range on its axis. -/
theorem mem_blk6_4 (t : Fin cfg6.N) (i : S131072x64.Idx) :
    i ∈ ((cfg6.win 4).blk t).view.set ↔ ∀ a : Fin 2, win6_4.index t a * S4096x64.size a ≤ (i a).val ∧ (i a).val < win6_4.index t a * S4096x64.size a + S4096x64.size a := by
  show i ∈ ((View.whole main_v121).slice (win6_4.rect t)).set ↔ _
  rw [View.set_slice_whole, Rect.mem_set_unit]
  exact Iff.rfl

/-- Every row lies in some point's block: row r in the block of point r / 4096. -/
theorem rowsCover6_4 (i : S131072x64.Idx) : ∃ t : Fin cfg6.N, (cfg6.win 4).flush t = true ∧ i ∈ ((cfg6.win 4).blk t).view.set := by
  have hN : cfg6.N = 32 := N_6
  have hi0 : (i 0).val < 131072 := (i 0).isLt
  have hi1 : (i 1).val < 64 := (i 1).isLt
  refine ⟨⟨(i 0).val / 4096, by rw [hN]; omega⟩, flush6_4 _, ?_⟩
  rw [mem_blk6_4]
  obtain ⟨-, -, -, -, -, -, -, -, e40, e41⟩ := idx6 ⟨(i 0).val / 4096, by rw [hN]; omega⟩
  intro a
  match a with
  | ⟨0, _⟩ =>
    show win6_4.index _ (0 : Fin 2) * 4096 ≤ (i 0).val ∧ (i 0).val < win6_4.index _ (0 : Fin 2) * 4096 + 4096
    rw [e40]; show (i 0).val / 4096 * 4096 ≤ (i 0).val ∧ (i 0).val < (i 0).val / 4096 * 4096 + 4096; omega
  | ⟨1, _⟩ =>
    show win6_4.index _ (1 : Fin 2) * 64 ≤ (i 1).val ∧ (i 1).val < win6_4.index _ (1 : Fin 2) * 64 + 64
    rw [e41]; omega

/-- The output array after the run is the whole-array tap of the region's input arrays. -/
theorem final6_4 (c : Dev nD) : (Cert.KernelIdeal.Gen.dat6 (F := Ideal) V c).arrAt 4 cfg6.N
    = (tapAcc (V c (Pipeline.arrRef spec6 3) : Mat 131072 64) (V c (Pipeline.arrRef spec6 0) : Mat 131072 64) (V c (Pipeline.arrRef spec6 1) : Mat 64 64) (V c (Pipeline.arrRef spec6 2) : Mat 1 64) : Mat 131072 64) :=
  (dat6 (F := Ideal) V c).arrAt_eq_of_cover 4 _ (fun t _ => flushed6_4 V c t) rowsCover6_4

end Cert.KernelIdeal.HV

end
-- ==== Proof.KReg7.lean ====
/-
  Region 7: the accumulating tap over the 32768 rows, run as 8 row blocks of 4096. The output array after the run,
  read as one function of the region's input arrays: block t of the output is the tap's payload of block t of c and of z
  and of the whole w and b, which is rows 4096·t … 4096·t + 4095 of the whole-array tap; the 8 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = t.val ∧ win7_4.index t (1 : Fin 2) = 0 :=
  (by decide +kernel : ∀ t : Fin grid7.N, _)

set_option maxHeartbeats 1000000 in
/-- What point t writes back is block t of the whole-array tap of the arrays as the region finds them. -/
theorem flushed7_4 (c : Dev nD) (t : Fin cfg7.N) :
    (dat7 (F := Ideal) V c).flushed 4 t = ((cfg7.win 4).blk t).view.read (Elt Ideal)
      (tapAcc (V c (Pipeline.arrRef spec7 3) : Mat 32768 64) (V c (Pipeline.arrRef spec7 0) : Mat 32768 64) (V c (Pipeline.arrRef spec7 1) : Mat 64 64) (V c (Pipeline.arrRef spec7 2) : Mat 1 64) : Mat 32768 64) := by
  show (cfg7.win 4).cut (grid7.coords t) ((dat7 (F := Ideal) V c).after 4 t) = _
  rw [after7_4]
  unfold out7_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx7 t
  funext j
  obtain ⟨p, q, rfl⟩ : ∃ (p : Fin 4096) (q : Fin 64), j = ix2 p q := ⟨j 0, j 1, eq_ix2 j⟩
  show k7_pay1 (iblk7 V c 0 t) (iblk7 V c 1 t) (iblk7 V c 3 t) (iblk7 V c 2 t) (ix2 p q)
    = (tapAcc (V c (Pipeline.arrRef spec7 3) : Mat 32768 64) (V c (Pipeline.arrRef spec7 0) : Mat 32768 64) (V c (Pipeline.arrRef spec7 1) : Mat 64 64) (V c (Pipeline.arrRef spec7 2) : Mat 1 64) : Mat 32768 64)
        (((cfg7.win 4).blk t).view.emb (ix2 p q))
  rw [k7_pay]
  refine tapPay_rows _ _ _ _ _ _ _ _ p q _ (fun k => ?_) ?_ (fun k => ?_) ?_
  · show V c (Pipeline.arrRef spec7 0) (((cfg7.win 0).blk t).view.emb (ix2 p k)) = _
    refine congrArg _ (funext fun a => Fin.ext ?_)
    match a with
    | ⟨0, _⟩ => show win7_0.index t (0 : Fin 2) * 4096 + 1 * p.val = win7_4.index t (0 : Fin 2) * 4096 + 1 * p.val; omega
    | ⟨1, _⟩ => show win7_0.index t (1 : Fin 2) * 64 + 1 * k.val = k.val; omega
  · show V c (Pipeline.arrRef spec7 3) (((cfg7.win 3).blk t).view.emb (ix2 p q)) = _
    refine congrArg _ (funext fun a => Fin.ext ?_)
    match a with
    | ⟨0, _⟩ => show win7_3.index t (0 : Fin 2) * 4096 + 1 * p.val = win7_4.index t (0 : Fin 2) * 4096 + 1 * p.val; omega
    | ⟨1, _⟩ => show win7_3.index t (1 : Fin 2) * 64 + 1 * q.val = win7_4.index t (1 : Fin 2) * 64 + 1 * q.val; omega
  · show V c (Pipeline.arrRef spec7 1) (((cfg7.win 1).blk t).view.emb (ix2 k q)) = _
    refine congrArg _ (funext fun a => Fin.ext ?_)
    match a with
    | ⟨0, _⟩ => show win7_1.index t (0 : Fin 2) * 64 + 1 * k.val = k.val; omega
    | ⟨1, _⟩ => show win7_1.index t (1 : Fin 2) * 64 + 1 * q.val = win7_4.index t (1 : Fin 2) * 64 + 1 * q.val; omega
  · show V c (Pipeline.arrRef spec7 2) (((cfg7.win 2).blk t).view.emb (ix2 (0 : Fin 1) q)) = _
    refine congrArg _ (funext fun a => Fin.ext ?_)
    match a with
    | ⟨0, _⟩ => show win7_2.index t (0 : Fin 2) * 1 + 1 * 0 = 0; omega
    | ⟨1, _⟩ => show win7_2.index t (1 : Fin 2) * 64 + 1 * q.val = win7_4.index t (1 : Fin 2) * 64 + 1 * q.val; omega

/-- An index of the output array is in point t's block iff each coordinate is in the block's range on its axis. -/
theorem mem_blk7_4 (t : Fin cfg7.N) (i : S32768x64.Idx) :
    i ∈ ((cfg7.win 4).blk t).view.set ↔ ∀ a : Fin 2, win7_4.index t a * S4096x64.size a ≤ (i a).val ∧ (i a).val < win7_4.index t a * S4096x64.size a + S4096x64.size a := by
  show i ∈ ((View.whole main_v127).slice (win7_4.rect t)).set ↔ _
  rw [View.set_slice_whole, Rect.mem_set_unit]
  exact Iff.rfl

/-- Every row lies in some point's block: row r in the block of point r / 4096. -/
theorem rowsCover7_4 (i : S32768x64.Idx) : ∃ t : Fin cfg7.N, (cfg7.win 4).flush t = true ∧ i ∈ ((cfg7.win 4).blk t).view.set := by
  have hN : cfg7.N = 8 := N_7
  have hi0 : (i 0).val < 32768 := (i 0).isLt
  have hi1 : (i 1).val < 64 := (i 1).isLt
  refine ⟨⟨(i 0).val / 4096, by rw [hN]; omega⟩, flush7_4 _, ?_⟩
  rw [mem_blk7_4]
  obtain ⟨-, -, -, -, -, -, -, -, e40, e41⟩ := idx7 ⟨(i 0).val / 4096, by rw [hN]; omega⟩
  intro a
  match a with
  | ⟨0, _⟩ =>
    show win7_4.index _ (0 : Fin 2) * 4096 ≤ (i 0).val ∧ (i 0).val < win7_4.index _ (0 : Fin 2) * 4096 + 4096
    rw [e40]; show (i 0).val / 4096 * 4096 ≤ (i 0).val ∧ (i 0).val < (i 0).val / 4096 * 4096 + 4096; omega
  | ⟨1, _⟩ =>
    show win7_4.index _ (1 : Fin 2) * 64 ≤ (i 1).val ∧ (i 1).val < win7_4.index _ (1 : Fin 2) * 64 + 64
    rw [e41]; omega

/-- The output array after the run is the whole-array tap of the region's input arrays. -/
theorem final7_4 (c : Dev nD) : (Cert.KernelIdeal.Gen.dat7 (F := Ideal) V c).arrAt 4 cfg7.N
    = (tapAcc (V c (Pipeline.arrRef spec7 3) : Mat 32768 64) (V c (Pipeline.arrRef spec7 0) : Mat 32768 64) (V c (Pipeline.arrRef spec7 1) : Mat 64 64) (V c (Pipeline.arrRef spec7 2) : Mat 1 64) : Mat 32768 64) :=
  (dat7 (F := Ideal) V c).arrAt_eq_of_cover 4 _ (fun t _ => flushed7_4 V c t) rowsCover7_4

end Cert.KernelIdeal.HV

end
-- ==== Proof.KReg8.lean ====
/-
  Region 8: the accumulating tap over the 131072 rows, run as 32 row blocks of 4096. The output array after the run,
  read as one function of the region's input arrays: block t of the output is the tap's payload of block t of c and of z
  and of the whole w and b, which is rows 4096·t … 4096·t + 4095 of the whole-array tap; the 32 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

set_option maxHeartbeats 1000000 in
/-- What point t writes back is block t of the whole-array tap of the arrays as the region finds them. -/
theorem flushed8_4 (c : Dev nD) (t : Fin cfg8.N) :
    (dat8 (F := Ideal) V c).flushed 4 t = ((cfg8.win 4).blk t).view.read (Elt Ideal)
      (tapAcc (V c (Pipeline.arrRef spec8 3) : Mat 131072 64) (V c (Pipeline.arrRef spec8 0) : Mat 131072 64) (V c (Pipeline.arrRef spec8 1) : Mat 64 64) (V c (Pipeline.arrRef spec8 2) : Mat 1 64) : Mat 131072 64) := by
  show (cfg8.win 4).cut (grid8.coords t) ((dat8 (F := Ideal) V c).after 4 t) = _
  rw [after8_4]
  unfold out8_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx8 t
  funext j
  obtain ⟨p, q, rfl⟩ : ∃ (p : Fin 4096) (q : Fin 64), j = ix2 p q := ⟨j 0, j 1, eq_ix2 j⟩
  show k8_pay1 (iblk8 V c 0 t) (iblk8 V c 1 t) (iblk8 V c 3 t) (iblk8 V c 2 t) (ix2 p q)
    = (tapAcc (V c (Pipeline.arrRef spec8 3) : Mat 131072 64) (V c (Pipeline.arrRef spec8 0) : Mat 131072 64) (V c (Pipeline.arrRef spec8 1) : Mat 64 64) (V c (Pipeline.arrRef spec8 2) : Mat 1 64) : Mat 131072 64)
        (((cfg8.win 4).blk t).view.emb (ix2 p q))
  rw [k8_pay]
  refine tapPay_rows _ _ _ _ _ _ _ _ p q _ (fun k => ?_) ?_ (fun k => ?_) ?_
  · show V c (Pipeline.arrRef spec8 0) (((cfg8.win 0).blk t).view.emb (ix2 p k)) = _
    refine congrArg _ (funext fun a => Fin.ext ?_)
    match a with
    | ⟨0, _⟩ => show win8_0.index t (0 : Fin 2) * 4096 + 1 * p.val = win8_4.index t (0 : Fin 2) * 4096 + 1 * p.val; omega
    | ⟨1, _⟩ => show win8_0.index t (1 : Fin 2) * 64 + 1 * k.val = k.val; omega
  · show V c (Pipeline.arrRef spec8 3) (((cfg8.win 3).blk t).view.emb (ix2 p q)) = _
    refine congrArg _ (funext fun a => Fin.ext ?_)
    match a with
    | ⟨0, _⟩ => show win8_3.index t (0 : Fin 2) * 4096 + 1 * p.val = win8_4.index t (0 : Fin 2) * 4096 + 1 * p.val; omega
    | ⟨1, _⟩ => show win8_3.index t (1 : Fin 2) * 64 + 1 * q.val = win8_4.index t (1 : Fin 2) * 64 + 1 * q.val; omega
  · show V c (Pipeline.arrRef spec8 1) (((cfg8.win 1).blk t).view.emb (ix2 k q)) = _
    refine congrArg _ (funext fun a => Fin.ext ?_)
    match a with
    | ⟨0, _⟩ => show win8_1.index t (0 : Fin 2) * 64 + 1 * k.val = k.val; omega
    | ⟨1, _⟩ => show win8_1.index t (1 : Fin 2) * 64 + 1 * q.val = win8_4.index t (1 : Fin 2) * 64 + 1 * q.val; omega
  · show V c (Pipeline.arrRef spec8 2) (((cfg8.win 2).blk t).view.emb (ix2 (0 : Fin 1) q)) = _
    refine congrArg _ (funext fun a => Fin.ext ?_)
    match a with
    | ⟨0, _⟩ => show win8_2.index t (0 : Fin 2) * 1 + 1 * 0 = 0; omega
    | ⟨1, _⟩ => show win8_2.index t (1 : Fin 2) * 64 + 1 * q.val = win8_4.index t (1 : Fin 2) * 64 + 1 * q.val; omega

/-- An index of the output array is in point t's block iff each coordinate is in the block's range on its axis. -/
theorem mem_blk8_4 (t : Fin cfg8.N) (i : S131072x64.Idx) :
    i ∈ ((cfg8.win 4).blk t).view.set ↔ ∀ a : Fin 2, win8_4.index t a * S4096x64.size a ≤ (i a).val ∧ (i a).val < win8_4.index t a * S4096x64.size a + S4096x64.size a := by
  show i ∈ ((View.whole main_v164).slice (win8_4.rect t)).set ↔ _
  rw [View.set_slice_whole, Rect.mem_set_unit]
  exact Iff.rfl

/-- Every row lies in some point's block: row r in the block of point r / 4096. -/
theorem rowsCover8_4 (i : S131072x64.Idx) : ∃ t : Fin cfg8.N, (cfg8.win 4).flush t = true ∧ i ∈ ((cfg8.win 4).blk t).view.set := by
  have hN : cfg8.N = 32 := N_8
  have hi0 : (i 0).val < 131072 := (i 0).isLt
  have hi1 : (i 1).val < 64 := (i 1).isLt
  refine ⟨⟨(i 0).val / 4096, by rw [hN]; omega⟩, flush8_4 _, ?_⟩
  rw [mem_blk8_4]
  obtain ⟨-, -, -, -, -, -, -, -, e40, e41⟩ := idx8 ⟨(i 0).val / 4096, by rw [hN]; omega⟩
  intro a
  match a with
  | ⟨0, _⟩ =>
    show win8_4.index _ (0 : Fin 2) * 4096 ≤ (i 0).val ∧ (i 0).val < win8_4.index _ (0 : Fin 2) * 4096 + 4096
    rw [e40]; show (i 0).val / 4096 * 4096 ≤ (i 0).val ∧ (i 0).val < (i 0).val / 4096 * 4096 + 4096; omega
  | ⟨1, _⟩ =>
    show win8_4.index _ (1 : Fin 2) * 64 ≤ (i 1).val ∧ (i 1).val < win8_4.index _ (1 : Fin 2) * 64 + 64
    rw [e41]; omega

/-- The output array after the run is the whole-array tap of the region's input arrays. -/
theorem final8_4 (c : Dev nD) : (Cert.KernelIdeal.Gen.dat8 (F := Ideal) V c).arrAt 4 cfg8.N
    = (tapAcc (V c (Pipeline.arrRef spec8 3) : Mat 131072 64) (V c (Pipeline.arrRef spec8 0) : Mat 131072 64) (V c (Pipeline.arrRef spec8 1) : Mat 64 64) (V c (Pipeline.arrRef spec8 2) : Mat 1 64) : Mat 131072 64) :=
  (dat8 (F := Ideal) V c).arrAt_eq_of_cover 4 _ (fun t _ => flushed8_4 V c t) rowsCover8_4

end Cert.KernelIdeal.HV

end
-- ==== Proof.KReg9.lean ====
/-
  Region 9: the accumulating tap over the 32768 rows, run as 8 row blocks of 4096. The output array after the run,
  read as one function of the region's input arrays: block t of the output is the tap's payload of block t of c and of z
  and of the whole w and b, which is rows 4096·t … 4096·t + 4095 of the whole-array tap; the 8 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0
    ∧ win9_4.index t (0 : Fin 2) = t.val ∧ win9_4.index t (1 : Fin 2) = 0 :=
  (by decide +kernel : ∀ t : Fin grid9.N, _)

set_option maxHeartbeats 1000000 in
/-- What point t writes back is block t of the whole-array tap of the arrays as the region finds them. -/
theorem flushed9_4 (c : Dev nD) (t : Fin cfg9.N) :
    (dat9 (F := Ideal) V c).flushed 4 t = ((cfg9.win 4).blk t).view.read (Elt Ideal)
      (tapAcc (V c (Pipeline.arrRef spec9 3) : Mat 32768 64) (V c (Pipeline.arrRef spec9 0) : Mat 32768 64) (V c (Pipeline.arrRef spec9 1) : Mat 64 64) (V c (Pipeline.arrRef spec9 2) : Mat 1 64) : Mat 32768 64) := by
  show (cfg9.win 4).cut (grid9.coords t) ((dat9 (F := Ideal) V c).after 4 t) = _
  rw [after9_4]
  unfold out9_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx9 t
  funext j
  obtain ⟨p, q, rfl⟩ : ∃ (p : Fin 4096) (q : Fin 64), j = ix2 p q := ⟨j 0, j 1, eq_ix2 j⟩
  show k9_pay1 (iblk9 V c 0 t) (iblk9 V c 1 t) (iblk9 V c 3 t) (iblk9 V c 2 t) (ix2 p q)
    = (tapAcc (V c (Pipeline.arrRef spec9 3) : Mat 32768 64) (V c (Pipeline.arrRef spec9 0) : Mat 32768 64) (V c (Pipeline.arrRef spec9 1) : Mat 64 64) (V c (Pipeline.arrRef spec9 2) : Mat 1 64) : Mat 32768 64)
        (((cfg9.win 4).blk t).view.emb (ix2 p q))
  rw [k9_pay]
  refine tapPay_rows _ _ _ _ _ _ _ _ p q _ (fun k => ?_) ?_ (fun k => ?_) ?_
  · show V c (Pipeline.arrRef spec9 0) (((cfg9.win 0).blk t).view.emb (ix2 p k)) = _
    refine congrArg _ (funext fun a => Fin.ext ?_)
    match a with
    | ⟨0, _⟩ => show win9_0.index t (0 : Fin 2) * 4096 + 1 * p.val = win9_4.index t (0 : Fin 2) * 4096 + 1 * p.val; omega
    | ⟨1, _⟩ => show win9_0.index t (1 : Fin 2) * 64 + 1 * k.val = k.val; omega
  · show V c (Pipeline.arrRef spec9 3) (((cfg9.win 3).blk t).view.emb (ix2 p q)) = _
    refine congrArg _ (funext fun a => Fin.ext ?_)
    match a with
    | ⟨0, _⟩ => show win9_3.index t (0 : Fin 2) * 4096 + 1 * p.val = win9_4.index t (0 : Fin 2) * 4096 + 1 * p.val; omega
    | ⟨1, _⟩ => show win9_3.index t (1 : Fin 2) * 64 + 1 * q.val = win9_4.index t (1 : Fin 2) * 64 + 1 * q.val; omega
  · show V c (Pipeline.arrRef spec9 1) (((cfg9.win 1).blk t).view.emb (ix2 k q)) = _
    refine congrArg _ (funext fun a => Fin.ext ?_)
    match a with
    | ⟨0, _⟩ => show win9_1.index t (0 : Fin 2) * 64 + 1 * k.val = k.val; omega
    | ⟨1, _⟩ => show win9_1.index t (1 : Fin 2) * 64 + 1 * q.val = win9_4.index t (1 : Fin 2) * 64 + 1 * q.val; omega
  · show V c (Pipeline.arrRef spec9 2) (((cfg9.win 2).blk t).view.emb (ix2 (0 : Fin 1) q)) = _
    refine congrArg _ (funext fun a => Fin.ext ?_)
    match a with
    | ⟨0, _⟩ => show win9_2.index t (0 : Fin 2) * 1 + 1 * 0 = 0; omega
    | ⟨1, _⟩ => show win9_2.index t (1 : Fin 2) * 64 + 1 * q.val = win9_4.index t (1 : Fin 2) * 64 + 1 * q.val; omega

/-- An index of the output array is in point t's block iff each coordinate is in the block's range on its axis. -/
theorem mem_blk9_4 (t : Fin cfg9.N) (i : S32768x64.Idx) :
    i ∈ ((cfg9.win 4).blk t).view.set ↔ ∀ a : Fin 2, win9_4.index t a * S4096x64.size a ≤ (i a).val ∧ (i a).val < win9_4.index t a * S4096x64.size a + S4096x64.size a := by
  show i ∈ ((View.whole main_v170).slice (win9_4.rect t)).set ↔ _
  rw [View.set_slice_whole, Rect.mem_set_unit]
  exact Iff.rfl

/-- Every row lies in some point's block: row r in the block of point r / 4096. -/
theorem rowsCover9_4 (i : S32768x64.Idx) : ∃ t : Fin cfg9.N, (cfg9.win 4).flush t = true ∧ i ∈ ((cfg9.win 4).blk t).view.set := by
  have hN : cfg9.N = 8 := N_9
  have hi0 : (i 0).val < 32768 := (i 0).isLt
  have hi1 : (i 1).val < 64 := (i 1).isLt
  refine ⟨⟨(i 0).val / 4096, by rw [hN]; omega⟩, flush9_4 _, ?_⟩
  rw [mem_blk9_4]
  obtain ⟨-, -, -, -, -, -, -, -, e40, e41⟩ := idx9 ⟨(i 0).val / 4096, by rw [hN]; omega⟩
  intro a
  match a with
  | ⟨0, _⟩ =>
    show win9_4.index _ (0 : Fin 2) * 4096 ≤ (i 0).val ∧ (i 0).val < win9_4.index _ (0 : Fin 2) * 4096 + 4096
    rw [e40]; show (i 0).val / 4096 * 4096 ≤ (i 0).val ∧ (i 0).val < (i 0).val / 4096 * 4096 + 4096; omega
  | ⟨1, _⟩ =>
    show win9_4.index _ (1 : Fin 2) * 64 ≤ (i 1).val ∧ (i 1).val < win9_4.index _ (1 : Fin 2) * 64 + 64
    rw [e41]; omega

/-- The output array after the run is the whole-array tap of the region's input arrays. -/
theorem final9_4 (c : Dev nD) : (Cert.KernelIdeal.Gen.dat9 (F := Ideal) V c).arrAt 4 cfg9.N
    = (tapAcc (V c (Pipeline.arrRef spec9 3) : Mat 32768 64) (V c (Pipeline.arrRef spec9 0) : Mat 32768 64) (V c (Pipeline.arrRef spec9 1) : Mat 64 64) (V c (Pipeline.arrRef spec9 2) : Mat 1 64) : Mat 32768 64) :=
  (dat9 (F := Ideal) V c).arrAt_eq_of_cover 4 _ (fun t _ => flushed9_4 V c t) rowsCover9_4

end Cert.KernelIdeal.HV

end
-- ==== Proof.KReg10.lean ====
/-
  Region 10: the accumulating tap over the 131072 rows, run as 32 row blocks of 4096. The output array after the run,
  read as one function of the region's input arrays: block t of the output is the tap's payload of block t of c and of z
  and of the whole w and b, which is rows 4096·t … 4096·t + 4095 of the whole-array tap; the 32 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0
    ∧ win10_4.index t (0 : Fin 2) = t.val ∧ win10_4.index t (1 : Fin 2) = 0 :=
  (by decide +kernel : ∀ t : Fin grid10.N, _)

set_option maxHeartbeats 1000000 in
/-- What point t writes back is block t of the whole-array tap of the arrays as the region finds them. -/
theorem flushed10_4 (c : Dev nD) (t : Fin cfg10.N) :
    (dat10 (F := Ideal) V c).flushed 4 t = ((cfg10.win 4).blk t).view.read (Elt Ideal)
      (tapAcc (V c (Pipeline.arrRef spec10 3) : Mat 131072 64) (V c (Pipeline.arrRef spec10 0) : Mat 131072 64) (V c (Pipeline.arrRef spec10 1) : Mat 64 64) (V c (Pipeline.arrRef spec10 2) : Mat 1 64) : Mat 131072 64) := by
  show (cfg10.win 4).cut (grid10.coords t) ((dat10 (F := Ideal) V c).after 4 t) = _
  rw [after10_4]
  unfold out10_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx10 t
  funext j
  obtain ⟨p, q, rfl⟩ : ∃ (p : Fin 4096) (q : Fin 64), j = ix2 p q := ⟨j 0, j 1, eq_ix2 j⟩
  show k10_pay1 (iblk10 V c 0 t) (iblk10 V c 1 t) (iblk10 V c 3 t) (iblk10 V c 2 t) (ix2 p q)
    = (tapAcc (V c (Pipeline.arrRef spec10 3) : Mat 131072 64) (V c (Pipeline.arrRef spec10 0) : Mat 131072 64) (V c (Pipeline.arrRef spec10 1) : Mat 64 64) (V c (Pipeline.arrRef spec10 2) : Mat 1 64) : Mat 131072 64)
        (((cfg10.win 4).blk t).view.emb (ix2 p q))
  rw [k10_pay]
  refine tapPay_rows _ _ _ _ _ _ _ _ p q _ (fun k => ?_) ?_ (fun k => ?_) ?_
  · show V c (Pipeline.arrRef spec10 0) (((cfg10.win 0).blk t).view.emb (ix2 p k)) = _
    refine congrArg _ (funext fun a => Fin.ext ?_)
    match a with
    | ⟨0, _⟩ => show win10_0.index t (0 : Fin 2) * 4096 + 1 * p.val = win10_4.index t (0 : Fin 2) * 4096 + 1 * p.val; omega
    | ⟨1, _⟩ => show win10_0.index t (1 : Fin 2) * 64 + 1 * k.val = k.val; omega
  · show V c (Pipeline.arrRef spec10 3) (((cfg10.win 3).blk t).view.emb (ix2 p q)) = _
    refine congrArg _ (funext fun a => Fin.ext ?_)
    match a with
    | ⟨0, _⟩ => show win10_3.index t (0 : Fin 2) * 4096 + 1 * p.val = win10_4.index t (0 : Fin 2) * 4096 + 1 * p.val; omega
    | ⟨1, _⟩ => show win10_3.index t (1 : Fin 2) * 64 + 1 * q.val = win10_4.index t (1 : Fin 2) * 64 + 1 * q.val; omega
  · show V c (Pipeline.arrRef spec10 1) (((cfg10.win 1).blk t).view.emb (ix2 k q)) = _
    refine congrArg _ (funext fun a => Fin.ext ?_)
    match a with
    | ⟨0, _⟩ => show win10_1.index t (0 : Fin 2) * 64 + 1 * k.val = k.val; omega
    | ⟨1, _⟩ => show win10_1.index t (1 : Fin 2) * 64 + 1 * q.val = win10_4.index t (1 : Fin 2) * 64 + 1 * q.val; omega
  · show V c (Pipeline.arrRef spec10 2) (((cfg10.win 2).blk t).view.emb (ix2 (0 : Fin 1) q)) = _
    refine congrArg _ (funext fun a => Fin.ext ?_)
    match a with
    | ⟨0, _⟩ => show win10_2.index t (0 : Fin 2) * 1 + 1 * 0 = 0; omega
    | ⟨1, _⟩ => show win10_2.index t (1 : Fin 2) * 64 + 1 * q.val = win10_4.index t (1 : Fin 2) * 64 + 1 * q.val; omega

/-- An index of the output array is in point t's block iff each coordinate is in the block's range on its axis. -/
theorem mem_blk10_4 (t : Fin cfg10.N) (i : S131072x64.Idx) :
    i ∈ ((cfg10.win 4).blk t).view.set ↔ ∀ a : Fin 2, win10_4.index t a * S4096x64.size a ≤ (i a).val ∧ (i a).val < win10_4.index t a * S4096x64.size a + S4096x64.size a := by
  show i ∈ ((View.whole main_v207).slice (win10_4.rect t)).set ↔ _
  rw [View.set_slice_whole, Rect.mem_set_unit]
  exact Iff.rfl

/-- Every row lies in some point's block: row r in the block of point r / 4096. -/
theorem rowsCover10_4 (i : S131072x64.Idx) : ∃ t : Fin cfg10.N, (cfg10.win 4).flush t = true ∧ i ∈ ((cfg10.win 4).blk t).view.set := by
  have hN : cfg10.N = 32 := N_10
  have hi0 : (i 0).val < 131072 := (i 0).isLt
  have hi1 : (i 1).val < 64 := (i 1).isLt
  refine ⟨⟨(i 0).val / 4096, by rw [hN]; omega⟩, flush10_4 _, ?_⟩
  rw [mem_blk10_4]
  obtain ⟨-, -, -, -, -, -, -, -, e40, e41⟩ := idx10 ⟨(i 0).val / 4096, by rw [hN]; omega⟩
  intro a
  match a with
  | ⟨0, _⟩ =>
    show win10_4.index _ (0 : Fin 2) * 4096 ≤ (i 0).val ∧ (i 0).val < win10_4.index _ (0 : Fin 2) * 4096 + 4096
    rw [e40]; show (i 0).val / 4096 * 4096 ≤ (i 0).val ∧ (i 0).val < (i 0).val / 4096 * 4096 + 4096; omega
  | ⟨1, _⟩ =>
    show win10_4.index _ (1 : Fin 2) * 64 ≤ (i 1).val ∧ (i 1).val < win10_4.index _ (1 : Fin 2) * 64 + 64
    rw [e41]; omega

/-- The output array after the run is the whole-array tap of the region's input arrays. -/
theorem final10_4 (c : Dev nD) : (Cert.KernelIdeal.Gen.dat10 (F := Ideal) V c).arrAt 4 cfg10.N
    = (tapAcc (V c (Pipeline.arrRef spec10 3) : Mat 131072 64) (V c (Pipeline.arrRef spec10 0) : Mat 131072 64) (V c (Pipeline.arrRef spec10 1) : Mat 64 64) (V c (Pipeline.arrRef spec10 2) : Mat 1 64) : Mat 131072 64) :=
  (dat10 (F := Ideal) V c).arrAt_eq_of_cover 4 _ (fun t _ => flushed10_4 V c t) rowsCover10_4

end Cert.KernelIdeal.HV

end
-- ==== Proof.KReg11.lean ====
/-
  Region 11: the accumulating tap over the 32768 rows, run as 8 row blocks of 4096. The output array after the run,
  read as one function of the region's input arrays: block t of the output is the tap's payload of block t of c and of z
  and of the whole w and b, which is rows 4096·t … 4096·t + 4095 of the whole-array tap; the 8 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0
    ∧ win11_4.index t (0 : Fin 2) = t.val ∧ win11_4.index t (1 : Fin 2) = 0 :=
  (by decide +kernel : ∀ t : Fin grid11.N, _)

set_option maxHeartbeats 1000000 in
/-- What point t writes back is block t of the whole-array tap of the arrays as the region finds them. -/
theorem flushed11_4 (c : Dev nD) (t : Fin cfg11.N) :
    (dat11 (F := Ideal) V c).flushed 4 t = ((cfg11.win 4).blk t).view.read (Elt Ideal)
      (tapAcc (V c (Pipeline.arrRef spec11 3) : Mat 32768 64) (V c (Pipeline.arrRef spec11 0) : Mat 32768 64) (V c (Pipeline.arrRef spec11 1) : Mat 64 64) (V c (Pipeline.arrRef spec11 2) : Mat 1 64) : Mat 32768 64) := by
  show (cfg11.win 4).cut (grid11.coords t) ((dat11 (F := Ideal) V c).after 4 t) = _
  rw [after11_4]
  unfold out11_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx11 t
  funext j
  obtain ⟨p, q, rfl⟩ : ∃ (p : Fin 4096) (q : Fin 64), j = ix2 p q := ⟨j 0, j 1, eq_ix2 j⟩
  show k11_pay1 (iblk11 V c 0 t) (iblk11 V c 1 t) (iblk11 V c 3 t) (iblk11 V c 2 t) (ix2 p q)
    = (tapAcc (V c (Pipeline.arrRef spec11 3) : Mat 32768 64) (V c (Pipeline.arrRef spec11 0) : Mat 32768 64) (V c (Pipeline.arrRef spec11 1) : Mat 64 64) (V c (Pipeline.arrRef spec11 2) : Mat 1 64) : Mat 32768 64)
        (((cfg11.win 4).blk t).view.emb (ix2 p q))
  rw [k11_pay]
  refine tapPay_rows _ _ _ _ _ _ _ _ p q _ (fun k => ?_) ?_ (fun k => ?_) ?_
  · show V c (Pipeline.arrRef spec11 0) (((cfg11.win 0).blk t).view.emb (ix2 p k)) = _
    refine congrArg _ (funext fun a => Fin.ext ?_)
    match a with
    | ⟨0, _⟩ => show win11_0.index t (0 : Fin 2) * 4096 + 1 * p.val = win11_4.index t (0 : Fin 2) * 4096 + 1 * p.val; omega
    | ⟨1, _⟩ => show win11_0.index t (1 : Fin 2) * 64 + 1 * k.val = k.val; omega
  · show V c (Pipeline.arrRef spec11 3) (((cfg11.win 3).blk t).view.emb (ix2 p q)) = _
    refine congrArg _ (funext fun a => Fin.ext ?_)
    match a with
    | ⟨0, _⟩ => show win11_3.index t (0 : Fin 2) * 4096 + 1 * p.val = win11_4.index t (0 : Fin 2) * 4096 + 1 * p.val; omega
    | ⟨1, _⟩ => show win11_3.index t (1 : Fin 2) * 64 + 1 * q.val = win11_4.index t (1 : Fin 2) * 64 + 1 * q.val; omega
  · show V c (Pipeline.arrRef spec11 1) (((cfg11.win 1).blk t).view.emb (ix2 k q)) = _
    refine congrArg _ (funext fun a => Fin.ext ?_)
    match a with
    | ⟨0, _⟩ => show win11_1.index t (0 : Fin 2) * 64 + 1 * k.val = k.val; omega
    | ⟨1, _⟩ => show win11_1.index t (1 : Fin 2) * 64 + 1 * q.val = win11_4.index t (1 : Fin 2) * 64 + 1 * q.val; omega
  · show V c (Pipeline.arrRef spec11 2) (((cfg11.win 2).blk t).view.emb (ix2 (0 : Fin 1) q)) = _
    refine congrArg _ (funext fun a => Fin.ext ?_)
    match a with
    | ⟨0, _⟩ => show win11_2.index t (0 : Fin 2) * 1 + 1 * 0 = 0; omega
    | ⟨1, _⟩ => show win11_2.index t (1 : Fin 2) * 64 + 1 * q.val = win11_4.index t (1 : Fin 2) * 64 + 1 * q.val; omega

/-- An index of the output array is in point t's block iff each coordinate is in the block's range on its axis. -/
theorem mem_blk11_4 (t : Fin cfg11.N) (i : S32768x64.Idx) :
    i ∈ ((cfg11.win 4).blk t).view.set ↔ ∀ a : Fin 2, win11_4.index t a * S4096x64.size a ≤ (i a).val ∧ (i a).val < win11_4.index t a * S4096x64.size a + S4096x64.size a := by
  show i ∈ ((View.whole main_v213).slice (win11_4.rect t)).set ↔ _
  rw [View.set_slice_whole, Rect.mem_set_unit]
  exact Iff.rfl

/-- Every row lies in some point's block: row r in the block of point r / 4096. -/
theorem rowsCover11_4 (i : S32768x64.Idx) : ∃ t : Fin cfg11.N, (cfg11.win 4).flush t = true ∧ i ∈ ((cfg11.win 4).blk t).view.set := by
  have hN : cfg11.N = 8 := N_11
  have hi0 : (i 0).val < 32768 := (i 0).isLt
  have hi1 : (i 1).val < 64 := (i 1).isLt
  refine ⟨⟨(i 0).val / 4096, by rw [hN]; omega⟩, flush11_4 _, ?_⟩
  rw [mem_blk11_4]
  obtain ⟨-, -, -, -, -, -, -, -, e40, e41⟩ := idx11 ⟨(i 0).val / 4096, by rw [hN]; omega⟩
  intro a
  match a with
  | ⟨0, _⟩ =>
    show win11_4.index _ (0 : Fin 2) * 4096 ≤ (i 0).val ∧ (i 0).val < win11_4.index _ (0 : Fin 2) * 4096 + 4096
    rw [e40]; show (i 0).val / 4096 * 4096 ≤ (i 0).val ∧ (i 0).val < (i 0).val / 4096 * 4096 + 4096; omega
  | ⟨1, _⟩ =>
    show win11_4.index _ (1 : Fin 2) * 64 ≤ (i 1).val ∧ (i 1).val < win11_4.index _ (1 : Fin 2) * 64 + 64
    rw [e41]; omega

/-- The output array after the run is the whole-array tap of the region's input arrays. -/
theorem final11_4 (c : Dev nD) : (Cert.KernelIdeal.Gen.dat11 (F := Ideal) V c).arrAt 4 cfg11.N
    = (tapAcc (V c (Pipeline.arrRef spec11 3) : Mat 32768 64) (V c (Pipeline.arrRef spec11 0) : Mat 32768 64) (V c (Pipeline.arrRef spec11 1) : Mat 64 64) (V c (Pipeline.arrRef spec11 2) : Mat 1 64) : Mat 32768 64) :=
  (dat11 (F := Ideal) V c).arrAt_eq_of_cover 4 _ (fun t _ => flushed11_4 V c t) rowsCover11_4

end Cert.KernelIdeal.HV

end
-- ==== Proof.KReg12.lean ====
/-
  The residual add of the 131072 rows: after the run the region's output array is the entrywise sum of its two input
  arrays. Grid point t adds rows 4096·t … 4096·t + 4095 of the two inputs and writes the same rows of the output; the
  32 row blocks cover every row, so the array is the whole sum.
-/
import proofs.«144873_j21182778704707_1_alg».proof.Proof.Gen.KernelIdeal.Frame
import proofs.«144873_j21182778704707_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.HV

open Cert.KernelIdeal Cert.KernelIdeal.Gen

variable (V : (c : Dev nD) → (b : Ref sig .tc) → Buf (Elt Ideal) ((c : Thread nD τ).loc b))

/-- The zero offsets of a whole-block access, however they are spelt. -/
theorem hz12 : (![0, 0] : Fin 2 → Nat) = fun _ => 0 := funext fun a => by fin_cases a <;> rfl

/-- The body's arithmetic: the sum of the two loaded blocks (the two shape casts are the identity). -/
theorem pay12_eq (x0 x1 : Vec Ideal S4096x64 .f32) : k12_pay1 x0 x1 = addf x0 x1 := by
  unfold k12_pay1
  simp only [shapeCast_self]

/-- The block index maps over the grid: all three windows sit at row block t, column block 0. -/
theorem idx_facts12 : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0 :=
  (by decide +kernel : ∀ t : Fin grid12.N, _)

/-- What point t writes back is block t of the entrywise sum of the two input arrays. -/
theorem flushed12_2_eq (c : Dev nD) (t : Fin cfg12.N) :
    (dat12 V c).flushed 2 t = ((cfg12.win 2).blk t).view.read (Elt Ideal)
      ((addf (V c (Pipeline.arrRef spec12 0) : FVec Ideal S131072x64 .f32) (V c (Pipeline.arrRef spec12 1)) : FVec Ideal S131072x64 .f32)) := by
  show (cfg12.win 2).cut (grid12.coords t) ((dat12 V c).after 2 t) = _
  rw [after12_2]
  unfold out12_2
  rw [View.canon_unit_zero hz12]
  simp only [View.ld_unit_zero (S := S4096x64) hz12]
  rw [pay12_eq]
  obtain ⟨e0, e1, e2, e3, e4, e5⟩ := idx_facts12 t
  funext j
  show FloatOps.addf (F := Ideal) (φ := .f32) (V c main_v5 (((cfg12.win 0).blk t).view.emb j)) (V c main_v207 (((cfg12.win 1).blk t).view.emb j))
    = FloatOps.addf (F := Ideal) (φ := .f32) (V c main_v5 (((cfg12.win 2).blk t).view.emb j)) (V c main_v207 (((cfg12.win 2).blk t).view.emb j))
  have h0 : ((cfg12.win 0).blk t).view.emb j = ((cfg12.win 2).blk t).view.emb j := by
    funext a; apply Fin.ext
    match a with
    | ⟨0, _⟩ => show win12_0.index t (0 : Fin 2) * 4096 + 1 * (j 0).val = win12_2.index t (0 : Fin 2) * 4096 + 1 * (j 0).val; omega
    | ⟨1, _⟩ => show win12_0.index t (1 : Fin 2) * 64 + 1 * (j 1).val = win12_2.index t (1 : Fin 2) * 64 + 1 * (j 1).val; omega
  have h1 : ((cfg12.win 1).blk t).view.emb j = ((cfg12.win 2).blk t).view.emb j := by
    funext a; apply Fin.ext
    match a with
    | ⟨0, _⟩ => show win12_1.index t (0 : Fin 2) * 4096 + 1 * (j 0).val = win12_2.index t (0 : Fin 2) * 4096 + 1 * (j 0).val; omega
    | ⟨1, _⟩ => show win12_1.index t (1 : Fin 2) * 64 + 1 * (j 1).val = win12_2.index t (1 : Fin 2) * 64 + 1 * (j 1).val; omega
  rw [h0, h1]

/-- An index of the output array is in point t's block iff each coordinate is in the block's range on its axis. -/
theorem mem_blk12_2 (t : Fin cfg12.N) (i : S131072x64.Idx) :
    i ∈ ((cfg12.win 2).blk t).view.set ↔ ∀ a : Fin 2, win12_2.index t a * S4096x64.size a ≤ (i a).val ∧ (i a).val < win12_2.index t a * S4096x64.size a + S4096x64.size a := by
  show i ∈ ((View.whole main_v214).slice (win12_2.rect t)).set ↔ _
  rw [View.set_slice_whole, Rect.mem_set_unit]
  exact Iff.rfl

/-- Every index is covered: row r lies in the block of point r / 4096. -/
theorem cover12_2 (i : S131072x64.Idx) : ∃ t : Fin cfg12.N, (cfg12.win 2).flush t = true ∧ i ∈ ((cfg12.win 2).blk t).view.set := by
  have hN : cfg12.N = 32 := N_12
  have hi0 : (i 0).val < 131072 := (i 0).isLt
  have hi1 : (i 1).val < 64 := (i 1).isLt
  let t : Fin cfg12.N := ⟨(i 0).val / 4096, lt_of_lt_of_eq (by omega : (i 0).val / 4096 < 32) hN.symm⟩
  obtain ⟨e0, e1, e2, e3, e4, e5⟩ := idx_facts12 t
  have ht : t.val = (i 0).val / 4096 := rfl
  refine ⟨t, flush12_2 t, ?_⟩
  rw [mem_blk12_2]
  intro a
  match a with
  | ⟨0, _⟩ => show win12_2.index t (0 : Fin 2) * 4096 ≤ (i 0).val ∧ (i 0).val < win12_2.index t (0 : Fin 2) * 4096 + 4096; omega
  | ⟨1, _⟩ => show win12_2.index t (1 : Fin 2) * 64 ≤ (i 1).val ∧ (i 1).val < win12_2.index t (1 : Fin 2) * 64 + 64; omega

/-- The output array after the run: the entrywise sum of the two input arrays as the region finds them. -/
theorem final12_2 (c : Dev nD) : (dat12 (F := Ideal) V c).arrAt 2 cfg12.N
    = (addf (V c (Pipeline.arrRef spec12 0) : FVec Ideal S131072x64 .f32) (V c (Pipeline.arrRef spec12 1)) : FVec Ideal S131072x64 .f32) :=
  (dat12 V c).arrAt_eq_of_cover 2 _ (fun t _ => flushed12_2_eq V c t) (cover12_2)

end Cert.KernelIdeal.HV

end
-- ==== Proof.KReg13.lean ====
/-
  The residual add of the 32768 rows: after the run the region's output array is the entrywise sum of its two input
  arrays. Grid point t adds rows 4096·t … 4096·t + 4095 of the two inputs and writes the same rows of the output; the
  8 row blocks cover every row, so the array is the whole sum.
-/
import proofs.«144873_j21182778704707_1_alg».proof.Proof.Gen.KernelIdeal.Frame
import proofs.«144873_j21182778704707_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.HV

open Cert.KernelIdeal Cert.KernelIdeal.Gen

variable (V : (c : Dev nD) → (b : Ref sig .tc) → Buf (Elt Ideal) ((c : Thread nD τ).loc b))

/-- The zero offsets of a whole-block access, however they are spelt. -/
theorem hz13 : (![0, 0] : Fin 2 → Nat) = fun _ => 0 := funext fun a => by fin_cases a <;> rfl

/-- The body's arithmetic: the sum of the two loaded blocks (the two shape casts are the identity). -/
theorem pay13_eq (x0 x1 : Vec Ideal S4096x64 .f32) : k13_pay1 x0 x1 = addf x0 x1 := by
  unfold k13_pay1
  simp only [shapeCast_self]

/-- The block index maps over the grid: all three windows sit at row block t, column block 0. -/
theorem idx_facts13 : ∀ t : Fin cfg13.N, win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0 :=
  (by decide +kernel : ∀ t : Fin grid13.N, _)

/-- What point t writes back is block t of the entrywise sum of the two input arrays. -/
theorem flushed13_2_eq (c : Dev nD) (t : Fin cfg13.N) :
    (dat13 V c).flushed 2 t = ((cfg13.win 2).blk t).view.read (Elt Ideal)
      ((addf (V c (Pipeline.arrRef spec13 0) : FVec Ideal S32768x64 .f32) (V c (Pipeline.arrRef spec13 1)) : FVec Ideal S32768x64 .f32)) := by
  show (cfg13.win 2).cut (grid13.coords t) ((dat13 V c).after 2 t) = _
  rw [after13_2]
  unfold out13_2
  rw [View.canon_unit_zero hz13]
  simp only [View.ld_unit_zero (S := S4096x64) hz13]
  rw [pay13_eq]
  obtain ⟨e0, e1, e2, e3, e4, e5⟩ := idx_facts13 t
  funext j
  show FloatOps.addf (F := Ideal) (φ := .f32) (V c main_v7 (((cfg13.win 0).blk t).view.emb j)) (V c main_v213 (((cfg13.win 1).blk t).view.emb j))
    = FloatOps.addf (F := Ideal) (φ := .f32) (V c main_v7 (((cfg13.win 2).blk t).view.emb j)) (V c main_v213 (((cfg13.win 2).blk t).view.emb j))
  have h0 : ((cfg13.win 0).blk t).view.emb j = ((cfg13.win 2).blk t).view.emb j := by
    funext a; apply Fin.ext
    match a with
    | ⟨0, _⟩ => show win13_0.index t (0 : Fin 2) * 4096 + 1 * (j 0).val = win13_2.index t (0 : Fin 2) * 4096 + 1 * (j 0).val; omega
    | ⟨1, _⟩ => show win13_0.index t (1 : Fin 2) * 64 + 1 * (j 1).val = win13_2.index t (1 : Fin 2) * 64 + 1 * (j 1).val; omega
  have h1 : ((cfg13.win 1).blk t).view.emb j = ((cfg13.win 2).blk t).view.emb j := by
    funext a; apply Fin.ext
    match a with
    | ⟨0, _⟩ => show win13_1.index t (0 : Fin 2) * 4096 + 1 * (j 0).val = win13_2.index t (0 : Fin 2) * 4096 + 1 * (j 0).val; omega
    | ⟨1, _⟩ => show win13_1.index t (1 : Fin 2) * 64 + 1 * (j 1).val = win13_2.index t (1 : Fin 2) * 64 + 1 * (j 1).val; omega
  rw [h0, h1]

/-- An index of the output array is in point t's block iff each coordinate is in the block's range on its axis. -/
theorem mem_blk13_2 (t : Fin cfg13.N) (i : S32768x64.Idx) :
    i ∈ ((cfg13.win 2).blk t).view.set ↔ ∀ a : Fin 2, win13_2.index t a * S4096x64.size a ≤ (i a).val ∧ (i a).val < win13_2.index t a * S4096x64.size a + S4096x64.size a := by
  show i ∈ ((View.whole main_v215).slice (win13_2.rect t)).set ↔ _
  rw [View.set_slice_whole, Rect.mem_set_unit]
  exact Iff.rfl

/-- Every index is covered: row r lies in the block of point r / 4096. -/
theorem cover13_2 (i : S32768x64.Idx) : ∃ t : Fin cfg13.N, (cfg13.win 2).flush t = true ∧ i ∈ ((cfg13.win 2).blk t).view.set := by
  have hN : cfg13.N = 8 := N_13
  have hi0 : (i 0).val < 32768 := (i 0).isLt
  have hi1 : (i 1).val < 64 := (i 1).isLt
  let t : Fin cfg13.N := ⟨(i 0).val / 4096, lt_of_lt_of_eq (by omega : (i 0).val / 4096 < 8) hN.symm⟩
  obtain ⟨e0, e1, e2, e3, e4, e5⟩ := idx_facts13 t
  have ht : t.val = (i 0).val / 4096 := rfl
  refine ⟨t, flush13_2 t, ?_⟩
  rw [mem_blk13_2]
  intro a
  match a with
  | ⟨0, _⟩ => show win13_2.index t (0 : Fin 2) * 4096 ≤ (i 0).val ∧ (i 0).val < win13_2.index t (0 : Fin 2) * 4096 + 4096; omega
  | ⟨1, _⟩ => show win13_2.index t (1 : Fin 2) * 64 ≤ (i 1).val ∧ (i 1).val < win13_2.index t (1 : Fin 2) * 64 + 64; omega

/-- The output array after the run: the entrywise sum of the two input arrays as the region finds them. -/
theorem final13_2 (c : Dev nD) : (dat13 (F := Ideal) V c).arrAt 2 cfg13.N
    = (addf (V c (Pipeline.arrRef spec13 0) : FVec Ideal S32768x64 .f32) (V c (Pipeline.arrRef spec13 1)) : FVec Ideal S32768x64 .f32) :=
  (dat13 V c).arrAt_eq_of_cover 2 _ (fun t _ => flushed13_2_eq V c t) (cover13_2)

end Cert.KernelIdeal.HV

end
-- ==== Proof.KReg14.lean ====
/-
  Region 14: batch-norm, the leaky rectifier and the tap-0 affine map over the 131072 rows, run as 32 row blocks of
  4096. The two output arrays after the run, read as functions of the region's input arrays: block t of the activation
  is the activation's payload of block t of x and of the four parameter rows, which is rows 4096·t … 4096·t + 4095 of
  the whole-array activation; block t of the second output is the affine map of that block, which is the same rows of
  the affine map of the whole-array activation; the 32 blocks cover every row (row r lies in block r / 4096).
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows (x and the two outputs) are at block (t, 0) at
    point t, the four parameter rows, the weight and the bias row at block (0, 0). -/
theorem idx14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0
    ∧ win14_6.index t (0 : Fin 2) = 0 ∧ win14_6.index t (1 : Fin 2) = 0
    ∧ win14_7.index t (0 : Fin 2) = t.val ∧ win14_7.index t (1 : Fin 2) = 0
    ∧ win14_8.index t (0 : Fin 2) = t.val ∧ win14_8.index t (1 : Fin 2) = 0 :=
  (by decide +kernel : ∀ t : Fin grid14.N, _)

/-- The array row that row p of the block at point t sits at: 4096·t + p. -/
def row14 (t : Fin cfg14.N) (p : Fin 4096) : Fin 131072 :=
  ⟨t.val * 4096 + p.val, by
    have ht : t.val < 32 := Nat.lt_of_lt_of_eq t.isLt N_14
    have hp := p.isLt
    omega⟩

/-- Row p of x's block at point t is row 4096·t + p of x. -/
theorem blk14_0 (c : Dev nD) (t : Fin cfg14.N) (p : Fin 4096) (k : Fin 64) :
    iblk14 V c 0 t (ix2 p k) = (V c (Pipeline.arrRef spec14 0) : Mat 131072 64) (ix2 (row14 t p) k) := by
  obtain ⟨e00, e01, -, -, -, -, -, -, -, -, -, -, -, -, -, -, -, -⟩ := idx14 t
  show V c (Pipeline.arrRef spec14 0) (((cfg14.win 0).blk t).view.emb (ix2 p k)) = _
  refine congrArg _ (funext fun a => Fin.ext ?_)
  match a with
  | ⟨0, _⟩ => show win14_0.index t (0 : Fin 2) * 4096 + 1 * p.val = t.val * 4096 + p.val; omega
  | ⟨1, _⟩ => show win14_0.index t (1 : Fin 2) * 64 + 1 * k.val = k.val; omega

/-- The scale row's block at any point is the whole row. -/
theorem blk14_1 (c : Dev nD) (t : Fin cfg14.N) (k : Fin 64) :
    iblk14 V c 1 t (ix2 (0 : Fin 1) k) = (V c (Pipeline.arrRef spec14 1) : Mat 1 64) (ix2 (0 : Fin 1) k) := by
  obtain ⟨-, -, e10, e11, -, -, -, -, -, -, -, -, -, -, -, -, -, -⟩ := idx14 t
  show V c (Pipeline.arrRef spec14 1) (((cfg14.win 1).blk t).view.emb (ix2 (0 : Fin 1) k)) = _
  refine congrArg _ (funext fun a => Fin.ext ?_)
  match a with
  | ⟨0, _⟩ => show win14_1.index t (0 : Fin 2) * 1 + 1 * 0 = 0; omega
  | ⟨1, _⟩ => show win14_1.index t (1 : Fin 2) * 64 + 1 * k.val = k.val; omega

/-- The shift row's block at any point is the whole row. -/
theorem blk14_2 (c : Dev nD) (t : Fin cfg14.N) (k : Fin 64) :
    iblk14 V c 2 t (ix2 (0 : Fin 1) k) = (V c (Pipeline.arrRef spec14 2) : Mat 1 64) (ix2 (0 : Fin 1) k) := by
  obtain ⟨-, -, -, -, e20, e21, -, -, -, -, -, -, -, -, -, -, -, -⟩ := idx14 t
  show V c (Pipeline.arrRef spec14 2) (((cfg14.win 2).blk t).view.emb (ix2 (0 : Fin 1) k)) = _
  refine congrArg _ (funext fun a => Fin.ext ?_)
  match a with
  | ⟨0, _⟩ => show win14_2.index t (0 : Fin 2) * 1 + 1 * 0 = 0; omega
  | ⟨1, _⟩ => show win14_2.index t (1 : Fin 2) * 64 + 1 * k.val = k.val; omega

/-- The mean row's block at any point is the whole row. -/
theorem blk14_3 (c : Dev nD) (t : Fin cfg14.N) (k : Fin 64) :
    iblk14 V c 3 t (ix2 (0 : Fin 1) k) = (V c (Pipeline.arrRef spec14 3) : Mat 1 64) (ix2 (0 : Fin 1) k) := by
  obtain ⟨-, -, -, -, -, -, e30, e31, -, -, -, -, -, -, -, -, -, -⟩ := idx14 t
  show V c (Pipeline.arrRef spec14 3) (((cfg14.win 3).blk t).view.emb (ix2 (0 : Fin 1) k)) = _
  refine congrArg _ (funext fun a => Fin.ext ?_)
  match a with
  | ⟨0, _⟩ => show win14_3.index t (0 : Fin 2) * 1 + 1 * 0 = 0; omega
  | ⟨1, _⟩ => show win14_3.index t (1 : Fin 2) * 64 + 1 * k.val = k.val; omega

/-- The variance row's block at any point is the whole row. -/
theorem blk14_4 (c : Dev nD) (t : Fin cfg14.N) (k : Fin 64) :
    iblk14 V c 4 t (ix2 (0 : Fin 1) k) = (V c (Pipeline.arrRef spec14 4) : Mat 1 64) (ix2 (0 : Fin 1) k) := by
  obtain ⟨-, -, -, -, -, -, -, -, e40, e41, -, -, -, -, -, -, -, -⟩ := idx14 t
  show V c (Pipeline.arrRef spec14 4) (((cfg14.win 4).blk t).view.emb (ix2 (0 : Fin 1) k)) = _
  refine congrArg _ (funext fun a => Fin.ext ?_)
  match a with
  | ⟨0, _⟩ => show win14_4.index t (0 : Fin 2) * 1 + 1 * 0 = 0; omega
  | ⟨1, _⟩ => show win14_4.index t (1 : Fin 2) * 64 + 1 * k.val = k.val; omega

/-- The weight's block at any point is the whole weight. -/
theorem blk14_5 (c : Dev nD) (t : Fin cfg14.N) (k q : Fin 64) :
    iblk14 V c 5 t (ix2 k q) = (V c (Pipeline.arrRef spec14 5) : Mat 64 64) (ix2 k q) := by
  obtain ⟨-, -, -, -, -, -, -, -, -, -, e50, e51, -, -, -, -, -, -⟩ := idx14 t
  show V c (Pipeline.arrRef spec14 5) (((cfg14.win 5).blk t).view.emb (ix2 k q)) = _
  refine congrArg _ (funext fun a => Fin.ext ?_)
  match a with
  | ⟨0, _⟩ => show win14_5.index t (0 : Fin 2) * 64 + 1 * k.val = k.val; omega
  | ⟨1, _⟩ => show win14_5.index t (1 : Fin 2) * 64 + 1 * q.val = q.val; omega

/-- The bias row's block at any point is the whole row. -/
theorem blk14_6 (c : Dev nD) (t : Fin cfg14.N) (k : Fin 64) :
    iblk14 V c 6 t (ix2 (0 : Fin 1) k) = (V c (Pipeline.arrRef spec14 6) : Mat 1 64) (ix2 (0 : Fin 1) k) := by
  obtain ⟨-, -, -, -, -, -, -, -, -, -, -, -, e60, e61, -, -, -, -⟩ := idx14 t
  show V c (Pipeline.arrRef spec14 6) (((cfg14.win 6).blk t).view.emb (ix2 (0 : Fin 1) k)) = _
  refine congrArg _ (funext fun a => Fin.ext ?_)
  match a with
  | ⟨0, _⟩ => show win14_6.index t (0 : Fin 2) * 1 + 1 * 0 = 0; omega
  | ⟨1, _⟩ => show win14_6.index t (1 : Fin 2) * 64 + 1 * k.val = k.val; omega

/-- Entry (p, q) of output 7's block at point t sits in the array at row 4096·t + p, column q. -/
theorem emb14_7 (t : Fin cfg14.N) (p : Fin 4096) (q : Fin 64) :
    ((cfg14.win 7).blk t).view.emb (ix2 p q) = ix2 (row14 t p) q := by
  obtain ⟨-, -, -, -, -, -, -, -, -, -, -, -, -, -, e70, e71, -, -⟩ := idx14 t
  funext a; apply Fin.ext
  match a with
  | ⟨0, _⟩ => show win14_7.index t (0 : Fin 2) * 4096 + 1 * p.val = t.val * 4096 + p.val; omega
  | ⟨1, _⟩ => show win14_7.index t (1 : Fin 2) * 64 + 1 * q.val = q.val; omega

/-- Entry (p, q) of output 8's block at point t sits in the array at row 4096·t + p, column q. -/
theorem emb14_8 (t : Fin cfg14.N) (p : Fin 4096) (q : Fin 64) :
    ((cfg14.win 8).blk t).view.emb (ix2 p q) = ix2 (row14 t p) q := by
  obtain ⟨-, -, -, -, -, -, -, -, -, -, -, -, -, -, -, -, e80, e81⟩ := idx14 t
  funext a; apply Fin.ext
  match a with
  | ⟨0, _⟩ => show win14_8.index t (0 : Fin 2) * 4096 + 1 * p.val = t.val * 4096 + p.val; omega
  | ⟨1, _⟩ => show win14_8.index t (1 : Fin 2) * 64 + 1 * q.val = q.val; omega

set_option maxHeartbeats 1000000 in
/-- What point t writes back to the activation's array is block t of the whole-array activation. -/
theorem flushed14_7 (c : Dev nD) (t : Fin cfg14.N) :
    (dat14 (F := Ideal) V c).flushed 7 t = ((cfg14.win 7).blk t).view.read (Elt Ideal)
      (bnAct (V c (Pipeline.arrRef spec14 0) : Mat 131072 64) (V c (Pipeline.arrRef spec14 1) : Mat 1 64) (V c (Pipeline.arrRef spec14 2) : Mat 1 64) (V c (Pipeline.arrRef spec14 3) : Mat 1 64) (V c (Pipeline.arrRef spec14 4) : Mat 1 64) : Mat 131072 64) := by
  show (cfg14.win 7).cut (grid14.coords t) ((dat14 (F := Ideal) V c).after 7 t) = _
  rw [after14_7]
  unfold out14_7
  rw [View.canon_unit_zero off0]
  simp only [View.ld_unit_zero (S := S4096x64) off0, View.ld_unit_zero (S := S1x64) off0]
  funext j
  obtain ⟨p, q, rfl⟩ : ∃ (p : Fin 4096) (q : Fin 64), j = ix2 p q := ⟨j 0, j 1, eq_ix2 j⟩
  show k14_pay1 (iblk14 V c 0 t) (iblk14 V c 4 t) (iblk14 V c 3 t) (iblk14 V c 1 t) (iblk14 V c 2 t) (ix2 p q)
    = (bnAct (V c (Pipeline.arrRef spec14 0) : Mat 131072 64) (V c (Pipeline.arrRef spec14 1) : Mat 1 64) (V c (Pipeline.arrRef spec14 2) : Mat 1 64) (V c (Pipeline.arrRef spec14 3) : Mat 1 64) (V c (Pipeline.arrRef spec14 4) : Mat 1 64) : Mat 131072 64)
        (((cfg14.win 7).blk t).view.emb (ix2 p q))
  rw [emb14_7, k14_pay1_eq]
  exact bnPay_rows _ _ _ _ _ _ _ _ _ _ p q (ix2 (row14 t p) q) (blk14_0 V c t p q) (blk14_1 V c t q) (blk14_2 V c t q) (blk14_3 V c t q) (blk14_4 V c t q)

set_option maxHeartbeats 1000000 in
/-- What point t writes back to the second output's array is block t of the affine map of the whole-array activation. -/
theorem flushed14_8 (c : Dev nD) (t : Fin cfg14.N) :
    (dat14 (F := Ideal) V c).flushed 8 t = ((cfg14.win 8).blk t).view.read (Elt Ideal)
      (lin (bnAct (V c (Pipeline.arrRef spec14 0) : Mat 131072 64) (V c (Pipeline.arrRef spec14 1) : Mat 1 64) (V c (Pipeline.arrRef spec14 2) : Mat 1 64) (V c (Pipeline.arrRef spec14 3) : Mat 1 64) (V c (Pipeline.arrRef spec14 4) : Mat 1 64) : Mat 131072 64) (V c (Pipeline.arrRef spec14 5) : Mat 64 64) (V c (Pipeline.arrRef spec14 6) : Mat 1 64) : Mat 131072 64) := by
  show (cfg14.win 8).cut (grid14.coords t) ((dat14 (F := Ideal) V c).after 8 t) = _
  rw [after14_8]
  unfold out14_8
  rw [View.canon_unit_zero off0]
  simp only [View.ld_unit_zero (S := S4096x64) off0, View.ld_unit_zero (S := S1x64) off0, View.ld_unit_zero (S := S64x64) off0]
  funext j
  obtain ⟨p, q, rfl⟩ : ∃ (p : Fin 4096) (q : Fin 64), j = ix2 p q := ⟨j 0, j 1, eq_ix2 j⟩
  show k14_pay2 (iblk14 V c 0 t) (iblk14 V c 4 t) (iblk14 V c 3 t) (iblk14 V c 1 t) (iblk14 V c 2 t) (iblk14 V c 5 t) (iblk14 V c 6 t) (ix2 p q)
    = (lin (bnAct (V c (Pipeline.arrRef spec14 0) : Mat 131072 64) (V c (Pipeline.arrRef spec14 1) : Mat 1 64) (V c (Pipeline.arrRef spec14 2) : Mat 1 64) (V c (Pipeline.arrRef spec14 3) : Mat 1 64) (V c (Pipeline.arrRef spec14 4) : Mat 1 64) : Mat 131072 64) (V c (Pipeline.arrRef spec14 5) : Mat 64 64) (V c (Pipeline.arrRef spec14 6) : Mat 1 64) : Mat 131072 64)
        (((cfg14.win 8).blk t).view.emb (ix2 p q))
  rw [emb14_8, k14_pay2_eq]
  exact bnTapPay_rows _ _ _ _ _ _ _ _ _ _ _ _ _ _ p q (ix2 (row14 t p) q) (fun k => blk14_0 V c t p k) (fun k => blk14_1 V c t k) (fun k => blk14_2 V c t k)
    (fun k => blk14_3 V c t k) (fun k => blk14_4 V c t k) (fun k => blk14_5 V c t k q) (blk14_6 V c t q)

/-- An index of output array 7 is in point t's block iff each coordinate is in the block's range on its axis. -/
theorem mem_blk14_7 (t : Fin cfg14.N) (i : S131072x64.Idx) :
    i ∈ ((cfg14.win 7).blk t).view.set ↔ ∀ a : Fin 2, win14_7.index t a * S4096x64.size a ≤ (i a).val ∧ (i a).val < win14_7.index t a * S4096x64.size a + S4096x64.size a := by
  show i ∈ ((View.whole main_v237_0).slice (win14_7.rect t)).set ↔ _
  rw [View.set_slice_whole, Rect.mem_set_unit]
  exact Iff.rfl

/-- Every row of output array 7 lies in some point's block: row r in the block of point r / 4096. -/
theorem rowsCover14_7 (i : S131072x64.Idx) : ∃ t : Fin cfg14.N, (cfg14.win 7).flush t = true ∧ i ∈ ((cfg14.win 7).blk t).view.set := by
  have hN : cfg14.N = 32 := N_14
  have hi0 : (i 0).val < 131072 := (i 0).isLt
  have hi1 : (i 1).val < 64 := (i 1).isLt
  refine ⟨⟨(i 0).val / 4096, by rw [hN]; omega⟩, flush14_7 _, ?_⟩
  rw [mem_blk14_7]
  obtain ⟨-, -, -, -, -, -, -, -, -, -, -, -, -, -, e70, e71, -, -⟩ := idx14 ⟨(i 0).val / 4096, by rw [hN]; omega⟩
  intro a
  match a with
  | ⟨0, _⟩ =>
    show win14_7.index _ (0 : Fin 2) * 4096 ≤ (i 0).val ∧ (i 0).val < win14_7.index _ (0 : Fin 2) * 4096 + 4096
    rw [e70]; show (i 0).val / 4096 * 4096 ≤ (i 0).val ∧ (i 0).val < (i 0).val / 4096 * 4096 + 4096; omega
  | ⟨1, _⟩ =>
    show win14_7.index _ (1 : Fin 2) * 64 ≤ (i 1).val ∧ (i 1).val < win14_7.index _ (1 : Fin 2) * 64 + 64
    rw [e71]; omega

/-- An index of output array 8 is in point t's block iff each coordinate is in the block's range on its axis. -/
theorem mem_blk14_8 (t : Fin cfg14.N) (i : S131072x64.Idx) :
    i ∈ ((cfg14.win 8).blk t).view.set ↔ ∀ a : Fin 2, win14_8.index t a * S4096x64.size a ≤ (i a).val ∧ (i a).val < win14_8.index t a * S4096x64.size a + S4096x64.size a := by
  show i ∈ ((View.whole main_v237_1).slice (win14_8.rect t)).set ↔ _
  rw [View.set_slice_whole, Rect.mem_set_unit]
  exact Iff.rfl

/-- Every row of output array 8 lies in some point's block: row r in the block of point r / 4096. -/
theorem rowsCover14_8 (i : S131072x64.Idx) : ∃ t : Fin cfg14.N, (cfg14.win 8).flush t = true ∧ i ∈ ((cfg14.win 8).blk t).view.set := by
  have hN : cfg14.N = 32 := N_14
  have hi0 : (i 0).val < 131072 := (i 0).isLt
  have hi1 : (i 1).val < 64 := (i 1).isLt
  refine ⟨⟨(i 0).val / 4096, by rw [hN]; omega⟩, flush14_8 _, ?_⟩
  rw [mem_blk14_8]
  obtain ⟨-, -, -, -, -, -, -, -, -, -, -, -, -, -, -, -, e80, e81⟩ := idx14 ⟨(i 0).val / 4096, by rw [hN]; omega⟩
  intro a
  match a with
  | ⟨0, _⟩ =>
    show win14_8.index _ (0 : Fin 2) * 4096 ≤ (i 0).val ∧ (i 0).val < win14_8.index _ (0 : Fin 2) * 4096 + 4096
    rw [e80]; show (i 0).val / 4096 * 4096 ≤ (i 0).val ∧ (i 0).val < (i 0).val / 4096 * 4096 + 4096; omega
  | ⟨1, _⟩ =>
    show win14_8.index _ (1 : Fin 2) * 64 ≤ (i 1).val ∧ (i 1).val < win14_8.index _ (1 : Fin 2) * 64 + 64
    rw [e81]; omega

/-- The activation's array after the run is the whole-array activation of the region's input arrays. -/
theorem final14_7 (c : Dev nD) : (Cert.KernelIdeal.Gen.dat14 (F := Ideal) V c).arrAt 7 cfg14.N
    = (bnAct (V c (Pipeline.arrRef spec14 0) : Mat 131072 64) (V c (Pipeline.arrRef spec14 1) : Mat 1 64) (V c (Pipeline.arrRef spec14 2) : Mat 1 64) (V c (Pipeline.arrRef spec14 3) : Mat 1 64) (V c (Pipeline.arrRef spec14 4) : Mat 1 64) : Mat 131072 64) :=
  (dat14 (F := Ideal) V c).arrAt_eq_of_cover 7 _ (fun t _ => flushed14_7 V c t) rowsCover14_7

/-- The second output's array after the run is the affine map of the whole-array activation. -/
theorem final14_8 (c : Dev nD) : (Cert.KernelIdeal.Gen.dat14 (F := Ideal) V c).arrAt 8 cfg14.N
    = (lin (bnAct (V c (Pipeline.arrRef spec14 0) : Mat 131072 64) (V c (Pipeline.arrRef spec14 1) : Mat 1 64) (V c (Pipeline.arrRef spec14 2) : Mat 1 64) (V c (Pipeline.arrRef spec14 3) : Mat 1 64) (V c (Pipeline.arrRef spec14 4) : Mat 1 64) : Mat 131072 64) (V c (Pipeline.arrRef spec14 5) : Mat 64 64) (V c (Pipeline.arrRef spec14 6) : Mat 1 64) : Mat 131072 64) :=
  (dat14 (F := Ideal) V c).arrAt_eq_of_cover 8 _ (fun t _ => flushed14_8 V c t) rowsCover14_8

end Cert.KernelIdeal.HV

end
-- ==== Proof.KReg15.lean ====
/-
  Region 15: batch-norm, the leaky rectifier and the tap-0 affine map over the 32768 rows, run as 8 row blocks of
  4096. The two output arrays after the run, read as functions of the region's input arrays: block t of the activation
  is the activation's payload of block t of x and of the four parameter rows, which is rows 4096·t … 4096·t + 4095 of
  the whole-array activation; block t of the second output is the affine map of that block, which is the same rows of
  the affine map of the whole-array activation; the 8 blocks cover every row (row r lies in block r / 4096).
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows (x and the two outputs) are at block (t, 0) at
    point t, the four parameter rows, the weight and the bias row at block (0, 0). -/
theorem idx15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = 0 ∧ win15_3.index t (1 : Fin 2) = 0
    ∧ win15_4.index t (0 : Fin 2) = 0 ∧ win15_4.index t (1 : Fin 2) = 0
    ∧ win15_5.index t (0 : Fin 2) = 0 ∧ win15_5.index t (1 : Fin 2) = 0
    ∧ win15_6.index t (0 : Fin 2) = 0 ∧ win15_6.index t (1 : Fin 2) = 0
    ∧ win15_7.index t (0 : Fin 2) = t.val ∧ win15_7.index t (1 : Fin 2) = 0
    ∧ win15_8.index t (0 : Fin 2) = t.val ∧ win15_8.index t (1 : Fin 2) = 0 :=
  (by decide +kernel : ∀ t : Fin grid15.N, _)

/-- The array row that row p of the block at point t sits at: 4096·t + p. -/
def row15 (t : Fin cfg15.N) (p : Fin 4096) : Fin 32768 :=
  ⟨t.val * 4096 + p.val, by
    have ht : t.val < 8 := Nat.lt_of_lt_of_eq t.isLt N_15
    have hp := p.isLt
    omega⟩

/-- Row p of x's block at point t is row 4096·t + p of x. -/
theorem blk15_0 (c : Dev nD) (t : Fin cfg15.N) (p : Fin 4096) (k : Fin 64) :
    iblk15 V c 0 t (ix2 p k) = (V c (Pipeline.arrRef spec15 0) : Mat 32768 64) (ix2 (row15 t p) k) := by
  obtain ⟨e00, e01, -, -, -, -, -, -, -, -, -, -, -, -, -, -, -, -⟩ := idx15 t
  show V c (Pipeline.arrRef spec15 0) (((cfg15.win 0).blk t).view.emb (ix2 p k)) = _
  refine congrArg _ (funext fun a => Fin.ext ?_)
  match a with
  | ⟨0, _⟩ => show win15_0.index t (0 : Fin 2) * 4096 + 1 * p.val = t.val * 4096 + p.val; omega
  | ⟨1, _⟩ => show win15_0.index t (1 : Fin 2) * 64 + 1 * k.val = k.val; omega

/-- The scale row's block at any point is the whole row. -/
theorem blk15_1 (c : Dev nD) (t : Fin cfg15.N) (k : Fin 64) :
    iblk15 V c 1 t (ix2 (0 : Fin 1) k) = (V c (Pipeline.arrRef spec15 1) : Mat 1 64) (ix2 (0 : Fin 1) k) := by
  obtain ⟨-, -, e10, e11, -, -, -, -, -, -, -, -, -, -, -, -, -, -⟩ := idx15 t
  show V c (Pipeline.arrRef spec15 1) (((cfg15.win 1).blk t).view.emb (ix2 (0 : Fin 1) k)) = _
  refine congrArg _ (funext fun a => Fin.ext ?_)
  match a with
  | ⟨0, _⟩ => show win15_1.index t (0 : Fin 2) * 1 + 1 * 0 = 0; omega
  | ⟨1, _⟩ => show win15_1.index t (1 : Fin 2) * 64 + 1 * k.val = k.val; omega

/-- The shift row's block at any point is the whole row. -/
theorem blk15_2 (c : Dev nD) (t : Fin cfg15.N) (k : Fin 64) :
    iblk15 V c 2 t (ix2 (0 : Fin 1) k) = (V c (Pipeline.arrRef spec15 2) : Mat 1 64) (ix2 (0 : Fin 1) k) := by
  obtain ⟨-, -, -, -, e20, e21, -, -, -, -, -, -, -, -, -, -, -, -⟩ := idx15 t
  show V c (Pipeline.arrRef spec15 2) (((cfg15.win 2).blk t).view.emb (ix2 (0 : Fin 1) k)) = _
  refine congrArg _ (funext fun a => Fin.ext ?_)
  match a with
  | ⟨0, _⟩ => show win15_2.index t (0 : Fin 2) * 1 + 1 * 0 = 0; omega
  | ⟨1, _⟩ => show win15_2.index t (1 : Fin 2) * 64 + 1 * k.val = k.val; omega

/-- The mean row's block at any point is the whole row. -/
theorem blk15_3 (c : Dev nD) (t : Fin cfg15.N) (k : Fin 64) :
    iblk15 V c 3 t (ix2 (0 : Fin 1) k) = (V c (Pipeline.arrRef spec15 3) : Mat 1 64) (ix2 (0 : Fin 1) k) := by
  obtain ⟨-, -, -, -, -, -, e30, e31, -, -, -, -, -, -, -, -, -, -⟩ := idx15 t
  show V c (Pipeline.arrRef spec15 3) (((cfg15.win 3).blk t).view.emb (ix2 (0 : Fin 1) k)) = _
  refine congrArg _ (funext fun a => Fin.ext ?_)
  match a with
  | ⟨0, _⟩ => show win15_3.index t (0 : Fin 2) * 1 + 1 * 0 = 0; omega
  | ⟨1, _⟩ => show win15_3.index t (1 : Fin 2) * 64 + 1 * k.val = k.val; omega

/-- The variance row's block at any point is the whole row. -/
theorem blk15_4 (c : Dev nD) (t : Fin cfg15.N) (k : Fin 64) :
    iblk15 V c 4 t (ix2 (0 : Fin 1) k) = (V c (Pipeline.arrRef spec15 4) : Mat 1 64) (ix2 (0 : Fin 1) k) := by
  obtain ⟨-, -, -, -, -, -, -, -, e40, e41, -, -, -, -, -, -, -, -⟩ := idx15 t
  show V c (Pipeline.arrRef spec15 4) (((cfg15.win 4).blk t).view.emb (ix2 (0 : Fin 1) k)) = _
  refine congrArg _ (funext fun a => Fin.ext ?_)
  match a with
  | ⟨0, _⟩ => show win15_4.index t (0 : Fin 2) * 1 + 1 * 0 = 0; omega
  | ⟨1, _⟩ => show win15_4.index t (1 : Fin 2) * 64 + 1 * k.val = k.val; omega

/-- The weight's block at any point is the whole weight. -/
theorem blk15_5 (c : Dev nD) (t : Fin cfg15.N) (k q : Fin 64) :
    iblk15 V c 5 t (ix2 k q) = (V c (Pipeline.arrRef spec15 5) : Mat 64 64) (ix2 k q) := by
  obtain ⟨-, -, -, -, -, -, -, -, -, -, e50, e51, -, -, -, -, -, -⟩ := idx15 t
  show V c (Pipeline.arrRef spec15 5) (((cfg15.win 5).blk t).view.emb (ix2 k q)) = _
  refine congrArg _ (funext fun a => Fin.ext ?_)
  match a with
  | ⟨0, _⟩ => show win15_5.index t (0 : Fin 2) * 64 + 1 * k.val = k.val; omega
  | ⟨1, _⟩ => show win15_5.index t (1 : Fin 2) * 64 + 1 * q.val = q.val; omega

/-- The bias row's block at any point is the whole row. -/
theorem blk15_6 (c : Dev nD) (t : Fin cfg15.N) (k : Fin 64) :
    iblk15 V c 6 t (ix2 (0 : Fin 1) k) = (V c (Pipeline.arrRef spec15 6) : Mat 1 64) (ix2 (0 : Fin 1) k) := by
  obtain ⟨-, -, -, -, -, -, -, -, -, -, -, -, e60, e61, -, -, -, -⟩ := idx15 t
  show V c (Pipeline.arrRef spec15 6) (((cfg15.win 6).blk t).view.emb (ix2 (0 : Fin 1) k)) = _
  refine congrArg _ (funext fun a => Fin.ext ?_)
  match a with
  | ⟨0, _⟩ => show win15_6.index t (0 : Fin 2) * 1 + 1 * 0 = 0; omega
  | ⟨1, _⟩ => show win15_6.index t (1 : Fin 2) * 64 + 1 * k.val = k.val; omega

/-- Entry (p, q) of output 7's block at point t sits in the array at row 4096·t + p, column q. -/
theorem emb15_7 (t : Fin cfg15.N) (p : Fin 4096) (q : Fin 64) :
    ((cfg15.win 7).blk t).view.emb (ix2 p q) = ix2 (row15 t p) q := by
  obtain ⟨-, -, -, -, -, -, -, -, -, -, -, -, -, -, e70, e71, -, -⟩ := idx15 t
  funext a; apply Fin.ext
  match a with
  | ⟨0, _⟩ => show win15_7.index t (0 : Fin 2) * 4096 + 1 * p.val = t.val * 4096 + p.val; omega
  | ⟨1, _⟩ => show win15_7.index t (1 : Fin 2) * 64 + 1 * q.val = q.val; omega

/-- Entry (p, q) of output 8's block at point t sits in the array at row 4096·t + p, column q. -/
theorem emb15_8 (t : Fin cfg15.N) (p : Fin 4096) (q : Fin 64) :
    ((cfg15.win 8).blk t).view.emb (ix2 p q) = ix2 (row15 t p) q := by
  obtain ⟨-, -, -, -, -, -, -, -, -, -, -, -, -, -, -, -, e80, e81⟩ := idx15 t
  funext a; apply Fin.ext
  match a with
  | ⟨0, _⟩ => show win15_8.index t (0 : Fin 2) * 4096 + 1 * p.val = t.val * 4096 + p.val; omega
  | ⟨1, _⟩ => show win15_8.index t (1 : Fin 2) * 64 + 1 * q.val = q.val; omega

set_option maxHeartbeats 1000000 in
/-- What point t writes back to the activation's array is block t of the whole-array activation. -/
theorem flushed15_7 (c : Dev nD) (t : Fin cfg15.N) :
    (dat15 (F := Ideal) V c).flushed 7 t = ((cfg15.win 7).blk t).view.read (Elt Ideal)
      (bnAct (V c (Pipeline.arrRef spec15 0) : Mat 32768 64) (V c (Pipeline.arrRef spec15 1) : Mat 1 64) (V c (Pipeline.arrRef spec15 2) : Mat 1 64) (V c (Pipeline.arrRef spec15 3) : Mat 1 64) (V c (Pipeline.arrRef spec15 4) : Mat 1 64) : Mat 32768 64) := by
  show (cfg15.win 7).cut (grid15.coords t) ((dat15 (F := Ideal) V c).after 7 t) = _
  rw [after15_7]
  unfold out15_7
  rw [View.canon_unit_zero off0]
  simp only [View.ld_unit_zero (S := S4096x64) off0, View.ld_unit_zero (S := S1x64) off0]
  funext j
  obtain ⟨p, q, rfl⟩ : ∃ (p : Fin 4096) (q : Fin 64), j = ix2 p q := ⟨j 0, j 1, eq_ix2 j⟩
  show k15_pay1 (iblk15 V c 0 t) (iblk15 V c 4 t) (iblk15 V c 3 t) (iblk15 V c 1 t) (iblk15 V c 2 t) (ix2 p q)
    = (bnAct (V c (Pipeline.arrRef spec15 0) : Mat 32768 64) (V c (Pipeline.arrRef spec15 1) : Mat 1 64) (V c (Pipeline.arrRef spec15 2) : Mat 1 64) (V c (Pipeline.arrRef spec15 3) : Mat 1 64) (V c (Pipeline.arrRef spec15 4) : Mat 1 64) : Mat 32768 64)
        (((cfg15.win 7).blk t).view.emb (ix2 p q))
  rw [emb15_7, k15_pay1_eq]
  exact bnPay_rows _ _ _ _ _ _ _ _ _ _ p q (ix2 (row15 t p) q) (blk15_0 V c t p q) (blk15_1 V c t q) (blk15_2 V c t q) (blk15_3 V c t q) (blk15_4 V c t q)

set_option maxHeartbeats 1000000 in
/-- What point t writes back to the second output's array is block t of the affine map of the whole-array activation. -/
theorem flushed15_8 (c : Dev nD) (t : Fin cfg15.N) :
    (dat15 (F := Ideal) V c).flushed 8 t = ((cfg15.win 8).blk t).view.read (Elt Ideal)
      (lin (bnAct (V c (Pipeline.arrRef spec15 0) : Mat 32768 64) (V c (Pipeline.arrRef spec15 1) : Mat 1 64) (V c (Pipeline.arrRef spec15 2) : Mat 1 64) (V c (Pipeline.arrRef spec15 3) : Mat 1 64) (V c (Pipeline.arrRef spec15 4) : Mat 1 64) : Mat 32768 64) (V c (Pipeline.arrRef spec15 5) : Mat 64 64) (V c (Pipeline.arrRef spec15 6) : Mat 1 64) : Mat 32768 64) := by
  show (cfg15.win 8).cut (grid15.coords t) ((dat15 (F := Ideal) V c).after 8 t) = _
  rw [after15_8]
  unfold out15_8
  rw [View.canon_unit_zero off0]
  simp only [View.ld_unit_zero (S := S4096x64) off0, View.ld_unit_zero (S := S1x64) off0, View.ld_unit_zero (S := S64x64) off0]
  funext j
  obtain ⟨p, q, rfl⟩ : ∃ (p : Fin 4096) (q : Fin 64), j = ix2 p q := ⟨j 0, j 1, eq_ix2 j⟩
  show k15_pay2 (iblk15 V c 0 t) (iblk15 V c 4 t) (iblk15 V c 3 t) (iblk15 V c 1 t) (iblk15 V c 2 t) (iblk15 V c 5 t) (iblk15 V c 6 t) (ix2 p q)
    = (lin (bnAct (V c (Pipeline.arrRef spec15 0) : Mat 32768 64) (V c (Pipeline.arrRef spec15 1) : Mat 1 64) (V c (Pipeline.arrRef spec15 2) : Mat 1 64) (V c (Pipeline.arrRef spec15 3) : Mat 1 64) (V c (Pipeline.arrRef spec15 4) : Mat 1 64) : Mat 32768 64) (V c (Pipeline.arrRef spec15 5) : Mat 64 64) (V c (Pipeline.arrRef spec15 6) : Mat 1 64) : Mat 32768 64)
        (((cfg15.win 8).blk t).view.emb (ix2 p q))
  rw [emb15_8, k15_pay2_eq]
  exact bnTapPay_rows _ _ _ _ _ _ _ _ _ _ _ _ _ _ p q (ix2 (row15 t p) q) (fun k => blk15_0 V c t p k) (fun k => blk15_1 V c t k) (fun k => blk15_2 V c t k)
    (fun k => blk15_3 V c t k) (fun k => blk15_4 V c t k) (fun k => blk15_5 V c t k q) (blk15_6 V c t q)

/-- An index of output array 7 is in point t's block iff each coordinate is in the block's range on its axis. -/
theorem mem_blk15_7 (t : Fin cfg15.N) (i : S32768x64.Idx) :
    i ∈ ((cfg15.win 7).blk t).view.set ↔ ∀ a : Fin 2, win15_7.index t a * S4096x64.size a ≤ (i a).val ∧ (i a).val < win15_7.index t a * S4096x64.size a + S4096x64.size a := by
  show i ∈ ((View.whole main_v249_0).slice (win15_7.rect t)).set ↔ _
  rw [View.set_slice_whole, Rect.mem_set_unit]
  exact Iff.rfl

/-- Every row of output array 7 lies in some point's block: row r in the block of point r / 4096. -/
theorem rowsCover15_7 (i : S32768x64.Idx) : ∃ t : Fin cfg15.N, (cfg15.win 7).flush t = true ∧ i ∈ ((cfg15.win 7).blk t).view.set := by
  have hN : cfg15.N = 8 := N_15
  have hi0 : (i 0).val < 32768 := (i 0).isLt
  have hi1 : (i 1).val < 64 := (i 1).isLt
  refine ⟨⟨(i 0).val / 4096, by rw [hN]; omega⟩, flush15_7 _, ?_⟩
  rw [mem_blk15_7]
  obtain ⟨-, -, -, -, -, -, -, -, -, -, -, -, -, -, e70, e71, -, -⟩ := idx15 ⟨(i 0).val / 4096, by rw [hN]; omega⟩
  intro a
  match a with
  | ⟨0, _⟩ =>
    show win15_7.index _ (0 : Fin 2) * 4096 ≤ (i 0).val ∧ (i 0).val < win15_7.index _ (0 : Fin 2) * 4096 + 4096
    rw [e70]; show (i 0).val / 4096 * 4096 ≤ (i 0).val ∧ (i 0).val < (i 0).val / 4096 * 4096 + 4096; omega
  | ⟨1, _⟩ =>
    show win15_7.index _ (1 : Fin 2) * 64 ≤ (i 1).val ∧ (i 1).val < win15_7.index _ (1 : Fin 2) * 64 + 64
    rw [e71]; omega

/-- An index of output array 8 is in point t's block iff each coordinate is in the block's range on its axis. -/
theorem mem_blk15_8 (t : Fin cfg15.N) (i : S32768x64.Idx) :
    i ∈ ((cfg15.win 8).blk t).view.set ↔ ∀ a : Fin 2, win15_8.index t a * S4096x64.size a ≤ (i a).val ∧ (i a).val < win15_8.index t a * S4096x64.size a + S4096x64.size a := by
  show i ∈ ((View.whole main_v249_1).slice (win15_8.rect t)).set ↔ _
  rw [View.set_slice_whole, Rect.mem_set_unit]
  exact Iff.rfl

/-- Every row of output array 8 lies in some point's block: row r in the block of point r / 4096. -/
theorem rowsCover15_8 (i : S32768x64.Idx) : ∃ t : Fin cfg15.N, (cfg15.win 8).flush t = true ∧ i ∈ ((cfg15.win 8).blk t).view.set := by
  have hN : cfg15.N = 8 := N_15
  have hi0 : (i 0).val < 32768 := (i 0).isLt
  have hi1 : (i 1).val < 64 := (i 1).isLt
  refine ⟨⟨(i 0).val / 4096, by rw [hN]; omega⟩, flush15_8 _, ?_⟩
  rw [mem_blk15_8]
  obtain ⟨-, -, -, -, -, -, -, -, -, -, -, -, -, -, -, -, e80, e81⟩ := idx15 ⟨(i 0).val / 4096, by rw [hN]; omega⟩
  intro a
  match a with
  | ⟨0, _⟩ =>
    show win15_8.index _ (0 : Fin 2) * 4096 ≤ (i 0).val ∧ (i 0).val < win15_8.index _ (0 : Fin 2) * 4096 + 4096
    rw [e80]; show (i 0).val / 4096 * 4096 ≤ (i 0).val ∧ (i 0).val < (i 0).val / 4096 * 4096 + 4096; omega
  | ⟨1, _⟩ =>
    show win15_8.index _ (1 : Fin 2) * 64 ≤ (i 1).val ∧ (i 1).val < win15_8.index _ (1 : Fin 2) * 64 + 64
    rw [e81]; omega

/-- The activation's array after the run is the whole-array activation of the region's input arrays. -/
theorem final15_7 (c : Dev nD) : (Cert.KernelIdeal.Gen.dat15 (F := Ideal) V c).arrAt 7 cfg15.N
    = (bnAct (V c (Pipeline.arrRef spec15 0) : Mat 32768 64) (V c (Pipeline.arrRef spec15 1) : Mat 1 64) (V c (Pipeline.arrRef spec15 2) : Mat 1 64) (V c (Pipeline.arrRef spec15 3) : Mat 1 64) (V c (Pipeline.arrRef spec15 4) : Mat 1 64) : Mat 32768 64) :=
  (dat15 (F := Ideal) V c).arrAt_eq_of_cover 7 _ (fun t _ => flushed15_7 V c t) rowsCover15_7

/-- The second output's array after the run is the affine map of the whole-array activation. -/
theorem final15_8 (c : Dev nD) : (Cert.KernelIdeal.Gen.dat15 (F := Ideal) V c).arrAt 8 cfg15.N
    = (lin (bnAct (V c (Pipeline.arrRef spec15 0) : Mat 32768 64) (V c (Pipeline.arrRef spec15 1) : Mat 1 64) (V c (Pipeline.arrRef spec15 2) : Mat 1 64) (V c (Pipeline.arrRef spec15 3) : Mat 1 64) (V c (Pipeline.arrRef spec15 4) : Mat 1 64) : Mat 32768 64) (V c (Pipeline.arrRef spec15 5) : Mat 64 64) (V c (Pipeline.arrRef spec15 6) : Mat 1 64) : Mat 32768 64) :=
  (dat15 (F := Ideal) V c).arrAt_eq_of_cover 8 _ (fun t _ => flushed15_8 V c t) rowsCover15_8

end Cert.KernelIdeal.HV

end
-- ==== Proof.KReg16.lean ====
/-
  Region 16: the accumulating tap over the 131072 rows, run as 32 row blocks of 4096. The output array after the run,
  read as one function of the region's input arrays: block t of the output is the tap's payload of block t of c and of z
  and of the whole w and b, which is rows 4096·t … 4096·t + 4095 of the whole-array tap; the 32 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx16 : ∀ t : Fin cfg16.N, win16_0.index t (0 : Fin 2) = t.val ∧ win16_0.index t (1 : Fin 2) = 0
    ∧ win16_1.index t (0 : Fin 2) = 0 ∧ win16_1.index t (1 : Fin 2) = 0
    ∧ win16_2.index t (0 : Fin 2) = 0 ∧ win16_2.index t (1 : Fin 2) = 0
    ∧ win16_3.index t (0 : Fin 2) = t.val ∧ win16_3.index t (1 : Fin 2) = 0
    ∧ win16_4.index t (0 : Fin 2) = t.val ∧ win16_4.index t (1 : Fin 2) = 0 :=
  (by decide +kernel : ∀ t : Fin grid16.N, _)

set_option maxHeartbeats 1000000 in
/-- What point t writes back is block t of the whole-array tap of the arrays as the region finds them. -/
theorem flushed16_4 (c : Dev nD) (t : Fin cfg16.N) :
    (dat16 (F := Ideal) V c).flushed 4 t = ((cfg16.win 4).blk t).view.read (Elt Ideal)
      (tapAcc (V c (Pipeline.arrRef spec16 3) : Mat 131072 64) (V c (Pipeline.arrRef spec16 0) : Mat 131072 64) (V c (Pipeline.arrRef spec16 1) : Mat 64 64) (V c (Pipeline.arrRef spec16 2) : Mat 1 64) : Mat 131072 64) := by
  show (cfg16.win 4).cut (grid16.coords t) ((dat16 (F := Ideal) V c).after 4 t) = _
  rw [after16_4]
  unfold out16_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx16 t
  funext j
  obtain ⟨p, q, rfl⟩ : ∃ (p : Fin 4096) (q : Fin 64), j = ix2 p q := ⟨j 0, j 1, eq_ix2 j⟩
  show k16_pay1 (iblk16 V c 0 t) (iblk16 V c 1 t) (iblk16 V c 3 t) (iblk16 V c 2 t) (ix2 p q)
    = (tapAcc (V c (Pipeline.arrRef spec16 3) : Mat 131072 64) (V c (Pipeline.arrRef spec16 0) : Mat 131072 64) (V c (Pipeline.arrRef spec16 1) : Mat 64 64) (V c (Pipeline.arrRef spec16 2) : Mat 1 64) : Mat 131072 64)
        (((cfg16.win 4).blk t).view.emb (ix2 p q))
  rw [k16_pay]
  refine tapPay_rows _ _ _ _ _ _ _ _ p q _ (fun k => ?_) ?_ (fun k => ?_) ?_
  · show V c (Pipeline.arrRef spec16 0) (((cfg16.win 0).blk t).view.emb (ix2 p k)) = _
    refine congrArg _ (funext fun a => Fin.ext ?_)
    match a with
    | ⟨0, _⟩ => show win16_0.index t (0 : Fin 2) * 4096 + 1 * p.val = win16_4.index t (0 : Fin 2) * 4096 + 1 * p.val; omega
    | ⟨1, _⟩ => show win16_0.index t (1 : Fin 2) * 64 + 1 * k.val = k.val; omega
  · show V c (Pipeline.arrRef spec16 3) (((cfg16.win 3).blk t).view.emb (ix2 p q)) = _
    refine congrArg _ (funext fun a => Fin.ext ?_)
    match a with
    | ⟨0, _⟩ => show win16_3.index t (0 : Fin 2) * 4096 + 1 * p.val = win16_4.index t (0 : Fin 2) * 4096 + 1 * p.val; omega
    | ⟨1, _⟩ => show win16_3.index t (1 : Fin 2) * 64 + 1 * q.val = win16_4.index t (1 : Fin 2) * 64 + 1 * q.val; omega
  · show V c (Pipeline.arrRef spec16 1) (((cfg16.win 1).blk t).view.emb (ix2 k q)) = _
    refine congrArg _ (funext fun a => Fin.ext ?_)
    match a with
    | ⟨0, _⟩ => show win16_1.index t (0 : Fin 2) * 64 + 1 * k.val = k.val; omega
    | ⟨1, _⟩ => show win16_1.index t (1 : Fin 2) * 64 + 1 * q.val = win16_4.index t (1 : Fin 2) * 64 + 1 * q.val; omega
  · show V c (Pipeline.arrRef spec16 2) (((cfg16.win 2).blk t).view.emb (ix2 (0 : Fin 1) q)) = _
    refine congrArg _ (funext fun a => Fin.ext ?_)
    match a with
    | ⟨0, _⟩ => show win16_2.index t (0 : Fin 2) * 1 + 1 * 0 = 0; omega
    | ⟨1, _⟩ => show win16_2.index t (1 : Fin 2) * 64 + 1 * q.val = win16_4.index t (1 : Fin 2) * 64 + 1 * q.val; omega

/-- An index of the output array is in point t's block iff each coordinate is in the block's range on its axis. -/
theorem mem_blk16_4 (t : Fin cfg16.N) (i : S131072x64.Idx) :
    i ∈ ((cfg16.win 4).blk t).view.set ↔ ∀ a : Fin 2, win16_4.index t a * S4096x64.size a ≤ (i a).val ∧ (i a).val < win16_4.index t a * S4096x64.size a + S4096x64.size a := by
  show i ∈ ((View.whole main_v286).slice (win16_4.rect t)).set ↔ _
  rw [View.set_slice_whole, Rect.mem_set_unit]
  exact Iff.rfl

/-- Every row lies in some point's block: row r in the block of point r / 4096. -/
theorem rowsCover16_4 (i : S131072x64.Idx) : ∃ t : Fin cfg16.N, (cfg16.win 4).flush t = true ∧ i ∈ ((cfg16.win 4).blk t).view.set := by
  have hN : cfg16.N = 32 := N_16
  have hi0 : (i 0).val < 131072 := (i 0).isLt
  have hi1 : (i 1).val < 64 := (i 1).isLt
  refine ⟨⟨(i 0).val / 4096, by rw [hN]; omega⟩, flush16_4 _, ?_⟩
  rw [mem_blk16_4]
  obtain ⟨-, -, -, -, -, -, -, -, e40, e41⟩ := idx16 ⟨(i 0).val / 4096, by rw [hN]; omega⟩
  intro a
  match a with
  | ⟨0, _⟩ =>
    show win16_4.index _ (0 : Fin 2) * 4096 ≤ (i 0).val ∧ (i 0).val < win16_4.index _ (0 : Fin 2) * 4096 + 4096
    rw [e40]; show (i 0).val / 4096 * 4096 ≤ (i 0).val ∧ (i 0).val < (i 0).val / 4096 * 4096 + 4096; omega
  | ⟨1, _⟩ =>
    show win16_4.index _ (1 : Fin 2) * 64 ≤ (i 1).val ∧ (i 1).val < win16_4.index _ (1 : Fin 2) * 64 + 64
    rw [e41]; omega

/-- The output array after the run is the whole-array tap of the region's input arrays. -/
theorem final16_4 (c : Dev nD) : (Cert.KernelIdeal.Gen.dat16 (F := Ideal) V c).arrAt 4 cfg16.N
    = (tapAcc (V c (Pipeline.arrRef spec16 3) : Mat 131072 64) (V c (Pipeline.arrRef spec16 0) : Mat 131072 64) (V c (Pipeline.arrRef spec16 1) : Mat 64 64) (V c (Pipeline.arrRef spec16 2) : Mat 1 64) : Mat 131072 64) :=
  (dat16 (F := Ideal) V c).arrAt_eq_of_cover 4 _ (fun t _ => flushed16_4 V c t) rowsCover16_4

end Cert.KernelIdeal.HV

end
-- ==== Proof.KReg17.lean ====
/-
  Region 17: the accumulating tap over the 32768 rows, run as 8 row blocks of 4096. The output array after the run,
  read as one function of the region's input arrays: block t of the output is the tap's payload of block t of c and of z
  and of the whole w and b, which is rows 4096·t … 4096·t + 4095 of the whole-array tap; the 8 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx17 : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = t.val ∧ win17_3.index t (1 : Fin 2) = 0
    ∧ win17_4.index t (0 : Fin 2) = t.val ∧ win17_4.index t (1 : Fin 2) = 0 :=
  (by decide +kernel : ∀ t : Fin grid17.N, _)

set_option maxHeartbeats 1000000 in
/-- What point t writes back is block t of the whole-array tap of the arrays as the region finds them. -/
theorem flushed17_4 (c : Dev nD) (t : Fin cfg17.N) :
    (dat17 (F := Ideal) V c).flushed 4 t = ((cfg17.win 4).blk t).view.read (Elt Ideal)
      (tapAcc (V c (Pipeline.arrRef spec17 3) : Mat 32768 64) (V c (Pipeline.arrRef spec17 0) : Mat 32768 64) (V c (Pipeline.arrRef spec17 1) : Mat 64 64) (V c (Pipeline.arrRef spec17 2) : Mat 1 64) : Mat 32768 64) := by
  show (cfg17.win 4).cut (grid17.coords t) ((dat17 (F := Ideal) V c).after 4 t) = _
  rw [after17_4]
  unfold out17_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx17 t
  funext j
  obtain ⟨p, q, rfl⟩ : ∃ (p : Fin 4096) (q : Fin 64), j = ix2 p q := ⟨j 0, j 1, eq_ix2 j⟩
  show k17_pay1 (iblk17 V c 0 t) (iblk17 V c 1 t) (iblk17 V c 3 t) (iblk17 V c 2 t) (ix2 p q)
    = (tapAcc (V c (Pipeline.arrRef spec17 3) : Mat 32768 64) (V c (Pipeline.arrRef spec17 0) : Mat 32768 64) (V c (Pipeline.arrRef spec17 1) : Mat 64 64) (V c (Pipeline.arrRef spec17 2) : Mat 1 64) : Mat 32768 64)
        (((cfg17.win 4).blk t).view.emb (ix2 p q))
  rw [k17_pay]
  refine tapPay_rows _ _ _ _ _ _ _ _ p q _ (fun k => ?_) ?_ (fun k => ?_) ?_
  · show V c (Pipeline.arrRef spec17 0) (((cfg17.win 0).blk t).view.emb (ix2 p k)) = _
    refine congrArg _ (funext fun a => Fin.ext ?_)
    match a with
    | ⟨0, _⟩ => show win17_0.index t (0 : Fin 2) * 4096 + 1 * p.val = win17_4.index t (0 : Fin 2) * 4096 + 1 * p.val; omega
    | ⟨1, _⟩ => show win17_0.index t (1 : Fin 2) * 64 + 1 * k.val = k.val; omega
  · show V c (Pipeline.arrRef spec17 3) (((cfg17.win 3).blk t).view.emb (ix2 p q)) = _
    refine congrArg _ (funext fun a => Fin.ext ?_)
    match a with
    | ⟨0, _⟩ => show win17_3.index t (0 : Fin 2) * 4096 + 1 * p.val = win17_4.index t (0 : Fin 2) * 4096 + 1 * p.val; omega
    | ⟨1, _⟩ => show win17_3.index t (1 : Fin 2) * 64 + 1 * q.val = win17_4.index t (1 : Fin 2) * 64 + 1 * q.val; omega
  · show V c (Pipeline.arrRef spec17 1) (((cfg17.win 1).blk t).view.emb (ix2 k q)) = _
    refine congrArg _ (funext fun a => Fin.ext ?_)
    match a with
    | ⟨0, _⟩ => show win17_1.index t (0 : Fin 2) * 64 + 1 * k.val = k.val; omega
    | ⟨1, _⟩ => show win17_1.index t (1 : Fin 2) * 64 + 1 * q.val = win17_4.index t (1 : Fin 2) * 64 + 1 * q.val; omega
  · show V c (Pipeline.arrRef spec17 2) (((cfg17.win 2).blk t).view.emb (ix2 (0 : Fin 1) q)) = _
    refine congrArg _ (funext fun a => Fin.ext ?_)
    match a with
    | ⟨0, _⟩ => show win17_2.index t (0 : Fin 2) * 1 + 1 * 0 = 0; omega
    | ⟨1, _⟩ => show win17_2.index t (1 : Fin 2) * 64 + 1 * q.val = win17_4.index t (1 : Fin 2) * 64 + 1 * q.val; omega

/-- An index of the output array is in point t's block iff each coordinate is in the block's range on its axis. -/
theorem mem_blk17_4 (t : Fin cfg17.N) (i : S32768x64.Idx) :
    i ∈ ((cfg17.win 4).blk t).view.set ↔ ∀ a : Fin 2, win17_4.index t a * S4096x64.size a ≤ (i a).val ∧ (i a).val < win17_4.index t a * S4096x64.size a + S4096x64.size a := by
  show i ∈ ((View.whole main_v292).slice (win17_4.rect t)).set ↔ _
  rw [View.set_slice_whole, Rect.mem_set_unit]
  exact Iff.rfl

/-- Every row lies in some point's block: row r in the block of point r / 4096. -/
theorem rowsCover17_4 (i : S32768x64.Idx) : ∃ t : Fin cfg17.N, (cfg17.win 4).flush t = true ∧ i ∈ ((cfg17.win 4).blk t).view.set := by
  have hN : cfg17.N = 8 := N_17
  have hi0 : (i 0).val < 32768 := (i 0).isLt
  have hi1 : (i 1).val < 64 := (i 1).isLt
  refine ⟨⟨(i 0).val / 4096, by rw [hN]; omega⟩, flush17_4 _, ?_⟩
  rw [mem_blk17_4]
  obtain ⟨-, -, -, -, -, -, -, -, e40, e41⟩ := idx17 ⟨(i 0).val / 4096, by rw [hN]; omega⟩
  intro a
  match a with
  | ⟨0, _⟩ =>
    show win17_4.index _ (0 : Fin 2) * 4096 ≤ (i 0).val ∧ (i 0).val < win17_4.index _ (0 : Fin 2) * 4096 + 4096
    rw [e40]; show (i 0).val / 4096 * 4096 ≤ (i 0).val ∧ (i 0).val < (i 0).val / 4096 * 4096 + 4096; omega
  | ⟨1, _⟩ =>
    show win17_4.index _ (1 : Fin 2) * 64 ≤ (i 1).val ∧ (i 1).val < win17_4.index _ (1 : Fin 2) * 64 + 64
    rw [e41]; omega

/-- The output array after the run is the whole-array tap of the region's input arrays. -/
theorem final17_4 (c : Dev nD) : (Cert.KernelIdeal.Gen.dat17 (F := Ideal) V c).arrAt 4 cfg17.N
    = (tapAcc (V c (Pipeline.arrRef spec17 3) : Mat 32768 64) (V c (Pipeline.arrRef spec17 0) : Mat 32768 64) (V c (Pipeline.arrRef spec17 1) : Mat 64 64) (V c (Pipeline.arrRef spec17 2) : Mat 1 64) : Mat 32768 64) :=
  (dat17 (F := Ideal) V c).arrAt_eq_of_cover 4 _ (fun t _ => flushed17_4 V c t) rowsCover17_4

end Cert.KernelIdeal.HV

end
-- ==== Proof.KReg18.lean ====
/-
  Region 18: the accumulating tap over the 131072 rows, run as 32 row blocks of 4096. The output array after the run,
  read as one function of the region's input arrays: block t of the output is the tap's payload of block t of c and of z
  and of the whole w and b, which is rows 4096·t … 4096·t + 4095 of the whole-array tap; the 32 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx18 : ∀ t : Fin cfg18.N, win18_0.index t (0 : Fin 2) = t.val ∧ win18_0.index t (1 : Fin 2) = 0
    ∧ win18_1.index t (0 : Fin 2) = 0 ∧ win18_1.index t (1 : Fin 2) = 0
    ∧ win18_2.index t (0 : Fin 2) = 0 ∧ win18_2.index t (1 : Fin 2) = 0
    ∧ win18_3.index t (0 : Fin 2) = t.val ∧ win18_3.index t (1 : Fin 2) = 0
    ∧ win18_4.index t (0 : Fin 2) = t.val ∧ win18_4.index t (1 : Fin 2) = 0 :=
  (by decide +kernel : ∀ t : Fin grid18.N, _)

set_option maxHeartbeats 1000000 in
/-- What point t writes back is block t of the whole-array tap of the arrays as the region finds them. -/
theorem flushed18_4 (c : Dev nD) (t : Fin cfg18.N) :
    (dat18 (F := Ideal) V c).flushed 4 t = ((cfg18.win 4).blk t).view.read (Elt Ideal)
      (tapAcc (V c (Pipeline.arrRef spec18 3) : Mat 131072 64) (V c (Pipeline.arrRef spec18 0) : Mat 131072 64) (V c (Pipeline.arrRef spec18 1) : Mat 64 64) (V c (Pipeline.arrRef spec18 2) : Mat 1 64) : Mat 131072 64) := by
  show (cfg18.win 4).cut (grid18.coords t) ((dat18 (F := Ideal) V c).after 4 t) = _
  rw [after18_4]
  unfold out18_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx18 t
  funext j
  obtain ⟨p, q, rfl⟩ : ∃ (p : Fin 4096) (q : Fin 64), j = ix2 p q := ⟨j 0, j 1, eq_ix2 j⟩
  show k18_pay1 (iblk18 V c 0 t) (iblk18 V c 1 t) (iblk18 V c 3 t) (iblk18 V c 2 t) (ix2 p q)
    = (tapAcc (V c (Pipeline.arrRef spec18 3) : Mat 131072 64) (V c (Pipeline.arrRef spec18 0) : Mat 131072 64) (V c (Pipeline.arrRef spec18 1) : Mat 64 64) (V c (Pipeline.arrRef spec18 2) : Mat 1 64) : Mat 131072 64)
        (((cfg18.win 4).blk t).view.emb (ix2 p q))
  rw [k18_pay]
  refine tapPay_rows _ _ _ _ _ _ _ _ p q _ (fun k => ?_) ?_ (fun k => ?_) ?_
  · show V c (Pipeline.arrRef spec18 0) (((cfg18.win 0).blk t).view.emb (ix2 p k)) = _
    refine congrArg _ (funext fun a => Fin.ext ?_)
    match a with
    | ⟨0, _⟩ => show win18_0.index t (0 : Fin 2) * 4096 + 1 * p.val = win18_4.index t (0 : Fin 2) * 4096 + 1 * p.val; omega
    | ⟨1, _⟩ => show win18_0.index t (1 : Fin 2) * 64 + 1 * k.val = k.val; omega
  · show V c (Pipeline.arrRef spec18 3) (((cfg18.win 3).blk t).view.emb (ix2 p q)) = _
    refine congrArg _ (funext fun a => Fin.ext ?_)
    match a with
    | ⟨0, _⟩ => show win18_3.index t (0 : Fin 2) * 4096 + 1 * p.val = win18_4.index t (0 : Fin 2) * 4096 + 1 * p.val; omega
    | ⟨1, _⟩ => show win18_3.index t (1 : Fin 2) * 64 + 1 * q.val = win18_4.index t (1 : Fin 2) * 64 + 1 * q.val; omega
  · show V c (Pipeline.arrRef spec18 1) (((cfg18.win 1).blk t).view.emb (ix2 k q)) = _
    refine congrArg _ (funext fun a => Fin.ext ?_)
    match a with
    | ⟨0, _⟩ => show win18_1.index t (0 : Fin 2) * 64 + 1 * k.val = k.val; omega
    | ⟨1, _⟩ => show win18_1.index t (1 : Fin 2) * 64 + 1 * q.val = win18_4.index t (1 : Fin 2) * 64 + 1 * q.val; omega
  · show V c (Pipeline.arrRef spec18 2) (((cfg18.win 2).blk t).view.emb (ix2 (0 : Fin 1) q)) = _
    refine congrArg _ (funext fun a => Fin.ext ?_)
    match a with
    | ⟨0, _⟩ => show win18_2.index t (0 : Fin 2) * 1 + 1 * 0 = 0; omega
    | ⟨1, _⟩ => show win18_2.index t (1 : Fin 2) * 64 + 1 * q.val = win18_4.index t (1 : Fin 2) * 64 + 1 * q.val; omega

/-- An index of the output array is in point t's block iff each coordinate is in the block's range on its axis. -/
theorem mem_blk18_4 (t : Fin cfg18.N) (i : S131072x64.Idx) :
    i ∈ ((cfg18.win 4).blk t).view.set ↔ ∀ a : Fin 2, win18_4.index t a * S4096x64.size a ≤ (i a).val ∧ (i a).val < win18_4.index t a * S4096x64.size a + S4096x64.size a := by
  show i ∈ ((View.whole main_v329).slice (win18_4.rect t)).set ↔ _
  rw [View.set_slice_whole, Rect.mem_set_unit]
  exact Iff.rfl

/-- Every row lies in some point's block: row r in the block of point r / 4096. -/
theorem rowsCover18_4 (i : S131072x64.Idx) : ∃ t : Fin cfg18.N, (cfg18.win 4).flush t = true ∧ i ∈ ((cfg18.win 4).blk t).view.set := by
  have hN : cfg18.N = 32 := N_18
  have hi0 : (i 0).val < 131072 := (i 0).isLt
  have hi1 : (i 1).val < 64 := (i 1).isLt
  refine ⟨⟨(i 0).val / 4096, by rw [hN]; omega⟩, flush18_4 _, ?_⟩
  rw [mem_blk18_4]
  obtain ⟨-, -, -, -, -, -, -, -, e40, e41⟩ := idx18 ⟨(i 0).val / 4096, by rw [hN]; omega⟩
  intro a
  match a with
  | ⟨0, _⟩ =>
    show win18_4.index _ (0 : Fin 2) * 4096 ≤ (i 0).val ∧ (i 0).val < win18_4.index _ (0 : Fin 2) * 4096 + 4096
    rw [e40]; show (i 0).val / 4096 * 4096 ≤ (i 0).val ∧ (i 0).val < (i 0).val / 4096 * 4096 + 4096; omega
  | ⟨1, _⟩ =>
    show win18_4.index _ (1 : Fin 2) * 64 ≤ (i 1).val ∧ (i 1).val < win18_4.index _ (1 : Fin 2) * 64 + 64
    rw [e41]; omega

/-- The output array after the run is the whole-array tap of the region's input arrays. -/
theorem final18_4 (c : Dev nD) : (Cert.KernelIdeal.Gen.dat18 (F := Ideal) V c).arrAt 4 cfg18.N
    = (tapAcc (V c (Pipeline.arrRef spec18 3) : Mat 131072 64) (V c (Pipeline.arrRef spec18 0) : Mat 131072 64) (V c (Pipeline.arrRef spec18 1) : Mat 64 64) (V c (Pipeline.arrRef spec18 2) : Mat 1 64) : Mat 131072 64) :=
  (dat18 (F := Ideal) V c).arrAt_eq_of_cover 4 _ (fun t _ => flushed18_4 V c t) rowsCover18_4

end Cert.KernelIdeal.HV

end
-- ==== Proof.KReg19.lean ====
/-
  Region 19: the accumulating tap over the 32768 rows, run as 8 row blocks of 4096. The output array after the run,
  read as one function of the region's input arrays: block t of the output is the tap's payload of block t of c and of z
  and of the whole w and b, which is rows 4096·t … 4096·t + 4095 of the whole-array tap; the 8 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx19 : ∀ t : Fin cfg19.N, win19_0.index t (0 : Fin 2) = t.val ∧ win19_0.index t (1 : Fin 2) = 0
    ∧ win19_1.index t (0 : Fin 2) = 0 ∧ win19_1.index t (1 : Fin 2) = 0
    ∧ win19_2.index t (0 : Fin 2) = 0 ∧ win19_2.index t (1 : Fin 2) = 0
    ∧ win19_3.index t (0 : Fin 2) = t.val ∧ win19_3.index t (1 : Fin 2) = 0
    ∧ win19_4.index t (0 : Fin 2) = t.val ∧ win19_4.index t (1 : Fin 2) = 0 :=
  (by decide +kernel : ∀ t : Fin grid19.N, _)

set_option maxHeartbeats 1000000 in
/-- What point t writes back is block t of the whole-array tap of the arrays as the region finds them. -/
theorem flushed19_4 (c : Dev nD) (t : Fin cfg19.N) :
    (dat19 (F := Ideal) V c).flushed 4 t = ((cfg19.win 4).blk t).view.read (Elt Ideal)
      (tapAcc (V c (Pipeline.arrRef spec19 3) : Mat 32768 64) (V c (Pipeline.arrRef spec19 0) : Mat 32768 64) (V c (Pipeline.arrRef spec19 1) : Mat 64 64) (V c (Pipeline.arrRef spec19 2) : Mat 1 64) : Mat 32768 64) := by
  show (cfg19.win 4).cut (grid19.coords t) ((dat19 (F := Ideal) V c).after 4 t) = _
  rw [after19_4]
  unfold out19_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx19 t
  funext j
  obtain ⟨p, q, rfl⟩ : ∃ (p : Fin 4096) (q : Fin 64), j = ix2 p q := ⟨j 0, j 1, eq_ix2 j⟩
  show k19_pay1 (iblk19 V c 0 t) (iblk19 V c 1 t) (iblk19 V c 3 t) (iblk19 V c 2 t) (ix2 p q)
    = (tapAcc (V c (Pipeline.arrRef spec19 3) : Mat 32768 64) (V c (Pipeline.arrRef spec19 0) : Mat 32768 64) (V c (Pipeline.arrRef spec19 1) : Mat 64 64) (V c (Pipeline.arrRef spec19 2) : Mat 1 64) : Mat 32768 64)
        (((cfg19.win 4).blk t).view.emb (ix2 p q))
  rw [k19_pay]
  refine tapPay_rows _ _ _ _ _ _ _ _ p q _ (fun k => ?_) ?_ (fun k => ?_) ?_
  · show V c (Pipeline.arrRef spec19 0) (((cfg19.win 0).blk t).view.emb (ix2 p k)) = _
    refine congrArg _ (funext fun a => Fin.ext ?_)
    match a with
    | ⟨0, _⟩ => show win19_0.index t (0 : Fin 2) * 4096 + 1 * p.val = win19_4.index t (0 : Fin 2) * 4096 + 1 * p.val; omega
    | ⟨1, _⟩ => show win19_0.index t (1 : Fin 2) * 64 + 1 * k.val = k.val; omega
  · show V c (Pipeline.arrRef spec19 3) (((cfg19.win 3).blk t).view.emb (ix2 p q)) = _
    refine congrArg _ (funext fun a => Fin.ext ?_)
    match a with
    | ⟨0, _⟩ => show win19_3.index t (0 : Fin 2) * 4096 + 1 * p.val = win19_4.index t (0 : Fin 2) * 4096 + 1 * p.val; omega
    | ⟨1, _⟩ => show win19_3.index t (1 : Fin 2) * 64 + 1 * q.val = win19_4.index t (1 : Fin 2) * 64 + 1 * q.val; omega
  · show V c (Pipeline.arrRef spec19 1) (((cfg19.win 1).blk t).view.emb (ix2 k q)) = _
    refine congrArg _ (funext fun a => Fin.ext ?_)
    match a with
    | ⟨0, _⟩ => show win19_1.index t (0 : Fin 2) * 64 + 1 * k.val = k.val; omega
    | ⟨1, _⟩ => show win19_1.index t (1 : Fin 2) * 64 + 1 * q.val = win19_4.index t (1 : Fin 2) * 64 + 1 * q.val; omega
  · show V c (Pipeline.arrRef spec19 2) (((cfg19.win 2).blk t).view.emb (ix2 (0 : Fin 1) q)) = _
    refine congrArg _ (funext fun a => Fin.ext ?_)
    match a with
    | ⟨0, _⟩ => show win19_2.index t (0 : Fin 2) * 1 + 1 * 0 = 0; omega
    | ⟨1, _⟩ => show win19_2.index t (1 : Fin 2) * 64 + 1 * q.val = win19_4.index t (1 : Fin 2) * 64 + 1 * q.val; omega

/-- An index of the output array is in point t's block iff each coordinate is in the block's range on its axis. -/
theorem mem_blk19_4 (t : Fin cfg19.N) (i : S32768x64.Idx) :
    i ∈ ((cfg19.win 4).blk t).view.set ↔ ∀ a : Fin 2, win19_4.index t a * S4096x64.size a ≤ (i a).val ∧ (i a).val < win19_4.index t a * S4096x64.size a + S4096x64.size a := by
  show i ∈ ((View.whole main_v335).slice (win19_4.rect t)).set ↔ _
  rw [View.set_slice_whole, Rect.mem_set_unit]
  exact Iff.rfl

/-- Every row lies in some point's block: row r in the block of point r / 4096. -/
theorem rowsCover19_4 (i : S32768x64.Idx) : ∃ t : Fin cfg19.N, (cfg19.win 4).flush t = true ∧ i ∈ ((cfg19.win 4).blk t).view.set := by
  have hN : cfg19.N = 8 := N_19
  have hi0 : (i 0).val < 32768 := (i 0).isLt
  have hi1 : (i 1).val < 64 := (i 1).isLt
  refine ⟨⟨(i 0).val / 4096, by rw [hN]; omega⟩, flush19_4 _, ?_⟩
  rw [mem_blk19_4]
  obtain ⟨-, -, -, -, -, -, -, -, e40, e41⟩ := idx19 ⟨(i 0).val / 4096, by rw [hN]; omega⟩
  intro a
  match a with
  | ⟨0, _⟩ =>
    show win19_4.index _ (0 : Fin 2) * 4096 ≤ (i 0).val ∧ (i 0).val < win19_4.index _ (0 : Fin 2) * 4096 + 4096
    rw [e40]; show (i 0).val / 4096 * 4096 ≤ (i 0).val ∧ (i 0).val < (i 0).val / 4096 * 4096 + 4096; omega
  | ⟨1, _⟩ =>
    show win19_4.index _ (1 : Fin 2) * 64 ≤ (i 1).val ∧ (i 1).val < win19_4.index _ (1 : Fin 2) * 64 + 64
    rw [e41]; omega

/-- The output array after the run is the whole-array tap of the region's input arrays. -/
theorem final19_4 (c : Dev nD) : (Cert.KernelIdeal.Gen.dat19 (F := Ideal) V c).arrAt 4 cfg19.N
    = (tapAcc (V c (Pipeline.arrRef spec19 3) : Mat 32768 64) (V c (Pipeline.arrRef spec19 0) : Mat 32768 64) (V c (Pipeline.arrRef spec19 1) : Mat 64 64) (V c (Pipeline.arrRef spec19 2) : Mat 1 64) : Mat 32768 64) :=
  (dat19 (F := Ideal) V c).arrAt_eq_of_cover 4 _ (fun t _ => flushed19_4 V c t) rowsCover19_4

end Cert.KernelIdeal.HV

end
-- ==== Proof.KReg20.lean ====
/-
  Region 20: the accumulating tap over the 131072 rows, run as 32 row blocks of 4096. The output array after the run,
  read as one function of the region's input arrays: block t of the output is the tap's payload of block t of c and of z
  and of the whole w and b, which is rows 4096·t … 4096·t + 4095 of the whole-array tap; the 32 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx20 : ∀ t : Fin cfg20.N, win20_0.index t (0 : Fin 2) = t.val ∧ win20_0.index t (1 : Fin 2) = 0
    ∧ win20_1.index t (0 : Fin 2) = 0 ∧ win20_1.index t (1 : Fin 2) = 0
    ∧ win20_2.index t (0 : Fin 2) = 0 ∧ win20_2.index t (1 : Fin 2) = 0
    ∧ win20_3.index t (0 : Fin 2) = t.val ∧ win20_3.index t (1 : Fin 2) = 0
    ∧ win20_4.index t (0 : Fin 2) = t.val ∧ win20_4.index t (1 : Fin 2) = 0 :=
  (by decide +kernel : ∀ t : Fin grid20.N, _)

set_option maxHeartbeats 1000000 in
/-- What point t writes back is block t of the whole-array tap of the arrays as the region finds them. -/
theorem flushed20_4 (c : Dev nD) (t : Fin cfg20.N) :
    (dat20 (F := Ideal) V c).flushed 4 t = ((cfg20.win 4).blk t).view.read (Elt Ideal)
      (tapAcc (V c (Pipeline.arrRef spec20 3) : Mat 131072 64) (V c (Pipeline.arrRef spec20 0) : Mat 131072 64) (V c (Pipeline.arrRef spec20 1) : Mat 64 64) (V c (Pipeline.arrRef spec20 2) : Mat 1 64) : Mat 131072 64) := by
  show (cfg20.win 4).cut (grid20.coords t) ((dat20 (F := Ideal) V c).after 4 t) = _
  rw [after20_4]
  unfold out20_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx20 t
  funext j
  obtain ⟨p, q, rfl⟩ : ∃ (p : Fin 4096) (q : Fin 64), j = ix2 p q := ⟨j 0, j 1, eq_ix2 j⟩
  show k20_pay1 (iblk20 V c 0 t) (iblk20 V c 1 t) (iblk20 V c 3 t) (iblk20 V c 2 t) (ix2 p q)
    = (tapAcc (V c (Pipeline.arrRef spec20 3) : Mat 131072 64) (V c (Pipeline.arrRef spec20 0) : Mat 131072 64) (V c (Pipeline.arrRef spec20 1) : Mat 64 64) (V c (Pipeline.arrRef spec20 2) : Mat 1 64) : Mat 131072 64)
        (((cfg20.win 4).blk t).view.emb (ix2 p q))
  rw [k20_pay]
  refine tapPay_rows _ _ _ _ _ _ _ _ p q _ (fun k => ?_) ?_ (fun k => ?_) ?_
  · show V c (Pipeline.arrRef spec20 0) (((cfg20.win 0).blk t).view.emb (ix2 p k)) = _
    refine congrArg _ (funext fun a => Fin.ext ?_)
    match a with
    | ⟨0, _⟩ => show win20_0.index t (0 : Fin 2) * 4096 + 1 * p.val = win20_4.index t (0 : Fin 2) * 4096 + 1 * p.val; omega
    | ⟨1, _⟩ => show win20_0.index t (1 : Fin 2) * 64 + 1 * k.val = k.val; omega
  · show V c (Pipeline.arrRef spec20 3) (((cfg20.win 3).blk t).view.emb (ix2 p q)) = _
    refine congrArg _ (funext fun a => Fin.ext ?_)
    match a with
    | ⟨0, _⟩ => show win20_3.index t (0 : Fin 2) * 4096 + 1 * p.val = win20_4.index t (0 : Fin 2) * 4096 + 1 * p.val; omega
    | ⟨1, _⟩ => show win20_3.index t (1 : Fin 2) * 64 + 1 * q.val = win20_4.index t (1 : Fin 2) * 64 + 1 * q.val; omega
  · show V c (Pipeline.arrRef spec20 1) (((cfg20.win 1).blk t).view.emb (ix2 k q)) = _
    refine congrArg _ (funext fun a => Fin.ext ?_)
    match a with
    | ⟨0, _⟩ => show win20_1.index t (0 : Fin 2) * 64 + 1 * k.val = k.val; omega
    | ⟨1, _⟩ => show win20_1.index t (1 : Fin 2) * 64 + 1 * q.val = win20_4.index t (1 : Fin 2) * 64 + 1 * q.val; omega
  · show V c (Pipeline.arrRef spec20 2) (((cfg20.win 2).blk t).view.emb (ix2 (0 : Fin 1) q)) = _
    refine congrArg _ (funext fun a => Fin.ext ?_)
    match a with
    | ⟨0, _⟩ => show win20_2.index t (0 : Fin 2) * 1 + 1 * 0 = 0; omega
    | ⟨1, _⟩ => show win20_2.index t (1 : Fin 2) * 64 + 1 * q.val = win20_4.index t (1 : Fin 2) * 64 + 1 * q.val; omega

/-- An index of the output array is in point t's block iff each coordinate is in the block's range on its axis. -/
theorem mem_blk20_4 (t : Fin cfg20.N) (i : S131072x64.Idx) :
    i ∈ ((cfg20.win 4).blk t).view.set ↔ ∀ a : Fin 2, win20_4.index t a * S4096x64.size a ≤ (i a).val ∧ (i a).val < win20_4.index t a * S4096x64.size a + S4096x64.size a := by
  show i ∈ ((View.whole main_v372).slice (win20_4.rect t)).set ↔ _
  rw [View.set_slice_whole, Rect.mem_set_unit]
  exact Iff.rfl

/-- Every row lies in some point's block: row r in the block of point r / 4096. -/
theorem rowsCover20_4 (i : S131072x64.Idx) : ∃ t : Fin cfg20.N, (cfg20.win 4).flush t = true ∧ i ∈ ((cfg20.win 4).blk t).view.set := by
  have hN : cfg20.N = 32 := N_20
  have hi0 : (i 0).val < 131072 := (i 0).isLt
  have hi1 : (i 1).val < 64 := (i 1).isLt
  refine ⟨⟨(i 0).val / 4096, by rw [hN]; omega⟩, flush20_4 _, ?_⟩
  rw [mem_blk20_4]
  obtain ⟨-, -, -, -, -, -, -, -, e40, e41⟩ := idx20 ⟨(i 0).val / 4096, by rw [hN]; omega⟩
  intro a
  match a with
  | ⟨0, _⟩ =>
    show win20_4.index _ (0 : Fin 2) * 4096 ≤ (i 0).val ∧ (i 0).val < win20_4.index _ (0 : Fin 2) * 4096 + 4096
    rw [e40]; show (i 0).val / 4096 * 4096 ≤ (i 0).val ∧ (i 0).val < (i 0).val / 4096 * 4096 + 4096; omega
  | ⟨1, _⟩ =>
    show win20_4.index _ (1 : Fin 2) * 64 ≤ (i 1).val ∧ (i 1).val < win20_4.index _ (1 : Fin 2) * 64 + 64
    rw [e41]; omega

/-- The output array after the run is the whole-array tap of the region's input arrays. -/
theorem final20_4 (c : Dev nD) : (Cert.KernelIdeal.Gen.dat20 (F := Ideal) V c).arrAt 4 cfg20.N
    = (tapAcc (V c (Pipeline.arrRef spec20 3) : Mat 131072 64) (V c (Pipeline.arrRef spec20 0) : Mat 131072 64) (V c (Pipeline.arrRef spec20 1) : Mat 64 64) (V c (Pipeline.arrRef spec20 2) : Mat 1 64) : Mat 131072 64) :=
  (dat20 (F := Ideal) V c).arrAt_eq_of_cover 4 _ (fun t _ => flushed20_4 V c t) rowsCover20_4

end Cert.KernelIdeal.HV

end
-- ==== Proof.KReg21.lean ====
/-
  Region 21: the accumulating tap over the 32768 rows, run as 8 row blocks of 4096. The output array after the run,
  read as one function of the region's input arrays: block t of the output is the tap's payload of block t of c and of z
  and of the whole w and b, which is rows 4096·t … 4096·t + 4095 of the whole-array tap; the 8 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx21 : ∀ t : Fin cfg21.N, win21_0.index t (0 : Fin 2) = t.val ∧ win21_0.index t (1 : Fin 2) = 0
    ∧ win21_1.index t (0 : Fin 2) = 0 ∧ win21_1.index t (1 : Fin 2) = 0
    ∧ win21_2.index t (0 : Fin 2) = 0 ∧ win21_2.index t (1 : Fin 2) = 0
    ∧ win21_3.index t (0 : Fin 2) = t.val ∧ win21_3.index t (1 : Fin 2) = 0
    ∧ win21_4.index t (0 : Fin 2) = t.val ∧ win21_4.index t (1 : Fin 2) = 0 :=
  (by decide +kernel : ∀ t : Fin grid21.N, _)

set_option maxHeartbeats 1000000 in
/-- What point t writes back is block t of the whole-array tap of the arrays as the region finds them. -/
theorem flushed21_4 (c : Dev nD) (t : Fin cfg21.N) :
    (dat21 (F := Ideal) V c).flushed 4 t = ((cfg21.win 4).blk t).view.read (Elt Ideal)
      (tapAcc (V c (Pipeline.arrRef spec21 3) : Mat 32768 64) (V c (Pipeline.arrRef spec21 0) : Mat 32768 64) (V c (Pipeline.arrRef spec21 1) : Mat 64 64) (V c (Pipeline.arrRef spec21 2) : Mat 1 64) : Mat 32768 64) := by
  show (cfg21.win 4).cut (grid21.coords t) ((dat21 (F := Ideal) V c).after 4 t) = _
  rw [after21_4]
  unfold out21_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx21 t
  funext j
  obtain ⟨p, q, rfl⟩ : ∃ (p : Fin 4096) (q : Fin 64), j = ix2 p q := ⟨j 0, j 1, eq_ix2 j⟩
  show k21_pay1 (iblk21 V c 0 t) (iblk21 V c 1 t) (iblk21 V c 3 t) (iblk21 V c 2 t) (ix2 p q)
    = (tapAcc (V c (Pipeline.arrRef spec21 3) : Mat 32768 64) (V c (Pipeline.arrRef spec21 0) : Mat 32768 64) (V c (Pipeline.arrRef spec21 1) : Mat 64 64) (V c (Pipeline.arrRef spec21 2) : Mat 1 64) : Mat 32768 64)
        (((cfg21.win 4).blk t).view.emb (ix2 p q))
  rw [k21_pay]
  refine tapPay_rows _ _ _ _ _ _ _ _ p q _ (fun k => ?_) ?_ (fun k => ?_) ?_
  · show V c (Pipeline.arrRef spec21 0) (((cfg21.win 0).blk t).view.emb (ix2 p k)) = _
    refine congrArg _ (funext fun a => Fin.ext ?_)
    match a with
    | ⟨0, _⟩ => show win21_0.index t (0 : Fin 2) * 4096 + 1 * p.val = win21_4.index t (0 : Fin 2) * 4096 + 1 * p.val; omega
    | ⟨1, _⟩ => show win21_0.index t (1 : Fin 2) * 64 + 1 * k.val = k.val; omega
  · show V c (Pipeline.arrRef spec21 3) (((cfg21.win 3).blk t).view.emb (ix2 p q)) = _
    refine congrArg _ (funext fun a => Fin.ext ?_)
    match a with
    | ⟨0, _⟩ => show win21_3.index t (0 : Fin 2) * 4096 + 1 * p.val = win21_4.index t (0 : Fin 2) * 4096 + 1 * p.val; omega
    | ⟨1, _⟩ => show win21_3.index t (1 : Fin 2) * 64 + 1 * q.val = win21_4.index t (1 : Fin 2) * 64 + 1 * q.val; omega
  · show V c (Pipeline.arrRef spec21 1) (((cfg21.win 1).blk t).view.emb (ix2 k q)) = _
    refine congrArg _ (funext fun a => Fin.ext ?_)
    match a with
    | ⟨0, _⟩ => show win21_1.index t (0 : Fin 2) * 64 + 1 * k.val = k.val; omega
    | ⟨1, _⟩ => show win21_1.index t (1 : Fin 2) * 64 + 1 * q.val = win21_4.index t (1 : Fin 2) * 64 + 1 * q.val; omega
  · show V c (Pipeline.arrRef spec21 2) (((cfg21.win 2).blk t).view.emb (ix2 (0 : Fin 1) q)) = _
    refine congrArg _ (funext fun a => Fin.ext ?_)
    match a with
    | ⟨0, _⟩ => show win21_2.index t (0 : Fin 2) * 1 + 1 * 0 = 0; omega
    | ⟨1, _⟩ => show win21_2.index t (1 : Fin 2) * 64 + 1 * q.val = win21_4.index t (1 : Fin 2) * 64 + 1 * q.val; omega

/-- An index of the output array is in point t's block iff each coordinate is in the block's range on its axis. -/
theorem mem_blk21_4 (t : Fin cfg21.N) (i : S32768x64.Idx) :
    i ∈ ((cfg21.win 4).blk t).view.set ↔ ∀ a : Fin 2, win21_4.index t a * S4096x64.size a ≤ (i a).val ∧ (i a).val < win21_4.index t a * S4096x64.size a + S4096x64.size a := by
  show i ∈ ((View.whole main_v378).slice (win21_4.rect t)).set ↔ _
  rw [View.set_slice_whole, Rect.mem_set_unit]
  exact Iff.rfl

/-- Every row lies in some point's block: row r in the block of point r / 4096. -/
theorem rowsCover21_4 (i : S32768x64.Idx) : ∃ t : Fin cfg21.N, (cfg21.win 4).flush t = true ∧ i ∈ ((cfg21.win 4).blk t).view.set := by
  have hN : cfg21.N = 8 := N_21
  have hi0 : (i 0).val < 32768 := (i 0).isLt
  have hi1 : (i 1).val < 64 := (i 1).isLt
  refine ⟨⟨(i 0).val / 4096, by rw [hN]; omega⟩, flush21_4 _, ?_⟩
  rw [mem_blk21_4]
  obtain ⟨-, -, -, -, -, -, -, -, e40, e41⟩ := idx21 ⟨(i 0).val / 4096, by rw [hN]; omega⟩
  intro a
  match a with
  | ⟨0, _⟩ =>
    show win21_4.index _ (0 : Fin 2) * 4096 ≤ (i 0).val ∧ (i 0).val < win21_4.index _ (0 : Fin 2) * 4096 + 4096
    rw [e40]; show (i 0).val / 4096 * 4096 ≤ (i 0).val ∧ (i 0).val < (i 0).val / 4096 * 4096 + 4096; omega
  | ⟨1, _⟩ =>
    show win21_4.index _ (1 : Fin 2) * 64 ≤ (i 1).val ∧ (i 1).val < win21_4.index _ (1 : Fin 2) * 64 + 64
    rw [e41]; omega

/-- The output array after the run is the whole-array tap of the region's input arrays. -/
theorem final21_4 (c : Dev nD) : (Cert.KernelIdeal.Gen.dat21 (F := Ideal) V c).arrAt 4 cfg21.N
    = (tapAcc (V c (Pipeline.arrRef spec21 3) : Mat 32768 64) (V c (Pipeline.arrRef spec21 0) : Mat 32768 64) (V c (Pipeline.arrRef spec21 1) : Mat 64 64) (V c (Pipeline.arrRef spec21 2) : Mat 1 64) : Mat 32768 64) :=
  (dat21 (F := Ideal) V c).arrAt_eq_of_cover 4 _ (fun t _ => flushed21_4 V c t) rowsCover21_4

end Cert.KernelIdeal.HV

end
-- ==== Proof.KReg22.lean ====
/-
  Region 22: the accumulating tap over the 131072 rows, run as 32 row blocks of 4096. The output array after the run,
  read as one function of the region's input arrays: block t of the output is the tap's payload of block t of c and of z
  and of the whole w and b, which is rows 4096·t … 4096·t + 4095 of the whole-array tap; the 32 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx22 : ∀ t : Fin cfg22.N, win22_0.index t (0 : Fin 2) = t.val ∧ win22_0.index t (1 : Fin 2) = 0
    ∧ win22_1.index t (0 : Fin 2) = 0 ∧ win22_1.index t (1 : Fin 2) = 0
    ∧ win22_2.index t (0 : Fin 2) = 0 ∧ win22_2.index t (1 : Fin 2) = 0
    ∧ win22_3.index t (0 : Fin 2) = t.val ∧ win22_3.index t (1 : Fin 2) = 0
    ∧ win22_4.index t (0 : Fin 2) = t.val ∧ win22_4.index t (1 : Fin 2) = 0 :=
  (by decide +kernel : ∀ t : Fin grid22.N, _)

set_option maxHeartbeats 1000000 in
/-- What point t writes back is block t of the whole-array tap of the arrays as the region finds them. -/
theorem flushed22_4 (c : Dev nD) (t : Fin cfg22.N) :
    (dat22 (F := Ideal) V c).flushed 4 t = ((cfg22.win 4).blk t).view.read (Elt Ideal)
      (tapAcc (V c (Pipeline.arrRef spec22 3) : Mat 131072 64) (V c (Pipeline.arrRef spec22 0) : Mat 131072 64) (V c (Pipeline.arrRef spec22 1) : Mat 64 64) (V c (Pipeline.arrRef spec22 2) : Mat 1 64) : Mat 131072 64) := by
  show (cfg22.win 4).cut (grid22.coords t) ((dat22 (F := Ideal) V c).after 4 t) = _
  rw [after22_4]
  unfold out22_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx22 t
  funext j
  obtain ⟨p, q, rfl⟩ : ∃ (p : Fin 4096) (q : Fin 64), j = ix2 p q := ⟨j 0, j 1, eq_ix2 j⟩
  show k22_pay1 (iblk22 V c 0 t) (iblk22 V c 1 t) (iblk22 V c 3 t) (iblk22 V c 2 t) (ix2 p q)
    = (tapAcc (V c (Pipeline.arrRef spec22 3) : Mat 131072 64) (V c (Pipeline.arrRef spec22 0) : Mat 131072 64) (V c (Pipeline.arrRef spec22 1) : Mat 64 64) (V c (Pipeline.arrRef spec22 2) : Mat 1 64) : Mat 131072 64)
        (((cfg22.win 4).blk t).view.emb (ix2 p q))
  rw [k22_pay]
  refine tapPay_rows _ _ _ _ _ _ _ _ p q _ (fun k => ?_) ?_ (fun k => ?_) ?_
  · show V c (Pipeline.arrRef spec22 0) (((cfg22.win 0).blk t).view.emb (ix2 p k)) = _
    refine congrArg _ (funext fun a => Fin.ext ?_)
    match a with
    | ⟨0, _⟩ => show win22_0.index t (0 : Fin 2) * 4096 + 1 * p.val = win22_4.index t (0 : Fin 2) * 4096 + 1 * p.val; omega
    | ⟨1, _⟩ => show win22_0.index t (1 : Fin 2) * 64 + 1 * k.val = k.val; omega
  · show V c (Pipeline.arrRef spec22 3) (((cfg22.win 3).blk t).view.emb (ix2 p q)) = _
    refine congrArg _ (funext fun a => Fin.ext ?_)
    match a with
    | ⟨0, _⟩ => show win22_3.index t (0 : Fin 2) * 4096 + 1 * p.val = win22_4.index t (0 : Fin 2) * 4096 + 1 * p.val; omega
    | ⟨1, _⟩ => show win22_3.index t (1 : Fin 2) * 64 + 1 * q.val = win22_4.index t (1 : Fin 2) * 64 + 1 * q.val; omega
  · show V c (Pipeline.arrRef spec22 1) (((cfg22.win 1).blk t).view.emb (ix2 k q)) = _
    refine congrArg _ (funext fun a => Fin.ext ?_)
    match a with
    | ⟨0, _⟩ => show win22_1.index t (0 : Fin 2) * 64 + 1 * k.val = k.val; omega
    | ⟨1, _⟩ => show win22_1.index t (1 : Fin 2) * 64 + 1 * q.val = win22_4.index t (1 : Fin 2) * 64 + 1 * q.val; omega
  · show V c (Pipeline.arrRef spec22 2) (((cfg22.win 2).blk t).view.emb (ix2 (0 : Fin 1) q)) = _
    refine congrArg _ (funext fun a => Fin.ext ?_)
    match a with
    | ⟨0, _⟩ => show win22_2.index t (0 : Fin 2) * 1 + 1 * 0 = 0; omega
    | ⟨1, _⟩ => show win22_2.index t (1 : Fin 2) * 64 + 1 * q.val = win22_4.index t (1 : Fin 2) * 64 + 1 * q.val; omega

/-- An index of the output array is in point t's block iff each coordinate is in the block's range on its axis. -/
theorem mem_blk22_4 (t : Fin cfg22.N) (i : S131072x64.Idx) :
    i ∈ ((cfg22.win 4).blk t).view.set ↔ ∀ a : Fin 2, win22_4.index t a * S4096x64.size a ≤ (i a).val ∧ (i a).val < win22_4.index t a * S4096x64.size a + S4096x64.size a := by
  show i ∈ ((View.whole main_v415).slice (win22_4.rect t)).set ↔ _
  rw [View.set_slice_whole, Rect.mem_set_unit]
  exact Iff.rfl

/-- Every row lies in some point's block: row r in the block of point r / 4096. -/
theorem rowsCover22_4 (i : S131072x64.Idx) : ∃ t : Fin cfg22.N, (cfg22.win 4).flush t = true ∧ i ∈ ((cfg22.win 4).blk t).view.set := by
  have hN : cfg22.N = 32 := N_22
  have hi0 : (i 0).val < 131072 := (i 0).isLt
  have hi1 : (i 1).val < 64 := (i 1).isLt
  refine ⟨⟨(i 0).val / 4096, by rw [hN]; omega⟩, flush22_4 _, ?_⟩
  rw [mem_blk22_4]
  obtain ⟨-, -, -, -, -, -, -, -, e40, e41⟩ := idx22 ⟨(i 0).val / 4096, by rw [hN]; omega⟩
  intro a
  match a with
  | ⟨0, _⟩ =>
    show win22_4.index _ (0 : Fin 2) * 4096 ≤ (i 0).val ∧ (i 0).val < win22_4.index _ (0 : Fin 2) * 4096 + 4096
    rw [e40]; show (i 0).val / 4096 * 4096 ≤ (i 0).val ∧ (i 0).val < (i 0).val / 4096 * 4096 + 4096; omega
  | ⟨1, _⟩ =>
    show win22_4.index _ (1 : Fin 2) * 64 ≤ (i 1).val ∧ (i 1).val < win22_4.index _ (1 : Fin 2) * 64 + 64
    rw [e41]; omega

/-- The output array after the run is the whole-array tap of the region's input arrays. -/
theorem final22_4 (c : Dev nD) : (Cert.KernelIdeal.Gen.dat22 (F := Ideal) V c).arrAt 4 cfg22.N
    = (tapAcc (V c (Pipeline.arrRef spec22 3) : Mat 131072 64) (V c (Pipeline.arrRef spec22 0) : Mat 131072 64) (V c (Pipeline.arrRef spec22 1) : Mat 64 64) (V c (Pipeline.arrRef spec22 2) : Mat 1 64) : Mat 131072 64) :=
  (dat22 (F := Ideal) V c).arrAt_eq_of_cover 4 _ (fun t _ => flushed22_4 V c t) rowsCover22_4

end Cert.KernelIdeal.HV

end
-- ==== Proof.KReg23.lean ====
/-
  Region 23: the accumulating tap over the 32768 rows, run as 8 row blocks of 4096. The output array after the run,
  read as one function of the region's input arrays: block t of the output is the tap's payload of block t of c and of z
  and of the whole w and b, which is rows 4096·t … 4096·t + 4095 of the whole-array tap; the 8 blocks cover every row
  (row r lies in block r / 4096), so the array ends holding the whole-array tap.
-/
import proofs.«144873_j21182778704707_1_alg».proof.Proof.Gen.KernelIdeal.Frame
import proofs.«144873_j21182778704707_1_alg».proof.Proof.Spec
import proofs.«144873_j21182778704707_1_alg».proof.Proof.KPay
import Idealize.ShloMosaic.Lib.Pipeline.Value

set_option maxRecDepth 16384

noncomputable section

namespace Cert.KernelIdeal.HV

open Idealize.ShloMosaic Idealize.ShloMosaic.TcCoe Idealize.ShloMosaic.ValueIdx Idealize.SL.Sem
open Idealize.ShloMosaic.Pipeline (Dat)
open Cert.KernelIdeal Cert.KernelIdeal.Gen Cert.Hgcn

variable (V : (c : Dev nD) → (b : Ref sig .tc) → Buf (Elt Ideal) ((c : Thread nD τ).loc b))

/-- The printed index maps over the grid: the three row-tiled windows are at block (t, 0) at point t, the weight
    and the bias row at block (0, 0). -/
theorem idx23 : ∀ t : Fin cfg23.N, win23_0.index t (0 : Fin 2) = t.val ∧ win23_0.index t (1 : Fin 2) = 0
    ∧ win23_1.index t (0 : Fin 2) = 0 ∧ win23_1.index t (1 : Fin 2) = 0
    ∧ win23_2.index t (0 : Fin 2) = 0 ∧ win23_2.index t (1 : Fin 2) = 0
    ∧ win23_3.index t (0 : Fin 2) = t.val ∧ win23_3.index t (1 : Fin 2) = 0
    ∧ win23_4.index t (0 : Fin 2) = t.val ∧ win23_4.index t (1 : Fin 2) = 0 :=
  (by decide +kernel : ∀ t : Fin grid23.N, _)

set_option maxHeartbeats 1000000 in
/-- What point t writes back is block t of the whole-array tap of the arrays as the region finds them. -/
theorem flushed23_4 (c : Dev nD) (t : Fin cfg23.N) :
    (dat23 (F := Ideal) V c).flushed 4 t = ((cfg23.win 4).blk t).view.read (Elt Ideal)
      (tapAcc (V c (Pipeline.arrRef spec23 3) : Mat 32768 64) (V c (Pipeline.arrRef spec23 0) : Mat 32768 64) (V c (Pipeline.arrRef spec23 1) : Mat 64 64) (V c (Pipeline.arrRef spec23 2) : Mat 1 64) : Mat 32768 64) := by
  show (cfg23.win 4).cut (grid23.coords t) ((dat23 (F := Ideal) V c).after 4 t) = _
  rw [after23_4]
  unfold out23_4
  rw [View.canon_unit_zero off0]
  simp only [View.ld_unit_zero (S := S4096x64) off0, View.ld_unit_zero (S := S64x64) off0, View.ld_unit_zero (S := S1x64) off0]
  obtain ⟨e00, e01, e10, e11, e20, e21, e30, e31, e40, e41⟩ := idx23 t
  funext j
  obtain ⟨p, q, rfl⟩ : ∃ (p : Fin 4096) (q : Fin 64), j = ix2 p q := ⟨j 0, j 1, eq_ix2 j⟩
  show k23_pay1 (iblk23 V c 0 t) (iblk23 V c 1 t) (iblk23 V c 3 t) (iblk23 V c 2 t) (ix2 p q)
    = (tapAcc (V c (Pipeline.arrRef spec23 3) : Mat 32768 64) (V c (Pipeline.arrRef spec23 0) : Mat 32768 64) (V c (Pipeline.arrRef spec23 1) : Mat 64 64) (V c (Pipeline.arrRef spec23 2) : Mat 1 64) : Mat 32768 64)
        (((cfg23.win 4).blk t).view.emb (ix2 p q))
  rw [k23_pay]
  refine tapPay_rows _ _ _ _ _ _ _ _ p q _ (fun k => ?_) ?_ (fun k => ?_) ?_
  · show V c (Pipeline.arrRef spec23 0) (((cfg23.win 0).blk t).view.emb (ix2 p k)) = _
    refine congrArg _ (funext fun a => Fin.ext ?_)
    match a with
    | ⟨0, _⟩ => show win23_0.index t (0 : Fin 2) * 4096 + 1 * p.val = win23_4.index t (0 : Fin 2) * 4096 + 1 * p.val; omega
    | ⟨1, _⟩ => show win23_0.index t (1 : Fin 2) * 64 + 1 * k.val = k.val; omega
  · show V c (Pipeline.arrRef spec23 3) (((cfg23.win 3).blk t).view.emb (ix2 p q)) = _
    refine congrArg _ (funext fun a => Fin.ext ?_)
    match a with
    | ⟨0, _⟩ => show win23_3.index t (0 : Fin 2) * 4096 + 1 * p.val = win23_4.index t (0 : Fin 2) * 4096 + 1 * p.val; omega
    | ⟨1, _⟩ => show win23_3.index t (1 : Fin 2) * 64 + 1 * q.val = win23_4.index t (1 : Fin 2) * 64 + 1 * q.val; omega
  · show V c (Pipeline.arrRef spec23 1) (((cfg23.win 1).blk t).view.emb (ix2 k q)) = _
    refine congrArg _ (funext fun a => Fin.ext ?_)
    match a with
    | ⟨0, _⟩ => show win23_1.index t (0 : Fin 2) * 64 + 1 * k.val = k.val; omega
    | ⟨1, _⟩ => show win23_1.index t (1 : Fin 2) * 64 + 1 * q.val = win23_4.index t (1 : Fin 2) * 64 + 1 * q.val; omega
  · show V c (Pipeline.arrRef spec23 2) (((cfg23.win 2).blk t).view.emb (ix2 (0 : Fin 1) q)) = _
    refine congrArg _ (funext fun a => Fin.ext ?_)
    match a with
    | ⟨0, _⟩ => show win23_2.index t (0 : Fin 2) * 1 + 1 * 0 = 0; omega
    | ⟨1, _⟩ => show win23_2.index t (1 : Fin 2) * 64 + 1 * q.val = win23_4.index t (1 : Fin 2) * 64 + 1 * q.val; omega

/-- An index of the output array is in point t's block iff each coordinate is in the block's range on its axis. -/
theorem mem_blk23_4 (t : Fin cfg23.N) (i : S32768x64.Idx) :
    i ∈ ((cfg23.win 4).blk t).view.set ↔ ∀ a : Fin 2, win23_4.index t a * S4096x64.size a ≤ (i a).val ∧ (i a).val < win23_4.index t a * S4096x64.size a + S4096x64.size a := by
  show i ∈ ((View.whole main_v421).slice (win23_4.rect t)).set ↔ _
  rw [View.set_slice_whole, Rect.mem_set_unit]
  exact Iff.rfl

/-- Every row lies in some point's block: row r in the block of point r / 4096. -/
theorem rowsCover23_4 (i : S32768x64.Idx) : ∃ t : Fin cfg23.N, (cfg23.win 4).flush t = true ∧ i ∈ ((cfg23.win 4).blk t).view.set := by
  have hN : cfg23.N = 8 := N_23
  have hi0 : (i 0).val < 32768 := (i 0).isLt
  have hi1 : (i 1).val < 64 := (i 1).isLt
  refine ⟨⟨(i 0).val / 4096, by rw [hN]; omega⟩, flush23_4 _, ?_⟩
  rw [mem_blk23_4]
  obtain ⟨-, -, -, -, -, -, -, -, e40, e41⟩ := idx23 ⟨(i 0).val / 4096, by rw [hN]; omega⟩
  intro a
  match a with
  | ⟨0, _⟩ =>
    show win23_4.index _ (0 : Fin 2) * 4096 ≤ (i 0).val ∧ (i 0).val < win23_4.index _ (0 : Fin 2) * 4096 + 4096
    rw [e40]; show (i 0).val / 4096 * 4096 ≤ (i 0).val ∧ (i 0).val < (i 0).val / 4096 * 4096 + 4096; omega
  | ⟨1, _⟩ =>
    show win23_4.index _ (1 : Fin 2) * 64 ≤ (i 1).val ∧ (i 1).val < win23_4.index _ (1 : Fin 2) * 64 + 64
    rw [e41]; omega

/-- The output array after the run is the whole-array tap of the region's input arrays. -/
theorem final23_4 (c : Dev nD) : (Cert.KernelIdeal.Gen.dat23 (F := Ideal) V c).arrAt 4 cfg23.N
    = (tapAcc (V c (Pipeline.arrRef spec23 3) : Mat 32768 64) (V c (Pipeline.arrRef spec23 0) : Mat 32768 64) (V c (Pipeline.arrRef spec23 1) : Mat 64 64) (V c (Pipeline.arrRef spec23 2) : Mat 1 64) : Mat 32768 64) :=
  (dat23 (F := Ideal) V c).arrAt_eq_of_cover 4 _ (fun t _ => flushed23_4 V c t) rowsCover23_4

end Cert.KernelIdeal.HV

end
-- ==== Proof.KReg24.lean ====
/-
  The residual add of the 131072 rows: after the run the region's output array is the entrywise sum of its two input
  arrays. Grid point t adds rows 4096·t … 4096·t + 4095 of the two inputs and writes the same rows of the output; the
  32 row blocks cover every row, so the array is the whole sum.
-/
import proofs.«144873_j21182778704707_1_alg».proof.Proof.Gen.KernelIdeal.Frame
import proofs.«144873_j21182778704707_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.HV

open Cert.KernelIdeal Cert.KernelIdeal.Gen

variable (V : (c : Dev nD) → (b : Ref sig .tc) → Buf (Elt Ideal) ((c : Thread nD τ).loc b))

/-- The zero offsets of a whole-block access, however they are spelt. -/
theorem hz24 : (![0, 0] : Fin 2 → Nat) = fun _ => 0 := funext fun a => by fin_cases a <;> rfl

/-- The body's arithmetic: the sum of the two loaded blocks (the two shape casts are the identity). -/
theorem pay24_eq (x0 x1 : Vec Ideal S4096x64 .f32) : k24_pay1 x0 x1 = addf x0 x1 := by
  unfold k24_pay1
  simp only [shapeCast_self]

/-- The block index maps over the grid: all three windows sit at row block t, column block 0. -/
theorem idx_facts24 : ∀ t : Fin cfg24.N, win24_0.index t (0 : Fin 2) = t.val ∧ win24_0.index t (1 : Fin 2) = 0
    ∧ win24_1.index t (0 : Fin 2) = t.val ∧ win24_1.index t (1 : Fin 2) = 0
    ∧ win24_2.index t (0 : Fin 2) = t.val ∧ win24_2.index t (1 : Fin 2) = 0 :=
  (by decide +kernel : ∀ t : Fin grid24.N, _)

/-- What point t writes back is block t of the entrywise sum of the two input arrays. -/
theorem flushed24_2_eq (c : Dev nD) (t : Fin cfg24.N) :
    (dat24 V c).flushed 2 t = ((cfg24.win 2).blk t).view.read (Elt Ideal)
      ((addf (V c (Pipeline.arrRef spec24 0) : FVec Ideal S131072x64 .f32) (V c (Pipeline.arrRef spec24 1)) : FVec Ideal S131072x64 .f32)) := by
  show (cfg24.win 2).cut (grid24.coords t) ((dat24 V c).after 2 t) = _
  rw [after24_2]
  unfold out24_2
  rw [View.canon_unit_zero hz24]
  simp only [View.ld_unit_zero (S := S4096x64) hz24]
  rw [pay24_eq]
  obtain ⟨e0, e1, e2, e3, e4, e5⟩ := idx_facts24 t
  funext j
  show FloatOps.addf (F := Ideal) (φ := .f32) (V c main_v214 (((cfg24.win 0).blk t).view.emb j)) (V c main_v415 (((cfg24.win 1).blk t).view.emb j))
    = FloatOps.addf (F := Ideal) (φ := .f32) (V c main_v214 (((cfg24.win 2).blk t).view.emb j)) (V c main_v415 (((cfg24.win 2).blk t).view.emb j))
  have h0 : ((cfg24.win 0).blk t).view.emb j = ((cfg24.win 2).blk t).view.emb j := by
    funext a; apply Fin.ext
    match a with
    | ⟨0, _⟩ => show win24_0.index t (0 : Fin 2) * 4096 + 1 * (j 0).val = win24_2.index t (0 : Fin 2) * 4096 + 1 * (j 0).val; omega
    | ⟨1, _⟩ => show win24_0.index t (1 : Fin 2) * 64 + 1 * (j 1).val = win24_2.index t (1 : Fin 2) * 64 + 1 * (j 1).val; omega
  have h1 : ((cfg24.win 1).blk t).view.emb j = ((cfg24.win 2).blk t).view.emb j := by
    funext a; apply Fin.ext
    match a with
    | ⟨0, _⟩ => show win24_1.index t (0 : Fin 2) * 4096 + 1 * (j 0).val = win24_2.index t (0 : Fin 2) * 4096 + 1 * (j 0).val; omega
    | ⟨1, _⟩ => show win24_1.index t (1 : Fin 2) * 64 + 1 * (j 1).val = win24_2.index t (1 : Fin 2) * 64 + 1 * (j 1).val; omega
  rw [h0, h1]

/-- An index of the output array is in point t's block iff each coordinate is in the block's range on its axis. -/
theorem mem_blk24_2 (t : Fin cfg24.N) (i : S131072x64.Idx) :
    i ∈ ((cfg24.win 2).blk t).view.set ↔ ∀ a : Fin 2, win24_2.index t a * S4096x64.size a ≤ (i a).val ∧ (i a).val < win24_2.index t a * S4096x64.size a + S4096x64.size a := by
  show i ∈ ((View.whole main_v422).slice (win24_2.rect t)).set ↔ _
  rw [View.set_slice_whole, Rect.mem_set_unit]
  exact Iff.rfl

/-- Every index is covered: row r lies in the block of point r / 4096. -/
theorem cover24_2 (i : S131072x64.Idx) : ∃ t : Fin cfg24.N, (cfg24.win 2).flush t = true ∧ i ∈ ((cfg24.win 2).blk t).view.set := by
  have hN : cfg24.N = 32 := N_24
  have hi0 : (i 0).val < 131072 := (i 0).isLt
  have hi1 : (i 1).val < 64 := (i 1).isLt
  let t : Fin cfg24.N := ⟨(i 0).val / 4096, lt_of_lt_of_eq (by omega : (i 0).val / 4096 < 32) hN.symm⟩
  obtain ⟨e0, e1, e2, e3, e4, e5⟩ := idx_facts24 t
  have ht : t.val = (i 0).val / 4096 := rfl
  refine ⟨t, flush24_2 t, ?_⟩
  rw [mem_blk24_2]
  intro a
  match a with
  | ⟨0, _⟩ => show win24_2.index t (0 : Fin 2) * 4096 ≤ (i 0).val ∧ (i 0).val < win24_2.index t (0 : Fin 2) * 4096 + 4096; omega
  | ⟨1, _⟩ => show win24_2.index t (1 : Fin 2) * 64 ≤ (i 1).val ∧ (i 1).val < win24_2.index t (1 : Fin 2) * 64 + 64; omega

/-- The output array after the run: the entrywise sum of the two input arrays as the region finds them. -/
theorem final24_2 (c : Dev nD) : (dat24 (F := Ideal) V c).arrAt 2 cfg24.N
    = (addf (V c (Pipeline.arrRef spec24 0) : FVec Ideal S131072x64 .f32) (V c (Pipeline.arrRef spec24 1)) : FVec Ideal S131072x64 .f32) :=
  (dat24 V c).arrAt_eq_of_cover 2 _ (fun t _ => flushed24_2_eq V c t) (cover24_2)

end Cert.KernelIdeal.HV

end
-- ==== Proof.KReg25.lean ====
/-
  The residual add of the 32768 rows: after the run the region's output array is the entrywise sum of its two input
  arrays. Grid point t adds rows 4096·t … 4096·t + 4095 of the two inputs and writes the same rows of the output; the
  8 row blocks cover every row, so the array is the whole sum.
-/
import proofs.«144873_j21182778704707_1_alg».proof.Proof.Gen.KernelIdeal.Frame
import proofs.«144873_j21182778704707_1_alg».proof.Proof.Spec
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.HV

open Cert.KernelIdeal Cert.KernelIdeal.Gen

variable (V : (c : Dev nD) → (b : Ref sig .tc) → Buf (Elt Ideal) ((c : Thread nD τ).loc b))

/-- The zero offsets of a whole-block access, however they are spelt. -/
theorem hz25 : (![0, 0] : Fin 2 → Nat) = fun _ => 0 := funext fun a => by fin_cases a <;> rfl

/-- The body's arithmetic: the sum of the two loaded blocks (the two shape casts are the identity). -/
theorem pay25_eq (x0 x1 : Vec Ideal S4096x64 .f32) : k25_pay1 x0 x1 = addf x0 x1 := by
  unfold k25_pay1
  simp only [shapeCast_self]

/-- The block index maps over the grid: all three windows sit at row block t, column block 0. -/
theorem idx_facts25 : ∀ t : Fin cfg25.N, win25_0.index t (0 : Fin 2) = t.val ∧ win25_0.index t (1 : Fin 2) = 0
    ∧ win25_1.index t (0 : Fin 2) = t.val ∧ win25_1.index t (1 : Fin 2) = 0
    ∧ win25_2.index t (0 : Fin 2) = t.val ∧ win25_2.index t (1 : Fin 2) = 0 :=
  (by decide +kernel : ∀ t : Fin grid25.N, _)

/-- What point t writes back is block t of the entrywise sum of the two input arrays. -/
theorem flushed25_2_eq (c : Dev nD) (t : Fin cfg25.N) :
    (dat25 V c).flushed 2 t = ((cfg25.win 2).blk t).view.read (Elt Ideal)
      ((addf (V c (Pipeline.arrRef spec25 0) : FVec Ideal S32768x64 .f32) (V c (Pipeline.arrRef spec25 1)) : FVec Ideal S32768x64 .f32)) := by
  show (cfg25.win 2).cut (grid25.coords t) ((dat25 V c).after 2 t) = _
  rw [after25_2]
  unfold out25_2
  rw [View.canon_unit_zero hz25]
  simp only [View.ld_unit_zero (S := S4096x64) hz25]
  rw [pay25_eq]
  obtain ⟨e0, e1, e2, e3, e4, e5⟩ := idx_facts25 t
  funext j
  show FloatOps.addf (F := Ideal) (φ := .f32) (V c main_v215 (((cfg25.win 0).blk t).view.emb j)) (V c main_v421 (((cfg25.win 1).blk t).view.emb j))
    = FloatOps.addf (F := Ideal) (φ := .f32) (V c main_v215 (((cfg25.win 2).blk t).view.emb j)) (V c main_v421 (((cfg25.win 2).blk t).view.emb j))
  have h0 : ((cfg25.win 0).blk t).view.emb j = ((cfg25.win 2).blk t).view.emb j := by
    funext a; apply Fin.ext
    match a with
    | ⟨0, _⟩ => show win25_0.index t (0 : Fin 2) * 4096 + 1 * (j 0).val = win25_2.index t (0 : Fin 2) * 4096 + 1 * (j 0).val; omega
    | ⟨1, _⟩ => show win25_0.index t (1 : Fin 2) * 64 + 1 * (j 1).val = win25_2.index t (1 : Fin 2) * 64 + 1 * (j 1).val; omega
  have h1 : ((cfg25.win 1).blk t).view.emb j = ((cfg25.win 2).blk t).view.emb j := by
    funext a; apply Fin.ext
    match a with
    | ⟨0, _⟩ => show win25_1.index t (0 : Fin 2) * 4096 + 1 * (j 0).val = win25_2.index t (0 : Fin 2) * 4096 + 1 * (j 0).val; omega
    | ⟨1, _⟩ => show win25_1.index t (1 : Fin 2) * 64 + 1 * (j 1).val = win25_2.index t (1 : Fin 2) * 64 + 1 * (j 1).val; omega
  rw [h0, h1]

/-- An index of the output array is in point t's block iff each coordinate is in the block's range on its axis. -/
theorem mem_blk25_2 (t : Fin cfg25.N) (i : S32768x64.Idx) :
    i ∈ ((cfg25.win 2).blk t).view.set ↔ ∀ a : Fin 2, win25_2.index t a * S4096x64.size a ≤ (i a).val ∧ (i a).val < win25_2.index t a * S4096x64.size a + S4096x64.size a := by
  show i ∈ ((View.whole main_v423).slice (win25_2.rect t)).set ↔ _
  rw [View.set_slice_whole, Rect.mem_set_unit]
  exact Iff.rfl

/-- Every index is covered: row r lies in the block of point r / 4096. -/
theorem cover25_2 (i : S32768x64.Idx) : ∃ t : Fin cfg25.N, (cfg25.win 2).flush t = true ∧ i ∈ ((cfg25.win 2).blk t).view.set := by
  have hN : cfg25.N = 8 := N_25
  have hi0 : (i 0).val < 32768 := (i 0).isLt
  have hi1 : (i 1).val < 64 := (i 1).isLt
  let t : Fin cfg25.N := ⟨(i 0).val / 4096, lt_of_lt_of_eq (by omega : (i 0).val / 4096 < 8) hN.symm⟩
  obtain ⟨e0, e1, e2, e3, e4, e5⟩ := idx_facts25 t
  have ht : t.val = (i 0).val / 4096 := rfl
  refine ⟨t, flush25_2 t, ?_⟩
  rw [mem_blk25_2]
  intro a
  match a with
  | ⟨0, _⟩ => show win25_2.index t (0 : Fin 2) * 4096 ≤ (i 0).val ∧ (i 0).val < win25_2.index t (0 : Fin 2) * 4096 + 4096; omega
  | ⟨1, _⟩ => show win25_2.index t (1 : Fin 2) * 64 ≤ (i 1).val ∧ (i 1).val < win25_2.index t (1 : Fin 2) * 64 + 64; omega

/-- The output array after the run: the entrywise sum of the two input arrays as the region finds them. -/
theorem final25_2 (c : Dev nD) : (dat25 (F := Ideal) V c).arrAt 2 cfg25.N
    = (addf (V c (Pipeline.arrRef spec25 0) : FVec Ideal S32768x64 .f32) (V c (Pipeline.arrRef spec25 1)) : FVec Ideal S32768x64 .f32) :=
  (dat25 V c).arrAt_eq_of_cover 2 _ (fun t _ => flushed25_2_eq V c t) (cover25_2)

end Cert.KernelIdeal.HV

end
-- ==== Proof.KReg26.lean ====
/-
  The dense layer of the 131072 rows with a [1, 32] bias row: after the run the region's output array is the affine map
  x · w + b of its input arrays, entry by entry. Grid point t multiplies rows 4096·t … 4096·t + 4095 of x by the whole
  of w, adds the bias row to every row and writes the same rows of the output; the product is the plain sum over the
  64 contracted coordinates, so a row block of the layer is the rows of the layer, and the 32 row blocks cover every row.
-/
import proofs.«144873_j21182778704707_1_alg».proof.Proof.Gen.KernelIdeal.Frame
import proofs.«144873_j21182778704707_1_alg».proof.Proof.Spec
import proofs.«144873_j21182778704707_1_alg».proof.Proof.LibDenseRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.HV

open Cert.KernelIdeal Cert.KernelIdeal.Gen

variable (V : (c : Dev nD) → (b : Ref sig .tc) → Buf (Elt Ideal) ((c : Thread nD τ).loc b))

/-- The zero offsets of a whole-block access, however they are spelt. -/
theorem hz26 : (![0, 0] : Fin 2 → Nat) = fun _ => 0 := funext fun a => by fin_cases a <;> rfl

/-- The body's arithmetic at an entry: the row of the first block times the column of the second (the format changes
    are the identity on extended reals, the product into a zero accumulator is the plain sum), plus the bias row's entry. -/
theorem pay26_apply (x0 : Vec Ideal S4096x64 .f32) (x1 : Vec Ideal S64x32 .f32) (x2 : Vec Ideal S1x32 .f32) (p : Fin 4096) (q : Fin 32) :
    k26_pay1 x0 x1 x2 (ix2 p q) = (∑ k : Fin 64, x0 (ix2 p k) * x1 (ix2 k q)) + x2 (ix2 (0 : Fin 1) q) := by
  show Cert.Dense.affK broadcasts_S1x32_S4096x32 (truncf .bf16 (shapeCast S4096x64 x0 shapeCasts_S4096x64_S4096x64) bitsLt_bf16_f32) (truncf .bf16 x1 bitsLt_bf16_f32) (shapeCast S1x32 x2 shapeCasts_S1x32_S1x32) (ix2 p q) = _
  rw [Cert.Dense.affK_apply, shapeCast_self, shapeCast_self]
  rfl

/-- The block index maps over the grid: the input rows and the output rows sit at row block t, column block 0; the weight
    and the bias row are one block each. -/
theorem idx_facts26 : ∀ t : Fin cfg26.N, win26_0.index t (0 : Fin 2) = t.val ∧ win26_0.index t (1 : Fin 2) = 0
    ∧ win26_1.index t (0 : Fin 2) = 0 ∧ win26_1.index t (1 : Fin 2) = 0
    ∧ win26_2.index t (0 : Fin 2) = 0 ∧ win26_2.index t (1 : Fin 2) = 0
    ∧ win26_3.index t (0 : Fin 2) = t.val ∧ win26_3.index t (1 : Fin 2) = 0 :=
  (by decide +kernel : ∀ t : Fin grid26.N, _)

/-- Row p of the input block at point t is row 4096·t + p of the input array. -/
theorem blk26_x (c : Dev nD) (t : Fin cfg26.N) (p : Fin 4096) (k : Fin 64) (r : Fin 131072) (hr : r.val = t.val * 4096 + p.val) :
    (iblk26 V c 0 t : Vec Ideal S4096x64 .f32) (ix2 p k) = (V c main_v422 : Cert.Hgcn.Mat 131072 64) (ix2 r k) := by
  obtain ⟨e0, e1, -⟩ := idx_facts26 t
  unfold iblk26
  rw [View.read_apply]
  show V c main_v422 _ = V c main_v422 _
  congr 1
  funext a; apply Fin.ext
  match a with
  | ⟨0, _⟩ => show win26_0.index t (0 : Fin 2) * 4096 + 1 * p.val = r.val; omega
  | ⟨1, _⟩ => show win26_0.index t (1 : Fin 2) * 64 + 1 * k.val = k.val; omega

/-- The weight block at every point is the weight array. -/
theorem blk26_w (c : Dev nD) (t : Fin cfg26.N) (k : Fin 64) (q : Fin 32) :
    (iblk26 V c 1 t : Vec Ideal S64x32 .f32) (ix2 k q) = (V c main_arg14 : Cert.Hgcn.Mat 64 32) (ix2 k q) := by
  obtain ⟨-, -, e2, e3, -⟩ := idx_facts26 t
  unfold iblk26
  rw [View.read_apply]
  show V c main_arg14 _ = V c main_arg14 _
  congr 1
  funext a; apply Fin.ext
  match a with
  | ⟨0, _⟩ => show win26_1.index t (0 : Fin 2) * 64 + 1 * k.val = k.val; omega
  | ⟨1, _⟩ => show win26_1.index t (1 : Fin 2) * 32 + 1 * q.val = q.val; omega

/-- The bias block at every point is the bias row. -/
theorem blk26_b (c : Dev nD) (t : Fin cfg26.N) (q : Fin 32) :
    (iblk26 V c 2 t : Vec Ideal S1x32 .f32) (ix2 (0 : Fin 1) q) = (V c main_v424 : Cert.Hgcn.Mat 1 32) (ix2 (0 : Fin 1) q) := by
  obtain ⟨-, -, -, -, e4, e5, -⟩ := idx_facts26 t
  unfold iblk26
  rw [View.read_apply]
  show V c main_v424 _ = V c main_v424 _
  congr 1
  funext a; apply Fin.ext
  match a with
  | ⟨0, _⟩ => show win26_2.index t (0 : Fin 2) * 1 + 1 * 0 = 0; omega
  | ⟨1, _⟩ => show win26_2.index t (1 : Fin 2) * 32 + 1 * q.val = q.val; omega

/-- What point t writes back is block t of the affine map of the input arrays. -/
theorem flushed26_3_eq (c : Dev nD) (t : Fin cfg26.N) :
    (dat26 V c).flushed 3 t = ((cfg26.win 3).blk t).view.read (Elt Ideal)
      (Cert.Hgcn.lin (V c (Pipeline.arrRef spec26 0) : Cert.Hgcn.Mat 131072 64) (V c (Pipeline.arrRef spec26 1) : Cert.Hgcn.Mat 64 32) (V c (Pipeline.arrRef spec26 2) : Cert.Hgcn.Mat 1 32)) := by
  show (cfg26.win 3).cut (grid26.coords t) ((dat26 V c).after 3 t) = _
  rw [after26_3]
  unfold out26_3
  rw [View.canon_unit_zero hz26]
  simp only [View.ld_unit_zero (S := S4096x64) hz26, View.ld_unit_zero (S := S64x32) hz26, View.ld_unit_zero (S := S1x32) hz26]
  obtain ⟨e0, e1, e2, e3, e4, e5, e6, e7⟩ := idx_facts26 t
  have hN : cfg26.N = 32 := N_26
  have ht : t.val < cfg26.N := t.isLt
  refine funext fun (j : S4096x32.Idx) => ?_
  obtain ⟨p, q, rfl⟩ : ∃ (p : Fin 4096) (q : Fin 32), j = ix2 p q := ⟨j 0, j 1, eq_ix2 j⟩
  refine (pay26_apply _ _ _ p q).trans ?_
  have hr : t.val * 4096 + p.val < 131072 := by have := p.isLt; omega
  have hemb : ((cfg26.win 3).blk t).view.emb (ix2 p q) = ix2 (⟨t.val * 4096 + p.val, hr⟩ : Fin 131072) q := by
    funext a; apply Fin.ext
    match a with
    | ⟨0, _⟩ => show win26_3.index t (0 : Fin 2) * 4096 + 1 * p.val = t.val * 4096 + p.val; omega
    | ⟨1, _⟩ => show win26_3.index t (1 : Fin 2) * 32 + 1 * q.val = q.val; omega
  show _ = Cert.Hgcn.lin (V c (Pipeline.arrRef spec26 0) : Cert.Hgcn.Mat 131072 64) (V c (Pipeline.arrRef spec26 1) : Cert.Hgcn.Mat 64 32) (V c (Pipeline.arrRef spec26 2) : Cert.Hgcn.Mat 1 32) (((cfg26.win 3).blk t).view.emb (ix2 p q))
  rw [hemb, Cert.Hgcn.lin_apply]
  refine congrArg₂ (· + ·) (Finset.sum_congr rfl fun k _ => ?_) (blk26_b V c t q)
  exact congrArg₂ (· * ·) (blk26_x V c t p k ⟨t.val * 4096 + p.val, hr⟩ rfl) (blk26_w V c t k q)

/-- An index of the output array is in point t's block iff each coordinate is in the block's range on its axis. -/
theorem mem_blk26_3 (t : Fin cfg26.N) (i : S131072x32.Idx) :
    i ∈ ((cfg26.win 3).blk t).view.set ↔ ∀ a : Fin 2, win26_3.index t a * S4096x32.size a ≤ (i a).val ∧ (i a).val < win26_3.index t a * S4096x32.size a + S4096x32.size a := by
  show i ∈ ((View.whole main_v425).slice (win26_3.rect t)).set ↔ _
  rw [View.set_slice_whole, Rect.mem_set_unit]
  exact Iff.rfl

/-- Every index is covered: row r lies in the block of point r / 4096. -/
theorem cover26_3 (i : S131072x32.Idx) : ∃ t : Fin cfg26.N, (cfg26.win 3).flush t = true ∧ i ∈ ((cfg26.win 3).blk t).view.set := by
  have hN : cfg26.N = 32 := N_26
  have hi0 : (i 0).val < 131072 := (i 0).isLt
  have hi1 : (i 1).val < 32 := (i 1).isLt
  let t : Fin cfg26.N := ⟨(i 0).val / 4096, lt_of_lt_of_eq (by omega : (i 0).val / 4096 < 32) hN.symm⟩
  obtain ⟨e0, e1, e2, e3, e4, e5, e6, e7⟩ := idx_facts26 t
  have ht : t.val = (i 0).val / 4096 := rfl
  refine ⟨t, flush26_3 t, ?_⟩
  rw [mem_blk26_3]
  intro a
  match a with
  | ⟨0, _⟩ => show win26_3.index t (0 : Fin 2) * 4096 ≤ (i 0).val ∧ (i 0).val < win26_3.index t (0 : Fin 2) * 4096 + 4096; omega
  | ⟨1, _⟩ => show win26_3.index t (1 : Fin 2) * 32 ≤ (i 1).val ∧ (i 1).val < win26_3.index t (1 : Fin 2) * 32 + 32; omega

/-- The output array after the run: the affine map of the input arrays as the region finds them. -/
theorem final26_3 (c : Dev nD) : (dat26 (F := Ideal) V c).arrAt 3 cfg26.N
    = Cert.Hgcn.lin (V c (Pipeline.arrRef spec26 0) : Cert.Hgcn.Mat 131072 64) (V c (Pipeline.arrRef spec26 1) : Cert.Hgcn.Mat 64 32) (V c (Pipeline.arrRef spec26 2) : Cert.Hgcn.Mat 1 32) :=
  (dat26 V c).arrAt_eq_of_cover 3 _ (fun t _ => flushed26_3_eq V c t) (cover26_3)

end Cert.KernelIdeal.HV

end
-- ==== Proof.KReg27.lean ====
/-
  The dense layer of the 32768 rows with a [1, 32] bias row: after the run the region's output array is the affine map
  x · w + b of its input arrays, entry by entry. Grid point t multiplies rows 4096·t … 4096·t + 4095 of x by the whole
  of w, adds the bias row to every row and writes the same rows of the output; the product is the plain sum over the
  64 contracted coordinates, so a row block of the layer is the rows of the layer, and the 8 row blocks cover every row.
-/
import proofs.«144873_j21182778704707_1_alg».proof.Proof.Gen.KernelIdeal.Frame
import proofs.«144873_j21182778704707_1_alg».proof.Proof.Spec
import proofs.«144873_j21182778704707_1_alg».proof.Proof.LibDenseRows
import Idealize.ShloMosaic.Lib.Pipeline.Value
import Idealize.ShloMosaic.Lib.ValueIdx
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.HV

open Cert.KernelIdeal Cert.KernelIdeal.Gen

variable (V : (c : Dev nD) → (b : Ref sig .tc) → Buf (Elt Ideal) ((c : Thread nD τ).loc b))

/-- The zero offsets of a whole-block access, however they are spelt. -/
theorem hz27 : (![0, 0] : Fin 2 → Nat) = fun _ => 0 := funext fun a => by fin_cases a <;> rfl

/-- The body's arithmetic at an entry: the row of the first block times the column of the second (the format changes
    are the identity on extended reals, the product into a zero accumulator is the plain sum), plus the bias row's entry. -/
theorem pay27_apply (x0 : Vec Ideal S4096x64 .f32) (x1 : Vec Ideal S64x32 .f32) (x2 : Vec Ideal S1x32 .f32) (p : Fin 4096) (q : Fin 32) :
    k27_pay1 x0 x1 x2 (ix2 p q) = (∑ k : Fin 64, x0 (ix2 p k) * x1 (ix2 k q)) + x2 (ix2 (0 : Fin 1) q) := by
  show Cert.Dense.affK broadcasts_S1x32_S4096x32 (truncf .bf16 (shapeCast S4096x64 x0 shapeCasts_S4096x64_S4096x64) bitsLt_bf16_f32) (truncf .bf16 x1 bitsLt_bf16_f32) (shapeCast S1x32 x2 shapeCasts_S1x32_S1x32) (ix2 p q) = _
  rw [Cert.Dense.affK_apply, shapeCast_self, shapeCast_self]
  rfl

/-- The block index maps over the grid: the input rows and the output rows sit at row block t, column block 0; the weight
    and the bias row are one block each. -/
theorem idx_facts27 : ∀ t : Fin cfg27.N, win27_0.index t (0 : Fin 2) = t.val ∧ win27_0.index t (1 : Fin 2) = 0
    ∧ win27_1.index t (0 : Fin 2) = 0 ∧ win27_1.index t (1 : Fin 2) = 0
    ∧ win27_2.index t (0 : Fin 2) = 0 ∧ win27_2.index t (1 : Fin 2) = 0
    ∧ win27_3.index t (0 : Fin 2) = t.val ∧ win27_3.index t (1 : Fin 2) = 0 :=
  (by decide +kernel : ∀ t : Fin grid27.N, _)

/-- Row p of the input block at point t is row 4096·t + p of the input array. -/
theorem blk27_x (c : Dev nD) (t : Fin cfg27.N) (p : Fin 4096) (k : Fin 64) (r : Fin 32768) (hr : r.val = t.val * 4096 + p.val) :
    (iblk27 V c 0 t : Vec Ideal S4096x64 .f32) (ix2 p k) = (V c main_v423 : Cert.Hgcn.Mat 32768 64) (ix2 r k) := by
  obtain ⟨e0, e1, -⟩ := idx_facts27 t
  unfold iblk27
  rw [View.read_apply]
  show V c main_v423 _ = V c main_v423 _
  congr 1
  funext a; apply Fin.ext
  match a with
  | ⟨0, _⟩ => show win27_0.index t (0 : Fin 2) * 4096 + 1 * p.val = r.val; omega
  | ⟨1, _⟩ => show win27_0.index t (1 : Fin 2) * 64 + 1 * k.val = k.val; omega

/-- The weight block at every point is the weight array. -/
theorem blk27_w (c : Dev nD) (t : Fin cfg27.N) (k : Fin 64) (q : Fin 32) :
    (iblk27 V c 1 t : Vec Ideal S64x32 .f32) (ix2 k q) = (V c main_arg16 : Cert.Hgcn.Mat 64 32) (ix2 k q) := by
  obtain ⟨-, -, e2, e3, -⟩ := idx_facts27 t
  unfold iblk27
  rw [View.read_apply]
  show V c main_arg16 _ = V c main_arg16 _
  congr 1
  funext a; apply Fin.ext
  match a with
  | ⟨0, _⟩ => show win27_1.index t (0 : Fin 2) * 64 + 1 * k.val = k.val; omega
  | ⟨1, _⟩ => show win27_1.index t (1 : Fin 2) * 32 + 1 * q.val = q.val; omega

/-- The bias block at every point is the bias row. -/
theorem blk27_b (c : Dev nD) (t : Fin cfg27.N) (q : Fin 32) :
    (iblk27 V c 2 t : Vec Ideal S1x32 .f32) (ix2 (0 : Fin 1) q) = (V c main_v426 : Cert.Hgcn.Mat 1 32) (ix2 (0 : Fin 1) q) := by
  obtain ⟨-, -, -, -, e4, e5, -⟩ := idx_facts27 t
  unfold iblk27
  rw [View.read_apply]
  show V c main_v426 _ = V c main_v426 _
  congr 1
  funext a; apply Fin.ext
  match a with
  | ⟨0, _⟩ => show win27_2.index t (0 : Fin 2) * 1 + 1 * 0 = 0; omega
  | ⟨1, _⟩ => show win27_2.index t (1 : Fin 2) * 32 + 1 * q.val = q.val; omega

/-- What point t writes back is block t of the affine map of the input arrays. -/
theorem flushed27_3_eq (c : Dev nD) (t : Fin cfg27.N) :
    (dat27 V c).flushed 3 t = ((cfg27.win 3).blk t).view.read (Elt Ideal)
      (Cert.Hgcn.lin (V c (Pipeline.arrRef spec27 0) : Cert.Hgcn.Mat 32768 64) (V c (Pipeline.arrRef spec27 1) : Cert.Hgcn.Mat 64 32) (V c (Pipeline.arrRef spec27 2) : Cert.Hgcn.Mat 1 32)) := by
  show (cfg27.win 3).cut (grid27.coords t) ((dat27 V c).after 3 t) = _
  rw [after27_3]
  unfold out27_3
  rw [View.canon_unit_zero hz27]
  simp only [View.ld_unit_zero (S := S4096x64) hz27, View.ld_unit_zero (S := S64x32) hz27, View.ld_unit_zero (S := S1x32) hz27]
  obtain ⟨e0, e1, e2, e3, e4, e5, e6, e7⟩ := idx_facts27 t
  have hN : cfg27.N = 8 := N_27
  have ht : t.val < cfg27.N := t.isLt
  refine funext fun (j : S4096x32.Idx) => ?_
  obtain ⟨p, q, rfl⟩ : ∃ (p : Fin 4096) (q : Fin 32), j = ix2 p q := ⟨j 0, j 1, eq_ix2 j⟩
  refine (pay27_apply _ _ _ p q).trans ?_
  have hr : t.val * 4096 + p.val < 32768 := by have := p.isLt; omega
  have hemb : ((cfg27.win 3).blk t).view.emb (ix2 p q) = ix2 (⟨t.val * 4096 + p.val, hr⟩ : Fin 32768) q := by
    funext a; apply Fin.ext
    match a with
    | ⟨0, _⟩ => show win27_3.index t (0 : Fin 2) * 4096 + 1 * p.val = t.val * 4096 + p.val; omega
    | ⟨1, _⟩ => show win27_3.index t (1 : Fin 2) * 32 + 1 * q.val = q.val; omega
  show _ = Cert.Hgcn.lin (V c (Pipeline.arrRef spec27 0) : Cert.Hgcn.Mat 32768 64) (V c (Pipeline.arrRef spec27 1) : Cert.Hgcn.Mat 64 32) (V c (Pipeline.arrRef spec27 2) : Cert.Hgcn.Mat 1 32) (((cfg27.win 3).blk t).view.emb (ix2 p q))
  rw [hemb, Cert.Hgcn.lin_apply]
  refine congrArg₂ (· + ·) (Finset.sum_congr rfl fun k _ => ?_) (blk27_b V c t q)
  exact congrArg₂ (· * ·) (blk27_x V c t p k ⟨t.val * 4096 + p.val, hr⟩ rfl) (blk27_w V c t k q)

/-- An index of the output array is in point t's block iff each coordinate is in the block's range on its axis. -/
theorem mem_blk27_3 (t : Fin cfg27.N) (i : S32768x32.Idx) :
    i ∈ ((cfg27.win 3).blk t).view.set ↔ ∀ a : Fin 2, win27_3.index t a * S4096x32.size a ≤ (i a).val ∧ (i a).val < win27_3.index t a * S4096x32.size a + S4096x32.size a := by
  show i ∈ ((View.whole main_v427).slice (win27_3.rect t)).set ↔ _
  rw [View.set_slice_whole, Rect.mem_set_unit]
  exact Iff.rfl

/-- Every index is covered: row r lies in the block of point r / 4096. -/
theorem cover27_3 (i : S32768x32.Idx) : ∃ t : Fin cfg27.N, (cfg27.win 3).flush t = true ∧ i ∈ ((cfg27.win 3).blk t).view.set := by
  have hN : cfg27.N = 8 := N_27
  have hi0 : (i 0).val < 32768 := (i 0).isLt
  have hi1 : (i 1).val < 32 := (i 1).isLt
  let t : Fin cfg27.N := ⟨(i 0).val / 4096, lt_of_lt_of_eq (by omega : (i 0).val / 4096 < 8) hN.symm⟩
  obtain ⟨e0, e1, e2, e3, e4, e5, e6, e7⟩ := idx_facts27 t
  have ht : t.val = (i 0).val / 4096 := rfl
  refine ⟨t, flush27_3 t, ?_⟩
  rw [mem_blk27_3]
  intro a
  match a with
  | ⟨0, _⟩ => show win27_3.index t (0 : Fin 2) * 4096 ≤ (i 0).val ∧ (i 0).val < win27_3.index t (0 : Fin 2) * 4096 + 4096; omega
  | ⟨1, _⟩ => show win27_3.index t (1 : Fin 2) * 32 ≤ (i 1).val ∧ (i 1).val < win27_3.index t (1 : Fin 2) * 32 + 32; omega

/-- The output array after the run: the affine map of the input arrays as the region finds them. -/
theorem final27_3 (c : Dev nD) : (dat27 (F := Ideal) V c).arrAt 3 cfg27.N
    = Cert.Hgcn.lin (V c (Pipeline.arrRef spec27 0) : Cert.Hgcn.Mat 32768 64) (V c (Pipeline.arrRef spec27 1) : Cert.Hgcn.Mat 64 32) (V c (Pipeline.arrRef spec27 2) : Cert.Hgcn.Mat 1 32) :=
  (dat27 V c).arrAt_eq_of_cover 3 _ (fun t _ => flushed27_3_eq V c t) (cover27_3)

end Cert.KernelIdeal.HV

end
-- ==== Proof.KChain.lean ====
/-
  The kernel program's buffer contents at every boundary of its @main, as the named stages of the network: each
  region's output array is the layer function of the region's input arrays (read whole from its row blocks), each
  host stretch's results are the slices, statistics and graph shifts of what it reads, and a buffer that a segment
  does not write is carried across it unchanged.
-/
import proofs.«144873_j21182778704707_1_alg».proof.Proof.Gen.KernelIdeal.Frame
import proofs.«144873_j21182778704707_1_alg».proof.Proof.KKept
import proofs.«144873_j21182778704707_1_alg».proof.Proof.KHost0
import proofs.«144873_j21182778704707_1_alg».proof.Proof.KHostPar
import proofs.«144873_j21182778704707_1_alg».proof.Proof.KHostStat
import proofs.«144873_j21182778704707_1_alg».proof.Proof.KHostTapGen
import proofs.«144873_j21182778704707_1_alg».proof.Proof.KHostTapBusA
import proofs.«144873_j21182778704707_1_alg».proof.Proof.KHostTapBusB
import proofs.«144873_j21182778704707_1_alg».proof.Proof.KShift
import proofs.«144873_j21182778704707_1_alg».proof.Proof.SpecNet
import proofs.«144873_j21182778704707_1_alg».proof.Proof.KReg0
import proofs.«144873_j21182778704707_1_alg».proof.Proof.KReg1
import proofs.«144873_j21182778704707_1_alg».proof.Proof.KReg2
import proofs.«144873_j21182778704707_1_alg».proof.Proof.KReg3
import proofs.«144873_j21182778704707_1_alg».proof.Proof.KReg4
import proofs.«144873_j21182778704707_1_alg».proof.Proof.KReg5
import proofs.«144873_j21182778704707_1_alg».proof.Proof.KReg6
import proofs.«144873_j21182778704707_1_alg».proof.Proof.KReg7
import proofs.«144873_j21182778704707_1_alg».proof.Proof.KReg8
import proofs.«144873_j21182778704707_1_alg».proof.Proof.KReg9
import proofs.«144873_j21182778704707_1_alg».proof.Proof.KReg10
import proofs.«144873_j21182778704707_1_alg».proof.Proof.KReg11
import proofs.«144873_j21182778704707_1_alg».proof.Proof.KReg12
import proofs.«144873_j21182778704707_1_alg».proof.Proof.KReg13
import proofs.«144873_j21182778704707_1_alg».proof.Proof.KReg14
import proofs.«144873_j21182778704707_1_alg».proof.Proof.KReg15
import proofs.«144873_j21182778704707_1_alg».proof.Proof.KReg16
import proofs.«144873_j21182778704707_1_alg».proof.Proof.KReg17
import proofs.«144873_j21182778704707_1_alg».proof.Proof.KReg18
import proofs.«144873_j21182778704707_1_alg».proof.Proof.KReg19
import proofs.«144873_j21182778704707_1_alg».proof.Proof.KReg20
import proofs.«144873_j21182778704707_1_alg».proof.Proof.KReg21
import proofs.«144873_j21182778704707_1_alg».proof.Proof.KReg22
import proofs.«144873_j21182778704707_1_alg».proof.Proof.KReg23
import proofs.«144873_j21182778704707_1_alg».proof.Proof.KReg24
import proofs.«144873_j21182778704707_1_alg».proof.Proof.KReg25
import proofs.«144873_j21182778704707_1_alg».proof.Proof.KReg26
import proofs.«144873_j21182778704707_1_alg».proof.Proof.KReg27

set_option maxRecDepth 16384

noncomputable section

namespace Cert.KernelIdeal.HV

open Cert.KernelIdeal Cert.KernelIdeal.Gen Cert.Hgcn
open Idealize.ShloMosaic Idealize.ShloMosaic.TcCoe Idealize.SL.Sem

variable (m : (ℓ : Loc nD τ sig) → Buf (Elt Ideal) ℓ) (ρ : Dev nD → PrngReg) (c : Dev nD)

/-- The argument arrays as launched. -/
def argsK : Args :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12),
   m ((c.tc : Thread nD τ).loc main_arg13),
   m ((c.tc : Thread nD τ).loc main_arg14),
   m ((c.tc : Thread nD τ).loc main_arg15),
   m ((c.tc : Thread nD τ).loc main_arg16),
   m ((c.tc : Thread nD τ).loc main_arg17),
   m ((c.tc : Thread nD τ).loc main_arg18),
   m ((c.tc : Thread nD τ).loc main_arg19),
   m ((c.tc : Thread nD τ).loc main_arg20),
   m ((c.tc : Thread nD τ).loc main_arg21),
   m ((c.tc : Thread nD τ).loc main_arg22)⟩

/-- Walk a read back across the segments that do not write the buffer, then name it by the stages already read. -/
macro "kw" "[" ts:Lean.Parser.Tactic.simpLemma,+ "]" : tactic =>
  `(tactic| simp (disch := decide) only [reg0_kept, reg1_kept, reg2_kept, reg3_kept, reg4_kept, reg5_kept, reg6_kept, reg7_kept, reg8_kept, reg9_kept, reg10_kept, reg11_kept, reg12_kept, reg13_kept, reg14_kept, reg15_kept, reg16_kept, reg17_kept, reg18_kept, reg19_kept, reg20_kept, reg21_kept, reg22_kept, reg23_kept, reg24_kept, reg25_kept, reg26_kept, reg27_kept, host0_kept, host1_kept, host2_kept, host2_1_kept, host2_2_kept, host2_3_kept, host2_4_kept, host3_kept, host4_kept, host5_kept, host6_kept, host7_kept, host8_kept, host9_kept, host10_kept, host11_kept, host14_kept, host14_1_kept, host14_2_kept, host14_3_kept, host14_4_kept, host15_kept, host16_kept, host17_kept, host18_kept, host19_kept, host20_kept, host21_kept, host22_kept, host23_kept, host26_kept, host27_kept, $ts,*])
macro "kw0" : tactic =>
  `(tactic| simp (disch := decide) only [reg0_kept, reg1_kept, reg2_kept, reg3_kept, reg4_kept, reg5_kept, reg6_kept, reg7_kept, reg8_kept, reg9_kept, reg10_kept, reg11_kept, reg12_kept, reg13_kept, reg14_kept, reg15_kept, reg16_kept, reg17_kept, reg18_kept, reg19_kept, reg20_kept, reg21_kept, reg22_kept, reg23_kept, reg24_kept, reg25_kept, reg26_kept, reg27_kept, host0_kept, host1_kept, host2_kept, host2_1_kept, host2_2_kept, host2_3_kept, host2_4_kept, host3_kept, host4_kept, host5_kept, host6_kept, host7_kept, host8_kept, host9_kept, host10_kept, host11_kept, host14_kept, host14_1_kept, host14_2_kept, host14_3_kept, host14_4_kept, host15_kept, host16_kept, host17_kept, host18_kept, host19_kept, host20_kept, host21_kept, host22_kept, host23_kept, host26_kept, host27_kept])

theorem k1_main_v1 : W1 m ρ c (Proc.devRef .tc main_v1) = edgeRow 0 (argsK m c).eBB (by decide) := by
  refine (host0_main_v1 (W0 m ρ c)).trans ?_
  rfl

theorem k1_main_v3 : W1 m ρ c (Proc.devRef .tc main_v3) = edgeRow 1 (argsK m c).eBB (by decide) := by
  refine (host0_main_v3 (W0 m ρ c)).trans ?_
  rfl

theorem k1_main_v4 : W1 m ρ c (Proc.devRef .tc main_v4) = rowOf (argsK m c).binB (by decide) := by
  refine (host0_main_v4 (W0 m ρ c)).trans ?_
  rfl

theorem k2_main_v5 : W2 m ρ c (Proc.devRef .tc main_v5) = (xb0 (argsK m c)) := by
  refine (W2_arr m ρ c 3).trans ((final0_3 (V1 m ρ) c).trans ?_)
  show lin (W1 m ρ c (Proc.devRef .tc main_arg0)) (W1 m ρ c (Proc.devRef .tc main_arg2)) (W1 m ρ c (Proc.devRef .tc main_v4)) = _
  kw [k1_main_v4 m ρ c] <;> rfl

theorem k3_main_v6 : W3 m ρ c (Proc.devRef .tc main_v6) = rowOf (argsK m c).binG (by decide) := by
  refine (host1_main_v6 (W2 m ρ c)).trans ?_
  kw0 <;> rfl

theorem k4_main_v7 : W4 m ρ c (Proc.devRef .tc main_v7) = (xg0 (argsK m c)) := by
  refine (W4_arr m ρ c 3).trans ((final1_3 (V3 m ρ) c).trans ?_)
  show lin (W3 m ρ c (Proc.devRef .tc main_arg1)) (W3 m ρ c (Proc.devRef .tc main_arg4)) (W3 m ρ c (Proc.devRef .tc main_v6)) = _
  kw [k3_main_v6 m ρ c] <;> rfl

theorem k5_main_v11 : W5 m ρ c (Proc.devRef .tc main_v11) = meanRow hrB h0 0x48000000#32 (xb0 (argsK m c)) := by
  refine (host2_main_v11 (W4 m ρ c)).trans ?_
  kw [k2_main_v5 m ρ c] <;> rfl

theorem k5_main_c : W5 m ρ c (Proc.devRef .tc main_c) = (constantI S_ 32 0#32 : IVec S_ 32) := host2_main_c (W4 m ρ c)

theorem k6_main_v12 : W6 m ρ c (Proc.devRef .tc main_v12) = varRow hrB h0 0x48000000#32 (xb0 (argsK m c)) := by
  refine (host2_1_main_v12 (W5 m ρ c) (host2_main_c (W4 m ρ c))).trans ?_
  kw [k2_main_v5 m ρ c] <;> rfl

theorem k7_main_v16 : W7 m ρ c (Proc.devRef .tc main_v16) = meanRow hrG h0 0x47000000#32 (xg0 (argsK m c)) := by
  refine (host2_2_main_v16 (W6 m ρ c)).trans ?_
  kw [k4_main_v7 m ρ c] <;> rfl

theorem k7_main_c_3 : W7 m ρ c (Proc.devRef .tc main_c_3) = (constantI S_ 32 0#32 : IVec S_ 32) := host2_2_main_c_3 (W6 m ρ c)

theorem k8_main_v17 : W8 m ρ c (Proc.devRef .tc main_v17) = varRow hrG h0 0x47000000#32 (xg0 (argsK m c)) := by
  refine (host2_3_main_v17 (W7 m ρ c) (host2_2_main_c_3 (W6 m ρ c))).trans ?_
  kw [k4_main_v7 m ρ c] <;> rfl

theorem k9_main_v26 : W9 m ρ c (Proc.devRef .tc main_v26) = parRow 0 (argsK m c).gamB (by decide) := by
  refine (host2_4_main_v26 (W8 m ρ c)).trans ?_
  kw0 <;> rfl

theorem k9_main_v27 : W9 m ρ c (Proc.devRef .tc main_v27) = parRow 0 (argsK m c).betB (by decide) := by
  refine (host2_4_main_v27 (W8 m ρ c)).trans ?_
  kw0 <;> rfl

theorem k9_main_v23 : W9 m ρ c (Proc.devRef .tc main_v23) = (par0 (argsK m c) 0).wB := by
  refine (host2_4_main_v23 (W8 m ρ c)).trans ?_
  kw0 <;> rfl

theorem k9_main_v28 : W9 m ρ c (Proc.devRef .tc main_v28) = (par0 (argsK m c) 0).cB := by
  refine (host2_4_main_v28 (W8 m ρ c)).trans ?_
  kw0 <;> rfl

theorem k10_main_v29_0 : W10 m ρ c (Proc.devRef .tc main_v29_0) = (t0 shiftBus shiftGen (argsK m c) 0).cb := by
  refine (W10_arr m ρ c 7).trans ((final2_7 (V9 m ρ) c).trans ?_)
  show bnAct (W9 m ρ c (Proc.devRef .tc main_v5)) (W9 m ρ c (Proc.devRef .tc main_v26)) (W9 m ρ c (Proc.devRef .tc main_v27)) (W9 m ρ c (Proc.devRef .tc main_v11)) (W9 m ρ c (Proc.devRef .tc main_v12)) = _
  kw [k2_main_v5 m ρ c, k9_main_v26 m ρ c, k9_main_v27 m ρ c, k5_main_v11 m ρ c, k6_main_v12 m ρ c, k9_main_v23 m ρ c, k9_main_v28 m ρ c] <;> rfl

theorem k10_main_v29_1 : W10 m ρ c (Proc.devRef .tc main_v29_1) = (t0 shiftBus shiftGen (argsK m c) 0).zb := by
  refine (W10_arr m ρ c 8).trans ((final2_8 (V9 m ρ) c).trans ?_)
  show lin (bnAct (W9 m ρ c (Proc.devRef .tc main_v5)) (W9 m ρ c (Proc.devRef .tc main_v26)) (W9 m ρ c (Proc.devRef .tc main_v27)) (W9 m ρ c (Proc.devRef .tc main_v11)) (W9 m ρ c (Proc.devRef .tc main_v12))) (W9 m ρ c (Proc.devRef .tc main_v23)) (W9 m ρ c (Proc.devRef .tc main_v28)) = _
  kw [k2_main_v5 m ρ c, k9_main_v26 m ρ c, k9_main_v27 m ρ c, k5_main_v11 m ρ c, k6_main_v12 m ρ c, k9_main_v23 m ρ c, k9_main_v28 m ρ c] <;> rfl

theorem k11_main_v38 : W11 m ρ c (Proc.devRef .tc main_v38) = parRow 0 (argsK m c).gamG (by decide) := by
  refine (host3_main_v38 (W10 m ρ c)).trans ?_
  kw0 <;> rfl

theorem k11_main_v39 : W11 m ρ c (Proc.devRef .tc main_v39) = parRow 0 (argsK m c).betG (by decide) := by
  refine (host3_main_v39 (W10 m ρ c)).trans ?_
  kw0 <;> rfl

theorem k11_main_v35 : W11 m ρ c (Proc.devRef .tc main_v35) = (par0 (argsK m c) 0).wG := by
  refine (host3_main_v35 (W10 m ρ c)).trans ?_
  kw0 <;> rfl

theorem k11_main_v40 : W11 m ρ c (Proc.devRef .tc main_v40) = (par0 (argsK m c) 0).cG := by
  refine (host3_main_v40 (W10 m ρ c)).trans ?_
  kw0 <;> rfl

theorem k12_main_v41_0 : W12 m ρ c (Proc.devRef .tc main_v41_0) = (t0 shiftBus shiftGen (argsK m c) 0).cg := by
  refine (W12_arr m ρ c 7).trans ((final3_7 (V11 m ρ) c).trans ?_)
  show bnAct (W11 m ρ c (Proc.devRef .tc main_v7)) (W11 m ρ c (Proc.devRef .tc main_v38)) (W11 m ρ c (Proc.devRef .tc main_v39)) (W11 m ρ c (Proc.devRef .tc main_v16)) (W11 m ρ c (Proc.devRef .tc main_v17)) = _
  kw [k4_main_v7 m ρ c, k11_main_v38 m ρ c, k11_main_v39 m ρ c, k7_main_v16 m ρ c, k8_main_v17 m ρ c, k11_main_v35 m ρ c, k11_main_v40 m ρ c] <;> rfl

theorem k12_main_v41_1 : W12 m ρ c (Proc.devRef .tc main_v41_1) = (t0 shiftBus shiftGen (argsK m c) 0).zg := by
  refine (W12_arr m ρ c 8).trans ((final3_8 (V11 m ρ) c).trans ?_)
  show lin (bnAct (W11 m ρ c (Proc.devRef .tc main_v7)) (W11 m ρ c (Proc.devRef .tc main_v38)) (W11 m ρ c (Proc.devRef .tc main_v39)) (W11 m ρ c (Proc.devRef .tc main_v16)) (W11 m ρ c (Proc.devRef .tc main_v17))) (W11 m ρ c (Proc.devRef .tc main_v35)) (W11 m ρ c (Proc.devRef .tc main_v40)) = _
  kw [k4_main_v7 m ρ c, k11_main_v38 m ρ c, k11_main_v39 m ρ c, k7_main_v16 m ρ c, k8_main_v17 m ρ c, k11_main_v35 m ρ c, k11_main_v40 m ρ c] <;> rfl

theorem k13_main_v62 : W13 m ρ c (Proc.devRef .tc main_v62) = (t0 shiftBus shiftGen (argsK m c) 1).cb := by
  refine (host4_main_v62 (W12 m ρ c)).trans ?_
  kw [k1_main_v1 m ρ c, k10_main_v29_0 m ρ c, k1_main_v3 m ρ c, k12_main_v41_0 m ρ c, k10_main_v29_1 m ρ c] <;> rfl

theorem k13_main_v72 : W13 m ρ c (Proc.devRef .tc main_v72) = (t0 shiftBus shiftGen (argsK m c) 1).cg := by
  refine (host4_main_v72 (W12 m ρ c)).trans ?_
  kw [k1_main_v1 m ρ c, k10_main_v29_0 m ρ c, k1_main_v3 m ρ c, k12_main_v41_0 m ρ c, k10_main_v29_1 m ρ c] <;> rfl

theorem k13_main_v74 : W13 m ρ c (Proc.devRef .tc main_v74) = (par0 (argsK m c) 1).wB := by
  refine (host4_main_v74 (W12 m ρ c)).trans ?_
  kw [k1_main_v1 m ρ c, k10_main_v29_0 m ρ c, k1_main_v3 m ρ c, k12_main_v41_0 m ρ c, k10_main_v29_1 m ρ c] <;> rfl

theorem k13_main_v77 : W13 m ρ c (Proc.devRef .tc main_v77) = (par0 (argsK m c) 1).cB := by
  refine (host4_main_v77 (W12 m ρ c)).trans ?_
  kw [k1_main_v1 m ρ c, k10_main_v29_0 m ρ c, k1_main_v3 m ρ c, k12_main_v41_0 m ρ c, k10_main_v29_1 m ρ c] <;> rfl

theorem k13_main_v78 : W13 m ρ c (Proc.devRef .tc main_v78) = (t0 shiftBus shiftGen (argsK m c) 0).zb := by
  refine (host4_main_v78 (W12 m ρ c)).trans ?_
  kw [k1_main_v1 m ρ c, k10_main_v29_0 m ρ c, k1_main_v3 m ρ c, k12_main_v41_0 m ρ c, k10_main_v29_1 m ρ c] <;> rfl

theorem k14_main_v78 : W14 m ρ c (Proc.devRef .tc main_v78) = (t0 shiftBus shiftGen (argsK m c) 1).zb := by
  refine (W14_arr m ρ c 4).trans ((final4_4 (V13 m ρ) c).trans ?_)
  show tapAcc (W13 m ρ c (Proc.devRef .tc main_v29_1)) (W13 m ρ c (Proc.devRef .tc main_v62)) (W13 m ρ c (Proc.devRef .tc main_v74)) (W13 m ρ c (Proc.devRef .tc main_v77)) = _
  kw [k13_main_v62 m ρ c, k13_main_v74 m ρ c, k13_main_v77 m ρ c, k10_main_v29_1 m ρ c] <;> rfl

theorem k15_main_v80 : W15 m ρ c (Proc.devRef .tc main_v80) = (par0 (argsK m c) 1).wG := by
  refine (host5_main_v80 (W14 m ρ c)).trans ?_
  kw [k12_main_v41_1 m ρ c] <;> rfl

theorem k15_main_v83 : W15 m ρ c (Proc.devRef .tc main_v83) = (par0 (argsK m c) 1).cG := by
  refine (host5_main_v83 (W14 m ρ c)).trans ?_
  kw [k12_main_v41_1 m ρ c] <;> rfl

theorem k15_main_v84 : W15 m ρ c (Proc.devRef .tc main_v84) = (t0 shiftBus shiftGen (argsK m c) 0).zg := by
  refine (host5_main_v84 (W14 m ρ c)).trans ?_
  kw [k12_main_v41_1 m ρ c] <;> rfl

theorem k16_main_v84 : W16 m ρ c (Proc.devRef .tc main_v84) = (t0 shiftBus shiftGen (argsK m c) 1).zg := by
  refine (W16_arr m ρ c 4).trans ((final5_4 (V15 m ρ) c).trans ?_)
  show tapAcc (W15 m ρ c (Proc.devRef .tc main_v41_1)) (W15 m ρ c (Proc.devRef .tc main_v72)) (W15 m ρ c (Proc.devRef .tc main_v80)) (W15 m ρ c (Proc.devRef .tc main_v83)) = _
  kw [k13_main_v72 m ρ c, k15_main_v80 m ρ c, k15_main_v83 m ρ c, k12_main_v41_1 m ρ c] <;> rfl

theorem k17_main_v105 : W17 m ρ c (Proc.devRef .tc main_v105) = (t0 shiftBus shiftGen (argsK m c) 2).cb := by
  refine (host6_main_v105 (W16 m ρ c)).trans ?_
  kw [k1_main_v1 m ρ c, k13_main_v62 m ρ c, k1_main_v3 m ρ c, k13_main_v72 m ρ c, k14_main_v78 m ρ c] <;> rfl

theorem k17_main_v115 : W17 m ρ c (Proc.devRef .tc main_v115) = (t0 shiftBus shiftGen (argsK m c) 2).cg := by
  refine (host6_main_v115 (W16 m ρ c)).trans ?_
  kw [k1_main_v1 m ρ c, k13_main_v62 m ρ c, k1_main_v3 m ρ c, k13_main_v72 m ρ c, k14_main_v78 m ρ c] <;> rfl

theorem k17_main_v117 : W17 m ρ c (Proc.devRef .tc main_v117) = (par0 (argsK m c) 2).wB := by
  refine (host6_main_v117 (W16 m ρ c)).trans ?_
  kw [k1_main_v1 m ρ c, k13_main_v62 m ρ c, k1_main_v3 m ρ c, k13_main_v72 m ρ c, k14_main_v78 m ρ c] <;> rfl

theorem k17_main_v120 : W17 m ρ c (Proc.devRef .tc main_v120) = (par0 (argsK m c) 2).cB := by
  refine (host6_main_v120 (W16 m ρ c)).trans ?_
  kw [k1_main_v1 m ρ c, k13_main_v62 m ρ c, k1_main_v3 m ρ c, k13_main_v72 m ρ c, k14_main_v78 m ρ c] <;> rfl

theorem k17_main_v121 : W17 m ρ c (Proc.devRef .tc main_v121) = (t0 shiftBus shiftGen (argsK m c) 1).zb := by
  refine (host6_main_v121 (W16 m ρ c)).trans ?_
  kw [k1_main_v1 m ρ c, k13_main_v62 m ρ c, k1_main_v3 m ρ c, k13_main_v72 m ρ c, k14_main_v78 m ρ c] <;> rfl

theorem k18_main_v121 : W18 m ρ c (Proc.devRef .tc main_v121) = (t0 shiftBus shiftGen (argsK m c) 2).zb := by
  refine (W18_arr m ρ c 4).trans ((final6_4 (V17 m ρ) c).trans ?_)
  show tapAcc (W17 m ρ c (Proc.devRef .tc main_v78)) (W17 m ρ c (Proc.devRef .tc main_v105)) (W17 m ρ c (Proc.devRef .tc main_v117)) (W17 m ρ c (Proc.devRef .tc main_v120)) = _
  kw [k17_main_v105 m ρ c, k17_main_v117 m ρ c, k17_main_v120 m ρ c, k14_main_v78 m ρ c] <;> rfl

theorem k19_main_v123 : W19 m ρ c (Proc.devRef .tc main_v123) = (par0 (argsK m c) 2).wG := by
  refine (host7_main_v123 (W18 m ρ c)).trans ?_
  kw [k16_main_v84 m ρ c] <;> rfl

theorem k19_main_v126 : W19 m ρ c (Proc.devRef .tc main_v126) = (par0 (argsK m c) 2).cG := by
  refine (host7_main_v126 (W18 m ρ c)).trans ?_
  kw [k16_main_v84 m ρ c] <;> rfl

theorem k19_main_v127 : W19 m ρ c (Proc.devRef .tc main_v127) = (t0 shiftBus shiftGen (argsK m c) 1).zg := by
  refine (host7_main_v127 (W18 m ρ c)).trans ?_
  kw [k16_main_v84 m ρ c] <;> rfl

theorem k20_main_v127 : W20 m ρ c (Proc.devRef .tc main_v127) = (t0 shiftBus shiftGen (argsK m c) 2).zg := by
  refine (W20_arr m ρ c 4).trans ((final7_4 (V19 m ρ) c).trans ?_)
  show tapAcc (W19 m ρ c (Proc.devRef .tc main_v84)) (W19 m ρ c (Proc.devRef .tc main_v115)) (W19 m ρ c (Proc.devRef .tc main_v123)) (W19 m ρ c (Proc.devRef .tc main_v126)) = _
  kw [k17_main_v115 m ρ c, k19_main_v123 m ρ c, k19_main_v126 m ρ c, k16_main_v84 m ρ c] <;> rfl

theorem k21_main_v148 : W21 m ρ c (Proc.devRef .tc main_v148) = (t0 shiftBus shiftGen (argsK m c) 3).cb := by
  refine (host8_main_v148 (W20 m ρ c)).trans ?_
  kw [k1_main_v1 m ρ c, k17_main_v105 m ρ c, k1_main_v3 m ρ c, k17_main_v115 m ρ c, k18_main_v121 m ρ c] <;> rfl

theorem k21_main_v158 : W21 m ρ c (Proc.devRef .tc main_v158) = (t0 shiftBus shiftGen (argsK m c) 3).cg := by
  refine (host8_main_v158 (W20 m ρ c)).trans ?_
  kw [k1_main_v1 m ρ c, k17_main_v105 m ρ c, k1_main_v3 m ρ c, k17_main_v115 m ρ c, k18_main_v121 m ρ c] <;> rfl

theorem k21_main_v160 : W21 m ρ c (Proc.devRef .tc main_v160) = (par0 (argsK m c) 3).wB := by
  refine (host8_main_v160 (W20 m ρ c)).trans ?_
  kw [k1_main_v1 m ρ c, k17_main_v105 m ρ c, k1_main_v3 m ρ c, k17_main_v115 m ρ c, k18_main_v121 m ρ c] <;> rfl

theorem k21_main_v163 : W21 m ρ c (Proc.devRef .tc main_v163) = (par0 (argsK m c) 3).cB := by
  refine (host8_main_v163 (W20 m ρ c)).trans ?_
  kw [k1_main_v1 m ρ c, k17_main_v105 m ρ c, k1_main_v3 m ρ c, k17_main_v115 m ρ c, k18_main_v121 m ρ c] <;> rfl

theorem k21_main_v164 : W21 m ρ c (Proc.devRef .tc main_v164) = (t0 shiftBus shiftGen (argsK m c) 2).zb := by
  refine (host8_main_v164 (W20 m ρ c)).trans ?_
  kw [k1_main_v1 m ρ c, k17_main_v105 m ρ c, k1_main_v3 m ρ c, k17_main_v115 m ρ c, k18_main_v121 m ρ c] <;> rfl

theorem k22_main_v164 : W22 m ρ c (Proc.devRef .tc main_v164) = (t0 shiftBus shiftGen (argsK m c) 3).zb := by
  refine (W22_arr m ρ c 4).trans ((final8_4 (V21 m ρ) c).trans ?_)
  show tapAcc (W21 m ρ c (Proc.devRef .tc main_v121)) (W21 m ρ c (Proc.devRef .tc main_v148)) (W21 m ρ c (Proc.devRef .tc main_v160)) (W21 m ρ c (Proc.devRef .tc main_v163)) = _
  kw [k21_main_v148 m ρ c, k21_main_v160 m ρ c, k21_main_v163 m ρ c, k18_main_v121 m ρ c] <;> rfl

theorem k23_main_v166 : W23 m ρ c (Proc.devRef .tc main_v166) = (par0 (argsK m c) 3).wG := by
  refine (host9_main_v166 (W22 m ρ c)).trans ?_
  kw [k20_main_v127 m ρ c] <;> rfl

theorem k23_main_v169 : W23 m ρ c (Proc.devRef .tc main_v169) = (par0 (argsK m c) 3).cG := by
  refine (host9_main_v169 (W22 m ρ c)).trans ?_
  kw [k20_main_v127 m ρ c] <;> rfl

theorem k23_main_v170 : W23 m ρ c (Proc.devRef .tc main_v170) = (t0 shiftBus shiftGen (argsK m c) 2).zg := by
  refine (host9_main_v170 (W22 m ρ c)).trans ?_
  kw [k20_main_v127 m ρ c] <;> rfl

theorem k24_main_v170 : W24 m ρ c (Proc.devRef .tc main_v170) = (t0 shiftBus shiftGen (argsK m c) 3).zg := by
  refine (W24_arr m ρ c 4).trans ((final9_4 (V23 m ρ) c).trans ?_)
  show tapAcc (W23 m ρ c (Proc.devRef .tc main_v127)) (W23 m ρ c (Proc.devRef .tc main_v158)) (W23 m ρ c (Proc.devRef .tc main_v166)) (W23 m ρ c (Proc.devRef .tc main_v169)) = _
  kw [k21_main_v158 m ρ c, k23_main_v166 m ρ c, k23_main_v169 m ρ c, k20_main_v127 m ρ c] <;> rfl

theorem k25_main_v191 : W25 m ρ c (Proc.devRef .tc main_v191) = (t0 shiftBus shiftGen (argsK m c) 4).cb := by
  refine (host10_main_v191 (W24 m ρ c)).trans ?_
  kw [k1_main_v1 m ρ c, k21_main_v148 m ρ c, k1_main_v3 m ρ c, k21_main_v158 m ρ c, k22_main_v164 m ρ c] <;> rfl

theorem k25_main_v201 : W25 m ρ c (Proc.devRef .tc main_v201) = (t0 shiftBus shiftGen (argsK m c) 4).cg := by
  refine (host10_main_v201 (W24 m ρ c)).trans ?_
  kw [k1_main_v1 m ρ c, k21_main_v148 m ρ c, k1_main_v3 m ρ c, k21_main_v158 m ρ c, k22_main_v164 m ρ c] <;> rfl

theorem k25_main_v203 : W25 m ρ c (Proc.devRef .tc main_v203) = (par0 (argsK m c) 4).wB := by
  refine (host10_main_v203 (W24 m ρ c)).trans ?_
  kw [k1_main_v1 m ρ c, k21_main_v148 m ρ c, k1_main_v3 m ρ c, k21_main_v158 m ρ c, k22_main_v164 m ρ c] <;> rfl

theorem k25_main_v206 : W25 m ρ c (Proc.devRef .tc main_v206) = (par0 (argsK m c) 4).cB := by
  refine (host10_main_v206 (W24 m ρ c)).trans ?_
  kw [k1_main_v1 m ρ c, k21_main_v148 m ρ c, k1_main_v3 m ρ c, k21_main_v158 m ρ c, k22_main_v164 m ρ c] <;> rfl

theorem k25_main_v207 : W25 m ρ c (Proc.devRef .tc main_v207) = (t0 shiftBus shiftGen (argsK m c) 3).zb := by
  refine (host10_main_v207 (W24 m ρ c)).trans ?_
  kw [k1_main_v1 m ρ c, k21_main_v148 m ρ c, k1_main_v3 m ρ c, k21_main_v158 m ρ c, k22_main_v164 m ρ c] <;> rfl

theorem k26_main_v207 : W26 m ρ c (Proc.devRef .tc main_v207) = (t0 shiftBus shiftGen (argsK m c) 4).zb := by
  refine (W26_arr m ρ c 4).trans ((final10_4 (V25 m ρ) c).trans ?_)
  show tapAcc (W25 m ρ c (Proc.devRef .tc main_v164)) (W25 m ρ c (Proc.devRef .tc main_v191)) (W25 m ρ c (Proc.devRef .tc main_v203)) (W25 m ρ c (Proc.devRef .tc main_v206)) = _
  kw [k25_main_v191 m ρ c, k25_main_v203 m ρ c, k25_main_v206 m ρ c, k22_main_v164 m ρ c] <;> rfl

theorem k27_main_v209 : W27 m ρ c (Proc.devRef .tc main_v209) = (par0 (argsK m c) 4).wG := by
  refine (host11_main_v209 (W26 m ρ c)).trans ?_
  kw [k24_main_v170 m ρ c] <;> rfl

theorem k27_main_v212 : W27 m ρ c (Proc.devRef .tc main_v212) = (par0 (argsK m c) 4).cG := by
  refine (host11_main_v212 (W26 m ρ c)).trans ?_
  kw [k24_main_v170 m ρ c] <;> rfl

theorem k27_main_v213 : W27 m ρ c (Proc.devRef .tc main_v213) = (t0 shiftBus shiftGen (argsK m c) 3).zg := by
  refine (host11_main_v213 (W26 m ρ c)).trans ?_
  kw [k24_main_v170 m ρ c] <;> rfl

theorem k28_main_v213 : W28 m ρ c (Proc.devRef .tc main_v213) = (t0 shiftBus shiftGen (argsK m c) 4).zg := by
  refine (W28_arr m ρ c 4).trans ((final11_4 (V27 m ρ) c).trans ?_)
  show tapAcc (W27 m ρ c (Proc.devRef .tc main_v170)) (W27 m ρ c (Proc.devRef .tc main_v201)) (W27 m ρ c (Proc.devRef .tc main_v209)) (W27 m ρ c (Proc.devRef .tc main_v212)) = _
  kw [k25_main_v201 m ρ c, k27_main_v209 m ρ c, k27_main_v212 m ρ c, k24_main_v170 m ρ c] <;> rfl

theorem k29_main_v214 : W29 m ρ c (Proc.devRef .tc main_v214) = (xb1 shiftBus shiftGen (argsK m c)) := by
  refine (W29_arr m ρ c 2).trans ((final12_2 (V28 m ρ) c).trans ?_)
  show (addf (W28 m ρ c (Proc.devRef .tc main_v5) : Mat 131072 64) (W28 m ρ c (Proc.devRef .tc main_v207)) : Mat 131072 64) = _
  kw [k2_main_v5 m ρ c, k26_main_v207 m ρ c] <;> rfl

theorem k30_main_v215 : W30 m ρ c (Proc.devRef .tc main_v215) = (xg1 shiftBus shiftGen (argsK m c)) := by
  refine (W30_arr m ρ c 2).trans ((final13_2 (V29 m ρ) c).trans ?_)
  show (addf (W29 m ρ c (Proc.devRef .tc main_v7) : Mat 32768 64) (W29 m ρ c (Proc.devRef .tc main_v213)) : Mat 32768 64) = _
  kw [k4_main_v7 m ρ c, k28_main_v213 m ρ c] <;> rfl

theorem k31_main_v219 : W31 m ρ c (Proc.devRef .tc main_v219) = meanRow hrB h0 0x48000000#32 (xb1 shiftBus shiftGen (argsK m c)) := by
  refine (host14_main_v219 (W30 m ρ c)).trans ?_
  kw [k29_main_v214 m ρ c] <;> rfl

theorem k31_main_c_42 : W31 m ρ c (Proc.devRef .tc main_c_42) = (constantI S_ 32 0#32 : IVec S_ 32) := host14_main_c_42 (W30 m ρ c)

theorem k32_main_v220 : W32 m ρ c (Proc.devRef .tc main_v220) = varRow hrB h0 0x48000000#32 (xb1 shiftBus shiftGen (argsK m c)) := by
  refine (host14_1_main_v220 (W31 m ρ c) (host14_main_c_42 (W30 m ρ c))).trans ?_
  kw [k29_main_v214 m ρ c] <;> rfl

theorem k33_main_v224 : W33 m ρ c (Proc.devRef .tc main_v224) = meanRow hrG h0 0x47000000#32 (xg1 shiftBus shiftGen (argsK m c)) := by
  refine (host14_2_main_v224 (W32 m ρ c)).trans ?_
  kw [k30_main_v215 m ρ c] <;> rfl

theorem k33_main_c_45 : W33 m ρ c (Proc.devRef .tc main_c_45) = (constantI S_ 32 0#32 : IVec S_ 32) := host14_2_main_c_45 (W32 m ρ c)

theorem k34_main_v225 : W34 m ρ c (Proc.devRef .tc main_v225) = varRow hrG h0 0x47000000#32 (xg1 shiftBus shiftGen (argsK m c)) := by
  refine (host14_3_main_v225 (W33 m ρ c) (host14_2_main_c_45 (W32 m ρ c))).trans ?_
  kw [k30_main_v215 m ρ c] <;> rfl

theorem k35_main_v234 : W35 m ρ c (Proc.devRef .tc main_v234) = parRow 1 (argsK m c).gamB (by decide) := by
  refine (host14_4_main_v234 (W34 m ρ c)).trans ?_
  kw0 <;> rfl

theorem k35_main_v235 : W35 m ρ c (Proc.devRef .tc main_v235) = parRow 1 (argsK m c).betB (by decide) := by
  refine (host14_4_main_v235 (W34 m ρ c)).trans ?_
  kw0 <;> rfl

theorem k35_main_v231 : W35 m ρ c (Proc.devRef .tc main_v231) = (par1 (argsK m c) 0).wB := by
  refine (host14_4_main_v231 (W34 m ρ c)).trans ?_
  kw0 <;> rfl

theorem k35_main_v236 : W35 m ρ c (Proc.devRef .tc main_v236) = (par1 (argsK m c) 0).cB := by
  refine (host14_4_main_v236 (W34 m ρ c)).trans ?_
  kw0 <;> rfl

theorem k36_main_v237_0 : W36 m ρ c (Proc.devRef .tc main_v237_0) = (t1 shiftBus shiftGen (argsK m c) 0).cb := by
  refine (W36_arr m ρ c 7).trans ((final14_7 (V35 m ρ) c).trans ?_)
  show bnAct (W35 m ρ c (Proc.devRef .tc main_v214)) (W35 m ρ c (Proc.devRef .tc main_v234)) (W35 m ρ c (Proc.devRef .tc main_v235)) (W35 m ρ c (Proc.devRef .tc main_v219)) (W35 m ρ c (Proc.devRef .tc main_v220)) = _
  kw [k29_main_v214 m ρ c, k35_main_v234 m ρ c, k35_main_v235 m ρ c, k31_main_v219 m ρ c, k32_main_v220 m ρ c, k35_main_v231 m ρ c, k35_main_v236 m ρ c] <;> rfl

theorem k36_main_v237_1 : W36 m ρ c (Proc.devRef .tc main_v237_1) = (t1 shiftBus shiftGen (argsK m c) 0).zb := by
  refine (W36_arr m ρ c 8).trans ((final14_8 (V35 m ρ) c).trans ?_)
  show lin (bnAct (W35 m ρ c (Proc.devRef .tc main_v214)) (W35 m ρ c (Proc.devRef .tc main_v234)) (W35 m ρ c (Proc.devRef .tc main_v235)) (W35 m ρ c (Proc.devRef .tc main_v219)) (W35 m ρ c (Proc.devRef .tc main_v220))) (W35 m ρ c (Proc.devRef .tc main_v231)) (W35 m ρ c (Proc.devRef .tc main_v236)) = _
  kw [k29_main_v214 m ρ c, k35_main_v234 m ρ c, k35_main_v235 m ρ c, k31_main_v219 m ρ c, k32_main_v220 m ρ c, k35_main_v231 m ρ c, k35_main_v236 m ρ c] <;> rfl

theorem k37_main_v246 : W37 m ρ c (Proc.devRef .tc main_v246) = parRow 1 (argsK m c).gamG (by decide) := by
  refine (host15_main_v246 (W36 m ρ c)).trans ?_
  kw0 <;> rfl

theorem k37_main_v247 : W37 m ρ c (Proc.devRef .tc main_v247) = parRow 1 (argsK m c).betG (by decide) := by
  refine (host15_main_v247 (W36 m ρ c)).trans ?_
  kw0 <;> rfl

theorem k37_main_v243 : W37 m ρ c (Proc.devRef .tc main_v243) = (par1 (argsK m c) 0).wG := by
  refine (host15_main_v243 (W36 m ρ c)).trans ?_
  kw0 <;> rfl

theorem k37_main_v248 : W37 m ρ c (Proc.devRef .tc main_v248) = (par1 (argsK m c) 0).cG := by
  refine (host15_main_v248 (W36 m ρ c)).trans ?_
  kw0 <;> rfl

theorem k38_main_v249_0 : W38 m ρ c (Proc.devRef .tc main_v249_0) = (t1 shiftBus shiftGen (argsK m c) 0).cg := by
  refine (W38_arr m ρ c 7).trans ((final15_7 (V37 m ρ) c).trans ?_)
  show bnAct (W37 m ρ c (Proc.devRef .tc main_v215)) (W37 m ρ c (Proc.devRef .tc main_v246)) (W37 m ρ c (Proc.devRef .tc main_v247)) (W37 m ρ c (Proc.devRef .tc main_v224)) (W37 m ρ c (Proc.devRef .tc main_v225)) = _
  kw [k30_main_v215 m ρ c, k37_main_v246 m ρ c, k37_main_v247 m ρ c, k33_main_v224 m ρ c, k34_main_v225 m ρ c, k37_main_v243 m ρ c, k37_main_v248 m ρ c] <;> rfl

theorem k38_main_v249_1 : W38 m ρ c (Proc.devRef .tc main_v249_1) = (t1 shiftBus shiftGen (argsK m c) 0).zg := by
  refine (W38_arr m ρ c 8).trans ((final15_8 (V37 m ρ) c).trans ?_)
  show lin (bnAct (W37 m ρ c (Proc.devRef .tc main_v215)) (W37 m ρ c (Proc.devRef .tc main_v246)) (W37 m ρ c (Proc.devRef .tc main_v247)) (W37 m ρ c (Proc.devRef .tc main_v224)) (W37 m ρ c (Proc.devRef .tc main_v225))) (W37 m ρ c (Proc.devRef .tc main_v243)) (W37 m ρ c (Proc.devRef .tc main_v248)) = _
  kw [k30_main_v215 m ρ c, k37_main_v246 m ρ c, k37_main_v247 m ρ c, k33_main_v224 m ρ c, k34_main_v225 m ρ c, k37_main_v243 m ρ c, k37_main_v248 m ρ c] <;> rfl

theorem k39_main_v270 : W39 m ρ c (Proc.devRef .tc main_v270) = (t1 shiftBus shiftGen (argsK m c) 1).cb := by
  refine (host16_main_v270 (W38 m ρ c)).trans ?_
  kw [k1_main_v1 m ρ c, k36_main_v237_0 m ρ c, k1_main_v3 m ρ c, k38_main_v249_0 m ρ c, k36_main_v237_1 m ρ c] <;> rfl

theorem k39_main_v280 : W39 m ρ c (Proc.devRef .tc main_v280) = (t1 shiftBus shiftGen (argsK m c) 1).cg := by
  refine (host16_main_v280 (W38 m ρ c)).trans ?_
  kw [k1_main_v1 m ρ c, k36_main_v237_0 m ρ c, k1_main_v3 m ρ c, k38_main_v249_0 m ρ c, k36_main_v237_1 m ρ c] <;> rfl

theorem k39_main_v282 : W39 m ρ c (Proc.devRef .tc main_v282) = (par1 (argsK m c) 1).wB := by
  refine (host16_main_v282 (W38 m ρ c)).trans ?_
  kw [k1_main_v1 m ρ c, k36_main_v237_0 m ρ c, k1_main_v3 m ρ c, k38_main_v249_0 m ρ c, k36_main_v237_1 m ρ c] <;> rfl

theorem k39_main_v285 : W39 m ρ c (Proc.devRef .tc main_v285) = (par1 (argsK m c) 1).cB := by
  refine (host16_main_v285 (W38 m ρ c)).trans ?_
  kw [k1_main_v1 m ρ c, k36_main_v237_0 m ρ c, k1_main_v3 m ρ c, k38_main_v249_0 m ρ c, k36_main_v237_1 m ρ c] <;> rfl

theorem k39_main_v286 : W39 m ρ c (Proc.devRef .tc main_v286) = (t1 shiftBus shiftGen (argsK m c) 0).zb := by
  refine (host16_main_v286 (W38 m ρ c)).trans ?_
  kw [k1_main_v1 m ρ c, k36_main_v237_0 m ρ c, k1_main_v3 m ρ c, k38_main_v249_0 m ρ c, k36_main_v237_1 m ρ c] <;> rfl

theorem k40_main_v286 : W40 m ρ c (Proc.devRef .tc main_v286) = (t1 shiftBus shiftGen (argsK m c) 1).zb := by
  refine (W40_arr m ρ c 4).trans ((final16_4 (V39 m ρ) c).trans ?_)
  show tapAcc (W39 m ρ c (Proc.devRef .tc main_v237_1)) (W39 m ρ c (Proc.devRef .tc main_v270)) (W39 m ρ c (Proc.devRef .tc main_v282)) (W39 m ρ c (Proc.devRef .tc main_v285)) = _
  kw [k39_main_v270 m ρ c, k39_main_v282 m ρ c, k39_main_v285 m ρ c, k36_main_v237_1 m ρ c] <;> rfl

theorem k41_main_v288 : W41 m ρ c (Proc.devRef .tc main_v288) = (par1 (argsK m c) 1).wG := by
  refine (host17_main_v288 (W40 m ρ c)).trans ?_
  kw [k38_main_v249_1 m ρ c] <;> rfl

theorem k41_main_v291 : W41 m ρ c (Proc.devRef .tc main_v291) = (par1 (argsK m c) 1).cG := by
  refine (host17_main_v291 (W40 m ρ c)).trans ?_
  kw [k38_main_v249_1 m ρ c] <;> rfl

theorem k41_main_v292 : W41 m ρ c (Proc.devRef .tc main_v292) = (t1 shiftBus shiftGen (argsK m c) 0).zg := by
  refine (host17_main_v292 (W40 m ρ c)).trans ?_
  kw [k38_main_v249_1 m ρ c] <;> rfl

theorem k42_main_v292 : W42 m ρ c (Proc.devRef .tc main_v292) = (t1 shiftBus shiftGen (argsK m c) 1).zg := by
  refine (W42_arr m ρ c 4).trans ((final17_4 (V41 m ρ) c).trans ?_)
  show tapAcc (W41 m ρ c (Proc.devRef .tc main_v249_1)) (W41 m ρ c (Proc.devRef .tc main_v280)) (W41 m ρ c (Proc.devRef .tc main_v288)) (W41 m ρ c (Proc.devRef .tc main_v291)) = _
  kw [k39_main_v280 m ρ c, k41_main_v288 m ρ c, k41_main_v291 m ρ c, k38_main_v249_1 m ρ c] <;> rfl

theorem k43_main_v313 : W43 m ρ c (Proc.devRef .tc main_v313) = (t1 shiftBus shiftGen (argsK m c) 2).cb := by
  refine (host18_main_v313 (W42 m ρ c)).trans ?_
  kw [k1_main_v1 m ρ c, k39_main_v270 m ρ c, k1_main_v3 m ρ c, k39_main_v280 m ρ c, k40_main_v286 m ρ c] <;> rfl

theorem k43_main_v323 : W43 m ρ c (Proc.devRef .tc main_v323) = (t1 shiftBus shiftGen (argsK m c) 2).cg := by
  refine (host18_main_v323 (W42 m ρ c)).trans ?_
  kw [k1_main_v1 m ρ c, k39_main_v270 m ρ c, k1_main_v3 m ρ c, k39_main_v280 m ρ c, k40_main_v286 m ρ c] <;> rfl

theorem k43_main_v325 : W43 m ρ c (Proc.devRef .tc main_v325) = (par1 (argsK m c) 2).wB := by
  refine (host18_main_v325 (W42 m ρ c)).trans ?_
  kw [k1_main_v1 m ρ c, k39_main_v270 m ρ c, k1_main_v3 m ρ c, k39_main_v280 m ρ c, k40_main_v286 m ρ c] <;> rfl

theorem k43_main_v328 : W43 m ρ c (Proc.devRef .tc main_v328) = (par1 (argsK m c) 2).cB := by
  refine (host18_main_v328 (W42 m ρ c)).trans ?_
  kw [k1_main_v1 m ρ c, k39_main_v270 m ρ c, k1_main_v3 m ρ c, k39_main_v280 m ρ c, k40_main_v286 m ρ c] <;> rfl

theorem k43_main_v329 : W43 m ρ c (Proc.devRef .tc main_v329) = (t1 shiftBus shiftGen (argsK m c) 1).zb := by
  refine (host18_main_v329 (W42 m ρ c)).trans ?_
  kw [k1_main_v1 m ρ c, k39_main_v270 m ρ c, k1_main_v3 m ρ c, k39_main_v280 m ρ c, k40_main_v286 m ρ c] <;> rfl

theorem k44_main_v329 : W44 m ρ c (Proc.devRef .tc main_v329) = (t1 shiftBus shiftGen (argsK m c) 2).zb := by
  refine (W44_arr m ρ c 4).trans ((final18_4 (V43 m ρ) c).trans ?_)
  show tapAcc (W43 m ρ c (Proc.devRef .tc main_v286)) (W43 m ρ c (Proc.devRef .tc main_v313)) (W43 m ρ c (Proc.devRef .tc main_v325)) (W43 m ρ c (Proc.devRef .tc main_v328)) = _
  kw [k43_main_v313 m ρ c, k43_main_v325 m ρ c, k43_main_v328 m ρ c, k40_main_v286 m ρ c] <;> rfl

theorem k45_main_v331 : W45 m ρ c (Proc.devRef .tc main_v331) = (par1 (argsK m c) 2).wG := by
  refine (host19_main_v331 (W44 m ρ c)).trans ?_
  kw [k42_main_v292 m ρ c] <;> rfl

theorem k45_main_v334 : W45 m ρ c (Proc.devRef .tc main_v334) = (par1 (argsK m c) 2).cG := by
  refine (host19_main_v334 (W44 m ρ c)).trans ?_
  kw [k42_main_v292 m ρ c] <;> rfl

theorem k45_main_v335 : W45 m ρ c (Proc.devRef .tc main_v335) = (t1 shiftBus shiftGen (argsK m c) 1).zg := by
  refine (host19_main_v335 (W44 m ρ c)).trans ?_
  kw [k42_main_v292 m ρ c] <;> rfl

theorem k46_main_v335 : W46 m ρ c (Proc.devRef .tc main_v335) = (t1 shiftBus shiftGen (argsK m c) 2).zg := by
  refine (W46_arr m ρ c 4).trans ((final19_4 (V45 m ρ) c).trans ?_)
  show tapAcc (W45 m ρ c (Proc.devRef .tc main_v292)) (W45 m ρ c (Proc.devRef .tc main_v323)) (W45 m ρ c (Proc.devRef .tc main_v331)) (W45 m ρ c (Proc.devRef .tc main_v334)) = _
  kw [k43_main_v323 m ρ c, k45_main_v331 m ρ c, k45_main_v334 m ρ c, k42_main_v292 m ρ c] <;> rfl

theorem k47_main_v356 : W47 m ρ c (Proc.devRef .tc main_v356) = (t1 shiftBus shiftGen (argsK m c) 3).cb := by
  refine (host20_main_v356 (W46 m ρ c)).trans ?_
  kw [k1_main_v1 m ρ c, k43_main_v313 m ρ c, k1_main_v3 m ρ c, k43_main_v323 m ρ c, k44_main_v329 m ρ c] <;> rfl

theorem k47_main_v366 : W47 m ρ c (Proc.devRef .tc main_v366) = (t1 shiftBus shiftGen (argsK m c) 3).cg := by
  refine (host20_main_v366 (W46 m ρ c)).trans ?_
  kw [k1_main_v1 m ρ c, k43_main_v313 m ρ c, k1_main_v3 m ρ c, k43_main_v323 m ρ c, k44_main_v329 m ρ c] <;> rfl

theorem k47_main_v368 : W47 m ρ c (Proc.devRef .tc main_v368) = (par1 (argsK m c) 3).wB := by
  refine (host20_main_v368 (W46 m ρ c)).trans ?_
  kw [k1_main_v1 m ρ c, k43_main_v313 m ρ c, k1_main_v3 m ρ c, k43_main_v323 m ρ c, k44_main_v329 m ρ c] <;> rfl

theorem k47_main_v371 : W47 m ρ c (Proc.devRef .tc main_v371) = (par1 (argsK m c) 3).cB := by
  refine (host20_main_v371 (W46 m ρ c)).trans ?_
  kw [k1_main_v1 m ρ c, k43_main_v313 m ρ c, k1_main_v3 m ρ c, k43_main_v323 m ρ c, k44_main_v329 m ρ c] <;> rfl

theorem k47_main_v372 : W47 m ρ c (Proc.devRef .tc main_v372) = (t1 shiftBus shiftGen (argsK m c) 2).zb := by
  refine (host20_main_v372 (W46 m ρ c)).trans ?_
  kw [k1_main_v1 m ρ c, k43_main_v313 m ρ c, k1_main_v3 m ρ c, k43_main_v323 m ρ c, k44_main_v329 m ρ c] <;> rfl

theorem k48_main_v372 : W48 m ρ c (Proc.devRef .tc main_v372) = (t1 shiftBus shiftGen (argsK m c) 3).zb := by
  refine (W48_arr m ρ c 4).trans ((final20_4 (V47 m ρ) c).trans ?_)
  show tapAcc (W47 m ρ c (Proc.devRef .tc main_v329)) (W47 m ρ c (Proc.devRef .tc main_v356)) (W47 m ρ c (Proc.devRef .tc main_v368)) (W47 m ρ c (Proc.devRef .tc main_v371)) = _
  kw [k47_main_v356 m ρ c, k47_main_v368 m ρ c, k47_main_v371 m ρ c, k44_main_v329 m ρ c] <;> rfl

theorem k49_main_v374 : W49 m ρ c (Proc.devRef .tc main_v374) = (par1 (argsK m c) 3).wG := by
  refine (host21_main_v374 (W48 m ρ c)).trans ?_
  kw [k46_main_v335 m ρ c] <;> rfl

theorem k49_main_v377 : W49 m ρ c (Proc.devRef .tc main_v377) = (par1 (argsK m c) 3).cG := by
  refine (host21_main_v377 (W48 m ρ c)).trans ?_
  kw [k46_main_v335 m ρ c] <;> rfl

theorem k49_main_v378 : W49 m ρ c (Proc.devRef .tc main_v378) = (t1 shiftBus shiftGen (argsK m c) 2).zg := by
  refine (host21_main_v378 (W48 m ρ c)).trans ?_
  kw [k46_main_v335 m ρ c] <;> rfl

theorem k50_main_v378 : W50 m ρ c (Proc.devRef .tc main_v378) = (t1 shiftBus shiftGen (argsK m c) 3).zg := by
  refine (W50_arr m ρ c 4).trans ((final21_4 (V49 m ρ) c).trans ?_)
  show tapAcc (W49 m ρ c (Proc.devRef .tc main_v335)) (W49 m ρ c (Proc.devRef .tc main_v366)) (W49 m ρ c (Proc.devRef .tc main_v374)) (W49 m ρ c (Proc.devRef .tc main_v377)) = _
  kw [k47_main_v366 m ρ c, k49_main_v374 m ρ c, k49_main_v377 m ρ c, k46_main_v335 m ρ c] <;> rfl

theorem k51_main_v399 : W51 m ρ c (Proc.devRef .tc main_v399) = (t1 shiftBus shiftGen (argsK m c) 4).cb := by
  refine (host22_main_v399 (W50 m ρ c)).trans ?_
  kw [k1_main_v1 m ρ c, k47_main_v356 m ρ c, k1_main_v3 m ρ c, k47_main_v366 m ρ c, k48_main_v372 m ρ c] <;> rfl

theorem k51_main_v409 : W51 m ρ c (Proc.devRef .tc main_v409) = (t1 shiftBus shiftGen (argsK m c) 4).cg := by
  refine (host22_main_v409 (W50 m ρ c)).trans ?_
  kw [k1_main_v1 m ρ c, k47_main_v356 m ρ c, k1_main_v3 m ρ c, k47_main_v366 m ρ c, k48_main_v372 m ρ c] <;> rfl

theorem k51_main_v411 : W51 m ρ c (Proc.devRef .tc main_v411) = (par1 (argsK m c) 4).wB := by
  refine (host22_main_v411 (W50 m ρ c)).trans ?_
  kw [k1_main_v1 m ρ c, k47_main_v356 m ρ c, k1_main_v3 m ρ c, k47_main_v366 m ρ c, k48_main_v372 m ρ c] <;> rfl

theorem k51_main_v414 : W51 m ρ c (Proc.devRef .tc main_v414) = (par1 (argsK m c) 4).cB := by
  refine (host22_main_v414 (W50 m ρ c)).trans ?_
  kw [k1_main_v1 m ρ c, k47_main_v356 m ρ c, k1_main_v3 m ρ c, k47_main_v366 m ρ c, k48_main_v372 m ρ c] <;> rfl

theorem k51_main_v415 : W51 m ρ c (Proc.devRef .tc main_v415) = (t1 shiftBus shiftGen (argsK m c) 3).zb := by
  refine (host22_main_v415 (W50 m ρ c)).trans ?_
  kw [k1_main_v1 m ρ c, k47_main_v356 m ρ c, k1_main_v3 m ρ c, k47_main_v366 m ρ c, k48_main_v372 m ρ c] <;> rfl

theorem k52_main_v415 : W52 m ρ c (Proc.devRef .tc main_v415) = (t1 shiftBus shiftGen (argsK m c) 4).zb := by
  refine (W52_arr m ρ c 4).trans ((final22_4 (V51 m ρ) c).trans ?_)
  show tapAcc (W51 m ρ c (Proc.devRef .tc main_v372)) (W51 m ρ c (Proc.devRef .tc main_v399)) (W51 m ρ c (Proc.devRef .tc main_v411)) (W51 m ρ c (Proc.devRef .tc main_v414)) = _
  kw [k51_main_v399 m ρ c, k51_main_v411 m ρ c, k51_main_v414 m ρ c, k48_main_v372 m ρ c] <;> rfl

theorem k53_main_v417 : W53 m ρ c (Proc.devRef .tc main_v417) = (par1 (argsK m c) 4).wG := by
  refine (host23_main_v417 (W52 m ρ c)).trans ?_
  kw [k50_main_v378 m ρ c] <;> rfl

theorem k53_main_v420 : W53 m ρ c (Proc.devRef .tc main_v420) = (par1 (argsK m c) 4).cG := by
  refine (host23_main_v420 (W52 m ρ c)).trans ?_
  kw [k50_main_v378 m ρ c] <;> rfl

theorem k53_main_v421 : W53 m ρ c (Proc.devRef .tc main_v421) = (t1 shiftBus shiftGen (argsK m c) 3).zg := by
  refine (host23_main_v421 (W52 m ρ c)).trans ?_
  kw [k50_main_v378 m ρ c] <;> rfl

theorem k54_main_v421 : W54 m ρ c (Proc.devRef .tc main_v421) = (t1 shiftBus shiftGen (argsK m c) 4).zg := by
  refine (W54_arr m ρ c 4).trans ((final23_4 (V53 m ρ) c).trans ?_)
  show tapAcc (W53 m ρ c (Proc.devRef .tc main_v378)) (W53 m ρ c (Proc.devRef .tc main_v409)) (W53 m ρ c (Proc.devRef .tc main_v417)) (W53 m ρ c (Proc.devRef .tc main_v420)) = _
  kw [k51_main_v409 m ρ c, k53_main_v417 m ρ c, k53_main_v420 m ρ c, k50_main_v378 m ρ c] <;> rfl

theorem k55_main_v422 : W55 m ρ c (Proc.devRef .tc main_v422) = (xb2 shiftBus shiftGen (argsK m c)) := by
  refine (W55_arr m ρ c 2).trans ((final24_2 (V54 m ρ) c).trans ?_)
  show (addf (W54 m ρ c (Proc.devRef .tc main_v214) : Mat 131072 64) (W54 m ρ c (Proc.devRef .tc main_v415)) : Mat 131072 64) = _
  kw [k29_main_v214 m ρ c, k52_main_v415 m ρ c] <;> rfl

theorem k56_main_v423 : W56 m ρ c (Proc.devRef .tc main_v423) = (xg2 shiftBus shiftGen (argsK m c)) := by
  refine (W56_arr m ρ c 2).trans ((final25_2 (V55 m ρ) c).trans ?_)
  show (addf (W55 m ρ c (Proc.devRef .tc main_v215) : Mat 32768 64) (W55 m ρ c (Proc.devRef .tc main_v421)) : Mat 32768 64) = _
  kw [k30_main_v215 m ρ c, k54_main_v421 m ρ c] <;> rfl

theorem k57_main_v424 : W57 m ρ c (Proc.devRef .tc main_v424) = rowOf (argsK m c).boutB (by decide) := by
  refine (host26_main_v424 (W56 m ρ c)).trans ?_
  kw0 <;> rfl

theorem k58_main_v425 : W58 m ρ c (Proc.devRef .tc main_v425) = outB shiftBus shiftGen (argsK m c) := by
  refine (W58_arr m ρ c 3).trans ((final26_3 (V57 m ρ) c).trans ?_)
  show lin (W57 m ρ c (Proc.devRef .tc main_v422)) (W57 m ρ c (Proc.devRef .tc main_arg14)) (W57 m ρ c (Proc.devRef .tc main_v424)) = _
  kw [k55_main_v422 m ρ c, k57_main_v424 m ρ c] <;> rfl

theorem k59_main_v426 : W59 m ρ c (Proc.devRef .tc main_v426) = rowOf (argsK m c).boutG (by decide) := by
  refine (host27_main_v426 (W58 m ρ c)).trans ?_
  kw0 <;> rfl

theorem k60_main_v427 : W60 m ρ c (Proc.devRef .tc main_v427) = outG shiftBus shiftGen (argsK m c) := by
  refine (W60_arr m ρ c 3).trans ((final27_3 (V59 m ρ) c).trans ?_)
  show lin (W59 m ρ c (Proc.devRef .tc main_v423)) (W59 m ρ c (Proc.devRef .tc main_arg16)) (W59 m ρ c (Proc.devRef .tc main_v426)) = _
  kw [k56_main_v423 m ρ c, k59_main_v426 m ρ c] <;> rfl

/-- The first result at the last boundary. -/
theorem k60_main_v425 : W60 m ρ c (Proc.devRef .tc main_v425) = outB shiftBus shiftGen (argsK m c) := by
  kw [k58_main_v425 m ρ c]

end Cert.KernelIdeal.HV

end
-- ==== Proof.KValue.lean ====
/-
  The idealized kernel program's run with its two results named: every weakly fair execution terminates, nothing
  faulting, with the result arrays at the network's read-out stages of the argument arrays, the arguments unchanged.
-/
import proofs.«144873_j21182778704707_1_alg».proof.Proof.KRun
import proofs.«144873_j21182778704707_1_alg».proof.Proof.KChain

noncomputable section

namespace Cert.KernelIdeal.HV

open Cert.KernelIdeal Cert.KernelIdeal.Gen Cert.Hgcn
open Idealize.ShloMosaic Idealize.ShloMosaic.TcCoe Idealize.SL.Sem

theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v425) = outB shiftBus shiftGen (argsK m c)
      ∧ r.2.mem ((c.tc : Thread nD τ).loc main_v427) = outG shiftBus shiftGen (argsK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun r h c =>
    ⟨(h c main_v425 (by decide)).trans (k60_main_v425 m ρ c),
     (h c main_v427 (by decide)).trans (k60_main_v427 m ρ c),
     (h c main_arg0 (by decide)).trans (W60_main_arg0 m ρ c),
     (h c main_arg1 (by decide)).trans (W60_main_arg1 m ρ c),
     (h c main_arg2 (by decide)).trans (W60_main_arg2 m ρ c),
     (h c main_arg3 (by decide)).trans (W60_main_arg3 m ρ c),
     (h c main_arg4 (by decide)).trans (W60_main_arg4 m ρ c),
     (h c main_arg5 (by decide)).trans (W60_main_arg5 m ρ c),
     (h c main_arg6 (by decide)).trans (W60_main_arg6 m ρ c),
     (h c main_arg7 (by decide)).trans (W60_main_arg7 m ρ c),
     (h c main_arg8 (by decide)).trans (W60_main_arg8 m ρ c),
     (h c main_arg9 (by decide)).trans (W60_main_arg9 m ρ c),
     (h c main_arg10 (by decide)).trans (W60_main_arg10 m ρ c),
     (h c main_arg11 (by decide)).trans (W60_main_arg11 m ρ c),
     (h c main_arg12 (by decide)).trans (W60_main_arg12 m ρ c),
     (h c main_arg13 (by decide)).trans (W60_main_arg13 m ρ c),
     (h c main_arg14 (by decide)).trans (W60_main_arg14 m ρ c),
     (h c main_arg15 (by decide)).trans (W60_main_arg15 m ρ c),
     (h c main_arg16 (by decide)).trans (W60_main_arg16 m ρ c),
     (h c main_arg17 (by decide)).trans (W60_main_arg17 m ρ c),
     (h c main_arg18 (by decide)).trans (W60_main_arg18 m ρ c),
     (h c main_arg19 (by decide)).trans (W60_main_arg19 m ρ c),
     (h c main_arg20 (by decide)).trans (W60_main_arg20 m ρ c),
     (h c main_arg21 (by decide)).trans (W60_main_arg21 m ρ c),
     (h c main_arg22 (by decide)).trans (W60_main_arg22 m ρ c)⟩)
    (run_all m ρ)

end Cert.KernelIdeal.HV

end
-- ==== Proof.RefLib.lean ====
/-
  What the run of the reference program asks of each of its host operations, once for each builder: it touches
  TensorCore references only, allocates nothing, and writes none of the 23 arguments (its result buffer's index is 23
  or later); and that the program's signature scopes no buffer and has no semaphore.
-/
import proofs.«144873_j21182778704707_1_alg».proof.Proof.Gen.ReferenceIdeal
import Idealize.ShloMosaic.Lib.StableHlo.Run

noncomputable section

namespace Cert.ReferenceIdeal.HRun

open Cert.ReferenceIdeal  Idealize.ShloMosaic Idealize.ShloMosaic.TcCoe Idealize.SL.Sem Idealize.ShloMosaic.StableHlo

variable {F : FTy → Type} [FloatOps F]

/-- The 23 argument arrays' buffers. -/
abbrev argRefs : List (Ref sig .tc) :=
  [main_arg0, main_arg1, main_arg2, main_arg3, main_arg4, main_arg5, main_arg6, main_arg7, main_arg8, main_arg9, main_arg10,
   main_arg11, main_arg12, main_arg13, main_arg14, main_arg15, main_arg16, main_arg17, main_arg18, main_arg19, main_arg20,
   main_arg21, main_arg22]

/-- The arguments are the first 23 buffers. -/
theorem arg_idx_lt : ∀ r ∈ argRefs, r.idx.val < 23 := by
  intro r hr
  simp only [argRefs, List.mem_cons, List.not_mem_nil, or_false] at hr
  rcases hr with rfl | rfl | rfl | rfl | rfl | rfl | rfl | rfl | rfl | rfl | rfl | rfl | rfl | rfl | rfl | rfl | rfl | rfl | rfl | rfl | rfl | rfl | rfl <;> decide

/-- A buffer at index 23 or later is none of the arguments'. -/
theorem ne_arg {y : Ref sig .tc} (hy : 23 ≤ y.idx.val) :
    ∀ r ∈ argRefs, (Proc.devRef .tc r : DevRef τ sig) ∉ ({Proc.devRef .tc y} : Finset (DevRef τ sig)) :=
  fun r hr hm => devRef_ne_of_ne (fun e => by subst e; exact absurd hy (Nat.not_le.mpr (arg_idx_lt _ hr))) (Finset.mem_singleton.mp hm)

/-- What the run and the frame ask of one operation: it touches TensorCore references only, it allocates no buffer,
    and it writes none of the arguments. -/
structure Plain (op : HloOp τ sig (Elt F)) : Prop where
  sub : op.bufs ⊆ tcRefs τ sig
  fresh : op.fresh = ∅
  keeps : ∀ r ∈ argRefs, (Proc.devRef .tc r : DevRef τ sig) ∉ op.writes

section Builders

variable (x a b c y : Ref sig .tc)

theorem plain_nullary (v : y.ty.Contents (Elt F)) (hy) (h : 23 ≤ y.idx.val) : Plain (nullary (τ := τ) y v hy) :=
  ⟨nullary_bufs_sub .., rfl, ne_arg h⟩
theorem plain_unary (f : x.ty.Contents (Elt F) → y.ty.Contents (Elt F)) (hx hy) (h : 23 ≤ y.idx.val) :
    Plain (unary (τ := τ) x y f hx hy) :=
  ⟨unary_bufs_sub .., rfl, ne_arg h⟩
theorem plain_binary (f : a.ty.Contents (Elt F) → b.ty.Contents (Elt F) → y.ty.Contents (Elt F)) (ha hb hy) (h : 23 ≤ y.idx.val) :
    Plain (binary (τ := τ) a b y f ha hb hy) :=
  ⟨binary_bufs_sub .., rfl, ne_arg h⟩
theorem plain_ternary (f : c.ty.Contents (Elt F) → a.ty.Contents (Elt F) → b.ty.Contents (Elt F) → y.ty.Contents (Elt F)) (hc ha hb hy)
    (h : 23 ≤ y.idx.val) : Plain (ternary (τ := τ) c a b y f hc ha hb hy) :=
  ⟨ternary_bufs_sub .., rfl, ne_arg h⟩
theorem plain_reshape (he hn hx hy) (h : 23 ≤ y.idx.val) : Plain (reshape (τ := τ) (Val := Elt F) x y he hn hx hy) :=
  ⟨reshape_bufs_sub .., rfl, ne_arg h⟩

end Builders

/-- Every operation of a literal list is plain: the list's conjunction split, each operation by its builder's lemma,
    its result buffer's index compared with 23 by computation. -/
macro "plain_ops" : tactic =>
  `(tactic| (simp (disch := decide) only [List.Forall, plain_nullary, plain_unary, plain_binary, plain_ternary, plain_reshape, and_self]))

/-- The signature scopes no buffer: HBM buffers never are, and it has no others. -/
theorem scopedRefs_eq : (Finset.univ.filter fun b : Ref sig .tc => b.isScoped) = ∅ :=
  Finset.filter_eq_empty_iff.mpr fun b _ => by
    rcases b with ⟨sp, i, h⟩
    rcases sp with cs | _ | _ | _
    · cases cs <;> exact i.elim0
    · exact i.elim0
    · exact Bool.false_ne_true
    · exact i.elim0

/-- The signature has no semaphore. -/
theorem scopedSems_eq : (Finset.univ.filter fun sm : SemLoc sig => sm.isScoped .tc) = ∅ :=
  Finset.filter_eq_empty_iff.mpr fun sm _ => by
    rcases sm with s | s <;> exact s.elim0

end Cert.ReferenceIdeal.HRun

end
-- ==== Proof.RefOps0.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- The 102 host operations of window 0 of @main, in program order, each call replaced by its callee's operations over the call's own buffers. -/
abbrev ops_part0 : List (HloOp τ sig (Elt F)) :=
  [ StableHlo.unary main_arg18 main_v0 ((extractStridedSlice S1x2097152 ![0, 0] · slices_S2x2097152_S1x2097152_0_0) : (⟨S2x2097152, .i32⟩ : BufTy).Contents (Elt F) → (⟨S1x2097152, .i32⟩ : BufTy).Contents (Elt F)),
    StableHlo.reshape main_v0 main_v1 rfl shapeCasts_S1x2097152_S2097152,
    StableHlo.unary main_arg18 main_v2 ((extractStridedSlice S1x2097152 ![1, 0] · slices_S2x2097152_S1x2097152_1_0) : (⟨S2x2097152, .i32⟩ : BufTy).Contents (Elt F) → (⟨S1x2097152, .i32⟩ : BufTy).Contents (Elt F)),
    StableHlo.reshape main_v2 main_v3 rfl shapeCasts_S1x2097152_S2097152,
    StableHlo.binary main_arg0 main_arg2 main_v4 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    StableHlo.unary main_arg3 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S131072x64 ![0, 1] bcast_S1x64_S131072x64_0_1 : (⟨S1x64, .f32⟩ : BufTy).Contents (Elt F) → (⟨S131072x64, .f32⟩ : BufTy).Contents (Elt F)),
    StableHlo.binary main_v4 main_v6 main_v7 (addf : (⟨S131072x64, .f32⟩ : BufTy).Contents (Elt F) → (⟨S131072x64, .f32⟩ : BufTy).Contents (Elt F) → (⟨S131072x64, .f32⟩ : BufTy).Contents (Elt F)),
    StableHlo.binary main_arg1 main_arg4 main_v8 ((fun l r => Host.dotGeneral dot_S32768x32_S32x64_S32768x64_1_0_0_1_n_n none l r) : (⟨S32768x32, .f32⟩ : BufTy).Contents (Elt F) → (⟨S32x64, .f32⟩ : BufTy).Contents (Elt F) → (⟨S32768x64, .f32⟩ : BufTy).Contents (Elt F)),
    StableHlo.unary main_arg5 main_v9 (broadcastInDim S1x64 ![1] bcast_S64_S1x64_1 : (⟨S64, .f32⟩ : BufTy).Contents (Elt F) → (⟨S1x64, .f32⟩ : BufTy).Contents (Elt F)),
    StableHlo.unary main_v9 main_v10 (broadcastInDim S32768x64 ![0, 1] bcast_S1x64_S32768x64_0_1 : (⟨S1x64, .f32⟩ : BufTy).Contents (Elt F) → (⟨S32768x64, .f32⟩ : BufTy).Contents (Elt F)),
    StableHlo.binary main_v8 main_v10 main_v11 (addf : (⟨S32768x64, .f32⟩ : BufTy).Contents (Elt F) → (⟨S32768x64, .f32⟩ : BufTy).Contents (Elt F) → (⟨S32768x64, .f32⟩ : BufTy).Contents (Elt F)),
    StableHlo.unary main_arg6 main_v12 ((extractStridedSlice S1x64 ![0, 0] · slices_S2x64_S1x64_0_0) : (⟨S2x64, .f32⟩ : BufTy).Contents (Elt F) → (⟨S1x64, .f32⟩ : BufTy).Contents (Elt F)),
    StableHlo.reshape main_v12 main_v13 rfl shapeCasts_S1x64_S64,
    StableHlo.unary main_arg7 main_v14 ((extractStridedSlice S1x64 ![0, 0] · slices_S2x64_S1x64_0_0) : (⟨S2x64, .f32⟩ : BufTy).Contents (Elt F) → (⟨S1x64, .f32⟩ : BufTy).Contents (Elt F)),
    StableHlo.reshape main_v14 main_v15 rfl shapeCasts_S1x64_S64,
    StableHlo.nullary main_cst (constant S_ .f32 0x00000000#32),
    StableHlo.binary main_v7 main_cst main_v16 ((fun x v => Host.reduceAdd x v reducesTo_S131072x64_S64_d0 h_S_) : (⟨S131072x64, .f32⟩ : BufTy).Contents (Elt F) → (⟨S_, .f32⟩ : BufTy).Contents (Elt F) → (⟨S64, .f32⟩ : BufTy).Contents (Elt F)),
    StableHlo.nullary main_cst_0 (constant S_ .f32 0x48000000#32),
    StableHlo.unary main_cst_0 main_v17 (broadcastInDim S64 ![] bcast_S_S64 : (⟨S_, .f32⟩ : BufTy).Contents (Elt F) → (⟨S64, .f32⟩ : BufTy).Contents (Elt F)),
    StableHlo.binary main_v16 main_v17 main_v18 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32),
    StableHlo.TRef.nullary main_call0.cst (constant S_ .f32 0x00000000#32),
    StableHlo.TRef.binary (.of main_v7 : StableHlo.TRef sig ⟨S131072x64, .f32⟩) main_call0.cst main_call0.v0 (fun x v => Host.reduceAdd x v reducesTo_S131072x64_S64_d0 h_S_),
    StableHlo.TRef.unary main_call0.v0 main_call0.v1 (broadcastInDim S1x64 ![1] bcast_S64_S1x64_1),
    StableHlo.TRef.nullary main_call0.cst_0 (constant S_ .f32 0x48000000#32),
    StableHlo.TRef.unary main_call0.cst_0 main_call0.v2 (broadcastInDim S1x64 ![] bcast_S_S1x64),
    StableHlo.TRef.binary main_call0.v1 main_call0.v2 main_call0.v3 Host.divf,
    StableHlo.TRef.unary main_call0.v3 main_call0.v4 (broadcastInDim S131072x64 ![0, 1] bcast_S1x64_S131072x64_0_1),
    StableHlo.TRef.binary (.of main_v7 : StableHlo.TRef sig ⟨S131072x64, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x48000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S131072x64_S64_d0 h_S_),
    StableHlo.TRef.unary main_call0.v8 main_call0.v10 (broadcastInDim S64 ![] bcast_S_S64),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S64 ![] bcast_S_S64),
    StableHlo.TRef.ternary main_call0.v12 main_call0.v11 main_call0.call0.v1 main_call0.call0.v2 (fun p a b => select (broadcastInDim S64 ![] bcast_S_S64 p) a b),
    StableHlo.unary main_v18 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S131072x64 ![0, 1] bcast_S1x64_S131072x64_0_1 : (⟨S1x64, .f32⟩ : BufTy).Contents (Elt F) → (⟨S131072x64, .f32⟩ : BufTy).Contents (Elt F)),
    StableHlo.binary main_v7 main_v21 main_v22 (subf : (⟨S131072x64, .f32⟩ : BufTy).Contents (Elt F) → (⟨S131072x64, .f32⟩ : BufTy).Contents (Elt F) → (⟨S131072x64, .f32⟩ : BufTy).Contents (Elt F)),
    StableHlo.nullary main_cst_1 (constant S_ .f32 0x3727C5AC#32),
    StableHlo.unary main_cst_1 main_v23 (broadcastInDim S64 ![] bcast_S_S64 : (⟨S_, .f32⟩ : BufTy).Contents (Elt F) → (⟨S64, .f32⟩ : BufTy).Contents (Elt F)),
    StableHlo.binary main_v19 main_v23 main_v24 (addf : (⟨S64, .f32⟩ : BufTy).Contents (Elt F) → (⟨S64, .f32⟩ : BufTy).Contents (Elt F) → (⟨S64, .f32⟩ : BufTy).Contents (Elt F)),
    StableHlo.unary main_v24 main_v25 (Host.rsqrt : (⟨S64, .f32⟩ : BufTy).Contents (Elt F) → (⟨S64, .f32⟩ : BufTy).Contents (Elt F)),
    StableHlo.unary main_v25 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S131072x64 ![0, 1] bcast_S1x64_S131072x64_0_1 : (⟨S1x64, .f32⟩ : BufTy).Contents (Elt F) → (⟨S131072x64, .f32⟩ : BufTy).Contents (Elt F)),
    StableHlo.binary main_v22 main_v27 main_v28 (mulf : (⟨S131072x64, .f32⟩ : BufTy).Contents (Elt F) → (⟨S131072x64, .f32⟩ : BufTy).Contents (Elt F) → (⟨S131072x64, .f32⟩ : BufTy).Contents (Elt F)),
    StableHlo.unary main_v13 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S131072x64 ![0, 1] bcast_S1x64_S131072x64_0_1 : (⟨S1x64, .f32⟩ : BufTy).Contents (Elt F) → (⟨S131072x64, .f32⟩ : BufTy).Contents (Elt F)),
    StableHlo.binary main_v28 main_v30 main_v31 (mulf : (⟨S131072x64, .f32⟩ : BufTy).Contents (Elt F) → (⟨S131072x64, .f32⟩ : BufTy).Contents (Elt F) → (⟨S131072x64, .f32⟩ : BufTy).Contents (Elt F)),
    StableHlo.unary main_v15 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S131072x64 ![0, 1] bcast_S1x64_S131072x64_0_1 : (⟨S1x64, .f32⟩ : BufTy).Contents (Elt F) → (⟨S131072x64, .f32⟩ : BufTy).Contents (Elt F)),
    StableHlo.binary main_v31 main_v33 main_v34 (addf : (⟨S131072x64, .f32⟩ : BufTy).Contents (Elt F) → (⟨S131072x64, .f32⟩ : BufTy).Contents (Elt F) → (⟨S131072x64, .f32⟩ : BufTy).Contents (Elt F)),
    StableHlo.nullary main_cst_2 (constant S_ .f32 0x00000000#32),
    StableHlo.unary main_cst_2 main_v35 (broadcastInDim S131072x64 ![] bcast_S_S131072x64 : (⟨S_, .f32⟩ : BufTy).Contents (Elt F) → (⟨S131072x64, .f32⟩ : BufTy).Contents (Elt F)),
    StableHlo.binary main_v34 main_v35 main_v36 (cmpf .oge : (⟨S131072x64, .f32⟩ : BufTy).Contents (Elt F) → (⟨S131072x64, .f32⟩ : BufTy).Contents (Elt F) → (⟨S131072x64, .i1⟩ : BufTy).Contents (Elt F)),
    StableHlo.nullary main_cst_3 (constant S_ .f32 0x3C23D70A#32),
    StableHlo.unary main_cst_3 main_v37 (broadcastInDim S131072x64 ![] bcast_S_S131072x64 : (⟨S_, .f32⟩ : BufTy).Contents (Elt F) → (⟨S131072x64, .f32⟩ : BufTy).Contents (Elt F)),
    StableHlo.binary main_v37 main_v34 main_v38 (mulf : (⟨S131072x64, .f32⟩ : BufTy).Contents (Elt F) → (⟨S131072x64, .f32⟩ : BufTy).Contents (Elt F) → (⟨S131072x64, .f32⟩ : BufTy).Contents (Elt F)),
    StableHlo.TRef.ternary (.of main_v36 : StableHlo.TRef sig ⟨S131072x64, .i1⟩) (.of main_v34 : StableHlo.TRef sig ⟨S131072x64, .f32⟩) (.of main_v38 : StableHlo.TRef sig ⟨S131072x64, .f32⟩) main_call1.v0 select,
    StableHlo.unary main_arg8 main_v40 ((extractStridedSlice S1x64 ![0, 0] · slices_S2x64_S1x64_0_0) : (⟨S2x64, .f32⟩ : BufTy).Contents (Elt F) → (⟨S1x64, .f32⟩ : BufTy).Contents (Elt F)),
    StableHlo.reshape main_v40 main_v41 rfl shapeCasts_S1x64_S64,
    StableHlo.unary main_arg9 main_v42 ((extractStridedSlice S1x64 ![0, 0] · slices_S2x64_S1x64_0_0) : (⟨S2x64, .f32⟩ : BufTy).Contents (Elt F) → (⟨S1x64, .f32⟩ : BufTy).Contents (Elt F)),
    StableHlo.reshape main_v42 main_v43 rfl shapeCasts_S1x64_S64,
    StableHlo.nullary main_cst_4 (constant S_ .f32 0x00000000#32),
    StableHlo.binary main_v11 main_cst_4 main_v44 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    StableHlo.nullary main_cst_5 (constant S_ .f32 0x47000000#32),
    StableHlo.unary main_cst_5 main_v45 (broadcastInDim S64 ![] bcast_S_S64 : (⟨S_, .f32⟩ : BufTy).Contents (Elt F) → (⟨S64, .f32⟩ : BufTy).Contents (Elt F)),
    StableHlo.binary main_v44 main_v45 main_v46 (Host.divf : (⟨S64, .f32⟩ : BufTy).Contents (Elt F) → (⟨S64, .f32⟩ : BufTy).Contents (Elt F) → (⟨S64, .f32⟩ : BufTy).Contents (Elt F)),
    StableHlo.nullary main_c_6 (constantI S_ 32 0#32),
    StableHlo.TRef.nullary main_call2.cst (constant S_ .f32 0x00000000#32),
    StableHlo.TRef.binary (.of main_v11 : StableHlo.TRef sig ⟨S32768x64, .f32⟩) main_call2.cst main_call2.v0 (fun x v => Host.reduceAdd x v reducesTo_S32768x64_S64_d0 h_S_),
    StableHlo.TRef.unary main_call2.v0 main_call2.v1 (broadcastInDim S1x64 ![1] bcast_S64_S1x64_1),
    StableHlo.TRef.nullary main_call2.cst_0 (constant S_ .f32 0x47000000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S32768x64 ![0, 1] bcast_S1x64_S32768x64_0_1),
    StableHlo.TRef.binary (.of main_v11 : StableHlo.TRef sig ⟨S32768x64, .f32⟩) main_call2.v4 main_call2.v5 subf,
    StableHlo.TRef.binary main_call2.v5 main_call2.v5 main_call2.v6 mulf,
    StableHlo.TRef.unary (.of main_c_6 : StableHlo.TRef sig ⟨S_, .i32⟩) main_call2.v7 (sitofp .f32),
    StableHlo.TRef.nullary main_call2.cst_1 (constant S_ .f32 0x47000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S32768x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v46 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S32768x64 ![0, 1] bcast_S1x64_S32768x64_0_1 : (⟨S1x64, .f32⟩ : BufTy).Contents (Elt F) → (⟨S32768x64, .f32⟩ : BufTy).Contents (Elt F)),
    StableHlo.binary main_v11 main_v49 main_v50 (subf : (⟨S32768x64, .f32⟩ : BufTy).Contents (Elt F) → (⟨S32768x64, .f32⟩ : BufTy).Contents (Elt F) → (⟨S32768x64, .f32⟩ : BufTy).Contents (Elt F)) ]

end Cert.ReferenceIdeal.HRun

end
-- ==== Proof.RefOps1.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- The 60 host operations of window 1 of @main, in program order, each call replaced by its callee's operations over the call's own buffers. -/
abbrev ops_part1 : List (HloOp τ sig (Elt F)) :=
  [ StableHlo.nullary main_cst_7 (constant S_ .f32 0x3727C5AC#32),
    StableHlo.unary main_cst_7 main_v51 (broadcastInDim S64 ![] bcast_S_S64 : (⟨S_, .f32⟩ : BufTy).Contents (Elt F) → (⟨S64, .f32⟩ : BufTy).Contents (Elt F)),
    StableHlo.binary main_v47 main_v51 main_v52 (addf : (⟨S64, .f32⟩ : BufTy).Contents (Elt F) → (⟨S64, .f32⟩ : BufTy).Contents (Elt F) → (⟨S64, .f32⟩ : BufTy).Contents (Elt F)),
    StableHlo.unary main_v52 main_v53 (Host.rsqrt : (⟨S64, .f32⟩ : BufTy).Contents (Elt F) → (⟨S64, .f32⟩ : BufTy).Contents (Elt F)),
    StableHlo.unary main_v53 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S32768x64 ![0, 1] bcast_S1x64_S32768x64_0_1 : (⟨S1x64, .f32⟩ : BufTy).Contents (Elt F) → (⟨S32768x64, .f32⟩ : BufTy).Contents (Elt F)),
    StableHlo.binary main_v50 main_v55 main_v56 (mulf : (⟨S32768x64, .f32⟩ : BufTy).Contents (Elt F) → (⟨S32768x64, .f32⟩ : BufTy).Contents (Elt F) → (⟨S32768x64, .f32⟩ : BufTy).Contents (Elt F)),
    StableHlo.unary main_v41 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S32768x64 ![0, 1] bcast_S1x64_S32768x64_0_1 : (⟨S1x64, .f32⟩ : BufTy).Contents (Elt F) → (⟨S32768x64, .f32⟩ : BufTy).Contents (Elt F)),
    StableHlo.binary main_v56 main_v58 main_v59 (mulf : (⟨S32768x64, .f32⟩ : BufTy).Contents (Elt F) → (⟨S32768x64, .f32⟩ : BufTy).Contents (Elt F) → (⟨S32768x64, .f32⟩ : BufTy).Contents (Elt F)),
    StableHlo.unary main_v43 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S32768x64 ![0, 1] bcast_S1x64_S32768x64_0_1 : (⟨S1x64, .f32⟩ : BufTy).Contents (Elt F) → (⟨S32768x64, .f32⟩ : BufTy).Contents (Elt F)),
    StableHlo.binary main_v59 main_v61 main_v62 (addf : (⟨S32768x64, .f32⟩ : BufTy).Contents (Elt F) → (⟨S32768x64, .f32⟩ : BufTy).Contents (Elt F) → (⟨S32768x64, .f32⟩ : BufTy).Contents (Elt F)),
    StableHlo.nullary main_cst_8 (constant S_ .f32 0x00000000#32),
    StableHlo.unary main_cst_8 main_v63 (broadcastInDim S32768x64 ![] bcast_S_S32768x64 : (⟨S_, .f32⟩ : BufTy).Contents (Elt F) → (⟨S32768x64, .f32⟩ : BufTy).Contents (Elt F)),
    StableHlo.binary main_v62 main_v63 main_v64 (cmpf .oge : (⟨S32768x64, .f32⟩ : BufTy).Contents (Elt F) → (⟨S32768x64, .f32⟩ : BufTy).Contents (Elt F) → (⟨S32768x64, .i1⟩ : BufTy).Contents (Elt F)),
    StableHlo.nullary main_cst_9 (constant S_ .f32 0x3C23D70A#32),
    StableHlo.unary main_cst_9 main_v65 (broadcastInDim S32768x64 ![] bcast_S_S32768x64 : (⟨S_, .f32⟩ : BufTy).Contents (Elt F) → (⟨S32768x64, .f32⟩ : BufTy).Contents (Elt F)),
    StableHlo.binary main_v65 main_v62 main_v66 (mulf : (⟨S32768x64, .f32⟩ : BufTy).Contents (Elt F) → (⟨S32768x64, .f32⟩ : BufTy).Contents (Elt F) → (⟨S32768x64, .f32⟩ : BufTy).Contents (Elt F)),
    StableHlo.TRef.ternary (.of main_v64 : StableHlo.TRef sig ⟨S32768x64, .i1⟩) (.of main_v62 : StableHlo.TRef sig ⟨S32768x64, .f32⟩) (.of main_v66 : StableHlo.TRef sig ⟨S32768x64, .f32⟩) main_call3.v0 select,
    StableHlo.unary main_arg10 main_v68 ((extractStridedSlice S1x1x64x64 ![0, 0, 0, 0] · slices_S2x5x64x64_S1x1x64x64_0_0_0_0) : (⟨S2x5x64x64, .f32⟩ : BufTy).Contents (Elt F) → (⟨S1x1x64x64, .f32⟩ : BufTy).Contents (Elt F)),
    StableHlo.reshape main_v68 main_v69 rfl shapeCasts_S1x1x64x64_S64x64,
    StableHlo.binary main_v39 main_v69 main_v70 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.unary main_arg11 main_v71 ((extractStridedSlice S1x1x64 ![0, 0, 0] · slices_S2x5x64_S1x1x64_0_0_0) : (⟨S2x5x64, .f32⟩ : BufTy).Contents (Elt F) → (⟨S1x1x64, .f32⟩ : BufTy).Contents (Elt F)),
    StableHlo.reshape main_v71 main_v72 rfl shapeCasts_S1x1x64_S64,
    StableHlo.unary main_v72 main_v73 (broadcastInDim S1x64 ![1] bcast_S64_S1x64_1 : (⟨S64, .f32⟩ : BufTy).Contents (Elt F) → (⟨S1x64, .f32⟩ : BufTy).Contents (Elt F)),
    StableHlo.unary main_v73 main_v74 (broadcastInDim S131072x64 ![0, 1] bcast_S1x64_S131072x64_0_1 : (⟨S1x64, .f32⟩ : BufTy).Contents (Elt F) → (⟨S131072x64, .f32⟩ : BufTy).Contents (Elt F)),
    StableHlo.binary main_v70 main_v74 main_v75 (addf : (⟨S131072x64, .f32⟩ : BufTy).Contents (Elt F) → (⟨S131072x64, .f32⟩ : BufTy).Contents (Elt F) → (⟨S131072x64, .f32⟩ : BufTy).Contents (Elt F)),
    StableHlo.unary main_arg12 main_v76 ((extractStridedSlice S1x1x64x64 ![0, 0, 0, 0] · slices_S2x5x64x64_S1x1x64x64_0_0_0_0) : (⟨S2x5x64x64, .f32⟩ : BufTy).Contents (Elt F) → (⟨S1x1x64x64, .f32⟩ : BufTy).Contents (Elt F)),
    StableHlo.reshape main_v76 main_v77 rfl shapeCasts_S1x1x64x64_S64x64,
    StableHlo.binary main_v67 main_v77 main_v78 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg13 main_v79 ((extractStridedSlice S1x1x64 ![0, 0, 0] · slices_S2x5x64_S1x1x64_0_0_0) : (⟨S2x5x64, .f32⟩ : BufTy).Contents (Elt F) → (⟨S1x1x64, .f32⟩ : BufTy).Contents (Elt F)),
    StableHlo.reshape main_v79 main_v80 rfl shapeCasts_S1x1x64_S64,
    StableHlo.unary main_v80 main_v81 (broadcastInDim S1x64 ![1] bcast_S64_S1x64_1 : (⟨S64, .f32⟩ : BufTy).Contents (Elt F) → (⟨S1x64, .f32⟩ : BufTy).Contents (Elt F)),
    StableHlo.unary main_v81 main_v82 (broadcastInDim S32768x64 ![0, 1] bcast_S1x64_S32768x64_0_1 : (⟨S1x64, .f32⟩ : BufTy).Contents (Elt F) → (⟨S32768x64, .f32⟩ : BufTy).Contents (Elt F)),
    StableHlo.binary main_v78 main_v82 main_v83 (addf : (⟨S32768x64, .f32⟩ : BufTy).Contents (Elt F) → (⟨S32768x64, .f32⟩ : BufTy).Contents (Elt F) → (⟨S32768x64, .f32⟩ : BufTy).Contents (Elt F)),
    StableHlo.nullary main_c_10 (constantI S_ 32 0#32),
    StableHlo.unary main_c_10 main_v84 (broadcastInDim S2097152 ![] bcast_S_S2097152 : (⟨S_, .i32⟩ : BufTy).Contents (Elt F) → (⟨S2097152, .i32⟩ : BufTy).Contents (Elt F)),
    StableHlo.binary main_v1 main_v84 main_v85 (cmpi .slt : (⟨S2097152, .i32⟩ : BufTy).Contents (Elt F) → (⟨S2097152, .i32⟩ : BufTy).Contents (Elt F) → (⟨S2097152, .i1⟩ : BufTy).Contents (Elt F)),
    StableHlo.nullary main_c_11 (constantI S_ 32 131072#32),
    StableHlo.unary main_c_11 main_v86 (broadcastInDim S2097152 ![] bcast_S_S2097152 : (⟨S_, .i32⟩ : BufTy).Contents (Elt F) → (⟨S2097152, .i32⟩ : BufTy).Contents (Elt F)),
    StableHlo.binary main_v1 main_v86 main_v87 (addi : (⟨S2097152, .i32⟩ : BufTy).Contents (Elt F) → (⟨S2097152, .i32⟩ : BufTy).Contents (Elt F) → (⟨S2097152, .i32⟩ : BufTy).Contents (Elt F)),
    StableHlo.ternary main_v85 main_v87 main_v1 main_v88 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v88 main_v89 (broadcastInDim S2097152x1 ![0] bcast_S2097152_S2097152x1_0 : (⟨S2097152, .i32⟩ : BufTy).Contents (Elt F) → (⟨S2097152x1, .i32⟩ : BufTy).Contents (Elt F)),
    StableHlo.binary main_v39 main_v89 main_v90 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_12 (constant S_ .f32 0x00000000#32),
    StableHlo.unary main_cst_12 main_v91 (broadcastInDim S131072x64 ![] bcast_S_S131072x64 : (⟨S_, .f32⟩ : BufTy).Contents (Elt F) → (⟨S131072x64, .f32⟩ : BufTy).Contents (Elt F)),
    StableHlo.unary main_v3 main_v92 (broadcastInDim S2097152x1 ![0] bcast_S2097152_S2097152x1_0 : (⟨S2097152, .i32⟩ : BufTy).Contents (Elt F) → (⟨S2097152x1, .i32⟩ : BufTy).Contents (Elt F)),
    StableHlo.ternary main_v91 main_v92 main_v90 main_v93 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_13 (constantI S_ 32 0#32),
    StableHlo.unary main_c_13 main_v94 (broadcastInDim S65536 ![] bcast_S_S65536 : (⟨S_, .i32⟩ : BufTy).Contents (Elt F) → (⟨S65536, .i32⟩ : BufTy).Contents (Elt F)),
    StableHlo.binary main_arg19 main_v94 main_v95 (cmpi .slt : (⟨S65536, .i32⟩ : BufTy).Contents (Elt F) → (⟨S65536, .i32⟩ : BufTy).Contents (Elt F) → (⟨S65536, .i1⟩ : BufTy).Contents (Elt F)),
    StableHlo.nullary main_c_14 (constantI S_ 32 32768#32),
    StableHlo.unary main_c_14 main_v96 (broadcastInDim S65536 ![] bcast_S_S65536 : (⟨S_, .i32⟩ : BufTy).Contents (Elt F) → (⟨S65536, .i32⟩ : BufTy).Contents (Elt F)),
    StableHlo.binary main_arg19 main_v96 main_v97 (addi : (⟨S65536, .i32⟩ : BufTy).Contents (Elt F) → (⟨S65536, .i32⟩ : BufTy).Contents (Elt F) → (⟨S65536, .i32⟩ : BufTy).Contents (Elt F)),
    StableHlo.ternary main_v95 main_v97 main_arg19 main_v98 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v98 main_v99 (broadcastInDim S65536x1 ![0] bcast_S65536_S65536x1_0 : (⟨S65536, .i32⟩ : BufTy).Contents (Elt F) → (⟨S65536x1, .i32⟩ : BufTy).Contents (Elt F)),
    StableHlo.binary main_v67 main_v99 main_v100 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_15 (constant S_ .f32 0x00000000#32),
    StableHlo.unary main_cst_15 main_v101 (broadcastInDim S131072x64 ![] bcast_S_S131072x64 : (⟨S_, .f32⟩ : BufTy).Contents (Elt F) → (⟨S131072x64, .f32⟩ : BufTy).Contents (Elt F)) ]

end Cert.ReferenceIdeal.HRun

end
-- ==== Proof.RefOps2.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- The 60 host operations of window 2 of @main, in program order, each call replaced by its callee's operations over the call's own buffers. -/
abbrev ops_part2 : List (HloOp τ sig (Elt F)) :=
  [ StableHlo.unary main_arg20 main_v102 (broadcastInDim S65536x1 ![0] bcast_S65536_S65536x1_0 : (⟨S65536, .i32⟩ : BufTy).Contents (Elt F) → (⟨S65536x1, .i32⟩ : BufTy).Contents (Elt F)),
    StableHlo.ternary main_v101 main_v102 main_v100 main_v103 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)),
    StableHlo.binary main_v93 main_v103 main_v104 (addf : (⟨S131072x64, .f32⟩ : BufTy).Contents (Elt F) → (⟨S131072x64, .f32⟩ : BufTy).Contents (Elt F) → (⟨S131072x64, .f32⟩ : BufTy).Contents (Elt F)),
    StableHlo.nullary main_c_16 (constantI S_ 32 0#32),
    StableHlo.unary main_c_16 main_v105 (broadcastInDim S65536 ![] bcast_S_S65536 : (⟨S_, .i32⟩ : BufTy).Contents (Elt F) → (⟨S65536, .i32⟩ : BufTy).Contents (Elt F)),
    StableHlo.binary main_arg21 main_v105 main_v106 (cmpi .slt : (⟨S65536, .i32⟩ : BufTy).Contents (Elt F) → (⟨S65536, .i32⟩ : BufTy).Contents (Elt F) → (⟨S65536, .i1⟩ : BufTy).Contents (Elt F)),
    StableHlo.nullary main_c_17 (constantI S_ 32 131072#32),
    StableHlo.unary main_c_17 main_v107 (broadcastInDim S65536 ![] bcast_S_S65536 : (⟨S_, .i32⟩ : BufTy).Contents (Elt F) → (⟨S65536, .i32⟩ : BufTy).Contents (Elt F)),
    StableHlo.binary main_arg21 main_v107 main_v108 (addi : (⟨S65536, .i32⟩ : BufTy).Contents (Elt F) → (⟨S65536, .i32⟩ : BufTy).Contents (Elt F) → (⟨S65536, .i32⟩ : BufTy).Contents (Elt F)),
    StableHlo.ternary main_v106 main_v108 main_arg21 main_v109 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v109 main_v110 (broadcastInDim S65536x1 ![0] bcast_S65536_S65536x1_0 : (⟨S65536, .i32⟩ : BufTy).Contents (Elt F) → (⟨S65536x1, .i32⟩ : BufTy).Contents (Elt F)),
    StableHlo.binary main_v39 main_v110 main_v111 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_18 (constant S_ .f32 0x00000000#32),
    StableHlo.unary main_cst_18 main_v112 (broadcastInDim S32768x64 ![] bcast_S_S32768x64 : (⟨S_, .f32⟩ : BufTy).Contents (Elt F) → (⟨S32768x64, .f32⟩ : BufTy).Contents (Elt F)),
    StableHlo.unary main_arg22 main_v113 (broadcastInDim S65536x1 ![0] bcast_S65536_S65536x1_0 : (⟨S65536, .i32⟩ : BufTy).Contents (Elt F) → (⟨S65536x1, .i32⟩ : BufTy).Contents (Elt F)),
    StableHlo.ternary main_v112 main_v113 main_v111 main_v114 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)),
    StableHlo.unary main_arg10 main_v115 ((extractStridedSlice S1x1x64x64 ![0, 1, 0, 0] · slices_S2x5x64x64_S1x1x64x64_0_1_0_0) : (⟨S2x5x64x64, .f32⟩ : BufTy).Contents (Elt F) → (⟨S1x1x64x64, .f32⟩ : BufTy).Contents (Elt F)),
    StableHlo.reshape main_v115 main_v116 rfl shapeCasts_S1x1x64x64_S64x64,
    StableHlo.binary main_v104 main_v116 main_v117 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v75 main_v117 main_v118 (addf : (⟨S131072x64, .f32⟩ : BufTy).Contents (Elt F) → (⟨S131072x64, .f32⟩ : BufTy).Contents (Elt F) → (⟨S131072x64, .f32⟩ : BufTy).Contents (Elt F)),
    StableHlo.unary main_arg11 main_v119 ((extractStridedSlice S1x1x64 ![0, 1, 0] · slices_S2x5x64_S1x1x64_0_1_0) : (⟨S2x5x64, .f32⟩ : BufTy).Contents (Elt F) → (⟨S1x1x64, .f32⟩ : BufTy).Contents (Elt F)),
    StableHlo.reshape main_v119 main_v120 rfl shapeCasts_S1x1x64_S64,
    StableHlo.unary main_v120 main_v121 (broadcastInDim S1x64 ![1] bcast_S64_S1x64_1 : (⟨S64, .f32⟩ : BufTy).Contents (Elt F) → (⟨S1x64, .f32⟩ : BufTy).Contents (Elt F)),
    StableHlo.unary main_v121 main_v122 (broadcastInDim S131072x64 ![0, 1] bcast_S1x64_S131072x64_0_1 : (⟨S1x64, .f32⟩ : BufTy).Contents (Elt F) → (⟨S131072x64, .f32⟩ : BufTy).Contents (Elt F)),
    StableHlo.binary main_v118 main_v122 main_v123 (addf : (⟨S131072x64, .f32⟩ : BufTy).Contents (Elt F) → (⟨S131072x64, .f32⟩ : BufTy).Contents (Elt F) → (⟨S131072x64, .f32⟩ : BufTy).Contents (Elt F)),
    StableHlo.unary main_arg12 main_v124 ((extractStridedSlice S1x1x64x64 ![0, 1, 0, 0] · slices_S2x5x64x64_S1x1x64x64_0_1_0_0) : (⟨S2x5x64x64, .f32⟩ : BufTy).Contents (Elt F) → (⟨S1x1x64x64, .f32⟩ : BufTy).Contents (Elt F)),
    StableHlo.reshape main_v124 main_v125 rfl shapeCasts_S1x1x64x64_S64x64,
    StableHlo.binary main_v114 main_v125 main_v126 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v83 main_v126 main_v127 (addf : (⟨S32768x64, .f32⟩ : BufTy).Contents (Elt F) → (⟨S32768x64, .f32⟩ : BufTy).Contents (Elt F) → (⟨S32768x64, .f32⟩ : BufTy).Contents (Elt F)),
    StableHlo.unary main_arg13 main_v128 ((extractStridedSlice S1x1x64 ![0, 1, 0] · slices_S2x5x64_S1x1x64_0_1_0) : (⟨S2x5x64, .f32⟩ : BufTy).Contents (Elt F) → (⟨S1x1x64, .f32⟩ : BufTy).Contents (Elt F)),
    StableHlo.reshape main_v128 main_v129 rfl shapeCasts_S1x1x64_S64,
    StableHlo.unary main_v129 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S32768x64 ![0, 1] bcast_S1x64_S32768x64_0_1 : (⟨S1x64, .f32⟩ : BufTy).Contents (Elt F) → (⟨S32768x64, .f32⟩ : BufTy).Contents (Elt F)),
    StableHlo.binary main_v127 main_v131 main_v132 (addf : (⟨S32768x64, .f32⟩ : BufTy).Contents (Elt F) → (⟨S32768x64, .f32⟩ : BufTy).Contents (Elt F) → (⟨S32768x64, .f32⟩ : BufTy).Contents (Elt F)),
    StableHlo.nullary main_c_19 (constantI S_ 32 0#32),
    StableHlo.unary main_c_19 main_v133 (broadcastInDim S2097152 ![] bcast_S_S2097152 : (⟨S_, .i32⟩ : BufTy).Contents (Elt F) → (⟨S2097152, .i32⟩ : BufTy).Contents (Elt F)),
    StableHlo.binary main_v1 main_v133 main_v134 (cmpi .slt : (⟨S2097152, .i32⟩ : BufTy).Contents (Elt F) → (⟨S2097152, .i32⟩ : BufTy).Contents (Elt F) → (⟨S2097152, .i1⟩ : BufTy).Contents (Elt F)),
    StableHlo.nullary main_c_20 (constantI S_ 32 131072#32),
    StableHlo.unary main_c_20 main_v135 (broadcastInDim S2097152 ![] bcast_S_S2097152 : (⟨S_, .i32⟩ : BufTy).Contents (Elt F) → (⟨S2097152, .i32⟩ : BufTy).Contents (Elt F)),
    StableHlo.binary main_v1 main_v135 main_v136 (addi : (⟨S2097152, .i32⟩ : BufTy).Contents (Elt F) → (⟨S2097152, .i32⟩ : BufTy).Contents (Elt F) → (⟨S2097152, .i32⟩ : BufTy).Contents (Elt F)),
    StableHlo.ternary main_v134 main_v136 main_v1 main_v137 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v137 main_v138 (broadcastInDim S2097152x1 ![0] bcast_S2097152_S2097152x1_0 : (⟨S2097152, .i32⟩ : BufTy).Contents (Elt F) → (⟨S2097152x1, .i32⟩ : BufTy).Contents (Elt F)),
    StableHlo.binary main_v104 main_v138 main_v139 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_21 (constant S_ .f32 0x00000000#32),
    StableHlo.unary main_cst_21 main_v140 (broadcastInDim S131072x64 ![] bcast_S_S131072x64 : (⟨S_, .f32⟩ : BufTy).Contents (Elt F) → (⟨S131072x64, .f32⟩ : BufTy).Contents (Elt F)),
    StableHlo.unary main_v3 main_v141 (broadcastInDim S2097152x1 ![0] bcast_S2097152_S2097152x1_0 : (⟨S2097152, .i32⟩ : BufTy).Contents (Elt F) → (⟨S2097152x1, .i32⟩ : BufTy).Contents (Elt F)),
    StableHlo.ternary main_v140 main_v141 main_v139 main_v142 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_22 (constantI S_ 32 0#32),
    StableHlo.unary main_c_22 main_v143 (broadcastInDim S65536 ![] bcast_S_S65536 : (⟨S_, .i32⟩ : BufTy).Contents (Elt F) → (⟨S65536, .i32⟩ : BufTy).Contents (Elt F)),
    StableHlo.binary main_arg19 main_v143 main_v144 (cmpi .slt : (⟨S65536, .i32⟩ : BufTy).Contents (Elt F) → (⟨S65536, .i32⟩ : BufTy).Contents (Elt F) → (⟨S65536, .i1⟩ : BufTy).Contents (Elt F)),
    StableHlo.nullary main_c_23 (constantI S_ 32 32768#32),
    StableHlo.unary main_c_23 main_v145 (broadcastInDim S65536 ![] bcast_S_S65536 : (⟨S_, .i32⟩ : BufTy).Contents (Elt F) → (⟨S65536, .i32⟩ : BufTy).Contents (Elt F)),
    StableHlo.binary main_arg19 main_v145 main_v146 (addi : (⟨S65536, .i32⟩ : BufTy).Contents (Elt F) → (⟨S65536, .i32⟩ : BufTy).Contents (Elt F) → (⟨S65536, .i32⟩ : BufTy).Contents (Elt F)),
    StableHlo.ternary main_v144 main_v146 main_arg19 main_v147 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v147 main_v148 (broadcastInDim S65536x1 ![0] bcast_S65536_S65536x1_0 : (⟨S65536, .i32⟩ : BufTy).Contents (Elt F) → (⟨S65536x1, .i32⟩ : BufTy).Contents (Elt F)),
    StableHlo.binary main_v114 main_v148 main_v149 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_24 (constant S_ .f32 0x00000000#32),
    StableHlo.unary main_cst_24 main_v150 (broadcastInDim S131072x64 ![] bcast_S_S131072x64 : (⟨S_, .f32⟩ : BufTy).Contents (Elt F) → (⟨S131072x64, .f32⟩ : BufTy).Contents (Elt F)),
    StableHlo.unary main_arg20 main_v151 (broadcastInDim S65536x1 ![0] bcast_S65536_S65536x1_0 : (⟨S65536, .i32⟩ : BufTy).Contents (Elt F) → (⟨S65536x1, .i32⟩ : BufTy).Contents (Elt F)),
    StableHlo.ternary main_v150 main_v151 main_v149 main_v152 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)) ]

end Cert.ReferenceIdeal.HRun

end
-- ==== Proof.RefOps3.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- The 60 host operations of window 3 of @main, in program order, each call replaced by its callee's operations over the call's own buffers. -/
abbrev ops_part3 : List (HloOp τ sig (Elt F)) :=
  [ StableHlo.binary main_v142 main_v152 main_v153 (addf : (⟨S131072x64, .f32⟩ : BufTy).Contents (Elt F) → (⟨S131072x64, .f32⟩ : BufTy).Contents (Elt F) → (⟨S131072x64, .f32⟩ : BufTy).Contents (Elt F)),
    StableHlo.nullary main_c_25 (constantI S_ 32 0#32),
    StableHlo.unary main_c_25 main_v154 (broadcastInDim S65536 ![] bcast_S_S65536 : (⟨S_, .i32⟩ : BufTy).Contents (Elt F) → (⟨S65536, .i32⟩ : BufTy).Contents (Elt F)),
    StableHlo.binary main_arg21 main_v154 main_v155 (cmpi .slt : (⟨S65536, .i32⟩ : BufTy).Contents (Elt F) → (⟨S65536, .i32⟩ : BufTy).Contents (Elt F) → (⟨S65536, .i1⟩ : BufTy).Contents (Elt F)),
    StableHlo.nullary main_c_26 (constantI S_ 32 131072#32),
    StableHlo.unary main_c_26 main_v156 (broadcastInDim S65536 ![] bcast_S_S65536 : (⟨S_, .i32⟩ : BufTy).Contents (Elt F) → (⟨S65536, .i32⟩ : BufTy).Contents (Elt F)),
    StableHlo.binary main_arg21 main_v156 main_v157 (addi : (⟨S65536, .i32⟩ : BufTy).Contents (Elt F) → (⟨S65536, .i32⟩ : BufTy).Contents (Elt F) → (⟨S65536, .i32⟩ : BufTy).Contents (Elt F)),
    StableHlo.ternary main_v155 main_v157 main_arg21 main_v158 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v158 main_v159 (broadcastInDim S65536x1 ![0] bcast_S65536_S65536x1_0 : (⟨S65536, .i32⟩ : BufTy).Contents (Elt F) → (⟨S65536x1, .i32⟩ : BufTy).Contents (Elt F)),
    StableHlo.binary main_v104 main_v159 main_v160 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_27 (constant S_ .f32 0x00000000#32),
    StableHlo.unary main_cst_27 main_v161 (broadcastInDim S32768x64 ![] bcast_S_S32768x64 : (⟨S_, .f32⟩ : BufTy).Contents (Elt F) → (⟨S32768x64, .f32⟩ : BufTy).Contents (Elt F)),
    StableHlo.unary main_arg22 main_v162 (broadcastInDim S65536x1 ![0] bcast_S65536_S65536x1_0 : (⟨S65536, .i32⟩ : BufTy).Contents (Elt F) → (⟨S65536x1, .i32⟩ : BufTy).Contents (Elt F)),
    StableHlo.ternary main_v161 main_v162 main_v160 main_v163 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)),
    StableHlo.unary main_arg10 main_v164 ((extractStridedSlice S1x1x64x64 ![0, 2, 0, 0] · slices_S2x5x64x64_S1x1x64x64_0_2_0_0) : (⟨S2x5x64x64, .f32⟩ : BufTy).Contents (Elt F) → (⟨S1x1x64x64, .f32⟩ : BufTy).Contents (Elt F)),
    StableHlo.reshape main_v164 main_v165 rfl shapeCasts_S1x1x64x64_S64x64,
    StableHlo.binary main_v153 main_v165 main_v166 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v123 main_v166 main_v167 (addf : (⟨S131072x64, .f32⟩ : BufTy).Contents (Elt F) → (⟨S131072x64, .f32⟩ : BufTy).Contents (Elt F) → (⟨S131072x64, .f32⟩ : BufTy).Contents (Elt F)),
    StableHlo.unary main_arg11 main_v168 ((extractStridedSlice S1x1x64 ![0, 2, 0] · slices_S2x5x64_S1x1x64_0_2_0) : (⟨S2x5x64, .f32⟩ : BufTy).Contents (Elt F) → (⟨S1x1x64, .f32⟩ : BufTy).Contents (Elt F)),
    StableHlo.reshape main_v168 main_v169 rfl shapeCasts_S1x1x64_S64,
    StableHlo.unary main_v169 main_v170 (broadcastInDim S1x64 ![1] bcast_S64_S1x64_1 : (⟨S64, .f32⟩ : BufTy).Contents (Elt F) → (⟨S1x64, .f32⟩ : BufTy).Contents (Elt F)),
    StableHlo.unary main_v170 main_v171 (broadcastInDim S131072x64 ![0, 1] bcast_S1x64_S131072x64_0_1 : (⟨S1x64, .f32⟩ : BufTy).Contents (Elt F) → (⟨S131072x64, .f32⟩ : BufTy).Contents (Elt F)),
    StableHlo.binary main_v167 main_v171 main_v172 (addf : (⟨S131072x64, .f32⟩ : BufTy).Contents (Elt F) → (⟨S131072x64, .f32⟩ : BufTy).Contents (Elt F) → (⟨S131072x64, .f32⟩ : BufTy).Contents (Elt F)),
    StableHlo.unary main_arg12 main_v173 ((extractStridedSlice S1x1x64x64 ![0, 2, 0, 0] · slices_S2x5x64x64_S1x1x64x64_0_2_0_0) : (⟨S2x5x64x64, .f32⟩ : BufTy).Contents (Elt F) → (⟨S1x1x64x64, .f32⟩ : BufTy).Contents (Elt F)),
    StableHlo.reshape main_v173 main_v174 rfl shapeCasts_S1x1x64x64_S64x64,
    StableHlo.binary main_v163 main_v174 main_v175 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v132 main_v175 main_v176 (addf : (⟨S32768x64, .f32⟩ : BufTy).Contents (Elt F) → (⟨S32768x64, .f32⟩ : BufTy).Contents (Elt F) → (⟨S32768x64, .f32⟩ : BufTy).Contents (Elt F)),
    StableHlo.unary main_arg13 main_v177 ((extractStridedSlice S1x1x64 ![0, 2, 0] · slices_S2x5x64_S1x1x64_0_2_0) : (⟨S2x5x64, .f32⟩ : BufTy).Contents (Elt F) → (⟨S1x1x64, .f32⟩ : BufTy).Contents (Elt F)),
    StableHlo.reshape main_v177 main_v178 rfl shapeCasts_S1x1x64_S64,
    StableHlo.unary main_v178 main_v179 (broadcastInDim S1x64 ![1] bcast_S64_S1x64_1 : (⟨S64, .f32⟩ : BufTy).Contents (Elt F) → (⟨S1x64, .f32⟩ : BufTy).Contents (Elt F)),
    StableHlo.unary main_v179 main_v180 (broadcastInDim S32768x64 ![0, 1] bcast_S1x64_S32768x64_0_1 : (⟨S1x64, .f32⟩ : BufTy).Contents (Elt F) → (⟨S32768x64, .f32⟩ : BufTy).Contents (Elt F)),
    StableHlo.binary main_v176 main_v180 main_v181 (addf : (⟨S32768x64, .f32⟩ : BufTy).Contents (Elt F) → (⟨S32768x64, .f32⟩ : BufTy).Contents (Elt F) → (⟨S32768x64, .f32⟩ : BufTy).Contents (Elt F)),
    StableHlo.nullary main_c_28 (constantI S_ 32 0#32),
    StableHlo.unary main_c_28 main_v182 (broadcastInDim S2097152 ![] bcast_S_S2097152 : (⟨S_, .i32⟩ : BufTy).Contents (Elt F) → (⟨S2097152, .i32⟩ : BufTy).Contents (Elt F)),
    StableHlo.binary main_v1 main_v182 main_v183 (cmpi .slt : (⟨S2097152, .i32⟩ : BufTy).Contents (Elt F) → (⟨S2097152, .i32⟩ : BufTy).Contents (Elt F) → (⟨S2097152, .i1⟩ : BufTy).Contents (Elt F)),
    StableHlo.nullary main_c_29 (constantI S_ 32 131072#32),
    StableHlo.unary main_c_29 main_v184 (broadcastInDim S2097152 ![] bcast_S_S2097152 : (⟨S_, .i32⟩ : BufTy).Contents (Elt F) → (⟨S2097152, .i32⟩ : BufTy).Contents (Elt F)),
    StableHlo.binary main_v1 main_v184 main_v185 (addi : (⟨S2097152, .i32⟩ : BufTy).Contents (Elt F) → (⟨S2097152, .i32⟩ : BufTy).Contents (Elt F) → (⟨S2097152, .i32⟩ : BufTy).Contents (Elt F)),
    StableHlo.ternary main_v183 main_v185 main_v1 main_v186 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v186 main_v187 (broadcastInDim S2097152x1 ![0] bcast_S2097152_S2097152x1_0 : (⟨S2097152, .i32⟩ : BufTy).Contents (Elt F) → (⟨S2097152x1, .i32⟩ : BufTy).Contents (Elt F)),
    StableHlo.binary main_v153 main_v187 main_v188 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_30 (constant S_ .f32 0x00000000#32),
    StableHlo.unary main_cst_30 main_v189 (broadcastInDim S131072x64 ![] bcast_S_S131072x64 : (⟨S_, .f32⟩ : BufTy).Contents (Elt F) → (⟨S131072x64, .f32⟩ : BufTy).Contents (Elt F)),
    StableHlo.unary main_v3 main_v190 (broadcastInDim S2097152x1 ![0] bcast_S2097152_S2097152x1_0 : (⟨S2097152, .i32⟩ : BufTy).Contents (Elt F) → (⟨S2097152x1, .i32⟩ : BufTy).Contents (Elt F)),
    StableHlo.ternary main_v189 main_v190 main_v188 main_v191 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_31 (constantI S_ 32 0#32),
    StableHlo.unary main_c_31 main_v192 (broadcastInDim S65536 ![] bcast_S_S65536 : (⟨S_, .i32⟩ : BufTy).Contents (Elt F) → (⟨S65536, .i32⟩ : BufTy).Contents (Elt F)),
    StableHlo.binary main_arg19 main_v192 main_v193 (cmpi .slt : (⟨S65536, .i32⟩ : BufTy).Contents (Elt F) → (⟨S65536, .i32⟩ : BufTy).Contents (Elt F) → (⟨S65536, .i1⟩ : BufTy).Contents (Elt F)),
    StableHlo.nullary main_c_32 (constantI S_ 32 32768#32),
    StableHlo.unary main_c_32 main_v194 (broadcastInDim S65536 ![] bcast_S_S65536 : (⟨S_, .i32⟩ : BufTy).Contents (Elt F) → (⟨S65536, .i32⟩ : BufTy).Contents (Elt F)),
    StableHlo.binary main_arg19 main_v194 main_v195 (addi : (⟨S65536, .i32⟩ : BufTy).Contents (Elt F) → (⟨S65536, .i32⟩ : BufTy).Contents (Elt F) → (⟨S65536, .i32⟩ : BufTy).Contents (Elt F)),
    StableHlo.ternary main_v193 main_v195 main_arg19 main_v196 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v196 main_v197 (broadcastInDim S65536x1 ![0] bcast_S65536_S65536x1_0 : (⟨S65536, .i32⟩ : BufTy).Contents (Elt F) → (⟨S65536x1, .i32⟩ : BufTy).Contents (Elt F)),
    StableHlo.binary main_v163 main_v197 main_v198 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_33 (constant S_ .f32 0x00000000#32),
    StableHlo.unary main_cst_33 main_v199 (broadcastInDim S131072x64 ![] bcast_S_S131072x64 : (⟨S_, .f32⟩ : BufTy).Contents (Elt F) → (⟨S131072x64, .f32⟩ : BufTy).Contents (Elt F)),
    StableHlo.unary main_arg20 main_v200 (broadcastInDim S65536x1 ![0] bcast_S65536_S65536x1_0 : (⟨S65536, .i32⟩ : BufTy).Contents (Elt F) → (⟨S65536x1, .i32⟩ : BufTy).Contents (Elt F)),
    StableHlo.ternary main_v199 main_v200 main_v198 main_v201 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)),
    StableHlo.binary main_v191 main_v201 main_v202 (addf : (⟨S131072x64, .f32⟩ : BufTy).Contents (Elt F) → (⟨S131072x64, .f32⟩ : BufTy).Contents (Elt F) → (⟨S131072x64, .f32⟩ : BufTy).Contents (Elt F)),
    StableHlo.nullary main_c_34 (constantI S_ 32 0#32) ]

end Cert.ReferenceIdeal.HRun

end
-- ==== Proof.RefOps4.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- The 60 host operations of window 4 of @main, in program order, each call replaced by its callee's operations over the call's own buffers. -/
abbrev ops_part4 : List (HloOp τ sig (Elt F)) :=
  [ StableHlo.unary main_c_34 main_v203 (broadcastInDim S65536 ![] bcast_S_S65536 : (⟨S_, .i32⟩ : BufTy).Contents (Elt F) → (⟨S65536, .i32⟩ : BufTy).Contents (Elt F)),
    StableHlo.binary main_arg21 main_v203 main_v204 (cmpi .slt : (⟨S65536, .i32⟩ : BufTy).Contents (Elt F) → (⟨S65536, .i32⟩ : BufTy).Contents (Elt F) → (⟨S65536, .i1⟩ : BufTy).Contents (Elt F)),
    StableHlo.nullary main_c_35 (constantI S_ 32 131072#32),
    StableHlo.unary main_c_35 main_v205 (broadcastInDim S65536 ![] bcast_S_S65536 : (⟨S_, .i32⟩ : BufTy).Contents (Elt F) → (⟨S65536, .i32⟩ : BufTy).Contents (Elt F)),
    StableHlo.binary main_arg21 main_v205 main_v206 (addi : (⟨S65536, .i32⟩ : BufTy).Contents (Elt F) → (⟨S65536, .i32⟩ : BufTy).Contents (Elt F) → (⟨S65536, .i32⟩ : BufTy).Contents (Elt F)),
    StableHlo.ternary main_v204 main_v206 main_arg21 main_v207 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v207 main_v208 (broadcastInDim S65536x1 ![0] bcast_S65536_S65536x1_0 : (⟨S65536, .i32⟩ : BufTy).Contents (Elt F) → (⟨S65536x1, .i32⟩ : BufTy).Contents (Elt F)),
    StableHlo.binary main_v153 main_v208 main_v209 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_36 (constant S_ .f32 0x00000000#32),
    StableHlo.unary main_cst_36 main_v210 (broadcastInDim S32768x64 ![] bcast_S_S32768x64 : (⟨S_, .f32⟩ : BufTy).Contents (Elt F) → (⟨S32768x64, .f32⟩ : BufTy).Contents (Elt F)),
    StableHlo.unary main_arg22 main_v211 (broadcastInDim S65536x1 ![0] bcast_S65536_S65536x1_0 : (⟨S65536, .i32⟩ : BufTy).Contents (Elt F) → (⟨S65536x1, .i32⟩ : BufTy).Contents (Elt F)),
    StableHlo.ternary main_v210 main_v211 main_v209 main_v212 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)),
    StableHlo.unary main_arg10 main_v213 ((extractStridedSlice S1x1x64x64 ![0, 3, 0, 0] · slices_S2x5x64x64_S1x1x64x64_0_3_0_0) : (⟨S2x5x64x64, .f32⟩ : BufTy).Contents (Elt F) → (⟨S1x1x64x64, .f32⟩ : BufTy).Contents (Elt F)),
    StableHlo.reshape main_v213 main_v214 rfl shapeCasts_S1x1x64x64_S64x64,
    StableHlo.binary main_v202 main_v214 main_v215 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v172 main_v215 main_v216 (addf : (⟨S131072x64, .f32⟩ : BufTy).Contents (Elt F) → (⟨S131072x64, .f32⟩ : BufTy).Contents (Elt F) → (⟨S131072x64, .f32⟩ : BufTy).Contents (Elt F)),
    StableHlo.unary main_arg11 main_v217 ((extractStridedSlice S1x1x64 ![0, 3, 0] · slices_S2x5x64_S1x1x64_0_3_0) : (⟨S2x5x64, .f32⟩ : BufTy).Contents (Elt F) → (⟨S1x1x64, .f32⟩ : BufTy).Contents (Elt F)),
    StableHlo.reshape main_v217 main_v218 rfl shapeCasts_S1x1x64_S64,
    StableHlo.unary main_v218 main_v219 (broadcastInDim S1x64 ![1] bcast_S64_S1x64_1 : (⟨S64, .f32⟩ : BufTy).Contents (Elt F) → (⟨S1x64, .f32⟩ : BufTy).Contents (Elt F)),
    StableHlo.unary main_v219 main_v220 (broadcastInDim S131072x64 ![0, 1] bcast_S1x64_S131072x64_0_1 : (⟨S1x64, .f32⟩ : BufTy).Contents (Elt F) → (⟨S131072x64, .f32⟩ : BufTy).Contents (Elt F)),
    StableHlo.binary main_v216 main_v220 main_v221 (addf : (⟨S131072x64, .f32⟩ : BufTy).Contents (Elt F) → (⟨S131072x64, .f32⟩ : BufTy).Contents (Elt F) → (⟨S131072x64, .f32⟩ : BufTy).Contents (Elt F)),
    StableHlo.unary main_arg12 main_v222 ((extractStridedSlice S1x1x64x64 ![0, 3, 0, 0] · slices_S2x5x64x64_S1x1x64x64_0_3_0_0) : (⟨S2x5x64x64, .f32⟩ : BufTy).Contents (Elt F) → (⟨S1x1x64x64, .f32⟩ : BufTy).Contents (Elt F)),
    StableHlo.reshape main_v222 main_v223 rfl shapeCasts_S1x1x64x64_S64x64,
    StableHlo.binary main_v212 main_v223 main_v224 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v181 main_v224 main_v225 (addf : (⟨S32768x64, .f32⟩ : BufTy).Contents (Elt F) → (⟨S32768x64, .f32⟩ : BufTy).Contents (Elt F) → (⟨S32768x64, .f32⟩ : BufTy).Contents (Elt F)),
    StableHlo.unary main_arg13 main_v226 ((extractStridedSlice S1x1x64 ![0, 3, 0] · slices_S2x5x64_S1x1x64_0_3_0) : (⟨S2x5x64, .f32⟩ : BufTy).Contents (Elt F) → (⟨S1x1x64, .f32⟩ : BufTy).Contents (Elt F)),
    StableHlo.reshape main_v226 main_v227 rfl shapeCasts_S1x1x64_S64,
    StableHlo.unary main_v227 main_v228 (broadcastInDim S1x64 ![1] bcast_S64_S1x64_1 : (⟨S64, .f32⟩ : BufTy).Contents (Elt F) → (⟨S1x64, .f32⟩ : BufTy).Contents (Elt F)),
    StableHlo.unary main_v228 main_v229 (broadcastInDim S32768x64 ![0, 1] bcast_S1x64_S32768x64_0_1 : (⟨S1x64, .f32⟩ : BufTy).Contents (Elt F) → (⟨S32768x64, .f32⟩ : BufTy).Contents (Elt F)),
    StableHlo.binary main_v225 main_v229 main_v230 (addf : (⟨S32768x64, .f32⟩ : BufTy).Contents (Elt F) → (⟨S32768x64, .f32⟩ : BufTy).Contents (Elt F) → (⟨S32768x64, .f32⟩ : BufTy).Contents (Elt F)),
    StableHlo.nullary main_c_37 (constantI S_ 32 0#32),
    StableHlo.unary main_c_37 main_v231 (broadcastInDim S2097152 ![] bcast_S_S2097152 : (⟨S_, .i32⟩ : BufTy).Contents (Elt F) → (⟨S2097152, .i32⟩ : BufTy).Contents (Elt F)),
    StableHlo.binary main_v1 main_v231 main_v232 (cmpi .slt : (⟨S2097152, .i32⟩ : BufTy).Contents (Elt F) → (⟨S2097152, .i32⟩ : BufTy).Contents (Elt F) → (⟨S2097152, .i1⟩ : BufTy).Contents (Elt F)),
    StableHlo.nullary main_c_38 (constantI S_ 32 131072#32),
    StableHlo.unary main_c_38 main_v233 (broadcastInDim S2097152 ![] bcast_S_S2097152 : (⟨S_, .i32⟩ : BufTy).Contents (Elt F) → (⟨S2097152, .i32⟩ : BufTy).Contents (Elt F)),
    StableHlo.binary main_v1 main_v233 main_v234 (addi : (⟨S2097152, .i32⟩ : BufTy).Contents (Elt F) → (⟨S2097152, .i32⟩ : BufTy).Contents (Elt F) → (⟨S2097152, .i32⟩ : BufTy).Contents (Elt F)),
    StableHlo.ternary main_v232 main_v234 main_v1 main_v235 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v235 main_v236 (broadcastInDim S2097152x1 ![0] bcast_S2097152_S2097152x1_0 : (⟨S2097152, .i32⟩ : BufTy).Contents (Elt F) → (⟨S2097152x1, .i32⟩ : BufTy).Contents (Elt F)),
    StableHlo.binary main_v202 main_v236 main_v237 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_39 (constant S_ .f32 0x00000000#32),
    StableHlo.unary main_cst_39 main_v238 (broadcastInDim S131072x64 ![] bcast_S_S131072x64 : (⟨S_, .f32⟩ : BufTy).Contents (Elt F) → (⟨S131072x64, .f32⟩ : BufTy).Contents (Elt F)),
    StableHlo.unary main_v3 main_v239 (broadcastInDim S2097152x1 ![0] bcast_S2097152_S2097152x1_0 : (⟨S2097152, .i32⟩ : BufTy).Contents (Elt F) → (⟨S2097152x1, .i32⟩ : BufTy).Contents (Elt F)),
    StableHlo.ternary main_v238 main_v239 main_v237 main_v240 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_40 (constantI S_ 32 0#32),
    StableHlo.unary main_c_40 main_v241 (broadcastInDim S65536 ![] bcast_S_S65536 : (⟨S_, .i32⟩ : BufTy).Contents (Elt F) → (⟨S65536, .i32⟩ : BufTy).Contents (Elt F)),
    StableHlo.binary main_arg19 main_v241 main_v242 (cmpi .slt : (⟨S65536, .i32⟩ : BufTy).Contents (Elt F) → (⟨S65536, .i32⟩ : BufTy).Contents (Elt F) → (⟨S65536, .i1⟩ : BufTy).Contents (Elt F)),
    StableHlo.nullary main_c_41 (constantI S_ 32 32768#32),
    StableHlo.unary main_c_41 main_v243 (broadcastInDim S65536 ![] bcast_S_S65536 : (⟨S_, .i32⟩ : BufTy).Contents (Elt F) → (⟨S65536, .i32⟩ : BufTy).Contents (Elt F)),
    StableHlo.binary main_arg19 main_v243 main_v244 (addi : (⟨S65536, .i32⟩ : BufTy).Contents (Elt F) → (⟨S65536, .i32⟩ : BufTy).Contents (Elt F) → (⟨S65536, .i32⟩ : BufTy).Contents (Elt F)),
    StableHlo.ternary main_v242 main_v244 main_arg19 main_v245 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v245 main_v246 (broadcastInDim S65536x1 ![0] bcast_S65536_S65536x1_0 : (⟨S65536, .i32⟩ : BufTy).Contents (Elt F) → (⟨S65536x1, .i32⟩ : BufTy).Contents (Elt F)),
    StableHlo.binary main_v212 main_v246 main_v247 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_42 (constant S_ .f32 0x00000000#32),
    StableHlo.unary main_cst_42 main_v248 (broadcastInDim S131072x64 ![] bcast_S_S131072x64 : (⟨S_, .f32⟩ : BufTy).Contents (Elt F) → (⟨S131072x64, .f32⟩ : BufTy).Contents (Elt F)),
    StableHlo.unary main_arg20 main_v249 (broadcastInDim S65536x1 ![0] bcast_S65536_S65536x1_0 : (⟨S65536, .i32⟩ : BufTy).Contents (Elt F) → (⟨S65536x1, .i32⟩ : BufTy).Contents (Elt F)),
    StableHlo.ternary main_v248 main_v249 main_v247 main_v250 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)),
    StableHlo.binary main_v240 main_v250 main_v251 (addf : (⟨S131072x64, .f32⟩ : BufTy).Contents (Elt F) → (⟨S131072x64, .f32⟩ : BufTy).Contents (Elt F) → (⟨S131072x64, .f32⟩ : BufTy).Contents (Elt F)),
    StableHlo.nullary main_c_43 (constantI S_ 32 0#32),
    StableHlo.unary main_c_43 main_v252 (broadcastInDim S65536 ![] bcast_S_S65536 : (⟨S_, .i32⟩ : BufTy).Contents (Elt F) → (⟨S65536, .i32⟩ : BufTy).Contents (Elt F)),
    StableHlo.binary main_arg21 main_v252 main_v253 (cmpi .slt : (⟨S65536, .i32⟩ : BufTy).Contents (Elt F) → (⟨S65536, .i32⟩ : BufTy).Contents (Elt F) → (⟨S65536, .i1⟩ : BufTy).Contents (Elt F)) ]

end Cert.ReferenceIdeal.HRun

end
-- ==== Proof.RefOps5.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- The 81 host operations of window 5 of @main, in program order, each call replaced by its callee's operations over the call's own buffers. -/
abbrev ops_part5 : List (HloOp τ sig (Elt F)) :=
  [ StableHlo.nullary main_c_44 (constantI S_ 32 131072#32),
    StableHlo.unary main_c_44 main_v254 (broadcastInDim S65536 ![] bcast_S_S65536 : (⟨S_, .i32⟩ : BufTy).Contents (Elt F) → (⟨S65536, .i32⟩ : BufTy).Contents (Elt F)),
    StableHlo.binary main_arg21 main_v254 main_v255 (addi : (⟨S65536, .i32⟩ : BufTy).Contents (Elt F) → (⟨S65536, .i32⟩ : BufTy).Contents (Elt F) → (⟨S65536, .i32⟩ : BufTy).Contents (Elt F)),
    StableHlo.ternary main_v253 main_v255 main_arg21 main_v256 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v256 main_v257 (broadcastInDim S65536x1 ![0] bcast_S65536_S65536x1_0 : (⟨S65536, .i32⟩ : BufTy).Contents (Elt F) → (⟨S65536x1, .i32⟩ : BufTy).Contents (Elt F)),
    StableHlo.binary main_v202 main_v257 main_v258 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_45 (constant S_ .f32 0x00000000#32),
    StableHlo.unary main_cst_45 main_v259 (broadcastInDim S32768x64 ![] bcast_S_S32768x64 : (⟨S_, .f32⟩ : BufTy).Contents (Elt F) → (⟨S32768x64, .f32⟩ : BufTy).Contents (Elt F)),
    StableHlo.unary main_arg22 main_v260 (broadcastInDim S65536x1 ![0] bcast_S65536_S65536x1_0 : (⟨S65536, .i32⟩ : BufTy).Contents (Elt F) → (⟨S65536x1, .i32⟩ : BufTy).Contents (Elt F)),
    StableHlo.ternary main_v259 main_v260 main_v258 main_v261 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)),
    StableHlo.unary main_arg10 main_v262 ((extractStridedSlice S1x1x64x64 ![0, 4, 0, 0] · slices_S2x5x64x64_S1x1x64x64_0_4_0_0) : (⟨S2x5x64x64, .f32⟩ : BufTy).Contents (Elt F) → (⟨S1x1x64x64, .f32⟩ : BufTy).Contents (Elt F)),
    StableHlo.reshape main_v262 main_v263 rfl shapeCasts_S1x1x64x64_S64x64,
    StableHlo.binary main_v251 main_v263 main_v264 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v221 main_v264 main_v265 (addf : (⟨S131072x64, .f32⟩ : BufTy).Contents (Elt F) → (⟨S131072x64, .f32⟩ : BufTy).Contents (Elt F) → (⟨S131072x64, .f32⟩ : BufTy).Contents (Elt F)),
    StableHlo.unary main_arg11 main_v266 ((extractStridedSlice S1x1x64 ![0, 4, 0] · slices_S2x5x64_S1x1x64_0_4_0) : (⟨S2x5x64, .f32⟩ : BufTy).Contents (Elt F) → (⟨S1x1x64, .f32⟩ : BufTy).Contents (Elt F)),
    StableHlo.reshape main_v266 main_v267 rfl shapeCasts_S1x1x64_S64,
    StableHlo.unary main_v267 main_v268 (broadcastInDim S1x64 ![1] bcast_S64_S1x64_1 : (⟨S64, .f32⟩ : BufTy).Contents (Elt F) → (⟨S1x64, .f32⟩ : BufTy).Contents (Elt F)),
    StableHlo.unary main_v268 main_v269 (broadcastInDim S131072x64 ![0, 1] bcast_S1x64_S131072x64_0_1 : (⟨S1x64, .f32⟩ : BufTy).Contents (Elt F) → (⟨S131072x64, .f32⟩ : BufTy).Contents (Elt F)),
    StableHlo.binary main_v265 main_v269 main_v270 (addf : (⟨S131072x64, .f32⟩ : BufTy).Contents (Elt F) → (⟨S131072x64, .f32⟩ : BufTy).Contents (Elt F) → (⟨S131072x64, .f32⟩ : BufTy).Contents (Elt F)),
    StableHlo.unary main_arg12 main_v271 ((extractStridedSlice S1x1x64x64 ![0, 4, 0, 0] · slices_S2x5x64x64_S1x1x64x64_0_4_0_0) : (⟨S2x5x64x64, .f32⟩ : BufTy).Contents (Elt F) → (⟨S1x1x64x64, .f32⟩ : BufTy).Contents (Elt F)),
    StableHlo.reshape main_v271 main_v272 rfl shapeCasts_S1x1x64x64_S64x64,
    StableHlo.binary main_v261 main_v272 main_v273 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v230 main_v273 main_v274 (addf : (⟨S32768x64, .f32⟩ : BufTy).Contents (Elt F) → (⟨S32768x64, .f32⟩ : BufTy).Contents (Elt F) → (⟨S32768x64, .f32⟩ : BufTy).Contents (Elt F)),
    StableHlo.unary main_arg13 main_v275 ((extractStridedSlice S1x1x64 ![0, 4, 0] · slices_S2x5x64_S1x1x64_0_4_0) : (⟨S2x5x64, .f32⟩ : BufTy).Contents (Elt F) → (⟨S1x1x64, .f32⟩ : BufTy).Contents (Elt F)),
    StableHlo.reshape main_v275 main_v276 rfl shapeCasts_S1x1x64_S64,
    StableHlo.unary main_v276 main_v277 (broadcastInDim S1x64 ![1] bcast_S64_S1x64_1 : (⟨S64, .f32⟩ : BufTy).Contents (Elt F) → (⟨S1x64, .f32⟩ : BufTy).Contents (Elt F)),
    StableHlo.unary main_v277 main_v278 (broadcastInDim S32768x64 ![0, 1] bcast_S1x64_S32768x64_0_1 : (⟨S1x64, .f32⟩ : BufTy).Contents (Elt F) → (⟨S32768x64, .f32⟩ : BufTy).Contents (Elt F)),
    StableHlo.binary main_v274 main_v278 main_v279 (addf : (⟨S32768x64, .f32⟩ : BufTy).Contents (Elt F) → (⟨S32768x64, .f32⟩ : BufTy).Contents (Elt F) → (⟨S32768x64, .f32⟩ : BufTy).Contents (Elt F)),
    StableHlo.binary main_v7 main_v270 main_v280 (addf : (⟨S131072x64, .f32⟩ : BufTy).Contents (Elt F) → (⟨S131072x64, .f32⟩ : BufTy).Contents (Elt F) → (⟨S131072x64, .f32⟩ : BufTy).Contents (Elt F)),
    StableHlo.binary main_v11 main_v279 main_v281 (addf : (⟨S32768x64, .f32⟩ : BufTy).Contents (Elt F) → (⟨S32768x64, .f32⟩ : BufTy).Contents (Elt F) → (⟨S32768x64, .f32⟩ : BufTy).Contents (Elt F)),
    StableHlo.unary main_arg6 main_v282 ((extractStridedSlice S1x64 ![1, 0] · slices_S2x64_S1x64_1_0) : (⟨S2x64, .f32⟩ : BufTy).Contents (Elt F) → (⟨S1x64, .f32⟩ : BufTy).Contents (Elt F)),
    StableHlo.reshape main_v282 main_v283 rfl shapeCasts_S1x64_S64,
    StableHlo.unary main_arg7 main_v284 ((extractStridedSlice S1x64 ![1, 0] · slices_S2x64_S1x64_1_0) : (⟨S2x64, .f32⟩ : BufTy).Contents (Elt F) → (⟨S1x64, .f32⟩ : BufTy).Contents (Elt F)),
    StableHlo.reshape main_v284 main_v285 rfl shapeCasts_S1x64_S64,
    StableHlo.nullary main_cst_46 (constant S_ .f32 0x00000000#32),
    StableHlo.binary main_v280 main_cst_46 main_v286 ((fun x v => Host.reduceAdd x v reducesTo_S131072x64_S64_d0 h_S_) : (⟨S131072x64, .f32⟩ : BufTy).Contents (Elt F) → (⟨S_, .f32⟩ : BufTy).Contents (Elt F) → (⟨S64, .f32⟩ : BufTy).Contents (Elt F)),
    StableHlo.nullary main_cst_47 (constant S_ .f32 0x48000000#32),
    StableHlo.unary main_cst_47 main_v287 (broadcastInDim S64 ![] bcast_S_S64 : (⟨S_, .f32⟩ : BufTy).Contents (Elt F) → (⟨S64, .f32⟩ : BufTy).Contents (Elt F)),
    StableHlo.binary main_v286 main_v287 main_v288 (Host.divf : (⟨S64, .f32⟩ : BufTy).Contents (Elt F) → (⟨S64, .f32⟩ : BufTy).Contents (Elt F) → (⟨S64, .f32⟩ : BufTy).Contents (Elt F)),
    StableHlo.nullary main_c_48 (constantI S_ 32 0#32),
    StableHlo.TRef.nullary main_call4.cst (constant S_ .f32 0x00000000#32),
    StableHlo.TRef.binary (.of main_v280 : StableHlo.TRef sig ⟨S131072x64, .f32⟩) main_call4.cst main_call4.v0 (fun x v => Host.reduceAdd x v reducesTo_S131072x64_S64_d0 h_S_),
    StableHlo.TRef.unary main_call4.v0 main_call4.v1 (broadcastInDim S1x64 ![1] bcast_S64_S1x64_1),
    StableHlo.TRef.nullary main_call4.cst_0 (constant S_ .f32 0x48000000#32),
    StableHlo.TRef.unary main_call4.cst_0 main_call4.v2 (broadcastInDim S1x64 ![] bcast_S_S1x64),
    StableHlo.TRef.binary main_call4.v1 main_call4.v2 main_call4.v3 Host.divf,
    StableHlo.TRef.unary main_call4.v3 main_call4.v4 (broadcastInDim S131072x64 ![0, 1] bcast_S1x64_S131072x64_0_1),
    StableHlo.TRef.binary (.of main_v280 : StableHlo.TRef sig ⟨S131072x64, .f32⟩) main_call4.v4 main_call4.v5 subf,
    StableHlo.TRef.binary main_call4.v5 main_call4.v5 main_call4.v6 mulf,
    StableHlo.TRef.unary (.of main_c_48 : StableHlo.TRef sig ⟨S_, .i32⟩) main_call4.v7 (sitofp .f32),
    StableHlo.TRef.nullary main_call4.cst_1 (constant S_ .f32 0x48000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S131072x64_S64_d0 h_S_),
    StableHlo.TRef.unary main_call4.v8 main_call4.v10 (broadcastInDim S64 ![] bcast_S_S64),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S64 ![] bcast_S_S64),
    StableHlo.TRef.ternary main_call4.v12 main_call4.v11 main_call4.call0.v1 main_call4.call0.v2 (fun p a b => select (broadcastInDim S64 ![] bcast_S_S64 p) a b),
    StableHlo.unary main_v288 main_v290 (broadcastInDim S1x64 ![1] bcast_S64_S1x64_1 : (⟨S64, .f32⟩ : BufTy).Contents (Elt F) → (⟨S1x64, .f32⟩ : BufTy).Contents (Elt F)),
    StableHlo.unary main_v290 main_v291 (broadcastInDim S131072x64 ![0, 1] bcast_S1x64_S131072x64_0_1 : (⟨S1x64, .f32⟩ : BufTy).Contents (Elt F) → (⟨S131072x64, .f32⟩ : BufTy).Contents (Elt F)),
    StableHlo.binary main_v280 main_v291 main_v292 (subf : (⟨S131072x64, .f32⟩ : BufTy).Contents (Elt F) → (⟨S131072x64, .f32⟩ : BufTy).Contents (Elt F) → (⟨S131072x64, .f32⟩ : BufTy).Contents (Elt F)),
    StableHlo.nullary main_cst_49 (constant S_ .f32 0x3727C5AC#32),
    StableHlo.unary main_cst_49 main_v293 (broadcastInDim S64 ![] bcast_S_S64 : (⟨S_, .f32⟩ : BufTy).Contents (Elt F) → (⟨S64, .f32⟩ : BufTy).Contents (Elt F)),
    StableHlo.binary main_v289 main_v293 main_v294 (addf : (⟨S64, .f32⟩ : BufTy).Contents (Elt F) → (⟨S64, .f32⟩ : BufTy).Contents (Elt F) → (⟨S64, .f32⟩ : BufTy).Contents (Elt F)),
    StableHlo.unary main_v294 main_v295 (Host.rsqrt : (⟨S64, .f32⟩ : BufTy).Contents (Elt F) → (⟨S64, .f32⟩ : BufTy).Contents (Elt F)),
    StableHlo.unary main_v295 main_v296 (broadcastInDim S1x64 ![1] bcast_S64_S1x64_1 : (⟨S64, .f32⟩ : BufTy).Contents (Elt F) → (⟨S1x64, .f32⟩ : BufTy).Contents (Elt F)),
    StableHlo.unary main_v296 main_v297 (broadcastInDim S131072x64 ![0, 1] bcast_S1x64_S131072x64_0_1 : (⟨S1x64, .f32⟩ : BufTy).Contents (Elt F) → (⟨S131072x64, .f32⟩ : BufTy).Contents (Elt F)),
    StableHlo.binary main_v292 main_v297 main_v298 (mulf : (⟨S131072x64, .f32⟩ : BufTy).Contents (Elt F) → (⟨S131072x64, .f32⟩ : BufTy).Contents (Elt F) → (⟨S131072x64, .f32⟩ : BufTy).Contents (Elt F)),
    StableHlo.unary main_v283 main_v299 (broadcastInDim S1x64 ![1] bcast_S64_S1x64_1 : (⟨S64, .f32⟩ : BufTy).Contents (Elt F) → (⟨S1x64, .f32⟩ : BufTy).Contents (Elt F)),
    StableHlo.unary main_v299 main_v300 (broadcastInDim S131072x64 ![0, 1] bcast_S1x64_S131072x64_0_1 : (⟨S1x64, .f32⟩ : BufTy).Contents (Elt F) → (⟨S131072x64, .f32⟩ : BufTy).Contents (Elt F)),
    StableHlo.binary main_v298 main_v300 main_v301 (mulf : (⟨S131072x64, .f32⟩ : BufTy).Contents (Elt F) → (⟨S131072x64, .f32⟩ : BufTy).Contents (Elt F) → (⟨S131072x64, .f32⟩ : BufTy).Contents (Elt F)),
    StableHlo.unary main_v285 main_v302 (broadcastInDim S1x64 ![1] bcast_S64_S1x64_1 : (⟨S64, .f32⟩ : BufTy).Contents (Elt F) → (⟨S1x64, .f32⟩ : BufTy).Contents (Elt F)),
    StableHlo.unary main_v302 main_v303 (broadcastInDim S131072x64 ![0, 1] bcast_S1x64_S131072x64_0_1 : (⟨S1x64, .f32⟩ : BufTy).Contents (Elt F) → (⟨S131072x64, .f32⟩ : BufTy).Contents (Elt F)),
    StableHlo.binary main_v301 main_v303 main_v304 (addf : (⟨S131072x64, .f32⟩ : BufTy).Contents (Elt F) → (⟨S131072x64, .f32⟩ : BufTy).Contents (Elt F) → (⟨S131072x64, .f32⟩ : BufTy).Contents (Elt F)),
    StableHlo.nullary main_cst_50 (constant S_ .f32 0x00000000#32),
    StableHlo.unary main_cst_50 main_v305 (broadcastInDim S131072x64 ![] bcast_S_S131072x64 : (⟨S_, .f32⟩ : BufTy).Contents (Elt F) → (⟨S131072x64, .f32⟩ : BufTy).Contents (Elt F)),
    StableHlo.binary main_v304 main_v305 main_v306 (cmpf .oge : (⟨S131072x64, .f32⟩ : BufTy).Contents (Elt F) → (⟨S131072x64, .f32⟩ : BufTy).Contents (Elt F) → (⟨S131072x64, .i1⟩ : BufTy).Contents (Elt F)) ]

end Cert.ReferenceIdeal.HRun

end
-- ==== Proof.RefOps6.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- The 81 host operations of window 6 of @main, in program order, each call replaced by its callee's operations over the call's own buffers. -/
abbrev ops_part6 : List (HloOp τ sig (Elt F)) :=
  [ StableHlo.nullary main_cst_51 (constant S_ .f32 0x3C23D70A#32),
    StableHlo.unary main_cst_51 main_v307 (broadcastInDim S131072x64 ![] bcast_S_S131072x64 : (⟨S_, .f32⟩ : BufTy).Contents (Elt F) → (⟨S131072x64, .f32⟩ : BufTy).Contents (Elt F)),
    StableHlo.binary main_v307 main_v304 main_v308 (mulf : (⟨S131072x64, .f32⟩ : BufTy).Contents (Elt F) → (⟨S131072x64, .f32⟩ : BufTy).Contents (Elt F) → (⟨S131072x64, .f32⟩ : BufTy).Contents (Elt F)),
    StableHlo.TRef.ternary (.of main_v306 : StableHlo.TRef sig ⟨S131072x64, .i1⟩) (.of main_v304 : StableHlo.TRef sig ⟨S131072x64, .f32⟩) (.of main_v308 : StableHlo.TRef sig ⟨S131072x64, .f32⟩) main_call5.v0 select,
    StableHlo.unary main_arg8 main_v310 ((extractStridedSlice S1x64 ![1, 0] · slices_S2x64_S1x64_1_0) : (⟨S2x64, .f32⟩ : BufTy).Contents (Elt F) → (⟨S1x64, .f32⟩ : BufTy).Contents (Elt F)),
    StableHlo.reshape main_v310 main_v311 rfl shapeCasts_S1x64_S64,
    StableHlo.unary main_arg9 main_v312 ((extractStridedSlice S1x64 ![1, 0] · slices_S2x64_S1x64_1_0) : (⟨S2x64, .f32⟩ : BufTy).Contents (Elt F) → (⟨S1x64, .f32⟩ : BufTy).Contents (Elt F)),
    StableHlo.reshape main_v312 main_v313 rfl shapeCasts_S1x64_S64,
    StableHlo.nullary main_cst_52 (constant S_ .f32 0x00000000#32),
    StableHlo.binary main_v281 main_cst_52 main_v314 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    StableHlo.nullary main_cst_53 (constant S_ .f32 0x47000000#32),
    StableHlo.unary main_cst_53 main_v315 (broadcastInDim S64 ![] bcast_S_S64 : (⟨S_, .f32⟩ : BufTy).Contents (Elt F) → (⟨S64, .f32⟩ : BufTy).Contents (Elt F)),
    StableHlo.binary main_v314 main_v315 main_v316 (Host.divf : (⟨S64, .f32⟩ : BufTy).Contents (Elt F) → (⟨S64, .f32⟩ : BufTy).Contents (Elt F) → (⟨S64, .f32⟩ : BufTy).Contents (Elt F)),
    StableHlo.nullary main_c_54 (constantI S_ 32 0#32),
    StableHlo.TRef.nullary main_call6.cst (constant S_ .f32 0x00000000#32),
    StableHlo.TRef.binary (.of main_v281 : StableHlo.TRef sig ⟨S32768x64, .f32⟩) main_call6.cst main_call6.v0 (fun x v => Host.reduceAdd x v reducesTo_S32768x64_S64_d0 h_S_),
    StableHlo.TRef.unary main_call6.v0 main_call6.v1 (broadcastInDim S1x64 ![1] bcast_S64_S1x64_1),
    StableHlo.TRef.nullary main_call6.cst_0 (constant S_ .f32 0x47000000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S32768x64 ![0, 1] bcast_S1x64_S32768x64_0_1),
    StableHlo.TRef.binary (.of main_v281 : StableHlo.TRef sig ⟨S32768x64, .f32⟩) main_call6.v4 main_call6.v5 subf,
    StableHlo.TRef.binary main_call6.v5 main_call6.v5 main_call6.v6 mulf,
    StableHlo.TRef.unary (.of main_c_54 : StableHlo.TRef sig ⟨S_, .i32⟩) main_call6.v7 (sitofp .f32),
    StableHlo.TRef.nullary main_call6.cst_1 (constant S_ .f32 0x47000000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S32768x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v316 main_v318 (broadcastInDim S1x64 ![1] bcast_S64_S1x64_1 : (⟨S64, .f32⟩ : BufTy).Contents (Elt F) → (⟨S1x64, .f32⟩ : BufTy).Contents (Elt F)),
    StableHlo.unary main_v318 main_v319 (broadcastInDim S32768x64 ![0, 1] bcast_S1x64_S32768x64_0_1 : (⟨S1x64, .f32⟩ : BufTy).Contents (Elt F) → (⟨S32768x64, .f32⟩ : BufTy).Contents (Elt F)),
    StableHlo.binary main_v281 main_v319 main_v320 (subf : (⟨S32768x64, .f32⟩ : BufTy).Contents (Elt F) → (⟨S32768x64, .f32⟩ : BufTy).Contents (Elt F) → (⟨S32768x64, .f32⟩ : BufTy).Contents (Elt F)),
    StableHlo.nullary main_cst_55 (constant S_ .f32 0x3727C5AC#32),
    StableHlo.unary main_cst_55 main_v321 (broadcastInDim S64 ![] bcast_S_S64 : (⟨S_, .f32⟩ : BufTy).Contents (Elt F) → (⟨S64, .f32⟩ : BufTy).Contents (Elt F)),
    StableHlo.binary main_v317 main_v321 main_v322 (addf : (⟨S64, .f32⟩ : BufTy).Contents (Elt F) → (⟨S64, .f32⟩ : BufTy).Contents (Elt F) → (⟨S64, .f32⟩ : BufTy).Contents (Elt F)),
    StableHlo.unary main_v322 main_v323 (Host.rsqrt : (⟨S64, .f32⟩ : BufTy).Contents (Elt F) → (⟨S64, .f32⟩ : BufTy).Contents (Elt F)),
    StableHlo.unary main_v323 main_v324 (broadcastInDim S1x64 ![1] bcast_S64_S1x64_1 : (⟨S64, .f32⟩ : BufTy).Contents (Elt F) → (⟨S1x64, .f32⟩ : BufTy).Contents (Elt F)),
    StableHlo.unary main_v324 main_v325 (broadcastInDim S32768x64 ![0, 1] bcast_S1x64_S32768x64_0_1 : (⟨S1x64, .f32⟩ : BufTy).Contents (Elt F) → (⟨S32768x64, .f32⟩ : BufTy).Contents (Elt F)),
    StableHlo.binary main_v320 main_v325 main_v326 (mulf : (⟨S32768x64, .f32⟩ : BufTy).Contents (Elt F) → (⟨S32768x64, .f32⟩ : BufTy).Contents (Elt F) → (⟨S32768x64, .f32⟩ : BufTy).Contents (Elt F)),
    StableHlo.unary main_v311 main_v327 (broadcastInDim S1x64 ![1] bcast_S64_S1x64_1 : (⟨S64, .f32⟩ : BufTy).Contents (Elt F) → (⟨S1x64, .f32⟩ : BufTy).Contents (Elt F)),
    StableHlo.unary main_v327 main_v328 (broadcastInDim S32768x64 ![0, 1] bcast_S1x64_S32768x64_0_1 : (⟨S1x64, .f32⟩ : BufTy).Contents (Elt F) → (⟨S32768x64, .f32⟩ : BufTy).Contents (Elt F)),
    StableHlo.binary main_v326 main_v328 main_v329 (mulf : (⟨S32768x64, .f32⟩ : BufTy).Contents (Elt F) → (⟨S32768x64, .f32⟩ : BufTy).Contents (Elt F) → (⟨S32768x64, .f32⟩ : BufTy).Contents (Elt F)),
    StableHlo.unary main_v313 main_v330 (broadcastInDim S1x64 ![1] bcast_S64_S1x64_1 : (⟨S64, .f32⟩ : BufTy).Contents (Elt F) → (⟨S1x64, .f32⟩ : BufTy).Contents (Elt F)),
    StableHlo.unary main_v330 main_v331 (broadcastInDim S32768x64 ![0, 1] bcast_S1x64_S32768x64_0_1 : (⟨S1x64, .f32⟩ : BufTy).Contents (Elt F) → (⟨S32768x64, .f32⟩ : BufTy).Contents (Elt F)),
    StableHlo.binary main_v329 main_v331 main_v332 (addf : (⟨S32768x64, .f32⟩ : BufTy).Contents (Elt F) → (⟨S32768x64, .f32⟩ : BufTy).Contents (Elt F) → (⟨S32768x64, .f32⟩ : BufTy).Contents (Elt F)),
    StableHlo.nullary main_cst_56 (constant S_ .f32 0x00000000#32),
    StableHlo.unary main_cst_56 main_v333 (broadcastInDim S32768x64 ![] bcast_S_S32768x64 : (⟨S_, .f32⟩ : BufTy).Contents (Elt F) → (⟨S32768x64, .f32⟩ : BufTy).Contents (Elt F)),
    StableHlo.binary main_v332 main_v333 main_v334 (cmpf .oge : (⟨S32768x64, .f32⟩ : BufTy).Contents (Elt F) → (⟨S32768x64, .f32⟩ : BufTy).Contents (Elt F) → (⟨S32768x64, .i1⟩ : BufTy).Contents (Elt F)),
    StableHlo.nullary main_cst_57 (constant S_ .f32 0x3C23D70A#32),
    StableHlo.unary main_cst_57 main_v335 (broadcastInDim S32768x64 ![] bcast_S_S32768x64 : (⟨S_, .f32⟩ : BufTy).Contents (Elt F) → (⟨S32768x64, .f32⟩ : BufTy).Contents (Elt F)),
    StableHlo.binary main_v335 main_v332 main_v336 (mulf : (⟨S32768x64, .f32⟩ : BufTy).Contents (Elt F) → (⟨S32768x64, .f32⟩ : BufTy).Contents (Elt F) → (⟨S32768x64, .f32⟩ : BufTy).Contents (Elt F)),
    StableHlo.TRef.ternary (.of main_v334 : StableHlo.TRef sig ⟨S32768x64, .i1⟩) (.of main_v332 : StableHlo.TRef sig ⟨S32768x64, .f32⟩) (.of main_v336 : StableHlo.TRef sig ⟨S32768x64, .f32⟩) main_call7.v0 select,
    StableHlo.unary main_arg10 main_v338 ((extractStridedSlice S1x1x64x64 ![1, 0, 0, 0] · slices_S2x5x64x64_S1x1x64x64_1_0_0_0) : (⟨S2x5x64x64, .f32⟩ : BufTy).Contents (Elt F) → (⟨S1x1x64x64, .f32⟩ : BufTy).Contents (Elt F)),
    StableHlo.reshape main_v338 main_v339 rfl shapeCasts_S1x1x64x64_S64x64,
    StableHlo.binary main_v309 main_v339 main_v340 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.unary main_arg11 main_v341 ((extractStridedSlice S1x1x64 ![1, 0, 0] · slices_S2x5x64_S1x1x64_1_0_0) : (⟨S2x5x64, .f32⟩ : BufTy).Contents (Elt F) → (⟨S1x1x64, .f32⟩ : BufTy).Contents (Elt F)),
    StableHlo.reshape main_v341 main_v342 rfl shapeCasts_S1x1x64_S64,
    StableHlo.unary main_v342 main_v343 (broadcastInDim S1x64 ![1] bcast_S64_S1x64_1 : (⟨S64, .f32⟩ : BufTy).Contents (Elt F) → (⟨S1x64, .f32⟩ : BufTy).Contents (Elt F)),
    StableHlo.unary main_v343 main_v344 (broadcastInDim S131072x64 ![0, 1] bcast_S1x64_S131072x64_0_1 : (⟨S1x64, .f32⟩ : BufTy).Contents (Elt F) → (⟨S131072x64, .f32⟩ : BufTy).Contents (Elt F)),
    StableHlo.binary main_v340 main_v344 main_v345 (addf : (⟨S131072x64, .f32⟩ : BufTy).Contents (Elt F) → (⟨S131072x64, .f32⟩ : BufTy).Contents (Elt F) → (⟨S131072x64, .f32⟩ : BufTy).Contents (Elt F)),
    StableHlo.unary main_arg12 main_v346 ((extractStridedSlice S1x1x64x64 ![1, 0, 0, 0] · slices_S2x5x64x64_S1x1x64x64_1_0_0_0) : (⟨S2x5x64x64, .f32⟩ : BufTy).Contents (Elt F) → (⟨S1x1x64x64, .f32⟩ : BufTy).Contents (Elt F)),
    StableHlo.reshape main_v346 main_v347 rfl shapeCasts_S1x1x64x64_S64x64,
    StableHlo.binary main_v337 main_v347 main_v348 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg13 main_v349 ((extractStridedSlice S1x1x64 ![1, 0, 0] · slices_S2x5x64_S1x1x64_1_0_0) : (⟨S2x5x64, .f32⟩ : BufTy).Contents (Elt F) → (⟨S1x1x64, .f32⟩ : BufTy).Contents (Elt F)),
    StableHlo.reshape main_v349 main_v350 rfl shapeCasts_S1x1x64_S64,
    StableHlo.unary main_v350 main_v351 (broadcastInDim S1x64 ![1] bcast_S64_S1x64_1 : (⟨S64, .f32⟩ : BufTy).Contents (Elt F) → (⟨S1x64, .f32⟩ : BufTy).Contents (Elt F)),
    StableHlo.unary main_v351 main_v352 (broadcastInDim S32768x64 ![0, 1] bcast_S1x64_S32768x64_0_1 : (⟨S1x64, .f32⟩ : BufTy).Contents (Elt F) → (⟨S32768x64, .f32⟩ : BufTy).Contents (Elt F)),
    StableHlo.binary main_v348 main_v352 main_v353 (addf : (⟨S32768x64, .f32⟩ : BufTy).Contents (Elt F) → (⟨S32768x64, .f32⟩ : BufTy).Contents (Elt F) → (⟨S32768x64, .f32⟩ : BufTy).Contents (Elt F)),
    StableHlo.nullary main_c_58 (constantI S_ 32 0#32),
    StableHlo.unary main_c_58 main_v354 (broadcastInDim S2097152 ![] bcast_S_S2097152 : (⟨S_, .i32⟩ : BufTy).Contents (Elt F) → (⟨S2097152, .i32⟩ : BufTy).Contents (Elt F)),
    StableHlo.binary main_v1 main_v354 main_v355 (cmpi .slt : (⟨S2097152, .i32⟩ : BufTy).Contents (Elt F) → (⟨S2097152, .i32⟩ : BufTy).Contents (Elt F) → (⟨S2097152, .i1⟩ : BufTy).Contents (Elt F)),
    StableHlo.nullary main_c_59 (constantI S_ 32 131072#32),
    StableHlo.unary main_c_59 main_v356 (broadcastInDim S2097152 ![] bcast_S_S2097152 : (⟨S_, .i32⟩ : BufTy).Contents (Elt F) → (⟨S2097152, .i32⟩ : BufTy).Contents (Elt F)),
    StableHlo.binary main_v1 main_v356 main_v357 (addi : (⟨S2097152, .i32⟩ : BufTy).Contents (Elt F) → (⟨S2097152, .i32⟩ : BufTy).Contents (Elt F) → (⟨S2097152, .i32⟩ : BufTy).Contents (Elt F)) ]

end Cert.ReferenceIdeal.HRun

end
-- ==== Proof.RefOps7.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- The 60 host operations of window 7 of @main, in program order, each call replaced by its callee's operations over the call's own buffers. -/
abbrev ops_part7 : List (HloOp τ sig (Elt F)) :=
  [ StableHlo.ternary main_v355 main_v357 main_v1 main_v358 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v358 main_v359 (broadcastInDim S2097152x1 ![0] bcast_S2097152_S2097152x1_0 : (⟨S2097152, .i32⟩ : BufTy).Contents (Elt F) → (⟨S2097152x1, .i32⟩ : BufTy).Contents (Elt F)),
    StableHlo.binary main_v309 main_v359 main_v360 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_60 (constant S_ .f32 0x00000000#32),
    StableHlo.unary main_cst_60 main_v361 (broadcastInDim S131072x64 ![] bcast_S_S131072x64 : (⟨S_, .f32⟩ : BufTy).Contents (Elt F) → (⟨S131072x64, .f32⟩ : BufTy).Contents (Elt F)),
    StableHlo.unary main_v3 main_v362 (broadcastInDim S2097152x1 ![0] bcast_S2097152_S2097152x1_0 : (⟨S2097152, .i32⟩ : BufTy).Contents (Elt F) → (⟨S2097152x1, .i32⟩ : BufTy).Contents (Elt F)),
    StableHlo.ternary main_v361 main_v362 main_v360 main_v363 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_61 (constantI S_ 32 0#32),
    StableHlo.unary main_c_61 main_v364 (broadcastInDim S65536 ![] bcast_S_S65536 : (⟨S_, .i32⟩ : BufTy).Contents (Elt F) → (⟨S65536, .i32⟩ : BufTy).Contents (Elt F)),
    StableHlo.binary main_arg19 main_v364 main_v365 (cmpi .slt : (⟨S65536, .i32⟩ : BufTy).Contents (Elt F) → (⟨S65536, .i32⟩ : BufTy).Contents (Elt F) → (⟨S65536, .i1⟩ : BufTy).Contents (Elt F)),
    StableHlo.nullary main_c_62 (constantI S_ 32 32768#32),
    StableHlo.unary main_c_62 main_v366 (broadcastInDim S65536 ![] bcast_S_S65536 : (⟨S_, .i32⟩ : BufTy).Contents (Elt F) → (⟨S65536, .i32⟩ : BufTy).Contents (Elt F)),
    StableHlo.binary main_arg19 main_v366 main_v367 (addi : (⟨S65536, .i32⟩ : BufTy).Contents (Elt F) → (⟨S65536, .i32⟩ : BufTy).Contents (Elt F) → (⟨S65536, .i32⟩ : BufTy).Contents (Elt F)),
    StableHlo.ternary main_v365 main_v367 main_arg19 main_v368 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v368 main_v369 (broadcastInDim S65536x1 ![0] bcast_S65536_S65536x1_0 : (⟨S65536, .i32⟩ : BufTy).Contents (Elt F) → (⟨S65536x1, .i32⟩ : BufTy).Contents (Elt F)),
    StableHlo.binary main_v337 main_v369 main_v370 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_63 (constant S_ .f32 0x00000000#32),
    StableHlo.unary main_cst_63 main_v371 (broadcastInDim S131072x64 ![] bcast_S_S131072x64 : (⟨S_, .f32⟩ : BufTy).Contents (Elt F) → (⟨S131072x64, .f32⟩ : BufTy).Contents (Elt F)),
    StableHlo.unary main_arg20 main_v372 (broadcastInDim S65536x1 ![0] bcast_S65536_S65536x1_0 : (⟨S65536, .i32⟩ : BufTy).Contents (Elt F) → (⟨S65536x1, .i32⟩ : BufTy).Contents (Elt F)),
    StableHlo.ternary main_v371 main_v372 main_v370 main_v373 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)),
    StableHlo.binary main_v363 main_v373 main_v374 (addf : (⟨S131072x64, .f32⟩ : BufTy).Contents (Elt F) → (⟨S131072x64, .f32⟩ : BufTy).Contents (Elt F) → (⟨S131072x64, .f32⟩ : BufTy).Contents (Elt F)),
    StableHlo.nullary main_c_64 (constantI S_ 32 0#32),
    StableHlo.unary main_c_64 main_v375 (broadcastInDim S65536 ![] bcast_S_S65536 : (⟨S_, .i32⟩ : BufTy).Contents (Elt F) → (⟨S65536, .i32⟩ : BufTy).Contents (Elt F)),
    StableHlo.binary main_arg21 main_v375 main_v376 (cmpi .slt : (⟨S65536, .i32⟩ : BufTy).Contents (Elt F) → (⟨S65536, .i32⟩ : BufTy).Contents (Elt F) → (⟨S65536, .i1⟩ : BufTy).Contents (Elt F)),
    StableHlo.nullary main_c_65 (constantI S_ 32 131072#32),
    StableHlo.unary main_c_65 main_v377 (broadcastInDim S65536 ![] bcast_S_S65536 : (⟨S_, .i32⟩ : BufTy).Contents (Elt F) → (⟨S65536, .i32⟩ : BufTy).Contents (Elt F)),
    StableHlo.binary main_arg21 main_v377 main_v378 (addi : (⟨S65536, .i32⟩ : BufTy).Contents (Elt F) → (⟨S65536, .i32⟩ : BufTy).Contents (Elt F) → (⟨S65536, .i32⟩ : BufTy).Contents (Elt F)),
    StableHlo.ternary main_v376 main_v378 main_arg21 main_v379 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v379 main_v380 (broadcastInDim S65536x1 ![0] bcast_S65536_S65536x1_0 : (⟨S65536, .i32⟩ : BufTy).Contents (Elt F) → (⟨S65536x1, .i32⟩ : BufTy).Contents (Elt F)),
    StableHlo.binary main_v309 main_v380 main_v381 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_66 (constant S_ .f32 0x00000000#32),
    StableHlo.unary main_cst_66 main_v382 (broadcastInDim S32768x64 ![] bcast_S_S32768x64 : (⟨S_, .f32⟩ : BufTy).Contents (Elt F) → (⟨S32768x64, .f32⟩ : BufTy).Contents (Elt F)),
    StableHlo.unary main_arg22 main_v383 (broadcastInDim S65536x1 ![0] bcast_S65536_S65536x1_0 : (⟨S65536, .i32⟩ : BufTy).Contents (Elt F) → (⟨S65536x1, .i32⟩ : BufTy).Contents (Elt F)),
    StableHlo.ternary main_v382 main_v383 main_v381 main_v384 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)),
    StableHlo.unary main_arg10 main_v385 ((extractStridedSlice S1x1x64x64 ![1, 1, 0, 0] · slices_S2x5x64x64_S1x1x64x64_1_1_0_0) : (⟨S2x5x64x64, .f32⟩ : BufTy).Contents (Elt F) → (⟨S1x1x64x64, .f32⟩ : BufTy).Contents (Elt F)),
    StableHlo.reshape main_v385 main_v386 rfl shapeCasts_S1x1x64x64_S64x64,
    StableHlo.binary main_v374 main_v386 main_v387 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v345 main_v387 main_v388 (addf : (⟨S131072x64, .f32⟩ : BufTy).Contents (Elt F) → (⟨S131072x64, .f32⟩ : BufTy).Contents (Elt F) → (⟨S131072x64, .f32⟩ : BufTy).Contents (Elt F)),
    StableHlo.unary main_arg11 main_v389 ((extractStridedSlice S1x1x64 ![1, 1, 0] · slices_S2x5x64_S1x1x64_1_1_0) : (⟨S2x5x64, .f32⟩ : BufTy).Contents (Elt F) → (⟨S1x1x64, .f32⟩ : BufTy).Contents (Elt F)),
    StableHlo.reshape main_v389 main_v390 rfl shapeCasts_S1x1x64_S64,
    StableHlo.unary main_v390 main_v391 (broadcastInDim S1x64 ![1] bcast_S64_S1x64_1 : (⟨S64, .f32⟩ : BufTy).Contents (Elt F) → (⟨S1x64, .f32⟩ : BufTy).Contents (Elt F)),
    StableHlo.unary main_v391 main_v392 (broadcastInDim S131072x64 ![0, 1] bcast_S1x64_S131072x64_0_1 : (⟨S1x64, .f32⟩ : BufTy).Contents (Elt F) → (⟨S131072x64, .f32⟩ : BufTy).Contents (Elt F)),
    StableHlo.binary main_v388 main_v392 main_v393 (addf : (⟨S131072x64, .f32⟩ : BufTy).Contents (Elt F) → (⟨S131072x64, .f32⟩ : BufTy).Contents (Elt F) → (⟨S131072x64, .f32⟩ : BufTy).Contents (Elt F)),
    StableHlo.unary main_arg12 main_v394 ((extractStridedSlice S1x1x64x64 ![1, 1, 0, 0] · slices_S2x5x64x64_S1x1x64x64_1_1_0_0) : (⟨S2x5x64x64, .f32⟩ : BufTy).Contents (Elt F) → (⟨S1x1x64x64, .f32⟩ : BufTy).Contents (Elt F)),
    StableHlo.reshape main_v394 main_v395 rfl shapeCasts_S1x1x64x64_S64x64,
    StableHlo.binary main_v384 main_v395 main_v396 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v353 main_v396 main_v397 (addf : (⟨S32768x64, .f32⟩ : BufTy).Contents (Elt F) → (⟨S32768x64, .f32⟩ : BufTy).Contents (Elt F) → (⟨S32768x64, .f32⟩ : BufTy).Contents (Elt F)),
    StableHlo.unary main_arg13 main_v398 ((extractStridedSlice S1x1x64 ![1, 1, 0] · slices_S2x5x64_S1x1x64_1_1_0) : (⟨S2x5x64, .f32⟩ : BufTy).Contents (Elt F) → (⟨S1x1x64, .f32⟩ : BufTy).Contents (Elt F)),
    StableHlo.reshape main_v398 main_v399 rfl shapeCasts_S1x1x64_S64,
    StableHlo.unary main_v399 main_v400 (broadcastInDim S1x64 ![1] bcast_S64_S1x64_1 : (⟨S64, .f32⟩ : BufTy).Contents (Elt F) → (⟨S1x64, .f32⟩ : BufTy).Contents (Elt F)),
    StableHlo.unary main_v400 main_v401 (broadcastInDim S32768x64 ![0, 1] bcast_S1x64_S32768x64_0_1 : (⟨S1x64, .f32⟩ : BufTy).Contents (Elt F) → (⟨S32768x64, .f32⟩ : BufTy).Contents (Elt F)),
    StableHlo.binary main_v397 main_v401 main_v402 (addf : (⟨S32768x64, .f32⟩ : BufTy).Contents (Elt F) → (⟨S32768x64, .f32⟩ : BufTy).Contents (Elt F) → (⟨S32768x64, .f32⟩ : BufTy).Contents (Elt F)),
    StableHlo.nullary main_c_67 (constantI S_ 32 0#32),
    StableHlo.unary main_c_67 main_v403 (broadcastInDim S2097152 ![] bcast_S_S2097152 : (⟨S_, .i32⟩ : BufTy).Contents (Elt F) → (⟨S2097152, .i32⟩ : BufTy).Contents (Elt F)),
    StableHlo.binary main_v1 main_v403 main_v404 (cmpi .slt : (⟨S2097152, .i32⟩ : BufTy).Contents (Elt F) → (⟨S2097152, .i32⟩ : BufTy).Contents (Elt F) → (⟨S2097152, .i1⟩ : BufTy).Contents (Elt F)),
    StableHlo.nullary main_c_68 (constantI S_ 32 131072#32),
    StableHlo.unary main_c_68 main_v405 (broadcastInDim S2097152 ![] bcast_S_S2097152 : (⟨S_, .i32⟩ : BufTy).Contents (Elt F) → (⟨S2097152, .i32⟩ : BufTy).Contents (Elt F)),
    StableHlo.binary main_v1 main_v405 main_v406 (addi : (⟨S2097152, .i32⟩ : BufTy).Contents (Elt F) → (⟨S2097152, .i32⟩ : BufTy).Contents (Elt F) → (⟨S2097152, .i32⟩ : BufTy).Contents (Elt F)),
    StableHlo.ternary main_v404 main_v406 main_v1 main_v407 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v407 main_v408 (broadcastInDim S2097152x1 ![0] bcast_S2097152_S2097152x1_0 : (⟨S2097152, .i32⟩ : BufTy).Contents (Elt F) → (⟨S2097152x1, .i32⟩ : BufTy).Contents (Elt F)) ]

end Cert.ReferenceIdeal.HRun

end
-- ==== Proof.RefOps8.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- The 60 host operations of window 8 of @main, in program order, each call replaced by its callee's operations over the call's own buffers. -/
abbrev ops_part8 : List (HloOp τ sig (Elt F)) :=
  [ StableHlo.binary main_v374 main_v408 main_v409 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_69 (constant S_ .f32 0x00000000#32),
    StableHlo.unary main_cst_69 main_v410 (broadcastInDim S131072x64 ![] bcast_S_S131072x64 : (⟨S_, .f32⟩ : BufTy).Contents (Elt F) → (⟨S131072x64, .f32⟩ : BufTy).Contents (Elt F)),
    StableHlo.unary main_v3 main_v411 (broadcastInDim S2097152x1 ![0] bcast_S2097152_S2097152x1_0 : (⟨S2097152, .i32⟩ : BufTy).Contents (Elt F) → (⟨S2097152x1, .i32⟩ : BufTy).Contents (Elt F)),
    StableHlo.ternary main_v410 main_v411 main_v409 main_v412 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_70 (constantI S_ 32 0#32),
    StableHlo.unary main_c_70 main_v413 (broadcastInDim S65536 ![] bcast_S_S65536 : (⟨S_, .i32⟩ : BufTy).Contents (Elt F) → (⟨S65536, .i32⟩ : BufTy).Contents (Elt F)),
    StableHlo.binary main_arg19 main_v413 main_v414 (cmpi .slt : (⟨S65536, .i32⟩ : BufTy).Contents (Elt F) → (⟨S65536, .i32⟩ : BufTy).Contents (Elt F) → (⟨S65536, .i1⟩ : BufTy).Contents (Elt F)),
    StableHlo.nullary main_c_71 (constantI S_ 32 32768#32),
    StableHlo.unary main_c_71 main_v415 (broadcastInDim S65536 ![] bcast_S_S65536 : (⟨S_, .i32⟩ : BufTy).Contents (Elt F) → (⟨S65536, .i32⟩ : BufTy).Contents (Elt F)),
    StableHlo.binary main_arg19 main_v415 main_v416 (addi : (⟨S65536, .i32⟩ : BufTy).Contents (Elt F) → (⟨S65536, .i32⟩ : BufTy).Contents (Elt F) → (⟨S65536, .i32⟩ : BufTy).Contents (Elt F)),
    StableHlo.ternary main_v414 main_v416 main_arg19 main_v417 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v417 main_v418 (broadcastInDim S65536x1 ![0] bcast_S65536_S65536x1_0 : (⟨S65536, .i32⟩ : BufTy).Contents (Elt F) → (⟨S65536x1, .i32⟩ : BufTy).Contents (Elt F)),
    StableHlo.binary main_v384 main_v418 main_v419 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_72 (constant S_ .f32 0x00000000#32),
    StableHlo.unary main_cst_72 main_v420 (broadcastInDim S131072x64 ![] bcast_S_S131072x64 : (⟨S_, .f32⟩ : BufTy).Contents (Elt F) → (⟨S131072x64, .f32⟩ : BufTy).Contents (Elt F)),
    StableHlo.unary main_arg20 main_v421 (broadcastInDim S65536x1 ![0] bcast_S65536_S65536x1_0 : (⟨S65536, .i32⟩ : BufTy).Contents (Elt F) → (⟨S65536x1, .i32⟩ : BufTy).Contents (Elt F)),
    StableHlo.ternary main_v420 main_v421 main_v419 main_v422 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)),
    StableHlo.binary main_v412 main_v422 main_v423 (addf : (⟨S131072x64, .f32⟩ : BufTy).Contents (Elt F) → (⟨S131072x64, .f32⟩ : BufTy).Contents (Elt F) → (⟨S131072x64, .f32⟩ : BufTy).Contents (Elt F)),
    StableHlo.nullary main_c_73 (constantI S_ 32 0#32),
    StableHlo.unary main_c_73 main_v424 (broadcastInDim S65536 ![] bcast_S_S65536 : (⟨S_, .i32⟩ : BufTy).Contents (Elt F) → (⟨S65536, .i32⟩ : BufTy).Contents (Elt F)),
    StableHlo.binary main_arg21 main_v424 main_v425 (cmpi .slt : (⟨S65536, .i32⟩ : BufTy).Contents (Elt F) → (⟨S65536, .i32⟩ : BufTy).Contents (Elt F) → (⟨S65536, .i1⟩ : BufTy).Contents (Elt F)),
    StableHlo.nullary main_c_74 (constantI S_ 32 131072#32),
    StableHlo.unary main_c_74 main_v426 (broadcastInDim S65536 ![] bcast_S_S65536 : (⟨S_, .i32⟩ : BufTy).Contents (Elt F) → (⟨S65536, .i32⟩ : BufTy).Contents (Elt F)),
    StableHlo.binary main_arg21 main_v426 main_v427 (addi : (⟨S65536, .i32⟩ : BufTy).Contents (Elt F) → (⟨S65536, .i32⟩ : BufTy).Contents (Elt F) → (⟨S65536, .i32⟩ : BufTy).Contents (Elt F)),
    StableHlo.ternary main_v425 main_v427 main_arg21 main_v428 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v428 main_v429 (broadcastInDim S65536x1 ![0] bcast_S65536_S65536x1_0 : (⟨S65536, .i32⟩ : BufTy).Contents (Elt F) → (⟨S65536x1, .i32⟩ : BufTy).Contents (Elt F)),
    StableHlo.binary main_v374 main_v429 main_v430 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_75 (constant S_ .f32 0x00000000#32),
    StableHlo.unary main_cst_75 main_v431 (broadcastInDim S32768x64 ![] bcast_S_S32768x64 : (⟨S_, .f32⟩ : BufTy).Contents (Elt F) → (⟨S32768x64, .f32⟩ : BufTy).Contents (Elt F)),
    StableHlo.unary main_arg22 main_v432 (broadcastInDim S65536x1 ![0] bcast_S65536_S65536x1_0 : (⟨S65536, .i32⟩ : BufTy).Contents (Elt F) → (⟨S65536x1, .i32⟩ : BufTy).Contents (Elt F)),
    StableHlo.ternary main_v431 main_v432 main_v430 main_v433 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)),
    StableHlo.unary main_arg10 main_v434 ((extractStridedSlice S1x1x64x64 ![1, 2, 0, 0] · slices_S2x5x64x64_S1x1x64x64_1_2_0_0) : (⟨S2x5x64x64, .f32⟩ : BufTy).Contents (Elt F) → (⟨S1x1x64x64, .f32⟩ : BufTy).Contents (Elt F)),
    StableHlo.reshape main_v434 main_v435 rfl shapeCasts_S1x1x64x64_S64x64,
    StableHlo.binary main_v423 main_v435 main_v436 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v393 main_v436 main_v437 (addf : (⟨S131072x64, .f32⟩ : BufTy).Contents (Elt F) → (⟨S131072x64, .f32⟩ : BufTy).Contents (Elt F) → (⟨S131072x64, .f32⟩ : BufTy).Contents (Elt F)),
    StableHlo.unary main_arg11 main_v438 ((extractStridedSlice S1x1x64 ![1, 2, 0] · slices_S2x5x64_S1x1x64_1_2_0) : (⟨S2x5x64, .f32⟩ : BufTy).Contents (Elt F) → (⟨S1x1x64, .f32⟩ : BufTy).Contents (Elt F)),
    StableHlo.reshape main_v438 main_v439 rfl shapeCasts_S1x1x64_S64,
    StableHlo.unary main_v439 main_v440 (broadcastInDim S1x64 ![1] bcast_S64_S1x64_1 : (⟨S64, .f32⟩ : BufTy).Contents (Elt F) → (⟨S1x64, .f32⟩ : BufTy).Contents (Elt F)),
    StableHlo.unary main_v440 main_v441 (broadcastInDim S131072x64 ![0, 1] bcast_S1x64_S131072x64_0_1 : (⟨S1x64, .f32⟩ : BufTy).Contents (Elt F) → (⟨S131072x64, .f32⟩ : BufTy).Contents (Elt F)),
    StableHlo.binary main_v437 main_v441 main_v442 (addf : (⟨S131072x64, .f32⟩ : BufTy).Contents (Elt F) → (⟨S131072x64, .f32⟩ : BufTy).Contents (Elt F) → (⟨S131072x64, .f32⟩ : BufTy).Contents (Elt F)),
    StableHlo.unary main_arg12 main_v443 ((extractStridedSlice S1x1x64x64 ![1, 2, 0, 0] · slices_S2x5x64x64_S1x1x64x64_1_2_0_0) : (⟨S2x5x64x64, .f32⟩ : BufTy).Contents (Elt F) → (⟨S1x1x64x64, .f32⟩ : BufTy).Contents (Elt F)),
    StableHlo.reshape main_v443 main_v444 rfl shapeCasts_S1x1x64x64_S64x64,
    StableHlo.binary main_v433 main_v444 main_v445 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v402 main_v445 main_v446 (addf : (⟨S32768x64, .f32⟩ : BufTy).Contents (Elt F) → (⟨S32768x64, .f32⟩ : BufTy).Contents (Elt F) → (⟨S32768x64, .f32⟩ : BufTy).Contents (Elt F)),
    StableHlo.unary main_arg13 main_v447 ((extractStridedSlice S1x1x64 ![1, 2, 0] · slices_S2x5x64_S1x1x64_1_2_0) : (⟨S2x5x64, .f32⟩ : BufTy).Contents (Elt F) → (⟨S1x1x64, .f32⟩ : BufTy).Contents (Elt F)),
    StableHlo.reshape main_v447 main_v448 rfl shapeCasts_S1x1x64_S64,
    StableHlo.unary main_v448 main_v449 (broadcastInDim S1x64 ![1] bcast_S64_S1x64_1 : (⟨S64, .f32⟩ : BufTy).Contents (Elt F) → (⟨S1x64, .f32⟩ : BufTy).Contents (Elt F)),
    StableHlo.unary main_v449 main_v450 (broadcastInDim S32768x64 ![0, 1] bcast_S1x64_S32768x64_0_1 : (⟨S1x64, .f32⟩ : BufTy).Contents (Elt F) → (⟨S32768x64, .f32⟩ : BufTy).Contents (Elt F)),
    StableHlo.binary main_v446 main_v450 main_v451 (addf : (⟨S32768x64, .f32⟩ : BufTy).Contents (Elt F) → (⟨S32768x64, .f32⟩ : BufTy).Contents (Elt F) → (⟨S32768x64, .f32⟩ : BufTy).Contents (Elt F)),
    StableHlo.nullary main_c_76 (constantI S_ 32 0#32),
    StableHlo.unary main_c_76 main_v452 (broadcastInDim S2097152 ![] bcast_S_S2097152 : (⟨S_, .i32⟩ : BufTy).Contents (Elt F) → (⟨S2097152, .i32⟩ : BufTy).Contents (Elt F)),
    StableHlo.binary main_v1 main_v452 main_v453 (cmpi .slt : (⟨S2097152, .i32⟩ : BufTy).Contents (Elt F) → (⟨S2097152, .i32⟩ : BufTy).Contents (Elt F) → (⟨S2097152, .i1⟩ : BufTy).Contents (Elt F)),
    StableHlo.nullary main_c_77 (constantI S_ 32 131072#32),
    StableHlo.unary main_c_77 main_v454 (broadcastInDim S2097152 ![] bcast_S_S2097152 : (⟨S_, .i32⟩ : BufTy).Contents (Elt F) → (⟨S2097152, .i32⟩ : BufTy).Contents (Elt F)),
    StableHlo.binary main_v1 main_v454 main_v455 (addi : (⟨S2097152, .i32⟩ : BufTy).Contents (Elt F) → (⟨S2097152, .i32⟩ : BufTy).Contents (Elt F) → (⟨S2097152, .i32⟩ : BufTy).Contents (Elt F)),
    StableHlo.ternary main_v453 main_v455 main_v1 main_v456 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v456 main_v457 (broadcastInDim S2097152x1 ![0] bcast_S2097152_S2097152x1_0 : (⟨S2097152, .i32⟩ : BufTy).Contents (Elt F) → (⟨S2097152x1, .i32⟩ : BufTy).Contents (Elt F)),
    StableHlo.binary main_v423 main_v457 main_v458 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_78 (constant S_ .f32 0x00000000#32) ]

end Cert.ReferenceIdeal.HRun

end
-- ==== Proof.RefOps9.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- The 60 host operations of window 9 of @main, in program order, each call replaced by its callee's operations over the call's own buffers. -/
abbrev ops_part9 : List (HloOp τ sig (Elt F)) :=
  [ StableHlo.unary main_cst_78 main_v459 (broadcastInDim S131072x64 ![] bcast_S_S131072x64 : (⟨S_, .f32⟩ : BufTy).Contents (Elt F) → (⟨S131072x64, .f32⟩ : BufTy).Contents (Elt F)),
    StableHlo.unary main_v3 main_v460 (broadcastInDim S2097152x1 ![0] bcast_S2097152_S2097152x1_0 : (⟨S2097152, .i32⟩ : BufTy).Contents (Elt F) → (⟨S2097152x1, .i32⟩ : BufTy).Contents (Elt F)),
    StableHlo.ternary main_v459 main_v460 main_v458 main_v461 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_79 (constantI S_ 32 0#32),
    StableHlo.unary main_c_79 main_v462 (broadcastInDim S65536 ![] bcast_S_S65536 : (⟨S_, .i32⟩ : BufTy).Contents (Elt F) → (⟨S65536, .i32⟩ : BufTy).Contents (Elt F)),
    StableHlo.binary main_arg19 main_v462 main_v463 (cmpi .slt : (⟨S65536, .i32⟩ : BufTy).Contents (Elt F) → (⟨S65536, .i32⟩ : BufTy).Contents (Elt F) → (⟨S65536, .i1⟩ : BufTy).Contents (Elt F)),
    StableHlo.nullary main_c_80 (constantI S_ 32 32768#32),
    StableHlo.unary main_c_80 main_v464 (broadcastInDim S65536 ![] bcast_S_S65536 : (⟨S_, .i32⟩ : BufTy).Contents (Elt F) → (⟨S65536, .i32⟩ : BufTy).Contents (Elt F)),
    StableHlo.binary main_arg19 main_v464 main_v465 (addi : (⟨S65536, .i32⟩ : BufTy).Contents (Elt F) → (⟨S65536, .i32⟩ : BufTy).Contents (Elt F) → (⟨S65536, .i32⟩ : BufTy).Contents (Elt F)),
    StableHlo.ternary main_v463 main_v465 main_arg19 main_v466 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v466 main_v467 (broadcastInDim S65536x1 ![0] bcast_S65536_S65536x1_0 : (⟨S65536, .i32⟩ : BufTy).Contents (Elt F) → (⟨S65536x1, .i32⟩ : BufTy).Contents (Elt F)),
    StableHlo.binary main_v433 main_v467 main_v468 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_81 (constant S_ .f32 0x00000000#32),
    StableHlo.unary main_cst_81 main_v469 (broadcastInDim S131072x64 ![] bcast_S_S131072x64 : (⟨S_, .f32⟩ : BufTy).Contents (Elt F) → (⟨S131072x64, .f32⟩ : BufTy).Contents (Elt F)),
    StableHlo.unary main_arg20 main_v470 (broadcastInDim S65536x1 ![0] bcast_S65536_S65536x1_0 : (⟨S65536, .i32⟩ : BufTy).Contents (Elt F) → (⟨S65536x1, .i32⟩ : BufTy).Contents (Elt F)),
    StableHlo.ternary main_v469 main_v470 main_v468 main_v471 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)),
    StableHlo.binary main_v461 main_v471 main_v472 (addf : (⟨S131072x64, .f32⟩ : BufTy).Contents (Elt F) → (⟨S131072x64, .f32⟩ : BufTy).Contents (Elt F) → (⟨S131072x64, .f32⟩ : BufTy).Contents (Elt F)),
    StableHlo.nullary main_c_82 (constantI S_ 32 0#32),
    StableHlo.unary main_c_82 main_v473 (broadcastInDim S65536 ![] bcast_S_S65536 : (⟨S_, .i32⟩ : BufTy).Contents (Elt F) → (⟨S65536, .i32⟩ : BufTy).Contents (Elt F)),
    StableHlo.binary main_arg21 main_v473 main_v474 (cmpi .slt : (⟨S65536, .i32⟩ : BufTy).Contents (Elt F) → (⟨S65536, .i32⟩ : BufTy).Contents (Elt F) → (⟨S65536, .i1⟩ : BufTy).Contents (Elt F)),
    StableHlo.nullary main_c_83 (constantI S_ 32 131072#32),
    StableHlo.unary main_c_83 main_v475 (broadcastInDim S65536 ![] bcast_S_S65536 : (⟨S_, .i32⟩ : BufTy).Contents (Elt F) → (⟨S65536, .i32⟩ : BufTy).Contents (Elt F)),
    StableHlo.binary main_arg21 main_v475 main_v476 (addi : (⟨S65536, .i32⟩ : BufTy).Contents (Elt F) → (⟨S65536, .i32⟩ : BufTy).Contents (Elt F) → (⟨S65536, .i32⟩ : BufTy).Contents (Elt F)),
    StableHlo.ternary main_v474 main_v476 main_arg21 main_v477 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v477 main_v478 (broadcastInDim S65536x1 ![0] bcast_S65536_S65536x1_0 : (⟨S65536, .i32⟩ : BufTy).Contents (Elt F) → (⟨S65536x1, .i32⟩ : BufTy).Contents (Elt F)),
    StableHlo.binary main_v423 main_v478 main_v479 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_84 (constant S_ .f32 0x00000000#32),
    StableHlo.unary main_cst_84 main_v480 (broadcastInDim S32768x64 ![] bcast_S_S32768x64 : (⟨S_, .f32⟩ : BufTy).Contents (Elt F) → (⟨S32768x64, .f32⟩ : BufTy).Contents (Elt F)),
    StableHlo.unary main_arg22 main_v481 (broadcastInDim S65536x1 ![0] bcast_S65536_S65536x1_0 : (⟨S65536, .i32⟩ : BufTy).Contents (Elt F) → (⟨S65536x1, .i32⟩ : BufTy).Contents (Elt F)),
    StableHlo.ternary main_v480 main_v481 main_v479 main_v482 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)),
    StableHlo.unary main_arg10 main_v483 ((extractStridedSlice S1x1x64x64 ![1, 3, 0, 0] · slices_S2x5x64x64_S1x1x64x64_1_3_0_0) : (⟨S2x5x64x64, .f32⟩ : BufTy).Contents (Elt F) → (⟨S1x1x64x64, .f32⟩ : BufTy).Contents (Elt F)),
    StableHlo.reshape main_v483 main_v484 rfl shapeCasts_S1x1x64x64_S64x64,
    StableHlo.binary main_v472 main_v484 main_v485 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v442 main_v485 main_v486 (addf : (⟨S131072x64, .f32⟩ : BufTy).Contents (Elt F) → (⟨S131072x64, .f32⟩ : BufTy).Contents (Elt F) → (⟨S131072x64, .f32⟩ : BufTy).Contents (Elt F)),
    StableHlo.unary main_arg11 main_v487 ((extractStridedSlice S1x1x64 ![1, 3, 0] · slices_S2x5x64_S1x1x64_1_3_0) : (⟨S2x5x64, .f32⟩ : BufTy).Contents (Elt F) → (⟨S1x1x64, .f32⟩ : BufTy).Contents (Elt F)),
    StableHlo.reshape main_v487 main_v488 rfl shapeCasts_S1x1x64_S64,
    StableHlo.unary main_v488 main_v489 (broadcastInDim S1x64 ![1] bcast_S64_S1x64_1 : (⟨S64, .f32⟩ : BufTy).Contents (Elt F) → (⟨S1x64, .f32⟩ : BufTy).Contents (Elt F)),
    StableHlo.unary main_v489 main_v490 (broadcastInDim S131072x64 ![0, 1] bcast_S1x64_S131072x64_0_1 : (⟨S1x64, .f32⟩ : BufTy).Contents (Elt F) → (⟨S131072x64, .f32⟩ : BufTy).Contents (Elt F)),
    StableHlo.binary main_v486 main_v490 main_v491 (addf : (⟨S131072x64, .f32⟩ : BufTy).Contents (Elt F) → (⟨S131072x64, .f32⟩ : BufTy).Contents (Elt F) → (⟨S131072x64, .f32⟩ : BufTy).Contents (Elt F)),
    StableHlo.unary main_arg12 main_v492 ((extractStridedSlice S1x1x64x64 ![1, 3, 0, 0] · slices_S2x5x64x64_S1x1x64x64_1_3_0_0) : (⟨S2x5x64x64, .f32⟩ : BufTy).Contents (Elt F) → (⟨S1x1x64x64, .f32⟩ : BufTy).Contents (Elt F)),
    StableHlo.reshape main_v492 main_v493 rfl shapeCasts_S1x1x64x64_S64x64,
    StableHlo.binary main_v482 main_v493 main_v494 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v451 main_v494 main_v495 (addf : (⟨S32768x64, .f32⟩ : BufTy).Contents (Elt F) → (⟨S32768x64, .f32⟩ : BufTy).Contents (Elt F) → (⟨S32768x64, .f32⟩ : BufTy).Contents (Elt F)),
    StableHlo.unary main_arg13 main_v496 ((extractStridedSlice S1x1x64 ![1, 3, 0] · slices_S2x5x64_S1x1x64_1_3_0) : (⟨S2x5x64, .f32⟩ : BufTy).Contents (Elt F) → (⟨S1x1x64, .f32⟩ : BufTy).Contents (Elt F)),
    StableHlo.reshape main_v496 main_v497 rfl shapeCasts_S1x1x64_S64,
    StableHlo.unary main_v497 main_v498 (broadcastInDim S1x64 ![1] bcast_S64_S1x64_1 : (⟨S64, .f32⟩ : BufTy).Contents (Elt F) → (⟨S1x64, .f32⟩ : BufTy).Contents (Elt F)),
    StableHlo.unary main_v498 main_v499 (broadcastInDim S32768x64 ![0, 1] bcast_S1x64_S32768x64_0_1 : (⟨S1x64, .f32⟩ : BufTy).Contents (Elt F) → (⟨S32768x64, .f32⟩ : BufTy).Contents (Elt F)),
    StableHlo.binary main_v495 main_v499 main_v500 (addf : (⟨S32768x64, .f32⟩ : BufTy).Contents (Elt F) → (⟨S32768x64, .f32⟩ : BufTy).Contents (Elt F) → (⟨S32768x64, .f32⟩ : BufTy).Contents (Elt F)),
    StableHlo.nullary main_c_85 (constantI S_ 32 0#32),
    StableHlo.unary main_c_85 main_v501 (broadcastInDim S2097152 ![] bcast_S_S2097152 : (⟨S_, .i32⟩ : BufTy).Contents (Elt F) → (⟨S2097152, .i32⟩ : BufTy).Contents (Elt F)),
    StableHlo.binary main_v1 main_v501 main_v502 (cmpi .slt : (⟨S2097152, .i32⟩ : BufTy).Contents (Elt F) → (⟨S2097152, .i32⟩ : BufTy).Contents (Elt F) → (⟨S2097152, .i1⟩ : BufTy).Contents (Elt F)),
    StableHlo.nullary main_c_86 (constantI S_ 32 131072#32),
    StableHlo.unary main_c_86 main_v503 (broadcastInDim S2097152 ![] bcast_S_S2097152 : (⟨S_, .i32⟩ : BufTy).Contents (Elt F) → (⟨S2097152, .i32⟩ : BufTy).Contents (Elt F)),
    StableHlo.binary main_v1 main_v503 main_v504 (addi : (⟨S2097152, .i32⟩ : BufTy).Contents (Elt F) → (⟨S2097152, .i32⟩ : BufTy).Contents (Elt F) → (⟨S2097152, .i32⟩ : BufTy).Contents (Elt F)),
    StableHlo.ternary main_v502 main_v504 main_v1 main_v505 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v505 main_v506 (broadcastInDim S2097152x1 ![0] bcast_S2097152_S2097152x1_0 : (⟨S2097152, .i32⟩ : BufTy).Contents (Elt F) → (⟨S2097152x1, .i32⟩ : BufTy).Contents (Elt F)),
    StableHlo.binary main_v472 main_v506 main_v507 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_87 (constant S_ .f32 0x00000000#32),
    StableHlo.unary main_cst_87 main_v508 (broadcastInDim S131072x64 ![] bcast_S_S131072x64 : (⟨S_, .f32⟩ : BufTy).Contents (Elt F) → (⟨S131072x64, .f32⟩ : BufTy).Contents (Elt F)),
    StableHlo.unary main_v3 main_v509 (broadcastInDim S2097152x1 ![0] bcast_S2097152_S2097152x1_0 : (⟨S2097152, .i32⟩ : BufTy).Contents (Elt F) → (⟨S2097152x1, .i32⟩ : BufTy).Contents (Elt F)) ]

end Cert.ReferenceIdeal.HRun

end
-- ==== Proof.RefOps10.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- The 56 host operations of window 10 of @main, in program order, each call replaced by its callee's operations over the call's own buffers. -/
abbrev ops_part10 : List (HloOp τ sig (Elt F)) :=
  [ StableHlo.ternary main_v508 main_v509 main_v507 main_v510 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_88 (constantI S_ 32 0#32),
    StableHlo.unary main_c_88 main_v511 (broadcastInDim S65536 ![] bcast_S_S65536 : (⟨S_, .i32⟩ : BufTy).Contents (Elt F) → (⟨S65536, .i32⟩ : BufTy).Contents (Elt F)),
    StableHlo.binary main_arg19 main_v511 main_v512 (cmpi .slt : (⟨S65536, .i32⟩ : BufTy).Contents (Elt F) → (⟨S65536, .i32⟩ : BufTy).Contents (Elt F) → (⟨S65536, .i1⟩ : BufTy).Contents (Elt F)),
    StableHlo.nullary main_c_89 (constantI S_ 32 32768#32),
    StableHlo.unary main_c_89 main_v513 (broadcastInDim S65536 ![] bcast_S_S65536 : (⟨S_, .i32⟩ : BufTy).Contents (Elt F) → (⟨S65536, .i32⟩ : BufTy).Contents (Elt F)),
    StableHlo.binary main_arg19 main_v513 main_v514 (addi : (⟨S65536, .i32⟩ : BufTy).Contents (Elt F) → (⟨S65536, .i32⟩ : BufTy).Contents (Elt F) → (⟨S65536, .i32⟩ : BufTy).Contents (Elt F)),
    StableHlo.ternary main_v512 main_v514 main_arg19 main_v515 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v515 main_v516 (broadcastInDim S65536x1 ![0] bcast_S65536_S65536x1_0 : (⟨S65536, .i32⟩ : BufTy).Contents (Elt F) → (⟨S65536x1, .i32⟩ : BufTy).Contents (Elt F)),
    StableHlo.binary main_v482 main_v516 main_v517 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_90 (constant S_ .f32 0x00000000#32),
    StableHlo.unary main_cst_90 main_v518 (broadcastInDim S131072x64 ![] bcast_S_S131072x64 : (⟨S_, .f32⟩ : BufTy).Contents (Elt F) → (⟨S131072x64, .f32⟩ : BufTy).Contents (Elt F)),
    StableHlo.unary main_arg20 main_v519 (broadcastInDim S65536x1 ![0] bcast_S65536_S65536x1_0 : (⟨S65536, .i32⟩ : BufTy).Contents (Elt F) → (⟨S65536x1, .i32⟩ : BufTy).Contents (Elt F)),
    StableHlo.ternary main_v518 main_v519 main_v517 main_v520 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)),
    StableHlo.binary main_v510 main_v520 main_v521 (addf : (⟨S131072x64, .f32⟩ : BufTy).Contents (Elt F) → (⟨S131072x64, .f32⟩ : BufTy).Contents (Elt F) → (⟨S131072x64, .f32⟩ : BufTy).Contents (Elt F)),
    StableHlo.nullary main_c_91 (constantI S_ 32 0#32),
    StableHlo.unary main_c_91 main_v522 (broadcastInDim S65536 ![] bcast_S_S65536 : (⟨S_, .i32⟩ : BufTy).Contents (Elt F) → (⟨S65536, .i32⟩ : BufTy).Contents (Elt F)),
    StableHlo.binary main_arg21 main_v522 main_v523 (cmpi .slt : (⟨S65536, .i32⟩ : BufTy).Contents (Elt F) → (⟨S65536, .i32⟩ : BufTy).Contents (Elt F) → (⟨S65536, .i1⟩ : BufTy).Contents (Elt F)),
    StableHlo.nullary main_c_92 (constantI S_ 32 131072#32),
    StableHlo.unary main_c_92 main_v524 (broadcastInDim S65536 ![] bcast_S_S65536 : (⟨S_, .i32⟩ : BufTy).Contents (Elt F) → (⟨S65536, .i32⟩ : BufTy).Contents (Elt F)),
    StableHlo.binary main_arg21 main_v524 main_v525 (addi : (⟨S65536, .i32⟩ : BufTy).Contents (Elt F) → (⟨S65536, .i32⟩ : BufTy).Contents (Elt F) → (⟨S65536, .i32⟩ : BufTy).Contents (Elt F)),
    StableHlo.ternary main_v523 main_v525 main_arg21 main_v526 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v526 main_v527 (broadcastInDim S65536x1 ![0] bcast_S65536_S65536x1_0 : (⟨S65536, .i32⟩ : BufTy).Contents (Elt F) → (⟨S65536x1, .i32⟩ : BufTy).Contents (Elt F)),
    StableHlo.binary main_v472 main_v527 main_v528 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_93 (constant S_ .f32 0x00000000#32),
    StableHlo.unary main_cst_93 main_v529 (broadcastInDim S32768x64 ![] bcast_S_S32768x64 : (⟨S_, .f32⟩ : BufTy).Contents (Elt F) → (⟨S32768x64, .f32⟩ : BufTy).Contents (Elt F)),
    StableHlo.unary main_arg22 main_v530 (broadcastInDim S65536x1 ![0] bcast_S65536_S65536x1_0 : (⟨S65536, .i32⟩ : BufTy).Contents (Elt F) → (⟨S65536x1, .i32⟩ : BufTy).Contents (Elt F)),
    StableHlo.ternary main_v529 main_v530 main_v528 main_v531 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)),
    StableHlo.unary main_arg10 main_v532 ((extractStridedSlice S1x1x64x64 ![1, 4, 0, 0] · slices_S2x5x64x64_S1x1x64x64_1_4_0_0) : (⟨S2x5x64x64, .f32⟩ : BufTy).Contents (Elt F) → (⟨S1x1x64x64, .f32⟩ : BufTy).Contents (Elt F)),
    StableHlo.reshape main_v532 main_v533 rfl shapeCasts_S1x1x64x64_S64x64,
    StableHlo.binary main_v521 main_v533 main_v534 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v491 main_v534 main_v535 (addf : (⟨S131072x64, .f32⟩ : BufTy).Contents (Elt F) → (⟨S131072x64, .f32⟩ : BufTy).Contents (Elt F) → (⟨S131072x64, .f32⟩ : BufTy).Contents (Elt F)),
    StableHlo.unary main_arg11 main_v536 ((extractStridedSlice S1x1x64 ![1, 4, 0] · slices_S2x5x64_S1x1x64_1_4_0) : (⟨S2x5x64, .f32⟩ : BufTy).Contents (Elt F) → (⟨S1x1x64, .f32⟩ : BufTy).Contents (Elt F)),
    StableHlo.reshape main_v536 main_v537 rfl shapeCasts_S1x1x64_S64,
    StableHlo.unary main_v537 main_v538 (broadcastInDim S1x64 ![1] bcast_S64_S1x64_1 : (⟨S64, .f32⟩ : BufTy).Contents (Elt F) → (⟨S1x64, .f32⟩ : BufTy).Contents (Elt F)),
    StableHlo.unary main_v538 main_v539 (broadcastInDim S131072x64 ![0, 1] bcast_S1x64_S131072x64_0_1 : (⟨S1x64, .f32⟩ : BufTy).Contents (Elt F) → (⟨S131072x64, .f32⟩ : BufTy).Contents (Elt F)),
    StableHlo.binary main_v535 main_v539 main_v540 (addf : (⟨S131072x64, .f32⟩ : BufTy).Contents (Elt F) → (⟨S131072x64, .f32⟩ : BufTy).Contents (Elt F) → (⟨S131072x64, .f32⟩ : BufTy).Contents (Elt F)),
    StableHlo.unary main_arg12 main_v541 ((extractStridedSlice S1x1x64x64 ![1, 4, 0, 0] · slices_S2x5x64x64_S1x1x64x64_1_4_0_0) : (⟨S2x5x64x64, .f32⟩ : BufTy).Contents (Elt F) → (⟨S1x1x64x64, .f32⟩ : BufTy).Contents (Elt F)),
    StableHlo.reshape main_v541 main_v542 rfl shapeCasts_S1x1x64x64_S64x64,
    StableHlo.binary main_v531 main_v542 main_v543 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v500 main_v543 main_v544 (addf : (⟨S32768x64, .f32⟩ : BufTy).Contents (Elt F) → (⟨S32768x64, .f32⟩ : BufTy).Contents (Elt F) → (⟨S32768x64, .f32⟩ : BufTy).Contents (Elt F)),
    StableHlo.unary main_arg13 main_v545 ((extractStridedSlice S1x1x64 ![1, 4, 0] · slices_S2x5x64_S1x1x64_1_4_0) : (⟨S2x5x64, .f32⟩ : BufTy).Contents (Elt F) → (⟨S1x1x64, .f32⟩ : BufTy).Contents (Elt F)),
    StableHlo.reshape main_v545 main_v546 rfl shapeCasts_S1x1x64_S64,
    StableHlo.unary main_v546 main_v547 (broadcastInDim S1x64 ![1] bcast_S64_S1x64_1 : (⟨S64, .f32⟩ : BufTy).Contents (Elt F) → (⟨S1x64, .f32⟩ : BufTy).Contents (Elt F)),
    StableHlo.unary main_v547 main_v548 (broadcastInDim S32768x64 ![0, 1] bcast_S1x64_S32768x64_0_1 : (⟨S1x64, .f32⟩ : BufTy).Contents (Elt F) → (⟨S32768x64, .f32⟩ : BufTy).Contents (Elt F)),
    StableHlo.binary main_v544 main_v548 main_v549 (addf : (⟨S32768x64, .f32⟩ : BufTy).Contents (Elt F) → (⟨S32768x64, .f32⟩ : BufTy).Contents (Elt F) → (⟨S32768x64, .f32⟩ : BufTy).Contents (Elt F)),
    StableHlo.binary main_v280 main_v540 main_v550 (addf : (⟨S131072x64, .f32⟩ : BufTy).Contents (Elt F) → (⟨S131072x64, .f32⟩ : BufTy).Contents (Elt F) → (⟨S131072x64, .f32⟩ : BufTy).Contents (Elt F)),
    StableHlo.binary main_v281 main_v549 main_v551 (addf : (⟨S32768x64, .f32⟩ : BufTy).Contents (Elt F) → (⟨S32768x64, .f32⟩ : BufTy).Contents (Elt F) → (⟨S32768x64, .f32⟩ : BufTy).Contents (Elt F)),
    StableHlo.binary main_v550 main_arg14 main_v552 ((fun l r => Host.dotGeneral dot_S131072x64_S64x32_S131072x32_1_0_0_1_n_n none l r) : (⟨S131072x64, .f32⟩ : BufTy).Contents (Elt F) → (⟨S64x32, .f32⟩ : BufTy).Contents (Elt F) → (⟨S131072x32, .f32⟩ : BufTy).Contents (Elt F)),
    StableHlo.unary main_arg15 main_v553 (broadcastInDim S1x32 ![1] bcast_S32_S1x32_1 : (⟨S32, .f32⟩ : BufTy).Contents (Elt F) → (⟨S1x32, .f32⟩ : BufTy).Contents (Elt F)),
    StableHlo.unary main_v553 main_v554 (broadcastInDim S131072x32 ![0, 1] bcast_S1x32_S131072x32_0_1 : (⟨S1x32, .f32⟩ : BufTy).Contents (Elt F) → (⟨S131072x32, .f32⟩ : BufTy).Contents (Elt F)),
    StableHlo.binary main_v552 main_v554 main_v555 (addf : (⟨S131072x32, .f32⟩ : BufTy).Contents (Elt F) → (⟨S131072x32, .f32⟩ : BufTy).Contents (Elt F) → (⟨S131072x32, .f32⟩ : BufTy).Contents (Elt F)),
    StableHlo.binary main_v551 main_arg16 main_v556 ((fun l r => Host.dotGeneral dot_S32768x64_S64x32_S32768x32_1_0_0_1_n_n none l r) : (⟨S32768x64, .f32⟩ : BufTy).Contents (Elt F) → (⟨S64x32, .f32⟩ : BufTy).Contents (Elt F) → (⟨S32768x32, .f32⟩ : BufTy).Contents (Elt F)),
    StableHlo.unary main_arg17 main_v557 (broadcastInDim S1x32 ![1] bcast_S32_S1x32_1 : (⟨S32, .f32⟩ : BufTy).Contents (Elt F) → (⟨S1x32, .f32⟩ : BufTy).Contents (Elt F)),
    StableHlo.unary main_v557 main_v558 (broadcastInDim S32768x32 ![0, 1] bcast_S1x32_S32768x32_0_1 : (⟨S1x32, .f32⟩ : BufTy).Contents (Elt F) → (⟨S32768x32, .f32⟩ : BufTy).Contents (Elt F)),
    StableHlo.binary main_v556 main_v558 main_v559 (addf : (⟨S32768x32, .f32⟩ : BufTy).Contents (Elt F) → (⟨S32768x32, .f32⟩ : BufTy).Contents (Elt F) → (⟨S32768x32, .f32⟩ : BufTy).Contents (Elt F)) ]

end Cert.ReferenceIdeal.HRun

end
-- ==== Proof.RefRun.lean ====
/-
  The reference program's run: @main is the straight line of its 740 host operations (the eleven windows' lists, the
  outlined calls replaced by their bodies), so every weakly fair execution terminates with each buffer at the fold of
  the operations over the launch contents; no operation writes an argument, so the 23 argument arrays end as launched.
-/
import proofs.«144873_j21182778704707_1_alg».proof.Proof.RefLib
import proofs.«144873_j21182778704707_1_alg».proof.Proof.RefOps0
import proofs.«144873_j21182778704707_1_alg».proof.Proof.RefOps1
import proofs.«144873_j21182778704707_1_alg».proof.Proof.RefOps2
import proofs.«144873_j21182778704707_1_alg».proof.Proof.RefOps3
import proofs.«144873_j21182778704707_1_alg».proof.Proof.RefOps4
import proofs.«144873_j21182778704707_1_alg».proof.Proof.RefOps5
import proofs.«144873_j21182778704707_1_alg».proof.Proof.RefOps6
import proofs.«144873_j21182778704707_1_alg».proof.Proof.RefOps7
import proofs.«144873_j21182778704707_1_alg».proof.Proof.RefOps8
import proofs.«144873_j21182778704707_1_alg».proof.Proof.RefOps9
import proofs.«144873_j21182778704707_1_alg».proof.Proof.RefOps10
import Idealize.ShloMosaic.Lib.Pipeline.Frame

set_option maxHeartbeats 4000000

noncomputable section

namespace Cert.ReferenceIdeal.HRun

open Cert.ReferenceIdeal  Idealize.ShloMosaic Idealize.ShloMosaic.TcCoe Idealize.SL.Sem Idealize.ShloMosaic.StableHlo

variable {F : FTy → Type} [FloatOps F]

/-- @main's operations: the eleven windows' lists in order. -/
abbrev ops : List (HloOp τ sig (Elt F)) :=
  ops_part0 ++ (ops_part1 ++ (ops_part2 ++ (ops_part3 ++ (ops_part4 ++ (ops_part5 ++ (ops_part6 ++ (ops_part7 ++ (ops_part8 ++ (ops_part9 ++ ops_part10)))))))))

/-! Each window of @main is the straight line of its list: the callees' bodies unfold at their calls, the call records at
    their fields, and both sides are one chain of host steps. -/

set_option maxRecDepth 8192 in
theorem part0_eq (c : Dev nD) : main_part0 (F := F) c = seq ops_part0 := rfl
set_option maxRecDepth 8192 in
theorem part1_eq (c : Dev nD) : main_part1 (F := F) c = seq ops_part1 := rfl
set_option maxRecDepth 8192 in
theorem part2_eq (c : Dev nD) : main_part2 (F := F) c = seq ops_part2 := rfl
set_option maxRecDepth 8192 in
theorem part3_eq (c : Dev nD) : main_part3 (F := F) c = seq ops_part3 := rfl
set_option maxRecDepth 8192 in
theorem part4_eq (c : Dev nD) : main_part4 (F := F) c = seq ops_part4 := rfl
set_option maxRecDepth 8192 in
theorem part5_eq (c : Dev nD) : main_part5 (F := F) c = seq ops_part5 := rfl
set_option maxRecDepth 8192 in
theorem part6_eq (c : Dev nD) : main_part6 (F := F) c = seq ops_part6 := rfl
set_option maxRecDepth 8192 in
theorem part7_eq (c : Dev nD) : main_part7 (F := F) c = seq ops_part7 := rfl
set_option maxRecDepth 8192 in
theorem part8_eq (c : Dev nD) : main_part8 (F := F) c = seq ops_part8 := rfl
set_option maxRecDepth 8192 in
theorem part9_eq (c : Dev nD) : main_part9 (F := F) c = seq ops_part9 := rfl
set_option maxRecDepth 8192 in
theorem part10_eq (c : Dev nD) : main_part10 (F := F) c = seq ops_part10 := rfl

/-- @main is the straight line of all of them: the windows in order, a concatenation's line being the lines one after
    the other. -/
theorem main_eq (c : Dev nD) : main (F := F) c = seq ops := by
  simp only [ops, seq_append, ← part0_eq c, ← part1_eq c, ← part2_eq c, ← part3_eq c, ← part4_eq c, ← part5_eq c, ← part6_eq c, ← part7_eq c, ← part8_eq c, ← part9_eq c, ← part10_eq c]
  rfl

/-! Every operation of every window is plain. -/

theorem part0_plain : (ops_part0 : List (HloOp τ sig (Elt F))).Forall Plain := by plain_ops
theorem part1_plain : (ops_part1 : List (HloOp τ sig (Elt F))).Forall Plain := by plain_ops
theorem part2_plain : (ops_part2 : List (HloOp τ sig (Elt F))).Forall Plain := by plain_ops
theorem part3_plain : (ops_part3 : List (HloOp τ sig (Elt F))).Forall Plain := by plain_ops
theorem part4_plain : (ops_part4 : List (HloOp τ sig (Elt F))).Forall Plain := by plain_ops
theorem part5_plain : (ops_part5 : List (HloOp τ sig (Elt F))).Forall Plain := by plain_ops
theorem part6_plain : (ops_part6 : List (HloOp τ sig (Elt F))).Forall Plain := by plain_ops
theorem part7_plain : (ops_part7 : List (HloOp τ sig (Elt F))).Forall Plain := by plain_ops
theorem part8_plain : (ops_part8 : List (HloOp τ sig (Elt F))).Forall Plain := by plain_ops
theorem part9_plain : (ops_part9 : List (HloOp τ sig (Elt F))).Forall Plain := by plain_ops
theorem part10_plain : (ops_part10 : List (HloOp τ sig (Elt F))).Forall Plain := by plain_ops

theorem ops_plain : (ops : List (HloOp τ sig (Elt F))).Forall Plain :=
  List.forall_append.mpr ⟨part0_plain, List.forall_append.mpr ⟨part1_plain, List.forall_append.mpr ⟨part2_plain, List.forall_append.mpr ⟨part3_plain, List.forall_append.mpr ⟨part4_plain, List.forall_append.mpr ⟨part5_plain, List.forall_append.mpr ⟨part6_plain, List.forall_append.mpr ⟨part7_plain, List.forall_append.mpr ⟨part8_plain, List.forall_append.mpr ⟨part9_plain, part10_plain⟩⟩⟩⟩⟩⟩⟩⟩⟩⟩

theorem ops_sub : (ops : List (HloOp τ sig (Elt F))).Forall fun op => op.bufs ⊆ StableHlo.tcRefs τ sig :=
  ops_plain.imp fun _ h => h.sub

theorem ops_fresh : ∀ op ∈ (ops : List (HloOp τ sig (Elt F))), op.fresh = ∅ :=
  fun op h => (List.forall_iff_forall_mem.mp ops_plain op h).fresh

/-- On every device, for any float values, from any memory with zero counters: every weakly fair execution of @main
    terminates, and every final state has each TensorCore buffer at the operations' fold over the launch contents. -/
theorem run_raw (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_fresh)

/-- No operation writes an argument: the fold leaves each argument's buffer as it found it. -/
theorem arg_kept (W : Valuation τ sig (Elt F)) {r : Ref sig .tc} (hr : r ∈ argRefs) :
    StableHlo.after ops W (Proc.devRef .tc r) = W (Proc.devRef .tc r) :=
  after_of_forall_not_mem ops W fun op h => (List.forall_iff_forall_mem.mp ops_plain op h).keeps r hr

theorem kept_main_arg0 (W : Valuation τ sig (Elt F)) :
    StableHlo.after ops W (Proc.devRef .tc main_arg0) = W (Proc.devRef .tc main_arg0) :=
  arg_kept W (List.getElem_mem (l := argRefs) (n := 0) (by decide))
theorem kept_main_arg1 (W : Valuation τ sig (Elt F)) :
    StableHlo.after ops W (Proc.devRef .tc main_arg1) = W (Proc.devRef .tc main_arg1) :=
  arg_kept W (List.getElem_mem (l := argRefs) (n := 1) (by decide))
theorem kept_main_arg2 (W : Valuation τ sig (Elt F)) :
    StableHlo.after ops W (Proc.devRef .tc main_arg2) = W (Proc.devRef .tc main_arg2) :=
  arg_kept W (List.getElem_mem (l := argRefs) (n := 2) (by decide))
theorem kept_main_arg3 (W : Valuation τ sig (Elt F)) :
    StableHlo.after ops W (Proc.devRef .tc main_arg3) = W (Proc.devRef .tc main_arg3) :=
  arg_kept W (List.getElem_mem (l := argRefs) (n := 3) (by decide))
theorem kept_main_arg4 (W : Valuation τ sig (Elt F)) :
    StableHlo.after ops W (Proc.devRef .tc main_arg4) = W (Proc.devRef .tc main_arg4) :=
  arg_kept W (List.getElem_mem (l := argRefs) (n := 4) (by decide))
theorem kept_main_arg5 (W : Valuation τ sig (Elt F)) :
    StableHlo.after ops W (Proc.devRef .tc main_arg5) = W (Proc.devRef .tc main_arg5) :=
  arg_kept W (List.getElem_mem (l := argRefs) (n := 5) (by decide))
theorem kept_main_arg6 (W : Valuation τ sig (Elt F)) :
    StableHlo.after ops W (Proc.devRef .tc main_arg6) = W (Proc.devRef .tc main_arg6) :=
  arg_kept W (List.getElem_mem (l := argRefs) (n := 6) (by decide))
theorem kept_main_arg7 (W : Valuation τ sig (Elt F)) :
    StableHlo.after ops W (Proc.devRef .tc main_arg7) = W (Proc.devRef .tc main_arg7) :=
  arg_kept W (List.getElem_mem (l := argRefs) (n := 7) (by decide))
theorem kept_main_arg8 (W : Valuation τ sig (Elt F)) :
    StableHlo.after ops W (Proc.devRef .tc main_arg8) = W (Proc.devRef .tc main_arg8) :=
  arg_kept W (List.getElem_mem (l := argRefs) (n := 8) (by decide))
theorem kept_main_arg9 (W : Valuation τ sig (Elt F)) :
    StableHlo.after ops W (Proc.devRef .tc main_arg9) = W (Proc.devRef .tc main_arg9) :=
  arg_kept W (List.getElem_mem (l := argRefs) (n := 9) (by decide))
theorem kept_main_arg10 (W : Valuation τ sig (Elt F)) :
    StableHlo.after ops W (Proc.devRef .tc main_arg10) = W (Proc.devRef .tc main_arg10) :=
  arg_kept W (List.getElem_mem (l := argRefs) (n := 10) (by decide))
theorem kept_main_arg11 (W : Valuation τ sig (Elt F)) :
    StableHlo.after ops W (Proc.devRef .tc main_arg11) = W (Proc.devRef .tc main_arg11) :=
  arg_kept W (List.getElem_mem (l := argRefs) (n := 11) (by decide))
theorem kept_main_arg12 (W : Valuation τ sig (Elt F)) :
    StableHlo.after ops W (Proc.devRef .tc main_arg12) = W (Proc.devRef .tc main_arg12) :=
  arg_kept W (List.getElem_mem (l := argRefs) (n := 12) (by decide))
theorem kept_main_arg13 (W : Valuation τ sig (Elt F)) :
    StableHlo.after ops W (Proc.devRef .tc main_arg13) = W (Proc.devRef .tc main_arg13) :=
  arg_kept W (List.getElem_mem (l := argRefs) (n := 13) (by decide))
theorem kept_main_arg14 (W : Valuation τ sig (Elt F)) :
    StableHlo.after ops W (Proc.devRef .tc main_arg14) = W (Proc.devRef .tc main_arg14) :=
  arg_kept W (List.getElem_mem (l := argRefs) (n := 14) (by decide))
theorem kept_main_arg15 (W : Valuation τ sig (Elt F)) :
    StableHlo.after ops W (Proc.devRef .tc main_arg15) = W (Proc.devRef .tc main_arg15) :=
  arg_kept W (List.getElem_mem (l := argRefs) (n := 15) (by decide))
theorem kept_main_arg16 (W : Valuation τ sig (Elt F)) :
    StableHlo.after ops W (Proc.devRef .tc main_arg16) = W (Proc.devRef .tc main_arg16) :=
  arg_kept W (List.getElem_mem (l := argRefs) (n := 16) (by decide))
theorem kept_main_arg17 (W : Valuation τ sig (Elt F)) :
    StableHlo.after ops W (Proc.devRef .tc main_arg17) = W (Proc.devRef .tc main_arg17) :=
  arg_kept W (List.getElem_mem (l := argRefs) (n := 17) (by decide))
theorem kept_main_arg18 (W : Valuation τ sig (Elt F)) :
    StableHlo.after ops W (Proc.devRef .tc main_arg18) = W (Proc.devRef .tc main_arg18) :=
  arg_kept W (List.getElem_mem (l := argRefs) (n := 18) (by decide))
theorem kept_main_arg19 (W : Valuation τ sig (Elt F)) :
    StableHlo.after ops W (Proc.devRef .tc main_arg19) = W (Proc.devRef .tc main_arg19) :=
  arg_kept W (List.getElem_mem (l := argRefs) (n := 19) (by decide))
theorem kept_main_arg20 (W : Valuation τ sig (Elt F)) :
    StableHlo.after ops W (Proc.devRef .tc main_arg20) = W (Proc.devRef .tc main_arg20) :=
  arg_kept W (List.getElem_mem (l := argRefs) (n := 20) (by decide))
theorem kept_main_arg21 (W : Valuation τ sig (Elt F)) :
    StableHlo.after ops W (Proc.devRef .tc main_arg21) = W (Proc.devRef .tc main_arg21) :=
  arg_kept W (List.getElem_mem (l := argRefs) (n := 21) (by decide))
theorem kept_main_arg22 (W : Valuation τ sig (Elt F)) :
    StableHlo.after ops W (Proc.devRef .tc main_arg22) = W (Proc.devRef .tc main_arg22) :=
  arg_kept W (List.getElem_mem (l := argRefs) (n := 22) (by decide))

/-- The reference runs, and its 23 argument arrays end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨(h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _),
      (h c main_arg6).trans (kept_main_arg6 _),
      (h c main_arg7).trans (kept_main_arg7 _),
      (h c main_arg8).trans (kept_main_arg8 _),
      (h c main_arg9).trans (kept_main_arg9 _),
      (h c main_arg10).trans (kept_main_arg10 _),
      (h c main_arg11).trans (kept_main_arg11 _),
      (h c main_arg12).trans (kept_main_arg12 _),
      (h c main_arg13).trans (kept_main_arg13 _),
      (h c main_arg14).trans (kept_main_arg14 _),
      (h c main_arg15).trans (kept_main_arg15 _),
      (h c main_arg16).trans (kept_main_arg16 _),
      (h c main_arg17).trans (kept_main_arg17 _),
      (h c main_arg18).trans (kept_main_arg18 _),
      (h c main_arg19).trans (kept_main_arg19 _),
      (h c main_arg20).trans (kept_main_arg20 _),
      (h c main_arg21).trans (kept_main_arg21 _),
      (h c main_arg22).trans (kept_main_arg22 _)⟩)
    (run_raw m ρ)

end Cert.ReferenceIdeal.HRun

end
-- ==== Proof.RefSSA.lean ====
/-
  A straight line of host operations in which every value has a buffer of its own, numbered in program order: the
  contents at its end satisfy each operation's own equation (the result buffer holds the operation's function of the
  operands' final contents). Stated once for any such line; the builders' operations are such steps when their
  buffers' indices say so.
-/
import proofs.«144873_j21182778704707_1_alg».proof.Proof.Gen.ReferenceIdeal
import Idealize.ShloMosaic.Lib.StableHlo.Run
import Idealize.ShloMosaic.Lib.ValueIdx

set_option maxHeartbeats 4000000

noncomputable section

namespace Cert.ReferenceIdeal.HRun

open Cert.ReferenceIdeal Cert.ReferenceIdeal.Facts₀ Idealize.ShloMosaic Idealize.ShloMosaic.TcCoe Idealize.SL.Sem Idealize.ShloMosaic.StableHlo Idealize.ShloMosaic.ValueIdx

variable {F : FTy → Type} [FloatOps F]

/-! ## A numbered straight line

The reference program gives every value a buffer of its own, in program order: the operation at position i writes the
buffer numbered 23 + i and reads buffers numbered below it only. So no buffer is written twice, no operation reads what
a later one writes, and the contents at the end of the line satisfy every operation's own equation: each result buffer
holds its operation's function of the FINAL contents of the operands. -/

section Numbered

variable {Val : EltTy → Type}

/-- An operation that writes exactly one buffer, the one numbered n, and whose value there depends only on the
    buffers numbered below n. -/
structure Step (n : ℕ) (op : HloOp τ sig Val) : Prop where
  writes : ∀ b ∈ op.writes, ∃ r : Ref sig .tc, b = Proc.devRef .tc r ∧ r.idx.val = n
  congr : ∀ F G : Valuation τ sig Val, (∀ r : Ref sig .tc, r.idx.val < n → F (Proc.devRef .tc r) = G (Proc.devRef .tc r)) →
    ∀ b ∈ op.writes, op.result F b = op.result G b

/-- A line whose operations are numbered n, n + 1, … in order. -/
def Steps : ℕ → List (HloOp τ sig Val) → Prop
  | _, [] => True
  | n, op :: rest => Step n op ∧ Steps (n + 1) rest

theorem Steps.append : ∀ {l₁ l₂ : List (HloOp τ sig Val)} {n : ℕ}, Steps n l₁ → Steps (n + l₁.length) l₂ → Steps n (l₁ ++ l₂)
  | [], _, _, _, h₂ => by simpa using h₂
  | _ :: l₁, l₂, n, ⟨h, h₁⟩, h₂ =>
    ⟨h, Steps.append h₁ (by rw [List.length_cons] at h₂; rwa [Nat.add_assoc, Nat.add_comm 1])⟩

/-- A buffer numbered below a step's is not the one it writes. -/
theorem Step.not_mem {n : ℕ} {op : HloOp τ sig Val} (h : Step n op) {r : Ref sig .tc} (hr : r.idx.val < n) :
    (Proc.devRef .tc r : DevRef τ sig) ∉ op.writes := fun hm => by
  obtain ⟨r', e, hn⟩ := h.writes _ hm
  cases Proc.devRef_injective _ e
  omega

/-- A line numbered from n on leaves every buffer numbered below n as it found it. -/
theorem Steps.kept : ∀ {ops : List (HloOp τ sig Val)} {n : ℕ}, Steps n ops → ∀ (V : Valuation τ sig Val) {r : Ref sig .tc},
    r.idx.val < n → after ops V (Proc.devRef .tc r) = V (Proc.devRef .tc r)
  | [], _, _, _, _, _ => rfl
  | op :: rest, n, ⟨h, hr⟩, V, r, hlt => by
    rw [after_cons, Steps.kept hr _ (Nat.lt_succ_of_lt hlt), op.result_of_not_mem V (h.not_mem hlt)]

/-- At the end of a numbered line every operation's equation holds of the final contents. -/
theorem Steps.fix : ∀ {ops : List (HloOp τ sig Val)} {n : ℕ}, Steps n ops → ∀ (V : Valuation τ sig Val), ∀ op ∈ ops, ∀ b ∈ op.writes,
    after ops V b = op.result (after ops V) b
  | op :: rest, n, ⟨h, hr⟩, V, op', hop', b, hb => by
    rcases List.mem_cons.mp hop' with rfl | hin
    · obtain ⟨r, rfl, hn⟩ := h.writes b hb
      rw [after_cons, Steps.kept hr _ (by omega : r.idx.val < n + 1)]
      refine h.congr V _ (fun r' hr' => ?_) _ hb
      rw [Steps.kept hr _ (Nat.lt_succ_of_lt hr'), op'.result_of_not_mem V (h.not_mem hr')]
    · exact Steps.fix hr (op.result V) op' hin b hb

/-- The same as a property of the list: what a stage's lemma takes. -/
def Fix (W : Valuation τ sig Val) (op : HloOp τ sig Val) : Prop := ∀ b ∈ op.writes, W b = op.result W b

theorem Steps.forall_fix {ops : List (HloOp τ sig Val)} {n : ℕ} (h : Steps n ops) (V : Valuation τ sig Val) :
    ops.Forall (Fix (after ops V)) :=
  List.forall_iff_forall_mem.mpr fun op hop => h.fix V op hop

section Builders

variable (x a b c y : Ref sig .tc) {n : ℕ}

private theorem single_writes {y : Ref sig .tc} (hyn : y.idx.val = n) :
    ∀ b ∈ ({Proc.devRef .tc y} : Finset (DevRef τ sig)), ∃ r : Ref sig .tc, b = Proc.devRef .tc r ∧ r.idx.val = n :=
  fun _ hb => ⟨y, Finset.mem_singleton.mp hb, hyn⟩

theorem step_nullary (v : y.ty.Contents Val) (hy) (hyn : y.idx.val = n) : Step n (nullary (τ := τ) y v hy) :=
  ⟨single_writes hyn, fun F G _ b hb => by
    cases Finset.mem_singleton.mp hb; rw [nullary_result, nullary_result]⟩
theorem step_unary (f : x.ty.Contents Val → y.ty.Contents Val) (hx hy) (hyn : y.idx.val = n) (hxn : x.idx.val < n) :
    Step n (unary (τ := τ) x y f hx hy) :=
  ⟨single_writes hyn, fun F G h b hb => by
    cases Finset.mem_singleton.mp hb; rw [unary_result, unary_result, h x hxn]⟩
theorem step_binary (f : a.ty.Contents Val → b.ty.Contents Val → y.ty.Contents Val) (ha hb hy) (hyn : y.idx.val = n)
    (han : a.idx.val < n) (hbn : b.idx.val < n) : Step n (binary (τ := τ) a b y f ha hb hy) :=
  ⟨single_writes hyn, fun F G h b' hb' => by
    cases Finset.mem_singleton.mp hb'; rw [binary_result, binary_result, h a han, h b hbn]⟩
theorem step_ternary (f : c.ty.Contents Val → a.ty.Contents Val → b.ty.Contents Val → y.ty.Contents Val) (hc ha hb hy)
    (hyn : y.idx.val = n) (hcn : c.idx.val < n) (han : a.idx.val < n) (hbn : b.idx.val < n) :
    Step n (ternary (τ := τ) c a b y f hc ha hb hy) :=
  ⟨single_writes hyn, fun F G h b' hb' => by
    cases Finset.mem_singleton.mp hb'; rw [ternary_result, ternary_result, h c hcn, h a han, h b hbn]⟩
theorem step_reshape (he hn hx hy) (hyn : y.idx.val = n) (hxn : x.idx.val < n) :
    Step n (reshape (τ := τ) (Val := Val) x y he hn hx hy) :=
  ⟨single_writes hyn, fun F G h b hb => by
    cases Finset.mem_singleton.mp hb; rw [reshape_result, reshape_result, h x hxn]⟩

end Builders

end Numbered

/-- A literal list is numbered from its first operation's number on: each operation by its builder's lemma, the
    buffers' indices compared by computation. -/
macro "steps_ops" : tactic =>
  `(tactic| (simp (disch := decide) only [Steps, step_nullary, step_unary, step_binary, step_ternary, step_reshape, and_self]))

theorem hostDivf_apply {s : Shape} {φ : FTy} (a b : FVec Ideal s φ) (i : s.Idx) : Host.divf a b i = FloatOps.hostDivf (a i) (b i) := rfl
theorem hostRsqrt_apply {s : Shape} {φ : FTy} (a : FVec Ideal s φ) (i : s.Idx) : Host.rsqrt a i = FloatOps.hostUnary .rsqrt (a i) := rfl

/-- A stage's operations' equations, spelt out: each result buffer of the final contents at its function of the operands'. -/
macro "stage_eqs " st:ident h:ident : tactic =>
  `(tactic| simp only [$st:ident, List.Forall, Fix, nullary_writes, unary_writes, binary_writes, ternary_writes, reshape_writes, Finset.mem_singleton,
      forall_eq, nullary_result', unary_result', binary_result', ternary_result', reshape_result'] at $h:ident)

end Cert.ReferenceIdeal.HRun

end
-- ==== Proof.RefStagesA.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- Operations 0 … 3 of @main (calls inlined), which write the buffers numbered 23 … 26. -/
abbrev st_edges : List (HloOp τ sig (Elt F)) :=
  [ StableHlo.unary main_arg18 main_v0 ((extractStridedSlice S1x2097152 ![0, 0] · slices_S2x2097152_S1x2097152_0_0) : (⟨S2x2097152, .i32⟩ : BufTy).Contents (Elt F) → (⟨S1x2097152, .i32⟩ : BufTy).Contents (Elt F)),
    StableHlo.reshape main_v0 main_v1 rfl shapeCasts_S1x2097152_S2097152,
    StableHlo.unary main_arg18 main_v2 ((extractStridedSlice S1x2097152 ![1, 0] · slices_S2x2097152_S1x2097152_1_0) : (⟨S2x2097152, .i32⟩ : BufTy).Contents (Elt F) → (⟨S1x2097152, .i32⟩ : BufTy).Contents (Elt F)),
    StableHlo.reshape main_v2 main_v3 rfl shapeCasts_S1x2097152_S2097152 ]

/-- Operations 4 … 7 of @main (calls inlined), which write the buffers numbered 27 … 30. -/
abbrev st_inB : List (HloOp τ sig (Elt F)) :=
  [ StableHlo.binary main_arg0 main_arg2 main_v4 ((fun l r => Host.dotGeneral dot_S131072x32_S32x64_S131072x64_1_0_0_1_n_n none l r) : (⟨S131072x32, .f32⟩ : BufTy).Contents (Elt F) → (⟨S32x64, .f32⟩ : BufTy).Contents (Elt F) → (⟨S131072x64, .f32⟩ : BufTy).Contents (Elt F)),
    StableHlo.unary main_arg3 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S131072x64 ![0, 1] bcast_S1x64_S131072x64_0_1 : (⟨S1x64, .f32⟩ : BufTy).Contents (Elt F) → (⟨S131072x64, .f32⟩ : BufTy).Contents (Elt F)),
    StableHlo.binary main_v4 main_v6 main_v7 (addf : (⟨S131072x64, .f32⟩ : BufTy).Contents (Elt F) → (⟨S131072x64, .f32⟩ : BufTy).Contents (Elt F) → (⟨S131072x64, .f32⟩ : BufTy).Contents (Elt F)) ]

/-- Operations 8 … 11 of @main (calls inlined), which write the buffers numbered 31 … 34. -/
abbrev st_inG : List (HloOp τ sig (Elt F)) :=
  [ StableHlo.binary main_arg1 main_arg4 main_v8 ((fun l r => Host.dotGeneral dot_S32768x32_S32x64_S32768x64_1_0_0_1_n_n none l r) : (⟨S32768x32, .f32⟩ : BufTy).Contents (Elt F) → (⟨S32x64, .f32⟩ : BufTy).Contents (Elt F) → (⟨S32768x64, .f32⟩ : BufTy).Contents (Elt F)),
    StableHlo.unary main_arg5 main_v9 (broadcastInDim S1x64 ![1] bcast_S64_S1x64_1 : (⟨S64, .f32⟩ : BufTy).Contents (Elt F) → (⟨S1x64, .f32⟩ : BufTy).Contents (Elt F)),
    StableHlo.unary main_v9 main_v10 (broadcastInDim S32768x64 ![0, 1] bcast_S1x64_S32768x64_0_1 : (⟨S1x64, .f32⟩ : BufTy).Contents (Elt F) → (⟨S32768x64, .f32⟩ : BufTy).Contents (Elt F)),
    StableHlo.binary main_v8 main_v10 main_v11 (addf : (⟨S32768x64, .f32⟩ : BufTy).Contents (Elt F) → (⟨S32768x64, .f32⟩ : BufTy).Contents (Elt F) → (⟨S32768x64, .f32⟩ : BufTy).Contents (Elt F)) ]

/-- Operations 732 … 735 of @main (calls inlined), which write the buffers numbered 755 … 758. -/
abbrev st_outB : List (HloOp τ sig (Elt F)) :=
  [ StableHlo.binary main_v550 main_arg14 main_v552 ((fun l r => Host.dotGeneral dot_S131072x64_S64x32_S131072x32_1_0_0_1_n_n none l r) : (⟨S131072x64, .f32⟩ : BufTy).Contents (Elt F) → (⟨S64x32, .f32⟩ : BufTy).Contents (Elt F) → (⟨S131072x32, .f32⟩ : BufTy).Contents (Elt F)),
    StableHlo.unary main_arg15 main_v553 (broadcastInDim S1x32 ![1] bcast_S32_S1x32_1 : (⟨S32, .f32⟩ : BufTy).Contents (Elt F) → (⟨S1x32, .f32⟩ : BufTy).Contents (Elt F)),
    StableHlo.unary main_v553 main_v554 (broadcastInDim S131072x32 ![0, 1] bcast_S1x32_S131072x32_0_1 : (⟨S1x32, .f32⟩ : BufTy).Contents (Elt F) → (⟨S131072x32, .f32⟩ : BufTy).Contents (Elt F)),
    StableHlo.binary main_v552 main_v554 main_v555 (addf : (⟨S131072x32, .f32⟩ : BufTy).Contents (Elt F) → (⟨S131072x32, .f32⟩ : BufTy).Contents (Elt F) → (⟨S131072x32, .f32⟩ : BufTy).Contents (Elt F)) ]

/-- Operations 736 … 739 of @main (calls inlined), which write the buffers numbered 759 … 762. -/
abbrev st_outG : List (HloOp τ sig (Elt F)) :=
  [ StableHlo.binary main_v551 main_arg16 main_v556 ((fun l r => Host.dotGeneral dot_S32768x64_S64x32_S32768x32_1_0_0_1_n_n none l r) : (⟨S32768x64, .f32⟩ : BufTy).Contents (Elt F) → (⟨S64x32, .f32⟩ : BufTy).Contents (Elt F) → (⟨S32768x32, .f32⟩ : BufTy).Contents (Elt F)),
    StableHlo.unary main_arg17 main_v557 (broadcastInDim S1x32 ![1] bcast_S32_S1x32_1 : (⟨S32, .f32⟩ : BufTy).Contents (Elt F) → (⟨S1x32, .f32⟩ : BufTy).Contents (Elt F)),
    StableHlo.unary main_v557 main_v558 (broadcastInDim S32768x32 ![0, 1] bcast_S1x32_S32768x32_0_1 : (⟨S1x32, .f32⟩ : BufTy).Contents (Elt F) → (⟨S32768x32, .f32⟩ : BufTy).Contents (Elt F)),
    StableHlo.binary main_v556 main_v558 main_v559 (addf : (⟨S32768x32, .f32⟩ : BufTy).Contents (Elt F) → (⟨S32768x32, .f32⟩ : BufTy).Contents (Elt F) → (⟨S32768x32, .f32⟩ : BufTy).Contents (Elt F)) ]

end Cert.ReferenceIdeal.HRun

end
-- ==== Proof.RefMath.lean ====
/-
  The host's spellings of the network's layers against their entrywise definitions: a scalar, a row or a vector
  broadcast read at an index; the dense layer and the accumulating tap with the bias an [M] vector placed along a row
  and the row repeated over the rows.
-/
import proofs.«144873_j21182778704707_1_alg».proof.Proof.SpecNet
import Idealize.ShloMosaic.Lib.Pipeline.Value
import Idealize.ShloMosaic.Lib.ValueIdx
import Idealize.ShloMosaic.Lib.StackMember
import Idealize.ShloMosaic.PureOps.Ideal.Laws

set_option maxHeartbeats 4000000

noncomputable section

namespace Cert.Hgcn

open Idealize.ShloMosaic Idealize.ShloMosaic.ValueIdx

/-! ## The host's spellings, read entry by entry -/

section Reads

variable {α : Type} {R M : ℕ}

/-- A scalar broadcast to any shape reads the scalar everywhere. -/
theorem bcast0_apply {t : Shape} (h : (⟨0, ![]⟩ : Shape).BroadcastsInDim t ![]) (c : (⟨0, ![]⟩ : Shape).Idx → α) (j : t.Idx) :
    broadcastInDim t ![] h c j = c ix0 :=
  broadcastInDim_apply _ h c j ix0 fun a => a.elim0

/-- A [1, M] row broadcast over R rows reads, at (p, q), the row at (0, q). -/
theorem rows_apply (p2 : (⟨2, ![1, M]⟩ : Shape).BroadcastsInDim ⟨2, ![R, M]⟩ ![0, 1]) (v : (⟨2, ![1, M]⟩ : Shape).Idx → α)
    (p : Fin R) (q : Fin M) : broadcastInDim ⟨2, ![R, M]⟩ ![0, 1] p2 v (ix2 p q) = v (ix2 (0 : Fin 1) q) :=
  broadcastInDim_apply _ p2 v (ix2 p q) (ix2 (0 : Fin 1) q) fun a => by
    match a with
    | ⟨0, _⟩ => show 0 = if (1 : ℕ) = 1 then 0 else _; rw [if_pos rfl]
    | ⟨1, _⟩ =>
      show q.val = if M = 1 then 0 else q.val
      split
      · have := q.isLt; omega
      · rfl

/-- A vector placed along the second axis of one row reads, at (0, q), the vector at q. -/
theorem row_apply (p1 : (⟨1, ![M]⟩ : Shape).BroadcastsInDim ⟨2, ![1, M]⟩ ![1]) (v : (⟨1, ![M]⟩ : Shape).Idx → α) (q : Fin M) :
    broadcastInDim ⟨2, ![1, M]⟩ ![1] p1 v (ix2 (0 : Fin 1) q) = v (ix1 q) :=
  broadcastInDim_apply _ p1 v _ _ fun a => by
    match a with
    | ⟨0, _⟩ =>
      show q.val = if M = 1 then 0 else q.val
      split
      · have := q.isLt; omega
      · rfl

/-- A vector reshaped to one row reads, at (0, q), the vector at q. -/
theorem rowCast_apply (v : (⟨1, ![M]⟩ : Shape).Idx → α) (h : (⟨1, ![M]⟩ : Shape).ShapeCasts ⟨2, ![1, M]⟩) (q : Fin M) :
    shapeCast ⟨2, ![1, M]⟩ v h (ix2 (0 : Fin 1) q) = v (ix1 q) := by
  refine shapeCast_apply v h _ _ ?_
  rewrite [Shape.rowMajor_val_two, Shape.rowMajor_val_one]
  show q.val = 0 * M + q.val
  omega

end Reads

/-! The same reads, stated for `simp`: the shape, the axes and the index un-indexed, so that the lemma is tried wherever a
    broadcast is read (the abbreviations in those positions otherwise key the pattern away from the term). -/
section SimpReads
variable {α : Type} {R M : ℕ}
theorem bcast0_apply' {t : Shape} (h : (⟨0, ![]⟩ : Shape).BroadcastsInDim t ![]) (c : (⟨0, ![]⟩ : Shape).Idx → α) (j : t.Idx) :
    broadcastInDim (no_index t) (no_index ![]) h c (no_index j) = c ix0 := bcast0_apply h c j
theorem rows_apply' (p2 : (⟨2, ![1, M]⟩ : Shape).BroadcastsInDim ⟨2, ![R, M]⟩ ![0, 1]) (v : (⟨2, ![1, M]⟩ : Shape).Idx → α)
    (p : Fin R) (q : Fin M) :
    broadcastInDim (no_index (⟨2, ![R, M]⟩ : Shape)) (no_index ![0, 1]) p2 v (no_index (ix2 p q)) = v (ix2 (0 : Fin 1) q) := rows_apply p2 v p q
theorem row_apply' (p1 : (⟨1, ![M]⟩ : Shape).BroadcastsInDim ⟨2, ![1, M]⟩ ![1]) (v : (⟨1, ![M]⟩ : Shape).Idx → α) (q : Fin M) :
    broadcastInDim (no_index (⟨2, ![1, M]⟩ : Shape)) (no_index ![1]) p1 v (no_index (ix2 (0 : Fin 1) q)) = v (ix1 q) := row_apply p1 v q
end SimpReads

variable {R K M : ℕ}

/-- The host's dense layer — the product, plus the [M] bias placed along a row and the row broadcast over the rows — is
    the affine map with the bias reshaped to a row. -/
theorem lin_host (p1 : (⟨1, ![M]⟩ : Shape).BroadcastsInDim ⟨2, ![1, M]⟩ ![1]) (p2 : (⟨2, ![1, M]⟩ : Shape).BroadcastsInDim ⟨2, ![R, M]⟩ ![0, 1])
    (hc : (⟨1, ![M]⟩ : Shape).ShapeCasts ⟨2, ![1, M]⟩) (x : Mat R K) (w : Mat K M) (b : FVec Ideal ⟨1, ![M]⟩ .f32) :
    addf (Host.dotGeneral (DotDims.plain R K M) none x w) (broadcastInDim ⟨2, ![R, M]⟩ ![0, 1] p2 (broadcastInDim ⟨2, ![1, M]⟩ ![1] p1 b))
      = lin x w (rowOf b hc) := by
  funext j
  obtain ⟨p, q, rfl⟩ : ∃ (p : Fin R) (q : Fin M), j = ix2 p q := ⟨j 0, j 1, eq_ix2 j⟩
  rw [lin_apply, addf_apply, StackMember.dotGeneral_plain_apply, rows_apply, row_apply, rowOf, rowCast_apply]

/-- The host's accumulating tap, the same way. -/
theorem tapAcc_host (p1 : (⟨1, ![M]⟩ : Shape).BroadcastsInDim ⟨2, ![1, M]⟩ ![1]) (p2 : (⟨2, ![1, M]⟩ : Shape).BroadcastsInDim ⟨2, ![R, M]⟩ ![0, 1])
    (hc : (⟨1, ![M]⟩ : Shape).ShapeCasts ⟨2, ![1, M]⟩) (z : Mat R M) (c : Mat R K) (w : Mat K M) (b : FVec Ideal ⟨1, ![M]⟩ .f32) :
    addf (addf z (Host.dotGeneral (DotDims.plain R K M) none c w)) (broadcastInDim ⟨2, ![R, M]⟩ ![0, 1] p2 (broadcastInDim ⟨2, ![1, M]⟩ ![1] p1 b))
      = tapAcc z c w (rowOf b hc) := by
  funext j
  obtain ⟨p, q, rfl⟩ : ∃ (p : Fin R) (q : Fin M), j = ix2 p q := ⟨j 0, j 1, eq_ix2 j⟩
  rw [tapAcc_apply, addf_apply, addf_apply, StackMember.dotGeneral_plain_apply, rows_apply, row_apply, rowOf, rowCast_apply]

end Cert.Hgcn

end
-- ==== Proof.RefStageEqsA.lean ====
/-
  The named values of the network at the buffers the reference program computes them into, for the edge rows, the readin and the readout: from the
  equations the final contents satisfy at a stage's operations, each stage's result is the layer's function of the
  stage's inputs (the dense layers and taps by their entrywise reading, the batch-norm and the rectifier entry by entry
  through the broadcasts, the graph shifts as the composed term they are).
-/
import proofs.«144873_j21182778704707_1_alg».proof.Proof.RefSSA
import proofs.«144873_j21182778704707_1_alg».proof.Proof.RefStagesA
import proofs.«144873_j21182778704707_1_alg».proof.Proof.RefMath

set_option maxHeartbeats 4000000

noncomputable section

namespace Cert.ReferenceIdeal.HRun

open Cert.ReferenceIdeal Cert.ReferenceIdeal.Facts₀ Idealize.ShloMosaic Idealize.ShloMosaic.TcCoe Idealize.SL.Sem Idealize.ShloMosaic.StableHlo Idealize.ShloMosaic.ValueIdx

/-- The buffer of a reference in a valuation. -/
local notation:max W "⟦" b "⟧" => W (Proc.devRef Proc.tc b)

variable (W : Valuation τ sig (Elt Ideal))

set_option maxRecDepth 16384 in
theorem edges_eq (h : (st_edges (F := Ideal)).Forall (Fix W)) :
    W⟦main_v1⟧ = Cert.Hgcn.edgeRow 0 W⟦main_arg18⟧ (by decide) ∧ W⟦main_v3⟧ = Cert.Hgcn.edgeRow 1 W⟦main_arg18⟧ (by decide) := by
  stage_eqs st_edges h
  obtain ⟨e0, e1, e2, e3⟩ := h
  exact ⟨by rw [e1, e0]; rfl, by rw [e3, e2]; rfl⟩

set_option maxRecDepth 16384 in
theorem inB_eq (h : (st_inB (F := Ideal)).Forall (Fix W)) :
    W⟦main_v7⟧ = Cert.Hgcn.lin W⟦main_arg0⟧ W⟦main_arg2⟧ (Cert.Hgcn.rowOf W⟦main_arg3⟧ (by decide)) := by
  stage_eqs st_inB h
  obtain ⟨e0, e1, e2, e3⟩ := h
  rw [e3, e0, e2, e1]
  exact Cert.Hgcn.lin_host _ _ _ _ _ _

set_option maxRecDepth 16384 in
theorem inG_eq (h : (st_inG (F := Ideal)).Forall (Fix W)) :
    W⟦main_v11⟧ = Cert.Hgcn.lin W⟦main_arg1⟧ W⟦main_arg4⟧ (Cert.Hgcn.rowOf W⟦main_arg5⟧ (by decide)) := by
  stage_eqs st_inG h
  obtain ⟨e0, e1, e2, e3⟩ := h
  rw [e3, e0, e2, e1]
  exact Cert.Hgcn.lin_host _ _ _ _ _ _

set_option maxRecDepth 16384 in
theorem outB_eq (h : (st_outB (F := Ideal)).Forall (Fix W)) :
    W⟦main_v555⟧ = Cert.Hgcn.lin W⟦main_v550⟧ W⟦main_arg14⟧ (Cert.Hgcn.rowOf W⟦main_arg15⟧ (by decide)) := by
  stage_eqs st_outB h
  obtain ⟨e0, e1, e2, e3⟩ := h
  rw [e3, e0, e2, e1]
  exact Cert.Hgcn.lin_host _ _ _ _ _ _

set_option maxRecDepth 16384 in
theorem outG_eq (h : (st_outG (F := Ideal)).Forall (Fix W)) :
    W⟦main_v559⟧ = Cert.Hgcn.lin W⟦main_v551⟧ W⟦main_arg16⟧ (Cert.Hgcn.rowOf W⟦main_arg17⟧ (by decide)) := by
  stage_eqs st_outG h
  obtain ⟨e0, e1, e2, e3⟩ := h
  rw [e3, e0, e2, e1]
  exact Cert.Hgcn.lin_host _ _ _ _ _ _

end Cert.ReferenceIdeal.HRun

end
-- ==== Proof.RefStagesL0a.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- Operations 12 … 21 of @main (calls inlined), which write the buffers numbered 35 … 44. -/
abbrev st_bnPB0 : List (HloOp τ sig (Elt F)) :=
  [ StableHlo.unary main_arg6 main_v12 ((extractStridedSlice S1x64 ![0, 0] · slices_S2x64_S1x64_0_0) : (⟨S2x64, .f32⟩ : BufTy).Contents (Elt F) → (⟨S1x64, .f32⟩ : BufTy).Contents (Elt F)),
    StableHlo.reshape main_v12 main_v13 rfl shapeCasts_S1x64_S64,
    StableHlo.unary main_arg7 main_v14 ((extractStridedSlice S1x64 ![0, 0] · slices_S2x64_S1x64_0_0) : (⟨S2x64, .f32⟩ : BufTy).Contents (Elt F) → (⟨S1x64, .f32⟩ : BufTy).Contents (Elt F)),
    StableHlo.reshape main_v14 main_v15 rfl shapeCasts_S1x64_S64,
    StableHlo.nullary main_cst (constant S_ .f32 0x00000000#32),
    StableHlo.binary main_v7 main_cst main_v16 ((fun x v => Host.reduceAdd x v reducesTo_S131072x64_S64_d0 h_S_) : (⟨S131072x64, .f32⟩ : BufTy).Contents (Elt F) → (⟨S_, .f32⟩ : BufTy).Contents (Elt F) → (⟨S64, .f32⟩ : BufTy).Contents (Elt F)),
    StableHlo.nullary main_cst_0 (constant S_ .f32 0x48000000#32),
    StableHlo.unary main_cst_0 main_v17 (broadcastInDim S64 ![] bcast_S_S64 : (⟨S_, .f32⟩ : BufTy).Contents (Elt F) → (⟨S64, .f32⟩ : BufTy).Contents (Elt F)),
    StableHlo.binary main_v16 main_v17 main_v18 (Host.divf : (⟨S64, .f32⟩ : BufTy).Contents (Elt F) → (⟨S64, .f32⟩ : BufTy).Contents (Elt F) → (⟨S64, .f32⟩ : BufTy).Contents (Elt F)),
    StableHlo.nullary main_c (constantI S_ 32 0#32) ]

/-- Operations 22 … 30 of @main (calls inlined), which write the buffers numbered 45 … 53. -/
abbrev st_bnQB0 : List (HloOp τ sig (Elt F)) :=
  [ StableHlo.nullary main_call0_cst (constant S_ .f32 0x00000000#32),
    StableHlo.binary main_v7 main_call0_cst main_call0_v0 ((fun x v => Host.reduceAdd x v reducesTo_S131072x64_S64_d0 h_S_) : (⟨S131072x64, .f32⟩ : BufTy).Contents (Elt F) → (⟨S_, .f32⟩ : BufTy).Contents (Elt F) → (⟨S64, .f32⟩ : BufTy).Contents (Elt F)),
    StableHlo.unary main_call0_v0 main_call0_v1 ((broadcastInDim S1x64 ![1] bcast_S64_S1x64_1) : (⟨S64, .f32⟩ : BufTy).Contents (Elt F) → (⟨S1x64, .f32⟩ : BufTy).Contents (Elt F)),
    StableHlo.nullary main_call0_cst_0 (constant S_ .f32 0x48000000#32),
    StableHlo.unary main_call0_cst_0 main_call0_v2 ((broadcastInDim S1x64 ![] bcast_S_S1x64) : (⟨S_, .f32⟩ : BufTy).Contents (Elt F) → (⟨S1x64, .f32⟩ : BufTy).Contents (Elt F)),
    StableHlo.binary main_call0_v1 main_call0_v2 main_call0_v3 (Host.divf : (⟨S1x64, .f32⟩ : BufTy).Contents (Elt F) → (⟨S1x64, .f32⟩ : BufTy).Contents (Elt F) → (⟨S1x64, .f32⟩ : BufTy).Contents (Elt F)),
    StableHlo.unary main_call0_v3 main_call0_v4 ((broadcastInDim S131072x64 ![0, 1] bcast_S1x64_S131072x64_0_1) : (⟨S1x64, .f32⟩ : BufTy).Contents (Elt F) → (⟨S131072x64, .f32⟩ : BufTy).Contents (Elt F)),
    StableHlo.binary main_v7 main_call0_v4 main_call0_v5 (subf : (⟨S131072x64, .f32⟩ : BufTy).Contents (Elt F) → (⟨S131072x64, .f32⟩ : BufTy).Contents (Elt F) → (⟨S131072x64, .f32⟩ : BufTy).Contents (Elt F)),
    StableHlo.binary main_call0_v5 main_call0_v5 main_call0_v6 (mulf : (⟨S131072x64, .f32⟩ : BufTy).Contents (Elt F) → (⟨S131072x64, .f32⟩ : BufTy).Contents (Elt F) → (⟨S131072x64, .f32⟩ : BufTy).Contents (Elt F)) ]

/-- Operations 31 … 43 of @main (calls inlined), which write the buffers numbered 54 … 66. -/
abbrev st_bnSB0 : List (HloOp τ sig (Elt F)) :=
  [ StableHlo.unary main_c main_call0_v7 ((sitofp .f32) : (⟨S_, .i32⟩ : BufTy).Contents (Elt F) → (⟨S_, .f32⟩ : BufTy).Contents (Elt F)),
    StableHlo.nullary main_call0_cst_1 (constant S_ .f32 0x48000000#32),
    StableHlo.binary main_call0_cst_1 main_call0_v7 main_call0_v8 (subf : (⟨S_, .f32⟩ : BufTy).Contents (Elt F) → (⟨S_, .f32⟩ : BufTy).Contents (Elt F) → (⟨S_, .f32⟩ : BufTy).Contents (Elt F)),
    StableHlo.nullary main_call0_cst_2 (constant S_ .f32 0x00000000#32),
    StableHlo.binary main_call0_v6 main_call0_cst_2 main_call0_v9 ((fun x v => Host.reduceAdd x v reducesTo_S131072x64_S64_d0 h_S_) : (⟨S131072x64, .f32⟩ : BufTy).Contents (Elt F) → (⟨S_, .f32⟩ : BufTy).Contents (Elt F) → (⟨S64, .f32⟩ : BufTy).Contents (Elt F)),
    StableHlo.unary main_call0_v8 main_call0_v10 ((broadcastInDim S64 ![] bcast_S_S64) : (⟨S_, .f32⟩ : BufTy).Contents (Elt F) → (⟨S64, .f32⟩ : BufTy).Contents (Elt F)),
    StableHlo.binary main_call0_v9 main_call0_v10 main_call0_v11 (Host.divf : (⟨S64, .f32⟩ : BufTy).Contents (Elt F) → (⟨S64, .f32⟩ : BufTy).Contents (Elt F) → (⟨S64, .f32⟩ : BufTy).Contents (Elt F)),
    StableHlo.nullary main_call0_cst_3 (constant S_ .f32 0x00000000#32),
    StableHlo.binary main_call0_v8 main_call0_cst_3 main_call0_v12 ((cmpf .ogt) : (⟨S_, .f32⟩ : BufTy).Contents (Elt F) → (⟨S_, .f32⟩ : BufTy).Contents (Elt F) → (⟨S_, .i1⟩ : BufTy).Contents (Elt F)),
    StableHlo.nullary main_call0_cst_4 (constant S_ .f32 0x7FC00000#32),
    StableHlo.unary main_call0_cst_4 main_call0_call0_v0 (id : (⟨S_, .f32⟩ : BufTy).Contents (Elt F) → (⟨S_, .f32⟩ : BufTy).Contents (Elt F)),
    StableHlo.unary main_call0_call0_v0 main_call0_call0_v1 ((broadcastInDim S64 ![] bcast_S_S64) : (⟨S_, .f32⟩ : BufTy).Contents (Elt F) → (⟨S64, .f32⟩ : BufTy).Contents (Elt F)),
    StableHlo.ternary main_call0_v12 main_call0_v11 main_call0_call0_v1 main_v19 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ]

/-- Operations 44 … 66 of @main (calls inlined), which write the buffers numbered 67 … 89. -/
abbrev st_bnTB0 : List (HloOp τ sig (Elt F)) :=
  [ StableHlo.unary main_v18 main_v20 (broadcastInDim S1x64 ![1] bcast_S64_S1x64_1 : (⟨S64, .f32⟩ : BufTy).Contents (Elt F) → (⟨S1x64, .f32⟩ : BufTy).Contents (Elt F)),
    StableHlo.unary main_v20 main_v21 (broadcastInDim S131072x64 ![0, 1] bcast_S1x64_S131072x64_0_1 : (⟨S1x64, .f32⟩ : BufTy).Contents (Elt F) → (⟨S131072x64, .f32⟩ : BufTy).Contents (Elt F)),
    StableHlo.binary main_v7 main_v21 main_v22 (subf : (⟨S131072x64, .f32⟩ : BufTy).Contents (Elt F) → (⟨S131072x64, .f32⟩ : BufTy).Contents (Elt F) → (⟨S131072x64, .f32⟩ : BufTy).Contents (Elt F)),
    StableHlo.nullary main_cst_1 (constant S_ .f32 0x3727C5AC#32),
    StableHlo.unary main_cst_1 main_v23 (broadcastInDim S64 ![] bcast_S_S64 : (⟨S_, .f32⟩ : BufTy).Contents (Elt F) → (⟨S64, .f32⟩ : BufTy).Contents (Elt F)),
    StableHlo.binary main_v19 main_v23 main_v24 (addf : (⟨S64, .f32⟩ : BufTy).Contents (Elt F) → (⟨S64, .f32⟩ : BufTy).Contents (Elt F) → (⟨S64, .f32⟩ : BufTy).Contents (Elt F)),
    StableHlo.unary main_v24 main_v25 (Host.rsqrt : (⟨S64, .f32⟩ : BufTy).Contents (Elt F) → (⟨S64, .f32⟩ : BufTy).Contents (Elt F)),
    StableHlo.unary main_v25 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S131072x64 ![0, 1] bcast_S1x64_S131072x64_0_1 : (⟨S1x64, .f32⟩ : BufTy).Contents (Elt F) → (⟨S131072x64, .f32⟩ : BufTy).Contents (Elt F)),
    StableHlo.binary main_v22 main_v27 main_v28 (mulf : (⟨S131072x64, .f32⟩ : BufTy).Contents (Elt F) → (⟨S131072x64, .f32⟩ : BufTy).Contents (Elt F) → (⟨S131072x64, .f32⟩ : BufTy).Contents (Elt F)),
    StableHlo.unary main_v13 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S131072x64 ![0, 1] bcast_S1x64_S131072x64_0_1 : (⟨S1x64, .f32⟩ : BufTy).Contents (Elt F) → (⟨S131072x64, .f32⟩ : BufTy).Contents (Elt F)),
    StableHlo.binary main_v28 main_v30 main_v31 (mulf : (⟨S131072x64, .f32⟩ : BufTy).Contents (Elt F) → (⟨S131072x64, .f32⟩ : BufTy).Contents (Elt F) → (⟨S131072x64, .f32⟩ : BufTy).Contents (Elt F)),
    StableHlo.unary main_v15 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S131072x64 ![0, 1] bcast_S1x64_S131072x64_0_1 : (⟨S1x64, .f32⟩ : BufTy).Contents (Elt F) → (⟨S131072x64, .f32⟩ : BufTy).Contents (Elt F)),
    StableHlo.binary main_v31 main_v33 main_v34 (addf : (⟨S131072x64, .f32⟩ : BufTy).Contents (Elt F) → (⟨S131072x64, .f32⟩ : BufTy).Contents (Elt F) → (⟨S131072x64, .f32⟩ : BufTy).Contents (Elt F)),
    StableHlo.nullary main_cst_2 (constant S_ .f32 0x00000000#32),
    StableHlo.unary main_cst_2 main_v35 (broadcastInDim S131072x64 ![] bcast_S_S131072x64 : (⟨S_, .f32⟩ : BufTy).Contents (Elt F) → (⟨S131072x64, .f32⟩ : BufTy).Contents (Elt F)),
    StableHlo.binary main_v34 main_v35 main_v36 (cmpf .oge : (⟨S131072x64, .f32⟩ : BufTy).Contents (Elt F) → (⟨S131072x64, .f32⟩ : BufTy).Contents (Elt F) → (⟨S131072x64, .i1⟩ : BufTy).Contents (Elt F)),
    StableHlo.nullary main_cst_3 (constant S_ .f32 0x3C23D70A#32),
    StableHlo.unary main_cst_3 main_v37 (broadcastInDim S131072x64 ![] bcast_S_S131072x64 : (⟨S_, .f32⟩ : BufTy).Contents (Elt F) → (⟨S131072x64, .f32⟩ : BufTy).Contents (Elt F)),
    StableHlo.binary main_v37 main_v34 main_v38 (mulf : (⟨S131072x64, .f32⟩ : BufTy).Contents (Elt F) → (⟨S131072x64, .f32⟩ : BufTy).Contents (Elt F) → (⟨S131072x64, .f32⟩ : BufTy).Contents (Elt F)),
    StableHlo.ternary main_v36 main_v34 main_v38 main_v39 (select : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F)) ]

/-- Operations 67 … 76 of @main (calls inlined), which write the buffers numbered 90 … 99. -/
abbrev st_bnPG0 : List (HloOp τ sig (Elt F)) :=
  [ StableHlo.unary main_arg8 main_v40 ((extractStridedSlice S1x64 ![0, 0] · slices_S2x64_S1x64_0_0) : (⟨S2x64, .f32⟩ : BufTy).Contents (Elt F) → (⟨S1x64, .f32⟩ : BufTy).Contents (Elt F)),
    StableHlo.reshape main_v40 main_v41 rfl shapeCasts_S1x64_S64,
    StableHlo.unary main_arg9 main_v42 ((extractStridedSlice S1x64 ![0, 0] · slices_S2x64_S1x64_0_0) : (⟨S2x64, .f32⟩ : BufTy).Contents (Elt F) → (⟨S1x64, .f32⟩ : BufTy).Contents (Elt F)),
    StableHlo.reshape main_v42 main_v43 rfl shapeCasts_S1x64_S64,
    StableHlo.nullary main_cst_4 (constant S_ .f32 0x00000000#32),
    StableHlo.binary main_v11 main_cst_4 main_v44 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    StableHlo.nullary main_cst_5 (constant S_ .f32 0x47000000#32),
    StableHlo.unary main_cst_5 main_v45 (broadcastInDim S64 ![] bcast_S_S64 : (⟨S_, .f32⟩ : BufTy).Contents (Elt F) → (⟨S64, .f32⟩ : BufTy).Contents (Elt F)),
    StableHlo.binary main_v44 main_v45 main_v46 (Host.divf : (⟨S64, .f32⟩ : BufTy).Contents (Elt F) → (⟨S64, .f32⟩ : BufTy).Contents (Elt F) → (⟨S64, .f32⟩ : BufTy).Contents (Elt F)),
    StableHlo.nullary main_c_6 (constantI S_ 32 0#32) ]

/-- Operations 77 … 85 of @main (calls inlined), which write the buffers numbered 100 … 108. -/
abbrev st_bnQG0 : List (HloOp τ sig (Elt F)) :=
  [ StableHlo.nullary main_call2_cst (constant S_ .f32 0x00000000#32),
    StableHlo.binary main_v11 main_call2_cst main_call2_v0 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    StableHlo.unary main_call2_v0 main_call2_v1 ((broadcastInDim S1x64 ![1] bcast_S64_S1x64_1) : (⟨S64, .f32⟩ : BufTy).Contents (Elt F) → (⟨S1x64, .f32⟩ : BufTy).Contents (Elt F)),
    StableHlo.nullary main_call2_cst_0 (constant S_ .f32 0x47000000#32),
    StableHlo.unary main_call2_cst_0 main_call2_v2 ((broadcastInDim S1x64 ![] bcast_S_S1x64) : (⟨S_, .f32⟩ : BufTy).Contents (Elt F) → (⟨S1x64, .f32⟩ : BufTy).Contents (Elt F)),
    StableHlo.binary main_call2_v1 main_call2_v2 main_call2_v3 (Host.divf : (⟨S1x64, .f32⟩ : BufTy).Contents (Elt F) → (⟨S1x64, .f32⟩ : BufTy).Contents (Elt F) → (⟨S1x64, .f32⟩ : BufTy).Contents (Elt F)),
    StableHlo.unary main_call2_v3 main_call2_v4 ((broadcastInDim S32768x64 ![0, 1] bcast_S1x64_S32768x64_0_1) : (⟨S1x64, .f32⟩ : BufTy).Contents (Elt F) → (⟨S32768x64, .f32⟩ : BufTy).Contents (Elt F)),
    StableHlo.binary main_v11 main_call2_v4 main_call2_v5 (subf : (⟨S32768x64, .f32⟩ : BufTy).Contents (Elt F) → (⟨S32768x64, .f32⟩ : BufTy).Contents (Elt F) → (⟨S32768x64, .f32⟩ : BufTy).Contents (Elt F)),
    StableHlo.binary main_call2_v5 main_call2_v5 main_call2_v6 (mulf : (⟨S32768x64, .f32⟩ : BufTy).Contents (Elt F) → (⟨S32768x64, .f32⟩ : BufTy).Contents (Elt F) → (⟨S32768x64, .f32⟩ : BufTy).Contents (Elt F)) ]

/-- Operations 86 … 98 of @main (calls inlined), which write the buffers numbered 109 … 121. -/
abbrev st_bnSG0 : List (HloOp τ sig (Elt F)) :=
  [ StableHlo.unary main_c_6 main_call2_v7 ((sitofp .f32) : (⟨S_, .i32⟩ : BufTy).Contents (Elt F) → (⟨S_, .f32⟩ : BufTy).Contents (Elt F)),
    StableHlo.nullary main_call2_cst_1 (constant S_ .f32 0x47000000#32),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32),
    StableHlo.binary main_call2_v6 main_call2_cst_2 main_call2_v9 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    StableHlo.unary main_call2_v8 main_call2_v10 ((broadcastInDim S64 ![] bcast_S_S64) : (⟨S_, .f32⟩ : BufTy).Contents (Elt F) → (⟨S64, .f32⟩ : BufTy).Contents (Elt F)),
    StableHlo.binary main_call2_v9 main_call2_v10 main_call2_v11 (Host.divf : (⟨S64, .f32⟩ : BufTy).Contents (Elt F) → (⟨S64, .f32⟩ : BufTy).Contents (Elt F) → (⟨S64, .f32⟩ : BufTy).Contents (Elt F)),
    StableHlo.nullary main_call2_cst_3 (constant S_ .f32 0x00000000#32),
    StableHlo.binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 ((broadcastInDim S64 ![] bcast_S_S64) : (⟨S_, .f32⟩ : BufTy).Contents (Elt F) → (⟨S64, .f32⟩ : BufTy).Contents (Elt F)),
    StableHlo.ternary main_call2_v12 main_call2_v11 main_call2_call0_v1 main_v47 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ]

/-- Operations 99 … 121 of @main (calls inlined), which write the buffers numbered 122 … 144. -/
abbrev st_bnTG0 : List (HloOp τ sig (Elt F)) :=
  [ StableHlo.unary main_v46 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S32768x64 ![0, 1] bcast_S1x64_S32768x64_0_1 : (⟨S1x64, .f32⟩ : BufTy).Contents (Elt F) → (⟨S32768x64, .f32⟩ : BufTy).Contents (Elt F)),
    StableHlo.binary main_v11 main_v49 main_v50 (subf : (⟨S32768x64, .f32⟩ : BufTy).Contents (Elt F) → (⟨S32768x64, .f32⟩ : BufTy).Contents (Elt F) → (⟨S32768x64, .f32⟩ : BufTy).Contents (Elt F)),
    StableHlo.nullary main_cst_7 (constant S_ .f32 0x3727C5AC#32),
    StableHlo.unary main_cst_7 main_v51 (broadcastInDim S64 ![] bcast_S_S64 : (⟨S_, .f32⟩ : BufTy).Contents (Elt F) → (⟨S64, .f32⟩ : BufTy).Contents (Elt F)),
    StableHlo.binary main_v47 main_v51 main_v52 (addf : (⟨S64, .f32⟩ : BufTy).Contents (Elt F) → (⟨S64, .f32⟩ : BufTy).Contents (Elt F) → (⟨S64, .f32⟩ : BufTy).Contents (Elt F)),
    StableHlo.unary main_v52 main_v53 (Host.rsqrt : (⟨S64, .f32⟩ : BufTy).Contents (Elt F) → (⟨S64, .f32⟩ : BufTy).Contents (Elt F)),
    StableHlo.unary main_v53 main_v54 (broadcastInDim S1x64 ![1] bcast_S64_S1x64_1 : (⟨S64, .f32⟩ : BufTy).Contents (Elt F) → (⟨S1x64, .f32⟩ : BufTy).Contents (Elt F)),
    StableHlo.unary main_v54 main_v55 (broadcastInDim S32768x64 ![0, 1] bcast_S1x64_S32768x64_0_1 : (⟨S1x64, .f32⟩ : BufTy).Contents (Elt F) → (⟨S32768x64, .f32⟩ : BufTy).Contents (Elt F)),
    StableHlo.binary main_v50 main_v55 main_v56 (mulf : (⟨S32768x64, .f32⟩ : BufTy).Contents (Elt F) → (⟨S32768x64, .f32⟩ : BufTy).Contents (Elt F) → (⟨S32768x64, .f32⟩ : BufTy).Contents (Elt F)),
    StableHlo.unary main_v41 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S32768x64 ![0, 1] bcast_S1x64_S32768x64_0_1 : (⟨S1x64, .f32⟩ : BufTy).Contents (Elt F) → (⟨S32768x64, .f32⟩ : BufTy).Contents (Elt F)),
    StableHlo.binary main_v56 main_v58 main_v59 (mulf : (⟨S32768x64, .f32⟩ : BufTy).Contents (Elt F) → (⟨S32768x64, .f32⟩ : BufTy).Contents (Elt F) → (⟨S32768x64, .f32⟩ : BufTy).Contents (Elt F)),
    StableHlo.unary main_v43 main_v60 (broadcastInDim S1x64 ![1] bcast_S64_S1x64_1 : (⟨S64, .f32⟩ : BufTy).Contents (Elt F) → (⟨S1x64, .f32⟩ : BufTy).Contents (Elt F)),
    StableHlo.unary main_v60 main_v61 (broadcastInDim S32768x64 ![0, 1] bcast_S1x64_S32768x64_0_1 : (⟨S1x64, .f32⟩ : BufTy).Contents (Elt F) → (⟨S32768x64, .f32⟩ : BufTy).Contents (Elt F)),
    StableHlo.binary main_v59 main_v61 main_v62 (addf : (⟨S32768x64, .f32⟩ : BufTy).Contents (Elt F) → (⟨S32768x64, .f32⟩ : BufTy).Contents (Elt F) → (⟨S32768x64, .f32⟩ : BufTy).Contents (Elt F)),
    StableHlo.nullary main_cst_8 (constant S_ .f32 0x00000000#32),
    StableHlo.unary main_cst_8 main_v63 (broadcastInDim S32768x64 ![] bcast_S_S32768x64 : (⟨S_, .f32⟩ : BufTy).Contents (Elt F) → (⟨S32768x64, .f32⟩ : BufTy).Contents (Elt F)),
    StableHlo.binary main_v62 main_v63 main_v64 (cmpf .oge : (⟨S32768x64, .f32⟩ : BufTy).Contents (Elt F) → (⟨S32768x64, .f32⟩ : BufTy).Contents (Elt F) → (⟨S32768x64, .i1⟩ : BufTy).Contents (Elt F)),
    StableHlo.nullary main_cst_9 (constant S_ .f32 0x3C23D70A#32),
    StableHlo.unary main_cst_9 main_v65 (broadcastInDim S32768x64 ![] bcast_S_S32768x64 : (⟨S_, .f32⟩ : BufTy).Contents (Elt F) → (⟨S32768x64, .f32⟩ : BufTy).Contents (Elt F)),
    StableHlo.binary main_v65 main_v62 main_v66 (mulf : (⟨S32768x64, .f32⟩ : BufTy).Contents (Elt F) → (⟨S32768x64, .f32⟩ : BufTy).Contents (Elt F) → (⟨S32768x64, .f32⟩ : BufTy).Contents (Elt F)),
    StableHlo.ternary main_v64 main_v62 main_v66 main_v67 (select : (⟨S32768x64, .i1⟩ : BufTy).Contents (Elt F) → (⟨S32768x64, .f32⟩ : BufTy).Contents (Elt F) → (⟨S32768x64, .f32⟩ : BufTy).Contents (Elt F) → (⟨S32768x64, .f32⟩ : BufTy).Contents (Elt F)) ]

/-- Operations 122 … 129 of @main (calls inlined), which write the buffers numbered 145 … 152. -/
abbrev st_t0B0 : List (HloOp τ sig (Elt F)) :=
  [ StableHlo.unary main_arg10 main_v68 ((extractStridedSlice S1x1x64x64 ![0, 0, 0, 0] · slices_S2x5x64x64_S1x1x64x64_0_0_0_0) : (⟨S2x5x64x64, .f32⟩ : BufTy).Contents (Elt F) → (⟨S1x1x64x64, .f32⟩ : BufTy).Contents (Elt F)),
    StableHlo.reshape main_v68 main_v69 rfl shapeCasts_S1x1x64x64_S64x64,
    StableHlo.binary main_v39 main_v69 main_v70 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.unary main_arg11 main_v71 ((extractStridedSlice S1x1x64 ![0, 0, 0] · slices_S2x5x64_S1x1x64_0_0_0) : (⟨S2x5x64, .f32⟩ : BufTy).Contents (Elt F) → (⟨S1x1x64, .f32⟩ : BufTy).Contents (Elt F)),
    StableHlo.reshape main_v71 main_v72 rfl shapeCasts_S1x1x64_S64,
    StableHlo.unary main_v72 main_v73 (broadcastInDim S1x64 ![1] bcast_S64_S1x64_1 : (⟨S64, .f32⟩ : BufTy).Contents (Elt F) → (⟨S1x64, .f32⟩ : BufTy).Contents (Elt F)),
    StableHlo.unary main_v73 main_v74 (broadcastInDim S131072x64 ![0, 1] bcast_S1x64_S131072x64_0_1 : (⟨S1x64, .f32⟩ : BufTy).Contents (Elt F) → (⟨S131072x64, .f32⟩ : BufTy).Contents (Elt F)),
    StableHlo.binary main_v70 main_v74 main_v75 (addf : (⟨S131072x64, .f32⟩ : BufTy).Contents (Elt F) → (⟨S131072x64, .f32⟩ : BufTy).Contents (Elt F) → (⟨S131072x64, .f32⟩ : BufTy).Contents (Elt F)) ]

/-- Operations 130 … 137 of @main (calls inlined), which write the buffers numbered 153 … 160. -/
abbrev st_t0G0 : List (HloOp τ sig (Elt F)) :=
  [ StableHlo.unary main_arg12 main_v76 ((extractStridedSlice S1x1x64x64 ![0, 0, 0, 0] · slices_S2x5x64x64_S1x1x64x64_0_0_0_0) : (⟨S2x5x64x64, .f32⟩ : BufTy).Contents (Elt F) → (⟨S1x1x64x64, .f32⟩ : BufTy).Contents (Elt F)),
    StableHlo.reshape main_v76 main_v77 rfl shapeCasts_S1x1x64x64_S64x64,
    StableHlo.binary main_v67 main_v77 main_v78 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg13 main_v79 ((extractStridedSlice S1x1x64 ![0, 0, 0] · slices_S2x5x64_S1x1x64_0_0_0) : (⟨S2x5x64, .f32⟩ : BufTy).Contents (Elt F) → (⟨S1x1x64, .f32⟩ : BufTy).Contents (Elt F)),
    StableHlo.reshape main_v79 main_v80 rfl shapeCasts_S1x1x64_S64,
    StableHlo.unary main_v80 main_v81 (broadcastInDim S1x64 ![1] bcast_S64_S1x64_1 : (⟨S64, .f32⟩ : BufTy).Contents (Elt F) → (⟨S1x64, .f32⟩ : BufTy).Contents (Elt F)),
    StableHlo.unary main_v81 main_v82 (broadcastInDim S32768x64 ![0, 1] bcast_S1x64_S32768x64_0_1 : (⟨S1x64, .f32⟩ : BufTy).Contents (Elt F) → (⟨S32768x64, .f32⟩ : BufTy).Contents (Elt F)),
    StableHlo.binary main_v78 main_v82 main_v83 (addf : (⟨S32768x64, .f32⟩ : BufTy).Contents (Elt F) → (⟨S32768x64, .f32⟩ : BufTy).Contents (Elt F) → (⟨S32768x64, .f32⟩ : BufTy).Contents (Elt F)) ]

end Cert.ReferenceIdeal.HRun

end
-- ==== Proof.RefStagesL0b.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- Operations 138 … 164 of @main (calls inlined), which write the buffers numbered 161 … 187. -/
abbrev st_shB0_1 : List (HloOp τ sig (Elt F)) :=
  [ StableHlo.nullary main_c_10 (constantI S_ 32 0#32),
    StableHlo.unary main_c_10 main_v84 (broadcastInDim S2097152 ![] bcast_S_S2097152 : (⟨S_, .i32⟩ : BufTy).Contents (Elt F) → (⟨S2097152, .i32⟩ : BufTy).Contents (Elt F)),
    StableHlo.binary main_v1 main_v84 main_v85 (cmpi .slt : (⟨S2097152, .i32⟩ : BufTy).Contents (Elt F) → (⟨S2097152, .i32⟩ : BufTy).Contents (Elt F) → (⟨S2097152, .i1⟩ : BufTy).Contents (Elt F)),
    StableHlo.nullary main_c_11 (constantI S_ 32 131072#32),
    StableHlo.unary main_c_11 main_v86 (broadcastInDim S2097152 ![] bcast_S_S2097152 : (⟨S_, .i32⟩ : BufTy).Contents (Elt F) → (⟨S2097152, .i32⟩ : BufTy).Contents (Elt F)),
    StableHlo.binary main_v1 main_v86 main_v87 (addi : (⟨S2097152, .i32⟩ : BufTy).Contents (Elt F) → (⟨S2097152, .i32⟩ : BufTy).Contents (Elt F) → (⟨S2097152, .i32⟩ : BufTy).Contents (Elt F)),
    StableHlo.ternary main_v85 main_v87 main_v1 main_v88 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v88 main_v89 (broadcastInDim S2097152x1 ![0] bcast_S2097152_S2097152x1_0 : (⟨S2097152, .i32⟩ : BufTy).Contents (Elt F) → (⟨S2097152x1, .i32⟩ : BufTy).Contents (Elt F)),
    StableHlo.binary main_v39 main_v89 main_v90 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_12 (constant S_ .f32 0x00000000#32),
    StableHlo.unary main_cst_12 main_v91 (broadcastInDim S131072x64 ![] bcast_S_S131072x64 : (⟨S_, .f32⟩ : BufTy).Contents (Elt F) → (⟨S131072x64, .f32⟩ : BufTy).Contents (Elt F)),
    StableHlo.unary main_v3 main_v92 (broadcastInDim S2097152x1 ![0] bcast_S2097152_S2097152x1_0 : (⟨S2097152, .i32⟩ : BufTy).Contents (Elt F) → (⟨S2097152x1, .i32⟩ : BufTy).Contents (Elt F)),
    StableHlo.ternary main_v91 main_v92 main_v90 main_v93 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_13 (constantI S_ 32 0#32),
    StableHlo.unary main_c_13 main_v94 (broadcastInDim S65536 ![] bcast_S_S65536 : (⟨S_, .i32⟩ : BufTy).Contents (Elt F) → (⟨S65536, .i32⟩ : BufTy).Contents (Elt F)),
    StableHlo.binary main_arg19 main_v94 main_v95 (cmpi .slt : (⟨S65536, .i32⟩ : BufTy).Contents (Elt F) → (⟨S65536, .i32⟩ : BufTy).Contents (Elt F) → (⟨S65536, .i1⟩ : BufTy).Contents (Elt F)),
    StableHlo.nullary main_c_14 (constantI S_ 32 32768#32),
    StableHlo.unary main_c_14 main_v96 (broadcastInDim S65536 ![] bcast_S_S65536 : (⟨S_, .i32⟩ : BufTy).Contents (Elt F) → (⟨S65536, .i32⟩ : BufTy).Contents (Elt F)),
    StableHlo.binary main_arg19 main_v96 main_v97 (addi : (⟨S65536, .i32⟩ : BufTy).Contents (Elt F) → (⟨S65536, .i32⟩ : BufTy).Contents (Elt F) → (⟨S65536, .i32⟩ : BufTy).Contents (Elt F)),
    StableHlo.ternary main_v95 main_v97 main_arg19 main_v98 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v98 main_v99 (broadcastInDim S65536x1 ![0] bcast_S65536_S65536x1_0 : (⟨S65536, .i32⟩ : BufTy).Contents (Elt F) → (⟨S65536x1, .i32⟩ : BufTy).Contents (Elt F)),
    StableHlo.binary main_v67 main_v99 main_v100 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_15 (constant S_ .f32 0x00000000#32),
    StableHlo.unary main_cst_15 main_v101 (broadcastInDim S131072x64 ![] bcast_S_S131072x64 : (⟨S_, .f32⟩ : BufTy).Contents (Elt F) → (⟨S131072x64, .f32⟩ : BufTy).Contents (Elt F)),
    StableHlo.unary main_arg20 main_v102 (broadcastInDim S65536x1 ![0] bcast_S65536_S65536x1_0 : (⟨S65536, .i32⟩ : BufTy).Contents (Elt F) → (⟨S65536x1, .i32⟩ : BufTy).Contents (Elt F)),
    StableHlo.ternary main_v101 main_v102 main_v100 main_v103 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)),
    StableHlo.binary main_v93 main_v103 main_v104 (addf : (⟨S131072x64, .f32⟩ : BufTy).Contents (Elt F) → (⟨S131072x64, .f32⟩ : BufTy).Contents (Elt F) → (⟨S131072x64, .f32⟩ : BufTy).Contents (Elt F)) ]

/-- Operations 165 … 177 of @main (calls inlined), which write the buffers numbered 188 … 200. -/
abbrev st_shG0_1 : List (HloOp τ sig (Elt F)) :=
  [ StableHlo.nullary main_c_16 (constantI S_ 32 0#32),
    StableHlo.unary main_c_16 main_v105 (broadcastInDim S65536 ![] bcast_S_S65536 : (⟨S_, .i32⟩ : BufTy).Contents (Elt F) → (⟨S65536, .i32⟩ : BufTy).Contents (Elt F)),
    StableHlo.binary main_arg21 main_v105 main_v106 (cmpi .slt : (⟨S65536, .i32⟩ : BufTy).Contents (Elt F) → (⟨S65536, .i32⟩ : BufTy).Contents (Elt F) → (⟨S65536, .i1⟩ : BufTy).Contents (Elt F)),
    StableHlo.nullary main_c_17 (constantI S_ 32 131072#32),
    StableHlo.unary main_c_17 main_v107 (broadcastInDim S65536 ![] bcast_S_S65536 : (⟨S_, .i32⟩ : BufTy).Contents (Elt F) → (⟨S65536, .i32⟩ : BufTy).Contents (Elt F)),
    StableHlo.binary main_arg21 main_v107 main_v108 (addi : (⟨S65536, .i32⟩ : BufTy).Contents (Elt F) → (⟨S65536, .i32⟩ : BufTy).Contents (Elt F) → (⟨S65536, .i32⟩ : BufTy).Contents (Elt F)),
    StableHlo.ternary main_v106 main_v108 main_arg21 main_v109 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v109 main_v110 (broadcastInDim S65536x1 ![0] bcast_S65536_S65536x1_0 : (⟨S65536, .i32⟩ : BufTy).Contents (Elt F) → (⟨S65536x1, .i32⟩ : BufTy).Contents (Elt F)),
    StableHlo.binary main_v39 main_v110 main_v111 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_18 (constant S_ .f32 0x00000000#32),
    StableHlo.unary main_cst_18 main_v112 (broadcastInDim S32768x64 ![] bcast_S_S32768x64 : (⟨S_, .f32⟩ : BufTy).Contents (Elt F) → (⟨S32768x64, .f32⟩ : BufTy).Contents (Elt F)),
    StableHlo.unary main_arg22 main_v113 (broadcastInDim S65536x1 ![0] bcast_S65536_S65536x1_0 : (⟨S65536, .i32⟩ : BufTy).Contents (Elt F) → (⟨S65536x1, .i32⟩ : BufTy).Contents (Elt F)),
    StableHlo.ternary main_v112 main_v113 main_v111 main_v114 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)) ]

/-- Operations 178 … 186 of @main (calls inlined), which write the buffers numbered 201 … 209. -/
abbrev st_acB0_1 : List (HloOp τ sig (Elt F)) :=
  [ StableHlo.unary main_arg10 main_v115 ((extractStridedSlice S1x1x64x64 ![0, 1, 0, 0] · slices_S2x5x64x64_S1x1x64x64_0_1_0_0) : (⟨S2x5x64x64, .f32⟩ : BufTy).Contents (Elt F) → (⟨S1x1x64x64, .f32⟩ : BufTy).Contents (Elt F)),
    StableHlo.reshape main_v115 main_v116 rfl shapeCasts_S1x1x64x64_S64x64,
    StableHlo.binary main_v104 main_v116 main_v117 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v75 main_v117 main_v118 (addf : (⟨S131072x64, .f32⟩ : BufTy).Contents (Elt F) → (⟨S131072x64, .f32⟩ : BufTy).Contents (Elt F) → (⟨S131072x64, .f32⟩ : BufTy).Contents (Elt F)),
    StableHlo.unary main_arg11 main_v119 ((extractStridedSlice S1x1x64 ![0, 1, 0] · slices_S2x5x64_S1x1x64_0_1_0) : (⟨S2x5x64, .f32⟩ : BufTy).Contents (Elt F) → (⟨S1x1x64, .f32⟩ : BufTy).Contents (Elt F)),
    StableHlo.reshape main_v119 main_v120 rfl shapeCasts_S1x1x64_S64,
    StableHlo.unary main_v120 main_v121 (broadcastInDim S1x64 ![1] bcast_S64_S1x64_1 : (⟨S64, .f32⟩ : BufTy).Contents (Elt F) → (⟨S1x64, .f32⟩ : BufTy).Contents (Elt F)),
    StableHlo.unary main_v121 main_v122 (broadcastInDim S131072x64 ![0, 1] bcast_S1x64_S131072x64_0_1 : (⟨S1x64, .f32⟩ : BufTy).Contents (Elt F) → (⟨S131072x64, .f32⟩ : BufTy).Contents (Elt F)),
    StableHlo.binary main_v118 main_v122 main_v123 (addf : (⟨S131072x64, .f32⟩ : BufTy).Contents (Elt F) → (⟨S131072x64, .f32⟩ : BufTy).Contents (Elt F) → (⟨S131072x64, .f32⟩ : BufTy).Contents (Elt F)) ]

/-- Operations 187 … 195 of @main (calls inlined), which write the buffers numbered 210 … 218. -/
abbrev st_acG0_1 : List (HloOp τ sig (Elt F)) :=
  [ StableHlo.unary main_arg12 main_v124 ((extractStridedSlice S1x1x64x64 ![0, 1, 0, 0] · slices_S2x5x64x64_S1x1x64x64_0_1_0_0) : (⟨S2x5x64x64, .f32⟩ : BufTy).Contents (Elt F) → (⟨S1x1x64x64, .f32⟩ : BufTy).Contents (Elt F)),
    StableHlo.reshape main_v124 main_v125 rfl shapeCasts_S1x1x64x64_S64x64,
    StableHlo.binary main_v114 main_v125 main_v126 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v83 main_v126 main_v127 (addf : (⟨S32768x64, .f32⟩ : BufTy).Contents (Elt F) → (⟨S32768x64, .f32⟩ : BufTy).Contents (Elt F) → (⟨S32768x64, .f32⟩ : BufTy).Contents (Elt F)),
    StableHlo.unary main_arg13 main_v128 ((extractStridedSlice S1x1x64 ![0, 1, 0] · slices_S2x5x64_S1x1x64_0_1_0) : (⟨S2x5x64, .f32⟩ : BufTy).Contents (Elt F) → (⟨S1x1x64, .f32⟩ : BufTy).Contents (Elt F)),
    StableHlo.reshape main_v128 main_v129 rfl shapeCasts_S1x1x64_S64,
    StableHlo.unary main_v129 main_v130 (broadcastInDim S1x64 ![1] bcast_S64_S1x64_1 : (⟨S64, .f32⟩ : BufTy).Contents (Elt F) → (⟨S1x64, .f32⟩ : BufTy).Contents (Elt F)),
    StableHlo.unary main_v130 main_v131 (broadcastInDim S32768x64 ![0, 1] bcast_S1x64_S32768x64_0_1 : (⟨S1x64, .f32⟩ : BufTy).Contents (Elt F) → (⟨S32768x64, .f32⟩ : BufTy).Contents (Elt F)),
    StableHlo.binary main_v127 main_v131 main_v132 (addf : (⟨S32768x64, .f32⟩ : BufTy).Contents (Elt F) → (⟨S32768x64, .f32⟩ : BufTy).Contents (Elt F) → (⟨S32768x64, .f32⟩ : BufTy).Contents (Elt F)) ]

/-- Operations 196 … 222 of @main (calls inlined), which write the buffers numbered 219 … 245. -/
abbrev st_shB0_2 : List (HloOp τ sig (Elt F)) :=
  [ StableHlo.nullary main_c_19 (constantI S_ 32 0#32),
    StableHlo.unary main_c_19 main_v133 (broadcastInDim S2097152 ![] bcast_S_S2097152 : (⟨S_, .i32⟩ : BufTy).Contents (Elt F) → (⟨S2097152, .i32⟩ : BufTy).Contents (Elt F)),
    StableHlo.binary main_v1 main_v133 main_v134 (cmpi .slt : (⟨S2097152, .i32⟩ : BufTy).Contents (Elt F) → (⟨S2097152, .i32⟩ : BufTy).Contents (Elt F) → (⟨S2097152, .i1⟩ : BufTy).Contents (Elt F)),
    StableHlo.nullary main_c_20 (constantI S_ 32 131072#32),
    StableHlo.unary main_c_20 main_v135 (broadcastInDim S2097152 ![] bcast_S_S2097152 : (⟨S_, .i32⟩ : BufTy).Contents (Elt F) → (⟨S2097152, .i32⟩ : BufTy).Contents (Elt F)),
    StableHlo.binary main_v1 main_v135 main_v136 (addi : (⟨S2097152, .i32⟩ : BufTy).Contents (Elt F) → (⟨S2097152, .i32⟩ : BufTy).Contents (Elt F) → (⟨S2097152, .i32⟩ : BufTy).Contents (Elt F)),
    StableHlo.ternary main_v134 main_v136 main_v1 main_v137 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v137 main_v138 (broadcastInDim S2097152x1 ![0] bcast_S2097152_S2097152x1_0 : (⟨S2097152, .i32⟩ : BufTy).Contents (Elt F) → (⟨S2097152x1, .i32⟩ : BufTy).Contents (Elt F)),
    StableHlo.binary main_v104 main_v138 main_v139 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_21 (constant S_ .f32 0x00000000#32),
    StableHlo.unary main_cst_21 main_v140 (broadcastInDim S131072x64 ![] bcast_S_S131072x64 : (⟨S_, .f32⟩ : BufTy).Contents (Elt F) → (⟨S131072x64, .f32⟩ : BufTy).Contents (Elt F)),
    StableHlo.unary main_v3 main_v141 (broadcastInDim S2097152x1 ![0] bcast_S2097152_S2097152x1_0 : (⟨S2097152, .i32⟩ : BufTy).Contents (Elt F) → (⟨S2097152x1, .i32⟩ : BufTy).Contents (Elt F)),
    StableHlo.ternary main_v140 main_v141 main_v139 main_v142 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_22 (constantI S_ 32 0#32),
    StableHlo.unary main_c_22 main_v143 (broadcastInDim S65536 ![] bcast_S_S65536 : (⟨S_, .i32⟩ : BufTy).Contents (Elt F) → (⟨S65536, .i32⟩ : BufTy).Contents (Elt F)),
    StableHlo.binary main_arg19 main_v143 main_v144 (cmpi .slt : (⟨S65536, .i32⟩ : BufTy).Contents (Elt F) → (⟨S65536, .i32⟩ : BufTy).Contents (Elt F) → (⟨S65536, .i1⟩ : BufTy).Contents (Elt F)),
    StableHlo.nullary main_c_23 (constantI S_ 32 32768#32),
    StableHlo.unary main_c_23 main_v145 (broadcastInDim S65536 ![] bcast_S_S65536 : (⟨S_, .i32⟩ : BufTy).Contents (Elt F) → (⟨S65536, .i32⟩ : BufTy).Contents (Elt F)),
    StableHlo.binary main_arg19 main_v145 main_v146 (addi : (⟨S65536, .i32⟩ : BufTy).Contents (Elt F) → (⟨S65536, .i32⟩ : BufTy).Contents (Elt F) → (⟨S65536, .i32⟩ : BufTy).Contents (Elt F)),
    StableHlo.ternary main_v144 main_v146 main_arg19 main_v147 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v147 main_v148 (broadcastInDim S65536x1 ![0] bcast_S65536_S65536x1_0 : (⟨S65536, .i32⟩ : BufTy).Contents (Elt F) → (⟨S65536x1, .i32⟩ : BufTy).Contents (Elt F)),
    StableHlo.binary main_v114 main_v148 main_v149 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_24 (constant S_ .f32 0x00000000#32),
    StableHlo.unary main_cst_24 main_v150 (broadcastInDim S131072x64 ![] bcast_S_S131072x64 : (⟨S_, .f32⟩ : BufTy).Contents (Elt F) → (⟨S131072x64, .f32⟩ : BufTy).Contents (Elt F)),
    StableHlo.unary main_arg20 main_v151 (broadcastInDim S65536x1 ![0] bcast_S65536_S65536x1_0 : (⟨S65536, .i32⟩ : BufTy).Contents (Elt F) → (⟨S65536x1, .i32⟩ : BufTy).Contents (Elt F)),
    StableHlo.ternary main_v150 main_v151 main_v149 main_v152 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)),
    StableHlo.binary main_v142 main_v152 main_v153 (addf : (⟨S131072x64, .f32⟩ : BufTy).Contents (Elt F) → (⟨S131072x64, .f32⟩ : BufTy).Contents (Elt F) → (⟨S131072x64, .f32⟩ : BufTy).Contents (Elt F)) ]

/-- Operations 223 … 235 of @main (calls inlined), which write the buffers numbered 246 … 258. -/
abbrev st_shG0_2 : List (HloOp τ sig (Elt F)) :=
  [ StableHlo.nullary main_c_25 (constantI S_ 32 0#32),
    StableHlo.unary main_c_25 main_v154 (broadcastInDim S65536 ![] bcast_S_S65536 : (⟨S_, .i32⟩ : BufTy).Contents (Elt F) → (⟨S65536, .i32⟩ : BufTy).Contents (Elt F)),
    StableHlo.binary main_arg21 main_v154 main_v155 (cmpi .slt : (⟨S65536, .i32⟩ : BufTy).Contents (Elt F) → (⟨S65536, .i32⟩ : BufTy).Contents (Elt F) → (⟨S65536, .i1⟩ : BufTy).Contents (Elt F)),
    StableHlo.nullary main_c_26 (constantI S_ 32 131072#32),
    StableHlo.unary main_c_26 main_v156 (broadcastInDim S65536 ![] bcast_S_S65536 : (⟨S_, .i32⟩ : BufTy).Contents (Elt F) → (⟨S65536, .i32⟩ : BufTy).Contents (Elt F)),
    StableHlo.binary main_arg21 main_v156 main_v157 (addi : (⟨S65536, .i32⟩ : BufTy).Contents (Elt F) → (⟨S65536, .i32⟩ : BufTy).Contents (Elt F) → (⟨S65536, .i32⟩ : BufTy).Contents (Elt F)),
    StableHlo.ternary main_v155 main_v157 main_arg21 main_v158 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v158 main_v159 (broadcastInDim S65536x1 ![0] bcast_S65536_S65536x1_0 : (⟨S65536, .i32⟩ : BufTy).Contents (Elt F) → (⟨S65536x1, .i32⟩ : BufTy).Contents (Elt F)),
    StableHlo.binary main_v104 main_v159 main_v160 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_27 (constant S_ .f32 0x00000000#32),
    StableHlo.unary main_cst_27 main_v161 (broadcastInDim S32768x64 ![] bcast_S_S32768x64 : (⟨S_, .f32⟩ : BufTy).Contents (Elt F) → (⟨S32768x64, .f32⟩ : BufTy).Contents (Elt F)),
    StableHlo.unary main_arg22 main_v162 (broadcastInDim S65536x1 ![0] bcast_S65536_S65536x1_0 : (⟨S65536, .i32⟩ : BufTy).Contents (Elt F) → (⟨S65536x1, .i32⟩ : BufTy).Contents (Elt F)),
    StableHlo.ternary main_v161 main_v162 main_v160 main_v163 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)) ]

/-- Operations 236 … 244 of @main (calls inlined), which write the buffers numbered 259 … 267. -/
abbrev st_acB0_2 : List (HloOp τ sig (Elt F)) :=
  [ StableHlo.unary main_arg10 main_v164 ((extractStridedSlice S1x1x64x64 ![0, 2, 0, 0] · slices_S2x5x64x64_S1x1x64x64_0_2_0_0) : (⟨S2x5x64x64, .f32⟩ : BufTy).Contents (Elt F) → (⟨S1x1x64x64, .f32⟩ : BufTy).Contents (Elt F)),
    StableHlo.reshape main_v164 main_v165 rfl shapeCasts_S1x1x64x64_S64x64,
    StableHlo.binary main_v153 main_v165 main_v166 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v123 main_v166 main_v167 (addf : (⟨S131072x64, .f32⟩ : BufTy).Contents (Elt F) → (⟨S131072x64, .f32⟩ : BufTy).Contents (Elt F) → (⟨S131072x64, .f32⟩ : BufTy).Contents (Elt F)),
    StableHlo.unary main_arg11 main_v168 ((extractStridedSlice S1x1x64 ![0, 2, 0] · slices_S2x5x64_S1x1x64_0_2_0) : (⟨S2x5x64, .f32⟩ : BufTy).Contents (Elt F) → (⟨S1x1x64, .f32⟩ : BufTy).Contents (Elt F)),
    StableHlo.reshape main_v168 main_v169 rfl shapeCasts_S1x1x64_S64,
    StableHlo.unary main_v169 main_v170 (broadcastInDim S1x64 ![1] bcast_S64_S1x64_1 : (⟨S64, .f32⟩ : BufTy).Contents (Elt F) → (⟨S1x64, .f32⟩ : BufTy).Contents (Elt F)),
    StableHlo.unary main_v170 main_v171 (broadcastInDim S131072x64 ![0, 1] bcast_S1x64_S131072x64_0_1 : (⟨S1x64, .f32⟩ : BufTy).Contents (Elt F) → (⟨S131072x64, .f32⟩ : BufTy).Contents (Elt F)),
    StableHlo.binary main_v167 main_v171 main_v172 (addf : (⟨S131072x64, .f32⟩ : BufTy).Contents (Elt F) → (⟨S131072x64, .f32⟩ : BufTy).Contents (Elt F) → (⟨S131072x64, .f32⟩ : BufTy).Contents (Elt F)) ]

/-- Operations 245 … 253 of @main (calls inlined), which write the buffers numbered 268 … 276. -/
abbrev st_acG0_2 : List (HloOp τ sig (Elt F)) :=
  [ StableHlo.unary main_arg12 main_v173 ((extractStridedSlice S1x1x64x64 ![0, 2, 0, 0] · slices_S2x5x64x64_S1x1x64x64_0_2_0_0) : (⟨S2x5x64x64, .f32⟩ : BufTy).Contents (Elt F) → (⟨S1x1x64x64, .f32⟩ : BufTy).Contents (Elt F)),
    StableHlo.reshape main_v173 main_v174 rfl shapeCasts_S1x1x64x64_S64x64,
    StableHlo.binary main_v163 main_v174 main_v175 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v132 main_v175 main_v176 (addf : (⟨S32768x64, .f32⟩ : BufTy).Contents (Elt F) → (⟨S32768x64, .f32⟩ : BufTy).Contents (Elt F) → (⟨S32768x64, .f32⟩ : BufTy).Contents (Elt F)),
    StableHlo.unary main_arg13 main_v177 ((extractStridedSlice S1x1x64 ![0, 2, 0] · slices_S2x5x64_S1x1x64_0_2_0) : (⟨S2x5x64, .f32⟩ : BufTy).Contents (Elt F) → (⟨S1x1x64, .f32⟩ : BufTy).Contents (Elt F)),
    StableHlo.reshape main_v177 main_v178 rfl shapeCasts_S1x1x64_S64,
    StableHlo.unary main_v178 main_v179 (broadcastInDim S1x64 ![1] bcast_S64_S1x64_1 : (⟨S64, .f32⟩ : BufTy).Contents (Elt F) → (⟨S1x64, .f32⟩ : BufTy).Contents (Elt F)),
    StableHlo.unary main_v179 main_v180 (broadcastInDim S32768x64 ![0, 1] bcast_S1x64_S32768x64_0_1 : (⟨S1x64, .f32⟩ : BufTy).Contents (Elt F) → (⟨S32768x64, .f32⟩ : BufTy).Contents (Elt F)),
    StableHlo.binary main_v176 main_v180 main_v181 (addf : (⟨S32768x64, .f32⟩ : BufTy).Contents (Elt F) → (⟨S32768x64, .f32⟩ : BufTy).Contents (Elt F) → (⟨S32768x64, .f32⟩ : BufTy).Contents (Elt F)) ]

end Cert.ReferenceIdeal.HRun

end
-- ==== Proof.RefStagesL0c.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- Operations 254 … 280 of @main (calls inlined), which write the buffers numbered 277 … 303. -/
abbrev st_shB0_3 : List (HloOp τ sig (Elt F)) :=
  [ StableHlo.nullary main_c_28 (constantI S_ 32 0#32),
    StableHlo.unary main_c_28 main_v182 (broadcastInDim S2097152 ![] bcast_S_S2097152 : (⟨S_, .i32⟩ : BufTy).Contents (Elt F) → (⟨S2097152, .i32⟩ : BufTy).Contents (Elt F)),
    StableHlo.binary main_v1 main_v182 main_v183 (cmpi .slt : (⟨S2097152, .i32⟩ : BufTy).Contents (Elt F) → (⟨S2097152, .i32⟩ : BufTy).Contents (Elt F) → (⟨S2097152, .i1⟩ : BufTy).Contents (Elt F)),
    StableHlo.nullary main_c_29 (constantI S_ 32 131072#32),
    StableHlo.unary main_c_29 main_v184 (broadcastInDim S2097152 ![] bcast_S_S2097152 : (⟨S_, .i32⟩ : BufTy).Contents (Elt F) → (⟨S2097152, .i32⟩ : BufTy).Contents (Elt F)),
    StableHlo.binary main_v1 main_v184 main_v185 (addi : (⟨S2097152, .i32⟩ : BufTy).Contents (Elt F) → (⟨S2097152, .i32⟩ : BufTy).Contents (Elt F) → (⟨S2097152, .i32⟩ : BufTy).Contents (Elt F)),
    StableHlo.ternary main_v183 main_v185 main_v1 main_v186 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v186 main_v187 (broadcastInDim S2097152x1 ![0] bcast_S2097152_S2097152x1_0 : (⟨S2097152, .i32⟩ : BufTy).Contents (Elt F) → (⟨S2097152x1, .i32⟩ : BufTy).Contents (Elt F)),
    StableHlo.binary main_v153 main_v187 main_v188 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_30 (constant S_ .f32 0x00000000#32),
    StableHlo.unary main_cst_30 main_v189 (broadcastInDim S131072x64 ![] bcast_S_S131072x64 : (⟨S_, .f32⟩ : BufTy).Contents (Elt F) → (⟨S131072x64, .f32⟩ : BufTy).Contents (Elt F)),
    StableHlo.unary main_v3 main_v190 (broadcastInDim S2097152x1 ![0] bcast_S2097152_S2097152x1_0 : (⟨S2097152, .i32⟩ : BufTy).Contents (Elt F) → (⟨S2097152x1, .i32⟩ : BufTy).Contents (Elt F)),
    StableHlo.ternary main_v189 main_v190 main_v188 main_v191 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_31 (constantI S_ 32 0#32),
    StableHlo.unary main_c_31 main_v192 (broadcastInDim S65536 ![] bcast_S_S65536 : (⟨S_, .i32⟩ : BufTy).Contents (Elt F) → (⟨S65536, .i32⟩ : BufTy).Contents (Elt F)),
    StableHlo.binary main_arg19 main_v192 main_v193 (cmpi .slt : (⟨S65536, .i32⟩ : BufTy).Contents (Elt F) → (⟨S65536, .i32⟩ : BufTy).Contents (Elt F) → (⟨S65536, .i1⟩ : BufTy).Contents (Elt F)),
    StableHlo.nullary main_c_32 (constantI S_ 32 32768#32),
    StableHlo.unary main_c_32 main_v194 (broadcastInDim S65536 ![] bcast_S_S65536 : (⟨S_, .i32⟩ : BufTy).Contents (Elt F) → (⟨S65536, .i32⟩ : BufTy).Contents (Elt F)),
    StableHlo.binary main_arg19 main_v194 main_v195 (addi : (⟨S65536, .i32⟩ : BufTy).Contents (Elt F) → (⟨S65536, .i32⟩ : BufTy).Contents (Elt F) → (⟨S65536, .i32⟩ : BufTy).Contents (Elt F)),
    StableHlo.ternary main_v193 main_v195 main_arg19 main_v196 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v196 main_v197 (broadcastInDim S65536x1 ![0] bcast_S65536_S65536x1_0 : (⟨S65536, .i32⟩ : BufTy).Contents (Elt F) → (⟨S65536x1, .i32⟩ : BufTy).Contents (Elt F)),
    StableHlo.binary main_v163 main_v197 main_v198 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_33 (constant S_ .f32 0x00000000#32),
    StableHlo.unary main_cst_33 main_v199 (broadcastInDim S131072x64 ![] bcast_S_S131072x64 : (⟨S_, .f32⟩ : BufTy).Contents (Elt F) → (⟨S131072x64, .f32⟩ : BufTy).Contents (Elt F)),
    StableHlo.unary main_arg20 main_v200 (broadcastInDim S65536x1 ![0] bcast_S65536_S65536x1_0 : (⟨S65536, .i32⟩ : BufTy).Contents (Elt F) → (⟨S65536x1, .i32⟩ : BufTy).Contents (Elt F)),
    StableHlo.ternary main_v199 main_v200 main_v198 main_v201 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)),
    StableHlo.binary main_v191 main_v201 main_v202 (addf : (⟨S131072x64, .f32⟩ : BufTy).Contents (Elt F) → (⟨S131072x64, .f32⟩ : BufTy).Contents (Elt F) → (⟨S131072x64, .f32⟩ : BufTy).Contents (Elt F)) ]

/-- Operations 281 … 293 of @main (calls inlined), which write the buffers numbered 304 … 316. -/
abbrev st_shG0_3 : List (HloOp τ sig (Elt F)) :=
  [ StableHlo.nullary main_c_34 (constantI S_ 32 0#32),
    StableHlo.unary main_c_34 main_v203 (broadcastInDim S65536 ![] bcast_S_S65536 : (⟨S_, .i32⟩ : BufTy).Contents (Elt F) → (⟨S65536, .i32⟩ : BufTy).Contents (Elt F)),
    StableHlo.binary main_arg21 main_v203 main_v204 (cmpi .slt : (⟨S65536, .i32⟩ : BufTy).Contents (Elt F) → (⟨S65536, .i32⟩ : BufTy).Contents (Elt F) → (⟨S65536, .i1⟩ : BufTy).Contents (Elt F)),
    StableHlo.nullary main_c_35 (constantI S_ 32 131072#32),
    StableHlo.unary main_c_35 main_v205 (broadcastInDim S65536 ![] bcast_S_S65536 : (⟨S_, .i32⟩ : BufTy).Contents (Elt F) → (⟨S65536, .i32⟩ : BufTy).Contents (Elt F)),
    StableHlo.binary main_arg21 main_v205 main_v206 (addi : (⟨S65536, .i32⟩ : BufTy).Contents (Elt F) → (⟨S65536, .i32⟩ : BufTy).Contents (Elt F) → (⟨S65536, .i32⟩ : BufTy).Contents (Elt F)),
    StableHlo.ternary main_v204 main_v206 main_arg21 main_v207 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v207 main_v208 (broadcastInDim S65536x1 ![0] bcast_S65536_S65536x1_0 : (⟨S65536, .i32⟩ : BufTy).Contents (Elt F) → (⟨S65536x1, .i32⟩ : BufTy).Contents (Elt F)),
    StableHlo.binary main_v153 main_v208 main_v209 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_36 (constant S_ .f32 0x00000000#32),
    StableHlo.unary main_cst_36 main_v210 (broadcastInDim S32768x64 ![] bcast_S_S32768x64 : (⟨S_, .f32⟩ : BufTy).Contents (Elt F) → (⟨S32768x64, .f32⟩ : BufTy).Contents (Elt F)),
    StableHlo.unary main_arg22 main_v211 (broadcastInDim S65536x1 ![0] bcast_S65536_S65536x1_0 : (⟨S65536, .i32⟩ : BufTy).Contents (Elt F) → (⟨S65536x1, .i32⟩ : BufTy).Contents (Elt F)),
    StableHlo.ternary main_v210 main_v211 main_v209 main_v212 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)) ]

/-- Operations 294 … 302 of @main (calls inlined), which write the buffers numbered 317 … 325. -/
abbrev st_acB0_3 : List (HloOp τ sig (Elt F)) :=
  [ StableHlo.unary main_arg10 main_v213 ((extractStridedSlice S1x1x64x64 ![0, 3, 0, 0] · slices_S2x5x64x64_S1x1x64x64_0_3_0_0) : (⟨S2x5x64x64, .f32⟩ : BufTy).Contents (Elt F) → (⟨S1x1x64x64, .f32⟩ : BufTy).Contents (Elt F)),
    StableHlo.reshape main_v213 main_v214 rfl shapeCasts_S1x1x64x64_S64x64,
    StableHlo.binary main_v202 main_v214 main_v215 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v172 main_v215 main_v216 (addf : (⟨S131072x64, .f32⟩ : BufTy).Contents (Elt F) → (⟨S131072x64, .f32⟩ : BufTy).Contents (Elt F) → (⟨S131072x64, .f32⟩ : BufTy).Contents (Elt F)),
    StableHlo.unary main_arg11 main_v217 ((extractStridedSlice S1x1x64 ![0, 3, 0] · slices_S2x5x64_S1x1x64_0_3_0) : (⟨S2x5x64, .f32⟩ : BufTy).Contents (Elt F) → (⟨S1x1x64, .f32⟩ : BufTy).Contents (Elt F)),
    StableHlo.reshape main_v217 main_v218 rfl shapeCasts_S1x1x64_S64,
    StableHlo.unary main_v218 main_v219 (broadcastInDim S1x64 ![1] bcast_S64_S1x64_1 : (⟨S64, .f32⟩ : BufTy).Contents (Elt F) → (⟨S1x64, .f32⟩ : BufTy).Contents (Elt F)),
    StableHlo.unary main_v219 main_v220 (broadcastInDim S131072x64 ![0, 1] bcast_S1x64_S131072x64_0_1 : (⟨S1x64, .f32⟩ : BufTy).Contents (Elt F) → (⟨S131072x64, .f32⟩ : BufTy).Contents (Elt F)),
    StableHlo.binary main_v216 main_v220 main_v221 (addf : (⟨S131072x64, .f32⟩ : BufTy).Contents (Elt F) → (⟨S131072x64, .f32⟩ : BufTy).Contents (Elt F) → (⟨S131072x64, .f32⟩ : BufTy).Contents (Elt F)) ]

/-- Operations 303 … 311 of @main (calls inlined), which write the buffers numbered 326 … 334. -/
abbrev st_acG0_3 : List (HloOp τ sig (Elt F)) :=
  [ StableHlo.unary main_arg12 main_v222 ((extractStridedSlice S1x1x64x64 ![0, 3, 0, 0] · slices_S2x5x64x64_S1x1x64x64_0_3_0_0) : (⟨S2x5x64x64, .f32⟩ : BufTy).Contents (Elt F) → (⟨S1x1x64x64, .f32⟩ : BufTy).Contents (Elt F)),
    StableHlo.reshape main_v222 main_v223 rfl shapeCasts_S1x1x64x64_S64x64,
    StableHlo.binary main_v212 main_v223 main_v224 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v181 main_v224 main_v225 (addf : (⟨S32768x64, .f32⟩ : BufTy).Contents (Elt F) → (⟨S32768x64, .f32⟩ : BufTy).Contents (Elt F) → (⟨S32768x64, .f32⟩ : BufTy).Contents (Elt F)),
    StableHlo.unary main_arg13 main_v226 ((extractStridedSlice S1x1x64 ![0, 3, 0] · slices_S2x5x64_S1x1x64_0_3_0) : (⟨S2x5x64, .f32⟩ : BufTy).Contents (Elt F) → (⟨S1x1x64, .f32⟩ : BufTy).Contents (Elt F)),
    StableHlo.reshape main_v226 main_v227 rfl shapeCasts_S1x1x64_S64,
    StableHlo.unary main_v227 main_v228 (broadcastInDim S1x64 ![1] bcast_S64_S1x64_1 : (⟨S64, .f32⟩ : BufTy).Contents (Elt F) → (⟨S1x64, .f32⟩ : BufTy).Contents (Elt F)),
    StableHlo.unary main_v228 main_v229 (broadcastInDim S32768x64 ![0, 1] bcast_S1x64_S32768x64_0_1 : (⟨S1x64, .f32⟩ : BufTy).Contents (Elt F) → (⟨S32768x64, .f32⟩ : BufTy).Contents (Elt F)),
    StableHlo.binary main_v225 main_v229 main_v230 (addf : (⟨S32768x64, .f32⟩ : BufTy).Contents (Elt F) → (⟨S32768x64, .f32⟩ : BufTy).Contents (Elt F) → (⟨S32768x64, .f32⟩ : BufTy).Contents (Elt F)) ]

/-- Operations 312 … 338 of @main (calls inlined), which write the buffers numbered 335 … 361. -/
abbrev st_shB0_4 : List (HloOp τ sig (Elt F)) :=
  [ StableHlo.nullary main_c_37 (constantI S_ 32 0#32),
    StableHlo.unary main_c_37 main_v231 (broadcastInDim S2097152 ![] bcast_S_S2097152 : (⟨S_, .i32⟩ : BufTy).Contents (Elt F) → (⟨S2097152, .i32⟩ : BufTy).Contents (Elt F)),
    StableHlo.binary main_v1 main_v231 main_v232 (cmpi .slt : (⟨S2097152, .i32⟩ : BufTy).Contents (Elt F) → (⟨S2097152, .i32⟩ : BufTy).Contents (Elt F) → (⟨S2097152, .i1⟩ : BufTy).Contents (Elt F)),
    StableHlo.nullary main_c_38 (constantI S_ 32 131072#32),
    StableHlo.unary main_c_38 main_v233 (broadcastInDim S2097152 ![] bcast_S_S2097152 : (⟨S_, .i32⟩ : BufTy).Contents (Elt F) → (⟨S2097152, .i32⟩ : BufTy).Contents (Elt F)),
    StableHlo.binary main_v1 main_v233 main_v234 (addi : (⟨S2097152, .i32⟩ : BufTy).Contents (Elt F) → (⟨S2097152, .i32⟩ : BufTy).Contents (Elt F) → (⟨S2097152, .i32⟩ : BufTy).Contents (Elt F)),
    StableHlo.ternary main_v232 main_v234 main_v1 main_v235 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v235 main_v236 (broadcastInDim S2097152x1 ![0] bcast_S2097152_S2097152x1_0 : (⟨S2097152, .i32⟩ : BufTy).Contents (Elt F) → (⟨S2097152x1, .i32⟩ : BufTy).Contents (Elt F)),
    StableHlo.binary main_v202 main_v236 main_v237 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_39 (constant S_ .f32 0x00000000#32),
    StableHlo.unary main_cst_39 main_v238 (broadcastInDim S131072x64 ![] bcast_S_S131072x64 : (⟨S_, .f32⟩ : BufTy).Contents (Elt F) → (⟨S131072x64, .f32⟩ : BufTy).Contents (Elt F)),
    StableHlo.unary main_v3 main_v239 (broadcastInDim S2097152x1 ![0] bcast_S2097152_S2097152x1_0 : (⟨S2097152, .i32⟩ : BufTy).Contents (Elt F) → (⟨S2097152x1, .i32⟩ : BufTy).Contents (Elt F)),
    StableHlo.ternary main_v238 main_v239 main_v237 main_v240 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_40 (constantI S_ 32 0#32),
    StableHlo.unary main_c_40 main_v241 (broadcastInDim S65536 ![] bcast_S_S65536 : (⟨S_, .i32⟩ : BufTy).Contents (Elt F) → (⟨S65536, .i32⟩ : BufTy).Contents (Elt F)),
    StableHlo.binary main_arg19 main_v241 main_v242 (cmpi .slt : (⟨S65536, .i32⟩ : BufTy).Contents (Elt F) → (⟨S65536, .i32⟩ : BufTy).Contents (Elt F) → (⟨S65536, .i1⟩ : BufTy).Contents (Elt F)),
    StableHlo.nullary main_c_41 (constantI S_ 32 32768#32),
    StableHlo.unary main_c_41 main_v243 (broadcastInDim S65536 ![] bcast_S_S65536 : (⟨S_, .i32⟩ : BufTy).Contents (Elt F) → (⟨S65536, .i32⟩ : BufTy).Contents (Elt F)),
    StableHlo.binary main_arg19 main_v243 main_v244 (addi : (⟨S65536, .i32⟩ : BufTy).Contents (Elt F) → (⟨S65536, .i32⟩ : BufTy).Contents (Elt F) → (⟨S65536, .i32⟩ : BufTy).Contents (Elt F)),
    StableHlo.ternary main_v242 main_v244 main_arg19 main_v245 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v245 main_v246 (broadcastInDim S65536x1 ![0] bcast_S65536_S65536x1_0 : (⟨S65536, .i32⟩ : BufTy).Contents (Elt F) → (⟨S65536x1, .i32⟩ : BufTy).Contents (Elt F)),
    StableHlo.binary main_v212 main_v246 main_v247 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_42 (constant S_ .f32 0x00000000#32),
    StableHlo.unary main_cst_42 main_v248 (broadcastInDim S131072x64 ![] bcast_S_S131072x64 : (⟨S_, .f32⟩ : BufTy).Contents (Elt F) → (⟨S131072x64, .f32⟩ : BufTy).Contents (Elt F)),
    StableHlo.unary main_arg20 main_v249 (broadcastInDim S65536x1 ![0] bcast_S65536_S65536x1_0 : (⟨S65536, .i32⟩ : BufTy).Contents (Elt F) → (⟨S65536x1, .i32⟩ : BufTy).Contents (Elt F)),
    StableHlo.ternary main_v248 main_v249 main_v247 main_v250 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)),
    StableHlo.binary main_v240 main_v250 main_v251 (addf : (⟨S131072x64, .f32⟩ : BufTy).Contents (Elt F) → (⟨S131072x64, .f32⟩ : BufTy).Contents (Elt F) → (⟨S131072x64, .f32⟩ : BufTy).Contents (Elt F)) ]

/-- Operations 339 … 351 of @main (calls inlined), which write the buffers numbered 362 … 374. -/
abbrev st_shG0_4 : List (HloOp τ sig (Elt F)) :=
  [ StableHlo.nullary main_c_43 (constantI S_ 32 0#32),
    StableHlo.unary main_c_43 main_v252 (broadcastInDim S65536 ![] bcast_S_S65536 : (⟨S_, .i32⟩ : BufTy).Contents (Elt F) → (⟨S65536, .i32⟩ : BufTy).Contents (Elt F)),
    StableHlo.binary main_arg21 main_v252 main_v253 (cmpi .slt : (⟨S65536, .i32⟩ : BufTy).Contents (Elt F) → (⟨S65536, .i32⟩ : BufTy).Contents (Elt F) → (⟨S65536, .i1⟩ : BufTy).Contents (Elt F)),
    StableHlo.nullary main_c_44 (constantI S_ 32 131072#32),
    StableHlo.unary main_c_44 main_v254 (broadcastInDim S65536 ![] bcast_S_S65536 : (⟨S_, .i32⟩ : BufTy).Contents (Elt F) → (⟨S65536, .i32⟩ : BufTy).Contents (Elt F)),
    StableHlo.binary main_arg21 main_v254 main_v255 (addi : (⟨S65536, .i32⟩ : BufTy).Contents (Elt F) → (⟨S65536, .i32⟩ : BufTy).Contents (Elt F) → (⟨S65536, .i32⟩ : BufTy).Contents (Elt F)),
    StableHlo.ternary main_v253 main_v255 main_arg21 main_v256 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v256 main_v257 (broadcastInDim S65536x1 ![0] bcast_S65536_S65536x1_0 : (⟨S65536, .i32⟩ : BufTy).Contents (Elt F) → (⟨S65536x1, .i32⟩ : BufTy).Contents (Elt F)),
    StableHlo.binary main_v202 main_v257 main_v258 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_45 (constant S_ .f32 0x00000000#32),
    StableHlo.unary main_cst_45 main_v259 (broadcastInDim S32768x64 ![] bcast_S_S32768x64 : (⟨S_, .f32⟩ : BufTy).Contents (Elt F) → (⟨S32768x64, .f32⟩ : BufTy).Contents (Elt F)),
    StableHlo.unary main_arg22 main_v260 (broadcastInDim S65536x1 ![0] bcast_S65536_S65536x1_0 : (⟨S65536, .i32⟩ : BufTy).Contents (Elt F) → (⟨S65536x1, .i32⟩ : BufTy).Contents (Elt F)),
    StableHlo.ternary main_v259 main_v260 main_v258 main_v261 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)) ]

/-- Operations 352 … 360 of @main (calls inlined), which write the buffers numbered 375 … 383. -/
abbrev st_acB0_4 : List (HloOp τ sig (Elt F)) :=
  [ StableHlo.unary main_arg10 main_v262 ((extractStridedSlice S1x1x64x64 ![0, 4, 0, 0] · slices_S2x5x64x64_S1x1x64x64_0_4_0_0) : (⟨S2x5x64x64, .f32⟩ : BufTy).Contents (Elt F) → (⟨S1x1x64x64, .f32⟩ : BufTy).Contents (Elt F)),
    StableHlo.reshape main_v262 main_v263 rfl shapeCasts_S1x1x64x64_S64x64,
    StableHlo.binary main_v251 main_v263 main_v264 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v221 main_v264 main_v265 (addf : (⟨S131072x64, .f32⟩ : BufTy).Contents (Elt F) → (⟨S131072x64, .f32⟩ : BufTy).Contents (Elt F) → (⟨S131072x64, .f32⟩ : BufTy).Contents (Elt F)),
    StableHlo.unary main_arg11 main_v266 ((extractStridedSlice S1x1x64 ![0, 4, 0] · slices_S2x5x64_S1x1x64_0_4_0) : (⟨S2x5x64, .f32⟩ : BufTy).Contents (Elt F) → (⟨S1x1x64, .f32⟩ : BufTy).Contents (Elt F)),
    StableHlo.reshape main_v266 main_v267 rfl shapeCasts_S1x1x64_S64,
    StableHlo.unary main_v267 main_v268 (broadcastInDim S1x64 ![1] bcast_S64_S1x64_1 : (⟨S64, .f32⟩ : BufTy).Contents (Elt F) → (⟨S1x64, .f32⟩ : BufTy).Contents (Elt F)),
    StableHlo.unary main_v268 main_v269 (broadcastInDim S131072x64 ![0, 1] bcast_S1x64_S131072x64_0_1 : (⟨S1x64, .f32⟩ : BufTy).Contents (Elt F) → (⟨S131072x64, .f32⟩ : BufTy).Contents (Elt F)),
    StableHlo.binary main_v265 main_v269 main_v270 (addf : (⟨S131072x64, .f32⟩ : BufTy).Contents (Elt F) → (⟨S131072x64, .f32⟩ : BufTy).Contents (Elt F) → (⟨S131072x64, .f32⟩ : BufTy).Contents (Elt F)) ]

/-- Operations 361 … 369 of @main (calls inlined), which write the buffers numbered 384 … 392. -/
abbrev st_acG0_4 : List (HloOp τ sig (Elt F)) :=
  [ StableHlo.unary main_arg12 main_v271 ((extractStridedSlice S1x1x64x64 ![0, 4, 0, 0] · slices_S2x5x64x64_S1x1x64x64_0_4_0_0) : (⟨S2x5x64x64, .f32⟩ : BufTy).Contents (Elt F) → (⟨S1x1x64x64, .f32⟩ : BufTy).Contents (Elt F)),
    StableHlo.reshape main_v271 main_v272 rfl shapeCasts_S1x1x64x64_S64x64,
    StableHlo.binary main_v261 main_v272 main_v273 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v230 main_v273 main_v274 (addf : (⟨S32768x64, .f32⟩ : BufTy).Contents (Elt F) → (⟨S32768x64, .f32⟩ : BufTy).Contents (Elt F) → (⟨S32768x64, .f32⟩ : BufTy).Contents (Elt F)),
    StableHlo.unary main_arg13 main_v275 ((extractStridedSlice S1x1x64 ![0, 4, 0] · slices_S2x5x64_S1x1x64_0_4_0) : (⟨S2x5x64, .f32⟩ : BufTy).Contents (Elt F) → (⟨S1x1x64, .f32⟩ : BufTy).Contents (Elt F)),
    StableHlo.reshape main_v275 main_v276 rfl shapeCasts_S1x1x64_S64,
    StableHlo.unary main_v276 main_v277 (broadcastInDim S1x64 ![1] bcast_S64_S1x64_1 : (⟨S64, .f32⟩ : BufTy).Contents (Elt F) → (⟨S1x64, .f32⟩ : BufTy).Contents (Elt F)),
    StableHlo.unary main_v277 main_v278 (broadcastInDim S32768x64 ![0, 1] bcast_S1x64_S32768x64_0_1 : (⟨S1x64, .f32⟩ : BufTy).Contents (Elt F) → (⟨S32768x64, .f32⟩ : BufTy).Contents (Elt F)),
    StableHlo.binary main_v274 main_v278 main_v279 (addf : (⟨S32768x64, .f32⟩ : BufTy).Contents (Elt F) → (⟨S32768x64, .f32⟩ : BufTy).Contents (Elt F) → (⟨S32768x64, .f32⟩ : BufTy).Contents (Elt F)) ]

/-- Operations 370 … 370 of @main (calls inlined), which write the buffers numbered 393 … 393. -/
abbrev st_resB0 : List (HloOp τ sig (Elt F)) :=
  [ StableHlo.binary main_v7 main_v270 main_v280 (addf : (⟨S131072x64, .f32⟩ : BufTy).Contents (Elt F) → (⟨S131072x64, .f32⟩ : BufTy).Contents (Elt F) → (⟨S131072x64, .f32⟩ : BufTy).Contents (Elt F)) ]

/-- Operations 371 … 371 of @main (calls inlined), which write the buffers numbered 394 … 394. -/
abbrev st_resG0 : List (HloOp τ sig (Elt F)) :=
  [ StableHlo.binary main_v11 main_v279 main_v281 (addf : (⟨S32768x64, .f32⟩ : BufTy).Contents (Elt F) → (⟨S32768x64, .f32⟩ : BufTy).Contents (Elt F) → (⟨S32768x64, .f32⟩ : BufTy).Contents (Elt F)) ]

end Cert.ReferenceIdeal.HRun

end
-- ==== Proof.RefStageEqs0.lean ====
/-
  The named values of the network at the buffers the reference program computes them into, for residual block 0: from the
  equations the final contents satisfy at a stage's operations, each stage's result is the layer's function of the
  stage's inputs (the dense layers and taps by their entrywise reading, the batch-norm and the rectifier entry by entry
  through the broadcasts, the graph shifts as the composed term they are).
-/
import proofs.«144873_j21182778704707_1_alg».proof.Proof.RefSSA
import proofs.«144873_j21182778704707_1_alg».proof.Proof.RefStagesL0a
import proofs.«144873_j21182778704707_1_alg».proof.Proof.RefStagesL0b
import proofs.«144873_j21182778704707_1_alg».proof.Proof.RefStagesL0c
import proofs.«144873_j21182778704707_1_alg».proof.Proof.RefMath
import proofs.«144873_j21182778704707_1_alg».proof.Proof.KShift

set_option maxHeartbeats 4000000

noncomputable section

namespace Cert.ReferenceIdeal.HRun

open Cert.ReferenceIdeal Cert.ReferenceIdeal.Facts₀ Idealize.ShloMosaic Idealize.ShloMosaic.TcCoe Idealize.SL.Sem Idealize.ShloMosaic.StableHlo Idealize.ShloMosaic.ValueIdx

/-- The buffer of a reference in a valuation. -/
local notation:max W "⟦" b "⟧" => W (Proc.devRef Proc.tc b)

variable (W : Valuation τ sig (Elt Ideal))

set_option maxRecDepth 16384 in
theorem bnPB0_eq (h : (st_bnPB0 (F := Ideal)).Forall (Fix W)) :
    (∀ q : Fin 64, W⟦main_v13⟧ (ix1 q) = Cert.Hgcn.parRow 0 W⟦main_arg6⟧ (by decide) (ix2 (0 : Fin 1) q))
    ∧ (∀ q : Fin 64, W⟦main_v15⟧ (ix1 q) = Cert.Hgcn.parRow 0 W⟦main_arg7⟧ (by decide) (ix2 (0 : Fin 1) q))
    ∧ (∀ q : Fin 64, W⟦main_v18⟧ (ix1 q) = Cert.Hgcn.meanRow Cert.Hgcn.hrB Cert.Hgcn.h0 0x48000000#32 W⟦main_v7⟧ (ix2 (0 : Fin 1) q))
    ∧ W⟦main_c⟧ = constantI S_ 32 0#32 := by
  stage_eqs st_bnPB0 h
  obtain ⟨e0, e1, e2, e3, e4, e5, e6, e7, e8, e9⟩ := h
  refine ⟨fun q => ?_, fun q => ?_, fun q => ?_, e9⟩
  · rw [e1, e0, Cert.Hgcn.parRow, Cert.Hgcn.rowCast_apply]; rfl
  · rw [e3, e2, Cert.Hgcn.parRow, Cert.Hgcn.rowCast_apply]; rfl
  · simp only [e8, e7, e6, e5, e4, select_apply, cmpf_apply, sitofp_apply, mulf_apply, addf_apply, subf_apply, constant_apply, hostDivf_apply, hostRsqrt_apply, Cert.Hgcn.bcast0_apply', Cert.Hgcn.rows_apply', Cert.Hgcn.row_apply', id]; rfl

set_option maxRecDepth 16384 in
theorem bnQB0_eq (h : (st_bnQB0 (F := Ideal)).Forall (Fix W)) :
    W⟦main_call0_v6⟧ = Cert.Hgcn.centredSq W⟦main_v7⟧ (Cert.Hgcn.meanRow Cert.Hgcn.hrB Cert.Hgcn.h0 0x48000000#32 W⟦main_v7⟧) := by
  stage_eqs st_bnQB0 h
  funext j
  obtain ⟨p, q, rfl⟩ : ∃ (p : Fin 131072) (q : Fin 64), j = ix2 p q := ⟨j 0, j 1, eq_ix2 j⟩
  simp only [h, select_apply, cmpf_apply, sitofp_apply, mulf_apply, addf_apply, subf_apply, constant_apply, hostDivf_apply, hostRsqrt_apply, Cert.Hgcn.bcast0_apply', Cert.Hgcn.rows_apply', Cert.Hgcn.row_apply', id]
  rfl

set_option maxRecDepth 16384 in
theorem bnSB0_eq (h : (st_bnSB0 (F := Ideal)).Forall (Fix W)) (x : Cert.Hgcn.Mat 131072 64) (hc : W⟦main_c⟧ = constantI S_ 32 0#32)
    (hq : W⟦main_call0_v6⟧ = Cert.Hgcn.centredSq x (Cert.Hgcn.meanRow Cert.Hgcn.hrB Cert.Hgcn.h0 0x48000000#32 x)) :
    ∀ q : Fin 64, W⟦main_v19⟧ (ix1 q) = Cert.Hgcn.varRow Cert.Hgcn.hrB Cert.Hgcn.h0 0x48000000#32 x (ix2 (0 : Fin 1) q) := by
  stage_eqs st_bnSB0 h
  intro q
  simp only [h, hc, hq, select_apply, cmpf_apply, sitofp_apply, mulf_apply, addf_apply, subf_apply, constant_apply, hostDivf_apply, hostRsqrt_apply, Cert.Hgcn.bcast0_apply', Cert.Hgcn.rows_apply', Cert.Hgcn.row_apply', id]
  rfl

set_option maxRecDepth 16384 in
theorem bnTB0_eq (h : (st_bnTB0 (F := Ideal)).Forall (Fix W)) (γ β μ v : Cert.Hgcn.Mat 1 64)
    (hγ : ∀ q : Fin 64, W⟦main_v13⟧ (ix1 q) = γ (ix2 (0 : Fin 1) q)) (hβ : ∀ q : Fin 64, W⟦main_v15⟧ (ix1 q) = β (ix2 (0 : Fin 1) q))
    (hμ : ∀ q : Fin 64, W⟦main_v18⟧ (ix1 q) = μ (ix2 (0 : Fin 1) q)) (hv : ∀ q : Fin 64, W⟦main_v19⟧ (ix1 q) = v (ix2 (0 : Fin 1) q)) :
    W⟦main_v39⟧ = Cert.Hgcn.bnAct W⟦main_v7⟧ γ β μ v := by
  stage_eqs st_bnTB0 h
  funext j
  obtain ⟨p, q, rfl⟩ : ∃ (p : Fin 131072) (q : Fin 64), j = ix2 p q := ⟨j 0, j 1, eq_ix2 j⟩
  rw [Cert.Hgcn.bnAct_apply]
  simp only [h, hγ, hβ, hμ, hv, select_apply, cmpf_apply, sitofp_apply, mulf_apply, addf_apply, subf_apply, constant_apply, hostDivf_apply, hostRsqrt_apply, Cert.Hgcn.bcast0_apply', Cert.Hgcn.rows_apply', Cert.Hgcn.row_apply', id]
  rfl

set_option maxRecDepth 16384 in
theorem bnPG0_eq (h : (st_bnPG0 (F := Ideal)).Forall (Fix W)) :
    (∀ q : Fin 64, W⟦main_v41⟧ (ix1 q) = Cert.Hgcn.parRow 0 W⟦main_arg8⟧ (by decide) (ix2 (0 : Fin 1) q))
    ∧ (∀ q : Fin 64, W⟦main_v43⟧ (ix1 q) = Cert.Hgcn.parRow 0 W⟦main_arg9⟧ (by decide) (ix2 (0 : Fin 1) q))
    ∧ (∀ q : Fin 64, W⟦main_v46⟧ (ix1 q) = Cert.Hgcn.meanRow Cert.Hgcn.hrG Cert.Hgcn.h0 0x47000000#32 W⟦main_v11⟧ (ix2 (0 : Fin 1) q))
    ∧ W⟦main_c_6⟧ = constantI S_ 32 0#32 := by
  stage_eqs st_bnPG0 h
  obtain ⟨e0, e1, e2, e3, e4, e5, e6, e7, e8, e9⟩ := h
  refine ⟨fun q => ?_, fun q => ?_, fun q => ?_, e9⟩
  · rw [e1, e0, Cert.Hgcn.parRow, Cert.Hgcn.rowCast_apply]; rfl
  · rw [e3, e2, Cert.Hgcn.parRow, Cert.Hgcn.rowCast_apply]; rfl
  · simp only [e8, e7, e6, e5, e4, select_apply, cmpf_apply, sitofp_apply, mulf_apply, addf_apply, subf_apply, constant_apply, hostDivf_apply, hostRsqrt_apply, Cert.Hgcn.bcast0_apply', Cert.Hgcn.rows_apply', Cert.Hgcn.row_apply', id]; rfl

set_option maxRecDepth 16384 in
theorem bnQG0_eq (h : (st_bnQG0 (F := Ideal)).Forall (Fix W)) :
    W⟦main_call2_v6⟧ = Cert.Hgcn.centredSq W⟦main_v11⟧ (Cert.Hgcn.meanRow Cert.Hgcn.hrG Cert.Hgcn.h0 0x47000000#32 W⟦main_v11⟧) := by
  stage_eqs st_bnQG0 h
  funext j
  obtain ⟨p, q, rfl⟩ : ∃ (p : Fin 32768) (q : Fin 64), j = ix2 p q := ⟨j 0, j 1, eq_ix2 j⟩
  simp only [h, select_apply, cmpf_apply, sitofp_apply, mulf_apply, addf_apply, subf_apply, constant_apply, hostDivf_apply, hostRsqrt_apply, Cert.Hgcn.bcast0_apply', Cert.Hgcn.rows_apply', Cert.Hgcn.row_apply', id]
  rfl

set_option maxRecDepth 16384 in
theorem bnSG0_eq (h : (st_bnSG0 (F := Ideal)).Forall (Fix W)) (x : Cert.Hgcn.Mat 32768 64) (hc : W⟦main_c_6⟧ = constantI S_ 32 0#32)
    (hq : W⟦main_call2_v6⟧ = Cert.Hgcn.centredSq x (Cert.Hgcn.meanRow Cert.Hgcn.hrG Cert.Hgcn.h0 0x47000000#32 x)) :
    ∀ q : Fin 64, W⟦main_v47⟧ (ix1 q) = Cert.Hgcn.varRow Cert.Hgcn.hrG Cert.Hgcn.h0 0x47000000#32 x (ix2 (0 : Fin 1) q) := by
  stage_eqs st_bnSG0 h
  intro q
  simp only [h, hc, hq, select_apply, cmpf_apply, sitofp_apply, mulf_apply, addf_apply, subf_apply, constant_apply, hostDivf_apply, hostRsqrt_apply, Cert.Hgcn.bcast0_apply', Cert.Hgcn.rows_apply', Cert.Hgcn.row_apply', id]
  rfl

set_option maxRecDepth 16384 in
theorem bnTG0_eq (h : (st_bnTG0 (F := Ideal)).Forall (Fix W)) (γ β μ v : Cert.Hgcn.Mat 1 64)
    (hγ : ∀ q : Fin 64, W⟦main_v41⟧ (ix1 q) = γ (ix2 (0 : Fin 1) q)) (hβ : ∀ q : Fin 64, W⟦main_v43⟧ (ix1 q) = β (ix2 (0 : Fin 1) q))
    (hμ : ∀ q : Fin 64, W⟦main_v46⟧ (ix1 q) = μ (ix2 (0 : Fin 1) q)) (hv : ∀ q : Fin 64, W⟦main_v47⟧ (ix1 q) = v (ix2 (0 : Fin 1) q)) :
    W⟦main_v67⟧ = Cert.Hgcn.bnAct W⟦main_v11⟧ γ β μ v := by
  stage_eqs st_bnTG0 h
  funext j
  obtain ⟨p, q, rfl⟩ : ∃ (p : Fin 32768) (q : Fin 64), j = ix2 p q := ⟨j 0, j 1, eq_ix2 j⟩
  rw [Cert.Hgcn.bnAct_apply]
  simp only [h, hγ, hβ, hμ, hv, select_apply, cmpf_apply, sitofp_apply, mulf_apply, addf_apply, subf_apply, constant_apply, hostDivf_apply, hostRsqrt_apply, Cert.Hgcn.bcast0_apply', Cert.Hgcn.rows_apply', Cert.Hgcn.row_apply', id]
  rfl

set_option maxRecDepth 16384 in
theorem t0B0_eq (h : (st_t0B0 (F := Ideal)).Forall (Fix W)) :
    W⟦main_v75⟧ = Cert.Hgcn.lin W⟦main_v39⟧ (Cert.Hgcn.tapW 0 0 W⟦main_arg10⟧ (by decide)) (Cert.Hgcn.tapC 0 0 W⟦main_arg11⟧ (by decide)) := by
  stage_eqs st_t0B0 h
  obtain ⟨e0, e1, e2, e3, e4, e5, e6, e7⟩ := h
  rw [e7, e2, e6, e5, e1, e4, e0, e3]
  exact Cert.Hgcn.lin_host _ _ _ _ _ _

set_option maxRecDepth 16384 in
theorem t0G0_eq (h : (st_t0G0 (F := Ideal)).Forall (Fix W)) :
    W⟦main_v83⟧ = Cert.Hgcn.lin W⟦main_v67⟧ (Cert.Hgcn.tapW 0 0 W⟦main_arg12⟧ (by decide)) (Cert.Hgcn.tapC 0 0 W⟦main_arg13⟧ (by decide)) := by
  stage_eqs st_t0G0 h
  obtain ⟨e0, e1, e2, e3, e4, e5, e6, e7⟩ := h
  rw [e7, e2, e6, e5, e1, e4, e0, e3]
  exact Cert.Hgcn.lin_host _ _ _ _ _ _

set_option maxRecDepth 16384 in
theorem shB0_1_eq (h : (st_shB0_1 (F := Ideal)).Forall (Fix W)) :
    W⟦main_v104⟧ = Cert.KernelIdeal.HV.shiftBus W⟦main_v39⟧ W⟦main_v67⟧ W⟦main_v1⟧ W⟦main_v3⟧ W⟦main_arg19⟧ W⟦main_arg20⟧ := by
  stage_eqs st_shB0_1 h
  simp only [h]
  rfl

set_option maxRecDepth 16384 in
theorem shG0_1_eq (h : (st_shG0_1 (F := Ideal)).Forall (Fix W)) :
    W⟦main_v114⟧ = Cert.KernelIdeal.HV.shiftGen W⟦main_v39⟧ W⟦main_arg21⟧ W⟦main_arg22⟧ := by
  stage_eqs st_shG0_1 h
  simp only [h]
  rfl

set_option maxRecDepth 16384 in
theorem acB0_1_eq (h : (st_acB0_1 (F := Ideal)).Forall (Fix W)) :
    W⟦main_v123⟧ = Cert.Hgcn.tapAcc W⟦main_v75⟧ W⟦main_v104⟧ (Cert.Hgcn.tapW 0 1 W⟦main_arg10⟧ (by decide)) (Cert.Hgcn.tapC 0 1 W⟦main_arg11⟧ (by decide)) := by
  stage_eqs st_acB0_1 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem acG0_1_eq (h : (st_acG0_1 (F := Ideal)).Forall (Fix W)) :
    W⟦main_v132⟧ = Cert.Hgcn.tapAcc W⟦main_v83⟧ W⟦main_v114⟧ (Cert.Hgcn.tapW 0 1 W⟦main_arg12⟧ (by decide)) (Cert.Hgcn.tapC 0 1 W⟦main_arg13⟧ (by decide)) := by
  stage_eqs st_acG0_1 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem shB0_2_eq (h : (st_shB0_2 (F := Ideal)).Forall (Fix W)) :
    W⟦main_v153⟧ = Cert.KernelIdeal.HV.shiftBus W⟦main_v104⟧ W⟦main_v114⟧ W⟦main_v1⟧ W⟦main_v3⟧ W⟦main_arg19⟧ W⟦main_arg20⟧ := by
  stage_eqs st_shB0_2 h
  simp only [h]
  rfl

set_option maxRecDepth 16384 in
theorem shG0_2_eq (h : (st_shG0_2 (F := Ideal)).Forall (Fix W)) :
    W⟦main_v163⟧ = Cert.KernelIdeal.HV.shiftGen W⟦main_v104⟧ W⟦main_arg21⟧ W⟦main_arg22⟧ := by
  stage_eqs st_shG0_2 h
  simp only [h]
  rfl

set_option maxRecDepth 16384 in
theorem acB0_2_eq (h : (st_acB0_2 (F := Ideal)).Forall (Fix W)) :
    W⟦main_v172⟧ = Cert.Hgcn.tapAcc W⟦main_v123⟧ W⟦main_v153⟧ (Cert.Hgcn.tapW 0 2 W⟦main_arg10⟧ (by decide)) (Cert.Hgcn.tapC 0 2 W⟦main_arg11⟧ (by decide)) := by
  stage_eqs st_acB0_2 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem acG0_2_eq (h : (st_acG0_2 (F := Ideal)).Forall (Fix W)) :
    W⟦main_v181⟧ = Cert.Hgcn.tapAcc W⟦main_v132⟧ W⟦main_v163⟧ (Cert.Hgcn.tapW 0 2 W⟦main_arg12⟧ (by decide)) (Cert.Hgcn.tapC 0 2 W⟦main_arg13⟧ (by decide)) := by
  stage_eqs st_acG0_2 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem shB0_3_eq (h : (st_shB0_3 (F := Ideal)).Forall (Fix W)) :
    W⟦main_v202⟧ = Cert.KernelIdeal.HV.shiftBus W⟦main_v153⟧ W⟦main_v163⟧ W⟦main_v1⟧ W⟦main_v3⟧ W⟦main_arg19⟧ W⟦main_arg20⟧ := by
  stage_eqs st_shB0_3 h
  simp only [h]
  rfl

set_option maxRecDepth 16384 in
theorem shG0_3_eq (h : (st_shG0_3 (F := Ideal)).Forall (Fix W)) :
    W⟦main_v212⟧ = Cert.KernelIdeal.HV.shiftGen W⟦main_v153⟧ W⟦main_arg21⟧ W⟦main_arg22⟧ := by
  stage_eqs st_shG0_3 h
  simp only [h]
  rfl

set_option maxRecDepth 16384 in
theorem acB0_3_eq (h : (st_acB0_3 (F := Ideal)).Forall (Fix W)) :
    W⟦main_v221⟧ = Cert.Hgcn.tapAcc W⟦main_v172⟧ W⟦main_v202⟧ (Cert.Hgcn.tapW 0 3 W⟦main_arg10⟧ (by decide)) (Cert.Hgcn.tapC 0 3 W⟦main_arg11⟧ (by decide)) := by
  stage_eqs st_acB0_3 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem acG0_3_eq (h : (st_acG0_3 (F := Ideal)).Forall (Fix W)) :
    W⟦main_v230⟧ = Cert.Hgcn.tapAcc W⟦main_v181⟧ W⟦main_v212⟧ (Cert.Hgcn.tapW 0 3 W⟦main_arg12⟧ (by decide)) (Cert.Hgcn.tapC 0 3 W⟦main_arg13⟧ (by decide)) := by
  stage_eqs st_acG0_3 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem shB0_4_eq (h : (st_shB0_4 (F := Ideal)).Forall (Fix W)) :
    W⟦main_v251⟧ = Cert.KernelIdeal.HV.shiftBus W⟦main_v202⟧ W⟦main_v212⟧ W⟦main_v1⟧ W⟦main_v3⟧ W⟦main_arg19⟧ W⟦main_arg20⟧ := by
  stage_eqs st_shB0_4 h
  simp only [h]
  rfl

set_option maxRecDepth 16384 in
theorem shG0_4_eq (h : (st_shG0_4 (F := Ideal)).Forall (Fix W)) :
    W⟦main_v261⟧ = Cert.KernelIdeal.HV.shiftGen W⟦main_v202⟧ W⟦main_arg21⟧ W⟦main_arg22⟧ := by
  stage_eqs st_shG0_4 h
  simp only [h]
  rfl

set_option maxRecDepth 16384 in
theorem acB0_4_eq (h : (st_acB0_4 (F := Ideal)).Forall (Fix W)) :
    W⟦main_v270⟧ = Cert.Hgcn.tapAcc W⟦main_v221⟧ W⟦main_v251⟧ (Cert.Hgcn.tapW 0 4 W⟦main_arg10⟧ (by decide)) (Cert.Hgcn.tapC 0 4 W⟦main_arg11⟧ (by decide)) := by
  stage_eqs st_acB0_4 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem acG0_4_eq (h : (st_acG0_4 (F := Ideal)).Forall (Fix W)) :
    W⟦main_v279⟧ = Cert.Hgcn.tapAcc W⟦main_v230⟧ W⟦main_v261⟧ (Cert.Hgcn.tapW 0 4 W⟦main_arg12⟧ (by decide)) (Cert.Hgcn.tapC 0 4 W⟦main_arg13⟧ (by decide)) := by
  stage_eqs st_acG0_4 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem resB0_eq (h : (st_resB0 (F := Ideal)).Forall (Fix W)) :
    W⟦main_v280⟧ = (addf (W⟦main_v7⟧ : Cert.Hgcn.Mat 131072 64) (W⟦main_v270⟧ : Cert.Hgcn.Mat 131072 64) : Cert.Hgcn.Mat 131072 64) := by
  stage_eqs st_resB0 h
  exact h

set_option maxRecDepth 16384 in
theorem resG0_eq (h : (st_resG0 (F := Ideal)).Forall (Fix W)) :
    W⟦main_v281⟧ = (addf (W⟦main_v11⟧ : Cert.Hgcn.Mat 32768 64) (W⟦main_v279⟧ : Cert.Hgcn.Mat 32768 64) : Cert.Hgcn.Mat 32768 64) := by
  stage_eqs st_resG0 h
  exact h

end Cert.ReferenceIdeal.HRun

end
-- ==== Proof.RefStagesL1a.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- Operations 372 … 381 of @main (calls inlined), which write the buffers numbered 395 … 404. -/
abbrev st_bnPB1 : List (HloOp τ sig (Elt F)) :=
  [ StableHlo.unary main_arg6 main_v282 ((extractStridedSlice S1x64 ![1, 0] · slices_S2x64_S1x64_1_0) : (⟨S2x64, .f32⟩ : BufTy).Contents (Elt F) → (⟨S1x64, .f32⟩ : BufTy).Contents (Elt F)),
    StableHlo.reshape main_v282 main_v283 rfl shapeCasts_S1x64_S64,
    StableHlo.unary main_arg7 main_v284 ((extractStridedSlice S1x64 ![1, 0] · slices_S2x64_S1x64_1_0) : (⟨S2x64, .f32⟩ : BufTy).Contents (Elt F) → (⟨S1x64, .f32⟩ : BufTy).Contents (Elt F)),
    StableHlo.reshape main_v284 main_v285 rfl shapeCasts_S1x64_S64,
    StableHlo.nullary main_cst_46 (constant S_ .f32 0x00000000#32),
    StableHlo.binary main_v280 main_cst_46 main_v286 ((fun x v => Host.reduceAdd x v reducesTo_S131072x64_S64_d0 h_S_) : (⟨S131072x64, .f32⟩ : BufTy).Contents (Elt F) → (⟨S_, .f32⟩ : BufTy).Contents (Elt F) → (⟨S64, .f32⟩ : BufTy).Contents (Elt F)),
    StableHlo.nullary main_cst_47 (constant S_ .f32 0x48000000#32),
    StableHlo.unary main_cst_47 main_v287 (broadcastInDim S64 ![] bcast_S_S64 : (⟨S_, .f32⟩ : BufTy).Contents (Elt F) → (⟨S64, .f32⟩ : BufTy).Contents (Elt F)),
    StableHlo.binary main_v286 main_v287 main_v288 (Host.divf : (⟨S64, .f32⟩ : BufTy).Contents (Elt F) → (⟨S64, .f32⟩ : BufTy).Contents (Elt F) → (⟨S64, .f32⟩ : BufTy).Contents (Elt F)),
    StableHlo.nullary main_c_48 (constantI S_ 32 0#32) ]

/-- Operations 382 … 390 of @main (calls inlined), which write the buffers numbered 405 … 413. -/
abbrev st_bnQB1 : List (HloOp τ sig (Elt F)) :=
  [ StableHlo.nullary main_call4_cst (constant S_ .f32 0x00000000#32),
    StableHlo.binary main_v280 main_call4_cst main_call4_v0 ((fun x v => Host.reduceAdd x v reducesTo_S131072x64_S64_d0 h_S_) : (⟨S131072x64, .f32⟩ : BufTy).Contents (Elt F) → (⟨S_, .f32⟩ : BufTy).Contents (Elt F) → (⟨S64, .f32⟩ : BufTy).Contents (Elt F)),
    StableHlo.unary main_call4_v0 main_call4_v1 ((broadcastInDim S1x64 ![1] bcast_S64_S1x64_1) : (⟨S64, .f32⟩ : BufTy).Contents (Elt F) → (⟨S1x64, .f32⟩ : BufTy).Contents (Elt F)),
    StableHlo.nullary main_call4_cst_0 (constant S_ .f32 0x48000000#32),
    StableHlo.unary main_call4_cst_0 main_call4_v2 ((broadcastInDim S1x64 ![] bcast_S_S1x64) : (⟨S_, .f32⟩ : BufTy).Contents (Elt F) → (⟨S1x64, .f32⟩ : BufTy).Contents (Elt F)),
    StableHlo.binary main_call4_v1 main_call4_v2 main_call4_v3 (Host.divf : (⟨S1x64, .f32⟩ : BufTy).Contents (Elt F) → (⟨S1x64, .f32⟩ : BufTy).Contents (Elt F) → (⟨S1x64, .f32⟩ : BufTy).Contents (Elt F)),
    StableHlo.unary main_call4_v3 main_call4_v4 ((broadcastInDim S131072x64 ![0, 1] bcast_S1x64_S131072x64_0_1) : (⟨S1x64, .f32⟩ : BufTy).Contents (Elt F) → (⟨S131072x64, .f32⟩ : BufTy).Contents (Elt F)),
    StableHlo.binary main_v280 main_call4_v4 main_call4_v5 (subf : (⟨S131072x64, .f32⟩ : BufTy).Contents (Elt F) → (⟨S131072x64, .f32⟩ : BufTy).Contents (Elt F) → (⟨S131072x64, .f32⟩ : BufTy).Contents (Elt F)),
    StableHlo.binary main_call4_v5 main_call4_v5 main_call4_v6 (mulf : (⟨S131072x64, .f32⟩ : BufTy).Contents (Elt F) → (⟨S131072x64, .f32⟩ : BufTy).Contents (Elt F) → (⟨S131072x64, .f32⟩ : BufTy).Contents (Elt F)) ]

/-- Operations 391 … 403 of @main (calls inlined), which write the buffers numbered 414 … 426. -/
abbrev st_bnSB1 : List (HloOp τ sig (Elt F)) :=
  [ StableHlo.unary main_c_48 main_call4_v7 ((sitofp .f32) : (⟨S_, .i32⟩ : BufTy).Contents (Elt F) → (⟨S_, .f32⟩ : BufTy).Contents (Elt F)),
    StableHlo.nullary main_call4_cst_1 (constant S_ .f32 0x48000000#32),
    StableHlo.binary main_call4_cst_1 main_call4_v7 main_call4_v8 (subf : (⟨S_, .f32⟩ : BufTy).Contents (Elt F) → (⟨S_, .f32⟩ : BufTy).Contents (Elt F) → (⟨S_, .f32⟩ : BufTy).Contents (Elt F)),
    StableHlo.nullary main_call4_cst_2 (constant S_ .f32 0x00000000#32),
    StableHlo.binary main_call4_v6 main_call4_cst_2 main_call4_v9 ((fun x v => Host.reduceAdd x v reducesTo_S131072x64_S64_d0 h_S_) : (⟨S131072x64, .f32⟩ : BufTy).Contents (Elt F) → (⟨S_, .f32⟩ : BufTy).Contents (Elt F) → (⟨S64, .f32⟩ : BufTy).Contents (Elt F)),
    StableHlo.unary main_call4_v8 main_call4_v10 ((broadcastInDim S64 ![] bcast_S_S64) : (⟨S_, .f32⟩ : BufTy).Contents (Elt F) → (⟨S64, .f32⟩ : BufTy).Contents (Elt F)),
    StableHlo.binary main_call4_v9 main_call4_v10 main_call4_v11 (Host.divf : (⟨S64, .f32⟩ : BufTy).Contents (Elt F) → (⟨S64, .f32⟩ : BufTy).Contents (Elt F) → (⟨S64, .f32⟩ : BufTy).Contents (Elt F)),
    StableHlo.nullary main_call4_cst_3 (constant S_ .f32 0x00000000#32),
    StableHlo.binary main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)),
    StableHlo.nullary main_call4_cst_4 (constant S_ .f32 0x7FC00000#32),
    StableHlo.unary main_call4_cst_4 main_call4_call0_v0 (id : (⟨S_, .f32⟩ : BufTy).Contents (Elt F) → (⟨S_, .f32⟩ : BufTy).Contents (Elt F)),
    StableHlo.unary main_call4_call0_v0 main_call4_call0_v1 ((broadcastInDim S64 ![] bcast_S_S64) : (⟨S_, .f32⟩ : BufTy).Contents (Elt F) → (⟨S64, .f32⟩ : BufTy).Contents (Elt F)),
    StableHlo.ternary main_call4_v12 main_call4_v11 main_call4_call0_v1 main_v289 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ]

/-- Operations 404 … 426 of @main (calls inlined), which write the buffers numbered 427 … 449. -/
abbrev st_bnTB1 : List (HloOp τ sig (Elt F)) :=
  [ StableHlo.unary main_v288 main_v290 (broadcastInDim S1x64 ![1] bcast_S64_S1x64_1 : (⟨S64, .f32⟩ : BufTy).Contents (Elt F) → (⟨S1x64, .f32⟩ : BufTy).Contents (Elt F)),
    StableHlo.unary main_v290 main_v291 (broadcastInDim S131072x64 ![0, 1] bcast_S1x64_S131072x64_0_1 : (⟨S1x64, .f32⟩ : BufTy).Contents (Elt F) → (⟨S131072x64, .f32⟩ : BufTy).Contents (Elt F)),
    StableHlo.binary main_v280 main_v291 main_v292 (subf : (⟨S131072x64, .f32⟩ : BufTy).Contents (Elt F) → (⟨S131072x64, .f32⟩ : BufTy).Contents (Elt F) → (⟨S131072x64, .f32⟩ : BufTy).Contents (Elt F)),
    StableHlo.nullary main_cst_49 (constant S_ .f32 0x3727C5AC#32),
    StableHlo.unary main_cst_49 main_v293 (broadcastInDim S64 ![] bcast_S_S64 : (⟨S_, .f32⟩ : BufTy).Contents (Elt F) → (⟨S64, .f32⟩ : BufTy).Contents (Elt F)),
    StableHlo.binary main_v289 main_v293 main_v294 (addf : (⟨S64, .f32⟩ : BufTy).Contents (Elt F) → (⟨S64, .f32⟩ : BufTy).Contents (Elt F) → (⟨S64, .f32⟩ : BufTy).Contents (Elt F)),
    StableHlo.unary main_v294 main_v295 (Host.rsqrt : (⟨S64, .f32⟩ : BufTy).Contents (Elt F) → (⟨S64, .f32⟩ : BufTy).Contents (Elt F)),
    StableHlo.unary main_v295 main_v296 (broadcastInDim S1x64 ![1] bcast_S64_S1x64_1 : (⟨S64, .f32⟩ : BufTy).Contents (Elt F) → (⟨S1x64, .f32⟩ : BufTy).Contents (Elt F)),
    StableHlo.unary main_v296 main_v297 (broadcastInDim S131072x64 ![0, 1] bcast_S1x64_S131072x64_0_1 : (⟨S1x64, .f32⟩ : BufTy).Contents (Elt F) → (⟨S131072x64, .f32⟩ : BufTy).Contents (Elt F)),
    StableHlo.binary main_v292 main_v297 main_v298 (mulf : (⟨S131072x64, .f32⟩ : BufTy).Contents (Elt F) → (⟨S131072x64, .f32⟩ : BufTy).Contents (Elt F) → (⟨S131072x64, .f32⟩ : BufTy).Contents (Elt F)),
    StableHlo.unary main_v283 main_v299 (broadcastInDim S1x64 ![1] bcast_S64_S1x64_1 : (⟨S64, .f32⟩ : BufTy).Contents (Elt F) → (⟨S1x64, .f32⟩ : BufTy).Contents (Elt F)),
    StableHlo.unary main_v299 main_v300 (broadcastInDim S131072x64 ![0, 1] bcast_S1x64_S131072x64_0_1 : (⟨S1x64, .f32⟩ : BufTy).Contents (Elt F) → (⟨S131072x64, .f32⟩ : BufTy).Contents (Elt F)),
    StableHlo.binary main_v298 main_v300 main_v301 (mulf : (⟨S131072x64, .f32⟩ : BufTy).Contents (Elt F) → (⟨S131072x64, .f32⟩ : BufTy).Contents (Elt F) → (⟨S131072x64, .f32⟩ : BufTy).Contents (Elt F)),
    StableHlo.unary main_v285 main_v302 (broadcastInDim S1x64 ![1] bcast_S64_S1x64_1 : (⟨S64, .f32⟩ : BufTy).Contents (Elt F) → (⟨S1x64, .f32⟩ : BufTy).Contents (Elt F)),
    StableHlo.unary main_v302 main_v303 (broadcastInDim S131072x64 ![0, 1] bcast_S1x64_S131072x64_0_1 : (⟨S1x64, .f32⟩ : BufTy).Contents (Elt F) → (⟨S131072x64, .f32⟩ : BufTy).Contents (Elt F)),
    StableHlo.binary main_v301 main_v303 main_v304 (addf : (⟨S131072x64, .f32⟩ : BufTy).Contents (Elt F) → (⟨S131072x64, .f32⟩ : BufTy).Contents (Elt F) → (⟨S131072x64, .f32⟩ : BufTy).Contents (Elt F)),
    StableHlo.nullary main_cst_50 (constant S_ .f32 0x00000000#32),
    StableHlo.unary main_cst_50 main_v305 (broadcastInDim S131072x64 ![] bcast_S_S131072x64 : (⟨S_, .f32⟩ : BufTy).Contents (Elt F) → (⟨S131072x64, .f32⟩ : BufTy).Contents (Elt F)),
    StableHlo.binary main_v304 main_v305 main_v306 (cmpf .oge : (⟨S131072x64, .f32⟩ : BufTy).Contents (Elt F) → (⟨S131072x64, .f32⟩ : BufTy).Contents (Elt F) → (⟨S131072x64, .i1⟩ : BufTy).Contents (Elt F)),
    StableHlo.nullary main_cst_51 (constant S_ .f32 0x3C23D70A#32),
    StableHlo.unary main_cst_51 main_v307 (broadcastInDim S131072x64 ![] bcast_S_S131072x64 : (⟨S_, .f32⟩ : BufTy).Contents (Elt F) → (⟨S131072x64, .f32⟩ : BufTy).Contents (Elt F)),
    StableHlo.binary main_v307 main_v304 main_v308 (mulf : (⟨S131072x64, .f32⟩ : BufTy).Contents (Elt F) → (⟨S131072x64, .f32⟩ : BufTy).Contents (Elt F) → (⟨S131072x64, .f32⟩ : BufTy).Contents (Elt F)),
    StableHlo.ternary main_v306 main_v304 main_v308 main_v309 (select : (⟨S131072x64, .i1⟩ : BufTy).Contents (Elt F) → (⟨S131072x64, .f32⟩ : BufTy).Contents (Elt F) → (⟨S131072x64, .f32⟩ : BufTy).Contents (Elt F) → (⟨S131072x64, .f32⟩ : BufTy).Contents (Elt F)) ]

/-- Operations 427 … 436 of @main (calls inlined), which write the buffers numbered 450 … 459. -/
abbrev st_bnPG1 : List (HloOp τ sig (Elt F)) :=
  [ StableHlo.unary main_arg8 main_v310 ((extractStridedSlice S1x64 ![1, 0] · slices_S2x64_S1x64_1_0) : (⟨S2x64, .f32⟩ : BufTy).Contents (Elt F) → (⟨S1x64, .f32⟩ : BufTy).Contents (Elt F)),
    StableHlo.reshape main_v310 main_v311 rfl shapeCasts_S1x64_S64,
    StableHlo.unary main_arg9 main_v312 ((extractStridedSlice S1x64 ![1, 0] · slices_S2x64_S1x64_1_0) : (⟨S2x64, .f32⟩ : BufTy).Contents (Elt F) → (⟨S1x64, .f32⟩ : BufTy).Contents (Elt F)),
    StableHlo.reshape main_v312 main_v313 rfl shapeCasts_S1x64_S64,
    StableHlo.nullary main_cst_52 (constant S_ .f32 0x00000000#32),
    StableHlo.binary main_v281 main_cst_52 main_v314 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    StableHlo.nullary main_cst_53 (constant S_ .f32 0x47000000#32),
    StableHlo.unary main_cst_53 main_v315 (broadcastInDim S64 ![] bcast_S_S64 : (⟨S_, .f32⟩ : BufTy).Contents (Elt F) → (⟨S64, .f32⟩ : BufTy).Contents (Elt F)),
    StableHlo.binary main_v314 main_v315 main_v316 (Host.divf : (⟨S64, .f32⟩ : BufTy).Contents (Elt F) → (⟨S64, .f32⟩ : BufTy).Contents (Elt F) → (⟨S64, .f32⟩ : BufTy).Contents (Elt F)),
    StableHlo.nullary main_c_54 (constantI S_ 32 0#32) ]

/-- Operations 437 … 445 of @main (calls inlined), which write the buffers numbered 460 … 468. -/
abbrev st_bnQG1 : List (HloOp τ sig (Elt F)) :=
  [ StableHlo.nullary main_call6_cst (constant S_ .f32 0x00000000#32),
    StableHlo.binary main_v281 main_call6_cst main_call6_v0 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    StableHlo.unary main_call6_v0 main_call6_v1 ((broadcastInDim S1x64 ![1] bcast_S64_S1x64_1) : (⟨S64, .f32⟩ : BufTy).Contents (Elt F) → (⟨S1x64, .f32⟩ : BufTy).Contents (Elt F)),
    StableHlo.nullary main_call6_cst_0 (constant S_ .f32 0x47000000#32),
    StableHlo.unary main_call6_cst_0 main_call6_v2 ((broadcastInDim S1x64 ![] bcast_S_S1x64) : (⟨S_, .f32⟩ : BufTy).Contents (Elt F) → (⟨S1x64, .f32⟩ : BufTy).Contents (Elt F)),
    StableHlo.binary main_call6_v1 main_call6_v2 main_call6_v3 (Host.divf : (⟨S1x64, .f32⟩ : BufTy).Contents (Elt F) → (⟨S1x64, .f32⟩ : BufTy).Contents (Elt F) → (⟨S1x64, .f32⟩ : BufTy).Contents (Elt F)),
    StableHlo.unary main_call6_v3 main_call6_v4 ((broadcastInDim S32768x64 ![0, 1] bcast_S1x64_S32768x64_0_1) : (⟨S1x64, .f32⟩ : BufTy).Contents (Elt F) → (⟨S32768x64, .f32⟩ : BufTy).Contents (Elt F)),
    StableHlo.binary main_v281 main_call6_v4 main_call6_v5 (subf : (⟨S32768x64, .f32⟩ : BufTy).Contents (Elt F) → (⟨S32768x64, .f32⟩ : BufTy).Contents (Elt F) → (⟨S32768x64, .f32⟩ : BufTy).Contents (Elt F)),
    StableHlo.binary main_call6_v5 main_call6_v5 main_call6_v6 (mulf : (⟨S32768x64, .f32⟩ : BufTy).Contents (Elt F) → (⟨S32768x64, .f32⟩ : BufTy).Contents (Elt F) → (⟨S32768x64, .f32⟩ : BufTy).Contents (Elt F)) ]

/-- Operations 446 … 458 of @main (calls inlined), which write the buffers numbered 469 … 481. -/
abbrev st_bnSG1 : List (HloOp τ sig (Elt F)) :=
  [ StableHlo.unary main_c_54 main_call6_v7 ((sitofp .f32) : (⟨S_, .i32⟩ : BufTy).Contents (Elt F) → (⟨S_, .f32⟩ : BufTy).Contents (Elt F)),
    StableHlo.nullary main_call6_cst_1 (constant S_ .f32 0x47000000#32),
    StableHlo.binary main_call6_cst_1 main_call6_v7 main_call6_v8 (subf : (⟨S_, .f32⟩ : BufTy).Contents (Elt F) → (⟨S_, .f32⟩ : BufTy).Contents (Elt F) → (⟨S_, .f32⟩ : BufTy).Contents (Elt F)),
    StableHlo.nullary main_call6_cst_2 (constant S_ .f32 0x00000000#32),
    StableHlo.binary main_call6_v6 main_call6_cst_2 main_call6_v9 ((fun x v => Host.reduceAdd x v reducesTo_S32768x64_S64_d0 h_S_) : (⟨S32768x64, .f32⟩ : BufTy).Contents (Elt F) → (⟨S_, .f32⟩ : BufTy).Contents (Elt F) → (⟨S64, .f32⟩ : BufTy).Contents (Elt F)),
    StableHlo.unary main_call6_v8 main_call6_v10 ((broadcastInDim S64 ![] bcast_S_S64) : (⟨S_, .f32⟩ : BufTy).Contents (Elt F) → (⟨S64, .f32⟩ : BufTy).Contents (Elt F)),
    StableHlo.binary main_call6_v9 main_call6_v10 main_call6_v11 (Host.divf : (⟨S64, .f32⟩ : BufTy).Contents (Elt F) → (⟨S64, .f32⟩ : BufTy).Contents (Elt F) → (⟨S64, .f32⟩ : BufTy).Contents (Elt F)),
    StableHlo.nullary main_call6_cst_3 (constant S_ .f32 0x00000000#32),
    StableHlo.binary main_call6_v8 main_call6_cst_3 main_call6_v12 ((cmpf .ogt) : (⟨S_, .f32⟩ : BufTy).Contents (Elt F) → (⟨S_, .f32⟩ : BufTy).Contents (Elt F) → (⟨S_, .i1⟩ : BufTy).Contents (Elt F)),
    StableHlo.nullary main_call6_cst_4 (constant S_ .f32 0x7FC00000#32),
    StableHlo.unary main_call6_cst_4 main_call6_call0_v0 (id : (⟨S_, .f32⟩ : BufTy).Contents (Elt F) → (⟨S_, .f32⟩ : BufTy).Contents (Elt F)),
    StableHlo.unary main_call6_call0_v0 main_call6_call0_v1 ((broadcastInDim S64 ![] bcast_S_S64) : (⟨S_, .f32⟩ : BufTy).Contents (Elt F) → (⟨S64, .f32⟩ : BufTy).Contents (Elt F)),
    StableHlo.ternary main_call6_v12 main_call6_v11 main_call6_call0_v1 main_v317 ((fun p a b => select (broadcastInDim S64 ![] bcast_S_S64 p) a b) : (⟨S_, .i1⟩ : BufTy).Contents (Elt F) → (⟨S64, .f32⟩ : BufTy).Contents (Elt F) → (⟨S64, .f32⟩ : BufTy).Contents (Elt F) → (⟨S64, .f32⟩ : BufTy).Contents (Elt F)) ]

/-- Operations 459 … 481 of @main (calls inlined), which write the buffers numbered 482 … 504. -/
abbrev st_bnTG1 : List (HloOp τ sig (Elt F)) :=
  [ StableHlo.unary main_v316 main_v318 (broadcastInDim S1x64 ![1] bcast_S64_S1x64_1 : (⟨S64, .f32⟩ : BufTy).Contents (Elt F) → (⟨S1x64, .f32⟩ : BufTy).Contents (Elt F)),
    StableHlo.unary main_v318 main_v319 (broadcastInDim S32768x64 ![0, 1] bcast_S1x64_S32768x64_0_1 : (⟨S1x64, .f32⟩ : BufTy).Contents (Elt F) → (⟨S32768x64, .f32⟩ : BufTy).Contents (Elt F)),
    StableHlo.binary main_v281 main_v319 main_v320 (subf : (⟨S32768x64, .f32⟩ : BufTy).Contents (Elt F) → (⟨S32768x64, .f32⟩ : BufTy).Contents (Elt F) → (⟨S32768x64, .f32⟩ : BufTy).Contents (Elt F)),
    StableHlo.nullary main_cst_55 (constant S_ .f32 0x3727C5AC#32),
    StableHlo.unary main_cst_55 main_v321 (broadcastInDim S64 ![] bcast_S_S64 : (⟨S_, .f32⟩ : BufTy).Contents (Elt F) → (⟨S64, .f32⟩ : BufTy).Contents (Elt F)),
    StableHlo.binary main_v317 main_v321 main_v322 (addf : (⟨S64, .f32⟩ : BufTy).Contents (Elt F) → (⟨S64, .f32⟩ : BufTy).Contents (Elt F) → (⟨S64, .f32⟩ : BufTy).Contents (Elt F)),
    StableHlo.unary main_v322 main_v323 (Host.rsqrt : (⟨S64, .f32⟩ : BufTy).Contents (Elt F) → (⟨S64, .f32⟩ : BufTy).Contents (Elt F)),
    StableHlo.unary main_v323 main_v324 (broadcastInDim S1x64 ![1] bcast_S64_S1x64_1 : (⟨S64, .f32⟩ : BufTy).Contents (Elt F) → (⟨S1x64, .f32⟩ : BufTy).Contents (Elt F)),
    StableHlo.unary main_v324 main_v325 (broadcastInDim S32768x64 ![0, 1] bcast_S1x64_S32768x64_0_1 : (⟨S1x64, .f32⟩ : BufTy).Contents (Elt F) → (⟨S32768x64, .f32⟩ : BufTy).Contents (Elt F)),
    StableHlo.binary main_v320 main_v325 main_v326 (mulf : (⟨S32768x64, .f32⟩ : BufTy).Contents (Elt F) → (⟨S32768x64, .f32⟩ : BufTy).Contents (Elt F) → (⟨S32768x64, .f32⟩ : BufTy).Contents (Elt F)),
    StableHlo.unary main_v311 main_v327 (broadcastInDim S1x64 ![1] bcast_S64_S1x64_1 : (⟨S64, .f32⟩ : BufTy).Contents (Elt F) → (⟨S1x64, .f32⟩ : BufTy).Contents (Elt F)),
    StableHlo.unary main_v327 main_v328 (broadcastInDim S32768x64 ![0, 1] bcast_S1x64_S32768x64_0_1 : (⟨S1x64, .f32⟩ : BufTy).Contents (Elt F) → (⟨S32768x64, .f32⟩ : BufTy).Contents (Elt F)),
    StableHlo.binary main_v326 main_v328 main_v329 (mulf : (⟨S32768x64, .f32⟩ : BufTy).Contents (Elt F) → (⟨S32768x64, .f32⟩ : BufTy).Contents (Elt F) → (⟨S32768x64, .f32⟩ : BufTy).Contents (Elt F)),
    StableHlo.unary main_v313 main_v330 (broadcastInDim S1x64 ![1] bcast_S64_S1x64_1 : (⟨S64, .f32⟩ : BufTy).Contents (Elt F) → (⟨S1x64, .f32⟩ : BufTy).Contents (Elt F)),
    StableHlo.unary main_v330 main_v331 (broadcastInDim S32768x64 ![0, 1] bcast_S1x64_S32768x64_0_1 : (⟨S1x64, .f32⟩ : BufTy).Contents (Elt F) → (⟨S32768x64, .f32⟩ : BufTy).Contents (Elt F)),
    StableHlo.binary main_v329 main_v331 main_v332 (addf : (⟨S32768x64, .f32⟩ : BufTy).Contents (Elt F) → (⟨S32768x64, .f32⟩ : BufTy).Contents (Elt F) → (⟨S32768x64, .f32⟩ : BufTy).Contents (Elt F)),
    StableHlo.nullary main_cst_56 (constant S_ .f32 0x00000000#32),
    StableHlo.unary main_cst_56 main_v333 (broadcastInDim S32768x64 ![] bcast_S_S32768x64 : (⟨S_, .f32⟩ : BufTy).Contents (Elt F) → (⟨S32768x64, .f32⟩ : BufTy).Contents (Elt F)),
    StableHlo.binary main_v332 main_v333 main_v334 (cmpf .oge : (⟨S32768x64, .f32⟩ : BufTy).Contents (Elt F) → (⟨S32768x64, .f32⟩ : BufTy).Contents (Elt F) → (⟨S32768x64, .i1⟩ : BufTy).Contents (Elt F)),
    StableHlo.nullary main_cst_57 (constant S_ .f32 0x3C23D70A#32),
    StableHlo.unary main_cst_57 main_v335 (broadcastInDim S32768x64 ![] bcast_S_S32768x64 : (⟨S_, .f32⟩ : BufTy).Contents (Elt F) → (⟨S32768x64, .f32⟩ : BufTy).Contents (Elt F)),
    StableHlo.binary main_v335 main_v332 main_v336 (mulf : (⟨S32768x64, .f32⟩ : BufTy).Contents (Elt F) → (⟨S32768x64, .f32⟩ : BufTy).Contents (Elt F) → (⟨S32768x64, .f32⟩ : BufTy).Contents (Elt F)),
    StableHlo.ternary main_v334 main_v332 main_v336 main_v337 (select : (⟨S32768x64, .i1⟩ : BufTy).Contents (Elt F) → (⟨S32768x64, .f32⟩ : BufTy).Contents (Elt F) → (⟨S32768x64, .f32⟩ : BufTy).Contents (Elt F) → (⟨S32768x64, .f32⟩ : BufTy).Contents (Elt F)) ]

/-- Operations 482 … 489 of @main (calls inlined), which write the buffers numbered 505 … 512. -/
abbrev st_t0B1 : List (HloOp τ sig (Elt F)) :=
  [ StableHlo.unary main_arg10 main_v338 ((extractStridedSlice S1x1x64x64 ![1, 0, 0, 0] · slices_S2x5x64x64_S1x1x64x64_1_0_0_0) : (⟨S2x5x64x64, .f32⟩ : BufTy).Contents (Elt F) → (⟨S1x1x64x64, .f32⟩ : BufTy).Contents (Elt F)),
    StableHlo.reshape main_v338 main_v339 rfl shapeCasts_S1x1x64x64_S64x64,
    StableHlo.binary main_v309 main_v339 main_v340 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.unary main_arg11 main_v341 ((extractStridedSlice S1x1x64 ![1, 0, 0] · slices_S2x5x64_S1x1x64_1_0_0) : (⟨S2x5x64, .f32⟩ : BufTy).Contents (Elt F) → (⟨S1x1x64, .f32⟩ : BufTy).Contents (Elt F)),
    StableHlo.reshape main_v341 main_v342 rfl shapeCasts_S1x1x64_S64,
    StableHlo.unary main_v342 main_v343 (broadcastInDim S1x64 ![1] bcast_S64_S1x64_1 : (⟨S64, .f32⟩ : BufTy).Contents (Elt F) → (⟨S1x64, .f32⟩ : BufTy).Contents (Elt F)),
    StableHlo.unary main_v343 main_v344 (broadcastInDim S131072x64 ![0, 1] bcast_S1x64_S131072x64_0_1 : (⟨S1x64, .f32⟩ : BufTy).Contents (Elt F) → (⟨S131072x64, .f32⟩ : BufTy).Contents (Elt F)),
    StableHlo.binary main_v340 main_v344 main_v345 (addf : (⟨S131072x64, .f32⟩ : BufTy).Contents (Elt F) → (⟨S131072x64, .f32⟩ : BufTy).Contents (Elt F) → (⟨S131072x64, .f32⟩ : BufTy).Contents (Elt F)) ]

/-- Operations 490 … 497 of @main (calls inlined), which write the buffers numbered 513 … 520. -/
abbrev st_t0G1 : List (HloOp τ sig (Elt F)) :=
  [ StableHlo.unary main_arg12 main_v346 ((extractStridedSlice S1x1x64x64 ![1, 0, 0, 0] · slices_S2x5x64x64_S1x1x64x64_1_0_0_0) : (⟨S2x5x64x64, .f32⟩ : BufTy).Contents (Elt F) → (⟨S1x1x64x64, .f32⟩ : BufTy).Contents (Elt F)),
    StableHlo.reshape main_v346 main_v347 rfl shapeCasts_S1x1x64x64_S64x64,
    StableHlo.binary main_v337 main_v347 main_v348 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.unary main_arg13 main_v349 ((extractStridedSlice S1x1x64 ![1, 0, 0] · slices_S2x5x64_S1x1x64_1_0_0) : (⟨S2x5x64, .f32⟩ : BufTy).Contents (Elt F) → (⟨S1x1x64, .f32⟩ : BufTy).Contents (Elt F)),
    StableHlo.reshape main_v349 main_v350 rfl shapeCasts_S1x1x64_S64,
    StableHlo.unary main_v350 main_v351 (broadcastInDim S1x64 ![1] bcast_S64_S1x64_1 : (⟨S64, .f32⟩ : BufTy).Contents (Elt F) → (⟨S1x64, .f32⟩ : BufTy).Contents (Elt F)),
    StableHlo.unary main_v351 main_v352 (broadcastInDim S32768x64 ![0, 1] bcast_S1x64_S32768x64_0_1 : (⟨S1x64, .f32⟩ : BufTy).Contents (Elt F) → (⟨S32768x64, .f32⟩ : BufTy).Contents (Elt F)),
    StableHlo.binary main_v348 main_v352 main_v353 (addf : (⟨S32768x64, .f32⟩ : BufTy).Contents (Elt F) → (⟨S32768x64, .f32⟩ : BufTy).Contents (Elt F) → (⟨S32768x64, .f32⟩ : BufTy).Contents (Elt F)) ]

end Cert.ReferenceIdeal.HRun

end
-- ==== Proof.RefStagesL1b.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- Operations 498 … 524 of @main (calls inlined), which write the buffers numbered 521 … 547. -/
abbrev st_shB1_1 : List (HloOp τ sig (Elt F)) :=
  [ StableHlo.nullary main_c_58 (constantI S_ 32 0#32),
    StableHlo.unary main_c_58 main_v354 (broadcastInDim S2097152 ![] bcast_S_S2097152 : (⟨S_, .i32⟩ : BufTy).Contents (Elt F) → (⟨S2097152, .i32⟩ : BufTy).Contents (Elt F)),
    StableHlo.binary main_v1 main_v354 main_v355 (cmpi .slt : (⟨S2097152, .i32⟩ : BufTy).Contents (Elt F) → (⟨S2097152, .i32⟩ : BufTy).Contents (Elt F) → (⟨S2097152, .i1⟩ : BufTy).Contents (Elt F)),
    StableHlo.nullary main_c_59 (constantI S_ 32 131072#32),
    StableHlo.unary main_c_59 main_v356 (broadcastInDim S2097152 ![] bcast_S_S2097152 : (⟨S_, .i32⟩ : BufTy).Contents (Elt F) → (⟨S2097152, .i32⟩ : BufTy).Contents (Elt F)),
    StableHlo.binary main_v1 main_v356 main_v357 (addi : (⟨S2097152, .i32⟩ : BufTy).Contents (Elt F) → (⟨S2097152, .i32⟩ : BufTy).Contents (Elt F) → (⟨S2097152, .i32⟩ : BufTy).Contents (Elt F)),
    StableHlo.ternary main_v355 main_v357 main_v1 main_v358 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v358 main_v359 (broadcastInDim S2097152x1 ![0] bcast_S2097152_S2097152x1_0 : (⟨S2097152, .i32⟩ : BufTy).Contents (Elt F) → (⟨S2097152x1, .i32⟩ : BufTy).Contents (Elt F)),
    StableHlo.binary main_v309 main_v359 main_v360 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_60 (constant S_ .f32 0x00000000#32),
    StableHlo.unary main_cst_60 main_v361 (broadcastInDim S131072x64 ![] bcast_S_S131072x64 : (⟨S_, .f32⟩ : BufTy).Contents (Elt F) → (⟨S131072x64, .f32⟩ : BufTy).Contents (Elt F)),
    StableHlo.unary main_v3 main_v362 (broadcastInDim S2097152x1 ![0] bcast_S2097152_S2097152x1_0 : (⟨S2097152, .i32⟩ : BufTy).Contents (Elt F) → (⟨S2097152x1, .i32⟩ : BufTy).Contents (Elt F)),
    StableHlo.ternary main_v361 main_v362 main_v360 main_v363 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_61 (constantI S_ 32 0#32),
    StableHlo.unary main_c_61 main_v364 (broadcastInDim S65536 ![] bcast_S_S65536 : (⟨S_, .i32⟩ : BufTy).Contents (Elt F) → (⟨S65536, .i32⟩ : BufTy).Contents (Elt F)),
    StableHlo.binary main_arg19 main_v364 main_v365 (cmpi .slt : (⟨S65536, .i32⟩ : BufTy).Contents (Elt F) → (⟨S65536, .i32⟩ : BufTy).Contents (Elt F) → (⟨S65536, .i1⟩ : BufTy).Contents (Elt F)),
    StableHlo.nullary main_c_62 (constantI S_ 32 32768#32),
    StableHlo.unary main_c_62 main_v366 (broadcastInDim S65536 ![] bcast_S_S65536 : (⟨S_, .i32⟩ : BufTy).Contents (Elt F) → (⟨S65536, .i32⟩ : BufTy).Contents (Elt F)),
    StableHlo.binary main_arg19 main_v366 main_v367 (addi : (⟨S65536, .i32⟩ : BufTy).Contents (Elt F) → (⟨S65536, .i32⟩ : BufTy).Contents (Elt F) → (⟨S65536, .i32⟩ : BufTy).Contents (Elt F)),
    StableHlo.ternary main_v365 main_v367 main_arg19 main_v368 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v368 main_v369 (broadcastInDim S65536x1 ![0] bcast_S65536_S65536x1_0 : (⟨S65536, .i32⟩ : BufTy).Contents (Elt F) → (⟨S65536x1, .i32⟩ : BufTy).Contents (Elt F)),
    StableHlo.binary main_v337 main_v369 main_v370 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_63 (constant S_ .f32 0x00000000#32),
    StableHlo.unary main_cst_63 main_v371 (broadcastInDim S131072x64 ![] bcast_S_S131072x64 : (⟨S_, .f32⟩ : BufTy).Contents (Elt F) → (⟨S131072x64, .f32⟩ : BufTy).Contents (Elt F)),
    StableHlo.unary main_arg20 main_v372 (broadcastInDim S65536x1 ![0] bcast_S65536_S65536x1_0 : (⟨S65536, .i32⟩ : BufTy).Contents (Elt F) → (⟨S65536x1, .i32⟩ : BufTy).Contents (Elt F)),
    StableHlo.ternary main_v371 main_v372 main_v370 main_v373 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)),
    StableHlo.binary main_v363 main_v373 main_v374 (addf : (⟨S131072x64, .f32⟩ : BufTy).Contents (Elt F) → (⟨S131072x64, .f32⟩ : BufTy).Contents (Elt F) → (⟨S131072x64, .f32⟩ : BufTy).Contents (Elt F)) ]

/-- Operations 525 … 537 of @main (calls inlined), which write the buffers numbered 548 … 560. -/
abbrev st_shG1_1 : List (HloOp τ sig (Elt F)) :=
  [ StableHlo.nullary main_c_64 (constantI S_ 32 0#32),
    StableHlo.unary main_c_64 main_v375 (broadcastInDim S65536 ![] bcast_S_S65536 : (⟨S_, .i32⟩ : BufTy).Contents (Elt F) → (⟨S65536, .i32⟩ : BufTy).Contents (Elt F)),
    StableHlo.binary main_arg21 main_v375 main_v376 (cmpi .slt : (⟨S65536, .i32⟩ : BufTy).Contents (Elt F) → (⟨S65536, .i32⟩ : BufTy).Contents (Elt F) → (⟨S65536, .i1⟩ : BufTy).Contents (Elt F)),
    StableHlo.nullary main_c_65 (constantI S_ 32 131072#32),
    StableHlo.unary main_c_65 main_v377 (broadcastInDim S65536 ![] bcast_S_S65536 : (⟨S_, .i32⟩ : BufTy).Contents (Elt F) → (⟨S65536, .i32⟩ : BufTy).Contents (Elt F)),
    StableHlo.binary main_arg21 main_v377 main_v378 (addi : (⟨S65536, .i32⟩ : BufTy).Contents (Elt F) → (⟨S65536, .i32⟩ : BufTy).Contents (Elt F) → (⟨S65536, .i32⟩ : BufTy).Contents (Elt F)),
    StableHlo.ternary main_v376 main_v378 main_arg21 main_v379 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v379 main_v380 (broadcastInDim S65536x1 ![0] bcast_S65536_S65536x1_0 : (⟨S65536, .i32⟩ : BufTy).Contents (Elt F) → (⟨S65536x1, .i32⟩ : BufTy).Contents (Elt F)),
    StableHlo.binary main_v309 main_v380 main_v381 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_66 (constant S_ .f32 0x00000000#32),
    StableHlo.unary main_cst_66 main_v382 (broadcastInDim S32768x64 ![] bcast_S_S32768x64 : (⟨S_, .f32⟩ : BufTy).Contents (Elt F) → (⟨S32768x64, .f32⟩ : BufTy).Contents (Elt F)),
    StableHlo.unary main_arg22 main_v383 (broadcastInDim S65536x1 ![0] bcast_S65536_S65536x1_0 : (⟨S65536, .i32⟩ : BufTy).Contents (Elt F) → (⟨S65536x1, .i32⟩ : BufTy).Contents (Elt F)),
    StableHlo.ternary main_v382 main_v383 main_v381 main_v384 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)) ]

/-- Operations 538 … 546 of @main (calls inlined), which write the buffers numbered 561 … 569. -/
abbrev st_acB1_1 : List (HloOp τ sig (Elt F)) :=
  [ StableHlo.unary main_arg10 main_v385 ((extractStridedSlice S1x1x64x64 ![1, 1, 0, 0] · slices_S2x5x64x64_S1x1x64x64_1_1_0_0) : (⟨S2x5x64x64, .f32⟩ : BufTy).Contents (Elt F) → (⟨S1x1x64x64, .f32⟩ : BufTy).Contents (Elt F)),
    StableHlo.reshape main_v385 main_v386 rfl shapeCasts_S1x1x64x64_S64x64,
    StableHlo.binary main_v374 main_v386 main_v387 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v345 main_v387 main_v388 (addf : (⟨S131072x64, .f32⟩ : BufTy).Contents (Elt F) → (⟨S131072x64, .f32⟩ : BufTy).Contents (Elt F) → (⟨S131072x64, .f32⟩ : BufTy).Contents (Elt F)),
    StableHlo.unary main_arg11 main_v389 ((extractStridedSlice S1x1x64 ![1, 1, 0] · slices_S2x5x64_S1x1x64_1_1_0) : (⟨S2x5x64, .f32⟩ : BufTy).Contents (Elt F) → (⟨S1x1x64, .f32⟩ : BufTy).Contents (Elt F)),
    StableHlo.reshape main_v389 main_v390 rfl shapeCasts_S1x1x64_S64,
    StableHlo.unary main_v390 main_v391 (broadcastInDim S1x64 ![1] bcast_S64_S1x64_1 : (⟨S64, .f32⟩ : BufTy).Contents (Elt F) → (⟨S1x64, .f32⟩ : BufTy).Contents (Elt F)),
    StableHlo.unary main_v391 main_v392 (broadcastInDim S131072x64 ![0, 1] bcast_S1x64_S131072x64_0_1 : (⟨S1x64, .f32⟩ : BufTy).Contents (Elt F) → (⟨S131072x64, .f32⟩ : BufTy).Contents (Elt F)),
    StableHlo.binary main_v388 main_v392 main_v393 (addf : (⟨S131072x64, .f32⟩ : BufTy).Contents (Elt F) → (⟨S131072x64, .f32⟩ : BufTy).Contents (Elt F) → (⟨S131072x64, .f32⟩ : BufTy).Contents (Elt F)) ]

/-- Operations 547 … 555 of @main (calls inlined), which write the buffers numbered 570 … 578. -/
abbrev st_acG1_1 : List (HloOp τ sig (Elt F)) :=
  [ StableHlo.unary main_arg12 main_v394 ((extractStridedSlice S1x1x64x64 ![1, 1, 0, 0] · slices_S2x5x64x64_S1x1x64x64_1_1_0_0) : (⟨S2x5x64x64, .f32⟩ : BufTy).Contents (Elt F) → (⟨S1x1x64x64, .f32⟩ : BufTy).Contents (Elt F)),
    StableHlo.reshape main_v394 main_v395 rfl shapeCasts_S1x1x64x64_S64x64,
    StableHlo.binary main_v384 main_v395 main_v396 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v353 main_v396 main_v397 (addf : (⟨S32768x64, .f32⟩ : BufTy).Contents (Elt F) → (⟨S32768x64, .f32⟩ : BufTy).Contents (Elt F) → (⟨S32768x64, .f32⟩ : BufTy).Contents (Elt F)),
    StableHlo.unary main_arg13 main_v398 ((extractStridedSlice S1x1x64 ![1, 1, 0] · slices_S2x5x64_S1x1x64_1_1_0) : (⟨S2x5x64, .f32⟩ : BufTy).Contents (Elt F) → (⟨S1x1x64, .f32⟩ : BufTy).Contents (Elt F)),
    StableHlo.reshape main_v398 main_v399 rfl shapeCasts_S1x1x64_S64,
    StableHlo.unary main_v399 main_v400 (broadcastInDim S1x64 ![1] bcast_S64_S1x64_1 : (⟨S64, .f32⟩ : BufTy).Contents (Elt F) → (⟨S1x64, .f32⟩ : BufTy).Contents (Elt F)),
    StableHlo.unary main_v400 main_v401 (broadcastInDim S32768x64 ![0, 1] bcast_S1x64_S32768x64_0_1 : (⟨S1x64, .f32⟩ : BufTy).Contents (Elt F) → (⟨S32768x64, .f32⟩ : BufTy).Contents (Elt F)),
    StableHlo.binary main_v397 main_v401 main_v402 (addf : (⟨S32768x64, .f32⟩ : BufTy).Contents (Elt F) → (⟨S32768x64, .f32⟩ : BufTy).Contents (Elt F) → (⟨S32768x64, .f32⟩ : BufTy).Contents (Elt F)) ]

/-- Operations 556 … 582 of @main (calls inlined), which write the buffers numbered 579 … 605. -/
abbrev st_shB1_2 : List (HloOp τ sig (Elt F)) :=
  [ StableHlo.nullary main_c_67 (constantI S_ 32 0#32),
    StableHlo.unary main_c_67 main_v403 (broadcastInDim S2097152 ![] bcast_S_S2097152 : (⟨S_, .i32⟩ : BufTy).Contents (Elt F) → (⟨S2097152, .i32⟩ : BufTy).Contents (Elt F)),
    StableHlo.binary main_v1 main_v403 main_v404 (cmpi .slt : (⟨S2097152, .i32⟩ : BufTy).Contents (Elt F) → (⟨S2097152, .i32⟩ : BufTy).Contents (Elt F) → (⟨S2097152, .i1⟩ : BufTy).Contents (Elt F)),
    StableHlo.nullary main_c_68 (constantI S_ 32 131072#32),
    StableHlo.unary main_c_68 main_v405 (broadcastInDim S2097152 ![] bcast_S_S2097152 : (⟨S_, .i32⟩ : BufTy).Contents (Elt F) → (⟨S2097152, .i32⟩ : BufTy).Contents (Elt F)),
    StableHlo.binary main_v1 main_v405 main_v406 (addi : (⟨S2097152, .i32⟩ : BufTy).Contents (Elt F) → (⟨S2097152, .i32⟩ : BufTy).Contents (Elt F) → (⟨S2097152, .i32⟩ : BufTy).Contents (Elt F)),
    StableHlo.ternary main_v404 main_v406 main_v1 main_v407 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v407 main_v408 (broadcastInDim S2097152x1 ![0] bcast_S2097152_S2097152x1_0 : (⟨S2097152, .i32⟩ : BufTy).Contents (Elt F) → (⟨S2097152x1, .i32⟩ : BufTy).Contents (Elt F)),
    StableHlo.binary main_v374 main_v408 main_v409 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_69 (constant S_ .f32 0x00000000#32),
    StableHlo.unary main_cst_69 main_v410 (broadcastInDim S131072x64 ![] bcast_S_S131072x64 : (⟨S_, .f32⟩ : BufTy).Contents (Elt F) → (⟨S131072x64, .f32⟩ : BufTy).Contents (Elt F)),
    StableHlo.unary main_v3 main_v411 (broadcastInDim S2097152x1 ![0] bcast_S2097152_S2097152x1_0 : (⟨S2097152, .i32⟩ : BufTy).Contents (Elt F) → (⟨S2097152x1, .i32⟩ : BufTy).Contents (Elt F)),
    StableHlo.ternary main_v410 main_v411 main_v409 main_v412 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_70 (constantI S_ 32 0#32),
    StableHlo.unary main_c_70 main_v413 (broadcastInDim S65536 ![] bcast_S_S65536 : (⟨S_, .i32⟩ : BufTy).Contents (Elt F) → (⟨S65536, .i32⟩ : BufTy).Contents (Elt F)),
    StableHlo.binary main_arg19 main_v413 main_v414 (cmpi .slt : (⟨S65536, .i32⟩ : BufTy).Contents (Elt F) → (⟨S65536, .i32⟩ : BufTy).Contents (Elt F) → (⟨S65536, .i1⟩ : BufTy).Contents (Elt F)),
    StableHlo.nullary main_c_71 (constantI S_ 32 32768#32),
    StableHlo.unary main_c_71 main_v415 (broadcastInDim S65536 ![] bcast_S_S65536 : (⟨S_, .i32⟩ : BufTy).Contents (Elt F) → (⟨S65536, .i32⟩ : BufTy).Contents (Elt F)),
    StableHlo.binary main_arg19 main_v415 main_v416 (addi : (⟨S65536, .i32⟩ : BufTy).Contents (Elt F) → (⟨S65536, .i32⟩ : BufTy).Contents (Elt F) → (⟨S65536, .i32⟩ : BufTy).Contents (Elt F)),
    StableHlo.ternary main_v414 main_v416 main_arg19 main_v417 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v417 main_v418 (broadcastInDim S65536x1 ![0] bcast_S65536_S65536x1_0 : (⟨S65536, .i32⟩ : BufTy).Contents (Elt F) → (⟨S65536x1, .i32⟩ : BufTy).Contents (Elt F)),
    StableHlo.binary main_v384 main_v418 main_v419 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_72 (constant S_ .f32 0x00000000#32),
    StableHlo.unary main_cst_72 main_v420 (broadcastInDim S131072x64 ![] bcast_S_S131072x64 : (⟨S_, .f32⟩ : BufTy).Contents (Elt F) → (⟨S131072x64, .f32⟩ : BufTy).Contents (Elt F)),
    StableHlo.unary main_arg20 main_v421 (broadcastInDim S65536x1 ![0] bcast_S65536_S65536x1_0 : (⟨S65536, .i32⟩ : BufTy).Contents (Elt F) → (⟨S65536x1, .i32⟩ : BufTy).Contents (Elt F)),
    StableHlo.ternary main_v420 main_v421 main_v419 main_v422 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)),
    StableHlo.binary main_v412 main_v422 main_v423 (addf : (⟨S131072x64, .f32⟩ : BufTy).Contents (Elt F) → (⟨S131072x64, .f32⟩ : BufTy).Contents (Elt F) → (⟨S131072x64, .f32⟩ : BufTy).Contents (Elt F)) ]

/-- Operations 583 … 595 of @main (calls inlined), which write the buffers numbered 606 … 618. -/
abbrev st_shG1_2 : List (HloOp τ sig (Elt F)) :=
  [ StableHlo.nullary main_c_73 (constantI S_ 32 0#32),
    StableHlo.unary main_c_73 main_v424 (broadcastInDim S65536 ![] bcast_S_S65536 : (⟨S_, .i32⟩ : BufTy).Contents (Elt F) → (⟨S65536, .i32⟩ : BufTy).Contents (Elt F)),
    StableHlo.binary main_arg21 main_v424 main_v425 (cmpi .slt : (⟨S65536, .i32⟩ : BufTy).Contents (Elt F) → (⟨S65536, .i32⟩ : BufTy).Contents (Elt F) → (⟨S65536, .i1⟩ : BufTy).Contents (Elt F)),
    StableHlo.nullary main_c_74 (constantI S_ 32 131072#32),
    StableHlo.unary main_c_74 main_v426 (broadcastInDim S65536 ![] bcast_S_S65536 : (⟨S_, .i32⟩ : BufTy).Contents (Elt F) → (⟨S65536, .i32⟩ : BufTy).Contents (Elt F)),
    StableHlo.binary main_arg21 main_v426 main_v427 (addi : (⟨S65536, .i32⟩ : BufTy).Contents (Elt F) → (⟨S65536, .i32⟩ : BufTy).Contents (Elt F) → (⟨S65536, .i32⟩ : BufTy).Contents (Elt F)),
    StableHlo.ternary main_v425 main_v427 main_arg21 main_v428 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v428 main_v429 (broadcastInDim S65536x1 ![0] bcast_S65536_S65536x1_0 : (⟨S65536, .i32⟩ : BufTy).Contents (Elt F) → (⟨S65536x1, .i32⟩ : BufTy).Contents (Elt F)),
    StableHlo.binary main_v374 main_v429 main_v430 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_75 (constant S_ .f32 0x00000000#32),
    StableHlo.unary main_cst_75 main_v431 (broadcastInDim S32768x64 ![] bcast_S_S32768x64 : (⟨S_, .f32⟩ : BufTy).Contents (Elt F) → (⟨S32768x64, .f32⟩ : BufTy).Contents (Elt F)),
    StableHlo.unary main_arg22 main_v432 (broadcastInDim S65536x1 ![0] bcast_S65536_S65536x1_0 : (⟨S65536, .i32⟩ : BufTy).Contents (Elt F) → (⟨S65536x1, .i32⟩ : BufTy).Contents (Elt F)),
    StableHlo.ternary main_v431 main_v432 main_v430 main_v433 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)) ]

/-- Operations 596 … 604 of @main (calls inlined), which write the buffers numbered 619 … 627. -/
abbrev st_acB1_2 : List (HloOp τ sig (Elt F)) :=
  [ StableHlo.unary main_arg10 main_v434 ((extractStridedSlice S1x1x64x64 ![1, 2, 0, 0] · slices_S2x5x64x64_S1x1x64x64_1_2_0_0) : (⟨S2x5x64x64, .f32⟩ : BufTy).Contents (Elt F) → (⟨S1x1x64x64, .f32⟩ : BufTy).Contents (Elt F)),
    StableHlo.reshape main_v434 main_v435 rfl shapeCasts_S1x1x64x64_S64x64,
    StableHlo.binary main_v423 main_v435 main_v436 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v393 main_v436 main_v437 (addf : (⟨S131072x64, .f32⟩ : BufTy).Contents (Elt F) → (⟨S131072x64, .f32⟩ : BufTy).Contents (Elt F) → (⟨S131072x64, .f32⟩ : BufTy).Contents (Elt F)),
    StableHlo.unary main_arg11 main_v438 ((extractStridedSlice S1x1x64 ![1, 2, 0] · slices_S2x5x64_S1x1x64_1_2_0) : (⟨S2x5x64, .f32⟩ : BufTy).Contents (Elt F) → (⟨S1x1x64, .f32⟩ : BufTy).Contents (Elt F)),
    StableHlo.reshape main_v438 main_v439 rfl shapeCasts_S1x1x64_S64,
    StableHlo.unary main_v439 main_v440 (broadcastInDim S1x64 ![1] bcast_S64_S1x64_1 : (⟨S64, .f32⟩ : BufTy).Contents (Elt F) → (⟨S1x64, .f32⟩ : BufTy).Contents (Elt F)),
    StableHlo.unary main_v440 main_v441 (broadcastInDim S131072x64 ![0, 1] bcast_S1x64_S131072x64_0_1 : (⟨S1x64, .f32⟩ : BufTy).Contents (Elt F) → (⟨S131072x64, .f32⟩ : BufTy).Contents (Elt F)),
    StableHlo.binary main_v437 main_v441 main_v442 (addf : (⟨S131072x64, .f32⟩ : BufTy).Contents (Elt F) → (⟨S131072x64, .f32⟩ : BufTy).Contents (Elt F) → (⟨S131072x64, .f32⟩ : BufTy).Contents (Elt F)) ]

/-- Operations 605 … 613 of @main (calls inlined), which write the buffers numbered 628 … 636. -/
abbrev st_acG1_2 : List (HloOp τ sig (Elt F)) :=
  [ StableHlo.unary main_arg12 main_v443 ((extractStridedSlice S1x1x64x64 ![1, 2, 0, 0] · slices_S2x5x64x64_S1x1x64x64_1_2_0_0) : (⟨S2x5x64x64, .f32⟩ : BufTy).Contents (Elt F) → (⟨S1x1x64x64, .f32⟩ : BufTy).Contents (Elt F)),
    StableHlo.reshape main_v443 main_v444 rfl shapeCasts_S1x1x64x64_S64x64,
    StableHlo.binary main_v433 main_v444 main_v445 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v402 main_v445 main_v446 (addf : (⟨S32768x64, .f32⟩ : BufTy).Contents (Elt F) → (⟨S32768x64, .f32⟩ : BufTy).Contents (Elt F) → (⟨S32768x64, .f32⟩ : BufTy).Contents (Elt F)),
    StableHlo.unary main_arg13 main_v447 ((extractStridedSlice S1x1x64 ![1, 2, 0] · slices_S2x5x64_S1x1x64_1_2_0) : (⟨S2x5x64, .f32⟩ : BufTy).Contents (Elt F) → (⟨S1x1x64, .f32⟩ : BufTy).Contents (Elt F)),
    StableHlo.reshape main_v447 main_v448 rfl shapeCasts_S1x1x64_S64,
    StableHlo.unary main_v448 main_v449 (broadcastInDim S1x64 ![1] bcast_S64_S1x64_1 : (⟨S64, .f32⟩ : BufTy).Contents (Elt F) → (⟨S1x64, .f32⟩ : BufTy).Contents (Elt F)),
    StableHlo.unary main_v449 main_v450 (broadcastInDim S32768x64 ![0, 1] bcast_S1x64_S32768x64_0_1 : (⟨S1x64, .f32⟩ : BufTy).Contents (Elt F) → (⟨S32768x64, .f32⟩ : BufTy).Contents (Elt F)),
    StableHlo.binary main_v446 main_v450 main_v451 (addf : (⟨S32768x64, .f32⟩ : BufTy).Contents (Elt F) → (⟨S32768x64, .f32⟩ : BufTy).Contents (Elt F) → (⟨S32768x64, .f32⟩ : BufTy).Contents (Elt F)) ]

end Cert.ReferenceIdeal.HRun

end
-- ==== Proof.RefStagesL1c.lean ====
import proofs.«144873_j21182778704707_1_alg».proof.Proof.Gen.ReferenceIdeal
import Idealize.ShloMosaic.Lib.StableHlo.Run

set_option maxHeartbeats 4000000

noncomputable section

namespace Cert.ReferenceIdeal.HRun

open Cert.ReferenceIdeal Cert.ReferenceIdeal.Facts₀ Idealize.ShloMosaic Idealize.ShloMosaic.TcCoe Idealize.SL.Sem

variable {F : FTy → Type} [FloatOps F]

/-- Operations 614 … 640 of @main (calls inlined), which write the buffers numbered 637 … 663. -/
abbrev st_shB1_3 : List (HloOp τ sig (Elt F)) :=
  [ StableHlo.nullary main_c_76 (constantI S_ 32 0#32),
    StableHlo.unary main_c_76 main_v452 (broadcastInDim S2097152 ![] bcast_S_S2097152 : (⟨S_, .i32⟩ : BufTy).Contents (Elt F) → (⟨S2097152, .i32⟩ : BufTy).Contents (Elt F)),
    StableHlo.binary main_v1 main_v452 main_v453 (cmpi .slt : (⟨S2097152, .i32⟩ : BufTy).Contents (Elt F) → (⟨S2097152, .i32⟩ : BufTy).Contents (Elt F) → (⟨S2097152, .i1⟩ : BufTy).Contents (Elt F)),
    StableHlo.nullary main_c_77 (constantI S_ 32 131072#32),
    StableHlo.unary main_c_77 main_v454 (broadcastInDim S2097152 ![] bcast_S_S2097152 : (⟨S_, .i32⟩ : BufTy).Contents (Elt F) → (⟨S2097152, .i32⟩ : BufTy).Contents (Elt F)),
    StableHlo.binary main_v1 main_v454 main_v455 (addi : (⟨S2097152, .i32⟩ : BufTy).Contents (Elt F) → (⟨S2097152, .i32⟩ : BufTy).Contents (Elt F) → (⟨S2097152, .i32⟩ : BufTy).Contents (Elt F)),
    StableHlo.ternary main_v453 main_v455 main_v1 main_v456 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v456 main_v457 (broadcastInDim S2097152x1 ![0] bcast_S2097152_S2097152x1_0 : (⟨S2097152, .i32⟩ : BufTy).Contents (Elt F) → (⟨S2097152x1, .i32⟩ : BufTy).Contents (Elt F)),
    StableHlo.binary main_v423 main_v457 main_v458 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_78 (constant S_ .f32 0x00000000#32),
    StableHlo.unary main_cst_78 main_v459 (broadcastInDim S131072x64 ![] bcast_S_S131072x64 : (⟨S_, .f32⟩ : BufTy).Contents (Elt F) → (⟨S131072x64, .f32⟩ : BufTy).Contents (Elt F)),
    StableHlo.unary main_v3 main_v460 (broadcastInDim S2097152x1 ![0] bcast_S2097152_S2097152x1_0 : (⟨S2097152, .i32⟩ : BufTy).Contents (Elt F) → (⟨S2097152x1, .i32⟩ : BufTy).Contents (Elt F)),
    StableHlo.ternary main_v459 main_v460 main_v458 main_v461 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_79 (constantI S_ 32 0#32),
    StableHlo.unary main_c_79 main_v462 (broadcastInDim S65536 ![] bcast_S_S65536 : (⟨S_, .i32⟩ : BufTy).Contents (Elt F) → (⟨S65536, .i32⟩ : BufTy).Contents (Elt F)),
    StableHlo.binary main_arg19 main_v462 main_v463 (cmpi .slt : (⟨S65536, .i32⟩ : BufTy).Contents (Elt F) → (⟨S65536, .i32⟩ : BufTy).Contents (Elt F) → (⟨S65536, .i1⟩ : BufTy).Contents (Elt F)),
    StableHlo.nullary main_c_80 (constantI S_ 32 32768#32),
    StableHlo.unary main_c_80 main_v464 (broadcastInDim S65536 ![] bcast_S_S65536 : (⟨S_, .i32⟩ : BufTy).Contents (Elt F) → (⟨S65536, .i32⟩ : BufTy).Contents (Elt F)),
    StableHlo.binary main_arg19 main_v464 main_v465 (addi : (⟨S65536, .i32⟩ : BufTy).Contents (Elt F) → (⟨S65536, .i32⟩ : BufTy).Contents (Elt F) → (⟨S65536, .i32⟩ : BufTy).Contents (Elt F)),
    StableHlo.ternary main_v463 main_v465 main_arg19 main_v466 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v466 main_v467 (broadcastInDim S65536x1 ![0] bcast_S65536_S65536x1_0 : (⟨S65536, .i32⟩ : BufTy).Contents (Elt F) → (⟨S65536x1, .i32⟩ : BufTy).Contents (Elt F)),
    StableHlo.binary main_v433 main_v467 main_v468 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_81 (constant S_ .f32 0x00000000#32),
    StableHlo.unary main_cst_81 main_v469 (broadcastInDim S131072x64 ![] bcast_S_S131072x64 : (⟨S_, .f32⟩ : BufTy).Contents (Elt F) → (⟨S131072x64, .f32⟩ : BufTy).Contents (Elt F)),
    StableHlo.unary main_arg20 main_v470 (broadcastInDim S65536x1 ![0] bcast_S65536_S65536x1_0 : (⟨S65536, .i32⟩ : BufTy).Contents (Elt F) → (⟨S65536x1, .i32⟩ : BufTy).Contents (Elt F)),
    StableHlo.ternary main_v469 main_v470 main_v468 main_v471 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)),
    StableHlo.binary main_v461 main_v471 main_v472 (addf : (⟨S131072x64, .f32⟩ : BufTy).Contents (Elt F) → (⟨S131072x64, .f32⟩ : BufTy).Contents (Elt F) → (⟨S131072x64, .f32⟩ : BufTy).Contents (Elt F)) ]

/-- Operations 641 … 653 of @main (calls inlined), which write the buffers numbered 664 … 676. -/
abbrev st_shG1_3 : List (HloOp τ sig (Elt F)) :=
  [ StableHlo.nullary main_c_82 (constantI S_ 32 0#32),
    StableHlo.unary main_c_82 main_v473 (broadcastInDim S65536 ![] bcast_S_S65536 : (⟨S_, .i32⟩ : BufTy).Contents (Elt F) → (⟨S65536, .i32⟩ : BufTy).Contents (Elt F)),
    StableHlo.binary main_arg21 main_v473 main_v474 (cmpi .slt : (⟨S65536, .i32⟩ : BufTy).Contents (Elt F) → (⟨S65536, .i32⟩ : BufTy).Contents (Elt F) → (⟨S65536, .i1⟩ : BufTy).Contents (Elt F)),
    StableHlo.nullary main_c_83 (constantI S_ 32 131072#32),
    StableHlo.unary main_c_83 main_v475 (broadcastInDim S65536 ![] bcast_S_S65536 : (⟨S_, .i32⟩ : BufTy).Contents (Elt F) → (⟨S65536, .i32⟩ : BufTy).Contents (Elt F)),
    StableHlo.binary main_arg21 main_v475 main_v476 (addi : (⟨S65536, .i32⟩ : BufTy).Contents (Elt F) → (⟨S65536, .i32⟩ : BufTy).Contents (Elt F) → (⟨S65536, .i32⟩ : BufTy).Contents (Elt F)),
    StableHlo.ternary main_v474 main_v476 main_arg21 main_v477 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v477 main_v478 (broadcastInDim S65536x1 ![0] bcast_S65536_S65536x1_0 : (⟨S65536, .i32⟩ : BufTy).Contents (Elt F) → (⟨S65536x1, .i32⟩ : BufTy).Contents (Elt F)),
    StableHlo.binary main_v423 main_v478 main_v479 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_84 (constant S_ .f32 0x00000000#32),
    StableHlo.unary main_cst_84 main_v480 (broadcastInDim S32768x64 ![] bcast_S_S32768x64 : (⟨S_, .f32⟩ : BufTy).Contents (Elt F) → (⟨S32768x64, .f32⟩ : BufTy).Contents (Elt F)),
    StableHlo.unary main_arg22 main_v481 (broadcastInDim S65536x1 ![0] bcast_S65536_S65536x1_0 : (⟨S65536, .i32⟩ : BufTy).Contents (Elt F) → (⟨S65536x1, .i32⟩ : BufTy).Contents (Elt F)),
    StableHlo.ternary main_v480 main_v481 main_v479 main_v482 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)) ]

/-- Operations 654 … 662 of @main (calls inlined), which write the buffers numbered 677 … 685. -/
abbrev st_acB1_3 : List (HloOp τ sig (Elt F)) :=
  [ StableHlo.unary main_arg10 main_v483 ((extractStridedSlice S1x1x64x64 ![1, 3, 0, 0] · slices_S2x5x64x64_S1x1x64x64_1_3_0_0) : (⟨S2x5x64x64, .f32⟩ : BufTy).Contents (Elt F) → (⟨S1x1x64x64, .f32⟩ : BufTy).Contents (Elt F)),
    StableHlo.reshape main_v483 main_v484 rfl shapeCasts_S1x1x64x64_S64x64,
    StableHlo.binary main_v472 main_v484 main_v485 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v442 main_v485 main_v486 (addf : (⟨S131072x64, .f32⟩ : BufTy).Contents (Elt F) → (⟨S131072x64, .f32⟩ : BufTy).Contents (Elt F) → (⟨S131072x64, .f32⟩ : BufTy).Contents (Elt F)),
    StableHlo.unary main_arg11 main_v487 ((extractStridedSlice S1x1x64 ![1, 3, 0] · slices_S2x5x64_S1x1x64_1_3_0) : (⟨S2x5x64, .f32⟩ : BufTy).Contents (Elt F) → (⟨S1x1x64, .f32⟩ : BufTy).Contents (Elt F)),
    StableHlo.reshape main_v487 main_v488 rfl shapeCasts_S1x1x64_S64,
    StableHlo.unary main_v488 main_v489 (broadcastInDim S1x64 ![1] bcast_S64_S1x64_1 : (⟨S64, .f32⟩ : BufTy).Contents (Elt F) → (⟨S1x64, .f32⟩ : BufTy).Contents (Elt F)),
    StableHlo.unary main_v489 main_v490 (broadcastInDim S131072x64 ![0, 1] bcast_S1x64_S131072x64_0_1 : (⟨S1x64, .f32⟩ : BufTy).Contents (Elt F) → (⟨S131072x64, .f32⟩ : BufTy).Contents (Elt F)),
    StableHlo.binary main_v486 main_v490 main_v491 (addf : (⟨S131072x64, .f32⟩ : BufTy).Contents (Elt F) → (⟨S131072x64, .f32⟩ : BufTy).Contents (Elt F) → (⟨S131072x64, .f32⟩ : BufTy).Contents (Elt F)) ]

/-- Operations 663 … 671 of @main (calls inlined), which write the buffers numbered 686 … 694. -/
abbrev st_acG1_3 : List (HloOp τ sig (Elt F)) :=
  [ StableHlo.unary main_arg12 main_v492 ((extractStridedSlice S1x1x64x64 ![1, 3, 0, 0] · slices_S2x5x64x64_S1x1x64x64_1_3_0_0) : (⟨S2x5x64x64, .f32⟩ : BufTy).Contents (Elt F) → (⟨S1x1x64x64, .f32⟩ : BufTy).Contents (Elt F)),
    StableHlo.reshape main_v492 main_v493 rfl shapeCasts_S1x1x64x64_S64x64,
    StableHlo.binary main_v482 main_v493 main_v494 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v451 main_v494 main_v495 (addf : (⟨S32768x64, .f32⟩ : BufTy).Contents (Elt F) → (⟨S32768x64, .f32⟩ : BufTy).Contents (Elt F) → (⟨S32768x64, .f32⟩ : BufTy).Contents (Elt F)),
    StableHlo.unary main_arg13 main_v496 ((extractStridedSlice S1x1x64 ![1, 3, 0] · slices_S2x5x64_S1x1x64_1_3_0) : (⟨S2x5x64, .f32⟩ : BufTy).Contents (Elt F) → (⟨S1x1x64, .f32⟩ : BufTy).Contents (Elt F)),
    StableHlo.reshape main_v496 main_v497 rfl shapeCasts_S1x1x64_S64,
    StableHlo.unary main_v497 main_v498 (broadcastInDim S1x64 ![1] bcast_S64_S1x64_1 : (⟨S64, .f32⟩ : BufTy).Contents (Elt F) → (⟨S1x64, .f32⟩ : BufTy).Contents (Elt F)),
    StableHlo.unary main_v498 main_v499 (broadcastInDim S32768x64 ![0, 1] bcast_S1x64_S32768x64_0_1 : (⟨S1x64, .f32⟩ : BufTy).Contents (Elt F) → (⟨S32768x64, .f32⟩ : BufTy).Contents (Elt F)),
    StableHlo.binary main_v495 main_v499 main_v500 (addf : (⟨S32768x64, .f32⟩ : BufTy).Contents (Elt F) → (⟨S32768x64, .f32⟩ : BufTy).Contents (Elt F) → (⟨S32768x64, .f32⟩ : BufTy).Contents (Elt F)) ]

/-- Operations 672 … 698 of @main (calls inlined), which write the buffers numbered 695 … 721. -/
abbrev st_shB1_4 : List (HloOp τ sig (Elt F)) :=
  [ StableHlo.nullary main_c_85 (constantI S_ 32 0#32),
    StableHlo.unary main_c_85 main_v501 (broadcastInDim S2097152 ![] bcast_S_S2097152 : (⟨S_, .i32⟩ : BufTy).Contents (Elt F) → (⟨S2097152, .i32⟩ : BufTy).Contents (Elt F)),
    StableHlo.binary main_v1 main_v501 main_v502 (cmpi .slt : (⟨S2097152, .i32⟩ : BufTy).Contents (Elt F) → (⟨S2097152, .i32⟩ : BufTy).Contents (Elt F) → (⟨S2097152, .i1⟩ : BufTy).Contents (Elt F)),
    StableHlo.nullary main_c_86 (constantI S_ 32 131072#32),
    StableHlo.unary main_c_86 main_v503 (broadcastInDim S2097152 ![] bcast_S_S2097152 : (⟨S_, .i32⟩ : BufTy).Contents (Elt F) → (⟨S2097152, .i32⟩ : BufTy).Contents (Elt F)),
    StableHlo.binary main_v1 main_v503 main_v504 (addi : (⟨S2097152, .i32⟩ : BufTy).Contents (Elt F) → (⟨S2097152, .i32⟩ : BufTy).Contents (Elt F) → (⟨S2097152, .i32⟩ : BufTy).Contents (Elt F)),
    StableHlo.ternary main_v502 main_v504 main_v1 main_v505 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    StableHlo.unary main_v505 main_v506 (broadcastInDim S2097152x1 ![0] bcast_S2097152_S2097152x1_0 : (⟨S2097152, .i32⟩ : BufTy).Contents (Elt F) → (⟨S2097152x1, .i32⟩ : BufTy).Contents (Elt F)),
    StableHlo.binary main_v472 main_v506 main_v507 ((fun x i => Host.gather gather_S131072x64_S2097152x1_S2097152x64_1_0_n_n_0_1_164 x i) : (⟨S131072x64, .f32⟩ : BufTy).Contents (Elt F) → (⟨S2097152x1, .i32⟩ : BufTy).Contents (Elt F) → (⟨S2097152x64, .f32⟩ : BufTy).Contents (Elt F)),
    StableHlo.nullary main_cst_87 (constant S_ .f32 0x00000000#32),
    StableHlo.unary main_cst_87 main_v508 (broadcastInDim S131072x64 ![] bcast_S_S131072x64 : (⟨S_, .f32⟩ : BufTy).Contents (Elt F) → (⟨S131072x64, .f32⟩ : BufTy).Contents (Elt F)),
    StableHlo.unary main_v3 main_v509 (broadcastInDim S2097152x1 ![0] bcast_S2097152_S2097152x1_0 : (⟨S2097152, .i32⟩ : BufTy).Contents (Elt F) → (⟨S2097152x1, .i32⟩ : BufTy).Contents (Elt F)),
    StableHlo.ternary main_v508 main_v509 main_v507 main_v510 ((fun x i u => Host.scatterAdd scatter_S131072x64_S2097152x1_S2097152x64_1_0_0_1 x i u) : (⟨S131072x64, .f32⟩ : BufTy).Contents (Elt F) → (⟨S2097152x1, .i32⟩ : BufTy).Contents (Elt F) → (⟨S2097152x64, .f32⟩ : BufTy).Contents (Elt F) → (⟨S131072x64, .f32⟩ : BufTy).Contents (Elt F)),
    StableHlo.nullary main_c_88 (constantI S_ 32 0#32),
    StableHlo.unary main_c_88 main_v511 (broadcastInDim S65536 ![] bcast_S_S65536 : (⟨S_, .i32⟩ : BufTy).Contents (Elt F) → (⟨S65536, .i32⟩ : BufTy).Contents (Elt F)),
    StableHlo.binary main_arg19 main_v511 main_v512 (cmpi .slt : (⟨S65536, .i32⟩ : BufTy).Contents (Elt F) → (⟨S65536, .i32⟩ : BufTy).Contents (Elt F) → (⟨S65536, .i1⟩ : BufTy).Contents (Elt F)),
    StableHlo.nullary main_c_89 (constantI S_ 32 32768#32),
    StableHlo.unary main_c_89 main_v513 (broadcastInDim S65536 ![] bcast_S_S65536 : (⟨S_, .i32⟩ : BufTy).Contents (Elt F) → (⟨S65536, .i32⟩ : BufTy).Contents (Elt F)),
    StableHlo.binary main_arg19 main_v513 main_v514 (addi : (⟨S65536, .i32⟩ : BufTy).Contents (Elt F) → (⟨S65536, .i32⟩ : BufTy).Contents (Elt F) → (⟨S65536, .i32⟩ : BufTy).Contents (Elt F)),
    StableHlo.ternary main_v512 main_v514 main_arg19 main_v515 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v515 main_v516 (broadcastInDim S65536x1 ![0] bcast_S65536_S65536x1_0 : (⟨S65536, .i32⟩ : BufTy).Contents (Elt F) → (⟨S65536x1, .i32⟩ : BufTy).Contents (Elt F)),
    StableHlo.binary main_v482 main_v516 main_v517 ((fun x i => Host.gather gather_S32768x64_S65536x1_S65536x64_1_0_n_n_0_1_164 x i) : (⟨S32768x64, .f32⟩ : BufTy).Contents (Elt F) → (⟨S65536x1, .i32⟩ : BufTy).Contents (Elt F) → (⟨S65536x64, .f32⟩ : BufTy).Contents (Elt F)),
    StableHlo.nullary main_cst_90 (constant S_ .f32 0x00000000#32),
    StableHlo.unary main_cst_90 main_v518 (broadcastInDim S131072x64 ![] bcast_S_S131072x64 : (⟨S_, .f32⟩ : BufTy).Contents (Elt F) → (⟨S131072x64, .f32⟩ : BufTy).Contents (Elt F)),
    StableHlo.unary main_arg20 main_v519 (broadcastInDim S65536x1 ![0] bcast_S65536_S65536x1_0 : (⟨S65536, .i32⟩ : BufTy).Contents (Elt F) → (⟨S65536x1, .i32⟩ : BufTy).Contents (Elt F)),
    StableHlo.ternary main_v518 main_v519 main_v517 main_v520 ((fun x i u => Host.scatterAdd scatter_S131072x64_S65536x1_S65536x64_1_0_0_1 x i u) : (⟨S131072x64, .f32⟩ : BufTy).Contents (Elt F) → (⟨S65536x1, .i32⟩ : BufTy).Contents (Elt F) → (⟨S65536x64, .f32⟩ : BufTy).Contents (Elt F) → (⟨S131072x64, .f32⟩ : BufTy).Contents (Elt F)),
    StableHlo.binary main_v510 main_v520 main_v521 (addf : (⟨S131072x64, .f32⟩ : BufTy).Contents (Elt F) → (⟨S131072x64, .f32⟩ : BufTy).Contents (Elt F) → (⟨S131072x64, .f32⟩ : BufTy).Contents (Elt F)) ]

/-- Operations 699 … 711 of @main (calls inlined), which write the buffers numbered 722 … 734. -/
abbrev st_shG1_4 : List (HloOp τ sig (Elt F)) :=
  [ StableHlo.nullary main_c_91 (constantI S_ 32 0#32),
    StableHlo.unary main_c_91 main_v522 (broadcastInDim S65536 ![] bcast_S_S65536 : (⟨S_, .i32⟩ : BufTy).Contents (Elt F) → (⟨S65536, .i32⟩ : BufTy).Contents (Elt F)),
    StableHlo.binary main_arg21 main_v522 main_v523 (cmpi .slt : (⟨S65536, .i32⟩ : BufTy).Contents (Elt F) → (⟨S65536, .i32⟩ : BufTy).Contents (Elt F) → (⟨S65536, .i1⟩ : BufTy).Contents (Elt F)),
    StableHlo.nullary main_c_92 (constantI S_ 32 131072#32),
    StableHlo.unary main_c_92 main_v524 (broadcastInDim S65536 ![] bcast_S_S65536 : (⟨S_, .i32⟩ : BufTy).Contents (Elt F) → (⟨S65536, .i32⟩ : BufTy).Contents (Elt F)),
    StableHlo.binary main_arg21 main_v524 main_v525 (addi : (⟨S65536, .i32⟩ : BufTy).Contents (Elt F) → (⟨S65536, .i32⟩ : BufTy).Contents (Elt F) → (⟨S65536, .i32⟩ : BufTy).Contents (Elt F)),
    StableHlo.ternary main_v523 main_v525 main_arg21 main_v526 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v526 main_v527 (broadcastInDim S65536x1 ![0] bcast_S65536_S65536x1_0 : (⟨S65536, .i32⟩ : BufTy).Contents (Elt F) → (⟨S65536x1, .i32⟩ : BufTy).Contents (Elt F)),
    StableHlo.binary main_v472 main_v527 main_v528 ((fun x i => Host.gather gather_S131072x64_S65536x1_S65536x64_1_0_n_n_0_1_164 x i) : (⟨S131072x64, .f32⟩ : BufTy).Contents (Elt F) → (⟨S65536x1, .i32⟩ : BufTy).Contents (Elt F) → (⟨S65536x64, .f32⟩ : BufTy).Contents (Elt F)),
    StableHlo.nullary main_cst_93 (constant S_ .f32 0x00000000#32),
    StableHlo.unary main_cst_93 main_v529 (broadcastInDim S32768x64 ![] bcast_S_S32768x64 : (⟨S_, .f32⟩ : BufTy).Contents (Elt F) → (⟨S32768x64, .f32⟩ : BufTy).Contents (Elt F)),
    StableHlo.unary main_arg22 main_v530 (broadcastInDim S65536x1 ![0] bcast_S65536_S65536x1_0 : (⟨S65536, .i32⟩ : BufTy).Contents (Elt F) → (⟨S65536x1, .i32⟩ : BufTy).Contents (Elt F)),
    StableHlo.ternary main_v529 main_v530 main_v528 main_v531 ((fun x i u => Host.scatterAdd scatter_S32768x64_S65536x1_S65536x64_1_0_0_1 x i u) : (⟨S32768x64, .f32⟩ : BufTy).Contents (Elt F) → (⟨S65536x1, .i32⟩ : BufTy).Contents (Elt F) → (⟨S65536x64, .f32⟩ : BufTy).Contents (Elt F) → (⟨S32768x64, .f32⟩ : BufTy).Contents (Elt F)) ]

/-- Operations 712 … 720 of @main (calls inlined), which write the buffers numbered 735 … 743. -/
abbrev st_acB1_4 : List (HloOp τ sig (Elt F)) :=
  [ StableHlo.unary main_arg10 main_v532 ((extractStridedSlice S1x1x64x64 ![1, 4, 0, 0] · slices_S2x5x64x64_S1x1x64x64_1_4_0_0) : (⟨S2x5x64x64, .f32⟩ : BufTy).Contents (Elt F) → (⟨S1x1x64x64, .f32⟩ : BufTy).Contents (Elt F)),
    StableHlo.reshape main_v532 main_v533 rfl shapeCasts_S1x1x64x64_S64x64,
    StableHlo.binary main_v521 main_v533 main_v534 ((fun l r => Host.dotGeneral dot_S131072x64_S64x64_S131072x64_1_0_0_1_n_n none l r) : (⟨S131072x64, .f32⟩ : BufTy).Contents (Elt F) → (⟨S64x64, .f32⟩ : BufTy).Contents (Elt F) → (⟨S131072x64, .f32⟩ : BufTy).Contents (Elt F)),
    StableHlo.binary main_v491 main_v534 main_v535 (addf : (⟨S131072x64, .f32⟩ : BufTy).Contents (Elt F) → (⟨S131072x64, .f32⟩ : BufTy).Contents (Elt F) → (⟨S131072x64, .f32⟩ : BufTy).Contents (Elt F)),
    StableHlo.unary main_arg11 main_v536 ((extractStridedSlice S1x1x64 ![1, 4, 0] · slices_S2x5x64_S1x1x64_1_4_0) : (⟨S2x5x64, .f32⟩ : BufTy).Contents (Elt F) → (⟨S1x1x64, .f32⟩ : BufTy).Contents (Elt F)),
    StableHlo.reshape main_v536 main_v537 rfl shapeCasts_S1x1x64_S64,
    StableHlo.unary main_v537 main_v538 (broadcastInDim S1x64 ![1] bcast_S64_S1x64_1 : (⟨S64, .f32⟩ : BufTy).Contents (Elt F) → (⟨S1x64, .f32⟩ : BufTy).Contents (Elt F)),
    StableHlo.unary main_v538 main_v539 (broadcastInDim S131072x64 ![0, 1] bcast_S1x64_S131072x64_0_1 : (⟨S1x64, .f32⟩ : BufTy).Contents (Elt F) → (⟨S131072x64, .f32⟩ : BufTy).Contents (Elt F)),
    StableHlo.binary main_v535 main_v539 main_v540 (addf : (⟨S131072x64, .f32⟩ : BufTy).Contents (Elt F) → (⟨S131072x64, .f32⟩ : BufTy).Contents (Elt F) → (⟨S131072x64, .f32⟩ : BufTy).Contents (Elt F)) ]

/-- Operations 721 … 729 of @main (calls inlined), which write the buffers numbered 744 … 752. -/
abbrev st_acG1_4 : List (HloOp τ sig (Elt F)) :=
  [ StableHlo.unary main_arg12 main_v541 ((extractStridedSlice S1x1x64x64 ![1, 4, 0, 0] · slices_S2x5x64x64_S1x1x64x64_1_4_0_0) : (⟨S2x5x64x64, .f32⟩ : BufTy).Contents (Elt F) → (⟨S1x1x64x64, .f32⟩ : BufTy).Contents (Elt F)),
    StableHlo.reshape main_v541 main_v542 rfl shapeCasts_S1x1x64x64_S64x64,
    StableHlo.binary main_v531 main_v542 main_v543 ((fun l r => Host.dotGeneral dot_S32768x64_S64x64_S32768x64_1_0_0_1_n_n none l r) : (⟨S32768x64, .f32⟩ : BufTy).Contents (Elt F) → (⟨S64x64, .f32⟩ : BufTy).Contents (Elt F) → (⟨S32768x64, .f32⟩ : BufTy).Contents (Elt F)),
    StableHlo.binary main_v500 main_v543 main_v544 (addf : (⟨S32768x64, .f32⟩ : BufTy).Contents (Elt F) → (⟨S32768x64, .f32⟩ : BufTy).Contents (Elt F) → (⟨S32768x64, .f32⟩ : BufTy).Contents (Elt F)),
    StableHlo.unary main_arg13 main_v545 ((extractStridedSlice S1x1x64 ![1, 4, 0] · slices_S2x5x64_S1x1x64_1_4_0) : (⟨S2x5x64, .f32⟩ : BufTy).Contents (Elt F) → (⟨S1x1x64, .f32⟩ : BufTy).Contents (Elt F)),
    StableHlo.reshape main_v545 main_v546 rfl shapeCasts_S1x1x64_S64,
    StableHlo.unary main_v546 main_v547 (broadcastInDim S1x64 ![1] bcast_S64_S1x64_1 : (⟨S64, .f32⟩ : BufTy).Contents (Elt F) → (⟨S1x64, .f32⟩ : BufTy).Contents (Elt F)),
    StableHlo.unary main_v547 main_v548 (broadcastInDim S32768x64 ![0, 1] bcast_S1x64_S32768x64_0_1 : (⟨S1x64, .f32⟩ : BufTy).Contents (Elt F) → (⟨S32768x64, .f32⟩ : BufTy).Contents (Elt F)),
    StableHlo.binary main_v544 main_v548 main_v549 (addf : (⟨S32768x64, .f32⟩ : BufTy).Contents (Elt F) → (⟨S32768x64, .f32⟩ : BufTy).Contents (Elt F) → (⟨S32768x64, .f32⟩ : BufTy).Contents (Elt F)) ]

/-- Operations 730 … 730 of @main (calls inlined), which write the buffers numbered 753 … 753. -/
abbrev st_resB1 : List (HloOp τ sig (Elt F)) :=
  [ StableHlo.binary main_v280 main_v540 main_v550 (addf : (⟨S131072x64, .f32⟩ : BufTy).Contents (Elt F) → (⟨S131072x64, .f32⟩ : BufTy).Contents (Elt F) → (⟨S131072x64, .f32⟩ : BufTy).Contents (Elt F)) ]

/-- Operations 731 … 731 of @main (calls inlined), which write the buffers numbered 754 … 754. -/
abbrev st_resG1 : List (HloOp τ sig (Elt F)) :=
  [ StableHlo.binary main_v281 main_v549 main_v551 (addf : (⟨S32768x64, .f32⟩ : BufTy).Contents (Elt F) → (⟨S32768x64, .f32⟩ : BufTy).Contents (Elt F) → (⟨S32768x64, .f32⟩ : BufTy).Contents (Elt F)) ]

end Cert.ReferenceIdeal.HRun

end
-- ==== Proof.RefStageEqs1.lean ====
/-
  The named values of the network at the buffers the reference program computes them into, for residual block 1: from the
  equations the final contents satisfy at a stage's operations, each stage's result is the layer's function of the
  stage's inputs (the dense layers and taps by their entrywise reading, the batch-norm and the rectifier entry by entry
  through the broadcasts, the graph shifts as the composed term they are).
-/
import proofs.«144873_j21182778704707_1_alg».proof.Proof.RefSSA
import proofs.«144873_j21182778704707_1_alg».proof.Proof.RefStagesL1a
import proofs.«144873_j21182778704707_1_alg».proof.Proof.RefStagesL1b
import proofs.«144873_j21182778704707_1_alg».proof.Proof.RefStagesL1c
import proofs.«144873_j21182778704707_1_alg».proof.Proof.RefMath
import proofs.«144873_j21182778704707_1_alg».proof.Proof.KShift

set_option maxHeartbeats 4000000

noncomputable section

namespace Cert.ReferenceIdeal.HRun

open Cert.ReferenceIdeal Cert.ReferenceIdeal.Facts₀ Idealize.ShloMosaic Idealize.ShloMosaic.TcCoe Idealize.SL.Sem Idealize.ShloMosaic.StableHlo Idealize.ShloMosaic.ValueIdx

/-- The buffer of a reference in a valuation. -/
local notation:max W "⟦" b "⟧" => W (Proc.devRef Proc.tc b)

variable (W : Valuation τ sig (Elt Ideal))

set_option maxRecDepth 16384 in
theorem bnPB1_eq (h : (st_bnPB1 (F := Ideal)).Forall (Fix W)) :
    (∀ q : Fin 64, W⟦main_v283⟧ (ix1 q) = Cert.Hgcn.parRow 1 W⟦main_arg6⟧ (by decide) (ix2 (0 : Fin 1) q))
    ∧ (∀ q : Fin 64, W⟦main_v285⟧ (ix1 q) = Cert.Hgcn.parRow 1 W⟦main_arg7⟧ (by decide) (ix2 (0 : Fin 1) q))
    ∧ (∀ q : Fin 64, W⟦main_v288⟧ (ix1 q) = Cert.Hgcn.meanRow Cert.Hgcn.hrB Cert.Hgcn.h0 0x48000000#32 W⟦main_v280⟧ (ix2 (0 : Fin 1) q))
    ∧ W⟦main_c_48⟧ = constantI S_ 32 0#32 := by
  stage_eqs st_bnPB1 h
  obtain ⟨e0, e1, e2, e3, e4, e5, e6, e7, e8, e9⟩ := h
  refine ⟨fun q => ?_, fun q => ?_, fun q => ?_, e9⟩
  · rw [e1, e0, Cert.Hgcn.parRow, Cert.Hgcn.rowCast_apply]; rfl
  · rw [e3, e2, Cert.Hgcn.parRow, Cert.Hgcn.rowCast_apply]; rfl
  · simp only [e8, e7, e6, e5, e4, select_apply, cmpf_apply, sitofp_apply, mulf_apply, addf_apply, subf_apply, constant_apply, hostDivf_apply, hostRsqrt_apply, Cert.Hgcn.bcast0_apply', Cert.Hgcn.rows_apply', Cert.Hgcn.row_apply', id]; rfl

set_option maxRecDepth 16384 in
theorem bnQB1_eq (h : (st_bnQB1 (F := Ideal)).Forall (Fix W)) :
    W⟦main_call4_v6⟧ = Cert.Hgcn.centredSq W⟦main_v280⟧ (Cert.Hgcn.meanRow Cert.Hgcn.hrB Cert.Hgcn.h0 0x48000000#32 W⟦main_v280⟧) := by
  stage_eqs st_bnQB1 h
  funext j
  obtain ⟨p, q, rfl⟩ : ∃ (p : Fin 131072) (q : Fin 64), j = ix2 p q := ⟨j 0, j 1, eq_ix2 j⟩
  simp only [h, select_apply, cmpf_apply, sitofp_apply, mulf_apply, addf_apply, subf_apply, constant_apply, hostDivf_apply, hostRsqrt_apply, Cert.Hgcn.bcast0_apply', Cert.Hgcn.rows_apply', Cert.Hgcn.row_apply', id]
  rfl

set_option maxRecDepth 16384 in
theorem bnSB1_eq (h : (st_bnSB1 (F := Ideal)).Forall (Fix W)) (x : Cert.Hgcn.Mat 131072 64) (hc : W⟦main_c_48⟧ = constantI S_ 32 0#32)
    (hq : W⟦main_call4_v6⟧ = Cert.Hgcn.centredSq x (Cert.Hgcn.meanRow Cert.Hgcn.hrB Cert.Hgcn.h0 0x48000000#32 x)) :
    ∀ q : Fin 64, W⟦main_v289⟧ (ix1 q) = Cert.Hgcn.varRow Cert.Hgcn.hrB Cert.Hgcn.h0 0x48000000#32 x (ix2 (0 : Fin 1) q) := by
  stage_eqs st_bnSB1 h
  intro q
  simp only [h, hc, hq, select_apply, cmpf_apply, sitofp_apply, mulf_apply, addf_apply, subf_apply, constant_apply, hostDivf_apply, hostRsqrt_apply, Cert.Hgcn.bcast0_apply', Cert.Hgcn.rows_apply', Cert.Hgcn.row_apply', id]
  rfl

set_option maxRecDepth 16384 in
theorem bnTB1_eq (h : (st_bnTB1 (F := Ideal)).Forall (Fix W)) (γ β μ v : Cert.Hgcn.Mat 1 64)
    (hγ : ∀ q : Fin 64, W⟦main_v283⟧ (ix1 q) = γ (ix2 (0 : Fin 1) q)) (hβ : ∀ q : Fin 64, W⟦main_v285⟧ (ix1 q) = β (ix2 (0 : Fin 1) q))
    (hμ : ∀ q : Fin 64, W⟦main_v288⟧ (ix1 q) = μ (ix2 (0 : Fin 1) q)) (hv : ∀ q : Fin 64, W⟦main_v289⟧ (ix1 q) = v (ix2 (0 : Fin 1) q)) :
    W⟦main_v309⟧ = Cert.Hgcn.bnAct W⟦main_v280⟧ γ β μ v := by
  stage_eqs st_bnTB1 h
  funext j
  obtain ⟨p, q, rfl⟩ : ∃ (p : Fin 131072) (q : Fin 64), j = ix2 p q := ⟨j 0, j 1, eq_ix2 j⟩
  rw [Cert.Hgcn.bnAct_apply]
  simp only [h, hγ, hβ, hμ, hv, select_apply, cmpf_apply, sitofp_apply, mulf_apply, addf_apply, subf_apply, constant_apply, hostDivf_apply, hostRsqrt_apply, Cert.Hgcn.bcast0_apply', Cert.Hgcn.rows_apply', Cert.Hgcn.row_apply', id]
  rfl

set_option maxRecDepth 16384 in
theorem bnPG1_eq (h : (st_bnPG1 (F := Ideal)).Forall (Fix W)) :
    (∀ q : Fin 64, W⟦main_v311⟧ (ix1 q) = Cert.Hgcn.parRow 1 W⟦main_arg8⟧ (by decide) (ix2 (0 : Fin 1) q))
    ∧ (∀ q : Fin 64, W⟦main_v313⟧ (ix1 q) = Cert.Hgcn.parRow 1 W⟦main_arg9⟧ (by decide) (ix2 (0 : Fin 1) q))
    ∧ (∀ q : Fin 64, W⟦main_v316⟧ (ix1 q) = Cert.Hgcn.meanRow Cert.Hgcn.hrG Cert.Hgcn.h0 0x47000000#32 W⟦main_v281⟧ (ix2 (0 : Fin 1) q))
    ∧ W⟦main_c_54⟧ = constantI S_ 32 0#32 := by
  stage_eqs st_bnPG1 h
  obtain ⟨e0, e1, e2, e3, e4, e5, e6, e7, e8, e9⟩ := h
  refine ⟨fun q => ?_, fun q => ?_, fun q => ?_, e9⟩
  · rw [e1, e0, Cert.Hgcn.parRow, Cert.Hgcn.rowCast_apply]; rfl
  · rw [e3, e2, Cert.Hgcn.parRow, Cert.Hgcn.rowCast_apply]; rfl
  · simp only [e8, e7, e6, e5, e4, select_apply, cmpf_apply, sitofp_apply, mulf_apply, addf_apply, subf_apply, constant_apply, hostDivf_apply, hostRsqrt_apply, Cert.Hgcn.bcast0_apply', Cert.Hgcn.rows_apply', Cert.Hgcn.row_apply', id]; rfl

set_option maxRecDepth 16384 in
theorem bnQG1_eq (h : (st_bnQG1 (F := Ideal)).Forall (Fix W)) :
    W⟦main_call6_v6⟧ = Cert.Hgcn.centredSq W⟦main_v281⟧ (Cert.Hgcn.meanRow Cert.Hgcn.hrG Cert.Hgcn.h0 0x47000000#32 W⟦main_v281⟧) := by
  stage_eqs st_bnQG1 h
  funext j
  obtain ⟨p, q, rfl⟩ : ∃ (p : Fin 32768) (q : Fin 64), j = ix2 p q := ⟨j 0, j 1, eq_ix2 j⟩
  simp only [h, select_apply, cmpf_apply, sitofp_apply, mulf_apply, addf_apply, subf_apply, constant_apply, hostDivf_apply, hostRsqrt_apply, Cert.Hgcn.bcast0_apply', Cert.Hgcn.rows_apply', Cert.Hgcn.row_apply', id]
  rfl

set_option maxRecDepth 16384 in
theorem bnSG1_eq (h : (st_bnSG1 (F := Ideal)).Forall (Fix W)) (x : Cert.Hgcn.Mat 32768 64) (hc : W⟦main_c_54⟧ = constantI S_ 32 0#32)
    (hq : W⟦main_call6_v6⟧ = Cert.Hgcn.centredSq x (Cert.Hgcn.meanRow Cert.Hgcn.hrG Cert.Hgcn.h0 0x47000000#32 x)) :
    ∀ q : Fin 64, W⟦main_v317⟧ (ix1 q) = Cert.Hgcn.varRow Cert.Hgcn.hrG Cert.Hgcn.h0 0x47000000#32 x (ix2 (0 : Fin 1) q) := by
  stage_eqs st_bnSG1 h
  intro q
  simp only [h, hc, hq, select_apply, cmpf_apply, sitofp_apply, mulf_apply, addf_apply, subf_apply, constant_apply, hostDivf_apply, hostRsqrt_apply, Cert.Hgcn.bcast0_apply', Cert.Hgcn.rows_apply', Cert.Hgcn.row_apply', id]
  rfl

set_option maxRecDepth 16384 in
theorem bnTG1_eq (h : (st_bnTG1 (F := Ideal)).Forall (Fix W)) (γ β μ v : Cert.Hgcn.Mat 1 64)
    (hγ : ∀ q : Fin 64, W⟦main_v311⟧ (ix1 q) = γ (ix2 (0 : Fin 1) q)) (hβ : ∀ q : Fin 64, W⟦main_v313⟧ (ix1 q) = β (ix2 (0 : Fin 1) q))
    (hμ : ∀ q : Fin 64, W⟦main_v316⟧ (ix1 q) = μ (ix2 (0 : Fin 1) q)) (hv : ∀ q : Fin 64, W⟦main_v317⟧ (ix1 q) = v (ix2 (0 : Fin 1) q)) :
    W⟦main_v337⟧ = Cert.Hgcn.bnAct W⟦main_v281⟧ γ β μ v := by
  stage_eqs st_bnTG1 h
  funext j
  obtain ⟨p, q, rfl⟩ : ∃ (p : Fin 32768) (q : Fin 64), j = ix2 p q := ⟨j 0, j 1, eq_ix2 j⟩
  rw [Cert.Hgcn.bnAct_apply]
  simp only [h, hγ, hβ, hμ, hv, select_apply, cmpf_apply, sitofp_apply, mulf_apply, addf_apply, subf_apply, constant_apply, hostDivf_apply, hostRsqrt_apply, Cert.Hgcn.bcast0_apply', Cert.Hgcn.rows_apply', Cert.Hgcn.row_apply', id]
  rfl

set_option maxRecDepth 16384 in
theorem t0B1_eq (h : (st_t0B1 (F := Ideal)).Forall (Fix W)) :
    W⟦main_v345⟧ = Cert.Hgcn.lin W⟦main_v309⟧ (Cert.Hgcn.tapW 1 0 W⟦main_arg10⟧ (by decide)) (Cert.Hgcn.tapC 1 0 W⟦main_arg11⟧ (by decide)) := by
  stage_eqs st_t0B1 h
  obtain ⟨e0, e1, e2, e3, e4, e5, e6, e7⟩ := h
  rw [e7, e2, e6, e5, e1, e4, e0, e3]
  exact Cert.Hgcn.lin_host _ _ _ _ _ _

set_option maxRecDepth 16384 in
theorem t0G1_eq (h : (st_t0G1 (F := Ideal)).Forall (Fix W)) :
    W⟦main_v353⟧ = Cert.Hgcn.lin W⟦main_v337⟧ (Cert.Hgcn.tapW 1 0 W⟦main_arg12⟧ (by decide)) (Cert.Hgcn.tapC 1 0 W⟦main_arg13⟧ (by decide)) := by
  stage_eqs st_t0G1 h
  obtain ⟨e0, e1, e2, e3, e4, e5, e6, e7⟩ := h
  rw [e7, e2, e6, e5, e1, e4, e0, e3]
  exact Cert.Hgcn.lin_host _ _ _ _ _ _

set_option maxRecDepth 16384 in
theorem shB1_1_eq (h : (st_shB1_1 (F := Ideal)).Forall (Fix W)) :
    W⟦main_v374⟧ = Cert.KernelIdeal.HV.shiftBus W⟦main_v309⟧ W⟦main_v337⟧ W⟦main_v1⟧ W⟦main_v3⟧ W⟦main_arg19⟧ W⟦main_arg20⟧ := by
  stage_eqs st_shB1_1 h
  simp only [h]
  rfl

set_option maxRecDepth 16384 in
theorem shG1_1_eq (h : (st_shG1_1 (F := Ideal)).Forall (Fix W)) :
    W⟦main_v384⟧ = Cert.KernelIdeal.HV.shiftGen W⟦main_v309⟧ W⟦main_arg21⟧ W⟦main_arg22⟧ := by
  stage_eqs st_shG1_1 h
  simp only [h]
  rfl

set_option maxRecDepth 16384 in
theorem acB1_1_eq (h : (st_acB1_1 (F := Ideal)).Forall (Fix W)) :
    W⟦main_v393⟧ = Cert.Hgcn.tapAcc W⟦main_v345⟧ W⟦main_v374⟧ (Cert.Hgcn.tapW 1 1 W⟦main_arg10⟧ (by decide)) (Cert.Hgcn.tapC 1 1 W⟦main_arg11⟧ (by decide)) := by
  stage_eqs st_acB1_1 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem acG1_1_eq (h : (st_acG1_1 (F := Ideal)).Forall (Fix W)) :
    W⟦main_v402⟧ = Cert.Hgcn.tapAcc W⟦main_v353⟧ W⟦main_v384⟧ (Cert.Hgcn.tapW 1 1 W⟦main_arg12⟧ (by decide)) (Cert.Hgcn.tapC 1 1 W⟦main_arg13⟧ (by decide)) := by
  stage_eqs st_acG1_1 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem shB1_2_eq (h : (st_shB1_2 (F := Ideal)).Forall (Fix W)) :
    W⟦main_v423⟧ = Cert.KernelIdeal.HV.shiftBus W⟦main_v374⟧ W⟦main_v384⟧ W⟦main_v1⟧ W⟦main_v3⟧ W⟦main_arg19⟧ W⟦main_arg20⟧ := by
  stage_eqs st_shB1_2 h
  simp only [h]
  rfl

set_option maxRecDepth 16384 in
theorem shG1_2_eq (h : (st_shG1_2 (F := Ideal)).Forall (Fix W)) :
    W⟦main_v433⟧ = Cert.KernelIdeal.HV.shiftGen W⟦main_v374⟧ W⟦main_arg21⟧ W⟦main_arg22⟧ := by
  stage_eqs st_shG1_2 h
  simp only [h]
  rfl

set_option maxRecDepth 16384 in
theorem acB1_2_eq (h : (st_acB1_2 (F := Ideal)).Forall (Fix W)) :
    W⟦main_v442⟧ = Cert.Hgcn.tapAcc W⟦main_v393⟧ W⟦main_v423⟧ (Cert.Hgcn.tapW 1 2 W⟦main_arg10⟧ (by decide)) (Cert.Hgcn.tapC 1 2 W⟦main_arg11⟧ (by decide)) := by
  stage_eqs st_acB1_2 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem acG1_2_eq (h : (st_acG1_2 (F := Ideal)).Forall (Fix W)) :
    W⟦main_v451⟧ = Cert.Hgcn.tapAcc W⟦main_v402⟧ W⟦main_v433⟧ (Cert.Hgcn.tapW 1 2 W⟦main_arg12⟧ (by decide)) (Cert.Hgcn.tapC 1 2 W⟦main_arg13⟧ (by decide)) := by
  stage_eqs st_acG1_2 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem shB1_3_eq (h : (st_shB1_3 (F := Ideal)).Forall (Fix W)) :
    W⟦main_v472⟧ = Cert.KernelIdeal.HV.shiftBus W⟦main_v423⟧ W⟦main_v433⟧ W⟦main_v1⟧ W⟦main_v3⟧ W⟦main_arg19⟧ W⟦main_arg20⟧ := by
  stage_eqs st_shB1_3 h
  simp only [h]
  rfl

set_option maxRecDepth 16384 in
theorem shG1_3_eq (h : (st_shG1_3 (F := Ideal)).Forall (Fix W)) :
    W⟦main_v482⟧ = Cert.KernelIdeal.HV.shiftGen W⟦main_v423⟧ W⟦main_arg21⟧ W⟦main_arg22⟧ := by
  stage_eqs st_shG1_3 h
  simp only [h]
  rfl

set_option maxRecDepth 16384 in
theorem acB1_3_eq (h : (st_acB1_3 (F := Ideal)).Forall (Fix W)) :
    W⟦main_v491⟧ = Cert.Hgcn.tapAcc W⟦main_v442⟧ W⟦main_v472⟧ (Cert.Hgcn.tapW 1 3 W⟦main_arg10⟧ (by decide)) (Cert.Hgcn.tapC 1 3 W⟦main_arg11⟧ (by decide)) := by
  stage_eqs st_acB1_3 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem acG1_3_eq (h : (st_acG1_3 (F := Ideal)).Forall (Fix W)) :
    W⟦main_v500⟧ = Cert.Hgcn.tapAcc W⟦main_v451⟧ W⟦main_v482⟧ (Cert.Hgcn.tapW 1 3 W⟦main_arg12⟧ (by decide)) (Cert.Hgcn.tapC 1 3 W⟦main_arg13⟧ (by decide)) := by
  stage_eqs st_acG1_3 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem shB1_4_eq (h : (st_shB1_4 (F := Ideal)).Forall (Fix W)) :
    W⟦main_v521⟧ = Cert.KernelIdeal.HV.shiftBus W⟦main_v472⟧ W⟦main_v482⟧ W⟦main_v1⟧ W⟦main_v3⟧ W⟦main_arg19⟧ W⟦main_arg20⟧ := by
  stage_eqs st_shB1_4 h
  simp only [h]
  rfl

set_option maxRecDepth 16384 in
theorem shG1_4_eq (h : (st_shG1_4 (F := Ideal)).Forall (Fix W)) :
    W⟦main_v531⟧ = Cert.KernelIdeal.HV.shiftGen W⟦main_v472⟧ W⟦main_arg21⟧ W⟦main_arg22⟧ := by
  stage_eqs st_shG1_4 h
  simp only [h]
  rfl

set_option maxRecDepth 16384 in
theorem acB1_4_eq (h : (st_acB1_4 (F := Ideal)).Forall (Fix W)) :
    W⟦main_v540⟧ = Cert.Hgcn.tapAcc W⟦main_v491⟧ W⟦main_v521⟧ (Cert.Hgcn.tapW 1 4 W⟦main_arg10⟧ (by decide)) (Cert.Hgcn.tapC 1 4 W⟦main_arg11⟧ (by decide)) := by
  stage_eqs st_acB1_4 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem acG1_4_eq (h : (st_acG1_4 (F := Ideal)).Forall (Fix W)) :
    W⟦main_v549⟧ = Cert.Hgcn.tapAcc W⟦main_v500⟧ W⟦main_v531⟧ (Cert.Hgcn.tapW 1 4 W⟦main_arg12⟧ (by decide)) (Cert.Hgcn.tapC 1 4 W⟦main_arg13⟧ (by decide)) := by
  stage_eqs st_acG1_4 h
  obtain ⟨e0, e1, e2, e3, e4, e5, e6, e7, e8⟩ := h
  rw [e8, e3, e2, e7, e6, e1, e5, e0, e4]
  exact Cert.Hgcn.tapAcc_host _ _ _ _ _ _ _

set_option maxRecDepth 16384 in
theorem resB1_eq (h : (st_resB1 (F := Ideal)).Forall (Fix W)) :
    W⟦main_v550⟧ = (addf (W⟦main_v280⟧ : Cert.Hgcn.Mat 131072 64) (W⟦main_v540⟧ : Cert.Hgcn.Mat 131072 64) : Cert.Hgcn.Mat 131072 64) := by
  stage_eqs st_resB1 h
  exact h

set_option maxRecDepth 16384 in
theorem resG1_eq (h : (st_resG1 (F := Ideal)).Forall (Fix W)) :
    W⟦main_v551⟧ = (addf (W⟦main_v281⟧ : Cert.Hgcn.Mat 32768 64) (W⟦main_v549⟧ : Cert.Hgcn.Mat 32768 64) : Cert.Hgcn.Mat 32768 64) := by
  stage_eqs st_resG1 h
  exact h

end Cert.ReferenceIdeal.HRun

end
-- ==== Proof.RefValue.lean ====
/-
  The reference program's two results are the network's two outputs of its 23 argument arrays: the program's 740
  operations cut at the network's stages are the same line, numbered from 23 on, so the final contents satisfy every
  operation's equation, and stage by stage each named value of the network sits in the buffer the program computes it
  into.
-/
import proofs.«144873_j21182778704707_1_alg».proof.Proof.RefRun
import proofs.«144873_j21182778704707_1_alg».proof.Proof.RefStageEqsA
import proofs.«144873_j21182778704707_1_alg».proof.Proof.RefStageEqs0
import proofs.«144873_j21182778704707_1_alg».proof.Proof.RefStageEqs1

set_option maxHeartbeats 4000000

noncomputable section

namespace Cert.ReferenceIdeal.HRun

open Cert.ReferenceIdeal Cert.ReferenceIdeal.Facts₀ Idealize.ShloMosaic Idealize.ShloMosaic.TcCoe Idealize.SL.Sem Idealize.ShloMosaic.StableHlo Idealize.ShloMosaic.ValueIdx

variable {F : FTy → Type} [FloatOps F]

/-- The buffer of a reference in a valuation. -/
local notation:max W "⟦" b "⟧" => W (Proc.devRef Proc.tc b)

/-- The same 740 operations as `ops`, cut at the network's stages. -/
abbrev stagesAll : List (HloOp τ sig (Elt F)) :=
  st_edges ++ (st_inB ++ (st_inG ++ (st_bnPB0 ++ (st_bnQB0 ++ (st_bnSB0 ++ (st_bnTB0 ++ (st_bnPG0 ++ (st_bnQG0 ++ (st_bnSG0 ++ (st_bnTG0 ++ (st_t0B0 ++ (st_t0G0 ++ (st_shB0_1 ++ (st_shG0_1 ++ (st_acB0_1 ++ (st_acG0_1 ++ (st_shB0_2 ++ (st_shG0_2 ++ (st_acB0_2 ++ (st_acG0_2 ++ (st_shB0_3 ++ (st_shG0_3 ++ (st_acB0_3 ++ (st_acG0_3 ++ (st_shB0_4 ++ (st_shG0_4 ++ (st_acB0_4 ++ (st_acG0_4 ++ (st_resB0 ++ (st_resG0 ++ (st_bnPB1 ++ (st_bnQB1 ++ (st_bnSB1 ++ (st_bnTB1 ++ (st_bnPG1 ++ (st_bnQG1 ++ (st_bnSG1 ++ (st_bnTG1 ++ (st_t0B1 ++ (st_t0G1 ++ (st_shB1_1 ++ (st_shG1_1 ++ (st_acB1_1 ++ (st_acG1_1 ++ (st_shB1_2 ++ (st_shG1_2 ++ (st_acB1_2 ++ (st_acG1_2 ++ (st_shB1_3 ++ (st_shG1_3 ++ (st_acB1_3 ++ (st_acG1_3 ++ (st_shB1_4 ++ (st_shG1_4 ++ (st_acB1_4 ++ (st_acG1_4 ++ (st_resB1 ++ (st_resG1 ++ (st_outB ++ st_outG)))))))))))))))))))))))))))))))))))))))))))))))))))))))))))

set_option maxRecDepth 65536 in
/-- The two cuts are one list. -/
theorem ops_eq_stages : (ops : List (HloOp τ sig (Elt F))) = stagesAll := rfl

/-! Each stage is numbered from its first operation's position on. -/

theorem steps_edges : Steps 23 (st_edges : List (HloOp τ sig (Elt F))) := by steps_ops
theorem steps_inB : Steps 27 (st_inB : List (HloOp τ sig (Elt F))) := by steps_ops
theorem steps_inG : Steps 31 (st_inG : List (HloOp τ sig (Elt F))) := by steps_ops
theorem steps_bnPB0 : Steps 35 (st_bnPB0 : List (HloOp τ sig (Elt F))) := by steps_ops
theorem steps_bnQB0 : Steps 45 (st_bnQB0 : List (HloOp τ sig (Elt F))) := by steps_ops
theorem steps_bnSB0 : Steps 54 (st_bnSB0 : List (HloOp τ sig (Elt F))) := by steps_ops
theorem steps_bnTB0 : Steps 67 (st_bnTB0 : List (HloOp τ sig (Elt F))) := by steps_ops
theorem steps_bnPG0 : Steps 90 (st_bnPG0 : List (HloOp τ sig (Elt F))) := by steps_ops
theorem steps_bnQG0 : Steps 100 (st_bnQG0 : List (HloOp τ sig (Elt F))) := by steps_ops
theorem steps_bnSG0 : Steps 109 (st_bnSG0 : List (HloOp τ sig (Elt F))) := by steps_ops
theorem steps_bnTG0 : Steps 122 (st_bnTG0 : List (HloOp τ sig (Elt F))) := by steps_ops
theorem steps_t0B0 : Steps 145 (st_t0B0 : List (HloOp τ sig (Elt F))) := by steps_ops
theorem steps_t0G0 : Steps 153 (st_t0G0 : List (HloOp τ sig (Elt F))) := by steps_ops
theorem steps_shB0_1 : Steps 161 (st_shB0_1 : List (HloOp τ sig (Elt F))) := by steps_ops
theorem steps_shG0_1 : Steps 188 (st_shG0_1 : List (HloOp τ sig (Elt F))) := by steps_ops
theorem steps_acB0_1 : Steps 201 (st_acB0_1 : List (HloOp τ sig (Elt F))) := by steps_ops
theorem steps_acG0_1 : Steps 210 (st_acG0_1 : List (HloOp τ sig (Elt F))) := by steps_ops
theorem steps_shB0_2 : Steps 219 (st_shB0_2 : List (HloOp τ sig (Elt F))) := by steps_ops
theorem steps_shG0_2 : Steps 246 (st_shG0_2 : List (HloOp τ sig (Elt F))) := by steps_ops
theorem steps_acB0_2 : Steps 259 (st_acB0_2 : List (HloOp τ sig (Elt F))) := by steps_ops
theorem steps_acG0_2 : Steps 268 (st_acG0_2 : List (HloOp τ sig (Elt F))) := by steps_ops
theorem steps_shB0_3 : Steps 277 (st_shB0_3 : List (HloOp τ sig (Elt F))) := by steps_ops
theorem steps_shG0_3 : Steps 304 (st_shG0_3 : List (HloOp τ sig (Elt F))) := by steps_ops
theorem steps_acB0_3 : Steps 317 (st_acB0_3 : List (HloOp τ sig (Elt F))) := by steps_ops
theorem steps_acG0_3 : Steps 326 (st_acG0_3 : List (HloOp τ sig (Elt F))) := by steps_ops
theorem steps_shB0_4 : Steps 335 (st_shB0_4 : List (HloOp τ sig (Elt F))) := by steps_ops
theorem steps_shG0_4 : Steps 362 (st_shG0_4 : List (HloOp τ sig (Elt F))) := by steps_ops
theorem steps_acB0_4 : Steps 375 (st_acB0_4 : List (HloOp τ sig (Elt F))) := by steps_ops
theorem steps_acG0_4 : Steps 384 (st_acG0_4 : List (HloOp τ sig (Elt F))) := by steps_ops
theorem steps_resB0 : Steps 393 (st_resB0 : List (HloOp τ sig (Elt F))) := by steps_ops
theorem steps_resG0 : Steps 394 (st_resG0 : List (HloOp τ sig (Elt F))) := by steps_ops
theorem steps_bnPB1 : Steps 395 (st_bnPB1 : List (HloOp τ sig (Elt F))) := by steps_ops
theorem steps_bnQB1 : Steps 405 (st_bnQB1 : List (HloOp τ sig (Elt F))) := by steps_ops
theorem steps_bnSB1 : Steps 414 (st_bnSB1 : List (HloOp τ sig (Elt F))) := by steps_ops
theorem steps_bnTB1 : Steps 427 (st_bnTB1 : List (HloOp τ sig (Elt F))) := by steps_ops
theorem steps_bnPG1 : Steps 450 (st_bnPG1 : List (HloOp τ sig (Elt F))) := by steps_ops
theorem steps_bnQG1 : Steps 460 (st_bnQG1 : List (HloOp τ sig (Elt F))) := by steps_ops
theorem steps_bnSG1 : Steps 469 (st_bnSG1 : List (HloOp τ sig (Elt F))) := by steps_ops
theorem steps_bnTG1 : Steps 482 (st_bnTG1 : List (HloOp τ sig (Elt F))) := by steps_ops
theorem steps_t0B1 : Steps 505 (st_t0B1 : List (HloOp τ sig (Elt F))) := by steps_ops
theorem steps_t0G1 : Steps 513 (st_t0G1 : List (HloOp τ sig (Elt F))) := by steps_ops
theorem steps_shB1_1 : Steps 521 (st_shB1_1 : List (HloOp τ sig (Elt F))) := by steps_ops
theorem steps_shG1_1 : Steps 548 (st_shG1_1 : List (HloOp τ sig (Elt F))) := by steps_ops
theorem steps_acB1_1 : Steps 561 (st_acB1_1 : List (HloOp τ sig (Elt F))) := by steps_ops
theorem steps_acG1_1 : Steps 570 (st_acG1_1 : List (HloOp τ sig (Elt F))) := by steps_ops
theorem steps_shB1_2 : Steps 579 (st_shB1_2 : List (HloOp τ sig (Elt F))) := by steps_ops
theorem steps_shG1_2 : Steps 606 (st_shG1_2 : List (HloOp τ sig (Elt F))) := by steps_ops
theorem steps_acB1_2 : Steps 619 (st_acB1_2 : List (HloOp τ sig (Elt F))) := by steps_ops
theorem steps_acG1_2 : Steps 628 (st_acG1_2 : List (HloOp τ sig (Elt F))) := by steps_ops
theorem steps_shB1_3 : Steps 637 (st_shB1_3 : List (HloOp τ sig (Elt F))) := by steps_ops
theorem steps_shG1_3 : Steps 664 (st_shG1_3 : List (HloOp τ sig (Elt F))) := by steps_ops
theorem steps_acB1_3 : Steps 677 (st_acB1_3 : List (HloOp τ sig (Elt F))) := by steps_ops
theorem steps_acG1_3 : Steps 686 (st_acG1_3 : List (HloOp τ sig (Elt F))) := by steps_ops
theorem steps_shB1_4 : Steps 695 (st_shB1_4 : List (HloOp τ sig (Elt F))) := by steps_ops
theorem steps_shG1_4 : Steps 722 (st_shG1_4 : List (HloOp τ sig (Elt F))) := by steps_ops
theorem steps_acB1_4 : Steps 735 (st_acB1_4 : List (HloOp τ sig (Elt F))) := by steps_ops
theorem steps_acG1_4 : Steps 744 (st_acG1_4 : List (HloOp τ sig (Elt F))) := by steps_ops
theorem steps_resB1 : Steps 753 (st_resB1 : List (HloOp τ sig (Elt F))) := by steps_ops
theorem steps_resG1 : Steps 754 (st_resG1 : List (HloOp τ sig (Elt F))) := by steps_ops
theorem steps_outB : Steps 755 (st_outB : List (HloOp τ sig (Elt F))) := by steps_ops
theorem steps_outG : Steps 759 (st_outG : List (HloOp τ sig (Elt F))) := by steps_ops

/-- The whole line is numbered from 23 on. -/
theorem steps_all : Steps 23 (stagesAll : List (HloOp τ sig (Elt F))) :=
  Steps.append steps_edges (Steps.append steps_inB (Steps.append steps_inG (Steps.append steps_bnPB0 (Steps.append steps_bnQB0 (Steps.append steps_bnSB0 (Steps.append steps_bnTB0 (Steps.append steps_bnPG0 (Steps.append steps_bnQG0 (Steps.append steps_bnSG0 (Steps.append steps_bnTG0 (Steps.append steps_t0B0 (Steps.append steps_t0G0 (Steps.append steps_shB0_1 (Steps.append steps_shG0_1 (Steps.append steps_acB0_1 (Steps.append steps_acG0_1 (Steps.append steps_shB0_2 (Steps.append steps_shG0_2 (Steps.append steps_acB0_2 (Steps.append steps_acG0_2 (Steps.append steps_shB0_3 (Steps.append steps_shG0_3 (Steps.append steps_acB0_3 (Steps.append steps_acG0_3 (Steps.append steps_shB0_4 (Steps.append steps_shG0_4 (Steps.append steps_acB0_4 (Steps.append steps_acG0_4 (Steps.append steps_resB0 (Steps.append steps_resG0 (Steps.append steps_bnPB1 (Steps.append steps_bnQB1 (Steps.append steps_bnSB1 (Steps.append steps_bnTB1 (Steps.append steps_bnPG1 (Steps.append steps_bnQG1 (Steps.append steps_bnSG1 (Steps.append steps_bnTG1 (Steps.append steps_t0B1 (Steps.append steps_t0G1 (Steps.append steps_shB1_1 (Steps.append steps_shG1_1 (Steps.append steps_acB1_1 (Steps.append steps_acG1_1 (Steps.append steps_shB1_2 (Steps.append steps_shG1_2 (Steps.append steps_acB1_2 (Steps.append steps_acG1_2 (Steps.append steps_shB1_3 (Steps.append steps_shG1_3 (Steps.append steps_acB1_3 (Steps.append steps_acG1_3 (Steps.append steps_shB1_4 (Steps.append steps_shG1_4 (Steps.append steps_acB1_4 (Steps.append steps_acG1_4 (Steps.append steps_resB1 (Steps.append steps_resG1 (Steps.append steps_outB (steps_outG))))))))))))))))))))))))))))))))))))))))))))))))))))))))))))

/-- The 23 argument arrays held by a valuation. -/
def argsOf (W : Valuation τ sig (Elt Ideal)) : Cert.Hgcn.Args :=
  ⟨W⟦main_arg0⟧, W⟦main_arg1⟧, W⟦main_arg2⟧, W⟦main_arg3⟧, W⟦main_arg4⟧, W⟦main_arg5⟧, W⟦main_arg6⟧, W⟦main_arg7⟧, W⟦main_arg8⟧, W⟦main_arg9⟧, W⟦main_arg10⟧, W⟦main_arg11⟧, W⟦main_arg12⟧, W⟦main_arg13⟧, W⟦main_arg14⟧, W⟦main_arg15⟧, W⟦main_arg16⟧, W⟦main_arg17⟧, W⟦main_arg18⟧, W⟦main_arg19⟧, W⟦main_arg20⟧, W⟦main_arg21⟧, W⟦main_arg22⟧⟩

/-- Contents that satisfy every operation's equation hold, at the two result buffers, the network's two outputs of the
    argument arrays: stage by stage, each named value of the network at the buffer the program computes it into. -/
theorem out_of_fix (W : Valuation τ sig (Elt Ideal)) (H : (stagesAll (F := Ideal)).Forall (Fix W)) :
    W⟦main_v555⟧ = Cert.Hgcn.outB Cert.KernelIdeal.HV.shiftBus Cert.KernelIdeal.HV.shiftGen (argsOf W)
    ∧ W⟦main_v559⟧ = Cert.Hgcn.outG Cert.KernelIdeal.HV.shiftBus Cert.KernelIdeal.HV.shiftGen (argsOf W) := by
  obtain ⟨h_edges, H⟩ := List.forall_append.mp H
  obtain ⟨h_inB, H⟩ := List.forall_append.mp H
  obtain ⟨h_inG, H⟩ := List.forall_append.mp H
  obtain ⟨h_bnPB0, H⟩ := List.forall_append.mp H
  obtain ⟨h_bnQB0, H⟩ := List.forall_append.mp H
  obtain ⟨h_bnSB0, H⟩ := List.forall_append.mp H
  obtain ⟨h_bnTB0, H⟩ := List.forall_append.mp H
  obtain ⟨h_bnPG0, H⟩ := List.forall_append.mp H
  obtain ⟨h_bnQG0, H⟩ := List.forall_append.mp H
  obtain ⟨h_bnSG0, H⟩ := List.forall_append.mp H
  obtain ⟨h_bnTG0, H⟩ := List.forall_append.mp H
  obtain ⟨h_t0B0, H⟩ := List.forall_append.mp H
  obtain ⟨h_t0G0, H⟩ := List.forall_append.mp H
  obtain ⟨h_shB0_1, H⟩ := List.forall_append.mp H
  obtain ⟨h_shG0_1, H⟩ := List.forall_append.mp H
  obtain ⟨h_acB0_1, H⟩ := List.forall_append.mp H
  obtain ⟨h_acG0_1, H⟩ := List.forall_append.mp H
  obtain ⟨h_shB0_2, H⟩ := List.forall_append.mp H
  obtain ⟨h_shG0_2, H⟩ := List.forall_append.mp H
  obtain ⟨h_acB0_2, H⟩ := List.forall_append.mp H
  obtain ⟨h_acG0_2, H⟩ := List.forall_append.mp H
  obtain ⟨h_shB0_3, H⟩ := List.forall_append.mp H
  obtain ⟨h_shG0_3, H⟩ := List.forall_append.mp H
  obtain ⟨h_acB0_3, H⟩ := List.forall_append.mp H
  obtain ⟨h_acG0_3, H⟩ := List.forall_append.mp H
  obtain ⟨h_shB0_4, H⟩ := List.forall_append.mp H
  obtain ⟨h_shG0_4, H⟩ := List.forall_append.mp H
  obtain ⟨h_acB0_4, H⟩ := List.forall_append.mp H
  obtain ⟨h_acG0_4, H⟩ := List.forall_append.mp H
  obtain ⟨h_resB0, H⟩ := List.forall_append.mp H
  obtain ⟨h_resG0, H⟩ := List.forall_append.mp H
  obtain ⟨h_bnPB1, H⟩ := List.forall_append.mp H
  obtain ⟨h_bnQB1, H⟩ := List.forall_append.mp H
  obtain ⟨h_bnSB1, H⟩ := List.forall_append.mp H
  obtain ⟨h_bnTB1, H⟩ := List.forall_append.mp H
  obtain ⟨h_bnPG1, H⟩ := List.forall_append.mp H
  obtain ⟨h_bnQG1, H⟩ := List.forall_append.mp H
  obtain ⟨h_bnSG1, H⟩ := List.forall_append.mp H
  obtain ⟨h_bnTG1, H⟩ := List.forall_append.mp H
  obtain ⟨h_t0B1, H⟩ := List.forall_append.mp H
  obtain ⟨h_t0G1, H⟩ := List.forall_append.mp H
  obtain ⟨h_shB1_1, H⟩ := List.forall_append.mp H
  obtain ⟨h_shG1_1, H⟩ := List.forall_append.mp H
  obtain ⟨h_acB1_1, H⟩ := List.forall_append.mp H
  obtain ⟨h_acG1_1, H⟩ := List.forall_append.mp H
  obtain ⟨h_shB1_2, H⟩ := List.forall_append.mp H
  obtain ⟨h_shG1_2, H⟩ := List.forall_append.mp H
  obtain ⟨h_acB1_2, H⟩ := List.forall_append.mp H
  obtain ⟨h_acG1_2, H⟩ := List.forall_append.mp H
  obtain ⟨h_shB1_3, H⟩ := List.forall_append.mp H
  obtain ⟨h_shG1_3, H⟩ := List.forall_append.mp H
  obtain ⟨h_acB1_3, H⟩ := List.forall_append.mp H
  obtain ⟨h_acG1_3, H⟩ := List.forall_append.mp H
  obtain ⟨h_shB1_4, H⟩ := List.forall_append.mp H
  obtain ⟨h_shG1_4, H⟩ := List.forall_append.mp H
  obtain ⟨h_acB1_4, H⟩ := List.forall_append.mp H
  obtain ⟨h_acG1_4, H⟩ := List.forall_append.mp H
  obtain ⟨h_resB1, H⟩ := List.forall_append.mp H
  obtain ⟨h_resG1, H⟩ := List.forall_append.mp H
  obtain ⟨h_outB, H⟩ := List.forall_append.mp H
  have h_outG := H
  set A := argsOf W with hA
  obtain ⟨hv1, hv3⟩ := edges_eq W h_edges
  have hxb0 : W⟦main_v7⟧ = Cert.Hgcn.xb0 A := inB_eq W h_inB
  have hxg0 : W⟦main_v11⟧ = Cert.Hgcn.xg0 A := inG_eq W h_inG
  -- layer 0: the statistics, the normalised and rectified activations, tap 0
  obtain ⟨hγB0, hβB0, hμB0, hcB0⟩ := bnPB0_eq W h_bnPB0
  have hqB0 := bnQB0_eq W h_bnQB0
  have hvB0 := bnSB0_eq W h_bnSB0 _ hcB0 hqB0
  have hyB0 : W⟦main_v39⟧ = (Cert.Hgcn.t0 Cert.KernelIdeal.HV.shiftBus Cert.KernelIdeal.HV.shiftGen A 0).cb :=
    (bnTB0_eq W h_bnTB0 _ _ _ _ hγB0 hβB0 hμB0 hvB0).trans (by rw [hxb0]; rfl)
  obtain ⟨hγG0, hβG0, hμG0, hcG0⟩ := bnPG0_eq W h_bnPG0
  have hqG0 := bnQG0_eq W h_bnQG0
  have hvG0 := bnSG0_eq W h_bnSG0 _ hcG0 hqG0
  have hyG0 : W⟦main_v67⟧ = (Cert.Hgcn.t0 Cert.KernelIdeal.HV.shiftBus Cert.KernelIdeal.HV.shiftGen A 0).cg :=
    (bnTG0_eq W h_bnTG0 _ _ _ _ hγG0 hβG0 hμG0 hvG0).trans (by rw [hxg0]; rfl)
  have hzB0_0 : W⟦main_v75⟧ = (Cert.Hgcn.t0 Cert.KernelIdeal.HV.shiftBus Cert.KernelIdeal.HV.shiftGen A 0).zb := (t0B0_eq W h_t0B0).trans (by rw [hyB0]; rfl)
  have hzG0_0 : W⟦main_v83⟧ = (Cert.Hgcn.t0 Cert.KernelIdeal.HV.shiftBus Cert.KernelIdeal.HV.shiftGen A 0).zg := (t0G0_eq W h_t0G0).trans (by rw [hyG0]; rfl)
  have hcB0_0 := hyB0
  have hcG0_0 := hyG0
  -- tap 1
  have hcB0_1 : W⟦main_v104⟧ = (Cert.Hgcn.t0 Cert.KernelIdeal.HV.shiftBus Cert.KernelIdeal.HV.shiftGen A 1).cb := (shB0_1_eq W h_shB0_1).trans (by rw [hcB0_0, hcG0_0, hv1, hv3]; rfl)
  have hcG0_1 : W⟦main_v114⟧ = (Cert.Hgcn.t0 Cert.KernelIdeal.HV.shiftBus Cert.KernelIdeal.HV.shiftGen A 1).cg := (shG0_1_eq W h_shG0_1).trans (by rw [hcB0_0]; rfl)
  have hzB0_1 : W⟦main_v123⟧ = (Cert.Hgcn.t0 Cert.KernelIdeal.HV.shiftBus Cert.KernelIdeal.HV.shiftGen A 1).zb := (acB0_1_eq W h_acB0_1).trans (by rw [hzB0_0, hcB0_1]; rfl)
  have hzG0_1 : W⟦main_v132⟧ = (Cert.Hgcn.t0 Cert.KernelIdeal.HV.shiftBus Cert.KernelIdeal.HV.shiftGen A 1).zg := (acG0_1_eq W h_acG0_1).trans (by rw [hzG0_0, hcG0_1]; rfl)
  -- tap 2
  have hcB0_2 : W⟦main_v153⟧ = (Cert.Hgcn.t0 Cert.KernelIdeal.HV.shiftBus Cert.KernelIdeal.HV.shiftGen A 2).cb := (shB0_2_eq W h_shB0_2).trans (by rw [hcB0_1, hcG0_1, hv1, hv3]; rfl)
  have hcG0_2 : W⟦main_v163⟧ = (Cert.Hgcn.t0 Cert.KernelIdeal.HV.shiftBus Cert.KernelIdeal.HV.shiftGen A 2).cg := (shG0_2_eq W h_shG0_2).trans (by rw [hcB0_1]; rfl)
  have hzB0_2 : W⟦main_v172⟧ = (Cert.Hgcn.t0 Cert.KernelIdeal.HV.shiftBus Cert.KernelIdeal.HV.shiftGen A 2).zb := (acB0_2_eq W h_acB0_2).trans (by rw [hzB0_1, hcB0_2]; rfl)
  have hzG0_2 : W⟦main_v181⟧ = (Cert.Hgcn.t0 Cert.KernelIdeal.HV.shiftBus Cert.KernelIdeal.HV.shiftGen A 2).zg := (acG0_2_eq W h_acG0_2).trans (by rw [hzG0_1, hcG0_2]; rfl)
  -- tap 3
  have hcB0_3 : W⟦main_v202⟧ = (Cert.Hgcn.t0 Cert.KernelIdeal.HV.shiftBus Cert.KernelIdeal.HV.shiftGen A 3).cb := (shB0_3_eq W h_shB0_3).trans (by rw [hcB0_2, hcG0_2, hv1, hv3]; rfl)
  have hcG0_3 : W⟦main_v212⟧ = (Cert.Hgcn.t0 Cert.KernelIdeal.HV.shiftBus Cert.KernelIdeal.HV.shiftGen A 3).cg := (shG0_3_eq W h_shG0_3).trans (by rw [hcB0_2]; rfl)
  have hzB0_3 : W⟦main_v221⟧ = (Cert.Hgcn.t0 Cert.KernelIdeal.HV.shiftBus Cert.KernelIdeal.HV.shiftGen A 3).zb := (acB0_3_eq W h_acB0_3).trans (by rw [hzB0_2, hcB0_3]; rfl)
  have hzG0_3 : W⟦main_v230⟧ = (Cert.Hgcn.t0 Cert.KernelIdeal.HV.shiftBus Cert.KernelIdeal.HV.shiftGen A 3).zg := (acG0_3_eq W h_acG0_3).trans (by rw [hzG0_2, hcG0_3]; rfl)
  -- tap 4
  have hcB0_4 : W⟦main_v251⟧ = (Cert.Hgcn.t0 Cert.KernelIdeal.HV.shiftBus Cert.KernelIdeal.HV.shiftGen A 4).cb := (shB0_4_eq W h_shB0_4).trans (by rw [hcB0_3, hcG0_3, hv1, hv3]; rfl)
  have hcG0_4 : W⟦main_v261⟧ = (Cert.Hgcn.t0 Cert.KernelIdeal.HV.shiftBus Cert.KernelIdeal.HV.shiftGen A 4).cg := (shG0_4_eq W h_shG0_4).trans (by rw [hcB0_3]; rfl)
  have hzB0_4 : W⟦main_v270⟧ = (Cert.Hgcn.t0 Cert.KernelIdeal.HV.shiftBus Cert.KernelIdeal.HV.shiftGen A 4).zb := (acB0_4_eq W h_acB0_4).trans (by rw [hzB0_3, hcB0_4]; rfl)
  have hzG0_4 : W⟦main_v279⟧ = (Cert.Hgcn.t0 Cert.KernelIdeal.HV.shiftBus Cert.KernelIdeal.HV.shiftGen A 4).zg := (acG0_4_eq W h_acG0_4).trans (by rw [hzG0_3, hcG0_4]; rfl)
  have hxb1 : W⟦main_v280⟧ = Cert.Hgcn.xb1 Cert.KernelIdeal.HV.shiftBus Cert.KernelIdeal.HV.shiftGen A := (resB0_eq W h_resB0).trans (by rw [hxb0, hzB0_4]; rfl)
  have hxg1 : W⟦main_v281⟧ = Cert.Hgcn.xg1 Cert.KernelIdeal.HV.shiftBus Cert.KernelIdeal.HV.shiftGen A := (resG0_eq W h_resG0).trans (by rw [hxg0, hzG0_4]; rfl)
  -- layer 1: the statistics, the normalised and rectified activations, tap 0
  obtain ⟨hγB1, hβB1, hμB1, hcB1⟩ := bnPB1_eq W h_bnPB1
  have hqB1 := bnQB1_eq W h_bnQB1
  have hvB1 := bnSB1_eq W h_bnSB1 _ hcB1 hqB1
  have hyB1 : W⟦main_v309⟧ = (Cert.Hgcn.t1 Cert.KernelIdeal.HV.shiftBus Cert.KernelIdeal.HV.shiftGen A 0).cb :=
    (bnTB1_eq W h_bnTB1 _ _ _ _ hγB1 hβB1 hμB1 hvB1).trans (by rw [hxb1]; rfl)
  obtain ⟨hγG1, hβG1, hμG1, hcG1⟩ := bnPG1_eq W h_bnPG1
  have hqG1 := bnQG1_eq W h_bnQG1
  have hvG1 := bnSG1_eq W h_bnSG1 _ hcG1 hqG1
  have hyG1 : W⟦main_v337⟧ = (Cert.Hgcn.t1 Cert.KernelIdeal.HV.shiftBus Cert.KernelIdeal.HV.shiftGen A 0).cg :=
    (bnTG1_eq W h_bnTG1 _ _ _ _ hγG1 hβG1 hμG1 hvG1).trans (by rw [hxg1]; rfl)
  have hzB1_0 : W⟦main_v345⟧ = (Cert.Hgcn.t1 Cert.KernelIdeal.HV.shiftBus Cert.KernelIdeal.HV.shiftGen A 0).zb := (t0B1_eq W h_t0B1).trans (by rw [hyB1]; rfl)
  have hzG1_0 : W⟦main_v353⟧ = (Cert.Hgcn.t1 Cert.KernelIdeal.HV.shiftBus Cert.KernelIdeal.HV.shiftGen A 0).zg := (t0G1_eq W h_t0G1).trans (by rw [hyG1]; rfl)
  have hcB1_0 := hyB1
  have hcG1_0 := hyG1
  -- tap 1
  have hcB1_1 : W⟦main_v374⟧ = (Cert.Hgcn.t1 Cert.KernelIdeal.HV.shiftBus Cert.KernelIdeal.HV.shiftGen A 1).cb := (shB1_1_eq W h_shB1_1).trans (by rw [hcB1_0, hcG1_0, hv1, hv3]; rfl)
  have hcG1_1 : W⟦main_v384⟧ = (Cert.Hgcn.t1 Cert.KernelIdeal.HV.shiftBus Cert.KernelIdeal.HV.shiftGen A 1).cg := (shG1_1_eq W h_shG1_1).trans (by rw [hcB1_0]; rfl)
  have hzB1_1 : W⟦main_v393⟧ = (Cert.Hgcn.t1 Cert.KernelIdeal.HV.shiftBus Cert.KernelIdeal.HV.shiftGen A 1).zb := (acB1_1_eq W h_acB1_1).trans (by rw [hzB1_0, hcB1_1]; rfl)
  have hzG1_1 : W⟦main_v402⟧ = (Cert.Hgcn.t1 Cert.KernelIdeal.HV.shiftBus Cert.KernelIdeal.HV.shiftGen A 1).zg := (acG1_1_eq W h_acG1_1).trans (by rw [hzG1_0, hcG1_1]; rfl)
  -- tap 2
  have hcB1_2 : W⟦main_v423⟧ = (Cert.Hgcn.t1 Cert.KernelIdeal.HV.shiftBus Cert.KernelIdeal.HV.shiftGen A 2).cb := (shB1_2_eq W h_shB1_2).trans (by rw [hcB1_1, hcG1_1, hv1, hv3]; rfl)
  have hcG1_2 : W⟦main_v433⟧ = (Cert.Hgcn.t1 Cert.KernelIdeal.HV.shiftBus Cert.KernelIdeal.HV.shiftGen A 2).cg := (shG1_2_eq W h_shG1_2).trans (by rw [hcB1_1]; rfl)
  have hzB1_2 : W⟦main_v442⟧ = (Cert.Hgcn.t1 Cert.KernelIdeal.HV.shiftBus Cert.KernelIdeal.HV.shiftGen A 2).zb := (acB1_2_eq W h_acB1_2).trans (by rw [hzB1_1, hcB1_2]; rfl)
  have hzG1_2 : W⟦main_v451⟧ = (Cert.Hgcn.t1 Cert.KernelIdeal.HV.shiftBus Cert.KernelIdeal.HV.shiftGen A 2).zg := (acG1_2_eq W h_acG1_2).trans (by rw [hzG1_1, hcG1_2]; rfl)
  -- tap 3
  have hcB1_3 : W⟦main_v472⟧ = (Cert.Hgcn.t1 Cert.KernelIdeal.HV.shiftBus Cert.KernelIdeal.HV.shiftGen A 3).cb := (shB1_3_eq W h_shB1_3).trans (by rw [hcB1_2, hcG1_2, hv1, hv3]; rfl)
  have hcG1_3 : W⟦main_v482⟧ = (Cert.Hgcn.t1 Cert.KernelIdeal.HV.shiftBus Cert.KernelIdeal.HV.shiftGen A 3).cg := (shG1_3_eq W h_shG1_3).trans (by rw [hcB1_2]; rfl)
  have hzB1_3 : W⟦main_v491⟧ = (Cert.Hgcn.t1 Cert.KernelIdeal.HV.shiftBus Cert.KernelIdeal.HV.shiftGen A 3).zb := (acB1_3_eq W h_acB1_3).trans (by rw [hzB1_2, hcB1_3]; rfl)
  have hzG1_3 : W⟦main_v500⟧ = (Cert.Hgcn.t1 Cert.KernelIdeal.HV.shiftBus Cert.KernelIdeal.HV.shiftGen A 3).zg := (acG1_3_eq W h_acG1_3).trans (by rw [hzG1_2, hcG1_3]; rfl)
  -- tap 4
  have hcB1_4 : W⟦main_v521⟧ = (Cert.Hgcn.t1 Cert.KernelIdeal.HV.shiftBus Cert.KernelIdeal.HV.shiftGen A 4).cb := (shB1_4_eq W h_shB1_4).trans (by rw [hcB1_3, hcG1_3, hv1, hv3]; rfl)
  have hcG1_4 : W⟦main_v531⟧ = (Cert.Hgcn.t1 Cert.KernelIdeal.HV.shiftBus Cert.KernelIdeal.HV.shiftGen A 4).cg := (shG1_4_eq W h_shG1_4).trans (by rw [hcB1_3]; rfl)
  have hzB1_4 : W⟦main_v540⟧ = (Cert.Hgcn.t1 Cert.KernelIdeal.HV.shiftBus Cert.KernelIdeal.HV.shiftGen A 4).zb := (acB1_4_eq W h_acB1_4).trans (by rw [hzB1_3, hcB1_4]; rfl)
  have hzG1_4 : W⟦main_v549⟧ = (Cert.Hgcn.t1 Cert.KernelIdeal.HV.shiftBus Cert.KernelIdeal.HV.shiftGen A 4).zg := (acG1_4_eq W h_acG1_4).trans (by rw [hzG1_3, hcG1_4]; rfl)
  have hxb2 : W⟦main_v550⟧ = Cert.Hgcn.xb2 Cert.KernelIdeal.HV.shiftBus Cert.KernelIdeal.HV.shiftGen A := (resB1_eq W h_resB1).trans (by rw [hxb1, hzB1_4]; rfl)
  have hxg2 : W⟦main_v551⟧ = Cert.Hgcn.xg2 Cert.KernelIdeal.HV.shiftBus Cert.KernelIdeal.HV.shiftGen A := (resG1_eq W h_resG1).trans (by rw [hxg1, hzG1_4]; rfl)
  exact ⟨(outB_eq W h_outB).trans (by rw [hxb2]; rfl), (outG_eq W h_outG).trans (by rw [hxg2]; rfl)⟩

/-- The 23 argument arrays of a launch memory on a device. -/
def argsR (m : (ℓ : Loc nD τ sig) → Buf (Elt Ideal) ℓ) (c : Dev nD) : Cert.Hgcn.Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15), m ((c.tc : Thread nD τ).loc main_arg16), m ((c.tc : Thread nD τ).loc main_arg17), m ((c.tc : Thread nD τ).loc main_arg18), m ((c.tc : Thread nD τ).loc main_arg19), m ((c.tc : Thread nD τ).loc main_arg20), m ((c.tc : Thread nD τ).loc main_arg21), m ((c.tc : Thread nD τ).loc main_arg22)⟩

/-- The arguments of the final contents are the launch's. -/
theorem argsOf_after (m : (ℓ : Loc nD τ sig) → Buf (Elt Ideal) ℓ) (c : Dev nD) :
    argsOf (after ops (launchContents m c)) = argsR m c := by
  unfold argsOf argsR
  rw [kept_main_arg0, kept_main_arg1, kept_main_arg2, kept_main_arg3, kept_main_arg4, kept_main_arg5, kept_main_arg6, kept_main_arg7, kept_main_arg8, kept_main_arg9, kept_main_arg10, kept_main_arg11, kept_main_arg12, kept_main_arg13, kept_main_arg14, kept_main_arg15, kept_main_arg16, kept_main_arg17, kept_main_arg18, kept_main_arg19, kept_main_arg20, kept_main_arg21, kept_main_arg22]

/-- The reference runs, its two results are the network's two outputs of its argument arrays, and the arguments end as
    launched. -/
theorem value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v555) = Cert.Hgcn.outB Cert.KernelIdeal.HV.shiftBus Cert.KernelIdeal.HV.shiftGen (argsR m c)
      ∧ r.2.mem ((c.tc : Thread nD τ).loc main_v559) = Cert.Hgcn.outG Cert.KernelIdeal.HV.shiftBus Cert.KernelIdeal.HV.shiftGen (argsR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => by
    have HW : (stagesAll (F := Ideal)).Forall (Fix (after ops (launchContents m c))) := by
      rw [ops_eq_stages]; exact steps_all.forall_fix _
    obtain ⟨hB, hG⟩ := out_of_fix _ HW
    rw [argsOf_after] at hB hG
    exact ⟨(h c main_v555).trans hB, (h c main_v559).trans hG,
      (h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _),
      (h c main_arg6).trans (kept_main_arg6 _),
      (h c main_arg7).trans (kept_main_arg7 _),
      (h c main_arg8).trans (kept_main_arg8 _),
      (h c main_arg9).trans (kept_main_arg9 _),
      (h c main_arg10).trans (kept_main_arg10 _),
      (h c main_arg11).trans (kept_main_arg11 _),
      (h c main_arg12).trans (kept_main_arg12 _),
      (h c main_arg13).trans (kept_main_arg13 _),
      (h c main_arg14).trans (kept_main_arg14 _),
      (h c main_arg15).trans (kept_main_arg15 _),
      (h c main_arg16).trans (kept_main_arg16 _),
      (h c main_arg17).trans (kept_main_arg17 _),
      (h c main_arg18).trans (kept_main_arg18 _),
      (h c main_arg19).trans (kept_main_arg19 _),
      (h c main_arg20).trans (kept_main_arg20 _),
      (h c main_arg21).trans (kept_main_arg21 _),
      (h c main_arg22).trans (kept_main_arg22 _)⟩)
    (run_raw m ρ)

end Cert.ReferenceIdeal.HRun

end
-- ==== Proof.lean ====
/-
  The certificate of a two-type graph network (read-in layers, two residual blocks of batch-norm, leaky rectifier and
  five graph-filter taps, read-out layers) whose dense and pointwise stages run as twenty-eight row-tiled regions, against
  the same network as plain host operations. On the extended reals a change of float format is the identity and a
  matrix unit's product into a zero accumulator is the plain finite sum, so every region computes on its 4096 rows
  what the host computes on all rows, and the graph shifts and the batch-norm statistics are the same host
  operations in both programs: both results are the named stages outB / outG of the argument arrays.
-/
import proofs.«144873_j21182778704707_1_alg».proof.Defs
import proofs.«144873_j21182778704707_1_alg».proof.Proof.Gen.Kernel
import proofs.«144873_j21182778704707_1_alg».proof.Proof.Gen.Kernel.Frame
import proofs.«144873_j21182778704707_1_alg».proof.Proof.Gen.KernelIdeal
import proofs.«144873_j21182778704707_1_alg».proof.Proof.Gen.KernelIdeal.Frame
import proofs.«144873_j21182778704707_1_alg».proof.Proof.Gen.ReferenceIdeal
import proofs.«144873_j21182778704707_1_alg».proof.Proof.Gen.Pre_finite_inputs
import proofs.«144873_j21182778704707_1_alg».proof.Proof.KValue
import proofs.«144873_j21182778704707_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.HRun.frame m ρ

/-- Both idealized programs end with the named stages outB / outG of their argument arrays, which agree. -/
theorem algebraic : Cert.algebraic_KernelIdeal_ReferenceIdeal := by
  intro m ρ m' ρ' _ hagree
  refine ⟨_, _, Cert.KernelIdeal.HV.value m ρ, ?_⟩
  refine (θ_run Cert.ReferenceIdeal.defs _ _).mono (fun r h c => ?_) (Cert.ReferenceIdeal.HRun.value m' ρ')
  have e : Cert.ReferenceIdeal.HRun.argsR m' c = Cert.KernelIdeal.HV.argsK m c := by
    unfold Cert.ReferenceIdeal.HRun.argsR Cert.KernelIdeal.HV.argsK
    obtain ⟨h0, h1, h2, h3, h4, h5, h6, h7, h8, h9, h10, h11, h12, h13, h14, h15, h16, h17, h18, h19, h20, h21, h22⟩ := hagree c
    rw [h0, h1, h2, h3, h4, h5, h6, h7, h8, h9, h10, h11, h12, h13, h14, h15, h16, h17, h18, h19, h20, h21, h22]
  rw [← e]
  exact h c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
